-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v181) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x19 : Shape := ⟨2, ![50000, 19]⟩
abbrev S2x800000 : Shape := ⟨2, ![2, 800000]⟩
abbrev S19x64 : Shape := ⟨2, ![19, 64]⟩
abbrev S64 : Shape := ⟨1, ![64]⟩
abbrev S3x64x64 : Shape := ⟨3, ![3, 64, 64]⟩
abbrev S3x64 : Shape := ⟨2, ![3, 64]⟩
abbrev S_ : Shape := ⟨0, ![]⟩

class Facts : Prop where
  bcast_S_S50000x19 : S_.BroadcastsInDim S50000x19 (![] : Fin 0 → Fin S50000x19.rank)
  reducesTo_S50000x19_S_d0_1 : S50000x19.ReducesTo [0, 1] S_
  h_S_ : 0 < S_.numel
  bcast_S_S19x64 : S_.BroadcastsInDim S19x64 (![] : Fin 0 → Fin S19x64.rank)
  reducesTo_S19x64_S_d0_1 : S19x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part2 {F : FTy → Type} [FloatOps F] (main_arg8 : FVec F S3x64x64 .f32) (main_arg9 : FVec F S3x64 .f32) (main_arg10 : FVec F S3x64 .f32) (main_v33 : IVec S_ 1) : IVec S_ 1 :=
  let main_v34 : FVec F S3x64x64 .f32 := Host.absf main_arg8
  let main_cst_12 : FVec F S_ .f32 := constant S_ .f32 0x7F800000#32
  let main_v35 : FVec F S3x64x64 .f32 := broadcastInDim S3x64x64 ![] bcast_S_S3x64x64 main_cst_12
  let main_v36 : IVec S3x64x64 1 := cmpf .olt main_v34 main_v35
  let main_c_13 : IVec S_ 1 := constantI S_ 1 1#1
  let main_v37 : IVec S_ 1 := (fun x v => Host.reduce IntOp.andi x v reducesTo_S3x64x64_S_d0_1_2 h_S_) main_v36 main_c_13
  let main_v38 : IVec S_ 1 := andi main_v33 main_v37
  let main_v39 : FVec F S3x64 .f32 := Host.absf main_arg9
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_v44 : FVec F S3x64 .f32 := Host.absf main_arg10
  let main_cst_16 : FVec F S_ .f32 := constant S_ .f32 0x7F800000#32
  let main_v45 : FVec F S3x64 .f32 := broadcastInDim S3x64 ![] bcast_S_S3x64 main_cst_16
  let main_v46 : IVec S3x64 1 := cmpf .olt main_v44 main_v45
  let main_c_17 : IVec S_ 1 := constantI S_ 1 1#1
  let main_v47 : IVec S_ 1 := (fun x v => Host.reduce IntOp.andi x v reducesTo_S3x64_S_d0_1 h_S_) main_v46 main_c_17
  let main_v48 : IVec S_ 1 := andi main_v43 main_v47
  main_v48

def fn_part1 {F : FTy → Type} [FloatOps F] (main_arg5 : FVec F S64 .f32) (main_arg6 : FVec F S3x64x64 .f32) (main_arg7 : FVec F S3x64 .f32) (main_arg8 : FVec F S3x64x64 .f32) (main_arg9 : FVec F S3x64 .f32) (main_arg10 : FVec F S3x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S3x64x64 .f32 := Host.absf main_arg6
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x64 .f32 := Host.absf main_arg7
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x19 .f32) (main_arg1 : IVec S2x800000 32) (main_arg2 : FVec F S19x64 .f32) (main_arg3 : FVec F S64 .f32) (main_arg4 : FVec F S64 .f32) (main_arg5 : FVec F S64 .f32) (main_arg6 : FVec F S3x64x64 .f32) (main_arg7 : FVec F S3x64 .f32) (main_arg8 : FVec F S3x64x64 .f32) (main_arg9 : FVec F S3x64 .f32) (main_arg10 : FVec F S3x64 .f32) : IVec S_ 1 :=
  let main_v0 : FVec F S50000x19 .f32 := Host.absf main_arg0
  let main_cst : FVec F S_ .f32 := constant S_ .f32 0x7F800000#32
  let main_v1 : FVec F S50000x19 .f32 := broadcastInDim S50000x19 ![] bcast_S_S50000x19 main_cst
  let main_v2 : IVec S50000x19 1 := cmpf .olt main_v0 main_v1
  let main_c : IVec S_ 1 := constantI S_ 1 1#1
  let main_v3 : IVec S_ 1 := (fun x v => Host.reduce IntOp.andi x v reducesTo_S50000x19_S_d0_1 h_S_) main_v2 main_c
  let main_v4 : FVec F S19x64 .f32 := Host.absf main_arg2
  let main_cst_0 : FVec F S_ .f32 := constant S_ .f32 0x7F800000#32
  let main_v5 : FVec F S19x64 .f32 := broadcastInDim S19x64 ![] bcast_S_S19x64 main_cst_0
  let main_v6 : IVec S19x64 1 := cmpf .olt main_v4 main_v5
  let main_c_1 : IVec S_ 1 := constantI S_ 1 1#1
  let main_v7 : IVec S_ 1 := (fun x v => Host.reduce IntOp.andi x v reducesTo_S19x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S50000x19 : Shape := ⟨2, ![50000, 19]⟩
abbrev S2x800000 : Shape := ⟨2, ![2, 800000]⟩
abbrev S19x64 : Shape := ⟨2, ![19, 64]⟩
abbrev S64 : Shape := ⟨1, ![64]⟩
abbrev S3x64x64 : Shape := ⟨3, ![3, 64, 64]⟩
abbrev S3x64 : Shape := ⟨2, ![3, 64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x64 : Shape := ⟨2, ![1, 64]⟩
abbrev S50000x64 : Shape := ⟨2, ![50000, 64]⟩
abbrev S5000x19 : Shape := ⟨2, ![5000, 19]⟩
abbrev S5000x64 : Shape := ⟨2, ![5000, 64]⟩
abbrev S800000x64 : Shape := ⟨2, ![800000, 64]⟩
abbrev S1x64x64 : Shape := ⟨3, ![1, 64, 64]⟩
abbrev S64x64 : Shape := ⟨2, ![64, 64]⟩

abbrev nBuf : Space → Nat
  | .hbm => 128
  | .vmem => 87
  | .smem => 0
  | _ => 0

abbrev bufTy : (tb : Table) → Fin (tcTables nBuf tb) → BufTy
  | .hbm, ⟨0, _⟩ => ⟨S50000x19, .f32⟩
  | .hbm, ⟨1, _⟩ => ⟨S2x800000, .i32⟩
  | .hbm, ⟨2, _⟩ => ⟨S19x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S3x64x64, .f32⟩
  | .hbm, ⟨7, _⟩ => ⟨S3x64, .f32⟩
  | .hbm, ⟨8, _⟩ => ⟨S3x64x64, .f32⟩
  | .hbm, ⟨9, _⟩ => ⟨S3x64, .f32⟩
  | .hbm, ⟨10, _⟩ => ⟨S3x64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S1x64, .f32⟩
  | .hbm, ⟨26, _⟩ => ⟨S1x64, .f32⟩
  | .hbm, ⟨27, _⟩ => ⟨S1x64, .f32⟩
  | .hbm, ⟨28, _⟩ => ⟨S50000x64, .f32⟩
  | .hbm, ⟨29, _⟩ => ⟨S1x64, .f32⟩
  | .hbm, ⟨30, _⟩ => ⟨S1x64, .f32⟩
  | .hbm, ⟨31, _⟩ => ⟨S50000x64, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x64, .f32⟩
  | .hbm, ⟨41, _⟩ => ⟨S_, .f32⟩
  | .hbm, ⟨42, _⟩ => ⟨S50000x64, .f32⟩
  | .hbm, ⟨43, _⟩ => ⟨S800000x1, .i32⟩
  | .hbm, ⟨44, _⟩ => ⟨S50000x64, .f32⟩
  | .hbm, ⟨45, _⟩ => ⟨S50000x64, .f32⟩
  | .hbm, ⟨46, _⟩ => ⟨S50000x64, .f32⟩
  | .hbm, ⟨47, _⟩ => ⟨S1x64x64, .f32⟩
  | .hbm, ⟨48, _⟩ => ⟨S64x64, .f32⟩
  | .hbm, ⟨49, _⟩ => ⟨S1x64, .f32⟩
  | .hbm, ⟨50, _⟩ => ⟨S64, .f32⟩
  | .hbm, ⟨51, _⟩ => ⟨S1x64, .f32⟩
  | .hbm, ⟨52, _⟩ => ⟨S1x64, .f32⟩
  | .hbm, ⟨53, _⟩ => ⟨S64, .f32⟩
  | .hbm, ⟨54, _⟩ => ⟨S1x64, .f32⟩
  | .hbm, ⟨55, _⟩ => ⟨S1x64, .f32⟩
  | .hbm, ⟨56, _⟩ => ⟨S64, .f32⟩
  | .hbm, ⟨57, _⟩ => ⟨S1x64, .f32⟩
  | .hbm, ⟨58, _⟩ => ⟨S1x64x64, .f32⟩
  | .hbm, ⟨59, _⟩ => ⟨S64x64, .f32⟩
  | .hbm, ⟨60, _⟩ => ⟨S50000x64, .f32⟩
  | .hbm, ⟨61, _⟩ => ⟨S1x64, .f32⟩
  | .hbm, ⟨62, _⟩ => ⟨S1x64, .f32⟩
  | .hbm, ⟨63, _⟩ => ⟨S50000x64, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x64, .f32⟩
  | .hbm, ⟨73, _⟩ => ⟨S_, .f32⟩
  | .hbm, ⟨74, _⟩ => ⟨S50000x64, .f32⟩
  | .hbm, ⟨75, _⟩ => ⟨S800000x1, .i32⟩
  | .hbm, ⟨76, _⟩ => ⟨S50000x64, .f32⟩
  | .hbm, ⟨77, _⟩ => ⟨S50000x64, .f32⟩
  | .hbm, ⟨78, _⟩ => ⟨S50000x64, .f32⟩
  | .hbm, ⟨79, _⟩ => ⟨S1x64x64, .f32⟩
  | .hbm, ⟨80, _⟩ => ⟨S64x64, .f32⟩
  | .hbm, ⟨81, _⟩ => ⟨S1x64, .f32⟩
  | .hbm, ⟨82, _⟩ => ⟨S64, .f32⟩
  | .hbm, ⟨83, _⟩ => ⟨S1x64, .f32⟩
  | .hbm, ⟨84, _⟩ => ⟨S1x64, .f32⟩
  | .hbm, ⟨85, _⟩ => ⟨S64, .f32⟩
  | .hbm, ⟨86, _⟩ => ⟨S1x64, .f32⟩
  | .hbm, ⟨87, _⟩ => ⟨S1x64, .f32⟩
  | .hbm, ⟨88, _⟩ => ⟨S64, .f32⟩
  | .hbm, ⟨89, _⟩ => ⟨S1x64, .f32⟩
  | .hbm, ⟨90, _⟩ => ⟨S1x64x64, .f32⟩
  | .hbm, ⟨91, _⟩ => ⟨S64x64, .f32⟩
  | .hbm, ⟨92, _⟩ => ⟨S50000x64, .f32⟩
  | .hbm, ⟨93, _⟩ => ⟨S1x64, .f32⟩
  | .hbm, ⟨94, _⟩ => ⟨S1x64, .f32⟩
  | .hbm, ⟨95, _⟩ => ⟨S50000x64, .f32⟩
  | .hbm, ⟨96, _⟩ => ⟨S_, .i32⟩
  | .hbm, ⟨97, _⟩ => ⟨S800000, .i32⟩
  | .hbm, ⟨98, _⟩ => ⟨S800000, .i1⟩
  | .hbm, ⟨99, _⟩ => ⟨S_, .i32⟩
  | .hbm, ⟨100, _⟩ => ⟨S800000, .i32⟩
  | .hbm, ⟨101, _⟩ => ⟨S800000, .i32⟩
  | .hbm, ⟨102, _⟩ => ⟨S800000, .i32⟩
  | .hbm, ⟨103, _⟩ => ⟨S800000x1, .i32⟩
  | .hbm, ⟨104, _⟩ => ⟨S800000x64, .f32⟩
  | .hbm, ⟨105, _⟩ => ⟨S_, .f32⟩
  | .hbm, ⟨106, _⟩ => ⟨S50000x64, .f32⟩
  | .hbm, ⟨107, _⟩ => ⟨S800000x1, .i32⟩
  | .hbm, ⟨108, _⟩ => ⟨S50000x64, .f32⟩
  | .hbm, ⟨109, _⟩ => ⟨S50000x64, .f32⟩
  | .hbm, ⟨110, _⟩ => ⟨S50000x64, .f32⟩
  | .hbm, ⟨111, _⟩ => ⟨S1x64x64, .f32⟩
  | .hbm, ⟨112, _⟩ => ⟨S64x64, .f32⟩
  | .hbm, ⟨113, _⟩ => ⟨S1x64, .f32⟩
  | .hbm, ⟨114, _⟩ => ⟨S64, .f32⟩
  | .hbm, ⟨115, _⟩ => ⟨S1x64, .f32⟩
  | .hbm, ⟨116, _⟩ => ⟨S1x64, .f32⟩
  | .hbm, ⟨117, _⟩ => ⟨S64, .f32⟩
  | .hbm, ⟨118, _⟩ => ⟨S1x64, .f32⟩
  | .hbm, ⟨119, _⟩ => ⟨S1x64, .f32⟩
  | .hbm, ⟨120, _⟩ => ⟨S64, .f32⟩
  | .hbm, ⟨121, _⟩ => ⟨S1x64, .f32⟩
  | .hbm, ⟨122, _⟩ => ⟨S1x64x64, .f32⟩
  | .hbm, ⟨123, _⟩ => ⟨S64x64, .f32⟩
  | .hbm, ⟨124, _⟩ => ⟨S50000x64, .f32⟩
  | .hbm, ⟨125, _⟩ => ⟨S1x64, .f32⟩
  | .hbm, ⟨126, _⟩ => ⟨S1x64, .f32⟩
  | .hbm, ⟨127, _⟩ => ⟨S50000x64, .f32⟩
  | .local _ .vmem, ⟨0, _⟩ => ⟨S5000x19, .f32⟩
  | .local _ .vmem, ⟨1, _⟩ => ⟨S5000x19, .f32⟩
  | .local _ .vmem, ⟨2, _⟩ => ⟨S19x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | .local _ .vmem, ⟨24, _⟩ => ⟨S64x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S1x64, .f32⟩
  | .local _ .vmem, ⟨29, _⟩ => ⟨S1x64, .f32⟩
  | .local _ .vmem, ⟨30, _⟩ => ⟨S1x64, .f32⟩
  | .local _ .vmem, ⟨31, _⟩ => ⟨S5000x64, .f32⟩
  | .local _ .vmem, ⟨32, _⟩ => ⟨S5000x64, .f32⟩
  | .local _ .vmem, ⟨33, _⟩ => ⟨S1x64, .f32⟩
  | .local _ .vmem, ⟨34, _⟩ => ⟨S1x64, .f32⟩
  | .local _ .vmem, ⟨35, _⟩ => ⟨S1x64, .f32⟩
  | .local _ .vmem, ⟨36, _⟩ => ⟨S1x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S64x64, .f32⟩
  | .local _ .vmem, ⟨44, _⟩ => ⟨S1x64, .f32⟩
  | .local _ .vmem, ⟨45, _⟩ => ⟨S5000x64, .f32⟩
  | .local _ .vmem, ⟨46, _⟩ => ⟨S5000x64, .f32⟩
  | .local _ .vmem, ⟨47, _⟩ => ⟨S64x64, .f32⟩
  | .local _ .vmem, ⟨48, _⟩ => ⟨S5000x64, .f32⟩
  | .local _ .vmem, ⟨49, _⟩ => ⟨S5000x64, .f32⟩
  | .local _ .vmem, ⟨50, _⟩ => ⟨S1x64, .f32⟩
  | .local _ .vmem, ⟨51, _⟩ => ⟨S1x64, .f32⟩
  | .local _ .vmem, ⟨52, _⟩ => ⟨S1x64, .f32⟩
  | .local _ .vmem, ⟨53, _⟩ => ⟨S1x64, .f32⟩
  | .local _ .vmem, ⟨54, _⟩ => ⟨S5000x64, .f32⟩
  | .local _ .vmem, ⟨55, _⟩ => ⟨S5000x64, .f32⟩
  | .local _ .vmem, ⟨56, _⟩ => ⟨S1x64, .f32⟩
  | .local _ .vmem, ⟨57, _⟩ => ⟨S1x64, .f32⟩
  | .local _ .vmem, ⟨58, _⟩ => ⟨S1x64, .f32⟩
  | .local _ .vmem, ⟨59, _⟩ => ⟨S1x64, .f32⟩
  | .local _ .vmem, ⟨60, _⟩ => ⟨S5000x64, .f32⟩
  | .local _ .vmem, ⟨61, _⟩ => ⟨S5000x64, .f32⟩
  | .local _ .vmem, ⟨62, _⟩ => ⟨S5000x64, .f32⟩
  | .local _ .vmem, ⟨63, _⟩ => ⟨S5000x64, .f32⟩
  | .local _ .vmem, ⟨64, _⟩ => ⟨S5000x64, .f32⟩
  | .local _ .vmem, ⟨65, _⟩ => ⟨S5000x64, .f32⟩
  | .local _ .vmem, ⟨66, _⟩ => ⟨S64x64, .f32⟩
  | .local _ .vmem, ⟨67, _⟩ => ⟨S1x64, .f32⟩
  | .local _ .vmem, ⟨68, _⟩ => ⟨S5000x64, .f32⟩
  | .local _ .vmem, ⟨69, _⟩ => ⟨S5000x64, .f32⟩
  | .local _ .vmem, ⟨70, _⟩ => ⟨S64x64, .f32⟩
  | .local _ .vmem, ⟨71, _⟩ => ⟨S5000x64, .f32⟩
  | .local _ .vmem, ⟨72, _⟩ => ⟨S5000x64, .f32⟩
  | .local _ .vmem, ⟨73, _⟩ => ⟨S1x64, .f32⟩
  | .local _ .vmem, ⟨74, _⟩ => ⟨S1x64, .f32⟩
  | .local _ .vmem, ⟨75, _⟩ => ⟨S1x64, .f32⟩
  | .local _ .vmem, ⟨76, _⟩ => ⟨S1x64, .f32⟩
  | .local _ .vmem, ⟨77, _⟩ => ⟨S5000x64, .f32⟩
  | .local _ .vmem, ⟨78, _⟩ => ⟨S5000x64, .f32⟩
  | .local _ .vmem, ⟨79, _⟩ => ⟨S1x64, .f32⟩
  | .local _ .vmem, ⟨80, _⟩ => ⟨S1x64, .f32⟩
  | .local _ .vmem, ⟨81, _⟩ => ⟨S1x64, .f32⟩
  | .local _ .vmem, ⟨82, _⟩ => ⟨S1x64, .f32⟩
  | .local _ .vmem, ⟨83, _⟩ => ⟨S5000x64, .f32⟩
  | .local _ .vmem, ⟨84, _⟩ => ⟨S5000x64, .f32⟩
  | .local _ .vmem, ⟨85, _⟩ => ⟨S5000x64, .f32⟩
  | .local _ .vmem, ⟨86, _⟩ => ⟨S5000x64, .f32⟩
  | _, _ => ⟨S50000x19, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | _, _ => false

abbrev semScoped : Fin 0 → Bool
  | ⟨_, h⟩ => absurd h (Nat.not_lt_zero _)

abbrev dmaSemScoped : Fin 79 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | _ => false

abbrev sig : RefSig :=
  ofTc nBuf bufTy 0 79 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14_0 : Ref sig .tc := ⟨.hbm, 28, rfl⟩
abbrev main_v14_1 : Ref sig .tc := ⟨.hbm, 29, rfl⟩
abbrev main_v14_2 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41_0 : Ref sig .tc := ⟨.hbm, 60, rfl⟩
abbrev main_v41_1 : Ref sig .tc := ⟨.hbm, 61, rfl⟩
abbrev main_v41_2 : Ref sig .tc := ⟨.hbm, 62, rfl⟩
abbrev main_v42 : Ref sig .tc := ⟨.hbm, 63, rfl⟩
abbrev main_c_4 : Ref sig .tc := ⟨.hbm, 64, rfl⟩
abbrev main_v43 : Ref sig .tc := ⟨.hbm, 65, rfl⟩
abbrev main_v44 : Ref sig .tc := ⟨.hbm, 66, rfl⟩
abbrev main_c_5 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_6 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68_0 : Ref sig .tc := ⟨.hbm, 92, rfl⟩
abbrev main_v68_1 : Ref sig .tc := ⟨.hbm, 93, rfl⟩
abbrev main_v68_2 : Ref sig .tc := ⟨.hbm, 94, rfl⟩
abbrev main_v69 : Ref sig .tc := ⟨.hbm, 95, rfl⟩
abbrev main_c_7 : Ref sig .tc := ⟨.hbm, 96, rfl⟩
abbrev main_v70 : Ref sig .tc := ⟨.hbm, 97, rfl⟩
abbrev main_v71 : Ref sig .tc := ⟨.hbm, 98, rfl⟩
abbrev main_c_8 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_9 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95_0 : Ref sig .tc := ⟨.hbm, 124, rfl⟩
abbrev main_v95_1 : Ref sig .tc := ⟨.hbm, 125, rfl⟩
abbrev main_v95_2 : Ref sig .tc := ⟨.hbm, 126, rfl⟩
abbrev main_v96 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc2_stg6_0 : Ref sig .tc := ⟨.vmem, 27, rfl⟩
abbrev cc2_stg7_0 : Ref sig .tc := ⟨.vmem, 28, rfl⟩
abbrev cc2_scratch0 : Ref sig .tc := ⟨.vmem, 29, rfl⟩
abbrev cc2_scratch1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg5_1 : Ref sig .tc := ⟨.vmem, 38, rfl⟩
abbrev cc3_stg6_0 : Ref sig .tc := ⟨.vmem, 39, rfl⟩
abbrev cc3_stg6_1 : Ref sig .tc := ⟨.vmem, 40, rfl⟩
abbrev cc4_stg0_0 : Ref sig .tc := ⟨.vmem, 41, rfl⟩
abbrev cc4_stg0_1 : Ref sig .tc := ⟨.vmem, 42, rfl⟩
abbrev cc4_stg1_0 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg3_1 : Ref sig .tc := ⟨.vmem, 46, rfl⟩
abbrev cc4_stg4_0 : Ref sig .tc := ⟨.vmem, 47, rfl⟩
abbrev cc4_stg5_0 : Ref sig .tc := ⟨.vmem, 48, rfl⟩
abbrev cc4_stg5_1 : Ref sig .tc := ⟨.vmem, 49, rfl⟩
abbrev cc4_stg6_0 : Ref sig .tc := ⟨.vmem, 50, rfl⟩
abbrev cc4_stg7_0 : Ref sig .tc := ⟨.vmem, 51, rfl⟩
abbrev cc4_scratch0 : Ref sig .tc := ⟨.vmem, 52, rfl⟩
abbrev cc4_scratch1 : Ref sig .tc := ⟨.vmem, 53, rfl⟩
abbrev cc5_stg0_0 : Ref sig .tc := ⟨.vmem, 54, rfl⟩
abbrev cc5_stg0_1 : Ref sig .tc := ⟨.vmem, 55, rfl⟩
abbrev cc5_stg1_0 : Ref sig .tc := ⟨.vmem, 56, rfl⟩
abbrev cc5_stg2_0 : Ref sig .tc := ⟨.vmem, 57, rfl⟩
abbrev cc5_stg3_0 : Ref sig .tc := ⟨.vmem, 58, rfl⟩
abbrev cc5_stg4_0 : Ref sig .tc := ⟨.vmem, 59, rfl⟩
abbrev cc5_stg5_0 : Ref sig .tc := ⟨.vmem, 60, rfl⟩
abbrev cc5_stg5_1 : Ref sig .tc := ⟨.vmem, 61, rfl⟩
abbrev cc5_stg6_0 : Ref sig .tc := ⟨.vmem, 62, rfl⟩
abbrev cc5_stg6_1 : Ref sig .tc := ⟨.vmem, 63, rfl⟩
abbrev cc6_stg0_0 : Ref sig .tc := ⟨.vmem, 64, rfl⟩
abbrev cc6_stg0_1 : Ref sig .tc := ⟨.vmem, 65, rfl⟩
abbrev cc6_stg1_0 : Ref sig .tc := ⟨.vmem, 66, rfl⟩
abbrev cc6_stg2_0 : Ref sig .tc := ⟨.vmem, 67, rfl⟩
abbrev cc6_stg3_0 : Ref sig .tc := ⟨.vmem, 68, rfl⟩
abbrev cc6_stg3_1 : Ref sig .tc := ⟨.vmem, 69, rfl⟩
abbrev cc6_stg4_0 : Ref sig .tc := ⟨.vmem, 70, rfl⟩
abbrev cc6_stg5_0 : Ref sig .tc := ⟨.vmem, 71, rfl⟩
abbrev cc6_stg5_1 : Ref sig .tc := ⟨.vmem, 72, rfl⟩
abbrev cc6_stg6_0 : Ref sig .tc := ⟨.vmem, 73, rfl⟩
abbrev cc6_stg7_0 : Ref sig .tc := ⟨.vmem, 74, rfl⟩
abbrev cc6_scratch0 : Ref sig .tc := ⟨.vmem, 75, rfl⟩
abbrev cc6_scratch1 : Ref sig .tc := ⟨.vmem, 76, rfl⟩
abbrev cc7_stg0_0 : Ref sig .tc := ⟨.vmem, 77, rfl⟩
abbrev cc7_stg0_1 : Ref sig .tc := ⟨.vmem, 78, rfl⟩
abbrev cc7_stg1_0 : Ref sig .tc := ⟨.vmem, 79, rfl⟩
abbrev cc7_stg2_0 : Ref sig .tc := ⟨.vmem, 80, rfl⟩
abbrev cc7_stg3_0 : Ref sig .tc := ⟨.vmem, 81, rfl⟩
abbrev cc7_stg4_0 : Ref sig .tc := ⟨.vmem, 82, rfl⟩
abbrev cc7_stg5_0 : Ref sig .tc := ⟨.vmem, 83, rfl⟩
abbrev cc7_stg5_1 : Ref sig .tc := ⟨.vmem, 84, rfl⟩
abbrev cc7_stg6_0 : Ref sig .tc := ⟨.vmem, 85, rfl⟩
abbrev cc7_stg6_1 : Ref sig .tc := ⟨.vmem, 86, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem5_0 : DmaSem sig := 23
abbrev cc2_sem5_1 : DmaSem sig := 24
abbrev cc2_sem6_0 : DmaSem sig := 25
abbrev cc2_sem7_0 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem5_1 : DmaSem sig := 34
abbrev cc3_sem6_0 : DmaSem sig := 35
abbrev cc3_sem6_1 : DmaSem sig := 36
abbrev cc4_sem0_0 : DmaSem sig := 37
abbrev cc4_sem0_1 : DmaSem sig := 38
abbrev cc4_sem1_0 : DmaSem sig := 39
abbrev cc4_sem2_0 : DmaSem sig := 40
abbrev cc4_sem3_0 : DmaSem sig := 41
abbrev cc4_sem3_1 : DmaSem sig := 42
abbrev cc4_sem4_0 : DmaSem sig := 43
abbrev cc4_sem5_0 : DmaSem sig := 44
abbrev cc4_sem5_1 : DmaSem sig := 45
abbrev cc4_sem6_0 : DmaSem sig := 46
abbrev cc4_sem7_0 : DmaSem sig := 47
abbrev cc5_sem0_0 : DmaSem sig := 48
abbrev cc5_sem0_1 : DmaSem sig := 49
abbrev cc5_sem1_0 : DmaSem sig := 50
abbrev cc5_sem2_0 : DmaSem sig := 51
abbrev cc5_sem3_0 : DmaSem sig := 52
abbrev cc5_sem4_0 : DmaSem sig := 53
abbrev cc5_sem5_0 : DmaSem sig := 54
abbrev cc5_sem5_1 : DmaSem sig := 55
abbrev cc5_sem6_0 : DmaSem sig := 56
abbrev cc5_sem6_1 : DmaSem sig := 57
abbrev cc6_sem0_0 : DmaSem sig := 58
abbrev cc6_sem0_1 : DmaSem sig := 59
abbrev cc6_sem1_0 : DmaSem sig := 60
abbrev cc6_sem2_0 : DmaSem sig := 61
abbrev cc6_sem3_0 : DmaSem sig := 62
abbrev cc6_sem3_1 : DmaSem sig := 63
abbrev cc6_sem4_0 : DmaSem sig := 64
abbrev cc6_sem5_0 : DmaSem sig := 65
abbrev cc6_sem5_1 : DmaSem sig := 66
abbrev cc6_sem6_0 : DmaSem sig := 67
abbrev cc6_sem7_0 : DmaSem sig := 68
abbrev cc7_sem0_0 : DmaSem sig := 69
abbrev cc7_sem0_1 : DmaSem sig := 70
abbrev cc7_sem1_0 : DmaSem sig := 71
abbrev cc7_sem2_0 : DmaSem sig := 72
abbrev cc7_sem3_0 : DmaSem sig := 73
abbrev cc7_sem4_0 : DmaSem sig := 74
abbrev cc7_sem5_0 : DmaSem sig := 75
abbrev cc7_sem5_1 : DmaSem sig := 76
abbrev cc7_sem6_0 : DmaSem sig := 77
abbrev cc7_sem6_1 : DmaSem sig := 78

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v26 : BitVec 1 := Scalar.cmpi .eq arg0 c9_i32
  let v27 : BitVec 32 := Scalar.extui v26
  let c0_i32_18 : BitVec 32 := 0#32
  let v28 : BitVec 1 := Scalar.cmpi .ne v27 c0_i32_18
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x19 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S19x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v34 : BitVec 1 := Scalar.cmpi .eq arg0 c9_i32
  let v35 : BitVec 32 := Scalar.extui v34
  let c0_i32_23 : BitVec 32 := 0#32
  let v36 : BitVec 1 := Scalar.cmpi .ne v35 c0_i32_23
  v36

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v34 : BitVec 1 := Scalar.cmpi .eq arg0 c9_i32
  let v35 : BitVec 32 := Scalar.extui v34
  let c0_i32_23 : BitVec 32 := 0#32
  let v36 : BitVec 1 := Scalar.cmpi .ne v35 c0_i32_23
  v36

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S5000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def k6_cond2 (i : grid6.Coords) : BitVec 1 :=
  let arg0 : BitVec 32 := BitVec.ofNat 32 (i 0).val
  let c9_i32 : BitVec 32 := 9#32
  let v34 : BitVec 1 := Scalar.cmpi .eq arg0 c9_i32
  let v35 : BitVec 32 := Scalar.extui v34
  let c0_i32_23 : BitVec 32 := 0#32
  let v36 : BitVec 1 := Scalar.cmpi .ne v35 c0_i32_23
  v36

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S64x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 1 → Memref sig .tc .vmem S1x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x64 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S5000x64 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S5000x19_S5000x19_0_0 : ∀ a, (![0, 0] : Fin 2 → Nat) a + S5000x19.size a ≤ S5000x19.size a
  h_S5000x19 : 0 < S5000x19.numel
  inb_S19x64_S19x64_0_0 : ∀ a, (![0, 0] : Fin 2 → Nat) a + S19x64.size a ≤ S19x64.size a
  h_S19x64 : 0 < S19x64.numel
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  reduces_S5000x64_S64 : S5000x64.Reduces [0] S64
  shapeCasts_S5000x64_S5000x64 : S5000x64.ShapeCasts S5000x64
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  scatter_S50000_S800000x1_S800000_n_0_0_1_wf : ScatterDims.WF S50000 S800000x1 S800000 [] [0] [0] 1
  dot_S5000x19_S19x64_S5000x64_1_0_0_1_n_n_wf : DotDims.WF S5000x19 S19x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x19.size a ≤ S50000x19.size a
  hwx0_0 : ∀ i : grid0.Coords, EltTy.bits .f32 = 32 ∨ (Rect.block (s := S50000x19) S5000x19.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S19x64.size a ≤ S19x64.size a
  hwx0_1 : ∀ i : grid0.Coords, EltTy.bits .f32 = 32 ∨ (Rect.block (s := S19x64) S19x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S50000x64.size a
  hwx3_6 : ∀ i : grid3.Coords, EltTy.bits .f32 = 32 ∨ (Rect.block (s := S50000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S50000x64.size a
  hwx4_3 : ∀ i : grid4.Coords, EltTy.bits .f32 = 32 ∨ (Rect.block (s := S50000x64) S5000x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S50000x64.size a
  hwx4_5 : ∀ i : grid4.Coords, EltTy.bits .f32 = 32 ∨ (Rect.block (s := S50000x64) S5000x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x64.size a ≤ S1x64.size a
  hwx4_7 : ∀ i : grid4.Coords, EltTy.bits .f32 = 32 ∨ (Rect.block (s := S1x64) S1x64.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S50000x64.size a
  hwx5_5 : ∀ i : grid5.Coords, EltTy.bits .f32 = 32 ∨ (Rect.block (s := S50000x64) S5000x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x64.size a ≤ S50000x64.size a
  hwx5_6 : ∀ i : grid5.Coords, EltTy.bits .f32 = 32 ∨ (Rect.block (s := S50000x64) S5000x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S50000x64.size a
  hwx6_3 : ∀ i : grid6.Coords, EltTy.bits .f32 = 32 ∨ (Rect.block (s := S50000x64) S5000x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64x64.size a ≤ S64x64.size a
  hwx6_4 : ∀ i : grid6.Coords, EltTy.bits .f32 = 32 ∨ (Rect.block (s := S64x64) S64x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x64.size a ≤ S50000x64.size a
  hwx6_5 : ∀ i : grid6.Coords, EltTy.bits .f32 = 32 ∨ (Rect.block (s := S50000x64) S5000x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x64.size a ≤ S1x64.size a
  hwx6_6 : ∀ i : grid6.Coords, EltTy.bits .f32 = 32 ∨ (Rect.block (s := S1x64) S1x64.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x64.size a ≤ S1x64.size a
  hwx6_7 : ∀ i : grid6.Coords, EltTy.bits .f32 = 32 ∨ (Rect.block (s := S1x64) S1x64.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x64.size a ≤ S50000x64.size a
  hwx7_5 : ∀ i : grid7.Coords, EltTy.bits .f32 = 32 ∨ (Rect.block (s := S50000x64) S5000x64.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S5000x64.size a ≤ S50000x64.size a
  hwx7_6 : ∀ i : grid7.Coords, EltTy.bits .f32 = 32 ∨ (Rect.block (s := S50000x64) S5000x64.size (cc7_transform_6 i) (hinb7_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x19_S19x64_S5000x64_1_0_0_1_n_n : DotDims S5000x19 S19x64 S5000x64 where
  lhsContracting := [1]
  rhsContracting := [0]
  lhsNonContracting := [0]
  rhsNonContracting := [1]
  lhsBatch := []
  rhsBatch := []
  wf := dot_S5000x19_S19x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x19.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S19x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14_0) S5000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14_1) S1x64.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14_2) S1x64.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v14_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14_1) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14_2) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v27) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v15) S5000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v40) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41_0) S5000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v41_1) S1x64.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v41_2) S1x64.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun i => !(k2_cond2 i == 1#1) | 7 => fun i => !(k2_cond2 i == 1#1) | ⟨_ + 8, h⟩ => absurd h (Nat.not_lt.2 (Nat.le_add_left _ _))

abbrev win3_0 : Pipeline.Window sig grid3 :=
  Pipeline.Window.ofSpec (Memref.whole main_v41_0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41_1) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v41_2) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v35) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v38) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v15) S5000x64.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v42) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v54) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v56) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v42) S5000x64.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v67) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v68_0) S5000x64.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v68_1) S1x64.size cc4_transform_6 reads4_6 true true 1 stage4_6 sem4_6
    hrank4 hreads4_6 hinb4_6 nbuf4_6 (Memref.isWhole_whole _) hwx4_6 hstage4_6

abbrev win4_7 : Pipeline.Window sig grid4 :=
  Pipeline.Window.ofSpec (Memref.whole main_v68_2) S1x64.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev idle4 : Fin 8 → grid4.Coords → Bool := fun | 0 => fun _ => false | 1 => fun _ => false | 2 => fun _ => false | 3 => fun _ => false | 4 => fun _ => false | 5 => fun _ => false | 6 => fun i => !(k4_cond2 i == 1#1) | 7 => fun i => !(k4_cond2 i == 1#1) | ⟨_ + 8, h⟩ => absurd h (Nat.not_lt.2 (Nat.le_add_left _ _))

abbrev win5_0 : Pipeline.Window sig grid5 :=
  Pipeline.Window.ofSpec (Memref.whole main_v68_0) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v68_1) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v68_2) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v62) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v65) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v42) S5000x64.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v69) S5000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v81) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v83) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v86) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v69) S5000x64.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v94) S64x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v95_0) S5000x64.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v95_1) S1x64.size cc6_transform_6 reads6_6 true true 1 stage6_6 sem6_6
    hrank6 hreads6_6 hinb6_6 nbuf6_6 (Memref.isWhole_whole _) hwx6_6 hstage6_6

abbrev win6_7 : Pipeline.Window sig grid6 :=
  Pipeline.Window.ofSpec (Memref.whole main_v95_2) S1x64.size cc6_transform_7 reads6_7 true true 1 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev idle6 : Fin 8 → grid6.Coords → Bool := fun | 0 => fun _ => false | 1 => fun _ => false | 2 => fun _ => false | 3 => fun _ => false | 4 => fun _ => false | 5 => fun _ => false | 6 => fun i => !(k6_cond2 i == 1#1) | 7 => fun i => !(k6_cond2 i == 1#1) | ⟨_ + 8, h⟩ => absurd h (Nat.not_lt.2 (Nat.le_add_left _ _))

abbrev win7_0 : Pipeline.Window sig grid7 :=
  Pipeline.Window.ofSpec (Memref.whole main_v95_0) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v95_1) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v95_2) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v89) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v92) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v69) S5000x64.size cc7_transform_5 reads7_5 false false 2 stage7_5 sem7_5
    hrank7 hreads7_5 hinb7_5 nbuf7_5 (Memref.isWhole_whole _) hwx7_5 hstage7_5

abbrev win7_6 : Pipeline.Window sig grid7 :=
  Pipeline.Window.ofSpec (Memref.whole main_v96) S5000x64.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

class Facts : Prop extends Facts₀ where

variable [Facts]
-- ==== ReferenceIdeal.lean ====
abbrev S50000x19 : Shape := ⟨2, ![50000, 19]⟩
abbrev S2x800000 : Shape := ⟨2, ![2, 800000]⟩
abbrev S19x64 : Shape := ⟨2, ![19, 64]⟩
abbrev S64 : Shape := ⟨1, ![64]⟩
abbrev S3x64x64 : Shape := ⟨3, ![3, 64, 64]⟩
abbrev S3x64 : Shape := ⟨2, ![3, 64]⟩
abbrev S1x800000 : Shape := ⟨2, ![1, 800000]⟩
abbrev S800000 : Shape := ⟨1, ![800000]⟩
abbrev S50000x64 : Shape := ⟨2, ![50000, 64]⟩
abbrev S1x64 : Shape := ⟨2, ![1, 64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S1x64x64 : Shape := ⟨3, ![1, 64, 64]⟩
abbrev S64x64 : Shape := ⟨2, ![64, 64]⟩

abbrev nBuf : Space → Nat
  | .hbm => 313
  | .vmem => 0
  | .smem => 0
  | _ => 0

abbrev hbmTy0_0 (i : Nat) : BufTy := match i % 128 with
  | 0 => ⟨S50000x19, .f32⟩
  | 1 => ⟨S2x800000, .i32⟩
  | 2 => ⟨S19x64, .f32⟩
  | 3 => ⟨S64, .f32⟩
  | 4 => ⟨S64, .f32⟩
  | 5 => ⟨S64, .f32⟩
  | 6 => ⟨S3x64x64, .f32⟩
  | 7 => ⟨S3x64, .f32⟩
  | 8 => ⟨S3x64x64, .f32⟩
  | 9 => ⟨S3x64, .f32⟩
  | 10 => ⟨S3x64, .f32⟩
  | 11 => ⟨S1x800000, .i32⟩
  | 12 => ⟨S800000, .i32⟩
  | 13 => ⟨S1x800000, .i32⟩
  | 14 => ⟨S800000, .i32⟩
  | 15 => ⟨S50000x64, .f32⟩
  | 16 => ⟨S1x64, .f32⟩
  | 17 => ⟨S50000x64, .f32⟩
  | 18 => ⟨S50000x64, .f32⟩
  | 19 => ⟨S_, .f32⟩
  | 20 => ⟨S64, .f32⟩
  | 21 => ⟨S_, .f32⟩
  | 22 => ⟨S64, .f32⟩
  | 23 => ⟨S64, .f32⟩
  | 24 => ⟨S_, .i32⟩
  | 25 => ⟨S_, .f32⟩
  | 26 => ⟨S64, .f32⟩
  | 27 => ⟨S1x64, .f32⟩
  | 28 => ⟨S_, .f32⟩
  | 29 => ⟨S1x64, .f32⟩
  | 30 => ⟨S1x64, .f32⟩
  | 31 => ⟨S50000x64, .f32⟩
  | 32 => ⟨S50000x64, .f32⟩
  | 33 => ⟨S50000x64, .f32⟩
  | 34 => ⟨S_, .f32⟩
  | 35 => ⟨S_, .f32⟩
  | 36 => ⟨S_, .f32⟩
  | 37 => ⟨S_, .f32⟩
  | 38 => ⟨S64, .f32⟩
  | 39 => ⟨S64, .f32⟩
  | 40 => ⟨S64, .f32⟩
  | 41 => ⟨S_, .f32⟩
  | 42 => ⟨S_, .i1⟩
  | 43 => ⟨S_, .f32⟩
  | 44 => ⟨S_, .f32⟩
  | 45 => ⟨S64, .f32⟩
  | 46 => ⟨S64, .f32⟩
  | 47 => ⟨S1x64, .f32⟩
  | 48 => ⟨S50000x64, .f32⟩
  | 49 => ⟨S50000x64, .f32⟩
  | 50 => ⟨S_, .f32⟩
  | 51 => ⟨S64, .f32⟩
  | 52 => ⟨S64, .f32⟩
  | 53 => ⟨S64, .f32⟩
  | 54 => ⟨S1x64, .f32⟩
  | 55 => ⟨S50000x64, .f32⟩
  | 56 => ⟨S50000x64, .f32⟩
  | 57 => ⟨S1x64, .f32⟩
  | 58 => ⟨S50000x64, .f32⟩
  | 59 => ⟨S50000x64, .f32⟩
  | 60 => ⟨S1x64, .f32⟩
  | 61 => ⟨S50000x64, .f32⟩
  | 62 => ⟨S50000x64, .f32⟩
  | 63 => ⟨S_, .f32⟩
  | 64 => ⟨S50000x64, .f32⟩
  | 65 => ⟨S50000x64, .f32⟩
  | 66 => ⟨S_, .f32⟩
  | 67 => ⟨S800000, .f32⟩
  | 68 => ⟨S_, .f32⟩
  | 69 => ⟨S50000, .f32⟩
  | 70 => ⟨S800000x1, .i32⟩
  | 71 => ⟨S50000, .f32⟩
  | 72 => ⟨S_, .f32⟩
  | 73 => ⟨S50000, .f32⟩
  | 74 => ⟨S50000, .f32⟩
  | 75 => ⟨S50000x1, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x64, .f32⟩
  | 85 => ⟨S_, .f32⟩
  | 86 => ⟨S50000x64, .f32⟩
  | 87 => ⟨S800000x1, .i32⟩
  | 88 => ⟨S50000x64, .f32⟩
  | 89 => ⟨S50000x64, .f32⟩
  | 90 => ⟨S50000x64, .f32⟩
  | 91 => ⟨S1x64x64, .f32⟩
  | 92 => ⟨S64x64, .f32⟩
  | 93 => ⟨S50000x64, .f32⟩
  | 94 => ⟨S1x64, .f32⟩
  | 95 => ⟨S64, .f32⟩
  | 96 => ⟨S1x64, .f32⟩
  | 97 => ⟨S50000x64, .f32⟩
  | 98 => ⟨S50000x64, .f32⟩
  | 99 => ⟨S1x64x64, .f32⟩
  | 100 => ⟨S64x64, .f32⟩
  | 101 => ⟨S50000x64, .f32⟩
  | 102 => ⟨S50000x64, .f32⟩
  | 103 => ⟨S1x64, .f32⟩
  | 104 => ⟨S64, .f32⟩
  | 105 => ⟨S1x64, .f32⟩
  | 106 => ⟨S64, .f32⟩
  | 107 => ⟨S_, .f32⟩
  | 108 => ⟨S64, .f32⟩
  | 109 => ⟨S_, .f32⟩
  | 110 => ⟨S64, .f32⟩
  | 111 => ⟨S64, .f32⟩
  | 112 => ⟨S_, .i32⟩
  | 113 => ⟨S_, .f32⟩
  | 114 => ⟨S64, .f32⟩
  | 115 => ⟨S1x64, .f32⟩
  | 116 => ⟨S_, .f32⟩
  | 117 => ⟨S1x64, .f32⟩
  | 118 => ⟨S1x64, .f32⟩
  | 119 => ⟨S50000x64, .f32⟩
  | 120 => ⟨S50000x64, .f32⟩
  | 121 => ⟨S50000x64, .f32⟩
  | 122 => ⟨S_, .f32⟩
  | 123 => ⟨S_, .f32⟩
  | 124 => ⟨S_, .f32⟩
  | 125 => ⟨S_, .f32⟩
  | 126 => ⟨S64, .f32⟩
  | 127 => ⟨S64, .f32⟩
  | _ => ⟨S50000x19, .f32⟩

abbrev hbmTy0_1 (i : Nat) : BufTy := match i % 128 with
  | 0 => ⟨S64, .f32⟩
  | 1 => ⟨S_, .f32⟩
  | 2 => ⟨S_, .i1⟩
  | 3 => ⟨S_, .f32⟩
  | 4 => ⟨S_, .f32⟩
  | 5 => ⟨S64, .f32⟩
  | 6 => ⟨S64, .f32⟩
  | 7 => ⟨S1x64, .f32⟩
  | 8 => ⟨S50000x64, .f32⟩
  | 9 => ⟨S50000x64, .f32⟩
  | 10 => ⟨S_, .f32⟩
  | 11 => ⟨S64, .f32⟩
  | 12 => ⟨S64, .f32⟩
  | 13 => ⟨S64, .f32⟩
  | 14 => ⟨S1x64, .f32⟩
  | 15 => ⟨S50000x64, .f32⟩
  | 16 => ⟨S50000x64, .f32⟩
  | 17 => ⟨S1x64, .f32⟩
  | 18 => ⟨S50000x64, .f32⟩
  | 19 => ⟨S50000x64, .f32⟩
  | 20 => ⟨S1x64, .f32⟩
  | 21 => ⟨S50000x64, .f32⟩
  | 22 => ⟨S50000x64, .f32⟩
  | 23 => ⟨S_, .f32⟩
  | 24 => ⟨S50000x64, .f32⟩
  | 25 => ⟨S50000x64, .f32⟩
  | 26 => ⟨S50000x64, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x64, .f32⟩
  | 36 => ⟨S_, .f32⟩
  | 37 => ⟨S50000x64, .f32⟩
  | 38 => ⟨S800000x1, .i32⟩
  | 39 => ⟨S50000x64, .f32⟩
  | 40 => ⟨S50000x64, .f32⟩
  | 41 => ⟨S50000x64, .f32⟩
  | 42 => ⟨S1x64x64, .f32⟩
  | 43 => ⟨S64x64, .f32⟩
  | 44 => ⟨S50000x64, .f32⟩
  | 45 => ⟨S1x64, .f32⟩
  | 46 => ⟨S64, .f32⟩
  | 47 => ⟨S1x64, .f32⟩
  | 48 => ⟨S50000x64, .f32⟩
  | 49 => ⟨S50000x64, .f32⟩
  | 50 => ⟨S1x64x64, .f32⟩
  | 51 => ⟨S64x64, .f32⟩
  | 52 => ⟨S50000x64, .f32⟩
  | 53 => ⟨S50000x64, .f32⟩
  | 54 => ⟨S1x64, .f32⟩
  | 55 => ⟨S64, .f32⟩
  | 56 => ⟨S1x64, .f32⟩
  | 57 => ⟨S64, .f32⟩
  | 58 => ⟨S_, .f32⟩
  | 59 => ⟨S64, .f32⟩
  | 60 => ⟨S_, .f32⟩
  | 61 => ⟨S64, .f32⟩
  | 62 => ⟨S64, .f32⟩
  | 63 => ⟨S_, .i32⟩
  | 64 => ⟨S_, .f32⟩
  | 65 => ⟨S64, .f32⟩
  | 66 => ⟨S1x64, .f32⟩
  | 67 => ⟨S_, .f32⟩
  | 68 => ⟨S1x64, .f32⟩
  | 69 => ⟨S1x64, .f32⟩
  | 70 => ⟨S50000x64, .f32⟩
  | 71 => ⟨S50000x64, .f32⟩
  | 72 => ⟨S50000x64, .f32⟩
  | 73 => ⟨S_, .f32⟩
  | 74 => ⟨S_, .f32⟩
  | 75 => ⟨S_, .f32⟩
  | 76 => ⟨S_, .f32⟩
  | 77 => ⟨S64, .f32⟩
  | 78 => ⟨S64, .f32⟩
  | 79 => ⟨S64, .f32⟩
  | 80 => ⟨S_, .f32⟩
  | 81 => ⟨S_, .i1⟩
  | 82 => ⟨S_, .f32⟩
  | 83 => ⟨S_, .f32⟩
  | 84 => ⟨S64, .f32⟩
  | 85 => ⟨S64, .f32⟩
  | 86 => ⟨S1x64, .f32⟩
  | 87 => ⟨S50000x64, .f32⟩
  | 88 => ⟨S50000x64, .f32⟩
  | 89 => ⟨S_, .f32⟩
  | 90 => ⟨S64, .f32⟩
  | 91 => ⟨S64, .f32⟩
  | 92 => ⟨S64, .f32⟩
  | 93 => ⟨S1x64, .f32⟩
  | 94 => ⟨S50000x64, .f32⟩
  | 95 => ⟨S50000x64, .f32⟩
  | 96 => ⟨S1x64, .f32⟩
  | 97 => ⟨S50000x64, .f32⟩
  | 98 => ⟨S50000x64, .f32⟩
  | 99 => ⟨S1x64, .f32⟩
  | 100 => ⟨S50000x64, .f32⟩
  | 101 => ⟨S50000x64, .f32⟩
  | 102 => ⟨S_, .f32⟩
  | 103 => ⟨S50000x64, .f32⟩
  | 104 => ⟨S50000x64, .f32⟩
  | 105 => ⟨S50000x64, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x64, .f32⟩
  | 115 => ⟨S_, .f32⟩
  | 116 => ⟨S50000x64, .f32⟩
  | 117 => ⟨S800000x1, .i32⟩
  | 118 => ⟨S50000x64, .f32⟩
  | 119 => ⟨S50000x64, .f32⟩
  | 120 => ⟨S50000x64, .f32⟩
  | 121 => ⟨S1x64x64, .f32⟩
  | 122 => ⟨S64x64, .f32⟩
  | 123 => ⟨S50000x64, .f32⟩
  | 124 => ⟨S1x64, .f32⟩
  | 125 => ⟨S64, .f32⟩
  | 126 => ⟨S1x64, .f32⟩
  | 127 => ⟨S50000x64, .f32⟩
  | _ => ⟨S50000x19, .f32⟩

abbrev hbmTy0_2 (i : Nat) : BufTy := match i % 128 with
  | 0 => ⟨S50000x64, .f32⟩
  | 1 => ⟨S1x64x64, .f32⟩
  | 2 => ⟨S64x64, .f32⟩
  | 3 => ⟨S50000x64, .f32⟩
  | 4 => ⟨S50000x64, .f32⟩
  | 5 => ⟨S1x64, .f32⟩
  | 6 => ⟨S64, .f32⟩
  | 7 => ⟨S1x64, .f32⟩
  | 8 => ⟨S64, .f32⟩
  | 9 => ⟨S_, .f32⟩
  | 10 => ⟨S64, .f32⟩
  | 11 => ⟨S_, .f32⟩
  | 12 => ⟨S64, .f32⟩
  | 13 => ⟨S64, .f32⟩
  | 14 => ⟨S_, .i32⟩
  | 15 => ⟨S_, .f32⟩
  | 16 => ⟨S64, .f32⟩
  | 17 => ⟨S1x64, .f32⟩
  | 18 => ⟨S_, .f32⟩
  | 19 => ⟨S1x64, .f32⟩
  | 20 => ⟨S1x64, .f32⟩
  | 21 => ⟨S50000x64, .f32⟩
  | 22 => ⟨S50000x64, .f32⟩
  | 23 => ⟨S50000x64, .f32⟩
  | 24 => ⟨S_, .f32⟩
  | 25 => ⟨S_, .f32⟩
  | 26 => ⟨S_, .f32⟩
  | 27 => ⟨S_, .f32⟩
  | 28 => ⟨S64, .f32⟩
  | 29 => ⟨S64, .f32⟩
  | 30 => ⟨S64, .f32⟩
  | 31 => ⟨S_, .f32⟩
  | 32 => ⟨S_, .i1⟩
  | 33 => ⟨S_, .f32⟩
  | 34 => ⟨S_, .f32⟩
  | 35 => ⟨S64, .f32⟩
  | 36 => ⟨S64, .f32⟩
  | 37 => ⟨S1x64, .f32⟩
  | 38 => ⟨S50000x64, .f32⟩
  | 39 => ⟨S50000x64, .f32⟩
  | 40 => ⟨S_, .f32⟩
  | 41 => ⟨S64, .f32⟩
  | 42 => ⟨S64, .f32⟩
  | 43 => ⟨S64, .f32⟩
  | 44 => ⟨S1x64, .f32⟩
  | 45 => ⟨S50000x64, .f32⟩
  | 46 => ⟨S50000x64, .f32⟩
  | 47 => ⟨S1x64, .f32⟩
  | 48 => ⟨S50000x64, .f32⟩
  | 49 => ⟨S50000x64, .f32⟩
  | 50 => ⟨S1x64, .f32⟩
  | 51 => ⟨S50000x64, .f32⟩
  | 52 => ⟨S50000x64, .f32⟩
  | 53 => ⟨S_, .f32⟩
  | 54 => ⟨S50000x64, .f32⟩
  | 55 => ⟨S50000x64, .f32⟩
  | 56 => ⟨S50000x64, .f32⟩
  | _ => ⟨S50000x19, .f32⟩

abbrev hbmTy (i : Nat) : BufTy := match i / 128 with
  | 0 => hbmTy0_0 i
  | 1 => hbmTy0_1 i
  | 2 => hbmTy0_2 i
  | _ => ⟨S50000x19, .f32⟩

abbrev bufTy : (tb : Table) → Fin (tcTables nBuf tb) → BufTy
  | .hbm, ⟨i, _⟩ => hbmTy i
  | _, _ => ⟨S50000x19, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_cst_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_cst_1 : Ref sig .tc := ⟨.hbm, 35, rfl⟩
abbrev main_call0_v8 : Ref sig .tc := ⟨.hbm, 36, rfl⟩
abbrev main_call0_cst_2 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_cst_3 : Ref sig .tc := ⟨.hbm, 41, rfl⟩
abbrev main_call0_v12 : Ref sig .tc := ⟨.hbm, 42, rfl⟩
abbrev main_call0_cst_4 : Ref sig .tc := ⟨.hbm, 43, rfl⟩
abbrev main_call0_call0_v0 : Ref sig .tc := ⟨.hbm, 44, rfl⟩
abbrev main_call0_call0_v1 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_cst_1 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_call1_cst : Ref sig .tc := ⟨.hbm, 63, rfl⟩
abbrev main_call1_v0 : Ref sig .tc := ⟨.hbm, 64, rfl⟩
abbrev main_v27 : Ref sig .tc := ⟨.hbm, 65, rfl⟩
abbrev main_cst_2 : Ref sig .tc := ⟨.hbm, 66, rfl⟩
abbrev main_v28 : Ref sig .tc := ⟨.hbm, 67, rfl⟩
abbrev main_cst_3 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_4 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_c_5 : Ref sig .tc := ⟨.hbm, 76, rfl⟩
abbrev main_v35 : Ref sig .tc := ⟨.hbm, 77, rfl⟩
abbrev main_v36 : Ref sig .tc := ⟨.hbm, 78, rfl⟩
abbrev main_c_6 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_cst_7 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_cst_8 : Ref sig .tc := ⟨.hbm, 107, rfl⟩
abbrev main_v63 : Ref sig .tc := ⟨.hbm, 108, rfl⟩
abbrev main_cst_9 : Ref sig .tc := ⟨.hbm, 109, rfl⟩
abbrev main_v64 : Ref sig .tc := ⟨.hbm, 110, rfl⟩
abbrev main_v65 : Ref sig .tc := ⟨.hbm, 111, rfl⟩
abbrev main_c_10 : Ref sig .tc := ⟨.hbm, 112, rfl⟩
abbrev main_call2_cst : Ref sig .tc := ⟨.hbm, 113, rfl⟩
abbrev main_call2_v0 : Ref sig .tc := ⟨.hbm, 114, rfl⟩
abbrev main_call2_v1 : Ref sig .tc := ⟨.hbm, 115, rfl⟩
abbrev main_call2_cst_0 : Ref sig .tc := ⟨.hbm, 116, rfl⟩
abbrev main_call2_v2 : Ref sig .tc := ⟨.hbm, 117, rfl⟩
abbrev main_call2_v3 : Ref sig .tc := ⟨.hbm, 118, rfl⟩
abbrev main_call2_v4 : Ref sig .tc := ⟨.hbm, 119, rfl⟩
abbrev main_call2_v5 : Ref sig .tc := ⟨.hbm, 120, rfl⟩
abbrev main_call2_v6 : Ref sig .tc := ⟨.hbm, 121, rfl⟩
abbrev main_call2_v7 : Ref sig .tc := ⟨.hbm, 122, rfl⟩
abbrev main_call2_cst_1 : Ref sig .tc := ⟨.hbm, 123, rfl⟩
abbrev main_call2_v8 : Ref sig .tc := ⟨.hbm, 124, rfl⟩
abbrev main_call2_cst_2 : Ref sig .tc := ⟨.hbm, 125, rfl⟩
abbrev main_call2_v9 : Ref sig .tc := ⟨.hbm, 126, rfl⟩
abbrev main_call2_v10 : Ref sig .tc := ⟨.hbm, 127, rfl⟩
abbrev main_call2_v11 : Ref sig .tc := ⟨.hbm, 128, rfl⟩
abbrev main_call2_cst_3 : Ref sig .tc := ⟨.hbm, 129, rfl⟩
abbrev main_call2_v12 : Ref sig .tc := ⟨.hbm, 130, rfl⟩
abbrev main_call2_cst_4 : Ref sig .tc := ⟨.hbm, 131, rfl⟩
abbrev main_call2_call0_v0 : Ref sig .tc := ⟨.hbm, 132, rfl⟩
abbrev main_call2_call0_v1 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_cst_11 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_call3_cst : Ref sig .tc := ⟨.hbm, 151, rfl⟩
abbrev main_call3_v0 : Ref sig .tc := ⟨.hbm, 152, rfl⟩
abbrev main_v82 : Ref sig .tc := ⟨.hbm, 153, rfl⟩
abbrev main_v83 : Ref sig .tc := ⟨.hbm, 154, rfl⟩
abbrev main_c_12 : Ref sig .tc := ⟨.hbm, 155, rfl⟩
abbrev main_v84 : Ref sig .tc := ⟨.hbm, 156, rfl⟩
abbrev main_v85 : Ref sig .tc := ⟨.hbm, 157, rfl⟩
abbrev main_c_13 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_v89 : Ref sig .tc := ⟨.hbm, 162, rfl⟩
abbrev main_v90 : Ref sig .tc := ⟨.hbm, 163, rfl⟩
abbrev main_cst_14 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_cst_15 : Ref sig .tc := ⟨.hbm, 186, rfl⟩
abbrev main_v112 : Ref sig .tc := ⟨.hbm, 187, rfl⟩
abbrev main_cst_16 : Ref sig .tc := ⟨.hbm, 188, rfl⟩
abbrev main_v113 : Ref sig .tc := ⟨.hbm, 189, rfl⟩
abbrev main_v114 : Ref sig .tc := ⟨.hbm, 190, rfl⟩
abbrev main_c_17 : Ref sig .tc := ⟨.hbm, 191, rfl⟩
abbrev main_call4_cst : Ref sig .tc := ⟨.hbm, 192, rfl⟩
abbrev main_call4_v0 : Ref sig .tc := ⟨.hbm, 193, rfl⟩
abbrev main_call4_v1 : Ref sig .tc := ⟨.hbm, 194, rfl⟩
abbrev main_call4_cst_0 : Ref sig .tc := ⟨.hbm, 195, rfl⟩
abbrev main_call4_v2 : Ref sig .tc := ⟨.hbm, 196, rfl⟩
abbrev main_call4_v3 : Ref sig .tc := ⟨.hbm, 197, rfl⟩
abbrev main_call4_v4 : Ref sig .tc := ⟨.hbm, 198, rfl⟩
abbrev main_call4_v5 : Ref sig .tc := ⟨.hbm, 199, rfl⟩
abbrev main_call4_v6 : Ref sig .tc := ⟨.hbm, 200, rfl⟩
abbrev main_call4_v7 : Ref sig .tc := ⟨.hbm, 201, rfl⟩
abbrev main_call4_cst_1 : Ref sig .tc := ⟨.hbm, 202, rfl⟩
abbrev main_call4_v8 : Ref sig .tc := ⟨.hbm, 203, rfl⟩
abbrev main_call4_cst_2 : Ref sig .tc := ⟨.hbm, 204, rfl⟩
abbrev main_call4_v9 : Ref sig .tc := ⟨.hbm, 205, rfl⟩
abbrev main_call4_v10 : Ref sig .tc := ⟨.hbm, 206, rfl⟩
abbrev main_call4_v11 : Ref sig .tc := ⟨.hbm, 207, rfl⟩
abbrev main_call4_cst_3 : Ref sig .tc := ⟨.hbm, 208, rfl⟩
abbrev main_call4_v12 : Ref sig .tc := ⟨.hbm, 209, rfl⟩
abbrev main_call4_cst_4 : Ref sig .tc := ⟨.hbm, 210, rfl⟩
abbrev main_call4_call0_v0 : Ref sig .tc := ⟨.hbm, 211, rfl⟩
abbrev main_call4_call0_v1 : Ref sig .tc := ⟨.hbm, 212, rfl⟩
abbrev main_v115 : Ref sig .tc := ⟨.hbm, 213, rfl⟩
abbrev main_v116 : Ref sig .tc := ⟨.hbm, 214, rfl⟩
abbrev main_v117 : Ref sig .tc := ⟨.hbm, 215, rfl⟩
abbrev main_v118 : Ref sig .tc := ⟨.hbm, 216, rfl⟩
abbrev main_cst_18 : Ref sig .tc := ⟨.hbm, 217, rfl⟩
abbrev main_v119 : Ref sig .tc := ⟨.hbm, 218, rfl⟩
abbrev main_v120 : Ref sig .tc := ⟨.hbm, 219, rfl⟩
abbrev main_v121 : Ref sig .tc := ⟨.hbm, 220, rfl⟩
abbrev main_v122 : Ref sig .tc := ⟨.hbm, 221, rfl⟩
abbrev main_v123 : Ref sig .tc := ⟨.hbm, 222, rfl⟩
abbrev main_v124 : Ref sig .tc := ⟨.hbm, 223, rfl⟩
abbrev main_v125 : Ref sig .tc := ⟨.hbm, 224, rfl⟩
abbrev main_v126 : Ref sig .tc := ⟨.hbm, 225, rfl⟩
abbrev main_v127 : Ref sig .tc := ⟨.hbm, 226, rfl⟩
abbrev main_v128 : Ref sig .tc := ⟨.hbm, 227, rfl⟩
abbrev main_v129 : Ref sig .tc := ⟨.hbm, 228, rfl⟩
abbrev main_v130 : Ref sig .tc := ⟨.hbm, 229, rfl⟩
abbrev main_call5_cst : Ref sig .tc := ⟨.hbm, 230, rfl⟩
abbrev main_call5_v0 : Ref sig .tc := ⟨.hbm, 231, rfl⟩
abbrev main_v131 : Ref sig .tc := ⟨.hbm, 232, rfl⟩
abbrev main_v132 : Ref sig .tc := ⟨.hbm, 233, rfl⟩
abbrev main_c_19 : Ref sig .tc := ⟨.hbm, 234, rfl⟩
abbrev main_v133 : Ref sig .tc := ⟨.hbm, 235, rfl⟩
abbrev main_v134 : Ref sig .tc := ⟨.hbm, 236, rfl⟩
abbrev main_c_20 : Ref sig .tc := ⟨.hbm, 237, rfl⟩
abbrev main_v135 : Ref sig .tc := ⟨.hbm, 238, rfl⟩
abbrev main_v136 : Ref sig .tc := ⟨.hbm, 239, rfl⟩
abbrev main_v137 : Ref sig .tc := ⟨.hbm, 240, rfl⟩
abbrev main_v138 : Ref sig .tc := ⟨.hbm, 241, rfl⟩
abbrev main_v139 : Ref sig .tc := ⟨.hbm, 242, rfl⟩
abbrev main_cst_21 : Ref sig .tc := ⟨.hbm, 243, rfl⟩
abbrev main_v140 : Ref sig .tc := ⟨.hbm, 244, rfl⟩
abbrev main_v141 : Ref sig .tc := ⟨.hbm, 245, rfl⟩
abbrev main_v142 : Ref sig .tc := ⟨.hbm, 246, rfl⟩
abbrev main_v143 : Ref sig .tc := ⟨.hbm, 247, rfl⟩
abbrev main_v144 : Ref sig .tc := ⟨.hbm, 248, rfl⟩
abbrev main_v145 : Ref sig .tc := ⟨.hbm, 249, rfl⟩
abbrev main_v146 : Ref sig .tc := ⟨.hbm, 250, rfl⟩
abbrev main_v147 : Ref sig .tc := ⟨.hbm, 251, rfl⟩
abbrev main_v148 : Ref sig .tc := ⟨.hbm, 252, rfl⟩
abbrev main_v149 : Ref sig .tc := ⟨.hbm, 253, rfl⟩
abbrev main_v150 : Ref sig .tc := ⟨.hbm, 254, rfl⟩
abbrev main_v151 : Ref sig .tc := ⟨.hbm, 255, rfl⟩
abbrev main_v152 : Ref sig .tc := ⟨.hbm, 256, rfl⟩
abbrev main_v153 : Ref sig .tc := ⟨.hbm, 257, rfl⟩
abbrev main_v154 : Ref sig .tc := ⟨.hbm, 258, rfl⟩
abbrev main_v155 : Ref sig .tc := ⟨.hbm, 259, rfl⟩
abbrev main_v156 : Ref sig .tc := ⟨.hbm, 260, rfl⟩
abbrev main_v157 : Ref sig .tc := ⟨.hbm, 261, rfl⟩
abbrev main_v158 : Ref sig .tc := ⟨.hbm, 262, rfl⟩
abbrev main_v159 : Ref sig .tc := ⟨.hbm, 263, rfl⟩
abbrev main_v160 : Ref sig .tc := ⟨.hbm, 264, rfl⟩
abbrev main_cst_22 : Ref sig .tc := ⟨.hbm, 265, rfl⟩
abbrev main_v161 : Ref sig .tc := ⟨.hbm, 266, rfl⟩
abbrev main_cst_23 : Ref sig .tc := ⟨.hbm, 267, rfl⟩
abbrev main_v162 : Ref sig .tc := ⟨.hbm, 268, rfl⟩
abbrev main_v163 : Ref sig .tc := ⟨.hbm, 269, rfl⟩
abbrev main_c_24 : Ref sig .tc := ⟨.hbm, 270, rfl⟩
abbrev main_call6_cst : Ref sig .tc := ⟨.hbm, 271, rfl⟩
abbrev main_call6_v0 : Ref sig .tc := ⟨.hbm, 272, rfl⟩
abbrev main_call6_v1 : Ref sig .tc := ⟨.hbm, 273, rfl⟩
abbrev main_call6_cst_0 : Ref sig .tc := ⟨.hbm, 274, rfl⟩
abbrev main_call6_v2 : Ref sig .tc := ⟨.hbm, 275, rfl⟩
abbrev main_call6_v3 : Ref sig .tc := ⟨.hbm, 276, rfl⟩
abbrev main_call6_v4 : Ref sig .tc := ⟨.hbm, 277, rfl⟩
abbrev main_call6_v5 : Ref sig .tc := ⟨.hbm, 278, rfl⟩
abbrev main_call6_v6 : Ref sig .tc := ⟨.hbm, 279, rfl⟩
abbrev main_call6_v7 : Ref sig .tc := ⟨.hbm, 280, rfl⟩
abbrev main_call6_cst_1 : Ref sig .tc := ⟨.hbm, 281, rfl⟩
abbrev main_call6_v8 : Ref sig .tc := ⟨.hbm, 282, rfl⟩
abbrev main_call6_cst_2 : Ref sig .tc := ⟨.hbm, 283, rfl⟩
abbrev main_call6_v9 : Ref sig .tc := ⟨.hbm, 284, rfl⟩
abbrev main_call6_v10 : Ref sig .tc := ⟨.hbm, 285, rfl⟩
abbrev main_call6_v11 : Ref sig .tc := ⟨.hbm, 286, rfl⟩
abbrev main_call6_cst_3 : Ref sig .tc := ⟨.hbm, 287, rfl⟩
abbrev main_call6_v12 : Ref sig .tc := ⟨.hbm, 288, rfl⟩
abbrev main_call6_cst_4 : Ref sig .tc := ⟨.hbm, 289, rfl⟩
abbrev main_call6_call0_v0 : Ref sig .tc := ⟨.hbm, 290, rfl⟩
abbrev main_call6_call0_v1 : Ref sig .tc := ⟨.hbm, 291, rfl⟩
abbrev main_v164 : Ref sig .tc := ⟨.hbm, 292, rfl⟩
abbrev main_v165 : Ref sig .tc := ⟨.hbm, 293, rfl⟩
abbrev main_v166 : Ref sig .tc := ⟨.hbm, 294, rfl⟩
abbrev main_v167 : Ref sig .tc := ⟨.hbm, 295, rfl⟩
abbrev main_cst_25 : Ref sig .tc := ⟨.hbm, 296, rfl⟩
abbrev main_v168 : Ref sig .tc := ⟨.hbm, 297, rfl⟩
abbrev main_v169 : Ref sig .tc := ⟨.hbm, 298, rfl⟩
abbrev main_v170 : Ref sig .tc := ⟨.hbm, 299, rfl⟩
abbrev main_v171 : Ref sig .tc := ⟨.hbm, 300, rfl⟩
abbrev main_v172 : Ref sig .tc := ⟨.hbm, 301, rfl⟩
abbrev main_v173 : Ref sig .tc := ⟨.hbm, 302, rfl⟩
abbrev main_v174 : Ref sig .tc := ⟨.hbm, 303, rfl⟩
abbrev main_v175 : Ref sig .tc := ⟨.hbm, 304, rfl⟩
abbrev main_v176 : Ref sig .tc := ⟨.hbm, 305, rfl⟩
abbrev main_v177 : Ref sig .tc := ⟨.hbm, 306, rfl⟩
abbrev main_v178 : Ref sig .tc := ⟨.hbm, 307, rfl⟩
abbrev main_v179 : Ref sig .tc := ⟨.hbm, 308, rfl⟩
abbrev main_call7_cst : Ref sig .tc := ⟨.hbm, 309, rfl⟩
abbrev main_call7_v0 : Ref sig .tc := ⟨.hbm, 310, rfl⟩
abbrev main_v180 : Ref sig .tc := ⟨.hbm, 311, rfl⟩
abbrev main_v181 : Ref sig .tc := ⟨.hbm, 312, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S50000x64 : S_.BroadcastsInDim S50000x64 (![] : Fin 0 → Fin S50000x64.rank)
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  dot_S50000x19_S19x64_S50000x64_1_0_0_1_n_n_wf : DotDims.WF S50000x19 S19x64 S50000x64 [1] [0] [0] [1] [] []
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def dot_S50000x19_S19x64_S50000x64_1_0_0_1_n_n : DotDims S50000x19 S19x64 S50000x64 where
  lhsContracting := [1]
  rhsContracting := [0]
  lhsNonContracting := [0]
  rhsNonContracting := [1]
  lhsBatch := []
  rhsBatch := []
  wf := dot_S50000x19_S19x64_S50000x64_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.K.Stats0Defs.lean ====
import proofs.«167925_j62517543961156_1_alg».proof.Proof.Gen.Kernel.Launch
import proofs.«167925_j62517543961156_1_alg».proof.Proof.Gen.Kernel.Skeleton
import proofs.«167925_j62517543961156_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Statistics kernel of region 0: what its three control cases share -/

/-- The block of window `w` at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current buffer holds its block at every point: where the point does not fetch it, the block
    index has not moved since the last fetch. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions on the grid coordinate -/

/-- "This is the first node tile": the accumulators are reset. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- "This is the last node tile": mean and variance are formed from the accumulated sums. -/
abbrev cond0_1 (i : grid0.Coords) : Prop := k0_cond2 i = 1#1
theorem hcond0_1 : ∀ t : Fin cfg0.N, cond0_1 (grid0.coords t) ↔ t.val = 9 :=
  (by decide +kernel : ∀ t : Fin grid0.N, cond0_1 (grid0.coords t) ↔ t.val = 9)

/-! ## Where the windows are live -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Before the last tile nothing is stored into the mean and variance rows, and they are not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At the last tile both rows are stored. -/
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## Views through which buffer contents are stated, and the two accumulator rows -/

abbrev VO0_3 : View sig .tc .vmem S5000x64 .f32 := (Memref.whole cc0_stg3_0 : Memref sig .tc .vmem S5000x64 .f32).view
abbrev VO0_4 : View sig .tc .vmem S1x64 .f32 := (Memref.whole cc0_stg4_0 : Memref sig .tc .vmem S1x64 .f32).view
abbrev VO0_5 : View sig .tc .vmem S1x64 .f32 := (Memref.whole cc0_stg5_0 : Memref sig .tc .vmem S1x64 .f32).view
/-- The row of column sums and the row of column sums of squares, carried from tile to tile. -/
abbrev scM0_0 : Memref sig .tc .vmem S1x64 .f32 := Memref.whole cc0_scratch0
abbrev scM0_1 : Memref sig .tc .vmem S1x64 .f32 := Memref.whole cc0_scratch1
abbrev VS0_0 : View sig .tc .vmem S1x64 .f32 := scM0_0.view
abbrev VS0_1 : View sig .tc .vmem S1x64 .f32 := scM0_1.view

/-- The part of the region's scoped memory that is neither a staging buffer nor one of the two accumulator rows. -/
abbrev restBut0 (c : Dev nD) : sProp 𝕄 :=
  Pipeline.scopedRestBut (Ix := Unit) (Name := ℕ) (U := UR sig nD τ) (Lvl := ℕ) (Val := Elt F) spec0 c [cc0_scratch0, cc0_scratch1]

/-- The scoped rest, with the two accumulator rows owned as whole memrefs at some contents. -/
theorem scopedRest0_rows (c : Dev nD) :
    (Pipeline.scopedRest (Ix := Unit) (Name := ℕ) (U := UR sig nD τ) (Lvl := ℕ) (Val := Elt F) spec0 c : sProp 𝕄)
      = iprop(iprop((∃ d, owns (c : Thread nD τ) scM0_0 fullShare d) ∗ (∃ d, owns (c : Thread nD τ) scM0_1 fullShare d)) ∗ restBut0 (F := F) c) := by
  rw [scopedRest0_split]; simp only [scM0_0, scM0_1, owns_whole]; try rfl

end Cert.Kernel.Hand

end
-- ==== Proof.K.Stats0RunA.lean ====
import proofs.«167925_j62517543961156_1_alg».proof.Proof.K.Stats0Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the FIRST node tile. Both accumulator rows, found at anything, are zeroed and then receive the tile's
    column sums (of the pre-activations, and of their squares); the pre-activation tile is stored; the mean and variance
    rows are not touched and come back as found. The lists are what the stores leave, last store first. -/
noncomputable def run0_A (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S5000x19 .f32) (x1 : Vec F S19x64 .f32) (x2 : Vec F S1x64 .f32) :
    Σ' (L3 : List (View.Piece (Elt F) S5000x64 .f32)) (LS0 : List (View.Piece (Elt F) S1x64 .f32)), { LS1 : List (View.Piece (Elt F) S1x64 .f32) //
      ∀ (xi4 xi5 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats_kernel_base i arg1 harg1 arg2 harg2 arg3 harg3 arg4 harg4 arg5 harg5 arg6 harg6 arg7 harg7 arg8 harg8) K } := by
  refine ⟨?_, ?_, ?_, fun xi4 xi5 E K => ?run⟩
  case run =>
    simp only [cc0__stats_kernel_base_eq_skeleton]; unfold cc0__stats_kernel_base_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

end Cert.Kernel.Hand

end
-- ==== Proof.K.Stats0RunB.lean ====
import proofs.«167925_j62517543961156_1_alg».proof.Proof.K.Stats0RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a MIDDLE node tile. The accumulator rows, found at what the tile before left, receive this tile's column
    sums on top; the pre-activation tile is stored; the mean and variance rows are not touched and come back as found.
    The lists are what the stores leave, last store first. -/
noncomputable def run0_B (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S5000x19 .f32) (x1 : Vec F S19x64 .f32) (x2 : Vec F S1x64 .f32) (xs0 : Vec F S1x64 .f32) (xs1 : Vec F S1x64 .f32) :
    Σ' (L3 : List (View.Piece (Elt F) S5000x64 .f32)) (LS0 : List (View.Piece (Elt F) S1x64 .f32)), { LS1 : List (View.Piece (Elt F) S1x64 .f32) //
      ∀ (xi4 xi5 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ owns (c : Thread nD τ) arg6 fullShare xi5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats_kernel_base i arg1 harg1 arg2 harg2 arg3 harg3 arg4 harg4 arg5 harg5 arg6 harg6 arg7 harg7 arg8 harg8) K } := by
  refine ⟨?_, ?_, ?_, fun xi4 xi5 E K => ?run⟩
  case run =>
    simp only [cc0__stats_kernel_base_eq_skeleton]; unfold cc0__stats_kernel_base_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, Hk⟩
    obtain rfl := harg1.eq_unread hf0; obtain rfl := harg2.eq_unread hf1; obtain rfl := harg3.eq_unread hf2; obtain rfl := harg5.eq_unread hf4; obtain rfl := harg6.eq_unread hf5; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

end Cert.Kernel.Hand

end
-- ==== Proof.K.Stats0RunC.lean ====
import proofs.«167925_j62517543961156_1_alg».proof.Proof.K.Stats0RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the LAST node tile. The accumulator rows receive this tile's column sums on top of what the tile before
    left; then the mean row is the sums divided by the node count, and the variance row the sums of squares divided by
    the node count minus the squared mean. The lists are what the stores leave, last store first. -/
noncomputable def run0_C (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S5000x19 .f32) (x1 : Vec F S19x64 .f32) (x2 : Vec F S1x64 .f32) (xs0 : Vec F S1x64 .f32) (xs1 : Vec F S1x64 .f32) :
    Σ' (L3 : List (View.Piece (Elt F) S5000x64 .f32)) (L4 : List (View.Piece (Elt F) S1x64 .f32)) (L5 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats_kernel_base i arg1 harg1 arg2 harg2 arg3 harg3 arg4 harg4 arg5 harg5 arg6 harg6 arg7 harg7 arg8 harg8) K } := by
  refine ⟨?_, ?_, ?_, ?_, ?_, fun E K => ?run⟩
  case run =>
    simp only [cc0__stats_kernel_base_eq_skeleton]; unfold cc0__stats_kernel_base_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, Hk⟩
    obtain rfl := harg1.eq_unread hf0; obtain rfl := harg2.eq_unread hf1; obtain rfl := harg3.eq_unread hf2; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [H6]; · iexists _; iexact H6
    iexists _; iexact H7

end Cert.Kernel.Hand

end
-- ==== Proof.K.Stats0.lean ====
import proofs.«167925_j62517543961156_1_alg».proof.Proof.K.Stats0RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Statistics kernel of region 0: what every buffer holds after each node tile, the proof data, the body obligation -/

/-- The stores of this case into this buffer cover it. -/
theorem cover0_A_3 (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S5000x19 .f32) (x1 : Vec F S19x64 .f32) (x2 : Vec F S1x64 .f32) (y : S5000x64.Idx) :
    ∃ pc ∈ (run0_A c i arg1 harg1 arg2 harg2 arg3 harg3 arg4 harg4 arg5 harg5 arg6 harg6 arg7 harg7 arg8 harg8 hc0 hc1 x0 x1 x2).1, y ∈ pc.1.set :=
  View.cover_of_tiledL (run0_A c i arg1 harg1 arg2 harg2 arg3 harg3 arg4 harg4 arg5 harg5 arg6 harg6 arg7 harg7 arg8 harg8 hc0 hc1 x0 x1 x2).1 S5000x64.size (by sl_kernel_rfl) y

/-- What they leave in it: the stored pieces read back. -/
def out0_A_3 (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S5000x19 .f32) (x1 : Vec F S19x64 .f32) (x2 : Vec F S1x64 .f32) : Vec F S5000x64 .f32 :=
  VO0_3.read (Elt F) (VO0_3.writes (Elt F) VO0_3.junk (run0_A c i arg1 harg1 arg2 harg2 arg3 harg3 arg4 harg4 arg5 harg5 arg6 harg6 arg7 harg7 arg8 harg8 hc0 hc1 x0 x1 x2).1)

/-- The stores of this case into this buffer cover it. -/
theorem scover0_A_0 (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S5000x19 .f32) (x1 : Vec F S19x64 .f32) (x2 : Vec F S1x64 .f32) (y : S1x64.Idx) :
    ∃ pc ∈ (run0_A c i arg1 harg1 arg2 harg2 arg3 harg3 arg4 harg4 arg5 harg5 arg6 harg6 arg7 harg7 arg8 harg8 hc0 hc1 x0 x1 x2).2.1, y ∈ pc.1.set :=
  View.cover_of_tiledL (run0_A c i arg1 harg1 arg2 harg2 arg3 harg3 arg4 harg4 arg5 harg5 arg6 harg6 arg7 harg7 arg8 harg8 hc0 hc1 x0 x1 x2).2.1 S1x64.size (by sl_kernel_rfl) y

/-- What they leave in it: the stored pieces read back. -/
def sout0_A_0 (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S5000x19 .f32) (x1 : Vec F S19x64 .f32) (x2 : Vec F S1x64 .f32) : Vec F S1x64 .f32 :=
  VS0_0.read (Elt F) (VS0_0.writes (Elt F) VS0_0.junk (run0_A c i arg1 harg1 arg2 harg2 arg3 harg3 arg4 harg4 arg5 harg5 arg6 harg6 arg7 harg7 arg8 harg8 hc0 hc1 x0 x1 x2).2.1)

/-- The stores of this case into this buffer cover it. -/
theorem scover0_A_1 (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S5000x19 .f32) (x1 : Vec F S19x64 .f32) (x2 : Vec F S1x64 .f32) (y : S1x64.Idx) :
    ∃ pc ∈ (run0_A c i arg1 harg1 arg2 harg2 arg3 harg3 arg4 harg4 arg5 harg5 arg6 harg6 arg7 harg7 arg8 harg8 hc0 hc1 x0 x1 x2).2.2.1, y ∈ pc.1.set :=
  View.cover_of_tiledL (run0_A c i arg1 harg1 arg2 harg2 arg3 harg3 arg4 harg4 arg5 harg5 arg6 harg6 arg7 harg7 arg8 harg8 hc0 hc1 x0 x1 x2).2.2.1 S1x64.size (by sl_kernel_rfl) y

/-- What they leave in it: the stored pieces read back. -/
def sout0_A_1 (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S5000x19 .f32) (x1 : Vec F S19x64 .f32) (x2 : Vec F S1x64 .f32) : Vec F S1x64 .f32 :=
  VS0_1.read (Elt F) (VS0_1.writes (Elt F) VS0_1.junk (run0_A c i arg1 harg1 arg2 harg2 arg3 harg3 arg4 harg4 arg5 harg5 arg6 harg6 arg7 harg7 arg8 harg8 hc0 hc1 x0 x1 x2).2.2.1)

/-- The stores of this case into this buffer cover it. -/
theorem cover0_B_3 (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S5000x19 .f32) (x1 : Vec F S19x64 .f32) (x2 : Vec F S1x64 .f32) (xs0 : Vec F S1x64 .f32) (xs1 : Vec F S1x64 .f32) (y : S5000x64.Idx) :
    ∃ pc ∈ (run0_B c i arg1 harg1 arg2 harg2 arg3 harg3 arg4 harg4 arg5 harg5 arg6 harg6 arg7 harg7 arg8 harg8 hc0 hc1 x0 x1 x2 xs0 xs1).1, y ∈ pc.1.set :=
  View.cover_of_tiledL (run0_B c i arg1 harg1 arg2 harg2 arg3 harg3 arg4 harg4 arg5 harg5 arg6 harg6 arg7 harg7 arg8 harg8 hc0 hc1 x0 x1 x2 xs0 xs1).1 S5000x64.size (by sl_kernel_rfl) y

/-- What they leave in it: the stored pieces read back. -/
def out0_B_3 (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S5000x19 .f32) (x1 : Vec F S19x64 .f32) (x2 : Vec F S1x64 .f32) (xs0 : Vec F S1x64 .f32) (xs1 : Vec F S1x64 .f32) : Vec F S5000x64 .f32 :=
  VO0_3.read (Elt F) (VO0_3.writes (Elt F) VO0_3.junk (run0_B c i arg1 harg1 arg2 harg2 arg3 harg3 arg4 harg4 arg5 harg5 arg6 harg6 arg7 harg7 arg8 harg8 hc0 hc1 x0 x1 x2 xs0 xs1).1)

/-- The stores of this case into this buffer cover it. -/
theorem scover0_B_0 (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S5000x19 .f32) (x1 : Vec F S19x64 .f32) (x2 : Vec F S1x64 .f32) (xs0 : Vec F S1x64 .f32) (xs1 : Vec F S1x64 .f32) (y : S1x64.Idx) :
    ∃ pc ∈ (run0_B c i arg1 harg1 arg2 harg2 arg3 harg3 arg4 harg4 arg5 harg5 arg6 harg6 arg7 harg7 arg8 harg8 hc0 hc1 x0 x1 x2 xs0 xs1).2.1, y ∈ pc.1.set :=
  View.cover_of_tiledL (run0_B c i arg1 harg1 arg2 harg2 arg3 harg3 arg4 harg4 arg5 harg5 arg6 harg6 arg7 harg7 arg8 harg8 hc0 hc1 x0 x1 x2 xs0 xs1).2.1 S1x64.size (by sl_kernel_rfl) y

/-- What they leave in it: the stored pieces read back. -/
def sout0_B_0 (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S5000x19 .f32) (x1 : Vec F S19x64 .f32) (x2 : Vec F S1x64 .f32) (xs0 : Vec F S1x64 .f32) (xs1 : Vec F S1x64 .f32) : Vec F S1x64 .f32 :=
  VS0_0.read (Elt F) (VS0_0.writes (Elt F) VS0_0.junk (run0_B c i arg1 harg1 arg2 harg2 arg3 harg3 arg4 harg4 arg5 harg5 arg6 harg6 arg7 harg7 arg8 harg8 hc0 hc1 x0 x1 x2 xs0 xs1).2.1)

/-- The stores of this case into this buffer cover it. -/
theorem scover0_B_1 (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S5000x19 .f32) (x1 : Vec F S19x64 .f32) (x2 : Vec F S1x64 .f32) (xs0 : Vec F S1x64 .f32) (xs1 : Vec F S1x64 .f32) (y : S1x64.Idx) :
    ∃ pc ∈ (run0_B c i arg1 harg1 arg2 harg2 arg3 harg3 arg4 harg4 arg5 harg5 arg6 harg6 arg7 harg7 arg8 harg8 hc0 hc1 x0 x1 x2 xs0 xs1).2.2.1, y ∈ pc.1.set :=
  View.cover_of_tiledL (run0_B c i arg1 harg1 arg2 harg2 arg3 harg3 arg4 harg4 arg5 harg5 arg6 harg6 arg7 harg7 arg8 harg8 hc0 hc1 x0 x1 x2 xs0 xs1).2.2.1 S1x64.size (by sl_kernel_rfl) y

/-- What they leave in it: the stored pieces read back. -/
def sout0_B_1 (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S5000x19 .f32) (x1 : Vec F S19x64 .f32) (x2 : Vec F S1x64 .f32) (xs0 : Vec F S1x64 .f32) (xs1 : Vec F S1x64 .f32) : Vec F S1x64 .f32 :=
  VS0_1.read (Elt F) (VS0_1.writes (Elt F) VS0_1.junk (run0_B c i arg1 harg1 arg2 harg2 arg3 harg3 arg4 harg4 arg5 harg5 arg6 harg6 arg7 harg7 arg8 harg8 hc0 hc1 x0 x1 x2 xs0 xs1).2.2.1)

/-- The stores of this case into this buffer cover it. -/
theorem cover0_C_3 (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S5000x19 .f32) (x1 : Vec F S19x64 .f32) (x2 : Vec F S1x64 .f32) (xs0 : Vec F S1x64 .f32) (xs1 : Vec F S1x64 .f32) (y : S5000x64.Idx) :
    ∃ pc ∈ (run0_C c i arg1 harg1 arg2 harg2 arg3 harg3 arg4 harg4 arg5 harg5 arg6 harg6 arg7 harg7 arg8 harg8 hc0 hc1 x0 x1 x2 xs0 xs1).1, y ∈ pc.1.set :=
  View.cover_of_tiledL (run0_C c i arg1 harg1 arg2 harg2 arg3 harg3 arg4 harg4 arg5 harg5 arg6 harg6 arg7 harg7 arg8 harg8 hc0 hc1 x0 x1 x2 xs0 xs1).1 S5000x64.size (by sl_kernel_rfl) y

/-- What they leave in it: the stored pieces read back. -/
def out0_C_3 (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S5000x19 .f32) (x1 : Vec F S19x64 .f32) (x2 : Vec F S1x64 .f32) (xs0 : Vec F S1x64 .f32) (xs1 : Vec F S1x64 .f32) : Vec F S5000x64 .f32 :=
  VO0_3.read (Elt F) (VO0_3.writes (Elt F) VO0_3.junk (run0_C c i arg1 harg1 arg2 harg2 arg3 harg3 arg4 harg4 arg5 harg5 arg6 harg6 arg7 harg7 arg8 harg8 hc0 hc1 x0 x1 x2 xs0 xs1).1)

/-- The stores of this case into this buffer cover it. -/
theorem cover0_C_4 (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S5000x19 .f32) (x1 : Vec F S19x64 .f32) (x2 : Vec F S1x64 .f32) (xs0 : Vec F S1x64 .f32) (xs1 : Vec F S1x64 .f32) (y : S1x64.Idx) :
    ∃ pc ∈ (run0_C c i arg1 harg1 arg2 harg2 arg3 harg3 arg4 harg4 arg5 harg5 arg6 harg6 arg7 harg7 arg8 harg8 hc0 hc1 x0 x1 x2 xs0 xs1).2.1, y ∈ pc.1.set :=
  View.cover_of_tiledL (run0_C c i arg1 harg1 arg2 harg2 arg3 harg3 arg4 harg4 arg5 harg5 arg6 harg6 arg7 harg7 arg8 harg8 hc0 hc1 x0 x1 x2 xs0 xs1).2.1 S1x64.size (by sl_kernel_rfl) y

/-- What they leave in it: the stored pieces read back. -/
def out0_C_4 (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S5000x19 .f32) (x1 : Vec F S19x64 .f32) (x2 : Vec F S1x64 .f32) (xs0 : Vec F S1x64 .f32) (xs1 : Vec F S1x64 .f32) : Vec F S1x64 .f32 :=
  VO0_4.read (Elt F) (VO0_4.writes (Elt F) VO0_4.junk (run0_C c i arg1 harg1 arg2 harg2 arg3 harg3 arg4 harg4 arg5 harg5 arg6 harg6 arg7 harg7 arg8 harg8 hc0 hc1 x0 x1 x2 xs0 xs1).2.1)

/-- The stores of this case into this buffer cover it. -/
theorem cover0_C_5 (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S5000x19 .f32) (x1 : Vec F S19x64 .f32) (x2 : Vec F S1x64 .f32) (xs0 : Vec F S1x64 .f32) (xs1 : Vec F S1x64 .f32) (y : S1x64.Idx) :
    ∃ pc ∈ (run0_C c i arg1 harg1 arg2 harg2 arg3 harg3 arg4 harg4 arg5 harg5 arg6 harg6 arg7 harg7 arg8 harg8 hc0 hc1 x0 x1 x2 xs0 xs1).2.2.1, y ∈ pc.1.set :=
  View.cover_of_tiledL (run0_C c i arg1 harg1 arg2 harg2 arg3 harg3 arg4 harg4 arg5 harg5 arg6 harg6 arg7 harg7 arg8 harg8 hc0 hc1 x0 x1 x2 xs0 xs1).2.2.1 S1x64.size (by sl_kernel_rfl) y

/-- What they leave in it: the stored pieces read back. -/
def out0_C_5 (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S5000x19 .f32) (x1 : Vec F S19x64 .f32) (x2 : Vec F S1x64 .f32) (xs0 : Vec F S1x64 .f32) (xs1 : Vec F S1x64 .f32) : Vec F S1x64 .f32 :=
  VO0_5.read (Elt F) (VO0_5.writes (Elt F) VO0_5.junk (run0_C c i arg1 harg1 arg2 harg2 arg3 harg3 arg4 harg4 arg5 harg5 arg6 harg6 arg7 harg7 arg8 harg8 hc0 hc1 x0 x1 x2 xs0 xs1).2.2.1)

/-- The stores of this case into this buffer cover it. -/
theorem scover0_C_0 (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S5000x19 .f32) (x1 : Vec F S19x64 .f32) (x2 : Vec F S1x64 .f32) (xs0 : Vec F S1x64 .f32) (xs1 : Vec F S1x64 .f32) (y : S1x64.Idx) :
    ∃ pc ∈ (run0_C c i arg1 harg1 arg2 harg2 arg3 harg3 arg4 harg4 arg5 harg5 arg6 harg6 arg7 harg7 arg8 harg8 hc0 hc1 x0 x1 x2 xs0 xs1).2.2.2.1, y ∈ pc.1.set :=
  View.cover_of_tiledL (run0_C c i arg1 harg1 arg2 harg2 arg3 harg3 arg4 harg4 arg5 harg5 arg6 harg6 arg7 harg7 arg8 harg8 hc0 hc1 x0 x1 x2 xs0 xs1).2.2.2.1 S1x64.size (by sl_kernel_rfl) y

/-- What they leave in it: the stored pieces read back. -/
def sout0_C_0 (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S5000x19 .f32) (x1 : Vec F S19x64 .f32) (x2 : Vec F S1x64 .f32) (xs0 : Vec F S1x64 .f32) (xs1 : Vec F S1x64 .f32) : Vec F S1x64 .f32 :=
  VS0_0.read (Elt F) (VS0_0.writes (Elt F) VS0_0.junk (run0_C c i arg1 harg1 arg2 harg2 arg3 harg3 arg4 harg4 arg5 harg5 arg6 harg6 arg7 harg7 arg8 harg8 hc0 hc1 x0 x1 x2 xs0 xs1).2.2.2.1)

/-- The stores of this case into this buffer cover it. -/
theorem scover0_C_1 (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S5000x19 .f32) (x1 : Vec F S19x64 .f32) (x2 : Vec F S1x64 .f32) (xs0 : Vec F S1x64 .f32) (xs1 : Vec F S1x64 .f32) (y : S1x64.Idx) :
    ∃ pc ∈ (run0_C c i arg1 harg1 arg2 harg2 arg3 harg3 arg4 harg4 arg5 harg5 arg6 harg6 arg7 harg7 arg8 harg8 hc0 hc1 x0 x1 x2 xs0 xs1).2.2.2.2.1, y ∈ pc.1.set :=
  View.cover_of_tiledL (run0_C c i arg1 harg1 arg2 harg2 arg3 harg3 arg4 harg4 arg5 harg5 arg6 harg6 arg7 harg7 arg8 harg8 hc0 hc1 x0 x1 x2 xs0 xs1).2.2.2.2.1 S1x64.size (by sl_kernel_rfl) y

/-- What they leave in it: the stored pieces read back. -/
def sout0_C_1 (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S5000x19 .f32) (x1 : Vec F S19x64 .f32) (x2 : Vec F S1x64 .f32) (xs0 : Vec F S1x64 .f32) (xs1 : Vec F S1x64 .f32) : Vec F S1x64 .f32 :=
  VS0_1.read (Elt F) (VS0_1.writes (Elt F) VS0_1.junk (run0_C c i arg1 harg1 arg2 harg2 arg3 harg3 arg4 harg4 arg5 harg5 arg6 harg6 arg7 harg7 arg8 harg8 hc0 hc1 x0 x1 x2 xs0 xs1).2.2.2.2.1)

/-! ## The buffers the pipeline hands the body at a point -/

abbrev ms0_0 (t : Fin cfg0.N) : Memref sig .tc .vmem S5000x19 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S19x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5000x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64 .f32 := win0_5.stage (cfg0.slots t 5)
abbrev hs0_5 (t : Fin cfg0.N) : (ms0_5 t).IsWhole := hstage0_5 ((cfg0.slots t 5).cast nbuf0_5)

/-! ## What the buffers hold after each node tile -/

/-- After the body at position `n`: the pre-activation tile's buffer, the mean row, the variance row (both meaningful at
    the last tile only; elsewhere a placeholder nothing reads), and the two accumulator rows — the row of column sums and
    the row of column sums of squares over the tiles `0 .. n`: at the first tile from zero, at every later one on top of
    what the tile before left. -/
def outsAt0 (c : Dev nD) : (n : ℕ) → n < cfg0.N → Vec F S5000x64 .f32 × Vec F S1x64 .f32 × Vec F S1x64 .f32 × Vec F S1x64 .f32 × Vec F S1x64 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩),
        VO0_4.read (Elt F) VO0_4.junk,
        VO0_5.read (Elt F) VO0_5.junk,
        sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩),
        sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h1 : n + 1 = 9 then
      (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2,
        out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2,
        out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2,
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2,
        sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2)
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2,
        VO0_4.read (Elt F) VO0_4.junk,
        VO0_5.read (Elt F) VO0_5.junk,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2,
        sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2)

/-- The row of column sums after tile `n`, and the row of column sums of squares. -/
abbrev S0 (c : Dev nD) (n : ℕ) (hn : n < cfg0.N) : Vec F S1x64 .f32 := (outsAt0 V c n hn).2.2.2.1
abbrev Q0 (c : Dev nD) (n : ℕ) (hn : n < cfg0.N) : Vec F S1x64 .f32 := (outsAt0 V c n hn).2.2.2.2

theorem outsAt0_A (c : Dev nD) (t : Fin cfg0.N) (h0 : t.val = 0) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => (fun h => by omega) ((hcond0_1 t).mp h)) (iblk0 V c 0 t) (iblk0 V c 1 t) (iblk0 V c 2 t),
        VO0_4.read (Elt F) VO0_4.junk,
        VO0_5.read (Elt F) VO0_5.junk,
        sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => (fun h => by omega) ((hcond0_1 t).mp h)) (iblk0 V c 0 t) (iblk0 V c 1 t) (iblk0 V c 2 t),
        sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => (fun h => by omega) ((hcond0_1 t).mp h)) (iblk0 V c 0 t) (iblk0 V c 1 t) (iblk0 V c 2 t)) := by
  obtain ⟨n, hn⟩ := t
  cases n with
  | zero => exact rfl
  | succ n => exact absurd h0 (Nat.succ_ne_zero n)

theorem outsAt0_B (c : Dev nD) (t : Fin cfg0.N) (h0 : ¬t.val = 0) (h1 : ¬t.val = 9) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
        VO0_4.read (Elt F) VO0_4.junk,
        VO0_5.read (Elt F) VO0_5.junk,
        sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
        sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact (dif_neg h1).trans rfl

theorem outsAt0_C (c : Dev nD) (t : Fin cfg0.N) (h0 : ¬t.val = 0) (h1 : t.val = 9) :
    outsAt0 V c t.val t.isLt = (out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
        out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
        out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
        sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
        sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The invariant between node tiles -/

/-- Before position `n`: the two accumulator rows — at anything before the first tile, afterwards at the sums the tile
    before left —, the rest of the scoped memory untouched, the generator register at some state. -/
def Phi0 (c : Dev nD) : (n : ℕ) → n ≤ cfg0.N → sProp 𝕄
  | 0, _ => iprop((∃ d, owns (c : Thread nD τ) scM0_0 fullShare d) ∗ (∃ d, owns (c : Thread nD τ) scM0_1 fullShare d) ∗ restBut0 (F := F) c ∗ (∃ r, prngReg c r))
  | n + 1, hn => iprop(owns (c : Thread nD τ) scM0_0 fullShare (S0 V c n hn) ∗ owns (c : Thread nD τ) scM0_1 fullShare (Q0 V c n hn) ∗ restBut0 (F := F) c ∗ (∃ r, prngReg c r))

theorem Phi0_zero (c : Dev nD) (n : ℕ) (h : n ≤ cfg0.N) (hz : n = 0) :
    Phi0 V c n h = iprop((∃ d, owns (c : Thread nD τ) scM0_0 fullShare d) ∗ (∃ d, owns (c : Thread nD τ) scM0_1 fullShare d) ∗ restBut0 (F := F) c ∗ (∃ r, prngReg c r)) := by
  subst hz; rfl

theorem Phi0_succ (c : Dev nD) (n : ℕ) (hn : n < cfg0.N) :
    Phi0 V c (n + 1) hn = iprop(owns (c : Thread nD τ) scM0_0 fullShare (S0 V c n hn) ∗ owns (c : Thread nD τ) scM0_1 fullShare (Q0 V c n hn) ∗ restBut0 (F := F) c ∗ (∃ r, prngReg c r)) := rfl

theorem Phi0_pos (c : Dev nD) (n : ℕ) (h : n ≤ cfg0.N) (hz : n ≠ 0) :
    Phi0 V c n h = iprop(owns (c : Thread nD τ) scM0_0 fullShare (S0 V c (n - 1) (by omega)) ∗ owns (c : Thread nD τ) scM0_1 fullShare (Q0 V c (n - 1) (by omega)) ∗ restBut0 (F := F) c ∗ (∃ r, prngReg c r)) := by
  cases n with
  | zero => exact absurd rfl hz
  | succ n => rfl

/-! ## The proof data -/

/-- The pipeline's proof data on core `c`: the arrays as the region finds them; after the body at a point every input's
    buffer at its block, the outputs' at `outsAt0`'s components; between points the invariant `Phi0`; full shares,
    nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
    | ⟨5, _⟩ => (outsAt0 V c t.val t.isLt).2.2.1
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem after0_5 (c : Dev nD) (t : Fin cfg0.N) : (dat0 V c).after 5 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point. The inputs' buffers hold their blocks; the point's position says which control case it is in;
    that case's run applies, handed the accumulator rows at what the invariant says they hold, and gives them back at this
    point's sums; the mean and variance rows are handed back untouched before the last tile. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Phi0 V c (t.val + 1) t.isLt from rfl, Phi0_succ]
  unfold S0 Q0
  have hN : t.val < 10 := lt_of_lt_of_eq t.isLt (show cfg0.N = 10 from N_0)
  by_cases h0 : t.val = 0
  · have h1 : ¬t.val = 9 := by omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 t (fun h => h1 ((hcond0_1 t).mp h))) (noFlush0_4 t (fun h => h1 ((hcond0_1 t).mp h)))]
      rw [Dat.leavesExact_idle (dat0 V c) 5 t (idleAt0_5 t (fun h => h1 ((hcond0_1 t).mp h))) (noFlush0_5 t (fun h => h1 ((hcond0_1 t).mp h)))]
      rw [outsAt0_A V c t h0]
      unfold out0_A_3 sout0_A_0 sout0_A_1; (try dsimp only)
      rw [Phi0_castSucc V c t, Phi0_zero V c _ _ h0]
      iintro ⟨⟨HS0, HS1, HR, Hg⟩, Ho, ⟨%d0, H0⟩, ⟨%d1, H1⟩, ⟨%d2, H2⟩, ⟨%d3, H3⟩, ⟨%d4, H4⟩, ⟨%d5, H5⟩⟩
      iapply ((run0_A c (grid0.coords t) _ _ _ _ _ _ _ _ _ _ _ _ _ _ _ _ ((hcond0_0 t).mpr h0) (fun h => h1 ((hcond0_1 t).mp h)) (iblk0 V c 0 t) (iblk0 V c 1 t) (iblk0 V c 2 t)).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%e3, H3⟩, H4, H5, ⟨%e6, HS0⟩, ⟨%e7, HS1⟩⟩
      isplitl [HS0 HS1 HR Hg]
      · isplitl [HS0]
        · unfold owns; iexists _; isplitr
          swap; · iexact HS0
          ipureintro; exact View.read_writes_of_cover _ _ _ _ _ (scover0_A_0 (F := F) c _ _ _ _ _ _ _ _ _ _ _ _ _ _ _ _ _ _ _ _ _ _)
        isplitl [HS1]
        · unfold owns; iexists _; isplitr
          swap; · iexact HS1
          ipureintro; exact View.read_writes_of_cover _ _ _ _ _ (scover0_A_1 (F := F) c _ _ _ _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_A_3 (F := F) c _ _ _ _ _ _ _ _ _ _ _ _ _ _ _ _ _ _ _ _ _ _)
      isplitl [H4]; · iexists _; iexact H4
      iexists _; iexact H5

  · by_cases h1 : t.val = 9
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t ((hcond0_1 t).mpr h1)], after0_4]
      rw [show (dat0 V c).leavesExact 5 t = owns (c : Thread nD τ) (ms0_5 t) fullShare ((dat0 V c).after 5 t) from by
        unfold Dat.leavesExact; rw [liveAt0_5 t ((hcond0_1 t).mpr h1)], after0_5]
      rw [outsAt0_C V c t h0 h1]
      unfold out0_C_3 out0_C_4 out0_C_5 sout0_C_0 sout0_C_1; (try dsimp only)
      rw [Phi0_castSucc V c t, Phi0_pos V c _ _ h0]
      iintro ⟨⟨HS0, HS1, HR, Hg⟩, Ho, ⟨%d0, H0⟩, ⟨%d1, H1⟩, ⟨%d2, H2⟩, ⟨%d3, H3⟩, ⟨%d4, H4⟩, ⟨%d5, H5⟩⟩
      iapply ((run0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) _ _).2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, ⟨%e3, H3⟩, ⟨%e4, H4⟩, ⟨%e5, H5⟩, ⟨%e6, HS0⟩, ⟨%e7, HS1⟩⟩
      isplitl [HS0 HS1 HR Hg]
      · isplitl [HS0]
        · unfold owns; iexists _; isplitr
          swap; · iexact HS0
          ipureintro; exact View.read_writes_of_cover _ _ _ _ _ (scover0_C_0 (F := F) c _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_C_1 (F := F) c _ _ _ _ _ _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_C_3 (F := F) c _ _ _ _ _ _ _ _ _ _ _ _ _ _ _ _ _ _ _ _ _ _ _ _)
      isplitl [H4]
      · unfold owns; iexists _; isplitr
        swap; · iexact H4
        ipureintro; exact View.read_writes_of_cover _ _ _ _ _ (cover0_C_4 (F := F) c _ _ _ _ _ _ _ _ _ _ _ _ _ _ _ _ _ _ _ _ _ _ _ _)
      unfold owns; iexists _; isplitr
      swap; · iexact H5
      ipureintro; exact View.read_writes_of_cover _ _ _ _ _ (cover0_C_5 (F := F) c _ _ _ _ _ _ _ _ _ _ _ _ _ _ _ _ _ _ _ _ _ _ _ _)

    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 t (fun h => h1 ((hcond0_1 t).mp h))) (noFlush0_4 t (fun h => h1 ((hcond0_1 t).mp h)))]
      rw [Dat.leavesExact_idle (dat0 V c) 5 t (idleAt0_5 t (fun h => h1 ((hcond0_1 t).mp h))) (noFlush0_5 t (fun h => h1 ((hcond0_1 t).mp h)))]
      rw [outsAt0_B V c t h0 h1]
      unfold out0_B_3 sout0_B_0 sout0_B_1; (try dsimp only)
      rw [Phi0_castSucc V c t, Phi0_pos V c _ _ h0]
      iintro ⟨⟨HS0, HS1, HR, Hg⟩, Ho, ⟨%d0, H0⟩, ⟨%d1, H1⟩, ⟨%d2, H2⟩, ⟨%d3, H3⟩, ⟨%d4, H4⟩, ⟨%d5, H5⟩⟩
      iapply ((run0_B c (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) _ _).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%e3, H3⟩, H4, H5, ⟨%e6, HS0⟩, ⟨%e7, HS1⟩⟩
      isplitl [HS0 HS1 HR Hg]
      · isplitl [HS0]
        · unfold owns; iexists _; isplitr
          swap; · iexact HS0
          ipureintro; exact View.read_writes_of_cover _ _ _ _ _ (scover0_B_0 (F := F) c _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_B_1 (F := F) c _ _ _ _ _ _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 (F := F) c _ _ _ _ _ _ _ _ _ _ _ _ _ _ _ _ _ _ _ _ _ _ _ _)
      isplitl [H4]; · iexists _; iexact H4
      iexists _; iexact H5

theorem body_obligation0 (c : Dev nD) : BodyObligation (dat0 (F := F) V c) (defs₀ (F := F)) Variants.none () Set.univ := fun t => by
  rw [bigSep_W0, bigSep_W0]
  exact sound_body0 V c t

/-! ## Entering and leaving the region -/

/-- What the launch hands the region is the invariant before the first tile: the accumulator rows are two of the scoped
    buffers, at whatever they hold. -/
theorem hin0 (c : Dev nD) :
    (iprop((∃ r, prngReg c r) ∗ Pipeline.scopedRest (Ix := Unit) (Name := ℕ) (U := UR sig nD τ) (Lvl := ℕ) (Val := Elt F) spec0 c) : sProp 𝕄) ⊢ (dat0 V c).Φ 0 := by
  rw [show (dat0 V c).Φ 0 = Phi0 V c 0 (Nat.zero_le _) from rfl, Phi0_zero V c 0 _ rfl, scopedRest0_rows]
  iintro ⟨Hg, ⟨HS0, HS1⟩, HR⟩
  isplitl [HS0]; · iexact HS0
  isplitl [HS1]; · iexact HS1
  isplitl [HR]; · iexact HR
  iexact Hg

/-- After the last tile the invariant gives the scoped rest back: the sums in the accumulator rows are forgotten. -/
theorem hout0 (c : Dev nD) :
    (dat0 V c).Φ (Fin.last cfg0.N) ⊢ (iprop((∃ r, prngReg c r) ∗ Pipeline.scopedRest (Ix := Unit) (Name := ℕ) (U := UR sig nD τ) (Lvl := ℕ) (Val := Elt F) spec0 c) : sProp 𝕄) := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 10 := N_0; omega), scopedRest0_rows]
  iintro ⟨HS0, HS1, HR, Hg⟩
  isplitl [Hg]; · iexact Hg
  isplitl [HS0 HS1]
  · isplitl [HS0]; · iexists _; iexact HS0
    iexists _; iexact HS1
  iexact HR

end Cert.Kernel.Hand

end
-- ==== Proof.K.Norm1.lean ====
import proofs.«167925_j62517543961156_1_alg».proof.Proof.Gen.Kernel.Launch
import proofs.«167925_j62517543961156_1_alg».proof.Proof.Gen.Kernel.Skeleton
import proofs.«167925_j62517543961156_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1: the normalisation of one node tile

Each grid point reads a tile of pre-activations (5000 rows, 64 features), the per-feature mean, variance,
scale and shift rows, and writes the tile
`max(((pre − mean) · rsqrt(var + ε)) · γ + β, 0)`.  No state is carried from one point to the
next: every input window is read whole, the one output window is written whole.  So, at an arbitrary
content `V` of the buffers on entry, the proof data say: after the body each input window holds its own
block and the output window holds the pointwise function of the input blocks.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the windows -/

/-- The block of window `w` at grid point `t`, cut out of the array the region finds on entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window that the body hands back unchanged holds its block at every point: where it was fetched
    this is what the fetch put there, and where it was not the block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window that the body hands back unchanged holds its block at every point: where it was fetched
    this is what the fetch put there, and where it was not the block index has not moved since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window that the body hands back unchanged holds its block at every point: where it was fetched
    this is what the fetch put there, and where it was not the block index has not moved since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window that the body hands back unchanged holds its block at every point: where it was fetched
    this is what the fetch put there, and where it was not the block index has not moved since the last fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- An input window that the body hands back unchanged holds its block at every point: where it was fetched
    this is what the fetch put there, and where it was not the block index has not moved since the last fetch. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What the body reads and writes -/

/-- The whole tile, and the whole row: the only two rectangles the body touches. -/
abbrev r1_big : Rect S5000x64 := Rect.unit (s := S5000x64) ![0, 0] S5000x64.size inb_S5000x64_S5000x64_0_0
abbrev r1_row : Rect S1x64 := Rect.unit (s := S1x64) ![0, 0] S1x64.size inb_S1x64_S1x64_0_0

/-- The output tile as a function of the input blocks: the single store, whose value is the normalised tile
    computed from the loaded tile and rows. -/
def out1_5 (x0 : Vec F S5000x64 .f32) (x1 : Vec F S1x64 .f32) (x2 : Vec F S1x64 .f32) (x3 : Vec F S1x64 .f32) (x4 : Vec F S1x64 .f32) : Vec F S5000x64 .f32 :=
  View.canon [⟨r1_big, k1_pay1 (View.ld x1 r1_row) (View.ld x2 r1_row) (View.ld x0 r1_big) (View.ld x3 r1_row) (View.ld x4 r1_row)⟩]

/-- The one store writes the whole tile, so every index of the buffer lies in it. -/
theorem cover1_5 (p0 : Vec F S5000x64 .f32) (y : S5000x64.Idx) :
    ∃ pc ∈ ([⟨r1_big, p0⟩] : List (View.Piece (Elt F) S5000x64 .f32)), y ∈ pc.1.set :=
  View.cover_of_tiled [⟨r1_big, p0⟩] S5000x64.size (by rfl) y

/-! ## The body, run on whole staging buffers -/

set_option maxHeartbeats 1000000 in
/-- Started with the input buffers at contents `x` and the output buffer at anything, the body ends with the inputs
    as they were and the output at `out1_5 x`: it is a sequence of whole-buffer loads followed by one
    whole-buffer store. -/
theorem sound_kernel1 (c : Dev nD) (E : Set ℕ) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__norm_kernel_base i arg1 harg1 arg2 harg2 arg3 harg3 arg4 harg4 arg5 harg5 arg6 harg6) K := by
  simp only [cc1__norm_kernel_base_eq_skeleton]; unfold cc1__norm_kernel_base_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The proof data of the pipeline -/

/-- The arrays are the ones found on entry; after the body at point `t` every input window holds its block and
    the output window the normalised tile of those blocks; the invariant is the one of a body that touches
    nothing but its windows; all shares are full and nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

/-- What the body leaves in each window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- What the body finds in each input window: its block. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What the body is started with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it ends with. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- At any point the input buffers hold their blocks, so the triple of the body applies; the invariant and the
    debts are not looked at. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.Kernel.Hand
-- ==== Proof.K.Stats2Defs.lean ====
import proofs.«167925_j62517543961156_1_alg».proof.Proof.Gen.Kernel.Launch
import proofs.«167925_j62517543961156_1_alg».proof.Proof.Gen.Kernel.Skeleton
import proofs.«167925_j62517543961156_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Statistics kernel of region 2: what its three control cases share -/

/-- The block of window `w` at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current buffer holds its block at every point: where the point does not fetch it, the block
    index has not moved since the last fetch. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The two conditions on the grid coordinate -/

/-- "This is the first node tile": the accumulators are reset. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)

/-- "This is the last node tile": mean and variance are formed from the accumulated sums. -/
abbrev cond2_1 (i : grid2.Coords) : Prop := k2_cond2 i = 1#1
theorem hcond2_1 : ∀ t : Fin cfg2.N, cond2_1 (grid2.coords t) ↔ t.val = 9 :=
  (by decide +kernel : ∀ t : Fin grid2.N, cond2_1 (grid2.coords t) ↔ t.val = 9)

/-! ## Where the windows are live -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
/-- Before the last tile nothing is stored into the mean and variance rows, and they are not written back. -/
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
/-- At the last tile both rows are stored. -/
theorem liveAt2_6 : ∀ t : Fin cfg2.N, cond2_1 (grid2.coords t) → cfg2.idle 6 (grid2.coords t) = false := by decide +kernel
theorem liveAt2_7 : ∀ t : Fin cfg2.N, cond2_1 (grid2.coords t) → cfg2.idle 7 (grid2.coords t) = false := by decide +kernel

/-! ## Views through which buffer contents are stated, and the two accumulator rows -/

abbrev VO2_5 : View sig .tc .vmem S5000x64 .f32 := (Memref.whole cc2_stg5_0 : Memref sig .tc .vmem S5000x64 .f32).view
abbrev VO2_6 : View sig .tc .vmem S1x64 .f32 := (Memref.whole cc2_stg6_0 : Memref sig .tc .vmem S1x64 .f32).view
abbrev VO2_7 : View sig .tc .vmem S1x64 .f32 := (Memref.whole cc2_stg7_0 : Memref sig .tc .vmem S1x64 .f32).view
/-- The row of column sums and the row of column sums of squares, carried from tile to tile. -/
abbrev scM2_0 : Memref sig .tc .vmem S1x64 .f32 := Memref.whole cc2_scratch0
abbrev scM2_1 : Memref sig .tc .vmem S1x64 .f32 := Memref.whole cc2_scratch1
abbrev VS2_0 : View sig .tc .vmem S1x64 .f32 := scM2_0.view
abbrev VS2_1 : View sig .tc .vmem S1x64 .f32 := scM2_1.view

/-- The part of the region's scoped memory that is neither a staging buffer nor one of the two accumulator rows. -/
abbrev restBut2 (c : Dev nD) : sProp 𝕄 :=
  Pipeline.scopedRestBut (Ix := Unit) (Name := ℕ) (U := UR sig nD τ) (Lvl := ℕ) (Val := Elt F) spec2 c [cc2_scratch0, cc2_scratch1]

/-- The scoped rest, with the two accumulator rows owned as whole memrefs at some contents. -/
theorem scopedRest2_rows (c : Dev nD) :
    (Pipeline.scopedRest (Ix := Unit) (Name := ℕ) (U := UR sig nD τ) (Lvl := ℕ) (Val := Elt F) spec2 c : sProp 𝕄)
      = iprop(iprop((∃ d, owns (c : Thread nD τ) scM2_0 fullShare d) ∗ (∃ d, owns (c : Thread nD τ) scM2_1 fullShare d)) ∗ restBut2 (F := F) c) := by
  rw [scopedRest2_split]; simp only [scM2_0, scM2_1, owns_whole]; try rfl

end Cert.Kernel.Hand

end
-- ==== Proof.K.Stats2RunA.lean ====
import proofs.«167925_j62517543961156_1_alg».proof.Proof.K.Stats2Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the FIRST node tile. Both accumulator rows, found at anything, are zeroed and then receive the tile's
    column sums (of the pre-activations, and of their squares); the pre-activation tile is stored; the mean and variance
    rows are not touched and come back as found. The lists are what the stores leave, last store first. -/
noncomputable def run2_A (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond2_0 i) (hc1 : ¬cond2_1 i)
    (x0 : Vec F S5000x64 .f32) (x1 : Vec F S64x64 .f32) (x2 : Vec F S1x64 .f32) (x3 : Vec F S5000x64 .f32) (x4 : Vec F S64x64 .f32) :
    Σ' (L5 : List (View.Piece (Elt F) S5000x64 .f32)) (LS0 : List (View.Piece (Elt F) S1x64 .f32)), { LS1 : List (View.Piece (Elt F) S1x64 .f32) //
      ∀ (xi6 xi7 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__stats_kernel_right i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc2__stats_kernel_right_eq_skeleton]; unfold cc2__stats_kernel_right_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    iexists _; iexact H9

end Cert.Kernel.Hand

end
-- ==== Proof.K.Stats2RunB.lean ====
import proofs.«167925_j62517543961156_1_alg».proof.Proof.K.Stats2RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a MIDDLE node tile. The accumulator rows, found at what the tile before left, receive this tile's column
    sums on top; the pre-activation tile is stored; the mean and variance rows are not touched and come back as found.
    The lists are what the stores leave, last store first. -/
noncomputable def run2_B (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : ¬cond2_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) :
    Σ' (L5 : List (View.Piece (Elt F) S5000x64 .f32)) (LS0 : List (View.Piece (Elt F) S1x64 .f32)), { LS1 : List (View.Piece (Elt F) S1x64 .f32) //
      ∀ (xi6 xi7 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__stats_kernel_right i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc2__stats_kernel_right_eq_skeleton]; unfold cc2__stats_kernel_right_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hf8; obtain rfl := harg10.eq_unread hf9
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    iexists _; iexact H9

end Cert.Kernel.Hand

end
-- ==== Proof.K.Stats2RunC.lean ====
import proofs.«167925_j62517543961156_1_alg».proof.Proof.K.Stats2RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the LAST node tile. The accumulator rows receive this tile's column sums on top of what the tile before
    left; then the mean row is the sums divided by the node count, and the variance row the sums of squares divided by
    the node count minus the squared mean. The lists are what the stores leave, last store first. -/
noncomputable def run2_C (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : cond2_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) :
    Σ' (L5 : List (View.Piece (Elt F) S5000x64 .f32)) (L6 : List (View.Piece (Elt F) S1x64 .f32)) (L7 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__stats_kernel_right i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc2__stats_kernel_right_eq_skeleton]; unfold cc2__stats_kernel_right_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hf8; obtain rfl := harg10.eq_unread hf9
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    iexists _; iexact H9

end Cert.Kernel.Hand

end
-- ==== Proof.K.Stats2.lean ====
import proofs.«167925_j62517543961156_1_alg».proof.Proof.K.Stats2RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Statistics kernel of region 2: what every buffer holds after each node tile, the proof data, the body obligation -/

/-- The stores of this case into this buffer cover it. -/
theorem cover2_A_5 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond2_0 i) (hc1 : ¬cond2_1 i)
    (x0 : Vec F S5000x64 .f32) (x1 : Vec F S64x64 .f32) (x2 : Vec F S1x64 .f32) (x3 : Vec F S5000x64 .f32) (x4 : Vec F S64x64 .f32) (y : S5000x64.Idx) :
    ∃ pc ∈ (run2_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (run2_A c i arg1 harg1 arg2 harg2 arg3 harg3 arg4 harg4 arg5 harg5 arg6 harg6 arg7 harg7 arg8 harg8 arg9 harg9 arg10 harg10 hc0 hc1 x0 x1 x2 x3 x4).1 S5000x64.size (by sl_kernel_rfl) y

/-- What they leave in it: the stored pieces read back. -/
def out2_A_5 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond2_0 i) (hc1 : ¬cond2_1 i)
    (x0 : Vec F S5000x64 .f32) (x1 : Vec F S64x64 .f32) (x2 : Vec F S1x64 .f32) (x3 : Vec F S5000x64 .f32) (x4 : Vec F S64x64 .f32) : Vec F S5000x64 .f32 :=
  VO2_5.read (Elt F) (VO2_5.writes (Elt F) VO2_5.junk (run2_A c i arg1 harg1 arg2 harg2 arg3 harg3 arg4 harg4 arg5 harg5 arg6 harg6 arg7 harg7 arg8 harg8 arg9 harg9 arg10 harg10 hc0 hc1 x0 x1 x2 x3 x4).1)

/-- The stores of this case into this buffer cover it. -/
theorem scover2_A_0 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond2_0 i) (hc1 : ¬cond2_1 i)
    (x0 : Vec F S5000x64 .f32) (x1 : Vec F S64x64 .f32) (x2 : Vec F S1x64 .f32) (x3 : Vec F S5000x64 .f32) (x4 : Vec F S64x64 .f32) (y : S1x64.Idx) :
    ∃ pc ∈ (run2_A c i arg1 harg1 arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (run2_A c i arg1 harg1 arg2 harg2 arg3 harg3 arg4 harg4 arg5 harg5 arg6 harg6 arg7 harg7 arg8 harg8 arg9 harg9 arg10 harg10 hc0 hc1 x0 x1 x2 x3 x4).2.1 S1x64.size (by sl_kernel_rfl) y

/-- What they leave in it: the stored pieces read back. -/
def sout2_A_0 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond2_0 i) (hc1 : ¬cond2_1 i)
    (x0 : Vec F S5000x64 .f32) (x1 : Vec F S64x64 .f32) (x2 : Vec F S1x64 .f32) (x3 : Vec F S5000x64 .f32) (x4 : Vec F S64x64 .f32) : Vec F S1x64 .f32 :=
  VS2_0.read (Elt F) (VS2_0.writes (Elt F) VS2_0.junk (run2_A c i arg1 harg1 arg2 harg2 arg3 harg3 arg4 harg4 arg5 harg5 arg6 harg6 arg7 harg7 arg8 harg8 arg9 harg9 arg10 harg10 hc0 hc1 x0 x1 x2 x3 x4).2.1)

/-- The stores of this case into this buffer cover it. -/
theorem scover2_A_1 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond2_0 i) (hc1 : ¬cond2_1 i)
    (x0 : Vec F S5000x64 .f32) (x1 : Vec F S64x64 .f32) (x2 : Vec F S1x64 .f32) (x3 : Vec F S5000x64 .f32) (x4 : Vec F S64x64 .f32) (y : S1x64.Idx) :
    ∃ pc ∈ (run2_A c i arg1 harg1 arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (run2_A c i arg1 harg1 arg2 harg2 arg3 harg3 arg4 harg4 arg5 harg5 arg6 harg6 arg7 harg7 arg8 harg8 arg9 harg9 arg10 harg10 hc0 hc1 x0 x1 x2 x3 x4).2.2.1 S1x64.size (by sl_kernel_rfl) y

/-- What they leave in it: the stored pieces read back. -/
def sout2_A_1 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond2_0 i) (hc1 : ¬cond2_1 i)
    (x0 : Vec F S5000x64 .f32) (x1 : Vec F S64x64 .f32) (x2 : Vec F S1x64 .f32) (x3 : Vec F S5000x64 .f32) (x4 : Vec F S64x64 .f32) : Vec F S1x64 .f32 :=
  VS2_1.read (Elt F) (VS2_1.writes (Elt F) VS2_1.junk (run2_A c i arg1 harg1 arg2 harg2 arg3 harg3 arg4 harg4 arg5 harg5 arg6 harg6 arg7 harg7 arg8 harg8 arg9 harg9 arg10 harg10 hc0 hc1 x0 x1 x2 x3 x4).2.2.1)

/-- The stores of this case into this buffer cover it. -/
theorem cover2_B_5 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : ¬cond2_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S5000x64.Idx) :
    ∃ pc ∈ (run2_B c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (run2_B c i arg1 harg1 arg2 harg2 arg3 harg3 arg4 harg4 arg5 harg5 arg6 harg6 arg7 harg7 arg8 harg8 arg9 harg9 arg10 harg10 hc0 hc1 x0 x1 x2 x3 x4 xs0 xs1).1 S5000x64.size (by sl_kernel_rfl) y

/-- What they leave in it: the stored pieces read back. -/
def out2_B_5 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : ¬cond2_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S5000x64 .f32 :=
  VO2_5.read (Elt F) (VO2_5.writes (Elt F) VO2_5.junk (run2_B c i arg1 harg1 arg2 harg2 arg3 harg3 arg4 harg4 arg5 harg5 arg6 harg6 arg7 harg7 arg8 harg8 arg9 harg9 arg10 harg10 hc0 hc1 x0 x1 x2 x3 x4 xs0 xs1).1)

/-- The stores of this case into this buffer cover it. -/
theorem scover2_B_0 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : ¬cond2_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S1x64.Idx) :
    ∃ pc ∈ (run2_B c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (run2_B c i arg1 harg1 arg2 harg2 arg3 harg3 arg4 harg4 arg5 harg5 arg6 harg6 arg7 harg7 arg8 harg8 arg9 harg9 arg10 harg10 hc0 hc1 x0 x1 x2 x3 x4 xs0 xs1).2.1 S1x64.size (by sl_kernel_rfl) y

/-- What they leave in it: the stored pieces read back. -/
def sout2_B_0 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : ¬cond2_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S1x64 .f32 :=
  VS2_0.read (Elt F) (VS2_0.writes (Elt F) VS2_0.junk (run2_B c i arg1 harg1 arg2 harg2 arg3 harg3 arg4 harg4 arg5 harg5 arg6 harg6 arg7 harg7 arg8 harg8 arg9 harg9 arg10 harg10 hc0 hc1 x0 x1 x2 x3 x4 xs0 xs1).2.1)

/-- The stores of this case into this buffer cover it. -/
theorem scover2_B_1 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : ¬cond2_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S1x64.Idx) :
    ∃ pc ∈ (run2_B c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (run2_B c i arg1 harg1 arg2 harg2 arg3 harg3 arg4 harg4 arg5 harg5 arg6 harg6 arg7 harg7 arg8 harg8 arg9 harg9 arg10 harg10 hc0 hc1 x0 x1 x2 x3 x4 xs0 xs1).2.2.1 S1x64.size (by sl_kernel_rfl) y

/-- What they leave in it: the stored pieces read back. -/
def sout2_B_1 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : ¬cond2_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S1x64 .f32 :=
  VS2_1.read (Elt F) (VS2_1.writes (Elt F) VS2_1.junk (run2_B c i arg1 harg1 arg2 harg2 arg3 harg3 arg4 harg4 arg5 harg5 arg6 harg6 arg7 harg7 arg8 harg8 arg9 harg9 arg10 harg10 hc0 hc1 x0 x1 x2 x3 x4 xs0 xs1).2.2.1)

/-- The stores of this case into this buffer cover it. -/
theorem cover2_C_5 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : cond2_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S5000x64.Idx) :
    ∃ pc ∈ (run2_C c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (run2_C c i arg1 harg1 arg2 harg2 arg3 harg3 arg4 harg4 arg5 harg5 arg6 harg6 arg7 harg7 arg8 harg8 arg9 harg9 arg10 harg10 hc0 hc1 x0 x1 x2 x3 x4 xs0 xs1).1 S5000x64.size (by sl_kernel_rfl) y

/-- What they leave in it: the stored pieces read back. -/
def out2_C_5 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : cond2_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S5000x64 .f32 :=
  VO2_5.read (Elt F) (VO2_5.writes (Elt F) VO2_5.junk (run2_C c i arg1 harg1 arg2 harg2 arg3 harg3 arg4 harg4 arg5 harg5 arg6 harg6 arg7 harg7 arg8 harg8 arg9 harg9 arg10 harg10 hc0 hc1 x0 x1 x2 x3 x4 xs0 xs1).1)

/-- The stores of this case into this buffer cover it. -/
theorem cover2_C_6 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : cond2_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S1x64.Idx) :
    ∃ pc ∈ (run2_C c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (run2_C c i arg1 harg1 arg2 harg2 arg3 harg3 arg4 harg4 arg5 harg5 arg6 harg6 arg7 harg7 arg8 harg8 arg9 harg9 arg10 harg10 hc0 hc1 x0 x1 x2 x3 x4 xs0 xs1).2.1 S1x64.size (by sl_kernel_rfl) y

/-- What they leave in it: the stored pieces read back. -/
def out2_C_6 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : cond2_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S1x64 .f32 :=
  VO2_6.read (Elt F) (VO2_6.writes (Elt F) VO2_6.junk (run2_C c i arg1 harg1 arg2 harg2 arg3 harg3 arg4 harg4 arg5 harg5 arg6 harg6 arg7 harg7 arg8 harg8 arg9 harg9 arg10 harg10 hc0 hc1 x0 x1 x2 x3 x4 xs0 xs1).2.1)

/-- The stores of this case into this buffer cover it. -/
theorem cover2_C_7 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : cond2_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S1x64.Idx) :
    ∃ pc ∈ (run2_C c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (run2_C c i arg1 harg1 arg2 harg2 arg3 harg3 arg4 harg4 arg5 harg5 arg6 harg6 arg7 harg7 arg8 harg8 arg9 harg9 arg10 harg10 hc0 hc1 x0 x1 x2 x3 x4 xs0 xs1).2.2.1 S1x64.size (by sl_kernel_rfl) y

/-- What they leave in it: the stored pieces read back. -/
def out2_C_7 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : cond2_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S1x64 .f32 :=
  VO2_7.read (Elt F) (VO2_7.writes (Elt F) VO2_7.junk (run2_C c i arg1 harg1 arg2 harg2 arg3 harg3 arg4 harg4 arg5 harg5 arg6 harg6 arg7 harg7 arg8 harg8 arg9 harg9 arg10 harg10 hc0 hc1 x0 x1 x2 x3 x4 xs0 xs1).2.2.1)

/-- The stores of this case into this buffer cover it. -/
theorem scover2_C_0 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : cond2_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S1x64.Idx) :
    ∃ pc ∈ (run2_C c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (run2_C c i arg1 harg1 arg2 harg2 arg3 harg3 arg4 harg4 arg5 harg5 arg6 harg6 arg7 harg7 arg8 harg8 arg9 harg9 arg10 harg10 hc0 hc1 x0 x1 x2 x3 x4 xs0 xs1).2.2.2.1 S1x64.size (by sl_kernel_rfl) y

/-- What they leave in it: the stored pieces read back. -/
def sout2_C_0 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : cond2_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S1x64 .f32 :=
  VS2_0.read (Elt F) (VS2_0.writes (Elt F) VS2_0.junk (run2_C c i arg1 harg1 arg2 harg2 arg3 harg3 arg4 harg4 arg5 harg5 arg6 harg6 arg7 harg7 arg8 harg8 arg9 harg9 arg10 harg10 hc0 hc1 x0 x1 x2 x3 x4 xs0 xs1).2.2.2.1)

/-- The stores of this case into this buffer cover it. -/
theorem scover2_C_1 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : cond2_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S1x64.Idx) :
    ∃ pc ∈ (run2_C c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (run2_C c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x64.size (by sl_kernel_rfl) y

/-- What they leave in it: the stored pieces read back. -/
def sout2_C_1 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : cond2_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S1x64 .f32 :=
  VS2_1.read (Elt F) (VS2_1.writes (Elt F) VS2_1.junk (run2_C c i arg1 harg1 arg2 harg2 arg3 harg3 arg4 harg4 arg5 harg5 arg6 harg6 arg7 harg7 arg8 harg8 arg9 harg9 arg10 harg10 hc0 hc1 x0 x1 x2 x3 x4 xs0 xs1).2.2.2.2.1)

/-! ## The buffers the pipeline hands the body at a point -/

abbrev ms2_0 (t : Fin cfg2.N) : Memref sig .tc .vmem S5000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S64x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S5000x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S64x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S5000x64 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x64 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x64 .f32 := win2_7.stage (cfg2.slots t 7)
abbrev hs2_7 (t : Fin cfg2.N) : (ms2_7 t).IsWhole := hstage2_7 ((cfg2.slots t 7).cast nbuf2_7)

/-! ## What the buffers hold after each node tile -/

/-- After the body at position `n`: the pre-activation tile's buffer, the mean row, the variance row (both meaningful at
    the last tile only; elsewhere a placeholder nothing reads), and the two accumulator rows — the row of column sums and
    the row of column sums of squares over the tiles `0 .. n`: at the first tile from zero, at every later one on top of
    what the tile before left. -/
def outsAt2 (c : Dev nD) : (n : ℕ) → n < cfg2.N → Vec F S5000x64 .f32 × Vec F S1x64 .f32 × Vec F S1x64 .f32 × Vec F S1x64 .f32 × Vec F S1x64 .f32
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩),
        VO2_6.read (Elt F) VO2_6.junk,
        VO2_7.read (Elt F) VO2_7.junk,
        sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩),
        sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h1 : n + 1 = 9 then
      (out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2,
        out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2,
        out2_C_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2,
        sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2,
        sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2)
    else
      (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => absurd ((hcond2_0 ⟨n + 1, hn⟩).mp h) (Nat.succ_ne_zero n)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2,
        VO2_6.read (Elt F) VO2_6.junk,
        VO2_7.read (Elt F) VO2_7.junk,
        sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => absurd ((hcond2_0 ⟨n + 1, hn⟩).mp h) (Nat.succ_ne_zero n)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2,
        sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => absurd ((hcond2_0 ⟨n + 1, hn⟩).mp h) (Nat.succ_ne_zero n)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2)

/-- The row of column sums after tile `n`, and the row of column sums of squares. -/
abbrev S2 (c : Dev nD) (n : ℕ) (hn : n < cfg2.N) : Vec F S1x64 .f32 := (outsAt2 V c n hn).2.2.2.1
abbrev Q2 (c : Dev nD) (n : ℕ) (hn : n < cfg2.N) : Vec F S1x64 .f32 := (outsAt2 V c n hn).2.2.2.2

theorem outsAt2_A (c : Dev nD) (t : Fin cfg2.N) (h0 : t.val = 0) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => (fun h => by omega) ((hcond2_1 t).mp h)) (iblk2 V c 0 t) (iblk2 V c 1 t) (iblk2 V c 2 t) (iblk2 V c 3 t) (iblk2 V c 4 t),
        VO2_6.read (Elt F) VO2_6.junk,
        VO2_7.read (Elt F) VO2_7.junk,
        sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => (fun h => by omega) ((hcond2_1 t).mp h)) (iblk2 V c 0 t) (iblk2 V c 1 t) (iblk2 V c 2 t) (iblk2 V c 3 t) (iblk2 V c 4 t),
        sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => (fun h => by omega) ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exact absurd h0 (Nat.succ_ne_zero n)

theorem outsAt2_B (c : Dev nD) (t : Fin cfg2.N) (h0 : ¬t.val = 0) (h1 : ¬t.val = 9) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
        VO2_6.read (Elt F) VO2_6.junk,
        VO2_7.read (Elt F) VO2_7.junk,
        sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
        sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact absurd rfl h0
  | succ n => exact (dif_neg h1).trans rfl

theorem outsAt2_C (c : Dev nD) (t : Fin cfg2.N) (h0 : ¬t.val = 0) (h1 : t.val = 9) :
    outsAt2 V c t.val t.isLt = (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
        out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
        out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
        sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
        sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The invariant between node tiles -/

/-- Before position `n`: the two accumulator rows — at anything before the first tile, afterwards at the sums the tile
    before left —, the rest of the scoped memory untouched, the generator register at some state. -/
def Phi2 (c : Dev nD) : (n : ℕ) → n ≤ cfg2.N → sProp 𝕄
  | 0, _ => iprop((∃ d, owns (c : Thread nD τ) scM2_0 fullShare d) ∗ (∃ d, owns (c : Thread nD τ) scM2_1 fullShare d) ∗ restBut2 (F := F) c ∗ (∃ r, prngReg c r))
  | n + 1, hn => iprop(owns (c : Thread nD τ) scM2_0 fullShare (S2 V c n hn) ∗ owns (c : Thread nD τ) scM2_1 fullShare (Q2 V c n hn) ∗ restBut2 (F := F) c ∗ (∃ r, prngReg c r))

theorem Phi2_zero (c : Dev nD) (n : ℕ) (h : n ≤ cfg2.N) (hz : n = 0) :
    Phi2 V c n h = iprop((∃ d, owns (c : Thread nD τ) scM2_0 fullShare d) ∗ (∃ d, owns (c : Thread nD τ) scM2_1 fullShare d) ∗ restBut2 (F := F) c ∗ (∃ r, prngReg c r)) := by
  subst hz; rfl

theorem Phi2_succ (c : Dev nD) (n : ℕ) (hn : n < cfg2.N) :
    Phi2 V c (n + 1) hn = iprop(owns (c : Thread nD τ) scM2_0 fullShare (S2 V c n hn) ∗ owns (c : Thread nD τ) scM2_1 fullShare (Q2 V c n hn) ∗ restBut2 (F := F) c ∗ (∃ r, prngReg c r)) := rfl

theorem Phi2_pos (c : Dev nD) (n : ℕ) (h : n ≤ cfg2.N) (hz : n ≠ 0) :
    Phi2 V c n h = iprop(owns (c : Thread nD τ) scM2_0 fullShare (S2 V c (n - 1) (by omega)) ∗ owns (c : Thread nD τ) scM2_1 fullShare (Q2 V c (n - 1) (by omega)) ∗ restBut2 (F := F) c ∗ (∃ r, prngReg c r)) := by
  cases n with
  | zero => exact absurd rfl hz
  | succ n => rfl

/-! ## The proof data -/

/-- The pipeline's proof data on core `c`: the arrays as the region finds them; after the body at a point every input's
    buffer at its block, the outputs' at `outsAt2`'s components; between points the invariant `Phi2`; full shares,
    nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
    | ⟨6, _⟩ => (outsAt2 V c t.val t.isLt).2.1
    | ⟨7, _⟩ => (outsAt2 V c t.val t.isLt).2.2.1
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem after2_6 (c : Dev nD) (t : Fin cfg2.N) : (dat2 V c).after 6 t = (outsAt2 V c t.val t.isLt).2.1 := by dsimp only [dat2]
theorem after2_7 (c : Dev nD) (t : Fin cfg2.N) : (dat2 V c).after 7 t = (outsAt2 V c t.val t.isLt).2.2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4800000 in
/-- The body at any point. The inputs' buffers hold their blocks; the point's position says which control case it is in;
    that case's run applies, handed the accumulator rows at what the invariant says they hold, and gives them back at this
    point's sums; the mean and variance rows are handed back untouched before the last tile. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = Phi2 V c (t.val + 1) t.isLt from rfl, Phi2_succ]
  unfold S2 Q2
  have hN : t.val < 10 := lt_of_lt_of_eq t.isLt (show cfg2.N = 10 from N_2)
  by_cases h0 : t.val = 0
  · have h1 : ¬t.val = 9 := by omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [Dat.leavesExact_idle (dat2 V c) 6 t (idleAt2_6 t (fun h => h1 ((hcond2_1 t).mp h))) (noFlush2_6 t (fun h => h1 ((hcond2_1 t).mp h)))]
      rw [Dat.leavesExact_idle (dat2 V c) 7 t (idleAt2_7 t (fun h => h1 ((hcond2_1 t).mp h))) (noFlush2_7 t (fun h => h1 ((hcond2_1 t).mp h)))]
      rw [outsAt2_A V c t h0]
      unfold out2_A_5 sout2_A_0 sout2_A_1; (try dsimp only)
      rw [Phi2_castSucc V c t, Phi2_zero V c _ _ h0]
      iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((run2_A c (grid2.coords t) _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%e8, HS0⟩, ⟨%e9, HS1⟩⟩
      isplitl [HS0 HS1 HR Hg]
      · isplitl [HS0]
        · unfold owns; iexists _; isplitr
          swap; · iexact HS0
          ipureintro; exact View.read_writes_of_cover _ _ _ _ _ (scover2_A_0 (F := F) c _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover2_A_1 (F := F) c _ _ _ _ _ _ _ _ _ _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover2_A_5 (F := F) c _ _ _ _ _ _ _ _ _ _ _ _ _ _ _ _ _ _ _ _ _ _ _ _ _ _ _ _)
      isplitl [H6]; · iexists _; iexact H6
      iexists _; iexact H7

  · by_cases h1 : t.val = 9
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t ((hcond2_1 t).mpr h1)], after2_6]
      rw [show (dat2 V c).leavesExact 7 t = owns (c : Thread nD τ) (ms2_7 t) fullShare ((dat2 V c).after 7 t) from by
        unfold Dat.leavesExact; rw [liveAt2_7 t ((hcond2_1 t).mpr h1)], after2_7]
      rw [outsAt2_C V c t h0 h1]
      unfold out2_C_5 out2_C_6 out2_C_7 sout2_C_0 sout2_C_1; (try dsimp only)
      rw [Phi2_castSucc V c t, Phi2_pos V c _ _ h0]
      iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((run2_C c (grid2.coords t) _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%e8, HS0⟩, ⟨%e9, HS1⟩⟩
      isplitl [HS0 HS1 HR Hg]
      · isplitl [HS0]
        · unfold owns; iexists _; isplitr
          swap; · iexact HS0
          ipureintro; exact View.read_writes_of_cover _ _ _ _ _ (scover2_C_0 (F := F) c _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover2_C_1 (F := F) c _ _ _ _ _ _ _ _ _ _ _ _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover2_C_5 (F := F) c _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover2_C_6 (F := F) c _ _ _ _ _ _ _ _ _ _ _ _ _ _ _ _ _ _ _ _ _ _ _ _ _ _ _ _ _ _)
      unfold owns; iexists _; isplitr
      swap; · iexact H7
      ipureintro; exact View.read_writes_of_cover _ _ _ _ _ (cover2_C_7 (F := F) c _ _ _ _ _ _ _ _ _ _ _ _ _ _ _ _ _ _ _ _ _ _ _ _ _ _ _ _ _ _)

    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [Dat.leavesExact_idle (dat2 V c) 6 t (idleAt2_6 t (fun h => h1 ((hcond2_1 t).mp h))) (noFlush2_6 t (fun h => h1 ((hcond2_1 t).mp h)))]
      rw [Dat.leavesExact_idle (dat2 V c) 7 t (idleAt2_7 t (fun h => h1 ((hcond2_1 t).mp h))) (noFlush2_7 t (fun h => h1 ((hcond2_1 t).mp h)))]
      rw [outsAt2_B V c t h0 h1]
      unfold out2_B_5 sout2_B_0 sout2_B_1; (try dsimp only)
      rw [Phi2_castSucc V c t, Phi2_pos V c _ _ h0]
      iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((run2_B c (grid2.coords t) _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _ _).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%e8, HS0⟩, ⟨%e9, HS1⟩⟩
      isplitl [HS0 HS1 HR Hg]
      · isplitl [HS0]
        · unfold owns; iexists _; isplitr
          swap; · iexact HS0
          ipureintro; exact View.read_writes_of_cover _ _ _ _ _ (scover2_B_0 (F := F) c _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover2_B_1 (F := F) c _ _ _ _ _ _ _ _ _ _ _ _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover2_B_5 (F := F) c _ _ _ _ _ _ _ _ _ _ _ _ _ _ _ _ _ _ _ _ _ _ _ _ _ _ _ _ _ _)
      isplitl [H6]; · iexists _; iexact H6
      iexists _; iexact H7

theorem body_obligation2 (c : Dev nD) : BodyObligation (dat2 (F := F) V c) (defs₀ (F := F)) Variants.none () Set.univ := fun t => by
  rw [bigSep_W2, bigSep_W2]
  exact sound_body2 V c t

/-! ## Entering and leaving the region -/

/-- What the launch hands the region is the invariant before the first tile: the accumulator rows are two of the scoped
    buffers, at whatever they hold. -/
theorem hin2 (c : Dev nD) :
    (iprop((∃ r, prngReg c r) ∗ Pipeline.scopedRest (Ix := Unit) (Name := ℕ) (U := UR sig nD τ) (Lvl := ℕ) (Val := Elt F) spec2 c) : sProp 𝕄) ⊢ (dat2 V c).Φ 0 := by
  rw [show (dat2 V c).Φ 0 = Phi2 V c 0 (Nat.zero_le _) from rfl, Phi2_zero V c 0 _ rfl, scopedRest2_rows]
  iintro ⟨Hg, ⟨HS0, HS1⟩, HR⟩
  isplitl [HS0]; · iexact HS0
  isplitl [HS1]; · iexact HS1
  isplitl [HR]; · iexact HR
  iexact Hg

/-- After the last tile the invariant gives the scoped rest back: the sums in the accumulator rows are forgotten. -/
theorem hout2 (c : Dev nD) :
    (dat2 V c).Φ (Fin.last cfg2.N) ⊢ (iprop((∃ r, prngReg c r) ∗ Pipeline.scopedRest (Ix := Unit) (Name := ℕ) (U := UR sig nD τ) (Lvl := ℕ) (Val := Elt F) spec2 c) : sProp 𝕄) := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 10 := N_2; omega), scopedRest2_rows]
  iintro ⟨HS0, HS1, HR, Hg⟩
  isplitl [Hg]; · iexact Hg
  isplitl [HS0 HS1]
  · isplitl [HS0]; · iexists _; iexact HS0
    iexists _; iexact HS1
  iexact HR

end Cert.Kernel.Hand

end
-- ==== Proof.K.Norm3.lean ====
import proofs.«167925_j62517543961156_1_alg».proof.Proof.Gen.Kernel.Launch
import proofs.«167925_j62517543961156_1_alg».proof.Proof.Gen.Kernel.Skeleton
import proofs.«167925_j62517543961156_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 3: the normalisation of one node tile

Each grid point reads a tile of pre-activations (5000 rows, 64 features), the per-feature mean, variance,
scale and shift rows, and the tile of the previous layer's features, and writes the tile
`max(((pre − mean) · rsqrt(var + ε)) · γ + β, 0) + resid`.  No state is carried from one point to the
next: every input window is read whole, the one output window is written whole.  So, at an arbitrary
content `V` of the buffers on entry, the proof data say: after the body each input window holds its own
block and the output window holds the pointwise function of the input blocks.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the windows -/

/-- The block of window `w` at grid point `t`, cut out of the array the region finds on entry. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window that the body hands back unchanged holds its block at every point: where it was fetched
    this is what the fetch put there, and where it was not the block index has not moved since the last fetch. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input window that the body hands back unchanged holds its block at every point: where it was fetched
    this is what the fetch put there, and where it was not the block index has not moved since the last fetch. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- An input window that the body hands back unchanged holds its block at every point: where it was fetched
    this is what the fetch put there, and where it was not the block index has not moved since the last fetch. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- An input window that the body hands back unchanged holds its block at every point: where it was fetched
    this is what the fetch put there, and where it was not the block index has not moved since the last fetch. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- An input window that the body hands back unchanged holds its block at every point: where it was fetched
    this is what the fetch put there, and where it was not the block index has not moved since the last fetch. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- An input window that the body hands back unchanged holds its block at every point: where it was fetched
    this is what the fetch put there, and where it was not the block index has not moved since the last fetch. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## What the body reads and writes -/

/-- The whole tile, and the whole row: the only two rectangles the body touches. -/
abbrev r3_big : Rect S5000x64 := Rect.unit (s := S5000x64) ![0, 0] S5000x64.size inb_S5000x64_S5000x64_0_0
abbrev r3_row : Rect S1x64 := Rect.unit (s := S1x64) ![0, 0] S1x64.size inb_S1x64_S1x64_0_0

/-- The output tile as a function of the input blocks: the single store, whose value is the normalised tile
    computed from the loaded tile and rows. -/
def out3_6 (x0 : Vec F S5000x64 .f32) (x1 : Vec F S1x64 .f32) (x2 : Vec F S1x64 .f32) (x3 : Vec F S1x64 .f32) (x4 : Vec F S1x64 .f32) (x5 : Vec F S5000x64 .f32) : Vec F S5000x64 .f32 :=
  View.canon [⟨r3_big, k3_pay1 (View.ld x1 r3_row) (View.ld x2 r3_row) (View.ld x0 r3_big) (View.ld x3 r3_row) (View.ld x4 r3_row) (View.ld x5 r3_big)⟩]

/-- The one store writes the whole tile, so every index of the buffer lies in it. -/
theorem cover3_6 (p0 : Vec F S5000x64 .f32) (y : S5000x64.Idx) :
    ∃ pc ∈ ([⟨r3_big, p0⟩] : List (View.Piece (Elt F) S5000x64 .f32)), y ∈ pc.1.set :=
  View.cover_of_tiled [⟨r3_big, p0⟩] S5000x64.size (by rfl) y

/-! ## The body, run on whole staging buffers -/

set_option maxHeartbeats 1000000 in
/-- Started with the input buffers at contents `x` and the output buffer at anything, the body ends with the inputs
    as they were and the output at `out3_6 x`: it is a sequence of whole-buffer loads followed by one
    whole-buffer store. -/
theorem sound_kernel3 (c : Dev nD) (E : Set ℕ) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S5000x64 .f32) (harg7 : arg7.IsWhole)
    (x0 : Vec F S5000x64 .f32) (x1 : Vec F S1x64 .f32) (x2 : Vec F S1x64 .f32) (x3 : Vec F S1x64 .f32) (x4 : Vec F S1x64 .f32) (x5 : Vec F S5000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5)) -∗ K ⟨⟩))
      ⊢ wp frame (wpE (defs₀ (F := F)) Variants.none c none) E (cc3__norm_kernel_resid i arg1 harg1 arg2 harg2 arg3 harg3 arg4 harg4 arg5 harg5 arg6 harg6 arg7 harg7) K := by
  simp only [cc3__norm_kernel_resid_eq_skeleton]; unfold cc3__norm_kernel_resid_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-! ## The proof data of the pipeline -/

/-- The arrays are the ones found on entry; after the body at point `t` every input window holds its block and
    the output window the normalised tile of those blocks; the invariant is the one of a body that touches
    nothing but its windows; all shares are full and nothing is owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

/-- What the body leaves in each window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

/-- What the body finds in each input window: its block. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation -/

/-- What the body is started with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it ends with. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- At any point the input buffers hold their blocks, so the triple of the body applies; the invariant and the
    debts are not looked at. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation3 (c : Dev nD) : BodyObligation (dat3 (F := F) V c) (defs₀ (F := F)) Variants.none () Set.univ := fun t => by
  rw [bigSep_W3, bigSep_W3]
  exact sound_body3 V c t

end Cert.Kernel.Hand
-- ==== Proof.K.Stats4Defs.lean ====
import proofs.«167925_j62517543961156_1_alg».proof.Proof.Gen.Kernel.Launch
import proofs.«167925_j62517543961156_1_alg».proof.Proof.Gen.Kernel.Skeleton
import proofs.«167925_j62517543961156_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Statistics kernel of region 4: what its three control cases share -/

/-- The block of window `w` at grid point `t`, read off the window's array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! An input window's current buffer holds its block at every point: where the point does not fetch it, the block
    index has not moved since the last fetch. -/

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The two conditions on the grid coordinate -/

/-- "This is the first node tile": the accumulators are reset. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)

/-- "This is the last node tile": mean and variance are formed from the accumulated sums. -/
abbrev cond4_1 (i : grid4.Coords) : Prop := k4_cond2 i = 1#1
theorem hcond4_1 : ∀ t : Fin cfg4.N, cond4_1 (grid4.coords t) ↔ t.val = 9 :=
  (by decide +kernel : ∀ t : Fin grid4.N, cond4_1 (grid4.coords t) ↔ t.val = 9)

/-! ## Where the windows are live -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem liveAt4_5 : ∀ t : Fin cfg4.N, cfg4.idle 5 (grid4.coords t) = false := by decide +kernel
/-- Before the last tile nothing is stored into the mean and variance rows, and they are not written back. -/
theorem idleAt4_6 : ∀ t : Fin cfg4.N, ¬cond4_1 (grid4.coords t) → cfg4.idle 6 (grid4.coords t) = true := by decide +kernel
theorem noFlush4_6 : ∀ t : Fin cfg4.N, ¬cond4_1 (grid4.coords t) → (cfg4.win 6).flush t = false := by decide +kernel
theorem idleAt4_7 : ∀ t : Fin cfg4.N, ¬cond4_1 (grid4.coords t) → cfg4.idle 7 (grid4.coords t) = true := by decide +kernel
theorem noFlush4_7 : ∀ t : Fin cfg4.N, ¬cond4_1 (grid4.coords t) → (cfg4.win 7).flush t = false := by decide +kernel
/-- At the last tile both rows are stored. -/
theorem liveAt4_6 : ∀ t : Fin cfg4.N, cond4_1 (grid4.coords t) → cfg4.idle 6 (grid4.coords t) = false := by decide +kernel
theorem liveAt4_7 : ∀ t : Fin cfg4.N, cond4_1 (grid4.coords t) → cfg4.idle 7 (grid4.coords t) = false := by decide +kernel

/-! ## Views through which buffer contents are stated, and the two accumulator rows -/

abbrev VO4_5 : View sig .tc .vmem S5000x64 .f32 := (Memref.whole cc4_stg5_0 : Memref sig .tc .vmem S5000x64 .f32).view
abbrev VO4_6 : View sig .tc .vmem S1x64 .f32 := (Memref.whole cc4_stg6_0 : Memref sig .tc .vmem S1x64 .f32).view
abbrev VO4_7 : View sig .tc .vmem S1x64 .f32 := (Memref.whole cc4_stg7_0 : Memref sig .tc .vmem S1x64 .f32).view
/-- The row of column sums and the row of column sums of squares, carried from tile to tile. -/
abbrev scM4_0 : Memref sig .tc .vmem S1x64 .f32 := Memref.whole cc4_scratch0
abbrev scM4_1 : Memref sig .tc .vmem S1x64 .f32 := Memref.whole cc4_scratch1
abbrev VS4_0 : View sig .tc .vmem S1x64 .f32 := scM4_0.view
abbrev VS4_1 : View sig .tc .vmem S1x64 .f32 := scM4_1.view

/-- The part of the region's scoped memory that is neither a staging buffer nor one of the two accumulator rows. -/
abbrev restBut4 (c : Dev nD) : sProp 𝕄 :=
  Pipeline.scopedRestBut (Ix := Unit) (Name := ℕ) (U := UR sig nD τ) (Lvl := ℕ) (Val := Elt F) spec4 c [cc4_scratch0, cc4_scratch1]

/-- The scoped rest, with the two accumulator rows owned as whole memrefs at some contents. -/
theorem scopedRest4_rows (c : Dev nD) :
    (Pipeline.scopedRest (Ix := Unit) (Name := ℕ) (U := UR sig nD τ) (Lvl := ℕ) (Val := Elt F) spec4 c : sProp 𝕄)
      = iprop(iprop((∃ d, owns (c : Thread nD τ) scM4_0 fullShare d) ∗ (∃ d, owns (c : Thread nD τ) scM4_1 fullShare d)) ∗ restBut4 (F := F) c) := by
  rw [scopedRest4_split]; simp only [scM4_0, scM4_1, owns_whole]; try rfl

end Cert.Kernel.Hand

end
-- ==== Proof.K.Stats4RunA.lean ====
import proofs.«167925_j62517543961156_1_alg».proof.Proof.K.Stats4Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the FIRST node tile. Both accumulator rows, found at anything, are zeroed and then receive the tile's
    column sums (of the pre-activations, and of their squares); the pre-activation tile is stored; the mean and variance
    rows are not touched and come back as found. The lists are what the stores leave, last store first. -/
noncomputable def run4_A (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond4_0 i) (hc1 : ¬cond4_1 i)
    (x0 : Vec F S5000x64 .f32) (x1 : Vec F S64x64 .f32) (x2 : Vec F S1x64 .f32) (x3 : Vec F S5000x64 .f32) (x4 : Vec F S64x64 .f32) :
    Σ' (L5 : List (View.Piece (Elt F) S5000x64 .f32)) (LS0 : List (View.Piece (Elt F) S1x64 .f32)), { LS1 : List (View.Piece (Elt F) S1x64 .f32) //
      ∀ (xi6 xi7 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc4__stats_kernel_right i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc4__stats_kernel_right_eq_skeleton]; unfold cc4__stats_kernel_right_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    iexists _; iexact H9

end Cert.Kernel.Hand

end
-- ==== Proof.K.Stats4RunB.lean ====
import proofs.«167925_j62517543961156_1_alg».proof.Proof.K.Stats4RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a MIDDLE node tile. The accumulator rows, found at what the tile before left, receive this tile's column
    sums on top; the pre-activation tile is stored; the mean and variance rows are not touched and come back as found.
    The lists are what the stores leave, last store first. -/
noncomputable def run4_B (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : ¬cond4_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) :
    Σ' (L5 : List (View.Piece (Elt F) S5000x64 .f32)) (LS0 : List (View.Piece (Elt F) S1x64 .f32)), { LS1 : List (View.Piece (Elt F) S1x64 .f32) //
      ∀ (xi6 xi7 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc4__stats_kernel_right i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc4__stats_kernel_right_eq_skeleton]; unfold cc4__stats_kernel_right_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hf8; obtain rfl := harg10.eq_unread hf9
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    iexists _; iexact H9

end Cert.Kernel.Hand

end
-- ==== Proof.K.Stats4RunC.lean ====
import proofs.«167925_j62517543961156_1_alg».proof.Proof.K.Stats4RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the LAST node tile. The accumulator rows receive this tile's column sums on top of what the tile before
    left; then the mean row is the sums divided by the node count, and the variance row the sums of squares divided by
    the node count minus the squared mean. The lists are what the stores leave, last store first. -/
noncomputable def run4_C (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : cond4_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) :
    Σ' (L5 : List (View.Piece (Elt F) S5000x64 .f32)) (L6 : List (View.Piece (Elt F) S1x64 .f32)) (L7 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc4__stats_kernel_right i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc4__stats_kernel_right_eq_skeleton]; unfold cc4__stats_kernel_right_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hf8; obtain rfl := harg10.eq_unread hf9
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    iexists _; iexact H9

end Cert.Kernel.Hand

end
-- ==== Proof.K.Stats4.lean ====
import proofs.«167925_j62517543961156_1_alg».proof.Proof.K.Stats4RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Statistics kernel of region 4: what every buffer holds after each node tile, the proof data, the body obligation -/

/-- The stores of this case into this buffer cover it. -/
theorem cover4_A_5 (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond4_0 i) (hc1 : ¬cond4_1 i)
    (x0 : Vec F S5000x64 .f32) (x1 : Vec F S64x64 .f32) (x2 : Vec F S1x64 .f32) (x3 : Vec F S5000x64 .f32) (x4 : Vec F S64x64 .f32) (y : S5000x64.Idx) :
    ∃ pc ∈ (run4_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (run4_A c i arg1 harg1 arg2 harg2 arg3 harg3 arg4 harg4 arg5 harg5 arg6 harg6 arg7 harg7 arg8 harg8 arg9 harg9 arg10 harg10 hc0 hc1 x0 x1 x2 x3 x4).1 S5000x64.size (by sl_kernel_rfl) y

/-- What they leave in it: the stored pieces read back. -/
def out4_A_5 (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond4_0 i) (hc1 : ¬cond4_1 i)
    (x0 : Vec F S5000x64 .f32) (x1 : Vec F S64x64 .f32) (x2 : Vec F S1x64 .f32) (x3 : Vec F S5000x64 .f32) (x4 : Vec F S64x64 .f32) : Vec F S5000x64 .f32 :=
  VO4_5.read (Elt F) (VO4_5.writes (Elt F) VO4_5.junk (run4_A c i arg1 harg1 arg2 harg2 arg3 harg3 arg4 harg4 arg5 harg5 arg6 harg6 arg7 harg7 arg8 harg8 arg9 harg9 arg10 harg10 hc0 hc1 x0 x1 x2 x3 x4).1)

/-- The stores of this case into this buffer cover it. -/
theorem scover4_A_0 (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond4_0 i) (hc1 : ¬cond4_1 i)
    (x0 : Vec F S5000x64 .f32) (x1 : Vec F S64x64 .f32) (x2 : Vec F S1x64 .f32) (x3 : Vec F S5000x64 .f32) (x4 : Vec F S64x64 .f32) (y : S1x64.Idx) :
    ∃ pc ∈ (run4_A c i arg1 harg1 arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (run4_A c i arg1 harg1 arg2 harg2 arg3 harg3 arg4 harg4 arg5 harg5 arg6 harg6 arg7 harg7 arg8 harg8 arg9 harg9 arg10 harg10 hc0 hc1 x0 x1 x2 x3 x4).2.1 S1x64.size (by sl_kernel_rfl) y

/-- What they leave in it: the stored pieces read back. -/
def sout4_A_0 (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond4_0 i) (hc1 : ¬cond4_1 i)
    (x0 : Vec F S5000x64 .f32) (x1 : Vec F S64x64 .f32) (x2 : Vec F S1x64 .f32) (x3 : Vec F S5000x64 .f32) (x4 : Vec F S64x64 .f32) : Vec F S1x64 .f32 :=
  VS4_0.read (Elt F) (VS4_0.writes (Elt F) VS4_0.junk (run4_A c i arg1 harg1 arg2 harg2 arg3 harg3 arg4 harg4 arg5 harg5 arg6 harg6 arg7 harg7 arg8 harg8 arg9 harg9 arg10 harg10 hc0 hc1 x0 x1 x2 x3 x4).2.1)

/-- The stores of this case into this buffer cover it. -/
theorem scover4_A_1 (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond4_0 i) (hc1 : ¬cond4_1 i)
    (x0 : Vec F S5000x64 .f32) (x1 : Vec F S64x64 .f32) (x2 : Vec F S1x64 .f32) (x3 : Vec F S5000x64 .f32) (x4 : Vec F S64x64 .f32) (y : S1x64.Idx) :
    ∃ pc ∈ (run4_A c i arg1 harg1 arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (run4_A c i arg1 harg1 arg2 harg2 arg3 harg3 arg4 harg4 arg5 harg5 arg6 harg6 arg7 harg7 arg8 harg8 arg9 harg9 arg10 harg10 hc0 hc1 x0 x1 x2 x3 x4).2.2.1 S1x64.size (by sl_kernel_rfl) y

/-- What they leave in it: the stored pieces read back. -/
def sout4_A_1 (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond4_0 i) (hc1 : ¬cond4_1 i)
    (x0 : Vec F S5000x64 .f32) (x1 : Vec F S64x64 .f32) (x2 : Vec F S1x64 .f32) (x3 : Vec F S5000x64 .f32) (x4 : Vec F S64x64 .f32) : Vec F S1x64 .f32 :=
  VS4_1.read (Elt F) (VS4_1.writes (Elt F) VS4_1.junk (run4_A c i arg1 harg1 arg2 harg2 arg3 harg3 arg4 harg4 arg5 harg5 arg6 harg6 arg7 harg7 arg8 harg8 arg9 harg9 arg10 harg10 hc0 hc1 x0 x1 x2 x3 x4).2.2.1)

/-- The stores of this case into this buffer cover it. -/
theorem cover4_B_5 (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : ¬cond4_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S5000x64.Idx) :
    ∃ pc ∈ (run4_B c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (run4_B c i arg1 harg1 arg2 harg2 arg3 harg3 arg4 harg4 arg5 harg5 arg6 harg6 arg7 harg7 arg8 harg8 arg9 harg9 arg10 harg10 hc0 hc1 x0 x1 x2 x3 x4 xs0 xs1).1 S5000x64.size (by sl_kernel_rfl) y

/-- What they leave in it: the stored pieces read back. -/
def out4_B_5 (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : ¬cond4_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S5000x64 .f32 :=
  VO4_5.read (Elt F) (VO4_5.writes (Elt F) VO4_5.junk (run4_B c i arg1 harg1 arg2 harg2 arg3 harg3 arg4 harg4 arg5 harg5 arg6 harg6 arg7 harg7 arg8 harg8 arg9 harg9 arg10 harg10 hc0 hc1 x0 x1 x2 x3 x4 xs0 xs1).1)

/-- The stores of this case into this buffer cover it. -/
theorem scover4_B_0 (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : ¬cond4_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S1x64.Idx) :
    ∃ pc ∈ (run4_B c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (run4_B c i arg1 harg1 arg2 harg2 arg3 harg3 arg4 harg4 arg5 harg5 arg6 harg6 arg7 harg7 arg8 harg8 arg9 harg9 arg10 harg10 hc0 hc1 x0 x1 x2 x3 x4 xs0 xs1).2.1 S1x64.size (by sl_kernel_rfl) y

/-- What they leave in it: the stored pieces read back. -/
def sout4_B_0 (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : ¬cond4_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S1x64 .f32 :=
  VS4_0.read (Elt F) (VS4_0.writes (Elt F) VS4_0.junk (run4_B c i arg1 harg1 arg2 harg2 arg3 harg3 arg4 harg4 arg5 harg5 arg6 harg6 arg7 harg7 arg8 harg8 arg9 harg9 arg10 harg10 hc0 hc1 x0 x1 x2 x3 x4 xs0 xs1).2.1)

/-- The stores of this case into this buffer cover it. -/
theorem scover4_B_1 (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : ¬cond4_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S1x64.Idx) :
    ∃ pc ∈ (run4_B c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (run4_B c i arg1 harg1 arg2 harg2 arg3 harg3 arg4 harg4 arg5 harg5 arg6 harg6 arg7 harg7 arg8 harg8 arg9 harg9 arg10 harg10 hc0 hc1 x0 x1 x2 x3 x4 xs0 xs1).2.2.1 S1x64.size (by sl_kernel_rfl) y

/-- What they leave in it: the stored pieces read back. -/
def sout4_B_1 (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : ¬cond4_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S1x64 .f32 :=
  VS4_1.read (Elt F) (VS4_1.writes (Elt F) VS4_1.junk (run4_B c i arg1 harg1 arg2 harg2 arg3 harg3 arg4 harg4 arg5 harg5 arg6 harg6 arg7 harg7 arg8 harg8 arg9 harg9 arg10 harg10 hc0 hc1 x0 x1 x2 x3 x4 xs0 xs1).2.2.1)

/-- The stores of this case into this buffer cover it. -/
theorem cover4_C_5 (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : cond4_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S5000x64.Idx) :
    ∃ pc ∈ (run4_C c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (run4_C c i arg1 harg1 arg2 harg2 arg3 harg3 arg4 harg4 arg5 harg5 arg6 harg6 arg7 harg7 arg8 harg8 arg9 harg9 arg10 harg10 hc0 hc1 x0 x1 x2 x3 x4 xs0 xs1).1 S5000x64.size (by sl_kernel_rfl) y

/-- What they leave in it: the stored pieces read back. -/
def out4_C_5 (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : cond4_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S5000x64 .f32 :=
  VO4_5.read (Elt F) (VO4_5.writes (Elt F) VO4_5.junk (run4_C c i arg1 harg1 arg2 harg2 arg3 harg3 arg4 harg4 arg5 harg5 arg6 harg6 arg7 harg7 arg8 harg8 arg9 harg9 arg10 harg10 hc0 hc1 x0 x1 x2 x3 x4 xs0 xs1).1)

/-- The stores of this case into this buffer cover it. -/
theorem cover4_C_6 (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : cond4_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S1x64.Idx) :
    ∃ pc ∈ (run4_C c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (run4_C c i arg1 harg1 arg2 harg2 arg3 harg3 arg4 harg4 arg5 harg5 arg6 harg6 arg7 harg7 arg8 harg8 arg9 harg9 arg10 harg10 hc0 hc1 x0 x1 x2 x3 x4 xs0 xs1).2.1 S1x64.size (by sl_kernel_rfl) y

/-- What they leave in it: the stored pieces read back. -/
def out4_C_6 (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : cond4_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S1x64 .f32 :=
  VO4_6.read (Elt F) (VO4_6.writes (Elt F) VO4_6.junk (run4_C c i arg1 harg1 arg2 harg2 arg3 harg3 arg4 harg4 arg5 harg5 arg6 harg6 arg7 harg7 arg8 harg8 arg9 harg9 arg10 harg10 hc0 hc1 x0 x1 x2 x3 x4 xs0 xs1).2.1)

/-- The stores of this case into this buffer cover it. -/
theorem cover4_C_7 (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : cond4_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S1x64.Idx) :
    ∃ pc ∈ (run4_C c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (run4_C c i arg1 harg1 arg2 harg2 arg3 harg3 arg4 harg4 arg5 harg5 arg6 harg6 arg7 harg7 arg8 harg8 arg9 harg9 arg10 harg10 hc0 hc1 x0 x1 x2 x3 x4 xs0 xs1).2.2.1 S1x64.size (by sl_kernel_rfl) y

/-- What they leave in it: the stored pieces read back. -/
def out4_C_7 (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : cond4_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S1x64 .f32 :=
  VO4_7.read (Elt F) (VO4_7.writes (Elt F) VO4_7.junk (run4_C c i arg1 harg1 arg2 harg2 arg3 harg3 arg4 harg4 arg5 harg5 arg6 harg6 arg7 harg7 arg8 harg8 arg9 harg9 arg10 harg10 hc0 hc1 x0 x1 x2 x3 x4 xs0 xs1).2.2.1)

/-- The stores of this case into this buffer cover it. -/
theorem scover4_C_0 (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : cond4_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S1x64.Idx) :
    ∃ pc ∈ (run4_C c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (run4_C c i arg1 harg1 arg2 harg2 arg3 harg3 arg4 harg4 arg5 harg5 arg6 harg6 arg7 harg7 arg8 harg8 arg9 harg9 arg10 harg10 hc0 hc1 x0 x1 x2 x3 x4 xs0 xs1).2.2.2.1 S1x64.size (by sl_kernel_rfl) y

/-- What they leave in it: the stored pieces read back. -/
def sout4_C_0 (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : cond4_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S1x64 .f32 :=
  VS4_0.read (Elt F) (VS4_0.writes (Elt F) VS4_0.junk (run4_C c i arg1 harg1 arg2 harg2 arg3 harg3 arg4 harg4 arg5 harg5 arg6 harg6 arg7 harg7 arg8 harg8 arg9 harg9 arg10 harg10 hc0 hc1 x0 x1 x2 x3 x4 xs0 xs1).2.2.2.1)

/-- The stores of this case into this buffer cover it. -/
theorem scover4_C_1 (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : cond4_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S1x64.Idx) :
    ∃ pc ∈ (run4_C c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (run4_C c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x64.size (by sl_kernel_rfl) y

/-- What they leave in it: the stored pieces read back. -/
def sout4_C_1 (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : cond4_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S1x64 .f32 :=
  VS4_1.read (Elt F) (VS4_1.writes (Elt F) VS4_1.junk (run4_C c i arg1 harg1 arg2 harg2 arg3 harg3 arg4 harg4 arg5 harg5 arg6 harg6 arg7 harg7 arg8 harg8 arg9 harg9 arg10 harg10 hc0 hc1 x0 x1 x2 x3 x4 xs0 xs1).2.2.2.2.1)

/-! ## The buffers the pipeline hands the body at a point -/

abbrev ms4_0 (t : Fin cfg4.N) : Memref sig .tc .vmem S5000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S64x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S5000x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S64x64 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S5000x64 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x64 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x64 .f32 := win4_7.stage (cfg4.slots t 7)
abbrev hs4_7 (t : Fin cfg4.N) : (ms4_7 t).IsWhole := hstage4_7 ((cfg4.slots t 7).cast nbuf4_7)

/-! ## What the buffers hold after each node tile -/

/-- After the body at position `n`: the pre-activation tile's buffer, the mean row, the variance row (both meaningful at
    the last tile only; elsewhere a placeholder nothing reads), and the two accumulator rows — the row of column sums and
    the row of column sums of squares over the tiles `0 .. n`: at the first tile from zero, at every later one on top of
    what the tile before left. -/
def outsAt4 (c : Dev nD) : (n : ℕ) → n < cfg4.N → Vec F S5000x64 .f32 × Vec F S1x64 .f32 × Vec F S1x64 .f32 × Vec F S1x64 .f32 × Vec F S1x64 .f32
  | 0, hn => (out4_A_5 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩),
        VO4_6.read (Elt F) VO4_6.junk,
        VO4_7.read (Elt F) VO4_7.junk,
        sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩),
        sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩))
  | n + 1, hn =>
    if h1 : n + 1 = 9 then
      (out4_C_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => absurd ((hcond4_0 ⟨n + 1, hn⟩).mp h) (Nat.succ_ne_zero n)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2,
        out4_C_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => absurd ((hcond4_0 ⟨n + 1, hn⟩).mp h) (Nat.succ_ne_zero n)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2,
        out4_C_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => absurd ((hcond4_0 ⟨n + 1, hn⟩).mp h) (Nat.succ_ne_zero n)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2,
        sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => absurd ((hcond4_0 ⟨n + 1, hn⟩).mp h) (Nat.succ_ne_zero n)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2,
        sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => absurd ((hcond4_0 ⟨n + 1, hn⟩).mp h) (Nat.succ_ne_zero n)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2)
    else
      (out4_B_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => absurd ((hcond4_0 ⟨n + 1, hn⟩).mp h) (Nat.succ_ne_zero n)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2,
        VO4_6.read (Elt F) VO4_6.junk,
        VO4_7.read (Elt F) VO4_7.junk,
        sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => absurd ((hcond4_0 ⟨n + 1, hn⟩).mp h) (Nat.succ_ne_zero n)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2,
        sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => absurd ((hcond4_0 ⟨n + 1, hn⟩).mp h) (Nat.succ_ne_zero n)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2)

/-- The row of column sums after tile `n`, and the row of column sums of squares. -/
abbrev S4 (c : Dev nD) (n : ℕ) (hn : n < cfg4.N) : Vec F S1x64 .f32 := (outsAt4 V c n hn).2.2.2.1
abbrev Q4 (c : Dev nD) (n : ℕ) (hn : n < cfg4.N) : Vec F S1x64 .f32 := (outsAt4 V c n hn).2.2.2.2

theorem outsAt4_A (c : Dev nD) (t : Fin cfg4.N) (h0 : t.val = 0) :
    outsAt4 V c t.val t.isLt = (out4_A_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr h0) (fun h => (fun h => by omega) ((hcond4_1 t).mp h)) (iblk4 V c 0 t) (iblk4 V c 1 t) (iblk4 V c 2 t) (iblk4 V c 3 t) (iblk4 V c 4 t),
        VO4_6.read (Elt F) VO4_6.junk,
        VO4_7.read (Elt F) VO4_7.junk,
        sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr h0) (fun h => (fun h => by omega) ((hcond4_1 t).mp h)) (iblk4 V c 0 t) (iblk4 V c 1 t) (iblk4 V c 2 t) (iblk4 V c 3 t) (iblk4 V c 4 t),
        sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr h0) (fun h => (fun h => by omega) ((hcond4_1 t).mp h)) (iblk4 V c 0 t) (iblk4 V c 1 t) (iblk4 V c 2 t) (iblk4 V c 3 t) (iblk4 V c 4 t)) := by
  obtain ⟨n, hn⟩ := t
  cases n with
  | zero => exact rfl
  | succ n => exact absurd h0 (Nat.succ_ne_zero n)

theorem outsAt4_B (c : Dev nD) (t : Fin cfg4.N) (h0 : ¬t.val = 0) (h1 : ¬t.val = 9) :
    outsAt4 V c t.val t.isLt = (out4_B_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
        VO4_6.read (Elt F) VO4_6.junk,
        VO4_7.read (Elt F) VO4_7.junk,
        sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
        sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact absurd rfl h0
  | succ n => exact (dif_neg h1).trans rfl

theorem outsAt4_C (c : Dev nD) (t : Fin cfg4.N) (h0 : ¬t.val = 0) (h1 : t.val = 9) :
    outsAt4 V c t.val t.isLt = (out4_C_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
        out4_C_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
        out4_C_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
        sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
        sout4_C_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The invariant between node tiles -/

/-- Before position `n`: the two accumulator rows — at anything before the first tile, afterwards at the sums the tile
    before left —, the rest of the scoped memory untouched, the generator register at some state. -/
def Phi4 (c : Dev nD) : (n : ℕ) → n ≤ cfg4.N → sProp 𝕄
  | 0, _ => iprop((∃ d, owns (c : Thread nD τ) scM4_0 fullShare d) ∗ (∃ d, owns (c : Thread nD τ) scM4_1 fullShare d) ∗ restBut4 (F := F) c ∗ (∃ r, prngReg c r))
  | n + 1, hn => iprop(owns (c : Thread nD τ) scM4_0 fullShare (S4 V c n hn) ∗ owns (c : Thread nD τ) scM4_1 fullShare (Q4 V c n hn) ∗ restBut4 (F := F) c ∗ (∃ r, prngReg c r))

theorem Phi4_zero (c : Dev nD) (n : ℕ) (h : n ≤ cfg4.N) (hz : n = 0) :
    Phi4 V c n h = iprop((∃ d, owns (c : Thread nD τ) scM4_0 fullShare d) ∗ (∃ d, owns (c : Thread nD τ) scM4_1 fullShare d) ∗ restBut4 (F := F) c ∗ (∃ r, prngReg c r)) := by
  subst hz; rfl

theorem Phi4_succ (c : Dev nD) (n : ℕ) (hn : n < cfg4.N) :
    Phi4 V c (n + 1) hn = iprop(owns (c : Thread nD τ) scM4_0 fullShare (S4 V c n hn) ∗ owns (c : Thread nD τ) scM4_1 fullShare (Q4 V c n hn) ∗ restBut4 (F := F) c ∗ (∃ r, prngReg c r)) := rfl

theorem Phi4_pos (c : Dev nD) (n : ℕ) (h : n ≤ cfg4.N) (hz : n ≠ 0) :
    Phi4 V c n h = iprop(owns (c : Thread nD τ) scM4_0 fullShare (S4 V c (n - 1) (by omega)) ∗ owns (c : Thread nD τ) scM4_1 fullShare (Q4 V c (n - 1) (by omega)) ∗ restBut4 (F := F) c ∗ (∃ r, prngReg c r)) := by
  cases n with
  | zero => exact absurd rfl hz
  | succ n => rfl

/-! ## The proof data -/

/-- The pipeline's proof data on core `c`: the arrays as the region finds them; after the body at a point every input's
    buffer at its block, the outputs' at `outsAt4`'s components; between points the invariant `Phi4`; full shares,
    nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => (outsAt4 V c t.val t.isLt).1
    | ⟨6, _⟩ => (outsAt4 V c t.val t.isLt).2.1
    | ⟨7, _⟩ => (outsAt4 V c t.val t.isLt).2.2.1
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem Phi4_castSucc (c : Dev nD) (t : Fin cfg4.N) :
    (dat4 V c).Φ t.castSucc = Phi4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = (outsAt4 V c t.val t.isLt).1 := by dsimp only [dat4]
theorem after4_6 (c : Dev nD) (t : Fin cfg4.N) : (dat4 V c).after 6 t = (outsAt4 V c t.val t.isLt).2.1 := by dsimp only [dat4]
theorem after4_7 (c : Dev nD) (t : Fin cfg4.N) : (dat4 V c).after 7 t = (outsAt4 V c t.val t.isLt).2.2.1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t)

set_option maxHeartbeats 4800000 in
/-- The body at any point. The inputs' buffers hold their blocks; the point's position says which control case it is in;
    that case's run applies, handed the accumulator rows at what the invariant says they hold, and gives them back at this
    point's sums; the mean and variance rows are handed back untouched before the last tile. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = Phi4 V c (t.val + 1) t.isLt from rfl, Phi4_succ]
  unfold S4 Q4
  have hN : t.val < 10 := lt_of_lt_of_eq t.isLt (show cfg4.N = 10 from N_4)
  by_cases h0 : t.val = 0
  · have h1 : ¬t.val = 9 := by omega
    ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [show (dat4 V c).leavesExact 5 t = owns (c : Thread nD τ) (ms4_5 t) fullShare ((dat4 V c).after 5 t) from by
        unfold Dat.leavesExact; rw [liveAt4_5 t], after4_5]
      rw [Dat.leavesExact_idle (dat4 V c) 6 t (idleAt4_6 t (fun h => h1 ((hcond4_1 t).mp h))) (noFlush4_6 t (fun h => h1 ((hcond4_1 t).mp h)))]
      rw [Dat.leavesExact_idle (dat4 V c) 7 t (idleAt4_7 t (fun h => h1 ((hcond4_1 t).mp h))) (noFlush4_7 t (fun h => h1 ((hcond4_1 t).mp h)))]
      rw [outsAt4_A V c t h0]
      unfold out4_A_5 sout4_A_0 sout4_A_1; (try dsimp only)
      rw [Phi4_castSucc V c t, Phi4_zero V c _ _ h0]
      iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((run4_A c (grid4.coords t) _ _ _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t)).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%e8, HS0⟩, ⟨%e9, HS1⟩⟩
      isplitl [HS0 HS1 HR Hg]
      · isplitl [HS0]
        · unfold owns; iexists _; isplitr
          swap; · iexact HS0
          ipureintro; exact View.read_writes_of_cover _ _ _ _ _ (scover4_A_0 (F := F) c _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover4_A_1 (F := F) c _ _ _ _ _ _ _ _ _ _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover4_A_5 (F := F) c _ _ _ _ _ _ _ _ _ _ _ _ _ _ _ _ _ _ _ _ _ _ _ _ _ _ _ _)
      isplitl [H6]; · iexists _; iexact H6
      iexists _; iexact H7

  · by_cases h1 : t.val = 9
    ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [show (dat4 V c).leavesExact 5 t = owns (c : Thread nD τ) (ms4_5 t) fullShare ((dat4 V c).after 5 t) from by
        unfold Dat.leavesExact; rw [liveAt4_5 t], after4_5]
      rw [show (dat4 V c).leavesExact 6 t = owns (c : Thread nD τ) (ms4_6 t) fullShare ((dat4 V c).after 6 t) from by
        unfold Dat.leavesExact; rw [liveAt4_6 t ((hcond4_1 t).mpr h1)], after4_6]
      rw [show (dat4 V c).leavesExact 7 t = owns (c : Thread nD τ) (ms4_7 t) fullShare ((dat4 V c).after 7 t) from by
        unfold Dat.leavesExact; rw [liveAt4_7 t ((hcond4_1 t).mpr h1)], after4_7]
      rw [outsAt4_C V c t h0 h1]
      unfold out4_C_5 out4_C_6 out4_C_7 sout4_C_0 sout4_C_1; (try dsimp only)
      rw [Phi4_castSucc V c t, Phi4_pos V c _ _ h0]
      iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((run4_C c (grid4.coords t) _ _ _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%e8, HS0⟩, ⟨%e9, HS1⟩⟩
      isplitl [HS0 HS1 HR Hg]
      · isplitl [HS0]
        · unfold owns; iexists _; isplitr
          swap; · iexact HS0
          ipureintro; exact View.read_writes_of_cover _ _ _ _ _ (scover4_C_0 (F := F) c _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover4_C_1 (F := F) c _ _ _ _ _ _ _ _ _ _ _ _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover4_C_5 (F := F) c _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover4_C_6 (F := F) c _ _ _ _ _ _ _ _ _ _ _ _ _ _ _ _ _ _ _ _ _ _ _ _ _ _ _ _ _ _)
      unfold owns; iexists _; isplitr
      swap; · iexact H7
      ipureintro; exact View.read_writes_of_cover _ _ _ _ _ (cover4_C_7 (F := F) c _ _ _ _ _ _ _ _ _ _ _ _ _ _ _ _ _ _ _ _ _ _ _ _ _ _ _ _ _ _)

    ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [show (dat4 V c).leavesExact 5 t = owns (c : Thread nD τ) (ms4_5 t) fullShare ((dat4 V c).after 5 t) from by
        unfold Dat.leavesExact; rw [liveAt4_5 t], after4_5]
      rw [Dat.leavesExact_idle (dat4 V c) 6 t (idleAt4_6 t (fun h => h1 ((hcond4_1 t).mp h))) (noFlush4_6 t (fun h => h1 ((hcond4_1 t).mp h)))]
      rw [Dat.leavesExact_idle (dat4 V c) 7 t (idleAt4_7 t (fun h => h1 ((hcond4_1 t).mp h))) (noFlush4_7 t (fun h => h1 ((hcond4_1 t).mp h)))]
      rw [outsAt4_B V c t h0 h1]
      unfold out4_B_5 sout4_B_0 sout4_B_1; (try dsimp only)
      rw [Phi4_castSucc V c t, Phi4_pos V c _ _ h0]
      iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((run4_B c (grid4.coords t) _ _ _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) _ _).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%e8, HS0⟩, ⟨%e9, HS1⟩⟩
      isplitl [HS0 HS1 HR Hg]
      · isplitl [HS0]
        · unfold owns; iexists _; isplitr
          swap; · iexact HS0
          ipureintro; exact View.read_writes_of_cover _ _ _ _ _ (scover4_B_0 (F := F) c _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover4_B_1 (F := F) c _ _ _ _ _ _ _ _ _ _ _ _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover4_B_5 (F := F) c _ _ _ _ _ _ _ _ _ _ _ _ _ _ _ _ _ _ _ _ _ _ _ _ _ _ _ _ _ _)
      isplitl [H6]; · iexists _; iexact H6
      iexists _; iexact H7

theorem body_obligation4 (c : Dev nD) : BodyObligation (dat4 (F := F) V c) (defs₀ (F := F)) Variants.none () Set.univ := fun t => by
  rw [bigSep_W4, bigSep_W4]
  exact sound_body4 V c t

/-! ## Entering and leaving the region -/

/-- What the launch hands the region is the invariant before the first tile: the accumulator rows are two of the scoped
    buffers, at whatever they hold. -/
theorem hin4 (c : Dev nD) :
    (iprop((∃ r, prngReg c r) ∗ Pipeline.scopedRest (Ix := Unit) (Name := ℕ) (U := UR sig nD τ) (Lvl := ℕ) (Val := Elt F) spec4 c) : sProp 𝕄) ⊢ (dat4 V c).Φ 0 := by
  rw [show (dat4 V c).Φ 0 = Phi4 V c 0 (Nat.zero_le _) from rfl, Phi4_zero V c 0 _ rfl, scopedRest4_rows]
  iintro ⟨Hg, ⟨HS0, HS1⟩, HR⟩
  isplitl [HS0]; · iexact HS0
  isplitl [HS1]; · iexact HS1
  isplitl [HR]; · iexact HR
  iexact Hg

/-- After the last tile the invariant gives the scoped rest back: the sums in the accumulator rows are forgotten. -/
theorem hout4 (c : Dev nD) :
    (dat4 V c).Φ (Fin.last cfg4.N) ⊢ (iprop((∃ r, prngReg c r) ∗ Pipeline.scopedRest (Ix := Unit) (Name := ℕ) (U := UR sig nD τ) (Lvl := ℕ) (Val := Elt F) spec4 c) : sProp 𝕄) := by
  rw [show (dat4 V c).Φ (Fin.last cfg4.N) = Phi4 V c (Fin.last cfg4.N).val (Nat.le_of_lt_succ (Fin.last cfg4.N).isLt) from rfl,
    Phi4_pos V c _ _ (by rw [Fin.val_last]; have : cfg4.N = 10 := N_4; omega), scopedRest4_rows]
  iintro ⟨HS0, HS1, HR, Hg⟩
  isplitl [Hg]; · iexact Hg
  isplitl [HS0 HS1]
  · isplitl [HS0]; · iexists _; iexact HS0
    iexists _; iexact HS1
  iexact HR

end Cert.Kernel.Hand

end
-- ==== Proof.K.Norm5.lean ====
import proofs.«167925_j62517543961156_1_alg».proof.Proof.Gen.Kernel.Launch
import proofs.«167925_j62517543961156_1_alg».proof.Proof.Gen.Kernel.Skeleton
import proofs.«167925_j62517543961156_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 5: the normalisation of one node tile

Each grid point reads a tile of pre-activations (5000 rows, 64 features), the per-feature mean, variance,
scale and shift rows, and the tile of the previous layer's features, and writes the tile
`max(((pre − mean) · rsqrt(var + ε)) · γ + β, 0) + resid`.  No state is carried from one point to the
next: every input window is read whole, the one output window is written whole.  So, at an arbitrary
content `V` of the buffers on entry, the proof data say: after the body each input window holds its own
block and the output window holds the pointwise function of the input blocks.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the windows -/

/-- The block of window `w` at grid point `t`, cut out of the array the region finds on entry. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window that the body hands back unchanged holds its block at every point: where it was fetched
    this is what the fetch put there, and where it was not the block index has not moved since the last fetch. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- An input window that the body hands back unchanged holds its block at every point: where it was fetched
    this is what the fetch put there, and where it was not the block index has not moved since the last fetch. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- An input window that the body hands back unchanged holds its block at every point: where it was fetched
    this is what the fetch put there, and where it was not the block index has not moved since the last fetch. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- An input window that the body hands back unchanged holds its block at every point: where it was fetched
    this is what the fetch put there, and where it was not the block index has not moved since the last fetch. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- An input window that the body hands back unchanged holds its block at every point: where it was fetched
    this is what the fetch put there, and where it was not the block index has not moved since the last fetch. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- An input window that the body hands back unchanged holds its block at every point: where it was fetched
    this is what the fetch put there, and where it was not the block index has not moved since the last fetch. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## What the body reads and writes -/

/-- The whole tile, and the whole row: the only two rectangles the body touches. -/
abbrev r5_big : Rect S5000x64 := Rect.unit (s := S5000x64) ![0, 0] S5000x64.size inb_S5000x64_S5000x64_0_0
abbrev r5_row : Rect S1x64 := Rect.unit (s := S1x64) ![0, 0] S1x64.size inb_S1x64_S1x64_0_0

/-- The output tile as a function of the input blocks: the single store, whose value is the normalised tile
    computed from the loaded tile and rows. -/
def out5_6 (x0 : Vec F S5000x64 .f32) (x1 : Vec F S1x64 .f32) (x2 : Vec F S1x64 .f32) (x3 : Vec F S1x64 .f32) (x4 : Vec F S1x64 .f32) (x5 : Vec F S5000x64 .f32) : Vec F S5000x64 .f32 :=
  View.canon [⟨r5_big, k5_pay1 (View.ld x1 r5_row) (View.ld x2 r5_row) (View.ld x0 r5_big) (View.ld x3 r5_row) (View.ld x4 r5_row) (View.ld x5 r5_big)⟩]

/-- The one store writes the whole tile, so every index of the buffer lies in it. -/
theorem cover5_6 (p0 : Vec F S5000x64 .f32) (y : S5000x64.Idx) :
    ∃ pc ∈ ([⟨r5_big, p0⟩] : List (View.Piece (Elt F) S5000x64 .f32)), y ∈ pc.1.set :=
  View.cover_of_tiled [⟨r5_big, p0⟩] S5000x64.size (by rfl) y

/-! ## The body, run on whole staging buffers -/

set_option maxHeartbeats 1000000 in
/-- Started with the input buffers at contents `x` and the output buffer at anything, the body ends with the inputs
    as they were and the output at `out5_6 x`: it is a sequence of whole-buffer loads followed by one
    whole-buffer store. -/
theorem sound_kernel5 (c : Dev nD) (E : Set ℕ) (i : grid5.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S5000x64 .f32) (harg7 : arg7.IsWhole)
    (x0 : Vec F S5000x64 .f32) (x1 : Vec F S1x64 .f32) (x2 : Vec F S1x64 .f32) (x3 : Vec F S1x64 .f32) (x4 : Vec F S1x64 .f32) (x5 : Vec F S5000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out5_6 x0 x1 x2 x3 x4 x5)) -∗ K ⟨⟩))
      ⊢ wp frame (wpE (defs₀ (F := F)) Variants.none c none) E (cc5__norm_kernel_resid i arg1 harg1 arg2 harg2 arg3 harg3 arg4 harg4 arg5 harg5 arg6 harg6 arg7 harg7) K := by
  simp only [cc5__norm_kernel_resid_eq_skeleton]; unfold cc5__norm_kernel_resid_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-! ## The proof data of the pipeline -/

/-- The arrays are the ones found on entry; after the body at point `t` every input window holds its block and
    the output window the normalised tile of those blocks; the invariant is the one of a body that touches
    nothing but its windows; all shares are full and nothing is owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]

/-- What the body leaves in each window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

/-- What the body finds in each input window: its block. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation -/

/-- What the body is started with at point `t`, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it ends with. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- At any point the input buffers hold their blocks, so the triple of the body applies; the invariant and the
    debts are not looked at. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation5 (c : Dev nD) : BodyObligation (dat5 (F := F) V c) (defs₀ (F := F)) Variants.none () Set.univ := fun t => by
  rw [bigSep_W5, bigSep_W5]
  exact sound_body5 V c t

end Cert.Kernel.Hand
-- ==== Proof.K.Stats6Defs.lean ====
import proofs.«167925_j62517543961156_1_alg».proof.Proof.Gen.Kernel.Launch
import proofs.«167925_j62517543961156_1_alg».proof.Proof.Gen.Kernel.Skeleton
import proofs.«167925_j62517543961156_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Statistics kernel of region 6: what its three control cases share -/

/-- The block of window `w` at grid point `t`, read off the window's array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! An input window's current buffer holds its block at every point: where the point does not fetch it, the block
    index has not moved since the last fetch. -/

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The two conditions on the grid coordinate -/

/-- "This is the first node tile": the accumulators are reset. -/
abbrev cond6_0 (i : grid6.Coords) : Prop := (Scalar.cmpi .ne (Scalar.extui (Scalar.cmpi .eq (BitVec.ofNat 32 (i 0).val) 0#32)) 0#32) = 1#1
theorem hcond6_0 : ∀ t : Fin cfg6.N, cond6_0 (grid6.coords t) ↔ t.val = 0 :=
  (by decide +kernel : ∀ t : Fin grid6.N, cond6_0 (grid6.coords t) ↔ t.val = 0)

/-- "This is the last node tile": mean and variance are formed from the accumulated sums. -/
abbrev cond6_1 (i : grid6.Coords) : Prop := k6_cond2 i = 1#1
theorem hcond6_1 : ∀ t : Fin cfg6.N, cond6_1 (grid6.coords t) ↔ t.val = 9 :=
  (by decide +kernel : ∀ t : Fin grid6.N, cond6_1 (grid6.coords t) ↔ t.val = 9)

/-! ## Where the windows are live -/

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel
theorem liveAt6_4 : ∀ t : Fin cfg6.N, cfg6.idle 4 (grid6.coords t) = false := by decide +kernel
theorem liveAt6_5 : ∀ t : Fin cfg6.N, cfg6.idle 5 (grid6.coords t) = false := by decide +kernel
/-- Before the last tile nothing is stored into the mean and variance rows, and they are not written back. -/
theorem idleAt6_6 : ∀ t : Fin cfg6.N, ¬cond6_1 (grid6.coords t) → cfg6.idle 6 (grid6.coords t) = true := by decide +kernel
theorem noFlush6_6 : ∀ t : Fin cfg6.N, ¬cond6_1 (grid6.coords t) → (cfg6.win 6).flush t = false := by decide +kernel
theorem idleAt6_7 : ∀ t : Fin cfg6.N, ¬cond6_1 (grid6.coords t) → cfg6.idle 7 (grid6.coords t) = true := by decide +kernel
theorem noFlush6_7 : ∀ t : Fin cfg6.N, ¬cond6_1 (grid6.coords t) → (cfg6.win 7).flush t = false := by decide +kernel
/-- At the last tile both rows are stored. -/
theorem liveAt6_6 : ∀ t : Fin cfg6.N, cond6_1 (grid6.coords t) → cfg6.idle 6 (grid6.coords t) = false := by decide +kernel
theorem liveAt6_7 : ∀ t : Fin cfg6.N, cond6_1 (grid6.coords t) → cfg6.idle 7 (grid6.coords t) = false := by decide +kernel

/-! ## Views through which buffer contents are stated, and the two accumulator rows -/

abbrev VO6_5 : View sig .tc .vmem S5000x64 .f32 := (Memref.whole cc6_stg5_0 : Memref sig .tc .vmem S5000x64 .f32).view
abbrev VO6_6 : View sig .tc .vmem S1x64 .f32 := (Memref.whole cc6_stg6_0 : Memref sig .tc .vmem S1x64 .f32).view
abbrev VO6_7 : View sig .tc .vmem S1x64 .f32 := (Memref.whole cc6_stg7_0 : Memref sig .tc .vmem S1x64 .f32).view
/-- The row of column sums and the row of column sums of squares, carried from tile to tile. -/
abbrev scM6_0 : Memref sig .tc .vmem S1x64 .f32 := Memref.whole cc6_scratch0
abbrev scM6_1 : Memref sig .tc .vmem S1x64 .f32 := Memref.whole cc6_scratch1
abbrev VS6_0 : View sig .tc .vmem S1x64 .f32 := scM6_0.view
abbrev VS6_1 : View sig .tc .vmem S1x64 .f32 := scM6_1.view

/-- The part of the region's scoped memory that is neither a staging buffer nor one of the two accumulator rows. -/
abbrev restBut6 (c : Dev nD) : sProp 𝕄 :=
  Pipeline.scopedRestBut (Ix := Unit) (Name := ℕ) (U := UR sig nD τ) (Lvl := ℕ) (Val := Elt F) spec6 c [cc6_scratch0, cc6_scratch1]

/-- The scoped rest, with the two accumulator rows owned as whole memrefs at some contents. -/
theorem scopedRest6_rows (c : Dev nD) :
    (Pipeline.scopedRest (Ix := Unit) (Name := ℕ) (U := UR sig nD τ) (Lvl := ℕ) (Val := Elt F) spec6 c : sProp 𝕄)
      = iprop(iprop((∃ d, owns (c : Thread nD τ) scM6_0 fullShare d) ∗ (∃ d, owns (c : Thread nD τ) scM6_1 fullShare d)) ∗ restBut6 (F := F) c) := by
  rw [scopedRest6_split]; simp only [scM6_0, scM6_1, owns_whole]; try rfl

end Cert.Kernel.Hand

end
-- ==== Proof.K.Stats6RunA.lean ====
import proofs.«167925_j62517543961156_1_alg».proof.Proof.K.Stats6Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the FIRST node tile. Both accumulator rows, found at anything, are zeroed and then receive the tile's
    column sums (of the pre-activations, and of their squares); the pre-activation tile is stored; the mean and variance
    rows are not touched and come back as found. The lists are what the stores leave, last store first. -/
noncomputable def run6_A (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond6_0 i) (hc1 : ¬cond6_1 i)
    (x0 : Vec F S5000x64 .f32) (x1 : Vec F S64x64 .f32) (x2 : Vec F S1x64 .f32) (x3 : Vec F S5000x64 .f32) (x4 : Vec F S64x64 .f32) :
    Σ' (L5 : List (View.Piece (Elt F) S5000x64 .f32)) (LS0 : List (View.Piece (Elt F) S1x64 .f32)), { LS1 : List (View.Piece (Elt F) S1x64 .f32) //
      ∀ (xi6 xi7 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc6__stats_kernel_right i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc6__stats_kernel_right_eq_skeleton]; unfold cc6__stats_kernel_right_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    iexists _; iexact H9

end Cert.Kernel.Hand

end
-- ==== Proof.K.Stats6RunB.lean ====
import proofs.«167925_j62517543961156_1_alg».proof.Proof.K.Stats6RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a MIDDLE node tile. The accumulator rows, found at what the tile before left, receive this tile's column
    sums on top; the pre-activation tile is stored; the mean and variance rows are not touched and come back as found.
    The lists are what the stores leave, last store first. -/
noncomputable def run6_B (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond6_0 i) (hc1 : ¬cond6_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) :
    Σ' (L5 : List (View.Piece (Elt F) S5000x64 .f32)) (LS0 : List (View.Piece (Elt F) S1x64 .f32)), { LS1 : List (View.Piece (Elt F) S1x64 .f32) //
      ∀ (xi6 xi7 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc6__stats_kernel_right i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc6__stats_kernel_right_eq_skeleton]; unfold cc6__stats_kernel_right_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hf8; obtain rfl := harg10.eq_unread hf9
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    iexists _; iexact H9

end Cert.Kernel.Hand

end
-- ==== Proof.K.Stats6RunC.lean ====
import proofs.«167925_j62517543961156_1_alg».proof.Proof.K.Stats6RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the LAST node tile. The accumulator rows receive this tile's column sums on top of what the tile before
    left; then the mean row is the sums divided by the node count, and the variance row the sums of squares divided by
    the node count minus the squared mean. The lists are what the stores leave, last store first. -/
noncomputable def run6_C (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond6_0 i) (hc1 : cond6_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) :
    Σ' (L5 : List (View.Piece (Elt F) S5000x64 .f32)) (L6 : List (View.Piece (Elt F) S1x64 .f32)) (L7 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc6__stats_kernel_right i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc6__stats_kernel_right_eq_skeleton]; unfold cc6__stats_kernel_right_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hf8; obtain rfl := harg10.eq_unread hf9
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    iexists _; iexact H9

end Cert.Kernel.Hand

end
-- ==== Proof.K.Stats6.lean ====
import proofs.«167925_j62517543961156_1_alg».proof.Proof.K.Stats6RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Statistics kernel of region 6: what every buffer holds after each node tile, the proof data, the body obligation -/

/-- The stores of this case into this buffer cover it. -/
theorem cover6_A_5 (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond6_0 i) (hc1 : ¬cond6_1 i)
    (x0 : Vec F S5000x64 .f32) (x1 : Vec F S64x64 .f32) (x2 : Vec F S1x64 .f32) (x3 : Vec F S5000x64 .f32) (x4 : Vec F S64x64 .f32) (y : S5000x64.Idx) :
    ∃ pc ∈ (run6_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (run6_A c i arg1 harg1 arg2 harg2 arg3 harg3 arg4 harg4 arg5 harg5 arg6 harg6 arg7 harg7 arg8 harg8 arg9 harg9 arg10 harg10 hc0 hc1 x0 x1 x2 x3 x4).1 S5000x64.size (by sl_kernel_rfl) y

/-- What they leave in it: the stored pieces read back. -/
def out6_A_5 (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond6_0 i) (hc1 : ¬cond6_1 i)
    (x0 : Vec F S5000x64 .f32) (x1 : Vec F S64x64 .f32) (x2 : Vec F S1x64 .f32) (x3 : Vec F S5000x64 .f32) (x4 : Vec F S64x64 .f32) : Vec F S5000x64 .f32 :=
  VO6_5.read (Elt F) (VO6_5.writes (Elt F) VO6_5.junk (run6_A c i arg1 harg1 arg2 harg2 arg3 harg3 arg4 harg4 arg5 harg5 arg6 harg6 arg7 harg7 arg8 harg8 arg9 harg9 arg10 harg10 hc0 hc1 x0 x1 x2 x3 x4).1)

/-- The stores of this case into this buffer cover it. -/
theorem scover6_A_0 (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond6_0 i) (hc1 : ¬cond6_1 i)
    (x0 : Vec F S5000x64 .f32) (x1 : Vec F S64x64 .f32) (x2 : Vec F S1x64 .f32) (x3 : Vec F S5000x64 .f32) (x4 : Vec F S64x64 .f32) (y : S1x64.Idx) :
    ∃ pc ∈ (run6_A c i arg1 harg1 arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (run6_A c i arg1 harg1 arg2 harg2 arg3 harg3 arg4 harg4 arg5 harg5 arg6 harg6 arg7 harg7 arg8 harg8 arg9 harg9 arg10 harg10 hc0 hc1 x0 x1 x2 x3 x4).2.1 S1x64.size (by sl_kernel_rfl) y

/-- What they leave in it: the stored pieces read back. -/
def sout6_A_0 (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond6_0 i) (hc1 : ¬cond6_1 i)
    (x0 : Vec F S5000x64 .f32) (x1 : Vec F S64x64 .f32) (x2 : Vec F S1x64 .f32) (x3 : Vec F S5000x64 .f32) (x4 : Vec F S64x64 .f32) : Vec F S1x64 .f32 :=
  VS6_0.read (Elt F) (VS6_0.writes (Elt F) VS6_0.junk (run6_A c i arg1 harg1 arg2 harg2 arg3 harg3 arg4 harg4 arg5 harg5 arg6 harg6 arg7 harg7 arg8 harg8 arg9 harg9 arg10 harg10 hc0 hc1 x0 x1 x2 x3 x4).2.1)

/-- The stores of this case into this buffer cover it. -/
theorem scover6_A_1 (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond6_0 i) (hc1 : ¬cond6_1 i)
    (x0 : Vec F S5000x64 .f32) (x1 : Vec F S64x64 .f32) (x2 : Vec F S1x64 .f32) (x3 : Vec F S5000x64 .f32) (x4 : Vec F S64x64 .f32) (y : S1x64.Idx) :
    ∃ pc ∈ (run6_A c i arg1 harg1 arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (run6_A c i arg1 harg1 arg2 harg2 arg3 harg3 arg4 harg4 arg5 harg5 arg6 harg6 arg7 harg7 arg8 harg8 arg9 harg9 arg10 harg10 hc0 hc1 x0 x1 x2 x3 x4).2.2.1 S1x64.size (by sl_kernel_rfl) y

/-- What they leave in it: the stored pieces read back. -/
def sout6_A_1 (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond6_0 i) (hc1 : ¬cond6_1 i)
    (x0 : Vec F S5000x64 .f32) (x1 : Vec F S64x64 .f32) (x2 : Vec F S1x64 .f32) (x3 : Vec F S5000x64 .f32) (x4 : Vec F S64x64 .f32) : Vec F S1x64 .f32 :=
  VS6_1.read (Elt F) (VS6_1.writes (Elt F) VS6_1.junk (run6_A c i arg1 harg1 arg2 harg2 arg3 harg3 arg4 harg4 arg5 harg5 arg6 harg6 arg7 harg7 arg8 harg8 arg9 harg9 arg10 harg10 hc0 hc1 x0 x1 x2 x3 x4).2.2.1)

/-- The stores of this case into this buffer cover it. -/
theorem cover6_B_5 (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond6_0 i) (hc1 : ¬cond6_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S5000x64.Idx) :
    ∃ pc ∈ (run6_B c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (run6_B c i arg1 harg1 arg2 harg2 arg3 harg3 arg4 harg4 arg5 harg5 arg6 harg6 arg7 harg7 arg8 harg8 arg9 harg9 arg10 harg10 hc0 hc1 x0 x1 x2 x3 x4 xs0 xs1).1 S5000x64.size (by sl_kernel_rfl) y

/-- What they leave in it: the stored pieces read back. -/
def out6_B_5 (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond6_0 i) (hc1 : ¬cond6_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S5000x64 .f32 :=
  VO6_5.read (Elt F) (VO6_5.writes (Elt F) VO6_5.junk (run6_B c i arg1 harg1 arg2 harg2 arg3 harg3 arg4 harg4 arg5 harg5 arg6 harg6 arg7 harg7 arg8 harg8 arg9 harg9 arg10 harg10 hc0 hc1 x0 x1 x2 x3 x4 xs0 xs1).1)

/-- The stores of this case into this buffer cover it. -/
theorem scover6_B_0 (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond6_0 i) (hc1 : ¬cond6_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S1x64.Idx) :
    ∃ pc ∈ (run6_B c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (run6_B c i arg1 harg1 arg2 harg2 arg3 harg3 arg4 harg4 arg5 harg5 arg6 harg6 arg7 harg7 arg8 harg8 arg9 harg9 arg10 harg10 hc0 hc1 x0 x1 x2 x3 x4 xs0 xs1).2.1 S1x64.size (by sl_kernel_rfl) y

/-- What they leave in it: the stored pieces read back. -/
def sout6_B_0 (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond6_0 i) (hc1 : ¬cond6_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S1x64 .f32 :=
  VS6_0.read (Elt F) (VS6_0.writes (Elt F) VS6_0.junk (run6_B c i arg1 harg1 arg2 harg2 arg3 harg3 arg4 harg4 arg5 harg5 arg6 harg6 arg7 harg7 arg8 harg8 arg9 harg9 arg10 harg10 hc0 hc1 x0 x1 x2 x3 x4 xs0 xs1).2.1)

/-- The stores of this case into this buffer cover it. -/
theorem scover6_B_1 (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond6_0 i) (hc1 : ¬cond6_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S1x64.Idx) :
    ∃ pc ∈ (run6_B c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (run6_B c i arg1 harg1 arg2 harg2 arg3 harg3 arg4 harg4 arg5 harg5 arg6 harg6 arg7 harg7 arg8 harg8 arg9 harg9 arg10 harg10 hc0 hc1 x0 x1 x2 x3 x4 xs0 xs1).2.2.1 S1x64.size (by sl_kernel_rfl) y

/-- What they leave in it: the stored pieces read back. -/
def sout6_B_1 (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond6_0 i) (hc1 : ¬cond6_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S1x64 .f32 :=
  VS6_1.read (Elt F) (VS6_1.writes (Elt F) VS6_1.junk (run6_B c i arg1 harg1 arg2 harg2 arg3 harg3 arg4 harg4 arg5 harg5 arg6 harg6 arg7 harg7 arg8 harg8 arg9 harg9 arg10 harg10 hc0 hc1 x0 x1 x2 x3 x4 xs0 xs1).2.2.1)

/-- The stores of this case into this buffer cover it. -/
theorem cover6_C_5 (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond6_0 i) (hc1 : cond6_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S5000x64.Idx) :
    ∃ pc ∈ (run6_C c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (run6_C c i arg1 harg1 arg2 harg2 arg3 harg3 arg4 harg4 arg5 harg5 arg6 harg6 arg7 harg7 arg8 harg8 arg9 harg9 arg10 harg10 hc0 hc1 x0 x1 x2 x3 x4 xs0 xs1).1 S5000x64.size (by sl_kernel_rfl) y

/-- What they leave in it: the stored pieces read back. -/
def out6_C_5 (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond6_0 i) (hc1 : cond6_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S5000x64 .f32 :=
  VO6_5.read (Elt F) (VO6_5.writes (Elt F) VO6_5.junk (run6_C c i arg1 harg1 arg2 harg2 arg3 harg3 arg4 harg4 arg5 harg5 arg6 harg6 arg7 harg7 arg8 harg8 arg9 harg9 arg10 harg10 hc0 hc1 x0 x1 x2 x3 x4 xs0 xs1).1)

/-- The stores of this case into this buffer cover it. -/
theorem cover6_C_6 (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond6_0 i) (hc1 : cond6_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S1x64.Idx) :
    ∃ pc ∈ (run6_C c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (run6_C c i arg1 harg1 arg2 harg2 arg3 harg3 arg4 harg4 arg5 harg5 arg6 harg6 arg7 harg7 arg8 harg8 arg9 harg9 arg10 harg10 hc0 hc1 x0 x1 x2 x3 x4 xs0 xs1).2.1 S1x64.size (by sl_kernel_rfl) y

/-- What they leave in it: the stored pieces read back. -/
def out6_C_6 (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond6_0 i) (hc1 : cond6_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S1x64 .f32 :=
  VO6_6.read (Elt F) (VO6_6.writes (Elt F) VO6_6.junk (run6_C c i arg1 harg1 arg2 harg2 arg3 harg3 arg4 harg4 arg5 harg5 arg6 harg6 arg7 harg7 arg8 harg8 arg9 harg9 arg10 harg10 hc0 hc1 x0 x1 x2 x3 x4 xs0 xs1).2.1)

/-- The stores of this case into this buffer cover it. -/
theorem cover6_C_7 (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond6_0 i) (hc1 : cond6_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S1x64.Idx) :
    ∃ pc ∈ (run6_C c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (run6_C c i arg1 harg1 arg2 harg2 arg3 harg3 arg4 harg4 arg5 harg5 arg6 harg6 arg7 harg7 arg8 harg8 arg9 harg9 arg10 harg10 hc0 hc1 x0 x1 x2 x3 x4 xs0 xs1).2.2.1 S1x64.size (by sl_kernel_rfl) y

/-- What they leave in it: the stored pieces read back. -/
def out6_C_7 (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond6_0 i) (hc1 : cond6_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S1x64 .f32 :=
  VO6_7.read (Elt F) (VO6_7.writes (Elt F) VO6_7.junk (run6_C c i arg1 harg1 arg2 harg2 arg3 harg3 arg4 harg4 arg5 harg5 arg6 harg6 arg7 harg7 arg8 harg8 arg9 harg9 arg10 harg10 hc0 hc1 x0 x1 x2 x3 x4 xs0 xs1).2.2.1)

/-- The stores of this case into this buffer cover it. -/
theorem scover6_C_0 (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond6_0 i) (hc1 : cond6_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S1x64.Idx) :
    ∃ pc ∈ (run6_C c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (run6_C c i arg1 harg1 arg2 harg2 arg3 harg3 arg4 harg4 arg5 harg5 arg6 harg6 arg7 harg7 arg8 harg8 arg9 harg9 arg10 harg10 hc0 hc1 x0 x1 x2 x3 x4 xs0 xs1).2.2.2.1 S1x64.size (by sl_kernel_rfl) y

/-- What they leave in it: the stored pieces read back. -/
def sout6_C_0 (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond6_0 i) (hc1 : cond6_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S1x64 .f32 :=
  VS6_0.read (Elt F) (VS6_0.writes (Elt F) VS6_0.junk (run6_C c i arg1 harg1 arg2 harg2 arg3 harg3 arg4 harg4 arg5 harg5 arg6 harg6 arg7 harg7 arg8 harg8 arg9 harg9 arg10 harg10 hc0 hc1 x0 x1 x2 x3 x4 xs0 xs1).2.2.2.1)

/-- The stores of this case into this buffer cover it. -/
theorem scover6_C_1 (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond6_0 i) (hc1 : cond6_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S1x64.Idx) :
    ∃ pc ∈ (run6_C c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (run6_C c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x64.size (by sl_kernel_rfl) y

/-- What they leave in it: the stored pieces read back. -/
def sout6_C_1 (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond6_0 i) (hc1 : cond6_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S1x64 .f32 :=
  VS6_1.read (Elt F) (VS6_1.writes (Elt F) VS6_1.junk (run6_C c i arg1 harg1 arg2 harg2 arg3 harg3 arg4 harg4 arg5 harg5 arg6 harg6 arg7 harg7 arg8 harg8 arg9 harg9 arg10 harg10 hc0 hc1 x0 x1 x2 x3 x4 xs0 xs1).2.2.2.2.1)

/-! ## The buffers the pipeline hands the body at a point -/

abbrev ms6_0 (t : Fin cfg6.N) : Memref sig .tc .vmem S5000x64 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S64x64 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x64 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S5000x64 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S64x64 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S5000x64 .f32 := win6_5.stage (cfg6.slots t 5)
abbrev hs6_5 (t : Fin cfg6.N) : (ms6_5 t).IsWhole := hstage6_5 ((cfg6.slots t 5).cast nbuf6_5)
abbrev ms6_6 (t : Fin cfg6.N) : Memref sig .tc .vmem S1x64 .f32 := win6_6.stage (cfg6.slots t 6)
abbrev hs6_6 (t : Fin cfg6.N) : (ms6_6 t).IsWhole := hstage6_6 ((cfg6.slots t 6).cast nbuf6_6)
abbrev ms6_7 (t : Fin cfg6.N) : Memref sig .tc .vmem S1x64 .f32 := win6_7.stage (cfg6.slots t 7)
abbrev hs6_7 (t : Fin cfg6.N) : (ms6_7 t).IsWhole := hstage6_7 ((cfg6.slots t 7).cast nbuf6_7)

/-! ## What the buffers hold after each node tile -/

/-- After the body at position `n`: the pre-activation tile's buffer, the mean row, the variance row (both meaningful at
    the last tile only; elsewhere a placeholder nothing reads), and the two accumulator rows — the row of column sums and
    the row of column sums of squares over the tiles `0 .. n`: at the first tile from zero, at every later one on top of
    what the tile before left. -/
def outsAt6 (c : Dev nD) : (n : ℕ) → n < cfg6.N → Vec F S5000x64 .f32 × Vec F S1x64 .f32 × Vec F S1x64 .f32 × Vec F S1x64 .f32 × Vec F S1x64 .f32
  | 0, hn => (out6_A_5 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) scM6_0 (Memref.isWhole_whole _) scM6_1 (Memref.isWhole_whole _) ((hcond6_0 ⟨0, hn⟩).mpr rfl) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩),
        VO6_6.read (Elt F) VO6_6.junk,
        VO6_7.read (Elt F) VO6_7.junk,
        sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) scM6_0 (Memref.isWhole_whole _) scM6_1 (Memref.isWhole_whole _) ((hcond6_0 ⟨0, hn⟩).mpr rfl) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩),
        sout6_A_1 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) scM6_0 (Memref.isWhole_whole _) scM6_1 (Memref.isWhole_whole _) ((hcond6_0 ⟨0, hn⟩).mpr rfl) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩))
  | n + 1, hn =>
    if h1 : n + 1 = 9 then
      (out6_C_5 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) scM6_0 (Memref.isWhole_whole _) scM6_1 (Memref.isWhole_whole _) (fun h => absurd ((hcond6_0 ⟨n + 1, hn⟩).mp h) (Nat.succ_ne_zero n)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.2.2.1 (outsAt6 c n (Nat.lt_of_succ_lt hn)).2.2.2.2,
        out6_C_6 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) scM6_0 (Memref.isWhole_whole _) scM6_1 (Memref.isWhole_whole _) (fun h => absurd ((hcond6_0 ⟨n + 1, hn⟩).mp h) (Nat.succ_ne_zero n)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.2.2.1 (outsAt6 c n (Nat.lt_of_succ_lt hn)).2.2.2.2,
        out6_C_7 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) scM6_0 (Memref.isWhole_whole _) scM6_1 (Memref.isWhole_whole _) (fun h => absurd ((hcond6_0 ⟨n + 1, hn⟩).mp h) (Nat.succ_ne_zero n)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.2.2.1 (outsAt6 c n (Nat.lt_of_succ_lt hn)).2.2.2.2,
        sout6_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) scM6_0 (Memref.isWhole_whole _) scM6_1 (Memref.isWhole_whole _) (fun h => absurd ((hcond6_0 ⟨n + 1, hn⟩).mp h) (Nat.succ_ne_zero n)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.2.2.1 (outsAt6 c n (Nat.lt_of_succ_lt hn)).2.2.2.2,
        sout6_C_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) scM6_0 (Memref.isWhole_whole _) scM6_1 (Memref.isWhole_whole _) (fun h => absurd ((hcond6_0 ⟨n + 1, hn⟩).mp h) (Nat.succ_ne_zero n)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.2.2.1 (outsAt6 c n (Nat.lt_of_succ_lt hn)).2.2.2.2)
    else
      (out6_B_5 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) scM6_0 (Memref.isWhole_whole _) scM6_1 (Memref.isWhole_whole _) (fun h => absurd ((hcond6_0 ⟨n + 1, hn⟩).mp h) (Nat.succ_ne_zero n)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.2.2.1 (outsAt6 c n (Nat.lt_of_succ_lt hn)).2.2.2.2,
        VO6_6.read (Elt F) VO6_6.junk,
        VO6_7.read (Elt F) VO6_7.junk,
        sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) scM6_0 (Memref.isWhole_whole _) scM6_1 (Memref.isWhole_whole _) (fun h => absurd ((hcond6_0 ⟨n + 1, hn⟩).mp h) (Nat.succ_ne_zero n)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.2.2.1 (outsAt6 c n (Nat.lt_of_succ_lt hn)).2.2.2.2,
        sout6_B_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) scM6_0 (Memref.isWhole_whole _) scM6_1 (Memref.isWhole_whole _) (fun h => absurd ((hcond6_0 ⟨n + 1, hn⟩).mp h) (Nat.succ_ne_zero n)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.2.2.1 (outsAt6 c n (Nat.lt_of_succ_lt hn)).2.2.2.2)

/-- The row of column sums after tile `n`, and the row of column sums of squares. -/
abbrev S6 (c : Dev nD) (n : ℕ) (hn : n < cfg6.N) : Vec F S1x64 .f32 := (outsAt6 V c n hn).2.2.2.1
abbrev Q6 (c : Dev nD) (n : ℕ) (hn : n < cfg6.N) : Vec F S1x64 .f32 := (outsAt6 V c n hn).2.2.2.2

theorem outsAt6_A (c : Dev nD) (t : Fin cfg6.N) (h0 : t.val = 0) :
    outsAt6 V c t.val t.isLt = (out6_A_5 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) ((hcond6_0 t).mpr h0) (fun h => (fun h => by omega) ((hcond6_1 t).mp h)) (iblk6 V c 0 t) (iblk6 V c 1 t) (iblk6 V c 2 t) (iblk6 V c 3 t) (iblk6 V c 4 t),
        VO6_6.read (Elt F) VO6_6.junk,
        VO6_7.read (Elt F) VO6_7.junk,
        sout6_A_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) ((hcond6_0 t).mpr h0) (fun h => (fun h => by omega) ((hcond6_1 t).mp h)) (iblk6 V c 0 t) (iblk6 V c 1 t) (iblk6 V c 2 t) (iblk6 V c 3 t) (iblk6 V c 4 t),
        sout6_A_1 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) ((hcond6_0 t).mpr h0) (fun h => (fun h => by omega) ((hcond6_1 t).mp h)) (iblk6 V c 0 t) (iblk6 V c 1 t) (iblk6 V c 2 t) (iblk6 V c 3 t) (iblk6 V c 4 t)) := by
  obtain ⟨n, hn⟩ := t
  cases n with
  | zero => exact rfl
  | succ n => exact absurd h0 (Nat.succ_ne_zero n)

theorem outsAt6_B (c : Dev nD) (t : Fin cfg6.N) (h0 : ¬t.val = 0) (h1 : ¬t.val = 9) :
    outsAt6 V c t.val t.isLt = (out6_B_5 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
        VO6_6.read (Elt F) VO6_6.junk,
        VO6_7.read (Elt F) VO6_7.junk,
        sout6_B_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
        sout6_B_1 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2.2.2.1 (outsAt6 V c (t.val - 1) (Nat.lt_of_le_of_lt (Nat.sub_le _ _) t.isLt)).2.2.2.2) := by
  obtain ⟨n, hn⟩ := t
  cases n with
  | zero => exact absurd rfl h0
  | succ n => exact (dif_neg h1).trans rfl

theorem outsAt6_C (c : Dev nD) (t : Fin cfg6.N) (h0 : ¬t.val = 0) (h1 : t.val = 9) :
    outsAt6 V c t.val t.isLt = (out6_C_5 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
        out6_C_6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
        out6_C_7 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
        sout6_C_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
        sout6_C_1 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (outsAt6 V c (t.val - 1) (Nat.lt_of_le_of_lt (Nat.sub_le _ _) t.isLt)).2.2.2.1 (outsAt6 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The invariant between node tiles -/

/-- Before position `n`: the two accumulator rows — at anything before the first tile, afterwards at the sums the tile
    before left —, the rest of the scoped memory untouched, the generator register at some state. -/
def Phi6 (c : Dev nD) : (n : ℕ) → n ≤ cfg6.N → sProp 𝕄
  | 0, _ => iprop((∃ d, owns (c : Thread nD τ) scM6_0 fullShare d) ∗ (∃ d, owns (c : Thread nD τ) scM6_1 fullShare d) ∗ restBut6 (F := F) c ∗ (∃ r, prngReg c r))
  | n + 1, hn => iprop(owns (c : Thread nD τ) scM6_0 fullShare (S6 V c n hn) ∗ owns (c : Thread nD τ) scM6_1 fullShare (Q6 V c n hn) ∗ restBut6 (F := F) c ∗ (∃ r, prngReg c r))

theorem Phi6_zero (c : Dev nD) (n : ℕ) (h : n ≤ cfg6.N) (hz : n = 0) :
    Phi6 V c n h = iprop((∃ d, owns (c : Thread nD τ) scM6_0 fullShare d) ∗ (∃ d, owns (c : Thread nD τ) scM6_1 fullShare d) ∗ restBut6 (F := F) c ∗ (∃ r, prngReg c r)) := by
  subst hz; rfl

theorem Phi6_succ (c : Dev nD) (n : ℕ) (hn : n < cfg6.N) :
    Phi6 V c (n + 1) hn = iprop(owns (c : Thread nD τ) scM6_0 fullShare (S6 V c n hn) ∗ owns (c : Thread nD τ) scM6_1 fullShare (Q6 V c n hn) ∗ restBut6 (F := F) c ∗ (∃ r, prngReg c r)) := rfl

theorem Phi6_pos (c : Dev nD) (n : ℕ) (h : n ≤ cfg6.N) (hz : n ≠ 0) :
    Phi6 V c n h = iprop(owns (c : Thread nD τ) scM6_0 fullShare (S6 V c (n - 1) (by omega)) ∗ owns (c : Thread nD τ) scM6_1 fullShare (Q6 V c (n - 1) (by omega)) ∗ restBut6 (F := F) c ∗ (∃ r, prngReg c r)) := by
  cases n with
  | zero => exact absurd rfl hz
  | succ n => rfl

/-! ## The proof data -/

/-- The pipeline's proof data on core `c`: the arrays as the region finds them; after the body at a point every input's
    buffer at its block, the outputs' at `outsAt6`'s components; between points the invariant `Phi6`; full shares,
    nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => (outsAt6 V c t.val t.isLt).1
    | ⟨6, _⟩ => (outsAt6 V c t.val t.isLt).2.1
    | ⟨7, _⟩ => (outsAt6 V c t.val t.isLt).2.2.1
  Φ t := Phi6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem Phi6_castSucc (c : Dev nD) (t : Fin cfg6.N) :
    (dat6 V c).Φ t.castSucc = Phi6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = (outsAt6 V c t.val t.isLt).1 := by dsimp only [dat6]
theorem after6_6 (c : Dev nD) (t : Fin cfg6.N) : (dat6 V c).after 6 t = (outsAt6 V c t.val t.isLt).2.1 := by dsimp only [dat6]
theorem after6_7 (c : Dev nD) (t : Fin cfg6.N) : (dat6 V c).after 7 t = (outsAt6 V c t.val t.isLt).2.2.1 := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation -/

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d))
    ∗ (∃ d, owns (c : Thread nD τ) (ms6_7 t) fullShare ((dat6 V c).before 7 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t
    ∗ (dat6 V c).leavesExact 7 t)

set_option maxHeartbeats 4800000 in
/-- The body at any point. The inputs' buffers hold their blocks; the point's position says which control case it is in;
    that case's run applies, handed the accumulator rows at what the invariant says they hold, and gives them back at this
    point's sums; the mean and variance rows are handed back untouched before the last tile. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).owesAt () t.succ = (dat6 V c).owesAt () t.castSucc from rfl]
  rw [show (dat6 V c).Φ t.succ = Phi6 V c (t.val + 1) t.isLt from rfl, Phi6_succ]
  unfold S6 Q6
  have hN : t.val < 10 := lt_of_lt_of_eq t.isLt (show cfg6.N = 10 from N_6)
  by_cases h0 : t.val = 0
  · have h1 : ¬t.val = 9 := by omega
    ·
      rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [show (dat6 V c).leavesExact 3 t = owns (c : Thread nD τ) (ms6_3 t) fullShare ((dat6 V c).after 3 t) from by
        unfold Dat.leavesExact; rw [liveAt6_3 t], after6_3]
      rw [show (dat6 V c).leavesExact 4 t = owns (c : Thread nD τ) (ms6_4 t) fullShare ((dat6 V c).after 4 t) from by
        unfold Dat.leavesExact; rw [liveAt6_4 t], after6_4]
      rw [show (dat6 V c).leavesExact 5 t = owns (c : Thread nD τ) (ms6_5 t) fullShare ((dat6 V c).after 5 t) from by
        unfold Dat.leavesExact; rw [liveAt6_5 t], after6_5]
      rw [Dat.leavesExact_idle (dat6 V c) 6 t (idleAt6_6 t (fun h => h1 ((hcond6_1 t).mp h))) (noFlush6_6 t (fun h => h1 ((hcond6_1 t).mp h)))]
      rw [Dat.leavesExact_idle (dat6 V c) 7 t (idleAt6_7 t (fun h => h1 ((hcond6_1 t).mp h))) (noFlush6_7 t (fun h => h1 ((hcond6_1 t).mp h)))]
      rw [outsAt6_A V c t h0]
      unfold out6_A_5 sout6_A_0 sout6_A_1; (try dsimp only)
      rw [Phi6_castSucc V c t, Phi6_zero V c _ _ h0]
      iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((run6_A c (grid6.coords t) _ _ _ _ _ _ _ _ _ _ _ _ _ _ _ _ _ _ _ _ ((hcond6_0 t).mpr h0) (fun h => h1 ((hcond6_1 t).mp h)) (iblk6 V c 0 t) (iblk6 V c 1 t) (iblk6 V c 2 t) (iblk6 V c 3 t) (iblk6 V c 4 t)).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%e8, HS0⟩, ⟨%e9, HS1⟩⟩
      isplitl [HS0 HS1 HR Hg]
      · isplitl [HS0]
        · unfold owns; iexists _; isplitr
          swap; · iexact HS0
          ipureintro; exact View.read_writes_of_cover _ _ _ _ _ (scover6_A_0 (F := F) c _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover6_A_1 (F := F) c _ _ _ _ _ _ _ _ _ _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover6_A_5 (F := F) c _ _ _ _ _ _ _ _ _ _ _ _ _ _ _ _ _ _ _ _ _ _ _ _ _ _ _ _)
      isplitl [H6]; · iexists _; iexact H6
      iexists _; iexact H7

  · by_cases h1 : t.val = 9
    ·
      rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [show (dat6 V c).leavesExact 3 t = owns (c : Thread nD τ) (ms6_3 t) fullShare ((dat6 V c).after 3 t) from by
        unfold Dat.leavesExact; rw [liveAt6_3 t], after6_3]
      rw [show (dat6 V c).leavesExact 4 t = owns (c : Thread nD τ) (ms6_4 t) fullShare ((dat6 V c).after 4 t) from by
        unfold Dat.leavesExact; rw [liveAt6_4 t], after6_4]
      rw [show (dat6 V c).leavesExact 5 t = owns (c : Thread nD τ) (ms6_5 t) fullShare ((dat6 V c).after 5 t) from by
        unfold Dat.leavesExact; rw [liveAt6_5 t], after6_5]
      rw [show (dat6 V c).leavesExact 6 t = owns (c : Thread nD τ) (ms6_6 t) fullShare ((dat6 V c).after 6 t) from by
        unfold Dat.leavesExact; rw [liveAt6_6 t ((hcond6_1 t).mpr h1)], after6_6]
      rw [show (dat6 V c).leavesExact 7 t = owns (c : Thread nD τ) (ms6_7 t) fullShare ((dat6 V c).after 7 t) from by
        unfold Dat.leavesExact; rw [liveAt6_7 t ((hcond6_1 t).mpr h1)], after6_7]
      rw [outsAt6_C V c t h0 h1]
      unfold out6_C_5 out6_C_6 out6_C_7 sout6_C_0 sout6_C_1; (try dsimp only)
      rw [Phi6_castSucc V c t, Phi6_pos V c _ _ h0]
      iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((run6_C c (grid6.coords t) _ _ _ _ _ _ _ _ _ _ _ _ _ _ _ _ _ _ _ _ (fun h => h0 ((hcond6_0 t).mp h)) ((hcond6_1 t).mpr h1) (iblk6 V c 0 t) (iblk6 V c 1 t) (iblk6 V c 2 t) (iblk6 V c 3 t) (iblk6 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%e8, HS0⟩, ⟨%e9, HS1⟩⟩
      isplitl [HS0 HS1 HR Hg]
      · isplitl [HS0]
        · unfold owns; iexists _; isplitr
          swap; · iexact HS0
          ipureintro; exact View.read_writes_of_cover _ _ _ _ _ (scover6_C_0 (F := F) c _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover6_C_1 (F := F) c _ _ _ _ _ _ _ _ _ _ _ _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover6_C_5 (F := F) c _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover6_C_6 (F := F) c _ _ _ _ _ _ _ _ _ _ _ _ _ _ _ _ _ _ _ _ _ _ _ _ _ _ _ _ _ _)
      unfold owns; iexists _; isplitr
      swap; · iexact H7
      ipureintro; exact View.read_writes_of_cover _ _ _ _ _ (cover6_C_7 (F := F) c _ _ _ _ _ _ _ _ _ _ _ _ _ _ _ _ _ _ _ _ _ _ _ _ _ _ _ _ _ _)

    ·
      rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [show (dat6 V c).leavesExact 3 t = owns (c : Thread nD τ) (ms6_3 t) fullShare ((dat6 V c).after 3 t) from by
        unfold Dat.leavesExact; rw [liveAt6_3 t], after6_3]
      rw [show (dat6 V c).leavesExact 4 t = owns (c : Thread nD τ) (ms6_4 t) fullShare ((dat6 V c).after 4 t) from by
        unfold Dat.leavesExact; rw [liveAt6_4 t], after6_4]
      rw [show (dat6 V c).leavesExact 5 t = owns (c : Thread nD τ) (ms6_5 t) fullShare ((dat6 V c).after 5 t) from by
        unfold Dat.leavesExact; rw [liveAt6_5 t], after6_5]
      rw [Dat.leavesExact_idle (dat6 V c) 6 t (idleAt6_6 t (fun h => h1 ((hcond6_1 t).mp h))) (noFlush6_6 t (fun h => h1 ((hcond6_1 t).mp h)))]
      rw [Dat.leavesExact_idle (dat6 V c) 7 t (idleAt6_7 t (fun h => h1 ((hcond6_1 t).mp h))) (noFlush6_7 t (fun h => h1 ((hcond6_1 t).mp h)))]
      rw [outsAt6_B V c t h0 h1]
      unfold out6_B_5 sout6_B_0 sout6_B_1; (try dsimp only)
      rw [Phi6_castSucc V c t, Phi6_pos V c _ _ h0]
      iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((run6_B c (grid6.coords t) _ _ _ _ _ _ _ _ _ _ _ _ _ _ _ _ _ _ _ _ (fun h => h0 ((hcond6_0 t).mp h)) (fun h => h1 ((hcond6_1 t).mp h)) (iblk6 V c 0 t) (iblk6 V c 1 t) (iblk6 V c 2 t) (iblk6 V c 3 t) (iblk6 V c 4 t) _ _).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%e8, HS0⟩, ⟨%e9, HS1⟩⟩
      isplitl [HS0 HS1 HR Hg]
      · isplitl [HS0]
        · unfold owns; iexists _; isplitr
          swap; · iexact HS0
          ipureintro; exact View.read_writes_of_cover _ _ _ _ _ (scover6_B_0 (F := F) c _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover6_B_1 (F := F) c _ _ _ _ _ _ _ _ _ _ _ _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover6_B_5 (F := F) c _ _ _ _ _ _ _ _ _ _ _ _ _ _ _ _ _ _ _ _ _ _ _ _ _ _ _ _ _ _)
      isplitl [H6]; · iexists _; iexact H6
      iexists _; iexact H7

theorem body_obligation6 (c : Dev nD) : BodyObligation (dat6 (F := F) V c) (defs₀ (F := F)) Variants.none () Set.univ := fun t => by
  rw [bigSep_W6, bigSep_W6]
  exact sound_body6 V c t

/-! ## Entering and leaving the region -/

/-- What the launch hands the region is the invariant before the first tile: the accumulator rows are two of the scoped
    buffers, at whatever they hold. -/
theorem hin6 (c : Dev nD) :
    (iprop((∃ r, prngReg c r) ∗ Pipeline.scopedRest (Ix := Unit) (Name := ℕ) (U := UR sig nD τ) (Lvl := ℕ) (Val := Elt F) spec6 c) : sProp 𝕄) ⊢ (dat6 V c).Φ 0 := by
  rw [show (dat6 V c).Φ 0 = Phi6 V c 0 (Nat.zero_le _) from rfl, Phi6_zero V c 0 _ rfl, scopedRest6_rows]
  iintro ⟨Hg, ⟨HS0, HS1⟩, HR⟩
  isplitl [HS0]; · iexact HS0
  isplitl [HS1]; · iexact HS1
  isplitl [HR]; · iexact HR
  iexact Hg

/-- After the last tile the invariant gives the scoped rest back: the sums in the accumulator rows are forgotten. -/
theorem hout6 (c : Dev nD) :
    (dat6 V c).Φ (Fin.last cfg6.N) ⊢ (iprop((∃ r, prngReg c r) ∗ Pipeline.scopedRest (Ix := Unit) (Name := ℕ) (U := UR sig nD τ) (Lvl := ℕ) (Val := Elt F) spec6 c) : sProp 𝕄) := by
  rw [show (dat6 V c).Φ (Fin.last cfg6.N) = Phi6 V c (Fin.last cfg6.N).val (Nat.le_of_lt_succ (Fin.last cfg6.N).isLt) from rfl,
    Phi6_pos V c _ _ (by rw [Fin.val_last]; have : cfg6.N = 10 := N_6; omega), scopedRest6_rows]
  iintro ⟨HS0, HS1, HR, Hg⟩
  isplitl [Hg]; · iexact Hg
  isplitl [HS0 HS1]
  · isplitl [HS0]; · iexists _; iexact HS0
    iexists _; iexact HS1
  iexact HR

end Cert.Kernel.Hand

end
-- ==== Proof.K.Norm7.lean ====
import proofs.«167925_j62517543961156_1_alg».proof.Proof.Gen.Kernel.Launch
import proofs.«167925_j62517543961156_1_alg».proof.Proof.Gen.Kernel.Skeleton
import proofs.«167925_j62517543961156_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 7: the normalisation of one node tile

Each grid point reads a tile of pre-activations (5000 rows, 64 features), the per-feature mean, variance,
scale and shift rows, and the tile of the previous layer's features, and writes the tile
`max(((pre − mean) · rsqrt(var + ε)) · γ + β, 0) + resid`.  No state is carried from one point to the
next: every input window is read whole, the one output window is written whole.  So, at an arbitrary
content `V` of the buffers on entry, the proof data say: after the body each input window holds its own
block and the output window holds the pointwise function of the input blocks.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the windows -/

/-- The block of window `w` at grid point `t`, cut out of the array the region finds on entry. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window that the body hands back unchanged holds its block at every point: where it was fetched
    this is what the fetch put there, and where it was not the block index has not moved since the last fetch. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- An input window that the body hands back unchanged holds its block at every point: where it was fetched
    this is what the fetch put there, and where it was not the block index has not moved since the last fetch. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- An input window that the body hands back unchanged holds its block at every point: where it was fetched
    this is what the fetch put there, and where it was not the block index has not moved since the last fetch. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- An input window that the body hands back unchanged holds its block at every point: where it was fetched
    this is what the fetch put there, and where it was not the block index has not moved since the last fetch. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- An input window that the body hands back unchanged holds its block at every point: where it was fetched
    this is what the fetch put there, and where it was not the block index has not moved since the last fetch. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- An input window that the body hands back unchanged holds its block at every point: where it was fetched
    this is what the fetch put there, and where it was not the block index has not moved since the last fetch. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-! ## What the body reads and writes -/

/-- The whole tile, and the whole row: the only two rectangles the body touches. -/
abbrev r7_big : Rect S5000x64 := Rect.unit (s := S5000x64) ![0, 0] S5000x64.size inb_S5000x64_S5000x64_0_0
abbrev r7_row : Rect S1x64 := Rect.unit (s := S1x64) ![0, 0] S1x64.size inb_S1x64_S1x64_0_0

/-- The output tile as a function of the input blocks: the single store, whose value is the normalised tile
    computed from the loaded tile and rows. -/
def out7_6 (x0 : Vec F S5000x64 .f32) (x1 : Vec F S1x64 .f32) (x2 : Vec F S1x64 .f32) (x3 : Vec F S1x64 .f32) (x4 : Vec F S1x64 .f32) (x5 : Vec F S5000x64 .f32) : Vec F S5000x64 .f32 :=
  View.canon [⟨r7_big, k7_pay1 (View.ld x1 r7_row) (View.ld x2 r7_row) (View.ld x0 r7_big) (View.ld x3 r7_row) (View.ld x4 r7_row) (View.ld x5 r7_big)⟩]

/-- The one store writes the whole tile, so every index of the buffer lies in it. -/
theorem cover7_6 (p0 : Vec F S5000x64 .f32) (y : S5000x64.Idx) :
    ∃ pc ∈ ([⟨r7_big, p0⟩] : List (View.Piece (Elt F) S5000x64 .f32)), y ∈ pc.1.set :=
  View.cover_of_tiled [⟨r7_big, p0⟩] S5000x64.size (by rfl) y

/-! ## The body, run on whole staging buffers -/

set_option maxHeartbeats 1000000 in
/-- Started with the input buffers at contents `x` and the output buffer at anything, the body ends with the inputs
    as they were and the output at `out7_6 x`: it is a sequence of whole-buffer loads followed by one
    whole-buffer store. -/
theorem sound_kernel7 (c : Dev nD) (E : Set ℕ) (i : grid7.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S5000x64 .f32) (harg7 : arg7.IsWhole)
    (x0 : Vec F S5000x64 .f32) (x1 : Vec F S1x64 .f32) (x2 : Vec F S1x64 .f32) (x3 : Vec F S1x64 .f32) (x4 : Vec F S1x64 .f32) (x5 : Vec F S5000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out7_6 x0 x1 x2 x3 x4 x5)) -∗ K ⟨⟩))
      ⊢ wp frame (wpE (defs₀ (F := F)) Variants.none c none) E (cc7__norm_kernel_resid i arg1 harg1 arg2 harg2 arg3 harg3 arg4 harg4 arg5 harg5 arg6 harg6 arg7 harg7) K := by
  simp only [cc7__norm_kernel_resid_eq_skeleton]; unfold cc7__norm_kernel_resid_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover7_6 _)

/-! ## The proof data of the pipeline -/

/-- The arrays are the ones found on entry; after the body at point `t` every input window holds its block and
    the output window the normalised tile of those blocks; the invariant is the one of a body that touches
    nothing but its windows; all shares are full and nothing is owed. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

theorem A_eq7 (c : Dev nD) (w : Fin cfg7.W) : (dat7 V c).A w = V c (Pipeline.arrRef spec7 w) := by
  dsimp only [dat7]

/-- What the body leaves in each window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = out7_6 (iblk7 V c 0 t) (iblk7 V c 1 t) (iblk7 V c 2 t) (iblk7 V c 3 t) (iblk7 V c 4 t) (iblk7 V c 5 t) := by dsimp only [dat7]

/-- What the body finds in each input window: its block. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d

/-! ## The body obligation -/

/-- What the body is started with at point `t`, window by window, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

/-- and what it ends with. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t))

/-- At any point the input buffers hold their blocks, so the triple of the body applies; the invariant and the
    debts are not looked at. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c Set.univ _ _ _ _ _ _ _ _ _ _ _ _ _ _ _ (iblk7 V c 0 t) (iblk7 V c 1 t) (iblk7 V c 2 t) (iblk7 V c 3 t) (iblk7 V c 4 t) (iblk7 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation7 (c : Dev nD) : BodyObligation (dat7 (F := F) V c) (defs₀ (F := F)) Variants.none () Set.univ := fun t => by
  rw [bigSep_W7, bigSep_W7]
  exact sound_body7 V c t

end Cert.Kernel.Hand
-- ==== Proof.K.Run.lean ====
/-
  The run of the eight-region program: from the launch to the return, what every unscoped buffer of the TensorCore holds.

  @main is twelve items in order: a stretch of host operations, the first statistics region and its normalisation
  region, then three times a stretch of host operations (the neighbour gather, the scatter-add, the division, the
  layer's slices), a statistics region and a normalisation region.  Between two items the core holds every unscoped
  buffer whole at a valuation `W j`: `W 0` is the launch memory; a host stretch takes `W j` to the operations'
  composed result over it; a region takes `W j` to `W j` with each of the region's arrays replaced by what its
  pipeline leaves there — an input array as entered, an output array with every block written back.  Beside the
  buffers ride the generator register, at some state, and the core's dues, at nothing: no region signals another core.

  `run_main`: every weakly fair execution of @main terminates without a fault in a state whose every unscoped
  buffer holds `W 12`.  Read at an argument's buffer `W 12` walks back to the launch memory (no host operation and
  no region writes an argument): the frame.  Read at the result's buffer it is what the last region leaves.
-/
import proofs.«167925_j62517543961156_1_alg».proof.Proof.K.Stats0
import proofs.«167925_j62517543961156_1_alg».proof.Proof.K.Norm1
import proofs.«167925_j62517543961156_1_alg».proof.Proof.K.Stats2
import proofs.«167925_j62517543961156_1_alg».proof.Proof.K.Norm3
import proofs.«167925_j62517543961156_1_alg».proof.Proof.K.Stats4
import proofs.«167925_j62517543961156_1_alg».proof.Proof.K.Norm5
import proofs.«167925_j62517543961156_1_alg».proof.Proof.K.Stats6
import proofs.«167925_j62517543961156_1_alg».proof.Proof.K.Norm7
import proofs.«167925_j62517543961156_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between the items -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- `W 1` read at the TensorCore's references: what the region entered there finds. -/
abbrev U1 : (c : Dev nD) → (b : Ref sig .tc) → Buf (Elt F) ((c : Thread nD τ).loc b) := fun c b => W1 m ρ c b
/-- After region 0: its arrays at what pipeline 0 leaves, every other buffer as the region found it. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- `W 2` read at the TensorCore's references: what the region entered there finds. -/
abbrev U2 : (c : Dev nD) → (b : Ref sig .tc) → Buf (Elt F) ((c : Thread nD τ).loc b) := fun c b => W2 m ρ c b
/-- After region 1: its arrays at what pipeline 1 leaves, every other buffer as the region found it. -/
def W3 (c : Dev nD) : Valuation τ sig (Elt F) :=
  Pipeline.withArrays spec1 c (W2 m ρ c) fun w => (dat1 (U2 m ρ) c).arrAt w cfg1.N
theorem W3_arr (c : Dev nD) (w : Fin cfg1.W) :
    W3 m ρ c (Proc.devRef .tc (Pipeline.arrRef spec1 w)) = (dat1 (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- `W 3` read at the TensorCore's references: what the region entered there finds. -/
abbrev U3 : (c : Dev nD) → (b : Ref sig .tc) → Buf (Elt F) ((c : Thread nD τ).loc b) := fun c b => W3 m ρ c b
/-- After the host stretch `hostOps2`. -/
abbrev W4 : Dev nD → Valuation τ sig (Elt F) := fun c => StableHlo.after hostOps2 (W3 m ρ c)
/-- `W 4` read at the TensorCore's references: what the region entered there finds. -/
abbrev U4 : (c : Dev nD) → (b : Ref sig .tc) → Buf (Elt F) ((c : Thread nD τ).loc b) := fun c b => W4 m ρ c b
/-- After region 2: its arrays at what pipeline 2 leaves, every other buffer as the region found it. -/
def W5 (c : Dev nD) : Valuation τ sig (Elt F) :=
  Pipeline.withArrays spec2 c (W4 m ρ c) fun w => (dat2 (U4 m ρ) c).arrAt w cfg2.N
theorem W5_arr (c : Dev nD) (w : Fin cfg2.W) :
    W5 m ρ c (Proc.devRef .tc (Pipeline.arrRef spec2 w)) = (dat2 (U4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- `W 5` read at the TensorCore's references: what the region entered there finds. -/
abbrev U5 : (c : Dev nD) → (b : Ref sig .tc) → Buf (Elt F) ((c : Thread nD τ).loc b) := fun c b => W5 m ρ c b
/-- After region 3: its arrays at what pipeline 3 leaves, every other buffer as the region found it. -/
def W6 (c : Dev nD) : Valuation τ sig (Elt F) :=
  Pipeline.withArrays spec3 c (W5 m ρ c) fun w => (dat3 (U5 m ρ) c).arrAt w cfg3.N
theorem W6_arr (c : Dev nD) (w : Fin cfg3.W) :
    W6 m ρ c (Proc.devRef .tc (Pipeline.arrRef spec3 w)) = (dat3 (U5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
/-- `W 6` read at the TensorCore's references: what the region entered there finds. -/
abbrev U6 : (c : Dev nD) → (b : Ref sig .tc) → Buf (Elt F) ((c : Thread nD τ).loc b) := fun c b => W6 m ρ c b
/-- After the host stretch `hostOps4`. -/
abbrev W7 : Dev nD → Valuation τ sig (Elt F) := fun c => StableHlo.after hostOps4 (W6 m ρ c)
/-- `W 7` read at the TensorCore's references: what the region entered there finds. -/
abbrev U7 : (c : Dev nD) → (b : Ref sig .tc) → Buf (Elt F) ((c : Thread nD τ).loc b) := fun c b => W7 m ρ c b
/-- After region 4: its arrays at what pipeline 4 leaves, every other buffer as the region found it. -/
def W8 (c : Dev nD) : Valuation τ sig (Elt F) :=
  Pipeline.withArrays spec4 c (W7 m ρ c) fun w => (dat4 (U7 m ρ) c).arrAt w cfg4.N
theorem W8_arr (c : Dev nD) (w : Fin cfg4.W) :
    W8 m ρ c (Proc.devRef .tc (Pipeline.arrRef spec4 w)) = (dat4 (U7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
/-- `W 8` read at the TensorCore's references: what the region entered there finds. -/
abbrev U8 : (c : Dev nD) → (b : Ref sig .tc) → Buf (Elt F) ((c : Thread nD τ).loc b) := fun c b => W8 m ρ c b
/-- After region 5: its arrays at what pipeline 5 leaves, every other buffer as the region found it. -/
def W9 (c : Dev nD) : Valuation τ sig (Elt F) :=
  Pipeline.withArrays spec5 c (W8 m ρ c) fun w => (dat5 (U8 m ρ) c).arrAt w cfg5.N
theorem W9_arr (c : Dev nD) (w : Fin cfg5.W) :
    W9 m ρ c (Proc.devRef .tc (Pipeline.arrRef spec5 w)) = (dat5 (U8 m ρ) c).arrAt w cfg5.N := by
  unfold W9; exact Pipeline.withArrays_arr spec5 launch5.win.arr_inj c _ _ w
theorem W9_of_ne (c : Dev nD) (b : Ref sig .tc) (hb : ∀ w, Pipeline.arrRef spec5 w ≠ b) :
    W9 m ρ c (Proc.devRef .tc b) = W8 m ρ c (Proc.devRef .tc b) := by
  unfold W9; exact Pipeline.withArrays_of_ne spec5 c _ _ b hb
/-- `W 9` read at the TensorCore's references: what the region entered there finds. -/
abbrev U9 : (c : Dev nD) → (b : Ref sig .tc) → Buf (Elt F) ((c : Thread nD τ).loc b) := fun c b => W9 m ρ c b
/-- After the host stretch `hostOps6`. -/
abbrev W10 : Dev nD → Valuation τ sig (Elt F) := fun c => StableHlo.after hostOps6 (W9 m ρ c)
/-- `W 10` read at the TensorCore's references: what the region entered there finds. -/
abbrev U10 : (c : Dev nD) → (b : Ref sig .tc) → Buf (Elt F) ((c : Thread nD τ).loc b) := fun c b => W10 m ρ c b
/-- After region 6: its arrays at what pipeline 6 leaves, every other buffer as the region found it. -/
def W11 (c : Dev nD) : Valuation τ sig (Elt F) :=
  Pipeline.withArrays spec6 c (W10 m ρ c) fun w => (dat6 (U10 m ρ) c).arrAt w cfg6.N
theorem W11_arr (c : Dev nD) (w : Fin cfg6.W) :
    W11 m ρ c (Proc.devRef .tc (Pipeline.arrRef spec6 w)) = (dat6 (U10 m ρ) c).arrAt w cfg6.N := by
  unfold W11; exact Pipeline.withArrays_arr spec6 launch6.win.arr_inj c _ _ w
theorem W11_of_ne (c : Dev nD) (b : Ref sig .tc) (hb : ∀ w, Pipeline.arrRef spec6 w ≠ b) :
    W11 m ρ c (Proc.devRef .tc b) = W10 m ρ c (Proc.devRef .tc b) := by
  unfold W11; exact Pipeline.withArrays_of_ne spec6 c _ _ b hb
/-- `W 11` read at the TensorCore's references: what the region entered there finds. -/
abbrev U11 : (c : Dev nD) → (b : Ref sig .tc) → Buf (Elt F) ((c : Thread nD τ).loc b) := fun c b => W11 m ρ c b
/-- After region 7: its arrays at what pipeline 7 leaves, every other buffer as the region found it. -/
def W12 (c : Dev nD) : Valuation τ sig (Elt F) :=
  Pipeline.withArrays spec7 c (W11 m ρ c) fun w => (dat7 (U11 m ρ) c).arrAt w cfg7.N
theorem W12_arr (c : Dev nD) (w : Fin cfg7.W) :
    W12 m ρ c (Proc.devRef .tc (Pipeline.arrRef spec7 w)) = (dat7 (U11 m ρ) c).arrAt w cfg7.N := by
  unfold W12; exact Pipeline.withArrays_arr spec7 launch7.win.arr_inj c _ _ w
theorem W12_of_ne (c : Dev nD) (b : Ref sig .tc) (hb : ∀ w, Pipeline.arrRef spec7 w ≠ b) :
    W12 m ρ c (Proc.devRef .tc b) = W11 m ρ c (Proc.devRef .tc b) := by
  unfold W12; exact Pipeline.withArrays_of_ne spec7 c _ _ b hb
/-- `W 12` read at the TensorCore's references: what the region entered there finds. -/
abbrev U12 : (c : Dev nD) → (b : Ref sig .tc) → Buf (Elt F) ((c : Thread nD τ).loc b) := fun c b => W12 m ρ c b

/-- At a region's exit each of its arrays holds what the pipeline leaves, and every other buffer what it held at entry. -/
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)
theorem hF1 (c : Dev nD) (w : Fin cfg1.W) : (dat1 (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)
theorem hF2 (c : Dev nD) (w : Fin cfg2.W) : (dat2 (U4 m ρ) c).arrAt w cfg2.N = U5 m ρ c (Pipeline.arrRef spec2 w) :=
  (W5_arr m ρ c w).symm
theorem hrest2 (c : Dev nD) : ∀ b, b ∉ Finset.univ.image (Pipeline.arrRef spec2) → U5 m ρ c b = U4 m ρ c b :=
  fun b hb => W5_of_ne m ρ c b fun w e => hb (Finset.mem_image.mpr ⟨w, Finset.mem_univ _, e⟩)
theorem hF3 (c : Dev nD) (w : Fin cfg3.W) : (dat3 (U5 m ρ) c).arrAt w cfg3.N = U6 m ρ c (Pipeline.arrRef spec3 w) :=
  (W6_arr m ρ c w).symm
theorem hrest3 (c : Dev nD) : ∀ b, b ∉ Finset.univ.image (Pipeline.arrRef spec3) → U6 m ρ c b = U5 m ρ c b :=
  fun b hb => W6_of_ne m ρ c b fun w e => hb (Finset.mem_image.mpr ⟨w, Finset.mem_univ _, e⟩)
theorem hF4 (c : Dev nD) (w : Fin cfg4.W) : (dat4 (U7 m ρ) c).arrAt w cfg4.N = U8 m ρ c (Pipeline.arrRef spec4 w) :=
  (W8_arr m ρ c w).symm
theorem hrest4 (c : Dev nD) : ∀ b, b ∉ Finset.univ.image (Pipeline.arrRef spec4) → U8 m ρ c b = U7 m ρ c b :=
  fun b hb => W8_of_ne m ρ c b fun w e => hb (Finset.mem_image.mpr ⟨w, Finset.mem_univ _, e⟩)
theorem hF5 (c : Dev nD) (w : Fin cfg5.W) : (dat5 (U8 m ρ) c).arrAt w cfg5.N = U9 m ρ c (Pipeline.arrRef spec5 w) :=
  (W9_arr m ρ c w).symm
theorem hrest5 (c : Dev nD) : ∀ b, b ∉ Finset.univ.image (Pipeline.arrRef spec5) → U9 m ρ c b = U8 m ρ c b :=
  fun b hb => W9_of_ne m ρ c b fun w e => hb (Finset.mem_image.mpr ⟨w, Finset.mem_univ _, e⟩)
theorem hF6 (c : Dev nD) (w : Fin cfg6.W) : (dat6 (U10 m ρ) c).arrAt w cfg6.N = U11 m ρ c (Pipeline.arrRef spec6 w) :=
  (W11_arr m ρ c w).symm
theorem hrest6 (c : Dev nD) : ∀ b, b ∉ Finset.univ.image (Pipeline.arrRef spec6) → U11 m ρ c b = U10 m ρ c b :=
  fun b hb => W11_of_ne m ρ c b fun w e => hb (Finset.mem_image.mpr ⟨w, Finset.mem_univ _, e⟩)
theorem hF7 (c : Dev nD) (w : Fin cfg7.W) : (dat7 (U11 m ρ) c).arrAt w cfg7.N = U12 m ρ c (Pipeline.arrRef spec7 w) :=
  (W12_arr m ρ c w).symm
theorem hrest7 (c : Dev nD) : ∀ b, b ∉ Finset.univ.image (Pipeline.arrRef spec7) → U12 m ρ c b = U11 m ρ c b :=
  fun b hb => W12_of_ne m ρ c b fun w e => hb (Finset.mem_image.mpr ⟨w, Finset.mem_univ _, e⟩)

/-! ## The proof data of the eight pipelines, and what rides beside the buffers -/

/-- No pipeline reads a prefetched table. -/
abbrev admH : (p : Fin 8) → (pcfgs (F := F) p).Adm := fun p => (cfgs p).toPCfg_adm
/-- Every pipeline's proof data, each at the contents its region is entered from. -/
def pdatsH : (p : Fin 8) → (c : Dev nD) → Dat τ (Elt F) Unit ℕ (UR sig nD τ) ℕ (Pipeline.pin (pcfgs (F := F)) admH p) c
  | ⟨0, _⟩ => fun c => dat0 (U1 m ρ) c
  | ⟨1, _⟩ => fun c => dat1 (U2 m ρ) c
  | ⟨2, _⟩ => fun c => dat2 (U4 m ρ) c
  | ⟨3, _⟩ => fun c => dat3 (U5 m ρ) c
  | ⟨4, _⟩ => fun c => dat4 (U7 m ρ) c
  | ⟨5, _⟩ => fun c => dat5 (U8 m ρ) c
  | ⟨6, _⟩ => fun c => dat6 (U10 m ρ) c
  | ⟨7, _⟩ => fun c => dat7 (U11 m ρ) c
abbrev 𝒱H : Variants := Variants.none
/-- No core owes another anything: no level is assigned. -/
abbrev LH : GSem nD τ sig → Finset Unit := fun _ => ∅
abbrev lvH : GSem nD τ sig → Unit → ℕ := fun _ _ => 0
/-- Beside the buffers: the generator register at some state, and the core owing nothing. -/
abbrev RH (c : Dev nD) : sProp 𝕄 := iprop((∃ r, prngReg c r) ∗ ∃ S, owes (c : Thread nD τ) (0 : CellTallies nD τ sig Unit) S)
/-- A host stretch as a segment over the unscoped references, from the contents `W`. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
/-- An unscoped TensorCore reference is among those the thread state holds. -/
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments

Each region is entered from every unscoped buffer at `W j` and left at `W (j+1)`: its arrays are split out of the
unscoped buffers and put back at the exit contents; the generator register goes into the pipeline's invariant and comes
back; nothing is owed; the kernel has no semaphore of its own. -/

set_option backward.isDefEq.respectTransparency.types false in
/-- Region 0 over the thread state, from `W 1` to `W 2`. -/
def reg0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ LH lvH 0 fun _ _ => rfl
  pre c := iprop(StableHlo.held (c : Thread nD τ) (Pipeline.ucRefs τ sig) (W1 m ρ c) ∗ RH c)
  post c := iprop(StableHlo.held (c : Thread nD τ) (Pipeline.ucRefs τ sig) (W2 m ρ c) ∗ RH c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%S, HO⟩; iexists S; isplitr; · ipureintro; exact fun _ _ => Or.inl trivial
      iexact HO
    isplitl [Hp]; · iexact Hp
    iexact Hrest
  hin c := by
    rw [show (pdatsH m ρ 0 c).Φ 0 = (dat0 (U1 m ρ) c).Φ 0 from rfl]
    iintro ⟨Hp, -, Hr⟩
    iapply (hin0 (U1 m ρ) c)
    isplitl [Hp]; · iexact Hp
    iexact Hr
  hout c := by
    rw [Pipeline.ownSems0_none, show (pdatsH m ρ 0 c).Φ (Fin.last _) = (dat0 (U1 m ρ) c).Φ (Fin.last cfg0.N) from rfl]
    iintro H
    ihave H' := (hout0 (U1 m ρ) c) $$ H
    icases H' with ⟨Hp, Hr⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (U1 m ρ c) (U2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%S, -, HO⟩; iexists S; iexact HO

set_option backward.isDefEq.respectTransparency.types false in
/-- Region 1 over the thread state, from `W 2` to `W 3`. -/
def reg1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ LH lvH 1 fun _ _ => rfl
  pre c := iprop(StableHlo.held (c : Thread nD τ) (Pipeline.ucRefs τ sig) (W2 m ρ c) ∗ RH c)
  post c := iprop(StableHlo.held (c : Thread nD τ) (Pipeline.ucRefs τ sig) (W3 m ρ c) ∗ RH c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%S, HO⟩; iexists S; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (U2 m ρ c) (U3 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%S, -, HO⟩; iexists S; iexact HO

set_option backward.isDefEq.respectTransparency.types false in
/-- Region 2 over the thread state, from `W 4` to `W 5`. -/
def reg2 : Pipeline.RegionSeg (pcfgs (F := F)) admH (pdatsH m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (U4 m ρ) c).loose
  hwaits := Pipeline.hwaits_of_owed_zero _ _ _ _ LH lvH 2 fun _ _ => rfl
  pre c := iprop(StableHlo.held (c : Thread nD τ) (Pipeline.ucRefs τ sig) (W4 m ρ c) ∗ RH c)
  post c := iprop(StableHlo.held (c : Thread nD τ) (Pipeline.ucRefs τ sig) (W5 m ρ c) ∗ RH c)
  X c := iprop(∃ r, prngReg c r)
  Y c := iprop(∃ r, prngReg c r)
  Z c := Pipeline.unscopedRest (Ix := Unit) (Name := ℕ) (U := UR sig nD τ) (Lvl := ℕ) spec2 c (U4 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (U4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%S, HO⟩; iexists S; isplitr; · ipureintro; exact fun _ _ => Or.inl trivial
      iexact HO
    isplitl [Hp]; · iexact Hp
    iexact Hrest
  hin c := by
    rw [show (pdatsH m ρ 2 c).Φ 0 = (dat2 (U4 m ρ) c).Φ 0 from rfl]
    iintro ⟨Hp, -, Hr⟩
    iapply (hin2 (U4 m ρ) c)
    isplitl [Hp]; · iexact Hp
    iexact Hr
  hout c := by
    rw [Pipeline.ownSems0_none, show (pdatsH m ρ 2 c).Φ (Fin.last _) = (dat2 (U4 m ρ) c).Φ (Fin.last cfg2.N) from rfl]
    iintro H
    ihave H' := (hout2 (U4 m ρ) c) $$ H
    icases H' with ⟨Hp, Hr⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (U4 m ρ c) (U5 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%S, -, HO⟩; iexists S; iexact HO

set_option backward.isDefEq.respectTransparency.types false in
/-- Region 3 over the thread state, from `W 5` to `W 6`. -/
def reg3 : Pipeline.RegionSeg (pcfgs (F := F)) admH (pdatsH m ρ) () defs₀ 𝒱H LH lvH 3 where
  win := launch3.win.to₀
  block_pos := launch3.block_pos
  stage_whole := launch3.stage_whole
  K := PEmpty
  osem k := k.elim
  ho := Pipeline.OwnSemFacts.none _
  hbody c := (body_obligation3 (U5 m ρ) c).loose
  hwaits := Pipeline.hwaits_of_owed_zero _ _ _ _ LH lvH 3 fun _ _ => rfl
  pre c := iprop(StableHlo.held (c : Thread nD τ) (Pipeline.ucRefs τ sig) (W5 m ρ c) ∗ RH c)
  post c := iprop(StableHlo.held (c : Thread nD τ) (Pipeline.ucRefs τ sig) (W6 m ρ c) ∗ RH c)
  X c := iprop(∃ r, prngReg c r)
  Y c := iprop(∃ r, prngReg c r)
  Z c := Pipeline.unscopedRest (Ix := Unit) (Name := ℕ) (U := UR sig nD τ) (Lvl := ℕ) spec3 c (U5 m ρ c)
  hentry c := by
    rw [Pipeline.ownSems0_none]
    have hsplit := Pipeline.arrays_of_unscopedBufs (p := 3) (pcfgs (F := F)) admH (pdatsH m ρ) launch3.win launch3.arr_whole c
      ((pdatsH m ρ 3 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%S, HO⟩; iexists S; isplitr; · ipureintro; exact fun _ _ => Or.inl trivial
      iexact HO
    isplitl [Hp]; · iexact Hp
    iexact Hrest
  hin c := by
    rw [show (pdatsH m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsH m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m ρ) ((pdatsH m ρ 3 c).share_full fun _ => rfl)
      (U5 m ρ c) (U6 m ρ c) ((pdatsH m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%S, -, HO⟩; iexists S; iexact HO

set_option backward.isDefEq.respectTransparency.types false in
/-- Region 4 over the thread state, from `W 7` to `W 8`. -/
def reg4 : Pipeline.RegionSeg (pcfgs (F := F)) admH (pdatsH m ρ) () defs₀ 𝒱H LH lvH 4 where
  win := launch4.win.to₀
  block_pos := launch4.block_pos
  stage_whole := launch4.stage_whole
  K := PEmpty
  osem k := k.elim
  ho := Pipeline.OwnSemFacts.none _
  hbody c := (body_obligation4 (U7 m ρ) c).loose
  hwaits := Pipeline.hwaits_of_owed_zero _ _ _ _ LH lvH 4 fun _ _ => rfl
  pre c := iprop(StableHlo.held (c : Thread nD τ) (Pipeline.ucRefs τ sig) (W7 m ρ c) ∗ RH c)
  post c := iprop(StableHlo.held (c : Thread nD τ) (Pipeline.ucRefs τ sig) (W8 m ρ c) ∗ RH c)
  X c := iprop(∃ r, prngReg c r)
  Y c := iprop(∃ r, prngReg c r)
  Z c := Pipeline.unscopedRest (Ix := Unit) (Name := ℕ) (U := UR sig nD τ) (Lvl := ℕ) spec4 c (U7 m ρ c)
  hentry c := by
    rw [Pipeline.ownSems0_none]
    have hsplit := Pipeline.arrays_of_unscopedBufs (p := 4) (pcfgs (F := F)) admH (pdatsH m ρ) launch4.win launch4.arr_whole c
      ((pdatsH m ρ 4 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%S, HO⟩; iexists S; isplitr; · ipureintro; exact fun _ _ => Or.inl trivial
      iexact HO
    isplitl [Hp]; · iexact Hp
    iexact Hrest
  hin c := by
    rw [show (pdatsH m ρ 4 c).Φ 0 = (dat4 (U7 m ρ) c).Φ 0 from rfl]
    iintro ⟨Hp, -, Hr⟩
    iapply (hin4 (U7 m ρ) c)
    isplitl [Hp]; · iexact Hp
    iexact Hr
  hout c := by
    rw [Pipeline.ownSems0_none, show (pdatsH m ρ 4 c).Φ (Fin.last _) = (dat4 (U7 m ρ) c).Φ (Fin.last cfg4.N) from rfl]
    iintro H
    ihave H' := (hout4 (U7 m ρ) c) $$ H
    icases H' with ⟨Hp, Hr⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdatsH m ρ) ((pdatsH m ρ 4 c).share_full fun _ => rfl)
      (U7 m ρ c) (U8 m ρ c) ((pdatsH m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%S, -, HO⟩; iexists S; iexact HO

set_option backward.isDefEq.respectTransparency.types false in
/-- Region 5 over the thread state, from `W 8` to `W 9`. -/
def reg5 : Pipeline.RegionSeg (pcfgs (F := F)) admH (pdatsH m ρ) () defs₀ 𝒱H LH lvH 5 where
  win := launch5.win.to₀
  block_pos := launch5.block_pos
  stage_whole := launch5.stage_whole
  K := PEmpty
  osem k := k.elim
  ho := Pipeline.OwnSemFacts.none _
  hbody c := (body_obligation5 (U8 m ρ) c).loose
  hwaits := Pipeline.hwaits_of_owed_zero _ _ _ _ LH lvH 5 fun _ _ => rfl
  pre c := iprop(StableHlo.held (c : Thread nD τ) (Pipeline.ucRefs τ sig) (W8 m ρ c) ∗ RH c)
  post c := iprop(StableHlo.held (c : Thread nD τ) (Pipeline.ucRefs τ sig) (W9 m ρ c) ∗ RH c)
  X c := iprop(∃ r, prngReg c r)
  Y c := iprop(∃ r, prngReg c r)
  Z c := Pipeline.unscopedRest (Ix := Unit) (Name := ℕ) (U := UR sig nD τ) (Lvl := ℕ) spec5 c (U8 m ρ c)
  hentry c := by
    rw [Pipeline.ownSems0_none]
    have hsplit := Pipeline.arrays_of_unscopedBufs (p := 5) (pcfgs (F := F)) admH (pdatsH m ρ) launch5.win launch5.arr_whole c
      ((pdatsH m ρ 5 c).share_full fun _ => rfl) (U8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%S, HO⟩; iexists S; isplitr; · ipureintro; exact fun _ _ => Or.inl trivial
      iexact HO
    isplitl [Hp]; · iexact Hp
    iexact Hrest
  hin c := by
    rw [show (pdatsH m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdatsH m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admH (Ix := Unit) (Name := ℕ) (U := UR sig nD τ) (Lvl := ℕ)
      launch5.win launch5.arr_whole c (pdatsH m ρ) ((pdatsH m ρ 5 c).share_full fun _ => rfl)
      (U8 m ρ c) (U9 m ρ c) ((pdatsH m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%S, -, HO⟩; iexists S; iexact HO

set_option backward.isDefEq.respectTransparency.types false in
/-- Region 6 over the thread state, from `W 10` to `W 11`. -/
def reg6 : Pipeline.RegionSeg (pcfgs (F := F)) admH (pdatsH m ρ) () defs₀ 𝒱H LH lvH 6 where
  win := launch6.win.to₀
  block_pos := launch6.block_pos
  stage_whole := launch6.stage_whole
  K := PEmpty
  osem k := k.elim
  ho := Pipeline.OwnSemFacts.none _
  hbody c := (body_obligation6 (U10 m ρ) c).loose
  hwaits := Pipeline.hwaits_of_owed_zero _ _ _ _ LH lvH 6 fun _ _ => rfl
  pre c := iprop(StableHlo.held (c : Thread nD τ) (Pipeline.ucRefs τ sig) (W10 m ρ c) ∗ RH c)
  post c := iprop(StableHlo.held (c : Thread nD τ) (Pipeline.ucRefs τ sig) (W11 m ρ c) ∗ RH c)
  X c := iprop(∃ r, prngReg c r)
  Y c := iprop(∃ r, prngReg c r)
  Z c := Pipeline.unscopedRest (Ix := Unit) (Name := ℕ) (U := UR sig nD τ) (Lvl := ℕ) spec6 c (U10 m ρ c)
  hentry c := by
    rw [Pipeline.ownSems0_none]
    have hsplit := Pipeline.arrays_of_unscopedBufs (p := 6) (pcfgs (F := F)) admH (pdatsH m ρ) launch6.win launch6.arr_whole c
      ((pdatsH m ρ 6 c).share_full fun _ => rfl) (U10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%S, HO⟩; iexists S; isplitr; · ipureintro; exact fun _ _ => Or.inl trivial
      iexact HO
    isplitl [Hp]; · iexact Hp
    iexact Hrest
  hin c := by
    rw [show (pdatsH m ρ 6 c).Φ 0 = (dat6 (U10 m ρ) c).Φ 0 from rfl]
    iintro ⟨Hp, -, Hr⟩
    iapply (hin6 (U10 m ρ) c)
    isplitl [Hp]; · iexact Hp
    iexact Hr
  hout c := by
    rw [Pipeline.ownSems0_none, show (pdatsH m ρ 6 c).Φ (Fin.last _) = (dat6 (U10 m ρ) c).Φ (Fin.last cfg6.N) from rfl]
    iintro H
    ihave H' := (hout6 (U10 m ρ) c) $$ H
    icases H' with ⟨Hp, Hr⟩
    isplitl [Hp]; · iexact Hp
    isplitr; · iempintro
    iexact Hr
  hexit c := by
    have hjoin := Pipeline.unscopedBufs_of_arrays (p := 6) (pcfgs (F := F)) admH (Ix := Unit) (Name := ℕ) (U := UR sig nD τ) (Lvl := ℕ)
      launch6.win launch6.arr_whole c (pdatsH m ρ) ((pdatsH m ρ 6 c).share_full fun _ => rfl)
      (U10 m ρ c) (U11 m ρ c) ((pdatsH m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%S, -, HO⟩; iexists S; iexact HO

set_option backward.isDefEq.respectTransparency.types false in
/-- Region 7 over the thread state, from `W 11` to `W 12`. -/
def reg7 : Pipeline.RegionSeg (pcfgs (F := F)) admH (pdatsH m ρ) () defs₀ 𝒱H LH lvH 7 where
  win := launch7.win.to₀
  block_pos := launch7.block_pos
  stage_whole := launch7.stage_whole
  K := PEmpty
  osem k := k.elim
  ho := Pipeline.OwnSemFacts.none _
  hbody c := (body_obligation7 (U11 m ρ) c).loose
  hwaits := Pipeline.hwaits_of_owed_zero _ _ _ _ LH lvH 7 fun _ _ => rfl
  pre c := iprop(StableHlo.held (c : Thread nD τ) (Pipeline.ucRefs τ sig) (W11 m ρ c) ∗ RH c)
  post c := iprop(StableHlo.held (c : Thread nD τ) (Pipeline.ucRefs τ sig) (W12 m ρ c) ∗ RH c)
  X c := iprop(∃ r, prngReg c r)
  Y c := iprop(∃ r, prngReg c r)
  Z c := Pipeline.unscopedRest (Ix := Unit) (Name := ℕ) (U := UR sig nD τ) (Lvl := ℕ) spec7 c (U11 m ρ c)
  hentry c := by
    rw [Pipeline.ownSems0_none]
    have hsplit := Pipeline.arrays_of_unscopedBufs (p := 7) (pcfgs (F := F)) admH (pdatsH m ρ) launch7.win launch7.arr_whole c
      ((pdatsH m ρ 7 c).share_full fun _ => rfl) (U11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%S, HO⟩; iexists S; isplitr; · ipureintro; exact fun _ _ => Or.inl trivial
      iexact HO
    isplitl [Hp]; · iexact Hp
    iexact Hrest
  hin c := by
    rw [show (pdatsH m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdatsH m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) admH (Ix := Unit) (Name := ℕ) (U := UR sig nD τ) (Lvl := ℕ)
      launch7.win launch7.arr_whole c (pdatsH m ρ) ((pdatsH m ρ 7 c).share_full fun _ => rfl)
      (U11 m ρ c) (U12 m ρ c) ((pdatsH m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%S, -, HO⟩; iexists S; iexact HO

/-! ## @main as segments, and the launch -/

/-- @main's twelve items in order. -/
abbrev segsH : List (Pipeline.Seg (pcfgs (F := F)) admH (pdatsH m ρ) () defs₀ 𝒱H LH lvH) :=
  [ .host (hsegH hostOps0 hostOps0_sub hostOps0_fresh (W0 m ρ)),
    .region (reg0 m ρ), .region (reg1 m ρ),
    .host (hsegH hostOps2 hostOps2_sub hostOps2_fresh (W3 m ρ)),
    .region (reg2 m ρ), .region (reg3 m ρ),
    .host (hsegH hostOps4 hostOps4_sub hostOps4_fresh (W6 m ρ)),
    .region (reg4 m ρ), .region (reg5 m ρ),
    .host (hsegH hostOps6 hostOps6_sub hostOps6_fresh (W9 m ρ)),
    .region (reg6 m ρ), .region (reg7 m ρ) ]
/-- @main is the run of the segments. -/
theorem main_runH (c : Dev nD) : main (F := F) c = Pipeline.Seg.run (segsH m ρ) := (main_chain c).trans (by chain_rfl)

set_option backward.isDefEq.respectTransparency.types false in
/-- Every weakly fair execution of @main from the memory `m` with zero counters terminates, nothing faulting, in a
    state whose every unscoped buffer holds `W 12`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c))
    (Tₙ := fun c => iprop(StableHlo.held (c : Thread nD τ) (Pipeline.ucRefs τ sig) (W12 m ρ c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl,
      fun c => by
        show iprop(StableHlo.held (c : Thread nD τ) (Pipeline.ucRefs τ sig) (W12 m ρ c)
              ∗ (∃ r, prngReg c r) ∗ ∃ S, owes (c : Thread nD τ) (0 : CellTallies nD τ sig Unit) S)
          ⊢ (iprop((StableHlo.held (c : Thread nD τ) (Pipeline.ucRefs τ sig) (W12 m ρ c) ∗ ∃ r, prngReg c r)
              ∗ ∃ S, owes (c : Thread nD τ) (0 : CellTallies nD τ sig Unit) S) : sProp 𝕄)
        iintro ⟨Hh, Hp, HO⟩
        isplitl [Hh Hp]
        · isplitl [Hh]; · iexact Hh
          iexact Hp
        iexact HO⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

end Cert.Kernel.Hand

end
-- ==== Proof.K.Frame.lean ====
/-
  The frame of the eight-region program, and its result's buffer.

  The run leaves every unscoped buffer at the last valuation of the fold through @main.  An argument's buffer is written
  by no host operation and by no region — two arguments are input windows of the first region, which hands an input
  array back as it found it —, so the fold, read there, walks back item by item to the launch memory.  The result's
  buffer is the output array of the last region: it ends at that pipeline's blocks, all written back.
-/
import proofs.«167925_j62517543961156_1_alg».proof.Proof.K.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## A buffer nothing writes keeps its launch contents -/

/-- A reference that no host stretch writes, that regions 1 … 7 do not stage, and that region 0 leaves as it found it,
    holds at the end what the launch memory held. -/
theorem W12_keep (c : Dev nD) (r : Ref sig .tc)
    (h0 : r ∉ hostOps0_W) (h2 : r ∉ hostOps2_W) (h4 : r ∉ hostOps4_W) (h6 : r ∉ hostOps6_W)
    (e0 : W2 m ρ c (Proc.devRef .tc r) = W1 m ρ c (Proc.devRef .tc r))
    (n1 : ∀ w, Pipeline.arrRef spec1 w ≠ r) (n2 : ∀ w, Pipeline.arrRef spec2 w ≠ r) (n3 : ∀ w, Pipeline.arrRef spec3 w ≠ r)
    (n4 : ∀ w, Pipeline.arrRef spec4 w ≠ r) (n5 : ∀ w, Pipeline.arrRef spec5 w ≠ r) (n6 : ∀ w, Pipeline.arrRef spec6 w ≠ r)
    (n7 : ∀ w, Pipeline.arrRef spec7 w ≠ r) :
    W12 m ρ c (Proc.devRef .tc r) = m ((c : Thread nD τ).loc r) :=
  calc W12 m ρ c (Proc.devRef .tc r)
    _ = W11 m ρ c (Proc.devRef .tc r) := W12_of_ne m ρ c r n7
    _ = W10 m ρ c (Proc.devRef .tc r) := W11_of_ne m ρ c r n6
    _ = W9 m ρ c (Proc.devRef .tc r) := StableHlo.after_of_writes_sub hostOps6 _ hostOps6_writes h6
    _ = W8 m ρ c (Proc.devRef .tc r) := W9_of_ne m ρ c r n5
    _ = W7 m ρ c (Proc.devRef .tc r) := W8_of_ne m ρ c r n4
    _ = W6 m ρ c (Proc.devRef .tc r) := StableHlo.after_of_writes_sub hostOps4 _ hostOps4_writes h4
    _ = W5 m ρ c (Proc.devRef .tc r) := W6_of_ne m ρ c r n3
    _ = W4 m ρ c (Proc.devRef .tc r) := W5_of_ne m ρ c r n2
    _ = W3 m ρ c (Proc.devRef .tc r) := StableHlo.after_of_writes_sub hostOps2 _ hostOps2_writes h2
    _ = W2 m ρ c (Proc.devRef .tc r) := W3_of_ne m ρ c r n1
    _ = W1 m ρ c (Proc.devRef .tc r) := e0
    _ = W0 m ρ c (Proc.devRef .tc r) := StableHlo.after_of_writes_sub hostOps0 _ hostOps0_writes h0
    _ = m ((c : Thread nD τ).loc r) := rfl

/-! ## The arguments end as launched

No host operation and no region writes an argument; the node features and the first weight matrix are input windows of
region 0, which leaves an input array as it found it; the other arguments are staged by no region. -/
theorem W12_main_arg0 (c : Dev nD) : W12 m ρ c (Proc.devRef .tc main_arg0) = m ((c : Thread nD τ).loc main_arg0) :=
  W12_keep m ρ c main_arg0 (by decide) (by decide) (by decide) (by decide) ((W2_arr m ρ c 0).trans (((dat0 (U1 m ρ) c).arrAt_in 0 rfl _).trans (A_eq0 (U1 m ρ) c 0)))
    (by decide) (by decide) (by decide) (by decide) (by decide) (by decide) (by decide)
theorem W12_main_arg1 (c : Dev nD) : W12 m ρ c (Proc.devRef .tc main_arg1) = m ((c : Thread nD τ).loc main_arg1) :=
  W12_keep m ρ c main_arg1 (by decide) (by decide) (by decide) (by decide) (W2_of_ne m ρ c main_arg1 (by decide))
    (by decide) (by decide) (by decide) (by decide) (by decide) (by decide) (by decide)
theorem W12_main_arg2 (c : Dev nD) : W12 m ρ c (Proc.devRef .tc main_arg2) = m ((c : Thread nD τ).loc main_arg2) :=
  W12_keep m ρ c main_arg2 (by decide) (by decide) (by decide) (by decide) ((W2_arr m ρ c 1).trans (((dat0 (U1 m ρ) c).arrAt_in 1 rfl _).trans (A_eq0 (U1 m ρ) c 1)))
    (by decide) (by decide) (by decide) (by decide) (by decide) (by decide) (by decide)
theorem W12_main_arg3 (c : Dev nD) : W12 m ρ c (Proc.devRef .tc main_arg3) = m ((c : Thread nD τ).loc main_arg3) :=
  W12_keep m ρ c main_arg3 (by decide) (by decide) (by decide) (by decide) (W2_of_ne m ρ c main_arg3 (by decide))
    (by decide) (by decide) (by decide) (by decide) (by decide) (by decide) (by decide)
theorem W12_main_arg4 (c : Dev nD) : W12 m ρ c (Proc.devRef .tc main_arg4) = m ((c : Thread nD τ).loc main_arg4) :=
  W12_keep m ρ c main_arg4 (by decide) (by decide) (by decide) (by decide) (W2_of_ne m ρ c main_arg4 (by decide))
    (by decide) (by decide) (by decide) (by decide) (by decide) (by decide) (by decide)
theorem W12_main_arg5 (c : Dev nD) : W12 m ρ c (Proc.devRef .tc main_arg5) = m ((c : Thread nD τ).loc main_arg5) :=
  W12_keep m ρ c main_arg5 (by decide) (by decide) (by decide) (by decide) (W2_of_ne m ρ c main_arg5 (by decide))
    (by decide) (by decide) (by decide) (by decide) (by decide) (by decide) (by decide)
theorem W12_main_arg6 (c : Dev nD) : W12 m ρ c (Proc.devRef .tc main_arg6) = m ((c : Thread nD τ).loc main_arg6) :=
  W12_keep m ρ c main_arg6 (by decide) (by decide) (by decide) (by decide) (W2_of_ne m ρ c main_arg6 (by decide))
    (by decide) (by decide) (by decide) (by decide) (by decide) (by decide) (by decide)
theorem W12_main_arg7 (c : Dev nD) : W12 m ρ c (Proc.devRef .tc main_arg7) = m ((c : Thread nD τ).loc main_arg7) :=
  W12_keep m ρ c main_arg7 (by decide) (by decide) (by decide) (by decide) (W2_of_ne m ρ c main_arg7 (by decide))
    (by decide) (by decide) (by decide) (by decide) (by decide) (by decide) (by decide)
theorem W12_main_arg8 (c : Dev nD) : W12 m ρ c (Proc.devRef .tc main_arg8) = m ((c : Thread nD τ).loc main_arg8) :=
  W12_keep m ρ c main_arg8 (by decide) (by decide) (by decide) (by decide) (W2_of_ne m ρ c main_arg8 (by decide))
    (by decide) (by decide) (by decide) (by decide) (by decide) (by decide) (by decide)
theorem W12_main_arg9 (c : Dev nD) : W12 m ρ c (Proc.devRef .tc main_arg9) = m ((c : Thread nD τ).loc main_arg9) :=
  W12_keep m ρ c main_arg9 (by decide) (by decide) (by decide) (by decide) (W2_of_ne m ρ c main_arg9 (by decide))
    (by decide) (by decide) (by decide) (by decide) (by decide) (by decide) (by decide)
theorem W12_main_arg10 (c : Dev nD) : W12 m ρ c (Proc.devRef .tc main_arg10) = m ((c : Thread nD τ).loc main_arg10) :=
  W12_keep m ρ c main_arg10 (by decide) (by decide) (by decide) (by decide) (W2_of_ne m ρ c main_arg10 (by decide))
    (by decide) (by decide) (by decide) (by decide) (by decide) (by decide) (by decide)

/-! ## The frame, and the result's buffer -/

/-- Every weakly fair execution of @main terminates, nothing faulting, with every argument array as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_ucH main_arg0 (by decide))).trans (W12_main_arg0 m ρ c),
      (h c _ (mem_ucH main_arg1 (by decide))).trans (W12_main_arg1 m ρ c),
      (h c _ (mem_ucH main_arg2 (by decide))).trans (W12_main_arg2 m ρ c),
      (h c _ (mem_ucH main_arg3 (by decide))).trans (W12_main_arg3 m ρ c),
      (h c _ (mem_ucH main_arg4 (by decide))).trans (W12_main_arg4 m ρ c),
      (h c _ (mem_ucH main_arg5 (by decide))).trans (W12_main_arg5 m ρ c),
      (h c _ (mem_ucH main_arg6 (by decide))).trans (W12_main_arg6 m ρ c),
      (h c _ (mem_ucH main_arg7 (by decide))).trans (W12_main_arg7 m ρ c),
      (h c _ (mem_ucH main_arg8 (by decide))).trans (W12_main_arg8 m ρ c),
      (h c _ (mem_ucH main_arg9 (by decide))).trans (W12_main_arg9 m ρ c),
      (h c _ (mem_ucH main_arg10 (by decide))).trans (W12_main_arg10 m ρ c)⟩) (run_main m ρ)

/-- The same run with the result named: the result's buffer ends at what the last region leaves in its output array —
    the last normalisation's blocks, all written back. -/
theorem run_result : θ_run defs (onTc (τ := τ) (main (F := F))) ⟨m, fun _ => 0, ρ⟩ (fun r => ∀ c : Dev nD,
      r.2.mem ((c.tc : Thread nD τ).loc main_v96) = (dat7 (U11 m ρ) c).arrAt 6 cfg7.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_ucH main_v96 (by decide))).trans (W12_arr m ρ c 6),
      (h c _ (mem_ucH main_arg0 (by decide))).trans (W12_main_arg0 m ρ c),
      (h c _ (mem_ucH main_arg1 (by decide))).trans (W12_main_arg1 m ρ c),
      (h c _ (mem_ucH main_arg2 (by decide))).trans (W12_main_arg2 m ρ c),
      (h c _ (mem_ucH main_arg3 (by decide))).trans (W12_main_arg3 m ρ c),
      (h c _ (mem_ucH main_arg4 (by decide))).trans (W12_main_arg4 m ρ c),
      (h c _ (mem_ucH main_arg5 (by decide))).trans (W12_main_arg5 m ρ c),
      (h c _ (mem_ucH main_arg6 (by decide))).trans (W12_main_arg6 m ρ c),
      (h c _ (mem_ucH main_arg7 (by decide))).trans (W12_main_arg7 m ρ c),
      (h c _ (mem_ucH main_arg8 (by decide))).trans (W12_main_arg8 m ρ c),
      (h c _ (mem_ucH main_arg9 (by decide))).trans (W12_main_arg9 m ρ c),
      (h c _ (mem_ucH main_arg10 (by decide))).trans (W12_main_arg10 m ρ c)⟩) (run_main m ρ)

end Cert.Kernel.Hand

end
-- ==== Proof.KI.Stats0Defs.lean ====
import proofs.«167925_j62517543961156_1_alg».proof.Proof.Gen.KernelIdeal.Launch
import proofs.«167925_j62517543961156_1_alg».proof.Proof.Gen.KernelIdeal.Skeleton
import proofs.«167925_j62517543961156_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Statistics kernel of region 0: what its three control cases share -/

/-- The block of window `w` at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current buffer holds its block at every point: where the point does not fetch it, the block
    index has not moved since the last fetch. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions on the grid coordinate -/

/-- "This is the first node tile": the accumulators are reset. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- "This is the last node tile": mean and variance are formed from the accumulated sums. -/
abbrev cond0_1 (i : grid0.Coords) : Prop := k0_cond2 i = 1#1
theorem hcond0_1 : ∀ t : Fin cfg0.N, cond0_1 (grid0.coords t) ↔ t.val = 9 :=
  (by decide +kernel : ∀ t : Fin grid0.N, cond0_1 (grid0.coords t) ↔ t.val = 9)

/-! ## Where the windows are live -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Before the last tile nothing is stored into the mean and variance rows, and they are not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At the last tile both rows are stored. -/
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## Views through which buffer contents are stated, and the two accumulator rows -/

abbrev VO0_3 : View sig .tc .vmem S5000x64 .f32 := (Memref.whole cc0_stg3_0 : Memref sig .tc .vmem S5000x64 .f32).view
abbrev VO0_4 : View sig .tc .vmem S1x64 .f32 := (Memref.whole cc0_stg4_0 : Memref sig .tc .vmem S1x64 .f32).view
abbrev VO0_5 : View sig .tc .vmem S1x64 .f32 := (Memref.whole cc0_stg5_0 : Memref sig .tc .vmem S1x64 .f32).view
/-- The row of column sums and the row of column sums of squares, carried from tile to tile. -/
abbrev scM0_0 : Memref sig .tc .vmem S1x64 .f32 := Memref.whole cc0_scratch0
abbrev scM0_1 : Memref sig .tc .vmem S1x64 .f32 := Memref.whole cc0_scratch1
abbrev VS0_0 : View sig .tc .vmem S1x64 .f32 := scM0_0.view
abbrev VS0_1 : View sig .tc .vmem S1x64 .f32 := scM0_1.view

/-- The part of the region's scoped memory that is neither a staging buffer nor one of the two accumulator rows. -/
abbrev restBut0 (c : Dev nD) : sProp 𝕄 :=
  Pipeline.scopedRestBut (Ix := Unit) (Name := ℕ) (U := UR sig nD τ) (Lvl := ℕ) (Val := Elt F) spec0 c [cc0_scratch0, cc0_scratch1]

/-- The scoped rest, with the two accumulator rows owned as whole memrefs at some contents. -/
theorem scopedRest0_rows (c : Dev nD) :
    (Pipeline.scopedRest (Ix := Unit) (Name := ℕ) (U := UR sig nD τ) (Lvl := ℕ) (Val := Elt F) spec0 c : sProp 𝕄)
      = iprop(iprop((∃ d, owns (c : Thread nD τ) scM0_0 fullShare d) ∗ (∃ d, owns (c : Thread nD τ) scM0_1 fullShare d)) ∗ restBut0 (F := F) c) := by
  rw [scopedRest0_split]; simp only [scM0_0, scM0_1, owns_whole]; try rfl

end Cert.KernelIdeal.Hand

end
-- ==== Proof.KI.Stats0RunA.lean ====
import proofs.«167925_j62517543961156_1_alg».proof.Proof.KI.Stats0Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the FIRST node tile. Both accumulator rows, found at anything, are zeroed and then receive the tile's
    column sums (of the pre-activations, and of their squares); the pre-activation tile is stored; the mean and variance
    rows are not touched and come back as found. The lists are what the stores leave, last store first. -/
noncomputable def run0_A (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S5000x19 .f32) (x1 : Vec F S19x64 .f32) (x2 : Vec F S1x64 .f32) :
    Σ' (L3 : List (View.Piece (Elt F) S5000x64 .f32)) (LS0 : List (View.Piece (Elt F) S1x64 .f32)), { LS1 : List (View.Piece (Elt F) S1x64 .f32) //
      ∀ (xi4 xi5 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats_kernel_base i arg1 harg1 arg2 harg2 arg3 harg3 arg4 harg4 arg5 harg5 arg6 harg6 arg7 harg7 arg8 harg8) K } := by
  refine ⟨?_, ?_, ?_, fun xi4 xi5 E K => ?run⟩
  case run =>
    simp only [cc0__stats_kernel_base_eq_skeleton]; unfold cc0__stats_kernel_base_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

end Cert.KernelIdeal.Hand

end
-- ==== Proof.KI.Stats0RunB.lean ====
import proofs.«167925_j62517543961156_1_alg».proof.Proof.KI.Stats0RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a MIDDLE node tile. The accumulator rows, found at what the tile before left, receive this tile's column
    sums on top; the pre-activation tile is stored; the mean and variance rows are not touched and come back as found.
    The lists are what the stores leave, last store first. -/
noncomputable def run0_B (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S5000x19 .f32) (x1 : Vec F S19x64 .f32) (x2 : Vec F S1x64 .f32) (xs0 : Vec F S1x64 .f32) (xs1 : Vec F S1x64 .f32) :
    Σ' (L3 : List (View.Piece (Elt F) S5000x64 .f32)) (LS0 : List (View.Piece (Elt F) S1x64 .f32)), { LS1 : List (View.Piece (Elt F) S1x64 .f32) //
      ∀ (xi4 xi5 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ owns (c : Thread nD τ) arg6 fullShare xi5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats_kernel_base i arg1 harg1 arg2 harg2 arg3 harg3 arg4 harg4 arg5 harg5 arg6 harg6 arg7 harg7 arg8 harg8) K } := by
  refine ⟨?_, ?_, ?_, fun xi4 xi5 E K => ?run⟩
  case run =>
    simp only [cc0__stats_kernel_base_eq_skeleton]; unfold cc0__stats_kernel_base_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, Hk⟩
    obtain rfl := harg1.eq_unread hf0; obtain rfl := harg2.eq_unread hf1; obtain rfl := harg3.eq_unread hf2; obtain rfl := harg5.eq_unread hf4; obtain rfl := harg6.eq_unread hf5; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

end Cert.KernelIdeal.Hand

end
-- ==== Proof.KI.Stats0RunC.lean ====
import proofs.«167925_j62517543961156_1_alg».proof.Proof.KI.Stats0RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the LAST node tile. The accumulator rows receive this tile's column sums on top of what the tile before
    left; then the mean row is the sums divided by the node count, and the variance row the sums of squares divided by
    the node count minus the squared mean. The lists are what the stores leave, last store first. -/
noncomputable def run0_C (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S5000x19 .f32) (x1 : Vec F S19x64 .f32) (x2 : Vec F S1x64 .f32) (xs0 : Vec F S1x64 .f32) (xs1 : Vec F S1x64 .f32) :
    Σ' (L3 : List (View.Piece (Elt F) S5000x64 .f32)) (L4 : List (View.Piece (Elt F) S1x64 .f32)) (L5 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats_kernel_base i arg1 harg1 arg2 harg2 arg3 harg3 arg4 harg4 arg5 harg5 arg6 harg6 arg7 harg7 arg8 harg8) K } := by
  refine ⟨?_, ?_, ?_, ?_, ?_, fun E K => ?run⟩
  case run =>
    simp only [cc0__stats_kernel_base_eq_skeleton]; unfold cc0__stats_kernel_base_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, Hk⟩
    obtain rfl := harg1.eq_unread hf0; obtain rfl := harg2.eq_unread hf1; obtain rfl := harg3.eq_unread hf2; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [H6]; · iexists _; iexact H6
    iexists _; iexact H7

end Cert.KernelIdeal.Hand

end
-- ==== Proof.KI.Stats0.lean ====
import proofs.«167925_j62517543961156_1_alg».proof.Proof.KI.Stats0RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Statistics kernel of region 0: what every buffer holds after each node tile, the proof data, the body obligation -/

/-- The stores of this case into this buffer cover it. -/
theorem cover0_A_3 (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S5000x19 .f32) (x1 : Vec F S19x64 .f32) (x2 : Vec F S1x64 .f32) (y : S5000x64.Idx) :
    ∃ pc ∈ (run0_A c i arg1 harg1 arg2 harg2 arg3 harg3 arg4 harg4 arg5 harg5 arg6 harg6 arg7 harg7 arg8 harg8 hc0 hc1 x0 x1 x2).1, y ∈ pc.1.set :=
  View.cover_of_tiledL (run0_A c i arg1 harg1 arg2 harg2 arg3 harg3 arg4 harg4 arg5 harg5 arg6 harg6 arg7 harg7 arg8 harg8 hc0 hc1 x0 x1 x2).1 S5000x64.size (by sl_kernel_rfl) y

/-- What they leave in it: the stored pieces read back. -/
def out0_A_3 (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S5000x19 .f32) (x1 : Vec F S19x64 .f32) (x2 : Vec F S1x64 .f32) : Vec F S5000x64 .f32 :=
  VO0_3.read (Elt F) (VO0_3.writes (Elt F) VO0_3.junk (run0_A c i arg1 harg1 arg2 harg2 arg3 harg3 arg4 harg4 arg5 harg5 arg6 harg6 arg7 harg7 arg8 harg8 hc0 hc1 x0 x1 x2).1)

/-- The stores of this case into this buffer cover it. -/
theorem scover0_A_0 (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S5000x19 .f32) (x1 : Vec F S19x64 .f32) (x2 : Vec F S1x64 .f32) (y : S1x64.Idx) :
    ∃ pc ∈ (run0_A c i arg1 harg1 arg2 harg2 arg3 harg3 arg4 harg4 arg5 harg5 arg6 harg6 arg7 harg7 arg8 harg8 hc0 hc1 x0 x1 x2).2.1, y ∈ pc.1.set :=
  View.cover_of_tiledL (run0_A c i arg1 harg1 arg2 harg2 arg3 harg3 arg4 harg4 arg5 harg5 arg6 harg6 arg7 harg7 arg8 harg8 hc0 hc1 x0 x1 x2).2.1 S1x64.size (by sl_kernel_rfl) y

/-- What they leave in it: the stored pieces read back. -/
def sout0_A_0 (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S5000x19 .f32) (x1 : Vec F S19x64 .f32) (x2 : Vec F S1x64 .f32) : Vec F S1x64 .f32 :=
  VS0_0.read (Elt F) (VS0_0.writes (Elt F) VS0_0.junk (run0_A c i arg1 harg1 arg2 harg2 arg3 harg3 arg4 harg4 arg5 harg5 arg6 harg6 arg7 harg7 arg8 harg8 hc0 hc1 x0 x1 x2).2.1)

/-- The stores of this case into this buffer cover it. -/
theorem scover0_A_1 (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S5000x19 .f32) (x1 : Vec F S19x64 .f32) (x2 : Vec F S1x64 .f32) (y : S1x64.Idx) :
    ∃ pc ∈ (run0_A c i arg1 harg1 arg2 harg2 arg3 harg3 arg4 harg4 arg5 harg5 arg6 harg6 arg7 harg7 arg8 harg8 hc0 hc1 x0 x1 x2).2.2.1, y ∈ pc.1.set :=
  View.cover_of_tiledL (run0_A c i arg1 harg1 arg2 harg2 arg3 harg3 arg4 harg4 arg5 harg5 arg6 harg6 arg7 harg7 arg8 harg8 hc0 hc1 x0 x1 x2).2.2.1 S1x64.size (by sl_kernel_rfl) y

/-- What they leave in it: the stored pieces read back. -/
def sout0_A_1 (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S5000x19 .f32) (x1 : Vec F S19x64 .f32) (x2 : Vec F S1x64 .f32) : Vec F S1x64 .f32 :=
  VS0_1.read (Elt F) (VS0_1.writes (Elt F) VS0_1.junk (run0_A c i arg1 harg1 arg2 harg2 arg3 harg3 arg4 harg4 arg5 harg5 arg6 harg6 arg7 harg7 arg8 harg8 hc0 hc1 x0 x1 x2).2.2.1)

/-- The stores of this case into this buffer cover it. -/
theorem cover0_B_3 (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S5000x19 .f32) (x1 : Vec F S19x64 .f32) (x2 : Vec F S1x64 .f32) (xs0 : Vec F S1x64 .f32) (xs1 : Vec F S1x64 .f32) (y : S5000x64.Idx) :
    ∃ pc ∈ (run0_B c i arg1 harg1 arg2 harg2 arg3 harg3 arg4 harg4 arg5 harg5 arg6 harg6 arg7 harg7 arg8 harg8 hc0 hc1 x0 x1 x2 xs0 xs1).1, y ∈ pc.1.set :=
  View.cover_of_tiledL (run0_B c i arg1 harg1 arg2 harg2 arg3 harg3 arg4 harg4 arg5 harg5 arg6 harg6 arg7 harg7 arg8 harg8 hc0 hc1 x0 x1 x2 xs0 xs1).1 S5000x64.size (by sl_kernel_rfl) y

/-- What they leave in it: the stored pieces read back. -/
def out0_B_3 (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S5000x19 .f32) (x1 : Vec F S19x64 .f32) (x2 : Vec F S1x64 .f32) (xs0 : Vec F S1x64 .f32) (xs1 : Vec F S1x64 .f32) : Vec F S5000x64 .f32 :=
  VO0_3.read (Elt F) (VO0_3.writes (Elt F) VO0_3.junk (run0_B c i arg1 harg1 arg2 harg2 arg3 harg3 arg4 harg4 arg5 harg5 arg6 harg6 arg7 harg7 arg8 harg8 hc0 hc1 x0 x1 x2 xs0 xs1).1)

/-- The stores of this case into this buffer cover it. -/
theorem scover0_B_0 (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S5000x19 .f32) (x1 : Vec F S19x64 .f32) (x2 : Vec F S1x64 .f32) (xs0 : Vec F S1x64 .f32) (xs1 : Vec F S1x64 .f32) (y : S1x64.Idx) :
    ∃ pc ∈ (run0_B c i arg1 harg1 arg2 harg2 arg3 harg3 arg4 harg4 arg5 harg5 arg6 harg6 arg7 harg7 arg8 harg8 hc0 hc1 x0 x1 x2 xs0 xs1).2.1, y ∈ pc.1.set :=
  View.cover_of_tiledL (run0_B c i arg1 harg1 arg2 harg2 arg3 harg3 arg4 harg4 arg5 harg5 arg6 harg6 arg7 harg7 arg8 harg8 hc0 hc1 x0 x1 x2 xs0 xs1).2.1 S1x64.size (by sl_kernel_rfl) y

/-- What they leave in it: the stored pieces read back. -/
def sout0_B_0 (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S5000x19 .f32) (x1 : Vec F S19x64 .f32) (x2 : Vec F S1x64 .f32) (xs0 : Vec F S1x64 .f32) (xs1 : Vec F S1x64 .f32) : Vec F S1x64 .f32 :=
  VS0_0.read (Elt F) (VS0_0.writes (Elt F) VS0_0.junk (run0_B c i arg1 harg1 arg2 harg2 arg3 harg3 arg4 harg4 arg5 harg5 arg6 harg6 arg7 harg7 arg8 harg8 hc0 hc1 x0 x1 x2 xs0 xs1).2.1)

/-- The stores of this case into this buffer cover it. -/
theorem scover0_B_1 (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S5000x19 .f32) (x1 : Vec F S19x64 .f32) (x2 : Vec F S1x64 .f32) (xs0 : Vec F S1x64 .f32) (xs1 : Vec F S1x64 .f32) (y : S1x64.Idx) :
    ∃ pc ∈ (run0_B c i arg1 harg1 arg2 harg2 arg3 harg3 arg4 harg4 arg5 harg5 arg6 harg6 arg7 harg7 arg8 harg8 hc0 hc1 x0 x1 x2 xs0 xs1).2.2.1, y ∈ pc.1.set :=
  View.cover_of_tiledL (run0_B c i arg1 harg1 arg2 harg2 arg3 harg3 arg4 harg4 arg5 harg5 arg6 harg6 arg7 harg7 arg8 harg8 hc0 hc1 x0 x1 x2 xs0 xs1).2.2.1 S1x64.size (by sl_kernel_rfl) y

/-- What they leave in it: the stored pieces read back. -/
def sout0_B_1 (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S5000x19 .f32) (x1 : Vec F S19x64 .f32) (x2 : Vec F S1x64 .f32) (xs0 : Vec F S1x64 .f32) (xs1 : Vec F S1x64 .f32) : Vec F S1x64 .f32 :=
  VS0_1.read (Elt F) (VS0_1.writes (Elt F) VS0_1.junk (run0_B c i arg1 harg1 arg2 harg2 arg3 harg3 arg4 harg4 arg5 harg5 arg6 harg6 arg7 harg7 arg8 harg8 hc0 hc1 x0 x1 x2 xs0 xs1).2.2.1)

/-- The stores of this case into this buffer cover it. -/
theorem cover0_C_3 (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S5000x19 .f32) (x1 : Vec F S19x64 .f32) (x2 : Vec F S1x64 .f32) (xs0 : Vec F S1x64 .f32) (xs1 : Vec F S1x64 .f32) (y : S5000x64.Idx) :
    ∃ pc ∈ (run0_C c i arg1 harg1 arg2 harg2 arg3 harg3 arg4 harg4 arg5 harg5 arg6 harg6 arg7 harg7 arg8 harg8 hc0 hc1 x0 x1 x2 xs0 xs1).1, y ∈ pc.1.set :=
  View.cover_of_tiledL (run0_C c i arg1 harg1 arg2 harg2 arg3 harg3 arg4 harg4 arg5 harg5 arg6 harg6 arg7 harg7 arg8 harg8 hc0 hc1 x0 x1 x2 xs0 xs1).1 S5000x64.size (by sl_kernel_rfl) y

/-- What they leave in it: the stored pieces read back. -/
def out0_C_3 (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S5000x19 .f32) (x1 : Vec F S19x64 .f32) (x2 : Vec F S1x64 .f32) (xs0 : Vec F S1x64 .f32) (xs1 : Vec F S1x64 .f32) : Vec F S5000x64 .f32 :=
  VO0_3.read (Elt F) (VO0_3.writes (Elt F) VO0_3.junk (run0_C c i arg1 harg1 arg2 harg2 arg3 harg3 arg4 harg4 arg5 harg5 arg6 harg6 arg7 harg7 arg8 harg8 hc0 hc1 x0 x1 x2 xs0 xs1).1)

/-- The stores of this case into this buffer cover it. -/
theorem cover0_C_4 (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S5000x19 .f32) (x1 : Vec F S19x64 .f32) (x2 : Vec F S1x64 .f32) (xs0 : Vec F S1x64 .f32) (xs1 : Vec F S1x64 .f32) (y : S1x64.Idx) :
    ∃ pc ∈ (run0_C c i arg1 harg1 arg2 harg2 arg3 harg3 arg4 harg4 arg5 harg5 arg6 harg6 arg7 harg7 arg8 harg8 hc0 hc1 x0 x1 x2 xs0 xs1).2.1, y ∈ pc.1.set :=
  View.cover_of_tiledL (run0_C c i arg1 harg1 arg2 harg2 arg3 harg3 arg4 harg4 arg5 harg5 arg6 harg6 arg7 harg7 arg8 harg8 hc0 hc1 x0 x1 x2 xs0 xs1).2.1 S1x64.size (by sl_kernel_rfl) y

/-- What they leave in it: the stored pieces read back. -/
def out0_C_4 (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S5000x19 .f32) (x1 : Vec F S19x64 .f32) (x2 : Vec F S1x64 .f32) (xs0 : Vec F S1x64 .f32) (xs1 : Vec F S1x64 .f32) : Vec F S1x64 .f32 :=
  VO0_4.read (Elt F) (VO0_4.writes (Elt F) VO0_4.junk (run0_C c i arg1 harg1 arg2 harg2 arg3 harg3 arg4 harg4 arg5 harg5 arg6 harg6 arg7 harg7 arg8 harg8 hc0 hc1 x0 x1 x2 xs0 xs1).2.1)

/-- The stores of this case into this buffer cover it. -/
theorem cover0_C_5 (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S5000x19 .f32) (x1 : Vec F S19x64 .f32) (x2 : Vec F S1x64 .f32) (xs0 : Vec F S1x64 .f32) (xs1 : Vec F S1x64 .f32) (y : S1x64.Idx) :
    ∃ pc ∈ (run0_C c i arg1 harg1 arg2 harg2 arg3 harg3 arg4 harg4 arg5 harg5 arg6 harg6 arg7 harg7 arg8 harg8 hc0 hc1 x0 x1 x2 xs0 xs1).2.2.1, y ∈ pc.1.set :=
  View.cover_of_tiledL (run0_C c i arg1 harg1 arg2 harg2 arg3 harg3 arg4 harg4 arg5 harg5 arg6 harg6 arg7 harg7 arg8 harg8 hc0 hc1 x0 x1 x2 xs0 xs1).2.2.1 S1x64.size (by sl_kernel_rfl) y

/-- What they leave in it: the stored pieces read back. -/
def out0_C_5 (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S5000x19 .f32) (x1 : Vec F S19x64 .f32) (x2 : Vec F S1x64 .f32) (xs0 : Vec F S1x64 .f32) (xs1 : Vec F S1x64 .f32) : Vec F S1x64 .f32 :=
  VO0_5.read (Elt F) (VO0_5.writes (Elt F) VO0_5.junk (run0_C c i arg1 harg1 arg2 harg2 arg3 harg3 arg4 harg4 arg5 harg5 arg6 harg6 arg7 harg7 arg8 harg8 hc0 hc1 x0 x1 x2 xs0 xs1).2.2.1)

/-- The stores of this case into this buffer cover it. -/
theorem scover0_C_0 (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S5000x19 .f32) (x1 : Vec F S19x64 .f32) (x2 : Vec F S1x64 .f32) (xs0 : Vec F S1x64 .f32) (xs1 : Vec F S1x64 .f32) (y : S1x64.Idx) :
    ∃ pc ∈ (run0_C c i arg1 harg1 arg2 harg2 arg3 harg3 arg4 harg4 arg5 harg5 arg6 harg6 arg7 harg7 arg8 harg8 hc0 hc1 x0 x1 x2 xs0 xs1).2.2.2.1, y ∈ pc.1.set :=
  View.cover_of_tiledL (run0_C c i arg1 harg1 arg2 harg2 arg3 harg3 arg4 harg4 arg5 harg5 arg6 harg6 arg7 harg7 arg8 harg8 hc0 hc1 x0 x1 x2 xs0 xs1).2.2.2.1 S1x64.size (by sl_kernel_rfl) y

/-- What they leave in it: the stored pieces read back. -/
def sout0_C_0 (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S5000x19 .f32) (x1 : Vec F S19x64 .f32) (x2 : Vec F S1x64 .f32) (xs0 : Vec F S1x64 .f32) (xs1 : Vec F S1x64 .f32) : Vec F S1x64 .f32 :=
  VS0_0.read (Elt F) (VS0_0.writes (Elt F) VS0_0.junk (run0_C c i arg1 harg1 arg2 harg2 arg3 harg3 arg4 harg4 arg5 harg5 arg6 harg6 arg7 harg7 arg8 harg8 hc0 hc1 x0 x1 x2 xs0 xs1).2.2.2.1)

/-- The stores of this case into this buffer cover it. -/
theorem scover0_C_1 (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S5000x19 .f32) (x1 : Vec F S19x64 .f32) (x2 : Vec F S1x64 .f32) (xs0 : Vec F S1x64 .f32) (xs1 : Vec F S1x64 .f32) (y : S1x64.Idx) :
    ∃ pc ∈ (run0_C c i arg1 harg1 arg2 harg2 arg3 harg3 arg4 harg4 arg5 harg5 arg6 harg6 arg7 harg7 arg8 harg8 hc0 hc1 x0 x1 x2 xs0 xs1).2.2.2.2.1, y ∈ pc.1.set :=
  View.cover_of_tiledL (run0_C c i arg1 harg1 arg2 harg2 arg3 harg3 arg4 harg4 arg5 harg5 arg6 harg6 arg7 harg7 arg8 harg8 hc0 hc1 x0 x1 x2 xs0 xs1).2.2.2.2.1 S1x64.size (by sl_kernel_rfl) y

/-- What they leave in it: the stored pieces read back. -/
def sout0_C_1 (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S5000x19 .f32) (x1 : Vec F S19x64 .f32) (x2 : Vec F S1x64 .f32) (xs0 : Vec F S1x64 .f32) (xs1 : Vec F S1x64 .f32) : Vec F S1x64 .f32 :=
  VS0_1.read (Elt F) (VS0_1.writes (Elt F) VS0_1.junk (run0_C c i arg1 harg1 arg2 harg2 arg3 harg3 arg4 harg4 arg5 harg5 arg6 harg6 arg7 harg7 arg8 harg8 hc0 hc1 x0 x1 x2 xs0 xs1).2.2.2.2.1)

/-! ## The buffers the pipeline hands the body at a point -/

abbrev ms0_0 (t : Fin cfg0.N) : Memref sig .tc .vmem S5000x19 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S19x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5000x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64 .f32 := win0_5.stage (cfg0.slots t 5)
abbrev hs0_5 (t : Fin cfg0.N) : (ms0_5 t).IsWhole := hstage0_5 ((cfg0.slots t 5).cast nbuf0_5)

/-! ## What the buffers hold after each node tile -/

/-- After the body at position `n`: the pre-activation tile's buffer, the mean row, the variance row (both meaningful at
    the last tile only; elsewhere a placeholder nothing reads), and the two accumulator rows — the row of column sums and
    the row of column sums of squares over the tiles `0 .. n`: at the first tile from zero, at every later one on top of
    what the tile before left. -/
def outsAt0 (c : Dev nD) : (n : ℕ) → n < cfg0.N → Vec F S5000x64 .f32 × Vec F S1x64 .f32 × Vec F S1x64 .f32 × Vec F S1x64 .f32 × Vec F S1x64 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩),
        VO0_4.read (Elt F) VO0_4.junk,
        VO0_5.read (Elt F) VO0_5.junk,
        sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩),
        sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h1 : n + 1 = 9 then
      (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2,
        out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2,
        out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2,
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2,
        sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2)
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2,
        VO0_4.read (Elt F) VO0_4.junk,
        VO0_5.read (Elt F) VO0_5.junk,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2,
        sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2)

/-- The row of column sums after tile `n`, and the row of column sums of squares. -/
abbrev S0 (c : Dev nD) (n : ℕ) (hn : n < cfg0.N) : Vec F S1x64 .f32 := (outsAt0 V c n hn).2.2.2.1
abbrev Q0 (c : Dev nD) (n : ℕ) (hn : n < cfg0.N) : Vec F S1x64 .f32 := (outsAt0 V c n hn).2.2.2.2

theorem outsAt0_A (c : Dev nD) (t : Fin cfg0.N) (h0 : t.val = 0) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => (fun h => by omega) ((hcond0_1 t).mp h)) (iblk0 V c 0 t) (iblk0 V c 1 t) (iblk0 V c 2 t),
        VO0_4.read (Elt F) VO0_4.junk,
        VO0_5.read (Elt F) VO0_5.junk,
        sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => (fun h => by omega) ((hcond0_1 t).mp h)) (iblk0 V c 0 t) (iblk0 V c 1 t) (iblk0 V c 2 t),
        sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => (fun h => by omega) ((hcond0_1 t).mp h)) (iblk0 V c 0 t) (iblk0 V c 1 t) (iblk0 V c 2 t)) := by
  obtain ⟨n, hn⟩ := t
  cases n with
  | zero => exact rfl
  | succ n => exact absurd h0 (Nat.succ_ne_zero n)

theorem outsAt0_B (c : Dev nD) (t : Fin cfg0.N) (h0 : ¬t.val = 0) (h1 : ¬t.val = 9) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
        VO0_4.read (Elt F) VO0_4.junk,
        VO0_5.read (Elt F) VO0_5.junk,
        sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
        sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact (dif_neg h1).trans rfl

theorem outsAt0_C (c : Dev nD) (t : Fin cfg0.N) (h0 : ¬t.val = 0) (h1 : t.val = 9) :
    outsAt0 V c t.val t.isLt = (out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
        out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
        out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
        sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
        sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The invariant between node tiles -/

/-- Before position `n`: the two accumulator rows — at anything before the first tile, afterwards at the sums the tile
    before left —, the rest of the scoped memory untouched, the generator register at some state. -/
def Phi0 (c : Dev nD) : (n : ℕ) → n ≤ cfg0.N → sProp 𝕄
  | 0, _ => iprop((∃ d, owns (c : Thread nD τ) scM0_0 fullShare d) ∗ (∃ d, owns (c : Thread nD τ) scM0_1 fullShare d) ∗ restBut0 (F := F) c ∗ (∃ r, prngReg c r))
  | n + 1, hn => iprop(owns (c : Thread nD τ) scM0_0 fullShare (S0 V c n hn) ∗ owns (c : Thread nD τ) scM0_1 fullShare (Q0 V c n hn) ∗ restBut0 (F := F) c ∗ (∃ r, prngReg c r))

theorem Phi0_zero (c : Dev nD) (n : ℕ) (h : n ≤ cfg0.N) (hz : n = 0) :
    Phi0 V c n h = iprop((∃ d, owns (c : Thread nD τ) scM0_0 fullShare d) ∗ (∃ d, owns (c : Thread nD τ) scM0_1 fullShare d) ∗ restBut0 (F := F) c ∗ (∃ r, prngReg c r)) := by
  subst hz; rfl

theorem Phi0_succ (c : Dev nD) (n : ℕ) (hn : n < cfg0.N) :
    Phi0 V c (n + 1) hn = iprop(owns (c : Thread nD τ) scM0_0 fullShare (S0 V c n hn) ∗ owns (c : Thread nD τ) scM0_1 fullShare (Q0 V c n hn) ∗ restBut0 (F := F) c ∗ (∃ r, prngReg c r)) := rfl

theorem Phi0_pos (c : Dev nD) (n : ℕ) (h : n ≤ cfg0.N) (hz : n ≠ 0) :
    Phi0 V c n h = iprop(owns (c : Thread nD τ) scM0_0 fullShare (S0 V c (n - 1) (by omega)) ∗ owns (c : Thread nD τ) scM0_1 fullShare (Q0 V c (n - 1) (by omega)) ∗ restBut0 (F := F) c ∗ (∃ r, prngReg c r)) := by
  cases n with
  | zero => exact absurd rfl hz
  | succ n => rfl

/-! ## The proof data -/

/-- The pipeline's proof data on core `c`: the arrays as the region finds them; after the body at a point every input's
    buffer at its block, the outputs' at `outsAt0`'s components; between points the invariant `Phi0`; full shares,
    nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
    | ⟨5, _⟩ => (outsAt0 V c t.val t.isLt).2.2.1
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem after0_5 (c : Dev nD) (t : Fin cfg0.N) : (dat0 V c).after 5 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point. The inputs' buffers hold their blocks; the point's position says which control case it is in;
    that case's run applies, handed the accumulator rows at what the invariant says they hold, and gives them back at this
    point's sums; the mean and variance rows are handed back untouched before the last tile. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Phi0 V c (t.val + 1) t.isLt from rfl, Phi0_succ]
  unfold S0 Q0
  have hN : t.val < 10 := lt_of_lt_of_eq t.isLt (show cfg0.N = 10 from N_0)
  by_cases h0 : t.val = 0
  · have h1 : ¬t.val = 9 := by omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 t (fun h => h1 ((hcond0_1 t).mp h))) (noFlush0_4 t (fun h => h1 ((hcond0_1 t).mp h)))]
      rw [Dat.leavesExact_idle (dat0 V c) 5 t (idleAt0_5 t (fun h => h1 ((hcond0_1 t).mp h))) (noFlush0_5 t (fun h => h1 ((hcond0_1 t).mp h)))]
      rw [outsAt0_A V c t h0]
      unfold out0_A_3 sout0_A_0 sout0_A_1; (try dsimp only)
      rw [Phi0_castSucc V c t, Phi0_zero V c _ _ h0]
      iintro ⟨⟨HS0, HS1, HR, Hg⟩, Ho, ⟨%d0, H0⟩, ⟨%d1, H1⟩, ⟨%d2, H2⟩, ⟨%d3, H3⟩, ⟨%d4, H4⟩, ⟨%d5, H5⟩⟩
      iapply ((run0_A c (grid0.coords t) _ _ _ _ _ _ _ _ _ _ _ _ _ _ _ _ ((hcond0_0 t).mpr h0) (fun h => h1 ((hcond0_1 t).mp h)) (iblk0 V c 0 t) (iblk0 V c 1 t) (iblk0 V c 2 t)).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%e3, H3⟩, H4, H5, ⟨%e6, HS0⟩, ⟨%e7, HS1⟩⟩
      isplitl [HS0 HS1 HR Hg]
      · isplitl [HS0]
        · unfold owns; iexists _; isplitr
          swap; · iexact HS0
          ipureintro; exact View.read_writes_of_cover _ _ _ _ _ (scover0_A_0 (F := F) c _ _ _ _ _ _ _ _ _ _ _ _ _ _ _ _ _ _ _ _ _ _)
        isplitl [HS1]
        · unfold owns; iexists _; isplitr
          swap; · iexact HS1
          ipureintro; exact View.read_writes_of_cover _ _ _ _ _ (scover0_A_1 (F := F) c _ _ _ _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_A_3 (F := F) c _ _ _ _ _ _ _ _ _ _ _ _ _ _ _ _ _ _ _ _ _ _)
      isplitl [H4]; · iexists _; iexact H4
      iexists _; iexact H5

  · by_cases h1 : t.val = 9
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t ((hcond0_1 t).mpr h1)], after0_4]
      rw [show (dat0 V c).leavesExact 5 t = owns (c : Thread nD τ) (ms0_5 t) fullShare ((dat0 V c).after 5 t) from by
        unfold Dat.leavesExact; rw [liveAt0_5 t ((hcond0_1 t).mpr h1)], after0_5]
      rw [outsAt0_C V c t h0 h1]
      unfold out0_C_3 out0_C_4 out0_C_5 sout0_C_0 sout0_C_1; (try dsimp only)
      rw [Phi0_castSucc V c t, Phi0_pos V c _ _ h0]
      iintro ⟨⟨HS0, HS1, HR, Hg⟩, Ho, ⟨%d0, H0⟩, ⟨%d1, H1⟩, ⟨%d2, H2⟩, ⟨%d3, H3⟩, ⟨%d4, H4⟩, ⟨%d5, H5⟩⟩
      iapply ((run0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) _ _).2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, ⟨%e3, H3⟩, ⟨%e4, H4⟩, ⟨%e5, H5⟩, ⟨%e6, HS0⟩, ⟨%e7, HS1⟩⟩
      isplitl [HS0 HS1 HR Hg]
      · isplitl [HS0]
        · unfold owns; iexists _; isplitr
          swap; · iexact HS0
          ipureintro; exact View.read_writes_of_cover _ _ _ _ _ (scover0_C_0 (F := F) c _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_C_1 (F := F) c _ _ _ _ _ _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_C_3 (F := F) c _ _ _ _ _ _ _ _ _ _ _ _ _ _ _ _ _ _ _ _ _ _ _ _)
      isplitl [H4]
      · unfold owns; iexists _; isplitr
        swap; · iexact H4
        ipureintro; exact View.read_writes_of_cover _ _ _ _ _ (cover0_C_4 (F := F) c _ _ _ _ _ _ _ _ _ _ _ _ _ _ _ _ _ _ _ _ _ _ _ _)
      unfold owns; iexists _; isplitr
      swap; · iexact H5
      ipureintro; exact View.read_writes_of_cover _ _ _ _ _ (cover0_C_5 (F := F) c _ _ _ _ _ _ _ _ _ _ _ _ _ _ _ _ _ _ _ _ _ _ _ _)

    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 t (fun h => h1 ((hcond0_1 t).mp h))) (noFlush0_4 t (fun h => h1 ((hcond0_1 t).mp h)))]
      rw [Dat.leavesExact_idle (dat0 V c) 5 t (idleAt0_5 t (fun h => h1 ((hcond0_1 t).mp h))) (noFlush0_5 t (fun h => h1 ((hcond0_1 t).mp h)))]
      rw [outsAt0_B V c t h0 h1]
      unfold out0_B_3 sout0_B_0 sout0_B_1; (try dsimp only)
      rw [Phi0_castSucc V c t, Phi0_pos V c _ _ h0]
      iintro ⟨⟨HS0, HS1, HR, Hg⟩, Ho, ⟨%d0, H0⟩, ⟨%d1, H1⟩, ⟨%d2, H2⟩, ⟨%d3, H3⟩, ⟨%d4, H4⟩, ⟨%d5, H5⟩⟩
      iapply ((run0_B c (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) _ _).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%e3, H3⟩, H4, H5, ⟨%e6, HS0⟩, ⟨%e7, HS1⟩⟩
      isplitl [HS0 HS1 HR Hg]
      · isplitl [HS0]
        · unfold owns; iexists _; isplitr
          swap; · iexact HS0
          ipureintro; exact View.read_writes_of_cover _ _ _ _ _ (scover0_B_0 (F := F) c _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_B_1 (F := F) c _ _ _ _ _ _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 (F := F) c _ _ _ _ _ _ _ _ _ _ _ _ _ _ _ _ _ _ _ _ _ _ _ _)
      isplitl [H4]; · iexists _; iexact H4
      iexists _; iexact H5

theorem body_obligation0 (c : Dev nD) : BodyObligation (dat0 (F := F) V c) (defs₀ (F := F)) Variants.none () Set.univ := fun t => by
  rw [bigSep_W0, bigSep_W0]
  exact sound_body0 V c t

/-! ## Entering and leaving the region -/

/-- What the launch hands the region is the invariant before the first tile: the accumulator rows are two of the scoped
    buffers, at whatever they hold. -/
theorem hin0 (c : Dev nD) :
    (iprop((∃ r, prngReg c r) ∗ Pipeline.scopedRest (Ix := Unit) (Name := ℕ) (U := UR sig nD τ) (Lvl := ℕ) (Val := Elt F) spec0 c) : sProp 𝕄) ⊢ (dat0 V c).Φ 0 := by
  rw [show (dat0 V c).Φ 0 = Phi0 V c 0 (Nat.zero_le _) from rfl, Phi0_zero V c 0 _ rfl, scopedRest0_rows]
  iintro ⟨Hg, ⟨HS0, HS1⟩, HR⟩
  isplitl [HS0]; · iexact HS0
  isplitl [HS1]; · iexact HS1
  isplitl [HR]; · iexact HR
  iexact Hg

/-- After the last tile the invariant gives the scoped rest back: the sums in the accumulator rows are forgotten. -/
theorem hout0 (c : Dev nD) :
    (dat0 V c).Φ (Fin.last cfg0.N) ⊢ (iprop((∃ r, prngReg c r) ∗ Pipeline.scopedRest (Ix := Unit) (Name := ℕ) (U := UR sig nD τ) (Lvl := ℕ) (Val := Elt F) spec0 c) : sProp 𝕄) := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 10 := N_0; omega), scopedRest0_rows]
  iintro ⟨HS0, HS1, HR, Hg⟩
  isplitl [Hg]; · iexact Hg
  isplitl [HS0 HS1]
  · isplitl [HS0]; · iexists _; iexact HS0
    iexists _; iexact HS1
  iexact HR

end Cert.KernelIdeal.Hand

end
-- ==== Proof.KI.Norm1.lean ====
import proofs.«167925_j62517543961156_1_alg».proof.Proof.Gen.KernelIdeal.Launch
import proofs.«167925_j62517543961156_1_alg».proof.Proof.Gen.KernelIdeal.Skeleton
import proofs.«167925_j62517543961156_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1: the normalisation of one node tile

Each grid point reads a tile of pre-activations (5000 rows, 64 features), the per-feature mean, variance,
scale and shift rows, and writes the tile
`max(((pre − mean) · rsqrt(var + ε)) · γ + β, 0)`.  No state is carried from one point to the
next: every input window is read whole, the one output window is written whole.  So, at an arbitrary
content `V` of the buffers on entry, the proof data say: after the body each input window holds its own
block and the output window holds the pointwise function of the input blocks.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the windows -/

/-- The block of window `w` at grid point `t`, cut out of the array the region finds on entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window that the body hands back unchanged holds its block at every point: where it was fetched
    this is what the fetch put there, and where it was not the block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window that the body hands back unchanged holds its block at every point: where it was fetched
    this is what the fetch put there, and where it was not the block index has not moved since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window that the body hands back unchanged holds its block at every point: where it was fetched
    this is what the fetch put there, and where it was not the block index has not moved since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window that the body hands back unchanged holds its block at every point: where it was fetched
    this is what the fetch put there, and where it was not the block index has not moved since the last fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- An input window that the body hands back unchanged holds its block at every point: where it was fetched
    this is what the fetch put there, and where it was not the block index has not moved since the last fetch. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What the body reads and writes -/

/-- The whole tile, and the whole row: the only two rectangles the body touches. -/
abbrev r1_big : Rect S5000x64 := Rect.unit (s := S5000x64) ![0, 0] S5000x64.size inb_S5000x64_S5000x64_0_0
abbrev r1_row : Rect S1x64 := Rect.unit (s := S1x64) ![0, 0] S1x64.size inb_S1x64_S1x64_0_0

/-- The output tile as a function of the input blocks: the single store, whose value is the normalised tile
    computed from the loaded tile and rows. -/
def out1_5 (x0 : Vec F S5000x64 .f32) (x1 : Vec F S1x64 .f32) (x2 : Vec F S1x64 .f32) (x3 : Vec F S1x64 .f32) (x4 : Vec F S1x64 .f32) : Vec F S5000x64 .f32 :=
  View.canon [⟨r1_big, k1_pay1 (View.ld x1 r1_row) (View.ld x2 r1_row) (View.ld x0 r1_big) (View.ld x3 r1_row) (View.ld x4 r1_row)⟩]

/-- The one store writes the whole tile, so every index of the buffer lies in it. -/
theorem cover1_5 (p0 : Vec F S5000x64 .f32) (y : S5000x64.Idx) :
    ∃ pc ∈ ([⟨r1_big, p0⟩] : List (View.Piece (Elt F) S5000x64 .f32)), y ∈ pc.1.set :=
  View.cover_of_tiled [⟨r1_big, p0⟩] S5000x64.size (by rfl) y

/-! ## The body, run on whole staging buffers -/

set_option maxHeartbeats 1000000 in
/-- Started with the input buffers at contents `x` and the output buffer at anything, the body ends with the inputs
    as they were and the output at `out1_5 x`: it is a sequence of whole-buffer loads followed by one
    whole-buffer store. -/
theorem sound_kernel1 (c : Dev nD) (E : Set ℕ) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__norm_kernel_base i arg1 harg1 arg2 harg2 arg3 harg3 arg4 harg4 arg5 harg5 arg6 harg6) K := by
  simp only [cc1__norm_kernel_base_eq_skeleton]; unfold cc1__norm_kernel_base_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The proof data of the pipeline -/

/-- The arrays are the ones found on entry; after the body at point `t` every input window holds its block and
    the output window the normalised tile of those blocks; the invariant is the one of a body that touches
    nothing but its windows; all shares are full and nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

/-- What the body leaves in each window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- What the body finds in each input window: its block. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What the body is started with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it ends with. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- At any point the input buffers hold their blocks, so the triple of the body applies; the invariant and the
    debts are not looked at. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.KernelIdeal.Hand
-- ==== Proof.KI.Stats2Defs.lean ====
import proofs.«167925_j62517543961156_1_alg».proof.Proof.Gen.KernelIdeal.Launch
import proofs.«167925_j62517543961156_1_alg».proof.Proof.Gen.KernelIdeal.Skeleton
import proofs.«167925_j62517543961156_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Statistics kernel of region 2: what its three control cases share -/

/-- The block of window `w` at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current buffer holds its block at every point: where the point does not fetch it, the block
    index has not moved since the last fetch. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The two conditions on the grid coordinate -/

/-- "This is the first node tile": the accumulators are reset. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)

/-- "This is the last node tile": mean and variance are formed from the accumulated sums. -/
abbrev cond2_1 (i : grid2.Coords) : Prop := k2_cond2 i = 1#1
theorem hcond2_1 : ∀ t : Fin cfg2.N, cond2_1 (grid2.coords t) ↔ t.val = 9 :=
  (by decide +kernel : ∀ t : Fin grid2.N, cond2_1 (grid2.coords t) ↔ t.val = 9)

/-! ## Where the windows are live -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
/-- Before the last tile nothing is stored into the mean and variance rows, and they are not written back. -/
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
/-- At the last tile both rows are stored. -/
theorem liveAt2_6 : ∀ t : Fin cfg2.N, cond2_1 (grid2.coords t) → cfg2.idle 6 (grid2.coords t) = false := by decide +kernel
theorem liveAt2_7 : ∀ t : Fin cfg2.N, cond2_1 (grid2.coords t) → cfg2.idle 7 (grid2.coords t) = false := by decide +kernel

/-! ## Views through which buffer contents are stated, and the two accumulator rows -/

abbrev VO2_5 : View sig .tc .vmem S5000x64 .f32 := (Memref.whole cc2_stg5_0 : Memref sig .tc .vmem S5000x64 .f32).view
abbrev VO2_6 : View sig .tc .vmem S1x64 .f32 := (Memref.whole cc2_stg6_0 : Memref sig .tc .vmem S1x64 .f32).view
abbrev VO2_7 : View sig .tc .vmem S1x64 .f32 := (Memref.whole cc2_stg7_0 : Memref sig .tc .vmem S1x64 .f32).view
/-- The row of column sums and the row of column sums of squares, carried from tile to tile. -/
abbrev scM2_0 : Memref sig .tc .vmem S1x64 .f32 := Memref.whole cc2_scratch0
abbrev scM2_1 : Memref sig .tc .vmem S1x64 .f32 := Memref.whole cc2_scratch1
abbrev VS2_0 : View sig .tc .vmem S1x64 .f32 := scM2_0.view
abbrev VS2_1 : View sig .tc .vmem S1x64 .f32 := scM2_1.view

/-- The part of the region's scoped memory that is neither a staging buffer nor one of the two accumulator rows. -/
abbrev restBut2 (c : Dev nD) : sProp 𝕄 :=
  Pipeline.scopedRestBut (Ix := Unit) (Name := ℕ) (U := UR sig nD τ) (Lvl := ℕ) (Val := Elt F) spec2 c [cc2_scratch0, cc2_scratch1]

/-- The scoped rest, with the two accumulator rows owned as whole memrefs at some contents. -/
theorem scopedRest2_rows (c : Dev nD) :
    (Pipeline.scopedRest (Ix := Unit) (Name := ℕ) (U := UR sig nD τ) (Lvl := ℕ) (Val := Elt F) spec2 c : sProp 𝕄)
      = iprop(iprop((∃ d, owns (c : Thread nD τ) scM2_0 fullShare d) ∗ (∃ d, owns (c : Thread nD τ) scM2_1 fullShare d)) ∗ restBut2 (F := F) c) := by
  rw [scopedRest2_split]; simp only [scM2_0, scM2_1, owns_whole]; try rfl

end Cert.KernelIdeal.Hand

end
-- ==== Proof.KI.Stats2RunA.lean ====
import proofs.«167925_j62517543961156_1_alg».proof.Proof.KI.Stats2Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the FIRST node tile. Both accumulator rows, found at anything, are zeroed and then receive the tile's
    column sums (of the pre-activations, and of their squares); the pre-activation tile is stored; the mean and variance
    rows are not touched and come back as found. The lists are what the stores leave, last store first. -/
noncomputable def run2_A (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond2_0 i) (hc1 : ¬cond2_1 i)
    (x0 : Vec F S5000x64 .f32) (x1 : Vec F S64x64 .f32) (x2 : Vec F S1x64 .f32) (x3 : Vec F S5000x64 .f32) (x4 : Vec F S64x64 .f32) :
    Σ' (L5 : List (View.Piece (Elt F) S5000x64 .f32)) (LS0 : List (View.Piece (Elt F) S1x64 .f32)), { LS1 : List (View.Piece (Elt F) S1x64 .f32) //
      ∀ (xi6 xi7 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__stats_kernel_right i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc2__stats_kernel_right_eq_skeleton]; unfold cc2__stats_kernel_right_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    iexists _; iexact H9

end Cert.KernelIdeal.Hand

end
-- ==== Proof.KI.Stats2RunB.lean ====
import proofs.«167925_j62517543961156_1_alg».proof.Proof.KI.Stats2RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a MIDDLE node tile. The accumulator rows, found at what the tile before left, receive this tile's column
    sums on top; the pre-activation tile is stored; the mean and variance rows are not touched and come back as found.
    The lists are what the stores leave, last store first. -/
noncomputable def run2_B (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : ¬cond2_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) :
    Σ' (L5 : List (View.Piece (Elt F) S5000x64 .f32)) (LS0 : List (View.Piece (Elt F) S1x64 .f32)), { LS1 : List (View.Piece (Elt F) S1x64 .f32) //
      ∀ (xi6 xi7 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__stats_kernel_right i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc2__stats_kernel_right_eq_skeleton]; unfold cc2__stats_kernel_right_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hf8; obtain rfl := harg10.eq_unread hf9
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    iexists _; iexact H9

end Cert.KernelIdeal.Hand

end
-- ==== Proof.KI.Stats2RunC.lean ====
import proofs.«167925_j62517543961156_1_alg».proof.Proof.KI.Stats2RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the LAST node tile. The accumulator rows receive this tile's column sums on top of what the tile before
    left; then the mean row is the sums divided by the node count, and the variance row the sums of squares divided by
    the node count minus the squared mean. The lists are what the stores leave, last store first. -/
noncomputable def run2_C (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : cond2_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) :
    Σ' (L5 : List (View.Piece (Elt F) S5000x64 .f32)) (L6 : List (View.Piece (Elt F) S1x64 .f32)) (L7 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__stats_kernel_right i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc2__stats_kernel_right_eq_skeleton]; unfold cc2__stats_kernel_right_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hf8; obtain rfl := harg10.eq_unread hf9
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    iexists _; iexact H9

end Cert.KernelIdeal.Hand

end
-- ==== Proof.KI.Stats2.lean ====
import proofs.«167925_j62517543961156_1_alg».proof.Proof.KI.Stats2RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Statistics kernel of region 2: what every buffer holds after each node tile, the proof data, the body obligation -/

/-- The stores of this case into this buffer cover it. -/
theorem cover2_A_5 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond2_0 i) (hc1 : ¬cond2_1 i)
    (x0 : Vec F S5000x64 .f32) (x1 : Vec F S64x64 .f32) (x2 : Vec F S1x64 .f32) (x3 : Vec F S5000x64 .f32) (x4 : Vec F S64x64 .f32) (y : S5000x64.Idx) :
    ∃ pc ∈ (run2_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (run2_A c i arg1 harg1 arg2 harg2 arg3 harg3 arg4 harg4 arg5 harg5 arg6 harg6 arg7 harg7 arg8 harg8 arg9 harg9 arg10 harg10 hc0 hc1 x0 x1 x2 x3 x4).1 S5000x64.size (by sl_kernel_rfl) y

/-- What they leave in it: the stored pieces read back. -/
def out2_A_5 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond2_0 i) (hc1 : ¬cond2_1 i)
    (x0 : Vec F S5000x64 .f32) (x1 : Vec F S64x64 .f32) (x2 : Vec F S1x64 .f32) (x3 : Vec F S5000x64 .f32) (x4 : Vec F S64x64 .f32) : Vec F S5000x64 .f32 :=
  VO2_5.read (Elt F) (VO2_5.writes (Elt F) VO2_5.junk (run2_A c i arg1 harg1 arg2 harg2 arg3 harg3 arg4 harg4 arg5 harg5 arg6 harg6 arg7 harg7 arg8 harg8 arg9 harg9 arg10 harg10 hc0 hc1 x0 x1 x2 x3 x4).1)

/-- The stores of this case into this buffer cover it. -/
theorem scover2_A_0 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond2_0 i) (hc1 : ¬cond2_1 i)
    (x0 : Vec F S5000x64 .f32) (x1 : Vec F S64x64 .f32) (x2 : Vec F S1x64 .f32) (x3 : Vec F S5000x64 .f32) (x4 : Vec F S64x64 .f32) (y : S1x64.Idx) :
    ∃ pc ∈ (run2_A c i arg1 harg1 arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (run2_A c i arg1 harg1 arg2 harg2 arg3 harg3 arg4 harg4 arg5 harg5 arg6 harg6 arg7 harg7 arg8 harg8 arg9 harg9 arg10 harg10 hc0 hc1 x0 x1 x2 x3 x4).2.1 S1x64.size (by sl_kernel_rfl) y

/-- What they leave in it: the stored pieces read back. -/
def sout2_A_0 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond2_0 i) (hc1 : ¬cond2_1 i)
    (x0 : Vec F S5000x64 .f32) (x1 : Vec F S64x64 .f32) (x2 : Vec F S1x64 .f32) (x3 : Vec F S5000x64 .f32) (x4 : Vec F S64x64 .f32) : Vec F S1x64 .f32 :=
  VS2_0.read (Elt F) (VS2_0.writes (Elt F) VS2_0.junk (run2_A c i arg1 harg1 arg2 harg2 arg3 harg3 arg4 harg4 arg5 harg5 arg6 harg6 arg7 harg7 arg8 harg8 arg9 harg9 arg10 harg10 hc0 hc1 x0 x1 x2 x3 x4).2.1)

/-- The stores of this case into this buffer cover it. -/
theorem scover2_A_1 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond2_0 i) (hc1 : ¬cond2_1 i)
    (x0 : Vec F S5000x64 .f32) (x1 : Vec F S64x64 .f32) (x2 : Vec F S1x64 .f32) (x3 : Vec F S5000x64 .f32) (x4 : Vec F S64x64 .f32) (y : S1x64.Idx) :
    ∃ pc ∈ (run2_A c i arg1 harg1 arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (run2_A c i arg1 harg1 arg2 harg2 arg3 harg3 arg4 harg4 arg5 harg5 arg6 harg6 arg7 harg7 arg8 harg8 arg9 harg9 arg10 harg10 hc0 hc1 x0 x1 x2 x3 x4).2.2.1 S1x64.size (by sl_kernel_rfl) y

/-- What they leave in it: the stored pieces read back. -/
def sout2_A_1 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond2_0 i) (hc1 : ¬cond2_1 i)
    (x0 : Vec F S5000x64 .f32) (x1 : Vec F S64x64 .f32) (x2 : Vec F S1x64 .f32) (x3 : Vec F S5000x64 .f32) (x4 : Vec F S64x64 .f32) : Vec F S1x64 .f32 :=
  VS2_1.read (Elt F) (VS2_1.writes (Elt F) VS2_1.junk (run2_A c i arg1 harg1 arg2 harg2 arg3 harg3 arg4 harg4 arg5 harg5 arg6 harg6 arg7 harg7 arg8 harg8 arg9 harg9 arg10 harg10 hc0 hc1 x0 x1 x2 x3 x4).2.2.1)

/-- The stores of this case into this buffer cover it. -/
theorem cover2_B_5 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : ¬cond2_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S5000x64.Idx) :
    ∃ pc ∈ (run2_B c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (run2_B c i arg1 harg1 arg2 harg2 arg3 harg3 arg4 harg4 arg5 harg5 arg6 harg6 arg7 harg7 arg8 harg8 arg9 harg9 arg10 harg10 hc0 hc1 x0 x1 x2 x3 x4 xs0 xs1).1 S5000x64.size (by sl_kernel_rfl) y

/-- What they leave in it: the stored pieces read back. -/
def out2_B_5 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : ¬cond2_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S5000x64 .f32 :=
  VO2_5.read (Elt F) (VO2_5.writes (Elt F) VO2_5.junk (run2_B c i arg1 harg1 arg2 harg2 arg3 harg3 arg4 harg4 arg5 harg5 arg6 harg6 arg7 harg7 arg8 harg8 arg9 harg9 arg10 harg10 hc0 hc1 x0 x1 x2 x3 x4 xs0 xs1).1)

/-- The stores of this case into this buffer cover it. -/
theorem scover2_B_0 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : ¬cond2_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S1x64.Idx) :
    ∃ pc ∈ (run2_B c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (run2_B c i arg1 harg1 arg2 harg2 arg3 harg3 arg4 harg4 arg5 harg5 arg6 harg6 arg7 harg7 arg8 harg8 arg9 harg9 arg10 harg10 hc0 hc1 x0 x1 x2 x3 x4 xs0 xs1).2.1 S1x64.size (by sl_kernel_rfl) y

/-- What they leave in it: the stored pieces read back. -/
def sout2_B_0 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : ¬cond2_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S1x64 .f32 :=
  VS2_0.read (Elt F) (VS2_0.writes (Elt F) VS2_0.junk (run2_B c i arg1 harg1 arg2 harg2 arg3 harg3 arg4 harg4 arg5 harg5 arg6 harg6 arg7 harg7 arg8 harg8 arg9 harg9 arg10 harg10 hc0 hc1 x0 x1 x2 x3 x4 xs0 xs1).2.1)

/-- The stores of this case into this buffer cover it. -/
theorem scover2_B_1 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : ¬cond2_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S1x64.Idx) :
    ∃ pc ∈ (run2_B c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (run2_B c i arg1 harg1 arg2 harg2 arg3 harg3 arg4 harg4 arg5 harg5 arg6 harg6 arg7 harg7 arg8 harg8 arg9 harg9 arg10 harg10 hc0 hc1 x0 x1 x2 x3 x4 xs0 xs1).2.2.1 S1x64.size (by sl_kernel_rfl) y

/-- What they leave in it: the stored pieces read back. -/
def sout2_B_1 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : ¬cond2_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S1x64 .f32 :=
  VS2_1.read (Elt F) (VS2_1.writes (Elt F) VS2_1.junk (run2_B c i arg1 harg1 arg2 harg2 arg3 harg3 arg4 harg4 arg5 harg5 arg6 harg6 arg7 harg7 arg8 harg8 arg9 harg9 arg10 harg10 hc0 hc1 x0 x1 x2 x3 x4 xs0 xs1).2.2.1)

/-- The stores of this case into this buffer cover it. -/
theorem cover2_C_5 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : cond2_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S5000x64.Idx) :
    ∃ pc ∈ (run2_C c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (run2_C c i arg1 harg1 arg2 harg2 arg3 harg3 arg4 harg4 arg5 harg5 arg6 harg6 arg7 harg7 arg8 harg8 arg9 harg9 arg10 harg10 hc0 hc1 x0 x1 x2 x3 x4 xs0 xs1).1 S5000x64.size (by sl_kernel_rfl) y

/-- What they leave in it: the stored pieces read back. -/
def out2_C_5 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : cond2_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S5000x64 .f32 :=
  VO2_5.read (Elt F) (VO2_5.writes (Elt F) VO2_5.junk (run2_C c i arg1 harg1 arg2 harg2 arg3 harg3 arg4 harg4 arg5 harg5 arg6 harg6 arg7 harg7 arg8 harg8 arg9 harg9 arg10 harg10 hc0 hc1 x0 x1 x2 x3 x4 xs0 xs1).1)

/-- The stores of this case into this buffer cover it. -/
theorem cover2_C_6 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : cond2_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S1x64.Idx) :
    ∃ pc ∈ (run2_C c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (run2_C c i arg1 harg1 arg2 harg2 arg3 harg3 arg4 harg4 arg5 harg5 arg6 harg6 arg7 harg7 arg8 harg8 arg9 harg9 arg10 harg10 hc0 hc1 x0 x1 x2 x3 x4 xs0 xs1).2.1 S1x64.size (by sl_kernel_rfl) y

/-- What they leave in it: the stored pieces read back. -/
def out2_C_6 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : cond2_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S1x64 .f32 :=
  VO2_6.read (Elt F) (VO2_6.writes (Elt F) VO2_6.junk (run2_C c i arg1 harg1 arg2 harg2 arg3 harg3 arg4 harg4 arg5 harg5 arg6 harg6 arg7 harg7 arg8 harg8 arg9 harg9 arg10 harg10 hc0 hc1 x0 x1 x2 x3 x4 xs0 xs1).2.1)

/-- The stores of this case into this buffer cover it. -/
theorem cover2_C_7 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : cond2_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S1x64.Idx) :
    ∃ pc ∈ (run2_C c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (run2_C c i arg1 harg1 arg2 harg2 arg3 harg3 arg4 harg4 arg5 harg5 arg6 harg6 arg7 harg7 arg8 harg8 arg9 harg9 arg10 harg10 hc0 hc1 x0 x1 x2 x3 x4 xs0 xs1).2.2.1 S1x64.size (by sl_kernel_rfl) y

/-- What they leave in it: the stored pieces read back. -/
def out2_C_7 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : cond2_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S1x64 .f32 :=
  VO2_7.read (Elt F) (VO2_7.writes (Elt F) VO2_7.junk (run2_C c i arg1 harg1 arg2 harg2 arg3 harg3 arg4 harg4 arg5 harg5 arg6 harg6 arg7 harg7 arg8 harg8 arg9 harg9 arg10 harg10 hc0 hc1 x0 x1 x2 x3 x4 xs0 xs1).2.2.1)

/-- The stores of this case into this buffer cover it. -/
theorem scover2_C_0 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : cond2_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S1x64.Idx) :
    ∃ pc ∈ (run2_C c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (run2_C c i arg1 harg1 arg2 harg2 arg3 harg3 arg4 harg4 arg5 harg5 arg6 harg6 arg7 harg7 arg8 harg8 arg9 harg9 arg10 harg10 hc0 hc1 x0 x1 x2 x3 x4 xs0 xs1).2.2.2.1 S1x64.size (by sl_kernel_rfl) y

/-- What they leave in it: the stored pieces read back. -/
def sout2_C_0 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : cond2_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S1x64 .f32 :=
  VS2_0.read (Elt F) (VS2_0.writes (Elt F) VS2_0.junk (run2_C c i arg1 harg1 arg2 harg2 arg3 harg3 arg4 harg4 arg5 harg5 arg6 harg6 arg7 harg7 arg8 harg8 arg9 harg9 arg10 harg10 hc0 hc1 x0 x1 x2 x3 x4 xs0 xs1).2.2.2.1)

/-- The stores of this case into this buffer cover it. -/
theorem scover2_C_1 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : cond2_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S1x64.Idx) :
    ∃ pc ∈ (run2_C c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (run2_C c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x64.size (by sl_kernel_rfl) y

/-- What they leave in it: the stored pieces read back. -/
def sout2_C_1 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : cond2_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S1x64 .f32 :=
  VS2_1.read (Elt F) (VS2_1.writes (Elt F) VS2_1.junk (run2_C c i arg1 harg1 arg2 harg2 arg3 harg3 arg4 harg4 arg5 harg5 arg6 harg6 arg7 harg7 arg8 harg8 arg9 harg9 arg10 harg10 hc0 hc1 x0 x1 x2 x3 x4 xs0 xs1).2.2.2.2.1)

/-! ## The buffers the pipeline hands the body at a point -/

abbrev ms2_0 (t : Fin cfg2.N) : Memref sig .tc .vmem S5000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S64x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S5000x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S64x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S5000x64 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x64 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x64 .f32 := win2_7.stage (cfg2.slots t 7)
abbrev hs2_7 (t : Fin cfg2.N) : (ms2_7 t).IsWhole := hstage2_7 ((cfg2.slots t 7).cast nbuf2_7)

/-! ## What the buffers hold after each node tile -/

/-- After the body at position `n`: the pre-activation tile's buffer, the mean row, the variance row (both meaningful at
    the last tile only; elsewhere a placeholder nothing reads), and the two accumulator rows — the row of column sums and
    the row of column sums of squares over the tiles `0 .. n`: at the first tile from zero, at every later one on top of
    what the tile before left. -/
def outsAt2 (c : Dev nD) : (n : ℕ) → n < cfg2.N → Vec F S5000x64 .f32 × Vec F S1x64 .f32 × Vec F S1x64 .f32 × Vec F S1x64 .f32 × Vec F S1x64 .f32
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩),
        VO2_6.read (Elt F) VO2_6.junk,
        VO2_7.read (Elt F) VO2_7.junk,
        sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩),
        sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h1 : n + 1 = 9 then
      (out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2,
        out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2,
        out2_C_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2,
        sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2,
        sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2)
    else
      (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => absurd ((hcond2_0 ⟨n + 1, hn⟩).mp h) (Nat.succ_ne_zero n)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2,
        VO2_6.read (Elt F) VO2_6.junk,
        VO2_7.read (Elt F) VO2_7.junk,
        sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => absurd ((hcond2_0 ⟨n + 1, hn⟩).mp h) (Nat.succ_ne_zero n)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2,
        sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => absurd ((hcond2_0 ⟨n + 1, hn⟩).mp h) (Nat.succ_ne_zero n)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2)

/-- The row of column sums after tile `n`, and the row of column sums of squares. -/
abbrev S2 (c : Dev nD) (n : ℕ) (hn : n < cfg2.N) : Vec F S1x64 .f32 := (outsAt2 V c n hn).2.2.2.1
abbrev Q2 (c : Dev nD) (n : ℕ) (hn : n < cfg2.N) : Vec F S1x64 .f32 := (outsAt2 V c n hn).2.2.2.2

theorem outsAt2_A (c : Dev nD) (t : Fin cfg2.N) (h0 : t.val = 0) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => (fun h => by omega) ((hcond2_1 t).mp h)) (iblk2 V c 0 t) (iblk2 V c 1 t) (iblk2 V c 2 t) (iblk2 V c 3 t) (iblk2 V c 4 t),
        VO2_6.read (Elt F) VO2_6.junk,
        VO2_7.read (Elt F) VO2_7.junk,
        sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => (fun h => by omega) ((hcond2_1 t).mp h)) (iblk2 V c 0 t) (iblk2 V c 1 t) (iblk2 V c 2 t) (iblk2 V c 3 t) (iblk2 V c 4 t),
        sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => (fun h => by omega) ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exact absurd h0 (Nat.succ_ne_zero n)

theorem outsAt2_B (c : Dev nD) (t : Fin cfg2.N) (h0 : ¬t.val = 0) (h1 : ¬t.val = 9) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
        VO2_6.read (Elt F) VO2_6.junk,
        VO2_7.read (Elt F) VO2_7.junk,
        sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
        sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact absurd rfl h0
  | succ n => exact (dif_neg h1).trans rfl

theorem outsAt2_C (c : Dev nD) (t : Fin cfg2.N) (h0 : ¬t.val = 0) (h1 : t.val = 9) :
    outsAt2 V c t.val t.isLt = (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
        out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
        out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
        sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
        sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The invariant between node tiles -/

/-- Before position `n`: the two accumulator rows — at anything before the first tile, afterwards at the sums the tile
    before left —, the rest of the scoped memory untouched, the generator register at some state. -/
def Phi2 (c : Dev nD) : (n : ℕ) → n ≤ cfg2.N → sProp 𝕄
  | 0, _ => iprop((∃ d, owns (c : Thread nD τ) scM2_0 fullShare d) ∗ (∃ d, owns (c : Thread nD τ) scM2_1 fullShare d) ∗ restBut2 (F := F) c ∗ (∃ r, prngReg c r))
  | n + 1, hn => iprop(owns (c : Thread nD τ) scM2_0 fullShare (S2 V c n hn) ∗ owns (c : Thread nD τ) scM2_1 fullShare (Q2 V c n hn) ∗ restBut2 (F := F) c ∗ (∃ r, prngReg c r))

theorem Phi2_zero (c : Dev nD) (n : ℕ) (h : n ≤ cfg2.N) (hz : n = 0) :
    Phi2 V c n h = iprop((∃ d, owns (c : Thread nD τ) scM2_0 fullShare d) ∗ (∃ d, owns (c : Thread nD τ) scM2_1 fullShare d) ∗ restBut2 (F := F) c ∗ (∃ r, prngReg c r)) := by
  subst hz; rfl

theorem Phi2_succ (c : Dev nD) (n : ℕ) (hn : n < cfg2.N) :
    Phi2 V c (n + 1) hn = iprop(owns (c : Thread nD τ) scM2_0 fullShare (S2 V c n hn) ∗ owns (c : Thread nD τ) scM2_1 fullShare (Q2 V c n hn) ∗ restBut2 (F := F) c ∗ (∃ r, prngReg c r)) := rfl

theorem Phi2_pos (c : Dev nD) (n : ℕ) (h : n ≤ cfg2.N) (hz : n ≠ 0) :
    Phi2 V c n h = iprop(owns (c : Thread nD τ) scM2_0 fullShare (S2 V c (n - 1) (by omega)) ∗ owns (c : Thread nD τ) scM2_1 fullShare (Q2 V c (n - 1) (by omega)) ∗ restBut2 (F := F) c ∗ (∃ r, prngReg c r)) := by
  cases n with
  | zero => exact absurd rfl hz
  | succ n => rfl

/-! ## The proof data -/

/-- The pipeline's proof data on core `c`: the arrays as the region finds them; after the body at a point every input's
    buffer at its block, the outputs' at `outsAt2`'s components; between points the invariant `Phi2`; full shares,
    nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
    | ⟨6, _⟩ => (outsAt2 V c t.val t.isLt).2.1
    | ⟨7, _⟩ => (outsAt2 V c t.val t.isLt).2.2.1
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem after2_6 (c : Dev nD) (t : Fin cfg2.N) : (dat2 V c).after 6 t = (outsAt2 V c t.val t.isLt).2.1 := by dsimp only [dat2]
theorem after2_7 (c : Dev nD) (t : Fin cfg2.N) : (dat2 V c).after 7 t = (outsAt2 V c t.val t.isLt).2.2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4800000 in
/-- The body at any point. The inputs' buffers hold their blocks; the point's position says which control case it is in;
    that case's run applies, handed the accumulator rows at what the invariant says they hold, and gives them back at this
    point's sums; the mean and variance rows are handed back untouched before the last tile. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = Phi2 V c (t.val + 1) t.isLt from rfl, Phi2_succ]
  unfold S2 Q2
  have hN : t.val < 10 := lt_of_lt_of_eq t.isLt (show cfg2.N = 10 from N_2)
  by_cases h0 : t.val = 0
  · have h1 : ¬t.val = 9 := by omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [Dat.leavesExact_idle (dat2 V c) 6 t (idleAt2_6 t (fun h => h1 ((hcond2_1 t).mp h))) (noFlush2_6 t (fun h => h1 ((hcond2_1 t).mp h)))]
      rw [Dat.leavesExact_idle (dat2 V c) 7 t (idleAt2_7 t (fun h => h1 ((hcond2_1 t).mp h))) (noFlush2_7 t (fun h => h1 ((hcond2_1 t).mp h)))]
      rw [outsAt2_A V c t h0]
      unfold out2_A_5 sout2_A_0 sout2_A_1; (try dsimp only)
      rw [Phi2_castSucc V c t, Phi2_zero V c _ _ h0]
      iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((run2_A c (grid2.coords t) _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%e8, HS0⟩, ⟨%e9, HS1⟩⟩
      isplitl [HS0 HS1 HR Hg]
      · isplitl [HS0]
        · unfold owns; iexists _; isplitr
          swap; · iexact HS0
          ipureintro; exact View.read_writes_of_cover _ _ _ _ _ (scover2_A_0 (F := F) c _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover2_A_1 (F := F) c _ _ _ _ _ _ _ _ _ _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover2_A_5 (F := F) c _ _ _ _ _ _ _ _ _ _ _ _ _ _ _ _ _ _ _ _ _ _ _ _ _ _ _ _)
      isplitl [H6]; · iexists _; iexact H6
      iexists _; iexact H7

  · by_cases h1 : t.val = 9
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t ((hcond2_1 t).mpr h1)], after2_6]
      rw [show (dat2 V c).leavesExact 7 t = owns (c : Thread nD τ) (ms2_7 t) fullShare ((dat2 V c).after 7 t) from by
        unfold Dat.leavesExact; rw [liveAt2_7 t ((hcond2_1 t).mpr h1)], after2_7]
      rw [outsAt2_C V c t h0 h1]
      unfold out2_C_5 out2_C_6 out2_C_7 sout2_C_0 sout2_C_1; (try dsimp only)
      rw [Phi2_castSucc V c t, Phi2_pos V c _ _ h0]
      iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((run2_C c (grid2.coords t) _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%e8, HS0⟩, ⟨%e9, HS1⟩⟩
      isplitl [HS0 HS1 HR Hg]
      · isplitl [HS0]
        · unfold owns; iexists _; isplitr
          swap; · iexact HS0
          ipureintro; exact View.read_writes_of_cover _ _ _ _ _ (scover2_C_0 (F := F) c _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover2_C_1 (F := F) c _ _ _ _ _ _ _ _ _ _ _ _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover2_C_5 (F := F) c _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover2_C_6 (F := F) c _ _ _ _ _ _ _ _ _ _ _ _ _ _ _ _ _ _ _ _ _ _ _ _ _ _ _ _ _ _)
      unfold owns; iexists _; isplitr
      swap; · iexact H7
      ipureintro; exact View.read_writes_of_cover _ _ _ _ _ (cover2_C_7 (F := F) c _ _ _ _ _ _ _ _ _ _ _ _ _ _ _ _ _ _ _ _ _ _ _ _ _ _ _ _ _ _)

    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [Dat.leavesExact_idle (dat2 V c) 6 t (idleAt2_6 t (fun h => h1 ((hcond2_1 t).mp h))) (noFlush2_6 t (fun h => h1 ((hcond2_1 t).mp h)))]
      rw [Dat.leavesExact_idle (dat2 V c) 7 t (idleAt2_7 t (fun h => h1 ((hcond2_1 t).mp h))) (noFlush2_7 t (fun h => h1 ((hcond2_1 t).mp h)))]
      rw [outsAt2_B V c t h0 h1]
      unfold out2_B_5 sout2_B_0 sout2_B_1; (try dsimp only)
      rw [Phi2_castSucc V c t, Phi2_pos V c _ _ h0]
      iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((run2_B c (grid2.coords t) _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _ _).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%e8, HS0⟩, ⟨%e9, HS1⟩⟩
      isplitl [HS0 HS1 HR Hg]
      · isplitl [HS0]
        · unfold owns; iexists _; isplitr
          swap; · iexact HS0
          ipureintro; exact View.read_writes_of_cover _ _ _ _ _ (scover2_B_0 (F := F) c _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover2_B_1 (F := F) c _ _ _ _ _ _ _ _ _ _ _ _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover2_B_5 (F := F) c _ _ _ _ _ _ _ _ _ _ _ _ _ _ _ _ _ _ _ _ _ _ _ _ _ _ _ _ _ _)
      isplitl [H6]; · iexists _; iexact H6
      iexists _; iexact H7

theorem body_obligation2 (c : Dev nD) : BodyObligation (dat2 (F := F) V c) (defs₀ (F := F)) Variants.none () Set.univ := fun t => by
  rw [bigSep_W2, bigSep_W2]
  exact sound_body2 V c t

/-! ## Entering and leaving the region -/

/-- What the launch hands the region is the invariant before the first tile: the accumulator rows are two of the scoped
    buffers, at whatever they hold. -/
theorem hin2 (c : Dev nD) :
    (iprop((∃ r, prngReg c r) ∗ Pipeline.scopedRest (Ix := Unit) (Name := ℕ) (U := UR sig nD τ) (Lvl := ℕ) (Val := Elt F) spec2 c) : sProp 𝕄) ⊢ (dat2 V c).Φ 0 := by
  rw [show (dat2 V c).Φ 0 = Phi2 V c 0 (Nat.zero_le _) from rfl, Phi2_zero V c 0 _ rfl, scopedRest2_rows]
  iintro ⟨Hg, ⟨HS0, HS1⟩, HR⟩
  isplitl [HS0]; · iexact HS0
  isplitl [HS1]; · iexact HS1
  isplitl [HR]; · iexact HR
  iexact Hg

/-- After the last tile the invariant gives the scoped rest back: the sums in the accumulator rows are forgotten. -/
theorem hout2 (c : Dev nD) :
    (dat2 V c).Φ (Fin.last cfg2.N) ⊢ (iprop((∃ r, prngReg c r) ∗ Pipeline.scopedRest (Ix := Unit) (Name := ℕ) (U := UR sig nD τ) (Lvl := ℕ) (Val := Elt F) spec2 c) : sProp 𝕄) := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 10 := N_2; omega), scopedRest2_rows]
  iintro ⟨HS0, HS1, HR, Hg⟩
  isplitl [Hg]; · iexact Hg
  isplitl [HS0 HS1]
  · isplitl [HS0]; · iexists _; iexact HS0
    iexists _; iexact HS1
  iexact HR

end Cert.KernelIdeal.Hand

end
-- ==== Proof.KI.Norm3.lean ====
import proofs.«167925_j62517543961156_1_alg».proof.Proof.Gen.KernelIdeal.Launch
import proofs.«167925_j62517543961156_1_alg».proof.Proof.Gen.KernelIdeal.Skeleton
import proofs.«167925_j62517543961156_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 3: the normalisation of one node tile

Each grid point reads a tile of pre-activations (5000 rows, 64 features), the per-feature mean, variance,
scale and shift rows, and the tile of the previous layer's features, and writes the tile
`max(((pre − mean) · rsqrt(var + ε)) · γ + β, 0) + resid`.  No state is carried from one point to the
next: every input window is read whole, the one output window is written whole.  So, at an arbitrary
content `V` of the buffers on entry, the proof data say: after the body each input window holds its own
block and the output window holds the pointwise function of the input blocks.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the windows -/

/-- The block of window `w` at grid point `t`, cut out of the array the region finds on entry. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window that the body hands back unchanged holds its block at every point: where it was fetched
    this is what the fetch put there, and where it was not the block index has not moved since the last fetch. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input window that the body hands back unchanged holds its block at every point: where it was fetched
    this is what the fetch put there, and where it was not the block index has not moved since the last fetch. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- An input window that the body hands back unchanged holds its block at every point: where it was fetched
    this is what the fetch put there, and where it was not the block index has not moved since the last fetch. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- An input window that the body hands back unchanged holds its block at every point: where it was fetched
    this is what the fetch put there, and where it was not the block index has not moved since the last fetch. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- An input window that the body hands back unchanged holds its block at every point: where it was fetched
    this is what the fetch put there, and where it was not the block index has not moved since the last fetch. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- An input window that the body hands back unchanged holds its block at every point: where it was fetched
    this is what the fetch put there, and where it was not the block index has not moved since the last fetch. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## What the body reads and writes -/

/-- The whole tile, and the whole row: the only two rectangles the body touches. -/
abbrev r3_big : Rect S5000x64 := Rect.unit (s := S5000x64) ![0, 0] S5000x64.size inb_S5000x64_S5000x64_0_0
abbrev r3_row : Rect S1x64 := Rect.unit (s := S1x64) ![0, 0] S1x64.size inb_S1x64_S1x64_0_0

/-- The output tile as a function of the input blocks: the single store, whose value is the normalised tile
    computed from the loaded tile and rows. -/
def out3_6 (x0 : Vec F S5000x64 .f32) (x1 : Vec F S1x64 .f32) (x2 : Vec F S1x64 .f32) (x3 : Vec F S1x64 .f32) (x4 : Vec F S1x64 .f32) (x5 : Vec F S5000x64 .f32) : Vec F S5000x64 .f32 :=
  View.canon [⟨r3_big, k3_pay1 (View.ld x1 r3_row) (View.ld x2 r3_row) (View.ld x0 r3_big) (View.ld x3 r3_row) (View.ld x4 r3_row) (View.ld x5 r3_big)⟩]

/-- The one store writes the whole tile, so every index of the buffer lies in it. -/
theorem cover3_6 (p0 : Vec F S5000x64 .f32) (y : S5000x64.Idx) :
    ∃ pc ∈ ([⟨r3_big, p0⟩] : List (View.Piece (Elt F) S5000x64 .f32)), y ∈ pc.1.set :=
  View.cover_of_tiled [⟨r3_big, p0⟩] S5000x64.size (by rfl) y

/-! ## The body, run on whole staging buffers -/

set_option maxHeartbeats 1000000 in
/-- Started with the input buffers at contents `x` and the output buffer at anything, the body ends with the inputs
    as they were and the output at `out3_6 x`: it is a sequence of whole-buffer loads followed by one
    whole-buffer store. -/
theorem sound_kernel3 (c : Dev nD) (E : Set ℕ) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S5000x64 .f32) (harg7 : arg7.IsWhole)
    (x0 : Vec F S5000x64 .f32) (x1 : Vec F S1x64 .f32) (x2 : Vec F S1x64 .f32) (x3 : Vec F S1x64 .f32) (x4 : Vec F S1x64 .f32) (x5 : Vec F S5000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5)) -∗ K ⟨⟩))
      ⊢ wp frame (wpE (defs₀ (F := F)) Variants.none c none) E (cc3__norm_kernel_resid i arg1 harg1 arg2 harg2 arg3 harg3 arg4 harg4 arg5 harg5 arg6 harg6 arg7 harg7) K := by
  simp only [cc3__norm_kernel_resid_eq_skeleton]; unfold cc3__norm_kernel_resid_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-! ## The proof data of the pipeline -/

/-- The arrays are the ones found on entry; after the body at point `t` every input window holds its block and
    the output window the normalised tile of those blocks; the invariant is the one of a body that touches
    nothing but its windows; all shares are full and nothing is owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

/-- What the body leaves in each window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

/-- What the body finds in each input window: its block. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation -/

/-- What the body is started with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it ends with. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- At any point the input buffers hold their blocks, so the triple of the body applies; the invariant and the
    debts are not looked at. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation3 (c : Dev nD) : BodyObligation (dat3 (F := F) V c) (defs₀ (F := F)) Variants.none () Set.univ := fun t => by
  rw [bigSep_W3, bigSep_W3]
  exact sound_body3 V c t

end Cert.KernelIdeal.Hand
-- ==== Proof.KI.Stats4Defs.lean ====
import proofs.«167925_j62517543961156_1_alg».proof.Proof.Gen.KernelIdeal.Launch
import proofs.«167925_j62517543961156_1_alg».proof.Proof.Gen.KernelIdeal.Skeleton
import proofs.«167925_j62517543961156_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Statistics kernel of region 4: what its three control cases share -/

/-- The block of window `w` at grid point `t`, read off the window's array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! An input window's current buffer holds its block at every point: where the point does not fetch it, the block
    index has not moved since the last fetch. -/

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The two conditions on the grid coordinate -/

/-- "This is the first node tile": the accumulators are reset. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)

/-- "This is the last node tile": mean and variance are formed from the accumulated sums. -/
abbrev cond4_1 (i : grid4.Coords) : Prop := k4_cond2 i = 1#1
theorem hcond4_1 : ∀ t : Fin cfg4.N, cond4_1 (grid4.coords t) ↔ t.val = 9 :=
  (by decide +kernel : ∀ t : Fin grid4.N, cond4_1 (grid4.coords t) ↔ t.val = 9)

/-! ## Where the windows are live -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem liveAt4_5 : ∀ t : Fin cfg4.N, cfg4.idle 5 (grid4.coords t) = false := by decide +kernel
/-- Before the last tile nothing is stored into the mean and variance rows, and they are not written back. -/
theorem idleAt4_6 : ∀ t : Fin cfg4.N, ¬cond4_1 (grid4.coords t) → cfg4.idle 6 (grid4.coords t) = true := by decide +kernel
theorem noFlush4_6 : ∀ t : Fin cfg4.N, ¬cond4_1 (grid4.coords t) → (cfg4.win 6).flush t = false := by decide +kernel
theorem idleAt4_7 : ∀ t : Fin cfg4.N, ¬cond4_1 (grid4.coords t) → cfg4.idle 7 (grid4.coords t) = true := by decide +kernel
theorem noFlush4_7 : ∀ t : Fin cfg4.N, ¬cond4_1 (grid4.coords t) → (cfg4.win 7).flush t = false := by decide +kernel
/-- At the last tile both rows are stored. -/
theorem liveAt4_6 : ∀ t : Fin cfg4.N, cond4_1 (grid4.coords t) → cfg4.idle 6 (grid4.coords t) = false := by decide +kernel
theorem liveAt4_7 : ∀ t : Fin cfg4.N, cond4_1 (grid4.coords t) → cfg4.idle 7 (grid4.coords t) = false := by decide +kernel

/-! ## Views through which buffer contents are stated, and the two accumulator rows -/

abbrev VO4_5 : View sig .tc .vmem S5000x64 .f32 := (Memref.whole cc4_stg5_0 : Memref sig .tc .vmem S5000x64 .f32).view
abbrev VO4_6 : View sig .tc .vmem S1x64 .f32 := (Memref.whole cc4_stg6_0 : Memref sig .tc .vmem S1x64 .f32).view
abbrev VO4_7 : View sig .tc .vmem S1x64 .f32 := (Memref.whole cc4_stg7_0 : Memref sig .tc .vmem S1x64 .f32).view
/-- The row of column sums and the row of column sums of squares, carried from tile to tile. -/
abbrev scM4_0 : Memref sig .tc .vmem S1x64 .f32 := Memref.whole cc4_scratch0
abbrev scM4_1 : Memref sig .tc .vmem S1x64 .f32 := Memref.whole cc4_scratch1
abbrev VS4_0 : View sig .tc .vmem S1x64 .f32 := scM4_0.view
abbrev VS4_1 : View sig .tc .vmem S1x64 .f32 := scM4_1.view

/-- The part of the region's scoped memory that is neither a staging buffer nor one of the two accumulator rows. -/
abbrev restBut4 (c : Dev nD) : sProp 𝕄 :=
  Pipeline.scopedRestBut (Ix := Unit) (Name := ℕ) (U := UR sig nD τ) (Lvl := ℕ) (Val := Elt F) spec4 c [cc4_scratch0, cc4_scratch1]

/-- The scoped rest, with the two accumulator rows owned as whole memrefs at some contents. -/
theorem scopedRest4_rows (c : Dev nD) :
    (Pipeline.scopedRest (Ix := Unit) (Name := ℕ) (U := UR sig nD τ) (Lvl := ℕ) (Val := Elt F) spec4 c : sProp 𝕄)
      = iprop(iprop((∃ d, owns (c : Thread nD τ) scM4_0 fullShare d) ∗ (∃ d, owns (c : Thread nD τ) scM4_1 fullShare d)) ∗ restBut4 (F := F) c) := by
  rw [scopedRest4_split]; simp only [scM4_0, scM4_1, owns_whole]; try rfl

end Cert.KernelIdeal.Hand

end
-- ==== Proof.KI.Stats4RunA.lean ====
import proofs.«167925_j62517543961156_1_alg».proof.Proof.KI.Stats4Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the FIRST node tile. Both accumulator rows, found at anything, are zeroed and then receive the tile's
    column sums (of the pre-activations, and of their squares); the pre-activation tile is stored; the mean and variance
    rows are not touched and come back as found. The lists are what the stores leave, last store first. -/
noncomputable def run4_A (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond4_0 i) (hc1 : ¬cond4_1 i)
    (x0 : Vec F S5000x64 .f32) (x1 : Vec F S64x64 .f32) (x2 : Vec F S1x64 .f32) (x3 : Vec F S5000x64 .f32) (x4 : Vec F S64x64 .f32) :
    Σ' (L5 : List (View.Piece (Elt F) S5000x64 .f32)) (LS0 : List (View.Piece (Elt F) S1x64 .f32)), { LS1 : List (View.Piece (Elt F) S1x64 .f32) //
      ∀ (xi6 xi7 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc4__stats_kernel_right i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc4__stats_kernel_right_eq_skeleton]; unfold cc4__stats_kernel_right_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    iexists _; iexact H9

end Cert.KernelIdeal.Hand

end
-- ==== Proof.KI.Stats4RunB.lean ====
import proofs.«167925_j62517543961156_1_alg».proof.Proof.KI.Stats4RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a MIDDLE node tile. The accumulator rows, found at what the tile before left, receive this tile's column
    sums on top; the pre-activation tile is stored; the mean and variance rows are not touched and come back as found.
    The lists are what the stores leave, last store first. -/
noncomputable def run4_B (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : ¬cond4_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) :
    Σ' (L5 : List (View.Piece (Elt F) S5000x64 .f32)) (LS0 : List (View.Piece (Elt F) S1x64 .f32)), { LS1 : List (View.Piece (Elt F) S1x64 .f32) //
      ∀ (xi6 xi7 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc4__stats_kernel_right i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc4__stats_kernel_right_eq_skeleton]; unfold cc4__stats_kernel_right_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hf8; obtain rfl := harg10.eq_unread hf9
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    iexists _; iexact H9

end Cert.KernelIdeal.Hand

end
-- ==== Proof.KI.Stats4RunC.lean ====
import proofs.«167925_j62517543961156_1_alg».proof.Proof.KI.Stats4RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the LAST node tile. The accumulator rows receive this tile's column sums on top of what the tile before
    left; then the mean row is the sums divided by the node count, and the variance row the sums of squares divided by
    the node count minus the squared mean. The lists are what the stores leave, last store first. -/
noncomputable def run4_C (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : cond4_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) :
    Σ' (L5 : List (View.Piece (Elt F) S5000x64 .f32)) (L6 : List (View.Piece (Elt F) S1x64 .f32)) (L7 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc4__stats_kernel_right i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc4__stats_kernel_right_eq_skeleton]; unfold cc4__stats_kernel_right_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hf8; obtain rfl := harg10.eq_unread hf9
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    iexists _; iexact H9

end Cert.KernelIdeal.Hand

end
-- ==== Proof.KI.Stats4.lean ====
import proofs.«167925_j62517543961156_1_alg».proof.Proof.KI.Stats4RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Statistics kernel of region 4: what every buffer holds after each node tile, the proof data, the body obligation -/

/-- The stores of this case into this buffer cover it. -/
theorem cover4_A_5 (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond4_0 i) (hc1 : ¬cond4_1 i)
    (x0 : Vec F S5000x64 .f32) (x1 : Vec F S64x64 .f32) (x2 : Vec F S1x64 .f32) (x3 : Vec F S5000x64 .f32) (x4 : Vec F S64x64 .f32) (y : S5000x64.Idx) :
    ∃ pc ∈ (run4_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (run4_A c i arg1 harg1 arg2 harg2 arg3 harg3 arg4 harg4 arg5 harg5 arg6 harg6 arg7 harg7 arg8 harg8 arg9 harg9 arg10 harg10 hc0 hc1 x0 x1 x2 x3 x4).1 S5000x64.size (by sl_kernel_rfl) y

/-- What they leave in it: the stored pieces read back. -/
def out4_A_5 (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond4_0 i) (hc1 : ¬cond4_1 i)
    (x0 : Vec F S5000x64 .f32) (x1 : Vec F S64x64 .f32) (x2 : Vec F S1x64 .f32) (x3 : Vec F S5000x64 .f32) (x4 : Vec F S64x64 .f32) : Vec F S5000x64 .f32 :=
  VO4_5.read (Elt F) (VO4_5.writes (Elt F) VO4_5.junk (run4_A c i arg1 harg1 arg2 harg2 arg3 harg3 arg4 harg4 arg5 harg5 arg6 harg6 arg7 harg7 arg8 harg8 arg9 harg9 arg10 harg10 hc0 hc1 x0 x1 x2 x3 x4).1)

/-- The stores of this case into this buffer cover it. -/
theorem scover4_A_0 (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond4_0 i) (hc1 : ¬cond4_1 i)
    (x0 : Vec F S5000x64 .f32) (x1 : Vec F S64x64 .f32) (x2 : Vec F S1x64 .f32) (x3 : Vec F S5000x64 .f32) (x4 : Vec F S64x64 .f32) (y : S1x64.Idx) :
    ∃ pc ∈ (run4_A c i arg1 harg1 arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (run4_A c i arg1 harg1 arg2 harg2 arg3 harg3 arg4 harg4 arg5 harg5 arg6 harg6 arg7 harg7 arg8 harg8 arg9 harg9 arg10 harg10 hc0 hc1 x0 x1 x2 x3 x4).2.1 S1x64.size (by sl_kernel_rfl) y

/-- What they leave in it: the stored pieces read back. -/
def sout4_A_0 (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond4_0 i) (hc1 : ¬cond4_1 i)
    (x0 : Vec F S5000x64 .f32) (x1 : Vec F S64x64 .f32) (x2 : Vec F S1x64 .f32) (x3 : Vec F S5000x64 .f32) (x4 : Vec F S64x64 .f32) : Vec F S1x64 .f32 :=
  VS4_0.read (Elt F) (VS4_0.writes (Elt F) VS4_0.junk (run4_A c i arg1 harg1 arg2 harg2 arg3 harg3 arg4 harg4 arg5 harg5 arg6 harg6 arg7 harg7 arg8 harg8 arg9 harg9 arg10 harg10 hc0 hc1 x0 x1 x2 x3 x4).2.1)

/-- The stores of this case into this buffer cover it. -/
theorem scover4_A_1 (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond4_0 i) (hc1 : ¬cond4_1 i)
    (x0 : Vec F S5000x64 .f32) (x1 : Vec F S64x64 .f32) (x2 : Vec F S1x64 .f32) (x3 : Vec F S5000x64 .f32) (x4 : Vec F S64x64 .f32) (y : S1x64.Idx) :
    ∃ pc ∈ (run4_A c i arg1 harg1 arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (run4_A c i arg1 harg1 arg2 harg2 arg3 harg3 arg4 harg4 arg5 harg5 arg6 harg6 arg7 harg7 arg8 harg8 arg9 harg9 arg10 harg10 hc0 hc1 x0 x1 x2 x3 x4).2.2.1 S1x64.size (by sl_kernel_rfl) y

/-- What they leave in it: the stored pieces read back. -/
def sout4_A_1 (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond4_0 i) (hc1 : ¬cond4_1 i)
    (x0 : Vec F S5000x64 .f32) (x1 : Vec F S64x64 .f32) (x2 : Vec F S1x64 .f32) (x3 : Vec F S5000x64 .f32) (x4 : Vec F S64x64 .f32) : Vec F S1x64 .f32 :=
  VS4_1.read (Elt F) (VS4_1.writes (Elt F) VS4_1.junk (run4_A c i arg1 harg1 arg2 harg2 arg3 harg3 arg4 harg4 arg5 harg5 arg6 harg6 arg7 harg7 arg8 harg8 arg9 harg9 arg10 harg10 hc0 hc1 x0 x1 x2 x3 x4).2.2.1)

/-- The stores of this case into this buffer cover it. -/
theorem cover4_B_5 (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : ¬cond4_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S5000x64.Idx) :
    ∃ pc ∈ (run4_B c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (run4_B c i arg1 harg1 arg2 harg2 arg3 harg3 arg4 harg4 arg5 harg5 arg6 harg6 arg7 harg7 arg8 harg8 arg9 harg9 arg10 harg10 hc0 hc1 x0 x1 x2 x3 x4 xs0 xs1).1 S5000x64.size (by sl_kernel_rfl) y

/-- What they leave in it: the stored pieces read back. -/
def out4_B_5 (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : ¬cond4_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S5000x64 .f32 :=
  VO4_5.read (Elt F) (VO4_5.writes (Elt F) VO4_5.junk (run4_B c i arg1 harg1 arg2 harg2 arg3 harg3 arg4 harg4 arg5 harg5 arg6 harg6 arg7 harg7 arg8 harg8 arg9 harg9 arg10 harg10 hc0 hc1 x0 x1 x2 x3 x4 xs0 xs1).1)

/-- The stores of this case into this buffer cover it. -/
theorem scover4_B_0 (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : ¬cond4_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S1x64.Idx) :
    ∃ pc ∈ (run4_B c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (run4_B c i arg1 harg1 arg2 harg2 arg3 harg3 arg4 harg4 arg5 harg5 arg6 harg6 arg7 harg7 arg8 harg8 arg9 harg9 arg10 harg10 hc0 hc1 x0 x1 x2 x3 x4 xs0 xs1).2.1 S1x64.size (by sl_kernel_rfl) y

/-- What they leave in it: the stored pieces read back. -/
def sout4_B_0 (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : ¬cond4_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S1x64 .f32 :=
  VS4_0.read (Elt F) (VS4_0.writes (Elt F) VS4_0.junk (run4_B c i arg1 harg1 arg2 harg2 arg3 harg3 arg4 harg4 arg5 harg5 arg6 harg6 arg7 harg7 arg8 harg8 arg9 harg9 arg10 harg10 hc0 hc1 x0 x1 x2 x3 x4 xs0 xs1).2.1)

/-- The stores of this case into this buffer cover it. -/
theorem scover4_B_1 (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : ¬cond4_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S1x64.Idx) :
    ∃ pc ∈ (run4_B c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (run4_B c i arg1 harg1 arg2 harg2 arg3 harg3 arg4 harg4 arg5 harg5 arg6 harg6 arg7 harg7 arg8 harg8 arg9 harg9 arg10 harg10 hc0 hc1 x0 x1 x2 x3 x4 xs0 xs1).2.2.1 S1x64.size (by sl_kernel_rfl) y

/-- What they leave in it: the stored pieces read back. -/
def sout4_B_1 (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : ¬cond4_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S1x64 .f32 :=
  VS4_1.read (Elt F) (VS4_1.writes (Elt F) VS4_1.junk (run4_B c i arg1 harg1 arg2 harg2 arg3 harg3 arg4 harg4 arg5 harg5 arg6 harg6 arg7 harg7 arg8 harg8 arg9 harg9 arg10 harg10 hc0 hc1 x0 x1 x2 x3 x4 xs0 xs1).2.2.1)

/-- The stores of this case into this buffer cover it. -/
theorem cover4_C_5 (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : cond4_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S5000x64.Idx) :
    ∃ pc ∈ (run4_C c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (run4_C c i arg1 harg1 arg2 harg2 arg3 harg3 arg4 harg4 arg5 harg5 arg6 harg6 arg7 harg7 arg8 harg8 arg9 harg9 arg10 harg10 hc0 hc1 x0 x1 x2 x3 x4 xs0 xs1).1 S5000x64.size (by sl_kernel_rfl) y

/-- What they leave in it: the stored pieces read back. -/
def out4_C_5 (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : cond4_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S5000x64 .f32 :=
  VO4_5.read (Elt F) (VO4_5.writes (Elt F) VO4_5.junk (run4_C c i arg1 harg1 arg2 harg2 arg3 harg3 arg4 harg4 arg5 harg5 arg6 harg6 arg7 harg7 arg8 harg8 arg9 harg9 arg10 harg10 hc0 hc1 x0 x1 x2 x3 x4 xs0 xs1).1)

/-- The stores of this case into this buffer cover it. -/
theorem cover4_C_6 (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : cond4_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S1x64.Idx) :
    ∃ pc ∈ (run4_C c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (run4_C c i arg1 harg1 arg2 harg2 arg3 harg3 arg4 harg4 arg5 harg5 arg6 harg6 arg7 harg7 arg8 harg8 arg9 harg9 arg10 harg10 hc0 hc1 x0 x1 x2 x3 x4 xs0 xs1).2.1 S1x64.size (by sl_kernel_rfl) y

/-- What they leave in it: the stored pieces read back. -/
def out4_C_6 (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : cond4_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S1x64 .f32 :=
  VO4_6.read (Elt F) (VO4_6.writes (Elt F) VO4_6.junk (run4_C c i arg1 harg1 arg2 harg2 arg3 harg3 arg4 harg4 arg5 harg5 arg6 harg6 arg7 harg7 arg8 harg8 arg9 harg9 arg10 harg10 hc0 hc1 x0 x1 x2 x3 x4 xs0 xs1).2.1)

/-- The stores of this case into this buffer cover it. -/
theorem cover4_C_7 (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : cond4_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S1x64.Idx) :
    ∃ pc ∈ (run4_C c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (run4_C c i arg1 harg1 arg2 harg2 arg3 harg3 arg4 harg4 arg5 harg5 arg6 harg6 arg7 harg7 arg8 harg8 arg9 harg9 arg10 harg10 hc0 hc1 x0 x1 x2 x3 x4 xs0 xs1).2.2.1 S1x64.size (by sl_kernel_rfl) y

/-- What they leave in it: the stored pieces read back. -/
def out4_C_7 (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : cond4_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S1x64 .f32 :=
  VO4_7.read (Elt F) (VO4_7.writes (Elt F) VO4_7.junk (run4_C c i arg1 harg1 arg2 harg2 arg3 harg3 arg4 harg4 arg5 harg5 arg6 harg6 arg7 harg7 arg8 harg8 arg9 harg9 arg10 harg10 hc0 hc1 x0 x1 x2 x3 x4 xs0 xs1).2.2.1)

/-- The stores of this case into this buffer cover it. -/
theorem scover4_C_0 (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : cond4_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S1x64.Idx) :
    ∃ pc ∈ (run4_C c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (run4_C c i arg1 harg1 arg2 harg2 arg3 harg3 arg4 harg4 arg5 harg5 arg6 harg6 arg7 harg7 arg8 harg8 arg9 harg9 arg10 harg10 hc0 hc1 x0 x1 x2 x3 x4 xs0 xs1).2.2.2.1 S1x64.size (by sl_kernel_rfl) y

/-- What they leave in it: the stored pieces read back. -/
def sout4_C_0 (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : cond4_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S1x64 .f32 :=
  VS4_0.read (Elt F) (VS4_0.writes (Elt F) VS4_0.junk (run4_C c i arg1 harg1 arg2 harg2 arg3 harg3 arg4 harg4 arg5 harg5 arg6 harg6 arg7 harg7 arg8 harg8 arg9 harg9 arg10 harg10 hc0 hc1 x0 x1 x2 x3 x4 xs0 xs1).2.2.2.1)

/-- The stores of this case into this buffer cover it. -/
theorem scover4_C_1 (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : cond4_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S1x64.Idx) :
    ∃ pc ∈ (run4_C c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (run4_C c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x64.size (by sl_kernel_rfl) y

/-- What they leave in it: the stored pieces read back. -/
def sout4_C_1 (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : cond4_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S1x64 .f32 :=
  VS4_1.read (Elt F) (VS4_1.writes (Elt F) VS4_1.junk (run4_C c i arg1 harg1 arg2 harg2 arg3 harg3 arg4 harg4 arg5 harg5 arg6 harg6 arg7 harg7 arg8 harg8 arg9 harg9 arg10 harg10 hc0 hc1 x0 x1 x2 x3 x4 xs0 xs1).2.2.2.2.1)

/-! ## The buffers the pipeline hands the body at a point -/

abbrev ms4_0 (t : Fin cfg4.N) : Memref sig .tc .vmem S5000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S64x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S5000x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S64x64 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S5000x64 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x64 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x64 .f32 := win4_7.stage (cfg4.slots t 7)
abbrev hs4_7 (t : Fin cfg4.N) : (ms4_7 t).IsWhole := hstage4_7 ((cfg4.slots t 7).cast nbuf4_7)

/-! ## What the buffers hold after each node tile -/

/-- After the body at position `n`: the pre-activation tile's buffer, the mean row, the variance row (both meaningful at
    the last tile only; elsewhere a placeholder nothing reads), and the two accumulator rows — the row of column sums and
    the row of column sums of squares over the tiles `0 .. n`: at the first tile from zero, at every later one on top of
    what the tile before left. -/
def outsAt4 (c : Dev nD) : (n : ℕ) → n < cfg4.N → Vec F S5000x64 .f32 × Vec F S1x64 .f32 × Vec F S1x64 .f32 × Vec F S1x64 .f32 × Vec F S1x64 .f32
  | 0, hn => (out4_A_5 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩),
        VO4_6.read (Elt F) VO4_6.junk,
        VO4_7.read (Elt F) VO4_7.junk,
        sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩),
        sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩))
  | n + 1, hn =>
    if h1 : n + 1 = 9 then
      (out4_C_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => absurd ((hcond4_0 ⟨n + 1, hn⟩).mp h) (Nat.succ_ne_zero n)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2,
        out4_C_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => absurd ((hcond4_0 ⟨n + 1, hn⟩).mp h) (Nat.succ_ne_zero n)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2,
        out4_C_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => absurd ((hcond4_0 ⟨n + 1, hn⟩).mp h) (Nat.succ_ne_zero n)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2,
        sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => absurd ((hcond4_0 ⟨n + 1, hn⟩).mp h) (Nat.succ_ne_zero n)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2,
        sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => absurd ((hcond4_0 ⟨n + 1, hn⟩).mp h) (Nat.succ_ne_zero n)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2)
    else
      (out4_B_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => absurd ((hcond4_0 ⟨n + 1, hn⟩).mp h) (Nat.succ_ne_zero n)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2,
        VO4_6.read (Elt F) VO4_6.junk,
        VO4_7.read (Elt F) VO4_7.junk,
        sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => absurd ((hcond4_0 ⟨n + 1, hn⟩).mp h) (Nat.succ_ne_zero n)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2,
        sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => absurd ((hcond4_0 ⟨n + 1, hn⟩).mp h) (Nat.succ_ne_zero n)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2)

/-- The row of column sums after tile `n`, and the row of column sums of squares. -/
abbrev S4 (c : Dev nD) (n : ℕ) (hn : n < cfg4.N) : Vec F S1x64 .f32 := (outsAt4 V c n hn).2.2.2.1
abbrev Q4 (c : Dev nD) (n : ℕ) (hn : n < cfg4.N) : Vec F S1x64 .f32 := (outsAt4 V c n hn).2.2.2.2

theorem outsAt4_A (c : Dev nD) (t : Fin cfg4.N) (h0 : t.val = 0) :
    outsAt4 V c t.val t.isLt = (out4_A_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr h0) (fun h => (fun h => by omega) ((hcond4_1 t).mp h)) (iblk4 V c 0 t) (iblk4 V c 1 t) (iblk4 V c 2 t) (iblk4 V c 3 t) (iblk4 V c 4 t),
        VO4_6.read (Elt F) VO4_6.junk,
        VO4_7.read (Elt F) VO4_7.junk,
        sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr h0) (fun h => (fun h => by omega) ((hcond4_1 t).mp h)) (iblk4 V c 0 t) (iblk4 V c 1 t) (iblk4 V c 2 t) (iblk4 V c 3 t) (iblk4 V c 4 t),
        sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr h0) (fun h => (fun h => by omega) ((hcond4_1 t).mp h)) (iblk4 V c 0 t) (iblk4 V c 1 t) (iblk4 V c 2 t) (iblk4 V c 3 t) (iblk4 V c 4 t)) := by
  obtain ⟨n, hn⟩ := t
  cases n with
  | zero => exact rfl
  | succ n => exact absurd h0 (Nat.succ_ne_zero n)

theorem outsAt4_B (c : Dev nD) (t : Fin cfg4.N) (h0 : ¬t.val = 0) (h1 : ¬t.val = 9) :
    outsAt4 V c t.val t.isLt = (out4_B_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
        VO4_6.read (Elt F) VO4_6.junk,
        VO4_7.read (Elt F) VO4_7.junk,
        sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
        sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact absurd rfl h0
  | succ n => exact (dif_neg h1).trans rfl

theorem outsAt4_C (c : Dev nD) (t : Fin cfg4.N) (h0 : ¬t.val = 0) (h1 : t.val = 9) :
    outsAt4 V c t.val t.isLt = (out4_C_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
        out4_C_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
        out4_C_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
        sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
        sout4_C_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The invariant between node tiles -/

/-- Before position `n`: the two accumulator rows — at anything before the first tile, afterwards at the sums the tile
    before left —, the rest of the scoped memory untouched, the generator register at some state. -/
def Phi4 (c : Dev nD) : (n : ℕ) → n ≤ cfg4.N → sProp 𝕄
  | 0, _ => iprop((∃ d, owns (c : Thread nD τ) scM4_0 fullShare d) ∗ (∃ d, owns (c : Thread nD τ) scM4_1 fullShare d) ∗ restBut4 (F := F) c ∗ (∃ r, prngReg c r))
  | n + 1, hn => iprop(owns (c : Thread nD τ) scM4_0 fullShare (S4 V c n hn) ∗ owns (c : Thread nD τ) scM4_1 fullShare (Q4 V c n hn) ∗ restBut4 (F := F) c ∗ (∃ r, prngReg c r))

theorem Phi4_zero (c : Dev nD) (n : ℕ) (h : n ≤ cfg4.N) (hz : n = 0) :
    Phi4 V c n h = iprop((∃ d, owns (c : Thread nD τ) scM4_0 fullShare d) ∗ (∃ d, owns (c : Thread nD τ) scM4_1 fullShare d) ∗ restBut4 (F := F) c ∗ (∃ r, prngReg c r)) := by
  subst hz; rfl

theorem Phi4_succ (c : Dev nD) (n : ℕ) (hn : n < cfg4.N) :
    Phi4 V c (n + 1) hn = iprop(owns (c : Thread nD τ) scM4_0 fullShare (S4 V c n hn) ∗ owns (c : Thread nD τ) scM4_1 fullShare (Q4 V c n hn) ∗ restBut4 (F := F) c ∗ (∃ r, prngReg c r)) := rfl

theorem Phi4_pos (c : Dev nD) (n : ℕ) (h : n ≤ cfg4.N) (hz : n ≠ 0) :
    Phi4 V c n h = iprop(owns (c : Thread nD τ) scM4_0 fullShare (S4 V c (n - 1) (by omega)) ∗ owns (c : Thread nD τ) scM4_1 fullShare (Q4 V c (n - 1) (by omega)) ∗ restBut4 (F := F) c ∗ (∃ r, prngReg c r)) := by
  cases n with
  | zero => exact absurd rfl hz
  | succ n => rfl

/-! ## The proof data -/

/-- The pipeline's proof data on core `c`: the arrays as the region finds them; after the body at a point every input's
    buffer at its block, the outputs' at `outsAt4`'s components; between points the invariant `Phi4`; full shares,
    nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => (outsAt4 V c t.val t.isLt).1
    | ⟨6, _⟩ => (outsAt4 V c t.val t.isLt).2.1
    | ⟨7, _⟩ => (outsAt4 V c t.val t.isLt).2.2.1
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem Phi4_castSucc (c : Dev nD) (t : Fin cfg4.N) :
    (dat4 V c).Φ t.castSucc = Phi4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = (outsAt4 V c t.val t.isLt).1 := by dsimp only [dat4]
theorem after4_6 (c : Dev nD) (t : Fin cfg4.N) : (dat4 V c).after 6 t = (outsAt4 V c t.val t.isLt).2.1 := by dsimp only [dat4]
theorem after4_7 (c : Dev nD) (t : Fin cfg4.N) : (dat4 V c).after 7 t = (outsAt4 V c t.val t.isLt).2.2.1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t)

set_option maxHeartbeats 4800000 in
/-- The body at any point. The inputs' buffers hold their blocks; the point's position says which control case it is in;
    that case's run applies, handed the accumulator rows at what the invariant says they hold, and gives them back at this
    point's sums; the mean and variance rows are handed back untouched before the last tile. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = Phi4 V c (t.val + 1) t.isLt from rfl, Phi4_succ]
  unfold S4 Q4
  have hN : t.val < 10 := lt_of_lt_of_eq t.isLt (show cfg4.N = 10 from N_4)
  by_cases h0 : t.val = 0
  · have h1 : ¬t.val = 9 := by omega
    ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [show (dat4 V c).leavesExact 5 t = owns (c : Thread nD τ) (ms4_5 t) fullShare ((dat4 V c).after 5 t) from by
        unfold Dat.leavesExact; rw [liveAt4_5 t], after4_5]
      rw [Dat.leavesExact_idle (dat4 V c) 6 t (idleAt4_6 t (fun h => h1 ((hcond4_1 t).mp h))) (noFlush4_6 t (fun h => h1 ((hcond4_1 t).mp h)))]
      rw [Dat.leavesExact_idle (dat4 V c) 7 t (idleAt4_7 t (fun h => h1 ((hcond4_1 t).mp h))) (noFlush4_7 t (fun h => h1 ((hcond4_1 t).mp h)))]
      rw [outsAt4_A V c t h0]
      unfold out4_A_5 sout4_A_0 sout4_A_1; (try dsimp only)
      rw [Phi4_castSucc V c t, Phi4_zero V c _ _ h0]
      iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((run4_A c (grid4.coords t) _ _ _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t)).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%e8, HS0⟩, ⟨%e9, HS1⟩⟩
      isplitl [HS0 HS1 HR Hg]
      · isplitl [HS0]
        · unfold owns; iexists _; isplitr
          swap; · iexact HS0
          ipureintro; exact View.read_writes_of_cover _ _ _ _ _ (scover4_A_0 (F := F) c _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover4_A_1 (F := F) c _ _ _ _ _ _ _ _ _ _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover4_A_5 (F := F) c _ _ _ _ _ _ _ _ _ _ _ _ _ _ _ _ _ _ _ _ _ _ _ _ _ _ _ _)
      isplitl [H6]; · iexists _; iexact H6
      iexists _; iexact H7

  · by_cases h1 : t.val = 9
    ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [show (dat4 V c).leavesExact 5 t = owns (c : Thread nD τ) (ms4_5 t) fullShare ((dat4 V c).after 5 t) from by
        unfold Dat.leavesExact; rw [liveAt4_5 t], after4_5]
      rw [show (dat4 V c).leavesExact 6 t = owns (c : Thread nD τ) (ms4_6 t) fullShare ((dat4 V c).after 6 t) from by
        unfold Dat.leavesExact; rw [liveAt4_6 t ((hcond4_1 t).mpr h1)], after4_6]
      rw [show (dat4 V c).leavesExact 7 t = owns (c : Thread nD τ) (ms4_7 t) fullShare ((dat4 V c).after 7 t) from by
        unfold Dat.leavesExact; rw [liveAt4_7 t ((hcond4_1 t).mpr h1)], after4_7]
      rw [outsAt4_C V c t h0 h1]
      unfold out4_C_5 out4_C_6 out4_C_7 sout4_C_0 sout4_C_1; (try dsimp only)
      rw [Phi4_castSucc V c t, Phi4_pos V c _ _ h0]
      iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((run4_C c (grid4.coords t) _ _ _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%e8, HS0⟩, ⟨%e9, HS1⟩⟩
      isplitl [HS0 HS1 HR Hg]
      · isplitl [HS0]
        · unfold owns; iexists _; isplitr
          swap; · iexact HS0
          ipureintro; exact View.read_writes_of_cover _ _ _ _ _ (scover4_C_0 (F := F) c _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover4_C_1 (F := F) c _ _ _ _ _ _ _ _ _ _ _ _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover4_C_5 (F := F) c _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover4_C_6 (F := F) c _ _ _ _ _ _ _ _ _ _ _ _ _ _ _ _ _ _ _ _ _ _ _ _ _ _ _ _ _ _)
      unfold owns; iexists _; isplitr
      swap; · iexact H7
      ipureintro; exact View.read_writes_of_cover _ _ _ _ _ (cover4_C_7 (F := F) c _ _ _ _ _ _ _ _ _ _ _ _ _ _ _ _ _ _ _ _ _ _ _ _ _ _ _ _ _ _)

    ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [show (dat4 V c).leavesExact 5 t = owns (c : Thread nD τ) (ms4_5 t) fullShare ((dat4 V c).after 5 t) from by
        unfold Dat.leavesExact; rw [liveAt4_5 t], after4_5]
      rw [Dat.leavesExact_idle (dat4 V c) 6 t (idleAt4_6 t (fun h => h1 ((hcond4_1 t).mp h))) (noFlush4_6 t (fun h => h1 ((hcond4_1 t).mp h)))]
      rw [Dat.leavesExact_idle (dat4 V c) 7 t (idleAt4_7 t (fun h => h1 ((hcond4_1 t).mp h))) (noFlush4_7 t (fun h => h1 ((hcond4_1 t).mp h)))]
      rw [outsAt4_B V c t h0 h1]
      unfold out4_B_5 sout4_B_0 sout4_B_1; (try dsimp only)
      rw [Phi4_castSucc V c t, Phi4_pos V c _ _ h0]
      iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((run4_B c (grid4.coords t) _ _ _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) _ _).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%e8, HS0⟩, ⟨%e9, HS1⟩⟩
      isplitl [HS0 HS1 HR Hg]
      · isplitl [HS0]
        · unfold owns; iexists _; isplitr
          swap; · iexact HS0
          ipureintro; exact View.read_writes_of_cover _ _ _ _ _ (scover4_B_0 (F := F) c _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover4_B_1 (F := F) c _ _ _ _ _ _ _ _ _ _ _ _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover4_B_5 (F := F) c _ _ _ _ _ _ _ _ _ _ _ _ _ _ _ _ _ _ _ _ _ _ _ _ _ _ _ _ _ _)
      isplitl [H6]; · iexists _; iexact H6
      iexists _; iexact H7

theorem body_obligation4 (c : Dev nD) : BodyObligation (dat4 (F := F) V c) (defs₀ (F := F)) Variants.none () Set.univ := fun t => by
  rw [bigSep_W4, bigSep_W4]
  exact sound_body4 V c t

/-! ## Entering and leaving the region -/

/-- What the launch hands the region is the invariant before the first tile: the accumulator rows are two of the scoped
    buffers, at whatever they hold. -/
theorem hin4 (c : Dev nD) :
    (iprop((∃ r, prngReg c r) ∗ Pipeline.scopedRest (Ix := Unit) (Name := ℕ) (U := UR sig nD τ) (Lvl := ℕ) (Val := Elt F) spec4 c) : sProp 𝕄) ⊢ (dat4 V c).Φ 0 := by
  rw [show (dat4 V c).Φ 0 = Phi4 V c 0 (Nat.zero_le _) from rfl, Phi4_zero V c 0 _ rfl, scopedRest4_rows]
  iintro ⟨Hg, ⟨HS0, HS1⟩, HR⟩
  isplitl [HS0]; · iexact HS0
  isplitl [HS1]; · iexact HS1
  isplitl [HR]; · iexact HR
  iexact Hg

/-- After the last tile the invariant gives the scoped rest back: the sums in the accumulator rows are forgotten. -/
theorem hout4 (c : Dev nD) :
    (dat4 V c).Φ (Fin.last cfg4.N) ⊢ (iprop((∃ r, prngReg c r) ∗ Pipeline.scopedRest (Ix := Unit) (Name := ℕ) (U := UR sig nD τ) (Lvl := ℕ) (Val := Elt F) spec4 c) : sProp 𝕄) := by
  rw [show (dat4 V c).Φ (Fin.last cfg4.N) = Phi4 V c (Fin.last cfg4.N).val (Nat.le_of_lt_succ (Fin.last cfg4.N).isLt) from rfl,
    Phi4_pos V c _ _ (by rw [Fin.val_last]; have : cfg4.N = 10 := N_4; omega), scopedRest4_rows]
  iintro ⟨HS0, HS1, HR, Hg⟩
  isplitl [Hg]; · iexact Hg
  isplitl [HS0 HS1]
  · isplitl [HS0]; · iexists _; iexact HS0
    iexists _; iexact HS1
  iexact HR

end Cert.KernelIdeal.Hand

end
-- ==== Proof.KI.Norm5.lean ====
import proofs.«167925_j62517543961156_1_alg».proof.Proof.Gen.KernelIdeal.Launch
import proofs.«167925_j62517543961156_1_alg».proof.Proof.Gen.KernelIdeal.Skeleton
import proofs.«167925_j62517543961156_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 5: the normalisation of one node tile

Each grid point reads a tile of pre-activations (5000 rows, 64 features), the per-feature mean, variance,
scale and shift rows, and the tile of the previous layer's features, and writes the tile
`max(((pre − mean) · rsqrt(var + ε)) · γ + β, 0) + resid`.  No state is carried from one point to the
next: every input window is read whole, the one output window is written whole.  So, at an arbitrary
content `V` of the buffers on entry, the proof data say: after the body each input window holds its own
block and the output window holds the pointwise function of the input blocks.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the windows -/

/-- The block of window `w` at grid point `t`, cut out of the array the region finds on entry. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window that the body hands back unchanged holds its block at every point: where it was fetched
    this is what the fetch put there, and where it was not the block index has not moved since the last fetch. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- An input window that the body hands back unchanged holds its block at every point: where it was fetched
    this is what the fetch put there, and where it was not the block index has not moved since the last fetch. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- An input window that the body hands back unchanged holds its block at every point: where it was fetched
    this is what the fetch put there, and where it was not the block index has not moved since the last fetch. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- An input window that the body hands back unchanged holds its block at every point: where it was fetched
    this is what the fetch put there, and where it was not the block index has not moved since the last fetch. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- An input window that the body hands back unchanged holds its block at every point: where it was fetched
    this is what the fetch put there, and where it was not the block index has not moved since the last fetch. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- An input window that the body hands back unchanged holds its block at every point: where it was fetched
    this is what the fetch put there, and where it was not the block index has not moved since the last fetch. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## What the body reads and writes -/

/-- The whole tile, and the whole row: the only two rectangles the body touches. -/
abbrev r5_big : Rect S5000x64 := Rect.unit (s := S5000x64) ![0, 0] S5000x64.size inb_S5000x64_S5000x64_0_0
abbrev r5_row : Rect S1x64 := Rect.unit (s := S1x64) ![0, 0] S1x64.size inb_S1x64_S1x64_0_0

/-- The output tile as a function of the input blocks: the single store, whose value is the normalised tile
    computed from the loaded tile and rows. -/
def out5_6 (x0 : Vec F S5000x64 .f32) (x1 : Vec F S1x64 .f32) (x2 : Vec F S1x64 .f32) (x3 : Vec F S1x64 .f32) (x4 : Vec F S1x64 .f32) (x5 : Vec F S5000x64 .f32) : Vec F S5000x64 .f32 :=
  View.canon [⟨r5_big, k5_pay1 (View.ld x1 r5_row) (View.ld x2 r5_row) (View.ld x0 r5_big) (View.ld x3 r5_row) (View.ld x4 r5_row) (View.ld x5 r5_big)⟩]

/-- The one store writes the whole tile, so every index of the buffer lies in it. -/
theorem cover5_6 (p0 : Vec F S5000x64 .f32) (y : S5000x64.Idx) :
    ∃ pc ∈ ([⟨r5_big, p0⟩] : List (View.Piece (Elt F) S5000x64 .f32)), y ∈ pc.1.set :=
  View.cover_of_tiled [⟨r5_big, p0⟩] S5000x64.size (by rfl) y

/-! ## The body, run on whole staging buffers -/

set_option maxHeartbeats 1000000 in
/-- Started with the input buffers at contents `x` and the output buffer at anything, the body ends with the inputs
    as they were and the output at `out5_6 x`: it is a sequence of whole-buffer loads followed by one
    whole-buffer store. -/
theorem sound_kernel5 (c : Dev nD) (E : Set ℕ) (i : grid5.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S5000x64 .f32) (harg7 : arg7.IsWhole)
    (x0 : Vec F S5000x64 .f32) (x1 : Vec F S1x64 .f32) (x2 : Vec F S1x64 .f32) (x3 : Vec F S1x64 .f32) (x4 : Vec F S1x64 .f32) (x5 : Vec F S5000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out5_6 x0 x1 x2 x3 x4 x5)) -∗ K ⟨⟩))
      ⊢ wp frame (wpE (defs₀ (F := F)) Variants.none c none) E (cc5__norm_kernel_resid i arg1 harg1 arg2 harg2 arg3 harg3 arg4 harg4 arg5 harg5 arg6 harg6 arg7 harg7) K := by
  simp only [cc5__norm_kernel_resid_eq_skeleton]; unfold cc5__norm_kernel_resid_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-! ## The proof data of the pipeline -/

/-- The arrays are the ones found on entry; after the body at point `t` every input window holds its block and
    the output window the normalised tile of those blocks; the invariant is the one of a body that touches
    nothing but its windows; all shares are full and nothing is owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]

/-- What the body leaves in each window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

/-- What the body finds in each input window: its block. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation -/

/-- What the body is started with at point `t`, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it ends with. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- At any point the input buffers hold their blocks, so the triple of the body applies; the invariant and the
    debts are not looked at. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation5 (c : Dev nD) : BodyObligation (dat5 (F := F) V c) (defs₀ (F := F)) Variants.none () Set.univ := fun t => by
  rw [bigSep_W5, bigSep_W5]
  exact sound_body5 V c t

end Cert.KernelIdeal.Hand
-- ==== Proof.KI.Stats6Defs.lean ====
import proofs.«167925_j62517543961156_1_alg».proof.Proof.Gen.KernelIdeal.Launch
import proofs.«167925_j62517543961156_1_alg».proof.Proof.Gen.KernelIdeal.Skeleton
import proofs.«167925_j62517543961156_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Statistics kernel of region 6: what its three control cases share -/

/-- The block of window `w` at grid point `t`, read off the window's array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! An input window's current buffer holds its block at every point: where the point does not fetch it, the block
    index has not moved since the last fetch. -/

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The two conditions on the grid coordinate -/

/-- "This is the first node tile": the accumulators are reset. -/
abbrev cond6_0 (i : grid6.Coords) : Prop := (Scalar.cmpi .ne (Scalar.extui (Scalar.cmpi .eq (BitVec.ofNat 32 (i 0).val) 0#32)) 0#32) = 1#1
theorem hcond6_0 : ∀ t : Fin cfg6.N, cond6_0 (grid6.coords t) ↔ t.val = 0 :=
  (by decide +kernel : ∀ t : Fin grid6.N, cond6_0 (grid6.coords t) ↔ t.val = 0)

/-- "This is the last node tile": mean and variance are formed from the accumulated sums. -/
abbrev cond6_1 (i : grid6.Coords) : Prop := k6_cond2 i = 1#1
theorem hcond6_1 : ∀ t : Fin cfg6.N, cond6_1 (grid6.coords t) ↔ t.val = 9 :=
  (by decide +kernel : ∀ t : Fin grid6.N, cond6_1 (grid6.coords t) ↔ t.val = 9)

/-! ## Where the windows are live -/

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel
theorem liveAt6_4 : ∀ t : Fin cfg6.N, cfg6.idle 4 (grid6.coords t) = false := by decide +kernel
theorem liveAt6_5 : ∀ t : Fin cfg6.N, cfg6.idle 5 (grid6.coords t) = false := by decide +kernel
/-- Before the last tile nothing is stored into the mean and variance rows, and they are not written back. -/
theorem idleAt6_6 : ∀ t : Fin cfg6.N, ¬cond6_1 (grid6.coords t) → cfg6.idle 6 (grid6.coords t) = true := by decide +kernel
theorem noFlush6_6 : ∀ t : Fin cfg6.N, ¬cond6_1 (grid6.coords t) → (cfg6.win 6).flush t = false := by decide +kernel
theorem idleAt6_7 : ∀ t : Fin cfg6.N, ¬cond6_1 (grid6.coords t) → cfg6.idle 7 (grid6.coords t) = true := by decide +kernel
theorem noFlush6_7 : ∀ t : Fin cfg6.N, ¬cond6_1 (grid6.coords t) → (cfg6.win 7).flush t = false := by decide +kernel
/-- At the last tile both rows are stored. -/
theorem liveAt6_6 : ∀ t : Fin cfg6.N, cond6_1 (grid6.coords t) → cfg6.idle 6 (grid6.coords t) = false := by decide +kernel
theorem liveAt6_7 : ∀ t : Fin cfg6.N, cond6_1 (grid6.coords t) → cfg6.idle 7 (grid6.coords t) = false := by decide +kernel

/-! ## Views through which buffer contents are stated, and the two accumulator rows -/

abbrev VO6_5 : View sig .tc .vmem S5000x64 .f32 := (Memref.whole cc6_stg5_0 : Memref sig .tc .vmem S5000x64 .f32).view
abbrev VO6_6 : View sig .tc .vmem S1x64 .f32 := (Memref.whole cc6_stg6_0 : Memref sig .tc .vmem S1x64 .f32).view
abbrev VO6_7 : View sig .tc .vmem S1x64 .f32 := (Memref.whole cc6_stg7_0 : Memref sig .tc .vmem S1x64 .f32).view
/-- The row of column sums and the row of column sums of squares, carried from tile to tile. -/
abbrev scM6_0 : Memref sig .tc .vmem S1x64 .f32 := Memref.whole cc6_scratch0
abbrev scM6_1 : Memref sig .tc .vmem S1x64 .f32 := Memref.whole cc6_scratch1
abbrev VS6_0 : View sig .tc .vmem S1x64 .f32 := scM6_0.view
abbrev VS6_1 : View sig .tc .vmem S1x64 .f32 := scM6_1.view

/-- The part of the region's scoped memory that is neither a staging buffer nor one of the two accumulator rows. -/
abbrev restBut6 (c : Dev nD) : sProp 𝕄 :=
  Pipeline.scopedRestBut (Ix := Unit) (Name := ℕ) (U := UR sig nD τ) (Lvl := ℕ) (Val := Elt F) spec6 c [cc6_scratch0, cc6_scratch1]

/-- The scoped rest, with the two accumulator rows owned as whole memrefs at some contents. -/
theorem scopedRest6_rows (c : Dev nD) :
    (Pipeline.scopedRest (Ix := Unit) (Name := ℕ) (U := UR sig nD τ) (Lvl := ℕ) (Val := Elt F) spec6 c : sProp 𝕄)
      = iprop(iprop((∃ d, owns (c : Thread nD τ) scM6_0 fullShare d) ∗ (∃ d, owns (c : Thread nD τ) scM6_1 fullShare d)) ∗ restBut6 (F := F) c) := by
  rw [scopedRest6_split]; simp only [scM6_0, scM6_1, owns_whole]; try rfl

end Cert.KernelIdeal.Hand

end
-- ==== Proof.KI.Stats6RunA.lean ====
import proofs.«167925_j62517543961156_1_alg».proof.Proof.KI.Stats6Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the FIRST node tile. Both accumulator rows, found at anything, are zeroed and then receive the tile's
    column sums (of the pre-activations, and of their squares); the pre-activation tile is stored; the mean and variance
    rows are not touched and come back as found. The lists are what the stores leave, last store first. -/
noncomputable def run6_A (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond6_0 i) (hc1 : ¬cond6_1 i)
    (x0 : Vec F S5000x64 .f32) (x1 : Vec F S64x64 .f32) (x2 : Vec F S1x64 .f32) (x3 : Vec F S5000x64 .f32) (x4 : Vec F S64x64 .f32) :
    Σ' (L5 : List (View.Piece (Elt F) S5000x64 .f32)) (LS0 : List (View.Piece (Elt F) S1x64 .f32)), { LS1 : List (View.Piece (Elt F) S1x64 .f32) //
      ∀ (xi6 xi7 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc6__stats_kernel_right i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc6__stats_kernel_right_eq_skeleton]; unfold cc6__stats_kernel_right_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    iexists _; iexact H9

end Cert.KernelIdeal.Hand

end
-- ==== Proof.KI.Stats6RunB.lean ====
import proofs.«167925_j62517543961156_1_alg».proof.Proof.KI.Stats6RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a MIDDLE node tile. The accumulator rows, found at what the tile before left, receive this tile's column
    sums on top; the pre-activation tile is stored; the mean and variance rows are not touched and come back as found.
    The lists are what the stores leave, last store first. -/
noncomputable def run6_B (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond6_0 i) (hc1 : ¬cond6_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) :
    Σ' (L5 : List (View.Piece (Elt F) S5000x64 .f32)) (LS0 : List (View.Piece (Elt F) S1x64 .f32)), { LS1 : List (View.Piece (Elt F) S1x64 .f32) //
      ∀ (xi6 xi7 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc6__stats_kernel_right i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc6__stats_kernel_right_eq_skeleton]; unfold cc6__stats_kernel_right_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hf8; obtain rfl := harg10.eq_unread hf9
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    iexists _; iexact H9

end Cert.KernelIdeal.Hand

end
-- ==== Proof.KI.Stats6RunC.lean ====
import proofs.«167925_j62517543961156_1_alg».proof.Proof.KI.Stats6RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the LAST node tile. The accumulator rows receive this tile's column sums on top of what the tile before
    left; then the mean row is the sums divided by the node count, and the variance row the sums of squares divided by
    the node count minus the squared mean. The lists are what the stores leave, last store first. -/
noncomputable def run6_C (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond6_0 i) (hc1 : cond6_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) :
    Σ' (L5 : List (View.Piece (Elt F) S5000x64 .f32)) (L6 : List (View.Piece (Elt F) S1x64 .f32)) (L7 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc6__stats_kernel_right i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc6__stats_kernel_right_eq_skeleton]; unfold cc6__stats_kernel_right_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hf8; obtain rfl := harg10.eq_unread hf9
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    iexists _; iexact H9

end Cert.KernelIdeal.Hand

end
-- ==== Proof.KI.Stats6.lean ====
import proofs.«167925_j62517543961156_1_alg».proof.Proof.KI.Stats6RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Statistics kernel of region 6: what every buffer holds after each node tile, the proof data, the body obligation -/

/-- The stores of this case into this buffer cover it. -/
theorem cover6_A_5 (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond6_0 i) (hc1 : ¬cond6_1 i)
    (x0 : Vec F S5000x64 .f32) (x1 : Vec F S64x64 .f32) (x2 : Vec F S1x64 .f32) (x3 : Vec F S5000x64 .f32) (x4 : Vec F S64x64 .f32) (y : S5000x64.Idx) :
    ∃ pc ∈ (run6_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (run6_A c i arg1 harg1 arg2 harg2 arg3 harg3 arg4 harg4 arg5 harg5 arg6 harg6 arg7 harg7 arg8 harg8 arg9 harg9 arg10 harg10 hc0 hc1 x0 x1 x2 x3 x4).1 S5000x64.size (by sl_kernel_rfl) y

/-- What they leave in it: the stored pieces read back. -/
def out6_A_5 (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond6_0 i) (hc1 : ¬cond6_1 i)
    (x0 : Vec F S5000x64 .f32) (x1 : Vec F S64x64 .f32) (x2 : Vec F S1x64 .f32) (x3 : Vec F S5000x64 .f32) (x4 : Vec F S64x64 .f32) : Vec F S5000x64 .f32 :=
  VO6_5.read (Elt F) (VO6_5.writes (Elt F) VO6_5.junk (run6_A c i arg1 harg1 arg2 harg2 arg3 harg3 arg4 harg4 arg5 harg5 arg6 harg6 arg7 harg7 arg8 harg8 arg9 harg9 arg10 harg10 hc0 hc1 x0 x1 x2 x3 x4).1)

/-- The stores of this case into this buffer cover it. -/
theorem scover6_A_0 (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond6_0 i) (hc1 : ¬cond6_1 i)
    (x0 : Vec F S5000x64 .f32) (x1 : Vec F S64x64 .f32) (x2 : Vec F S1x64 .f32) (x3 : Vec F S5000x64 .f32) (x4 : Vec F S64x64 .f32) (y : S1x64.Idx) :
    ∃ pc ∈ (run6_A c i arg1 harg1 arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (run6_A c i arg1 harg1 arg2 harg2 arg3 harg3 arg4 harg4 arg5 harg5 arg6 harg6 arg7 harg7 arg8 harg8 arg9 harg9 arg10 harg10 hc0 hc1 x0 x1 x2 x3 x4).2.1 S1x64.size (by sl_kernel_rfl) y

/-- What they leave in it: the stored pieces read back. -/
def sout6_A_0 (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond6_0 i) (hc1 : ¬cond6_1 i)
    (x0 : Vec F S5000x64 .f32) (x1 : Vec F S64x64 .f32) (x2 : Vec F S1x64 .f32) (x3 : Vec F S5000x64 .f32) (x4 : Vec F S64x64 .f32) : Vec F S1x64 .f32 :=
  VS6_0.read (Elt F) (VS6_0.writes (Elt F) VS6_0.junk (run6_A c i arg1 harg1 arg2 harg2 arg3 harg3 arg4 harg4 arg5 harg5 arg6 harg6 arg7 harg7 arg8 harg8 arg9 harg9 arg10 harg10 hc0 hc1 x0 x1 x2 x3 x4).2.1)

/-- The stores of this case into this buffer cover it. -/
theorem scover6_A_1 (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond6_0 i) (hc1 : ¬cond6_1 i)
    (x0 : Vec F S5000x64 .f32) (x1 : Vec F S64x64 .f32) (x2 : Vec F S1x64 .f32) (x3 : Vec F S5000x64 .f32) (x4 : Vec F S64x64 .f32) (y : S1x64.Idx) :
    ∃ pc ∈ (run6_A c i arg1 harg1 arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (run6_A c i arg1 harg1 arg2 harg2 arg3 harg3 arg4 harg4 arg5 harg5 arg6 harg6 arg7 harg7 arg8 harg8 arg9 harg9 arg10 harg10 hc0 hc1 x0 x1 x2 x3 x4).2.2.1 S1x64.size (by sl_kernel_rfl) y

/-- What they leave in it: the stored pieces read back. -/
def sout6_A_1 (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond6_0 i) (hc1 : ¬cond6_1 i)
    (x0 : Vec F S5000x64 .f32) (x1 : Vec F S64x64 .f32) (x2 : Vec F S1x64 .f32) (x3 : Vec F S5000x64 .f32) (x4 : Vec F S64x64 .f32) : Vec F S1x64 .f32 :=
  VS6_1.read (Elt F) (VS6_1.writes (Elt F) VS6_1.junk (run6_A c i arg1 harg1 arg2 harg2 arg3 harg3 arg4 harg4 arg5 harg5 arg6 harg6 arg7 harg7 arg8 harg8 arg9 harg9 arg10 harg10 hc0 hc1 x0 x1 x2 x3 x4).2.2.1)

/-- The stores of this case into this buffer cover it. -/
theorem cover6_B_5 (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond6_0 i) (hc1 : ¬cond6_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S5000x64.Idx) :
    ∃ pc ∈ (run6_B c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (run6_B c i arg1 harg1 arg2 harg2 arg3 harg3 arg4 harg4 arg5 harg5 arg6 harg6 arg7 harg7 arg8 harg8 arg9 harg9 arg10 harg10 hc0 hc1 x0 x1 x2 x3 x4 xs0 xs1).1 S5000x64.size (by sl_kernel_rfl) y

/-- What they leave in it: the stored pieces read back. -/
def out6_B_5 (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond6_0 i) (hc1 : ¬cond6_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S5000x64 .f32 :=
  VO6_5.read (Elt F) (VO6_5.writes (Elt F) VO6_5.junk (run6_B c i arg1 harg1 arg2 harg2 arg3 harg3 arg4 harg4 arg5 harg5 arg6 harg6 arg7 harg7 arg8 harg8 arg9 harg9 arg10 harg10 hc0 hc1 x0 x1 x2 x3 x4 xs0 xs1).1)

/-- The stores of this case into this buffer cover it. -/
theorem scover6_B_0 (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond6_0 i) (hc1 : ¬cond6_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S1x64.Idx) :
    ∃ pc ∈ (run6_B c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (run6_B c i arg1 harg1 arg2 harg2 arg3 harg3 arg4 harg4 arg5 harg5 arg6 harg6 arg7 harg7 arg8 harg8 arg9 harg9 arg10 harg10 hc0 hc1 x0 x1 x2 x3 x4 xs0 xs1).2.1 S1x64.size (by sl_kernel_rfl) y

/-- What they leave in it: the stored pieces read back. -/
def sout6_B_0 (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond6_0 i) (hc1 : ¬cond6_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S1x64 .f32 :=
  VS6_0.read (Elt F) (VS6_0.writes (Elt F) VS6_0.junk (run6_B c i arg1 harg1 arg2 harg2 arg3 harg3 arg4 harg4 arg5 harg5 arg6 harg6 arg7 harg7 arg8 harg8 arg9 harg9 arg10 harg10 hc0 hc1 x0 x1 x2 x3 x4 xs0 xs1).2.1)

/-- The stores of this case into this buffer cover it. -/
theorem scover6_B_1 (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond6_0 i) (hc1 : ¬cond6_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S1x64.Idx) :
    ∃ pc ∈ (run6_B c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (run6_B c i arg1 harg1 arg2 harg2 arg3 harg3 arg4 harg4 arg5 harg5 arg6 harg6 arg7 harg7 arg8 harg8 arg9 harg9 arg10 harg10 hc0 hc1 x0 x1 x2 x3 x4 xs0 xs1).2.2.1 S1x64.size (by sl_kernel_rfl) y

/-- What they leave in it: the stored pieces read back. -/
def sout6_B_1 (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond6_0 i) (hc1 : ¬cond6_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S1x64 .f32 :=
  VS6_1.read (Elt F) (VS6_1.writes (Elt F) VS6_1.junk (run6_B c i arg1 harg1 arg2 harg2 arg3 harg3 arg4 harg4 arg5 harg5 arg6 harg6 arg7 harg7 arg8 harg8 arg9 harg9 arg10 harg10 hc0 hc1 x0 x1 x2 x3 x4 xs0 xs1).2.2.1)

/-- The stores of this case into this buffer cover it. -/
theorem cover6_C_5 (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond6_0 i) (hc1 : cond6_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S5000x64.Idx) :
    ∃ pc ∈ (run6_C c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (run6_C c i arg1 harg1 arg2 harg2 arg3 harg3 arg4 harg4 arg5 harg5 arg6 harg6 arg7 harg7 arg8 harg8 arg9 harg9 arg10 harg10 hc0 hc1 x0 x1 x2 x3 x4 xs0 xs1).1 S5000x64.size (by sl_kernel_rfl) y

/-- What they leave in it: the stored pieces read back. -/
def out6_C_5 (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond6_0 i) (hc1 : cond6_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S5000x64 .f32 :=
  VO6_5.read (Elt F) (VO6_5.writes (Elt F) VO6_5.junk (run6_C c i arg1 harg1 arg2 harg2 arg3 harg3 arg4 harg4 arg5 harg5 arg6 harg6 arg7 harg7 arg8 harg8 arg9 harg9 arg10 harg10 hc0 hc1 x0 x1 x2 x3 x4 xs0 xs1).1)

/-- The stores of this case into this buffer cover it. -/
theorem cover6_C_6 (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond6_0 i) (hc1 : cond6_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S1x64.Idx) :
    ∃ pc ∈ (run6_C c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (run6_C c i arg1 harg1 arg2 harg2 arg3 harg3 arg4 harg4 arg5 harg5 arg6 harg6 arg7 harg7 arg8 harg8 arg9 harg9 arg10 harg10 hc0 hc1 x0 x1 x2 x3 x4 xs0 xs1).2.1 S1x64.size (by sl_kernel_rfl) y

/-- What they leave in it: the stored pieces read back. -/
def out6_C_6 (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond6_0 i) (hc1 : cond6_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S1x64 .f32 :=
  VO6_6.read (Elt F) (VO6_6.writes (Elt F) VO6_6.junk (run6_C c i arg1 harg1 arg2 harg2 arg3 harg3 arg4 harg4 arg5 harg5 arg6 harg6 arg7 harg7 arg8 harg8 arg9 harg9 arg10 harg10 hc0 hc1 x0 x1 x2 x3 x4 xs0 xs1).2.1)

/-- The stores of this case into this buffer cover it. -/
theorem cover6_C_7 (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond6_0 i) (hc1 : cond6_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S1x64.Idx) :
    ∃ pc ∈ (run6_C c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (run6_C c i arg1 harg1 arg2 harg2 arg3 harg3 arg4 harg4 arg5 harg5 arg6 harg6 arg7 harg7 arg8 harg8 arg9 harg9 arg10 harg10 hc0 hc1 x0 x1 x2 x3 x4 xs0 xs1).2.2.1 S1x64.size (by sl_kernel_rfl) y

/-- What they leave in it: the stored pieces read back. -/
def out6_C_7 (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond6_0 i) (hc1 : cond6_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S1x64 .f32 :=
  VO6_7.read (Elt F) (VO6_7.writes (Elt F) VO6_7.junk (run6_C c i arg1 harg1 arg2 harg2 arg3 harg3 arg4 harg4 arg5 harg5 arg6 harg6 arg7 harg7 arg8 harg8 arg9 harg9 arg10 harg10 hc0 hc1 x0 x1 x2 x3 x4 xs0 xs1).2.2.1)

/-- The stores of this case into this buffer cover it. -/
theorem scover6_C_0 (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond6_0 i) (hc1 : cond6_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S1x64.Idx) :
    ∃ pc ∈ (run6_C c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (run6_C c i arg1 harg1 arg2 harg2 arg3 harg3 arg4 harg4 arg5 harg5 arg6 harg6 arg7 harg7 arg8 harg8 arg9 harg9 arg10 harg10 hc0 hc1 x0 x1 x2 x3 x4 xs0 xs1).2.2.2.1 S1x64.size (by sl_kernel_rfl) y

/-- What they leave in it: the stored pieces read back. -/
def sout6_C_0 (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond6_0 i) (hc1 : cond6_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S1x64 .f32 :=
  VS6_0.read (Elt F) (VS6_0.writes (Elt F) VS6_0.junk (run6_C c i arg1 harg1 arg2 harg2 arg3 harg3 arg4 harg4 arg5 harg5 arg6 harg6 arg7 harg7 arg8 harg8 arg9 harg9 arg10 harg10 hc0 hc1 x0 x1 x2 x3 x4 xs0 xs1).2.2.2.1)

/-- The stores of this case into this buffer cover it. -/
theorem scover6_C_1 (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond6_0 i) (hc1 : cond6_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) (y : S1x64.Idx) :
    ∃ pc ∈ (run6_C c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (run6_C c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x64.size (by sl_kernel_rfl) y

/-- What they leave in it: the stored pieces read back. -/
def sout6_C_1 (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond6_0 i) (hc1 : cond6_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) : Vec F S1x64 .f32 :=
  VS6_1.read (Elt F) (VS6_1.writes (Elt F) VS6_1.junk (run6_C c i arg1 harg1 arg2 harg2 arg3 harg3 arg4 harg4 arg5 harg5 arg6 harg6 arg7 harg7 arg8 harg8 arg9 harg9 arg10 harg10 hc0 hc1 x0 x1 x2 x3 x4 xs0 xs1).2.2.2.2.1)

/-! ## The buffers the pipeline hands the body at a point -/

abbrev ms6_0 (t : Fin cfg6.N) : Memref sig .tc .vmem S5000x64 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S64x64 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x64 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S5000x64 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S64x64 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S5000x64 .f32 := win6_5.stage (cfg6.slots t 5)
abbrev hs6_5 (t : Fin cfg6.N) : (ms6_5 t).IsWhole := hstage6_5 ((cfg6.slots t 5).cast nbuf6_5)
abbrev ms6_6 (t : Fin cfg6.N) : Memref sig .tc .vmem S1x64 .f32 := win6_6.stage (cfg6.slots t 6)
abbrev hs6_6 (t : Fin cfg6.N) : (ms6_6 t).IsWhole := hstage6_6 ((cfg6.slots t 6).cast nbuf6_6)
abbrev ms6_7 (t : Fin cfg6.N) : Memref sig .tc .vmem S1x64 .f32 := win6_7.stage (cfg6.slots t 7)
abbrev hs6_7 (t : Fin cfg6.N) : (ms6_7 t).IsWhole := hstage6_7 ((cfg6.slots t 7).cast nbuf6_7)

/-! ## What the buffers hold after each node tile -/

/-- After the body at position `n`: the pre-activation tile's buffer, the mean row, the variance row (both meaningful at
    the last tile only; elsewhere a placeholder nothing reads), and the two accumulator rows — the row of column sums and
    the row of column sums of squares over the tiles `0 .. n`: at the first tile from zero, at every later one on top of
    what the tile before left. -/
def outsAt6 (c : Dev nD) : (n : ℕ) → n < cfg6.N → Vec F S5000x64 .f32 × Vec F S1x64 .f32 × Vec F S1x64 .f32 × Vec F S1x64 .f32 × Vec F S1x64 .f32
  | 0, hn => (out6_A_5 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) scM6_0 (Memref.isWhole_whole _) scM6_1 (Memref.isWhole_whole _) ((hcond6_0 ⟨0, hn⟩).mpr rfl) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩),
        VO6_6.read (Elt F) VO6_6.junk,
        VO6_7.read (Elt F) VO6_7.junk,
        sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) scM6_0 (Memref.isWhole_whole _) scM6_1 (Memref.isWhole_whole _) ((hcond6_0 ⟨0, hn⟩).mpr rfl) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩),
        sout6_A_1 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) scM6_0 (Memref.isWhole_whole _) scM6_1 (Memref.isWhole_whole _) ((hcond6_0 ⟨0, hn⟩).mpr rfl) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩))
  | n + 1, hn =>
    if h1 : n + 1 = 9 then
      (out6_C_5 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) scM6_0 (Memref.isWhole_whole _) scM6_1 (Memref.isWhole_whole _) (fun h => absurd ((hcond6_0 ⟨n + 1, hn⟩).mp h) (Nat.succ_ne_zero n)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.2.2.1 (outsAt6 c n (Nat.lt_of_succ_lt hn)).2.2.2.2,
        out6_C_6 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) scM6_0 (Memref.isWhole_whole _) scM6_1 (Memref.isWhole_whole _) (fun h => absurd ((hcond6_0 ⟨n + 1, hn⟩).mp h) (Nat.succ_ne_zero n)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.2.2.1 (outsAt6 c n (Nat.lt_of_succ_lt hn)).2.2.2.2,
        out6_C_7 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) scM6_0 (Memref.isWhole_whole _) scM6_1 (Memref.isWhole_whole _) (fun h => absurd ((hcond6_0 ⟨n + 1, hn⟩).mp h) (Nat.succ_ne_zero n)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.2.2.1 (outsAt6 c n (Nat.lt_of_succ_lt hn)).2.2.2.2,
        sout6_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) scM6_0 (Memref.isWhole_whole _) scM6_1 (Memref.isWhole_whole _) (fun h => absurd ((hcond6_0 ⟨n + 1, hn⟩).mp h) (Nat.succ_ne_zero n)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.2.2.1 (outsAt6 c n (Nat.lt_of_succ_lt hn)).2.2.2.2,
        sout6_C_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) scM6_0 (Memref.isWhole_whole _) scM6_1 (Memref.isWhole_whole _) (fun h => absurd ((hcond6_0 ⟨n + 1, hn⟩).mp h) (Nat.succ_ne_zero n)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.2.2.1 (outsAt6 c n (Nat.lt_of_succ_lt hn)).2.2.2.2)
    else
      (out6_B_5 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) scM6_0 (Memref.isWhole_whole _) scM6_1 (Memref.isWhole_whole _) (fun h => absurd ((hcond6_0 ⟨n + 1, hn⟩).mp h) (Nat.succ_ne_zero n)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.2.2.1 (outsAt6 c n (Nat.lt_of_succ_lt hn)).2.2.2.2,
        VO6_6.read (Elt F) VO6_6.junk,
        VO6_7.read (Elt F) VO6_7.junk,
        sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) scM6_0 (Memref.isWhole_whole _) scM6_1 (Memref.isWhole_whole _) (fun h => absurd ((hcond6_0 ⟨n + 1, hn⟩).mp h) (Nat.succ_ne_zero n)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.2.2.1 (outsAt6 c n (Nat.lt_of_succ_lt hn)).2.2.2.2,
        sout6_B_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) scM6_0 (Memref.isWhole_whole _) scM6_1 (Memref.isWhole_whole _) (fun h => absurd ((hcond6_0 ⟨n + 1, hn⟩).mp h) (Nat.succ_ne_zero n)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.2.2.1 (outsAt6 c n (Nat.lt_of_succ_lt hn)).2.2.2.2)

/-- The row of column sums after tile `n`, and the row of column sums of squares. -/
abbrev S6 (c : Dev nD) (n : ℕ) (hn : n < cfg6.N) : Vec F S1x64 .f32 := (outsAt6 V c n hn).2.2.2.1
abbrev Q6 (c : Dev nD) (n : ℕ) (hn : n < cfg6.N) : Vec F S1x64 .f32 := (outsAt6 V c n hn).2.2.2.2

theorem outsAt6_A (c : Dev nD) (t : Fin cfg6.N) (h0 : t.val = 0) :
    outsAt6 V c t.val t.isLt = (out6_A_5 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) ((hcond6_0 t).mpr h0) (fun h => (fun h => by omega) ((hcond6_1 t).mp h)) (iblk6 V c 0 t) (iblk6 V c 1 t) (iblk6 V c 2 t) (iblk6 V c 3 t) (iblk6 V c 4 t),
        VO6_6.read (Elt F) VO6_6.junk,
        VO6_7.read (Elt F) VO6_7.junk,
        sout6_A_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) ((hcond6_0 t).mpr h0) (fun h => (fun h => by omega) ((hcond6_1 t).mp h)) (iblk6 V c 0 t) (iblk6 V c 1 t) (iblk6 V c 2 t) (iblk6 V c 3 t) (iblk6 V c 4 t),
        sout6_A_1 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) ((hcond6_0 t).mpr h0) (fun h => (fun h => by omega) ((hcond6_1 t).mp h)) (iblk6 V c 0 t) (iblk6 V c 1 t) (iblk6 V c 2 t) (iblk6 V c 3 t) (iblk6 V c 4 t)) := by
  obtain ⟨n, hn⟩ := t
  cases n with
  | zero => exact rfl
  | succ n => exact absurd h0 (Nat.succ_ne_zero n)

theorem outsAt6_B (c : Dev nD) (t : Fin cfg6.N) (h0 : ¬t.val = 0) (h1 : ¬t.val = 9) :
    outsAt6 V c t.val t.isLt = (out6_B_5 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
        VO6_6.read (Elt F) VO6_6.junk,
        VO6_7.read (Elt F) VO6_7.junk,
        sout6_B_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
        sout6_B_1 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2.2.2.1 (outsAt6 V c (t.val - 1) (Nat.lt_of_le_of_lt (Nat.sub_le _ _) t.isLt)).2.2.2.2) := by
  obtain ⟨n, hn⟩ := t
  cases n with
  | zero => exact absurd rfl h0
  | succ n => exact (dif_neg h1).trans rfl

theorem outsAt6_C (c : Dev nD) (t : Fin cfg6.N) (h0 : ¬t.val = 0) (h1 : t.val = 9) :
    outsAt6 V c t.val t.isLt = (out6_C_5 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
        out6_C_6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
        out6_C_7 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
        sout6_C_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
        sout6_C_1 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (outsAt6 V c (t.val - 1) (Nat.lt_of_le_of_lt (Nat.sub_le _ _) t.isLt)).2.2.2.1 (outsAt6 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The invariant between node tiles -/

/-- Before position `n`: the two accumulator rows — at anything before the first tile, afterwards at the sums the tile
    before left —, the rest of the scoped memory untouched, the generator register at some state. -/
def Phi6 (c : Dev nD) : (n : ℕ) → n ≤ cfg6.N → sProp 𝕄
  | 0, _ => iprop((∃ d, owns (c : Thread nD τ) scM6_0 fullShare d) ∗ (∃ d, owns (c : Thread nD τ) scM6_1 fullShare d) ∗ restBut6 (F := F) c ∗ (∃ r, prngReg c r))
  | n + 1, hn => iprop(owns (c : Thread nD τ) scM6_0 fullShare (S6 V c n hn) ∗ owns (c : Thread nD τ) scM6_1 fullShare (Q6 V c n hn) ∗ restBut6 (F := F) c ∗ (∃ r, prngReg c r))

theorem Phi6_zero (c : Dev nD) (n : ℕ) (h : n ≤ cfg6.N) (hz : n = 0) :
    Phi6 V c n h = iprop((∃ d, owns (c : Thread nD τ) scM6_0 fullShare d) ∗ (∃ d, owns (c : Thread nD τ) scM6_1 fullShare d) ∗ restBut6 (F := F) c ∗ (∃ r, prngReg c r)) := by
  subst hz; rfl

theorem Phi6_succ (c : Dev nD) (n : ℕ) (hn : n < cfg6.N) :
    Phi6 V c (n + 1) hn = iprop(owns (c : Thread nD τ) scM6_0 fullShare (S6 V c n hn) ∗ owns (c : Thread nD τ) scM6_1 fullShare (Q6 V c n hn) ∗ restBut6 (F := F) c ∗ (∃ r, prngReg c r)) := rfl

theorem Phi6_pos (c : Dev nD) (n : ℕ) (h : n ≤ cfg6.N) (hz : n ≠ 0) :
    Phi6 V c n h = iprop(owns (c : Thread nD τ) scM6_0 fullShare (S6 V c (n - 1) (by omega)) ∗ owns (c : Thread nD τ) scM6_1 fullShare (Q6 V c (n - 1) (by omega)) ∗ restBut6 (F := F) c ∗ (∃ r, prngReg c r)) := by
  cases n with
  | zero => exact absurd rfl hz
  | succ n => rfl

/-! ## The proof data -/

/-- The pipeline's proof data on core `c`: the arrays as the region finds them; after the body at a point every input's
    buffer at its block, the outputs' at `outsAt6`'s components; between points the invariant `Phi6`; full shares,
    nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => (outsAt6 V c t.val t.isLt).1
    | ⟨6, _⟩ => (outsAt6 V c t.val t.isLt).2.1
    | ⟨7, _⟩ => (outsAt6 V c t.val t.isLt).2.2.1
  Φ t := Phi6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem Phi6_castSucc (c : Dev nD) (t : Fin cfg6.N) :
    (dat6 V c).Φ t.castSucc = Phi6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = (outsAt6 V c t.val t.isLt).1 := by dsimp only [dat6]
theorem after6_6 (c : Dev nD) (t : Fin cfg6.N) : (dat6 V c).after 6 t = (outsAt6 V c t.val t.isLt).2.1 := by dsimp only [dat6]
theorem after6_7 (c : Dev nD) (t : Fin cfg6.N) : (dat6 V c).after 7 t = (outsAt6 V c t.val t.isLt).2.2.1 := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation -/

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d))
    ∗ (∃ d, owns (c : Thread nD τ) (ms6_7 t) fullShare ((dat6 V c).before 7 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t
    ∗ (dat6 V c).leavesExact 7 t)

set_option maxHeartbeats 4800000 in
/-- The body at any point. The inputs' buffers hold their blocks; the point's position says which control case it is in;
    that case's run applies, handed the accumulator rows at what the invariant says they hold, and gives them back at this
    point's sums; the mean and variance rows are handed back untouched before the last tile. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).owesAt () t.succ = (dat6 V c).owesAt () t.castSucc from rfl]
  rw [show (dat6 V c).Φ t.succ = Phi6 V c (t.val + 1) t.isLt from rfl, Phi6_succ]
  unfold S6 Q6
  have hN : t.val < 10 := lt_of_lt_of_eq t.isLt (show cfg6.N = 10 from N_6)
  by_cases h0 : t.val = 0
  · have h1 : ¬t.val = 9 := by omega
    ·
      rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [show (dat6 V c).leavesExact 3 t = owns (c : Thread nD τ) (ms6_3 t) fullShare ((dat6 V c).after 3 t) from by
        unfold Dat.leavesExact; rw [liveAt6_3 t], after6_3]
      rw [show (dat6 V c).leavesExact 4 t = owns (c : Thread nD τ) (ms6_4 t) fullShare ((dat6 V c).after 4 t) from by
        unfold Dat.leavesExact; rw [liveAt6_4 t], after6_4]
      rw [show (dat6 V c).leavesExact 5 t = owns (c : Thread nD τ) (ms6_5 t) fullShare ((dat6 V c).after 5 t) from by
        unfold Dat.leavesExact; rw [liveAt6_5 t], after6_5]
      rw [Dat.leavesExact_idle (dat6 V c) 6 t (idleAt6_6 t (fun h => h1 ((hcond6_1 t).mp h))) (noFlush6_6 t (fun h => h1 ((hcond6_1 t).mp h)))]
      rw [Dat.leavesExact_idle (dat6 V c) 7 t (idleAt6_7 t (fun h => h1 ((hcond6_1 t).mp h))) (noFlush6_7 t (fun h => h1 ((hcond6_1 t).mp h)))]
      rw [outsAt6_A V c t h0]
      unfold out6_A_5 sout6_A_0 sout6_A_1; (try dsimp only)
      rw [Phi6_castSucc V c t, Phi6_zero V c _ _ h0]
      iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((run6_A c (grid6.coords t) _ _ _ _ _ _ _ _ _ _ _ _ _ _ _ _ _ _ _ _ ((hcond6_0 t).mpr h0) (fun h => h1 ((hcond6_1 t).mp h)) (iblk6 V c 0 t) (iblk6 V c 1 t) (iblk6 V c 2 t) (iblk6 V c 3 t) (iblk6 V c 4 t)).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%e8, HS0⟩, ⟨%e9, HS1⟩⟩
      isplitl [HS0 HS1 HR Hg]
      · isplitl [HS0]
        · unfold owns; iexists _; isplitr
          swap; · iexact HS0
          ipureintro; exact View.read_writes_of_cover _ _ _ _ _ (scover6_A_0 (F := F) c _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover6_A_1 (F := F) c _ _ _ _ _ _ _ _ _ _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover6_A_5 (F := F) c _ _ _ _ _ _ _ _ _ _ _ _ _ _ _ _ _ _ _ _ _ _ _ _ _ _ _ _)
      isplitl [H6]; · iexists _; iexact H6
      iexists _; iexact H7

  · by_cases h1 : t.val = 9
    ·
      rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [show (dat6 V c).leavesExact 3 t = owns (c : Thread nD τ) (ms6_3 t) fullShare ((dat6 V c).after 3 t) from by
        unfold Dat.leavesExact; rw [liveAt6_3 t], after6_3]
      rw [show (dat6 V c).leavesExact 4 t = owns (c : Thread nD τ) (ms6_4 t) fullShare ((dat6 V c).after 4 t) from by
        unfold Dat.leavesExact; rw [liveAt6_4 t], after6_4]
      rw [show (dat6 V c).leavesExact 5 t = owns (c : Thread nD τ) (ms6_5 t) fullShare ((dat6 V c).after 5 t) from by
        unfold Dat.leavesExact; rw [liveAt6_5 t], after6_5]
      rw [show (dat6 V c).leavesExact 6 t = owns (c : Thread nD τ) (ms6_6 t) fullShare ((dat6 V c).after 6 t) from by
        unfold Dat.leavesExact; rw [liveAt6_6 t ((hcond6_1 t).mpr h1)], after6_6]
      rw [show (dat6 V c).leavesExact 7 t = owns (c : Thread nD τ) (ms6_7 t) fullShare ((dat6 V c).after 7 t) from by
        unfold Dat.leavesExact; rw [liveAt6_7 t ((hcond6_1 t).mpr h1)], after6_7]
      rw [outsAt6_C V c t h0 h1]
      unfold out6_C_5 out6_C_6 out6_C_7 sout6_C_0 sout6_C_1; (try dsimp only)
      rw [Phi6_castSucc V c t, Phi6_pos V c _ _ h0]
      iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((run6_C c (grid6.coords t) _ _ _ _ _ _ _ _ _ _ _ _ _ _ _ _ _ _ _ _ (fun h => h0 ((hcond6_0 t).mp h)) ((hcond6_1 t).mpr h1) (iblk6 V c 0 t) (iblk6 V c 1 t) (iblk6 V c 2 t) (iblk6 V c 3 t) (iblk6 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%e8, HS0⟩, ⟨%e9, HS1⟩⟩
      isplitl [HS0 HS1 HR Hg]
      · isplitl [HS0]
        · unfold owns; iexists _; isplitr
          swap; · iexact HS0
          ipureintro; exact View.read_writes_of_cover _ _ _ _ _ (scover6_C_0 (F := F) c _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover6_C_1 (F := F) c _ _ _ _ _ _ _ _ _ _ _ _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover6_C_5 (F := F) c _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover6_C_6 (F := F) c _ _ _ _ _ _ _ _ _ _ _ _ _ _ _ _ _ _ _ _ _ _ _ _ _ _ _ _ _ _)
      unfold owns; iexists _; isplitr
      swap; · iexact H7
      ipureintro; exact View.read_writes_of_cover _ _ _ _ _ (cover6_C_7 (F := F) c _ _ _ _ _ _ _ _ _ _ _ _ _ _ _ _ _ _ _ _ _ _ _ _ _ _ _ _ _ _)

    ·
      rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [show (dat6 V c).leavesExact 3 t = owns (c : Thread nD τ) (ms6_3 t) fullShare ((dat6 V c).after 3 t) from by
        unfold Dat.leavesExact; rw [liveAt6_3 t], after6_3]
      rw [show (dat6 V c).leavesExact 4 t = owns (c : Thread nD τ) (ms6_4 t) fullShare ((dat6 V c).after 4 t) from by
        unfold Dat.leavesExact; rw [liveAt6_4 t], after6_4]
      rw [show (dat6 V c).leavesExact 5 t = owns (c : Thread nD τ) (ms6_5 t) fullShare ((dat6 V c).after 5 t) from by
        unfold Dat.leavesExact; rw [liveAt6_5 t], after6_5]
      rw [Dat.leavesExact_idle (dat6 V c) 6 t (idleAt6_6 t (fun h => h1 ((hcond6_1 t).mp h))) (noFlush6_6 t (fun h => h1 ((hcond6_1 t).mp h)))]
      rw [Dat.leavesExact_idle (dat6 V c) 7 t (idleAt6_7 t (fun h => h1 ((hcond6_1 t).mp h))) (noFlush6_7 t (fun h => h1 ((hcond6_1 t).mp h)))]
      rw [outsAt6_B V c t h0 h1]
      unfold out6_B_5 sout6_B_0 sout6_B_1; (try dsimp only)
      rw [Phi6_castSucc V c t, Phi6_pos V c _ _ h0]
      iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((run6_B c (grid6.coords t) _ _ _ _ _ _ _ _ _ _ _ _ _ _ _ _ _ _ _ _ (fun h => h0 ((hcond6_0 t).mp h)) (fun h => h1 ((hcond6_1 t).mp h)) (iblk6 V c 0 t) (iblk6 V c 1 t) (iblk6 V c 2 t) (iblk6 V c 3 t) (iblk6 V c 4 t) _ _).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%e8, HS0⟩, ⟨%e9, HS1⟩⟩
      isplitl [HS0 HS1 HR Hg]
      · isplitl [HS0]
        · unfold owns; iexists _; isplitr
          swap; · iexact HS0
          ipureintro; exact View.read_writes_of_cover _ _ _ _ _ (scover6_B_0 (F := F) c _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover6_B_1 (F := F) c _ _ _ _ _ _ _ _ _ _ _ _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover6_B_5 (F := F) c _ _ _ _ _ _ _ _ _ _ _ _ _ _ _ _ _ _ _ _ _ _ _ _ _ _ _ _ _ _)
      isplitl [H6]; · iexists _; iexact H6
      iexists _; iexact H7

theorem body_obligation6 (c : Dev nD) : BodyObligation (dat6 (F := F) V c) (defs₀ (F := F)) Variants.none () Set.univ := fun t => by
  rw [bigSep_W6, bigSep_W6]
  exact sound_body6 V c t

/-! ## Entering and leaving the region -/

/-- What the launch hands the region is the invariant before the first tile: the accumulator rows are two of the scoped
    buffers, at whatever they hold. -/
theorem hin6 (c : Dev nD) :
    (iprop((∃ r, prngReg c r) ∗ Pipeline.scopedRest (Ix := Unit) (Name := ℕ) (U := UR sig nD τ) (Lvl := ℕ) (Val := Elt F) spec6 c) : sProp 𝕄) ⊢ (dat6 V c).Φ 0 := by
  rw [show (dat6 V c).Φ 0 = Phi6 V c 0 (Nat.zero_le _) from rfl, Phi6_zero V c 0 _ rfl, scopedRest6_rows]
  iintro ⟨Hg, ⟨HS0, HS1⟩, HR⟩
  isplitl [HS0]; · iexact HS0
  isplitl [HS1]; · iexact HS1
  isplitl [HR]; · iexact HR
  iexact Hg

/-- After the last tile the invariant gives the scoped rest back: the sums in the accumulator rows are forgotten. -/
theorem hout6 (c : Dev nD) :
    (dat6 V c).Φ (Fin.last cfg6.N) ⊢ (iprop((∃ r, prngReg c r) ∗ Pipeline.scopedRest (Ix := Unit) (Name := ℕ) (U := UR sig nD τ) (Lvl := ℕ) (Val := Elt F) spec6 c) : sProp 𝕄) := by
  rw [show (dat6 V c).Φ (Fin.last cfg6.N) = Phi6 V c (Fin.last cfg6.N).val (Nat.le_of_lt_succ (Fin.last cfg6.N).isLt) from rfl,
    Phi6_pos V c _ _ (by rw [Fin.val_last]; have : cfg6.N = 10 := N_6; omega), scopedRest6_rows]
  iintro ⟨HS0, HS1, HR, Hg⟩
  isplitl [Hg]; · iexact Hg
  isplitl [HS0 HS1]
  · isplitl [HS0]; · iexists _; iexact HS0
    iexists _; iexact HS1
  iexact HR

end Cert.KernelIdeal.Hand

end
-- ==== Proof.KI.Norm7.lean ====
import proofs.«167925_j62517543961156_1_alg».proof.Proof.Gen.KernelIdeal.Launch
import proofs.«167925_j62517543961156_1_alg».proof.Proof.Gen.KernelIdeal.Skeleton
import proofs.«167925_j62517543961156_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 7: the normalisation of one node tile

Each grid point reads a tile of pre-activations (5000 rows, 64 features), the per-feature mean, variance,
scale and shift rows, and the tile of the previous layer's features, and writes the tile
`max(((pre − mean) · rsqrt(var + ε)) · γ + β, 0) + resid`.  No state is carried from one point to the
next: every input window is read whole, the one output window is written whole.  So, at an arbitrary
content `V` of the buffers on entry, the proof data say: after the body each input window holds its own
block and the output window holds the pointwise function of the input blocks.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the windows -/

/-- The block of window `w` at grid point `t`, cut out of the array the region finds on entry. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window that the body hands back unchanged holds its block at every point: where it was fetched
    this is what the fetch put there, and where it was not the block index has not moved since the last fetch. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- An input window that the body hands back unchanged holds its block at every point: where it was fetched
    this is what the fetch put there, and where it was not the block index has not moved since the last fetch. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- An input window that the body hands back unchanged holds its block at every point: where it was fetched
    this is what the fetch put there, and where it was not the block index has not moved since the last fetch. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- An input window that the body hands back unchanged holds its block at every point: where it was fetched
    this is what the fetch put there, and where it was not the block index has not moved since the last fetch. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- An input window that the body hands back unchanged holds its block at every point: where it was fetched
    this is what the fetch put there, and where it was not the block index has not moved since the last fetch. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- An input window that the body hands back unchanged holds its block at every point: where it was fetched
    this is what the fetch put there, and where it was not the block index has not moved since the last fetch. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-! ## What the body reads and writes -/

/-- The whole tile, and the whole row: the only two rectangles the body touches. -/
abbrev r7_big : Rect S5000x64 := Rect.unit (s := S5000x64) ![0, 0] S5000x64.size inb_S5000x64_S5000x64_0_0
abbrev r7_row : Rect S1x64 := Rect.unit (s := S1x64) ![0, 0] S1x64.size inb_S1x64_S1x64_0_0

/-- The output tile as a function of the input blocks: the single store, whose value is the normalised tile
    computed from the loaded tile and rows. -/
def out7_6 (x0 : Vec F S5000x64 .f32) (x1 : Vec F S1x64 .f32) (x2 : Vec F S1x64 .f32) (x3 : Vec F S1x64 .f32) (x4 : Vec F S1x64 .f32) (x5 : Vec F S5000x64 .f32) : Vec F S5000x64 .f32 :=
  View.canon [⟨r7_big, k7_pay1 (View.ld x1 r7_row) (View.ld x2 r7_row) (View.ld x0 r7_big) (View.ld x3 r7_row) (View.ld x4 r7_row) (View.ld x5 r7_big)⟩]

/-- The one store writes the whole tile, so every index of the buffer lies in it. -/
theorem cover7_6 (p0 : Vec F S5000x64 .f32) (y : S5000x64.Idx) :
    ∃ pc ∈ ([⟨r7_big, p0⟩] : List (View.Piece (Elt F) S5000x64 .f32)), y ∈ pc.1.set :=
  View.cover_of_tiled [⟨r7_big, p0⟩] S5000x64.size (by rfl) y

/-! ## The body, run on whole staging buffers -/

set_option maxHeartbeats 1000000 in
/-- Started with the input buffers at contents `x` and the output buffer at anything, the body ends with the inputs
    as they were and the output at `out7_6 x`: it is a sequence of whole-buffer loads followed by one
    whole-buffer store. -/
theorem sound_kernel7 (c : Dev nD) (E : Set ℕ) (i : grid7.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S5000x64 .f32) (harg7 : arg7.IsWhole)
    (x0 : Vec F S5000x64 .f32) (x1 : Vec F S1x64 .f32) (x2 : Vec F S1x64 .f32) (x3 : Vec F S1x64 .f32) (x4 : Vec F S1x64 .f32) (x5 : Vec F S5000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out7_6 x0 x1 x2 x3 x4 x5)) -∗ K ⟨⟩))
      ⊢ wp frame (wpE (defs₀ (F := F)) Variants.none c none) E (cc7__norm_kernel_resid i arg1 harg1 arg2 harg2 arg3 harg3 arg4 harg4 arg5 harg5 arg6 harg6 arg7 harg7) K := by
  simp only [cc7__norm_kernel_resid_eq_skeleton]; unfold cc7__norm_kernel_resid_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover7_6 _)

/-! ## The proof data of the pipeline -/

/-- The arrays are the ones found on entry; after the body at point `t` every input window holds its block and
    the output window the normalised tile of those blocks; the invariant is the one of a body that touches
    nothing but its windows; all shares are full and nothing is owed. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

theorem A_eq7 (c : Dev nD) (w : Fin cfg7.W) : (dat7 V c).A w = V c (Pipeline.arrRef spec7 w) := by
  dsimp only [dat7]

/-- What the body leaves in each window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = out7_6 (iblk7 V c 0 t) (iblk7 V c 1 t) (iblk7 V c 2 t) (iblk7 V c 3 t) (iblk7 V c 4 t) (iblk7 V c 5 t) := by dsimp only [dat7]

/-- What the body finds in each input window: its block. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d

/-! ## The body obligation -/

/-- What the body is started with at point `t`, window by window, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

/-- and what it ends with. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t))

/-- At any point the input buffers hold their blocks, so the triple of the body applies; the invariant and the
    debts are not looked at. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c Set.univ _ _ _ _ _ _ _ _ _ _ _ _ _ _ _ (iblk7 V c 0 t) (iblk7 V c 1 t) (iblk7 V c 2 t) (iblk7 V c 3 t) (iblk7 V c 4 t) (iblk7 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation7 (c : Dev nD) : BodyObligation (dat7 (F := F) V c) (defs₀ (F := F)) Variants.none () Set.univ := fun t => by
  rw [bigSep_W7, bigSep_W7]
  exact sound_body7 V c t

end Cert.KernelIdeal.Hand
-- ==== Proof.KI.Run.lean ====
/-
  The run of the eight-region program: from the launch to the return, what every unscoped buffer of the TensorCore holds.

  @main is twelve items in order: a stretch of host operations, the first statistics region and its normalisation
  region, then three times a stretch of host operations (the neighbour gather, the scatter-add, the division, the
  layer's slices), a statistics region and a normalisation region.  Between two items the core holds every unscoped
  buffer whole at a valuation `W j`: `W 0` is the launch memory; a host stretch takes `W j` to the operations'
  composed result over it; a region takes `W j` to `W j` with each of the region's arrays replaced by what its
  pipeline leaves there — an input array as entered, an output array with every block written back.  Beside the
  buffers ride the generator register, at some state, and the core's dues, at nothing: no region signals another core.

  `run_main`: every weakly fair execution of @main terminates without a fault in a state whose every unscoped
  buffer holds `W 12`.  Read at an argument's buffer `W 12` walks back to the launch memory (no host operation and
  no region writes an argument): the frame.  Read at the result's buffer it is what the last region leaves.
-/
import proofs.«167925_j62517543961156_1_alg».proof.Proof.KI.Stats0
import proofs.«167925_j62517543961156_1_alg».proof.Proof.KI.Norm1
import proofs.«167925_j62517543961156_1_alg».proof.Proof.KI.Stats2
import proofs.«167925_j62517543961156_1_alg».proof.Proof.KI.Norm3
import proofs.«167925_j62517543961156_1_alg».proof.Proof.KI.Stats4
import proofs.«167925_j62517543961156_1_alg».proof.Proof.KI.Norm5
import proofs.«167925_j62517543961156_1_alg».proof.Proof.KI.Stats6
import proofs.«167925_j62517543961156_1_alg».proof.Proof.KI.Norm7
import proofs.«167925_j62517543961156_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between the items -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- `W 1` read at the TensorCore's references: what the region entered there finds. -/
abbrev U1 : (c : Dev nD) → (b : Ref sig .tc) → Buf (Elt F) ((c : Thread nD τ).loc b) := fun c b => W1 m ρ c b
/-- After region 0: its arrays at what pipeline 0 leaves, every other buffer as the region found it. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- `W 2` read at the TensorCore's references: what the region entered there finds. -/
abbrev U2 : (c : Dev nD) → (b : Ref sig .tc) → Buf (Elt F) ((c : Thread nD τ).loc b) := fun c b => W2 m ρ c b
/-- After region 1: its arrays at what pipeline 1 leaves, every other buffer as the region found it. -/
def W3 (c : Dev nD) : Valuation τ sig (Elt F) :=
  Pipeline.withArrays spec1 c (W2 m ρ c) fun w => (dat1 (U2 m ρ) c).arrAt w cfg1.N
theorem W3_arr (c : Dev nD) (w : Fin cfg1.W) :
    W3 m ρ c (Proc.devRef .tc (Pipeline.arrRef spec1 w)) = (dat1 (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- `W 3` read at the TensorCore's references: what the region entered there finds. -/
abbrev U3 : (c : Dev nD) → (b : Ref sig .tc) → Buf (Elt F) ((c : Thread nD τ).loc b) := fun c b => W3 m ρ c b
/-- After the host stretch `hostOps2`. -/
abbrev W4 : Dev nD → Valuation τ sig (Elt F) := fun c => StableHlo.after hostOps2 (W3 m ρ c)
/-- `W 4` read at the TensorCore's references: what the region entered there finds. -/
abbrev U4 : (c : Dev nD) → (b : Ref sig .tc) → Buf (Elt F) ((c : Thread nD τ).loc b) := fun c b => W4 m ρ c b
/-- After region 2: its arrays at what pipeline 2 leaves, every other buffer as the region found it. -/
def W5 (c : Dev nD) : Valuation τ sig (Elt F) :=
  Pipeline.withArrays spec2 c (W4 m ρ c) fun w => (dat2 (U4 m ρ) c).arrAt w cfg2.N
theorem W5_arr (c : Dev nD) (w : Fin cfg2.W) :
    W5 m ρ c (Proc.devRef .tc (Pipeline.arrRef spec2 w)) = (dat2 (U4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- `W 5` read at the TensorCore's references: what the region entered there finds. -/
abbrev U5 : (c : Dev nD) → (b : Ref sig .tc) → Buf (Elt F) ((c : Thread nD τ).loc b) := fun c b => W5 m ρ c b
/-- After region 3: its arrays at what pipeline 3 leaves, every other buffer as the region found it. -/
def W6 (c : Dev nD) : Valuation τ sig (Elt F) :=
  Pipeline.withArrays spec3 c (W5 m ρ c) fun w => (dat3 (U5 m ρ) c).arrAt w cfg3.N
theorem W6_arr (c : Dev nD) (w : Fin cfg3.W) :
    W6 m ρ c (Proc.devRef .tc (Pipeline.arrRef spec3 w)) = (dat3 (U5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
/-- `W 6` read at the TensorCore's references: what the region entered there finds. -/
abbrev U6 : (c : Dev nD) → (b : Ref sig .tc) → Buf (Elt F) ((c : Thread nD τ).loc b) := fun c b => W6 m ρ c b
/-- After the host stretch `hostOps4`. -/
abbrev W7 : Dev nD → Valuation τ sig (Elt F) := fun c => StableHlo.after hostOps4 (W6 m ρ c)
/-- `W 7` read at the TensorCore's references: what the region entered there finds. -/
abbrev U7 : (c : Dev nD) → (b : Ref sig .tc) → Buf (Elt F) ((c : Thread nD τ).loc b) := fun c b => W7 m ρ c b
/-- After region 4: its arrays at what pipeline 4 leaves, every other buffer as the region found it. -/
def W8 (c : Dev nD) : Valuation τ sig (Elt F) :=
  Pipeline.withArrays spec4 c (W7 m ρ c) fun w => (dat4 (U7 m ρ) c).arrAt w cfg4.N
theorem W8_arr (c : Dev nD) (w : Fin cfg4.W) :
    W8 m ρ c (Proc.devRef .tc (Pipeline.arrRef spec4 w)) = (dat4 (U7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
/-- `W 8` read at the TensorCore's references: what the region entered there finds. -/
abbrev U8 : (c : Dev nD) → (b : Ref sig .tc) → Buf (Elt F) ((c : Thread nD τ).loc b) := fun c b => W8 m ρ c b
/-- After region 5: its arrays at what pipeline 5 leaves, every other buffer as the region found it. -/
def W9 (c : Dev nD) : Valuation τ sig (Elt F) :=
  Pipeline.withArrays spec5 c (W8 m ρ c) fun w => (dat5 (U8 m ρ) c).arrAt w cfg5.N
theorem W9_arr (c : Dev nD) (w : Fin cfg5.W) :
    W9 m ρ c (Proc.devRef .tc (Pipeline.arrRef spec5 w)) = (dat5 (U8 m ρ) c).arrAt w cfg5.N := by
  unfold W9; exact Pipeline.withArrays_arr spec5 launch5.win.arr_inj c _ _ w
theorem W9_of_ne (c : Dev nD) (b : Ref sig .tc) (hb : ∀ w, Pipeline.arrRef spec5 w ≠ b) :
    W9 m ρ c (Proc.devRef .tc b) = W8 m ρ c (Proc.devRef .tc b) := by
  unfold W9; exact Pipeline.withArrays_of_ne spec5 c _ _ b hb
/-- `W 9` read at the TensorCore's references: what the region entered there finds. -/
abbrev U9 : (c : Dev nD) → (b : Ref sig .tc) → Buf (Elt F) ((c : Thread nD τ).loc b) := fun c b => W9 m ρ c b
/-- After the host stretch `hostOps6`. -/
abbrev W10 : Dev nD → Valuation τ sig (Elt F) := fun c => StableHlo.after hostOps6 (W9 m ρ c)
/-- `W 10` read at the TensorCore's references: what the region entered there finds. -/
abbrev U10 : (c : Dev nD) → (b : Ref sig .tc) → Buf (Elt F) ((c : Thread nD τ).loc b) := fun c b => W10 m ρ c b
/-- After region 6: its arrays at what pipeline 6 leaves, every other buffer as the region found it. -/
def W11 (c : Dev nD) : Valuation τ sig (Elt F) :=
  Pipeline.withArrays spec6 c (W10 m ρ c) fun w => (dat6 (U10 m ρ) c).arrAt w cfg6.N
theorem W11_arr (c : Dev nD) (w : Fin cfg6.W) :
    W11 m ρ c (Proc.devRef .tc (Pipeline.arrRef spec6 w)) = (dat6 (U10 m ρ) c).arrAt w cfg6.N := by
  unfold W11; exact Pipeline.withArrays_arr spec6 launch6.win.arr_inj c _ _ w
theorem W11_of_ne (c : Dev nD) (b : Ref sig .tc) (hb : ∀ w, Pipeline.arrRef spec6 w ≠ b) :
    W11 m ρ c (Proc.devRef .tc b) = W10 m ρ c (Proc.devRef .tc b) := by
  unfold W11; exact Pipeline.withArrays_of_ne spec6 c _ _ b hb
/-- `W 11` read at the TensorCore's references: what the region entered there finds. -/
abbrev U11 : (c : Dev nD) → (b : Ref sig .tc) → Buf (Elt F) ((c : Thread nD τ).loc b) := fun c b => W11 m ρ c b
/-- After region 7: its arrays at what pipeline 7 leaves, every other buffer as the region found it. -/
def W12 (c : Dev nD) : Valuation τ sig (Elt F) :=
  Pipeline.withArrays spec7 c (W11 m ρ c) fun w => (dat7 (U11 m ρ) c).arrAt w cfg7.N
theorem W12_arr (c : Dev nD) (w : Fin cfg7.W) :
    W12 m ρ c (Proc.devRef .tc (Pipeline.arrRef spec7 w)) = (dat7 (U11 m ρ) c).arrAt w cfg7.N := by
  unfold W12; exact Pipeline.withArrays_arr spec7 launch7.win.arr_inj c _ _ w
theorem W12_of_ne (c : Dev nD) (b : Ref sig .tc) (hb : ∀ w, Pipeline.arrRef spec7 w ≠ b) :
    W12 m ρ c (Proc.devRef .tc b) = W11 m ρ c (Proc.devRef .tc b) := by
  unfold W12; exact Pipeline.withArrays_of_ne spec7 c _ _ b hb
/-- `W 12` read at the TensorCore's references: what the region entered there finds. -/
abbrev U12 : (c : Dev nD) → (b : Ref sig .tc) → Buf (Elt F) ((c : Thread nD τ).loc b) := fun c b => W12 m ρ c b

/-- At a region's exit each of its arrays holds what the pipeline leaves, and every other buffer what it held at entry. -/
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)
theorem hF1 (c : Dev nD) (w : Fin cfg1.W) : (dat1 (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)
theorem hF2 (c : Dev nD) (w : Fin cfg2.W) : (dat2 (U4 m ρ) c).arrAt w cfg2.N = U5 m ρ c (Pipeline.arrRef spec2 w) :=
  (W5_arr m ρ c w).symm
theorem hrest2 (c : Dev nD) : ∀ b, b ∉ Finset.univ.image (Pipeline.arrRef spec2) → U5 m ρ c b = U4 m ρ c b :=
  fun b hb => W5_of_ne m ρ c b fun w e => hb (Finset.mem_image.mpr ⟨w, Finset.mem_univ _, e⟩)
theorem hF3 (c : Dev nD) (w : Fin cfg3.W) : (dat3 (U5 m ρ) c).arrAt w cfg3.N = U6 m ρ c (Pipeline.arrRef spec3 w) :=
  (W6_arr m ρ c w).symm
theorem hrest3 (c : Dev nD) : ∀ b, b ∉ Finset.univ.image (Pipeline.arrRef spec3) → U6 m ρ c b = U5 m ρ c b :=
  fun b hb => W6_of_ne m ρ c b fun w e => hb (Finset.mem_image.mpr ⟨w, Finset.mem_univ _, e⟩)
theorem hF4 (c : Dev nD) (w : Fin cfg4.W) : (dat4 (U7 m ρ) c).arrAt w cfg4.N = U8 m ρ c (Pipeline.arrRef spec4 w) :=
  (W8_arr m ρ c w).symm
theorem hrest4 (c : Dev nD) : ∀ b, b ∉ Finset.univ.image (Pipeline.arrRef spec4) → U8 m ρ c b = U7 m ρ c b :=
  fun b hb => W8_of_ne m ρ c b fun w e => hb (Finset.mem_image.mpr ⟨w, Finset.mem_univ _, e⟩)
theorem hF5 (c : Dev nD) (w : Fin cfg5.W) : (dat5 (U8 m ρ) c).arrAt w cfg5.N = U9 m ρ c (Pipeline.arrRef spec5 w) :=
  (W9_arr m ρ c w).symm
theorem hrest5 (c : Dev nD) : ∀ b, b ∉ Finset.univ.image (Pipeline.arrRef spec5) → U9 m ρ c b = U8 m ρ c b :=
  fun b hb => W9_of_ne m ρ c b fun w e => hb (Finset.mem_image.mpr ⟨w, Finset.mem_univ _, e⟩)
theorem hF6 (c : Dev nD) (w : Fin cfg6.W) : (dat6 (U10 m ρ) c).arrAt w cfg6.N = U11 m ρ c (Pipeline.arrRef spec6 w) :=
  (W11_arr m ρ c w).symm
theorem hrest6 (c : Dev nD) : ∀ b, b ∉ Finset.univ.image (Pipeline.arrRef spec6) → U11 m ρ c b = U10 m ρ c b :=
  fun b hb => W11_of_ne m ρ c b fun w e => hb (Finset.mem_image.mpr ⟨w, Finset.mem_univ _, e⟩)
theorem hF7 (c : Dev nD) (w : Fin cfg7.W) : (dat7 (U11 m ρ) c).arrAt w cfg7.N = U12 m ρ c (Pipeline.arrRef spec7 w) :=
  (W12_arr m ρ c w).symm
theorem hrest7 (c : Dev nD) : ∀ b, b ∉ Finset.univ.image (Pipeline.arrRef spec7) → U12 m ρ c b = U11 m ρ c b :=
  fun b hb => W12_of_ne m ρ c b fun w e => hb (Finset.mem_image.mpr ⟨w, Finset.mem_univ _, e⟩)

/-! ## The proof data of the eight pipelines, and what rides beside the buffers -/

/-- No pipeline reads a prefetched table. -/
abbrev admH : (p : Fin 8) → (pcfgs (F := F) p).Adm := fun p => (cfgs p).toPCfg_adm
/-- Every pipeline's proof data, each at the contents its region is entered from. -/
def pdatsH : (p : Fin 8) → (c : Dev nD) → Dat τ (Elt F) Unit ℕ (UR sig nD τ) ℕ (Pipeline.pin (pcfgs (F := F)) admH p) c
  | ⟨0, _⟩ => fun c => dat0 (U1 m ρ) c
  | ⟨1, _⟩ => fun c => dat1 (U2 m ρ) c
  | ⟨2, _⟩ => fun c => dat2 (U4 m ρ) c
  | ⟨3, _⟩ => fun c => dat3 (U5 m ρ) c
  | ⟨4, _⟩ => fun c => dat4 (U7 m ρ) c
  | ⟨5, _⟩ => fun c => dat5 (U8 m ρ) c
  | ⟨6, _⟩ => fun c => dat6 (U10 m ρ) c
  | ⟨7, _⟩ => fun c => dat7 (U11 m ρ) c
abbrev 𝒱H : Variants := Variants.none
/-- No core owes another anything: no level is assigned. -/
abbrev LH : GSem nD τ sig → Finset Unit := fun _ => ∅
abbrev lvH : GSem nD τ sig → Unit → ℕ := fun _ _ => 0
/-- Beside the buffers: the generator register at some state, and the core owing nothing. -/
abbrev RH (c : Dev nD) : sProp 𝕄 := iprop((∃ r, prngReg c r) ∗ ∃ S, owes (c : Thread nD τ) (0 : CellTallies nD τ sig Unit) S)
/-- A host stretch as a segment over the unscoped references, from the contents `W`. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
/-- An unscoped TensorCore reference is among those the thread state holds. -/
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments

Each region is entered from every unscoped buffer at `W j` and left at `W (j+1)`: its arrays are split out of the
unscoped buffers and put back at the exit contents; the generator register goes into the pipeline's invariant and comes
back; nothing is owed; the kernel has no semaphore of its own. -/

set_option backward.isDefEq.respectTransparency.types false in
/-- Region 0 over the thread state, from `W 1` to `W 2`. -/
def reg0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ LH lvH 0 fun _ _ => rfl
  pre c := iprop(StableHlo.held (c : Thread nD τ) (Pipeline.ucRefs τ sig) (W1 m ρ c) ∗ RH c)
  post c := iprop(StableHlo.held (c : Thread nD τ) (Pipeline.ucRefs τ sig) (W2 m ρ c) ∗ RH c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%S, HO⟩; iexists S; isplitr; · ipureintro; exact fun _ _ => Or.inl trivial
      iexact HO
    isplitl [Hp]; · iexact Hp
    iexact Hrest
  hin c := by
    rw [show (pdatsH m ρ 0 c).Φ 0 = (dat0 (U1 m ρ) c).Φ 0 from rfl]
    iintro ⟨Hp, -, Hr⟩
    iapply (hin0 (U1 m ρ) c)
    isplitl [Hp]; · iexact Hp
    iexact Hr
  hout c := by
    rw [Pipeline.ownSems0_none, show (pdatsH m ρ 0 c).Φ (Fin.last _) = (dat0 (U1 m ρ) c).Φ (Fin.last cfg0.N) from rfl]
    iintro H
    ihave H' := (hout0 (U1 m ρ) c) $$ H
    icases H' with ⟨Hp, Hr⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (U1 m ρ c) (U2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%S, -, HO⟩; iexists S; iexact HO

set_option backward.isDefEq.respectTransparency.types false in
/-- Region 1 over the thread state, from `W 2` to `W 3`. -/
def reg1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ LH lvH 1 fun _ _ => rfl
  pre c := iprop(StableHlo.held (c : Thread nD τ) (Pipeline.ucRefs τ sig) (W2 m ρ c) ∗ RH c)
  post c := iprop(StableHlo.held (c : Thread nD τ) (Pipeline.ucRefs τ sig) (W3 m ρ c) ∗ RH c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%S, HO⟩; iexists S; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (U2 m ρ c) (U3 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%S, -, HO⟩; iexists S; iexact HO

set_option backward.isDefEq.respectTransparency.types false in
/-- Region 2 over the thread state, from `W 4` to `W 5`. -/
def reg2 : Pipeline.RegionSeg (pcfgs (F := F)) admH (pdatsH m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (U4 m ρ) c).loose
  hwaits := Pipeline.hwaits_of_owed_zero _ _ _ _ LH lvH 2 fun _ _ => rfl
  pre c := iprop(StableHlo.held (c : Thread nD τ) (Pipeline.ucRefs τ sig) (W4 m ρ c) ∗ RH c)
  post c := iprop(StableHlo.held (c : Thread nD τ) (Pipeline.ucRefs τ sig) (W5 m ρ c) ∗ RH c)
  X c := iprop(∃ r, prngReg c r)
  Y c := iprop(∃ r, prngReg c r)
  Z c := Pipeline.unscopedRest (Ix := Unit) (Name := ℕ) (U := UR sig nD τ) (Lvl := ℕ) spec2 c (U4 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (U4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%S, HO⟩; iexists S; isplitr; · ipureintro; exact fun _ _ => Or.inl trivial
      iexact HO
    isplitl [Hp]; · iexact Hp
    iexact Hrest
  hin c := by
    rw [show (pdatsH m ρ 2 c).Φ 0 = (dat2 (U4 m ρ) c).Φ 0 from rfl]
    iintro ⟨Hp, -, Hr⟩
    iapply (hin2 (U4 m ρ) c)
    isplitl [Hp]; · iexact Hp
    iexact Hr
  hout c := by
    rw [Pipeline.ownSems0_none, show (pdatsH m ρ 2 c).Φ (Fin.last _) = (dat2 (U4 m ρ) c).Φ (Fin.last cfg2.N) from rfl]
    iintro H
    ihave H' := (hout2 (U4 m ρ) c) $$ H
    icases H' with ⟨Hp, Hr⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (U4 m ρ c) (U5 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%S, -, HO⟩; iexists S; iexact HO

set_option backward.isDefEq.respectTransparency.types false in
/-- Region 3 over the thread state, from `W 5` to `W 6`. -/
def reg3 : Pipeline.RegionSeg (pcfgs (F := F)) admH (pdatsH m ρ) () defs₀ 𝒱H LH lvH 3 where
  win := launch3.win.to₀
  block_pos := launch3.block_pos
  stage_whole := launch3.stage_whole
  K := PEmpty
  osem k := k.elim
  ho := Pipeline.OwnSemFacts.none _
  hbody c := (body_obligation3 (U5 m ρ) c).loose
  hwaits := Pipeline.hwaits_of_owed_zero _ _ _ _ LH lvH 3 fun _ _ => rfl
  pre c := iprop(StableHlo.held (c : Thread nD τ) (Pipeline.ucRefs τ sig) (W5 m ρ c) ∗ RH c)
  post c := iprop(StableHlo.held (c : Thread nD τ) (Pipeline.ucRefs τ sig) (W6 m ρ c) ∗ RH c)
  X c := iprop(∃ r, prngReg c r)
  Y c := iprop(∃ r, prngReg c r)
  Z c := Pipeline.unscopedRest (Ix := Unit) (Name := ℕ) (U := UR sig nD τ) (Lvl := ℕ) spec3 c (U5 m ρ c)
  hentry c := by
    rw [Pipeline.ownSems0_none]
    have hsplit := Pipeline.arrays_of_unscopedBufs (p := 3) (pcfgs (F := F)) admH (pdatsH m ρ) launch3.win launch3.arr_whole c
      ((pdatsH m ρ 3 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%S, HO⟩; iexists S; isplitr; · ipureintro; exact fun _ _ => Or.inl trivial
      iexact HO
    isplitl [Hp]; · iexact Hp
    iexact Hrest
  hin c := by
    rw [show (pdatsH m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsH m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m ρ) ((pdatsH m ρ 3 c).share_full fun _ => rfl)
      (U5 m ρ c) (U6 m ρ c) ((pdatsH m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%S, -, HO⟩; iexists S; iexact HO

set_option backward.isDefEq.respectTransparency.types false in
/-- Region 4 over the thread state, from `W 7` to `W 8`. -/
def reg4 : Pipeline.RegionSeg (pcfgs (F := F)) admH (pdatsH m ρ) () defs₀ 𝒱H LH lvH 4 where
  win := launch4.win.to₀
  block_pos := launch4.block_pos
  stage_whole := launch4.stage_whole
  K := PEmpty
  osem k := k.elim
  ho := Pipeline.OwnSemFacts.none _
  hbody c := (body_obligation4 (U7 m ρ) c).loose
  hwaits := Pipeline.hwaits_of_owed_zero _ _ _ _ LH lvH 4 fun _ _ => rfl
  pre c := iprop(StableHlo.held (c : Thread nD τ) (Pipeline.ucRefs τ sig) (W7 m ρ c) ∗ RH c)
  post c := iprop(StableHlo.held (c : Thread nD τ) (Pipeline.ucRefs τ sig) (W8 m ρ c) ∗ RH c)
  X c := iprop(∃ r, prngReg c r)
  Y c := iprop(∃ r, prngReg c r)
  Z c := Pipeline.unscopedRest (Ix := Unit) (Name := ℕ) (U := UR sig nD τ) (Lvl := ℕ) spec4 c (U7 m ρ c)
  hentry c := by
    rw [Pipeline.ownSems0_none]
    have hsplit := Pipeline.arrays_of_unscopedBufs (p := 4) (pcfgs (F := F)) admH (pdatsH m ρ) launch4.win launch4.arr_whole c
      ((pdatsH m ρ 4 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%S, HO⟩; iexists S; isplitr; · ipureintro; exact fun _ _ => Or.inl trivial
      iexact HO
    isplitl [Hp]; · iexact Hp
    iexact Hrest
  hin c := by
    rw [show (pdatsH m ρ 4 c).Φ 0 = (dat4 (U7 m ρ) c).Φ 0 from rfl]
    iintro ⟨Hp, -, Hr⟩
    iapply (hin4 (U7 m ρ) c)
    isplitl [Hp]; · iexact Hp
    iexact Hr
  hout c := by
    rw [Pipeline.ownSems0_none, show (pdatsH m ρ 4 c).Φ (Fin.last _) = (dat4 (U7 m ρ) c).Φ (Fin.last cfg4.N) from rfl]
    iintro H
    ihave H' := (hout4 (U7 m ρ) c) $$ H
    icases H' with ⟨Hp, Hr⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdatsH m ρ) ((pdatsH m ρ 4 c).share_full fun _ => rfl)
      (U7 m ρ c) (U8 m ρ c) ((pdatsH m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%S, -, HO⟩; iexists S; iexact HO

set_option backward.isDefEq.respectTransparency.types false in
/-- Region 5 over the thread state, from `W 8` to `W 9`. -/
def reg5 : Pipeline.RegionSeg (pcfgs (F := F)) admH (pdatsH m ρ) () defs₀ 𝒱H LH lvH 5 where
  win := launch5.win.to₀
  block_pos := launch5.block_pos
  stage_whole := launch5.stage_whole
  K := PEmpty
  osem k := k.elim
  ho := Pipeline.OwnSemFacts.none _
  hbody c := (body_obligation5 (U8 m ρ) c).loose
  hwaits := Pipeline.hwaits_of_owed_zero _ _ _ _ LH lvH 5 fun _ _ => rfl
  pre c := iprop(StableHlo.held (c : Thread nD τ) (Pipeline.ucRefs τ sig) (W8 m ρ c) ∗ RH c)
  post c := iprop(StableHlo.held (c : Thread nD τ) (Pipeline.ucRefs τ sig) (W9 m ρ c) ∗ RH c)
  X c := iprop(∃ r, prngReg c r)
  Y c := iprop(∃ r, prngReg c r)
  Z c := Pipeline.unscopedRest (Ix := Unit) (Name := ℕ) (U := UR sig nD τ) (Lvl := ℕ) spec5 c (U8 m ρ c)
  hentry c := by
    rw [Pipeline.ownSems0_none]
    have hsplit := Pipeline.arrays_of_unscopedBufs (p := 5) (pcfgs (F := F)) admH (pdatsH m ρ) launch5.win launch5.arr_whole c
      ((pdatsH m ρ 5 c).share_full fun _ => rfl) (U8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%S, HO⟩; iexists S; isplitr; · ipureintro; exact fun _ _ => Or.inl trivial
      iexact HO
    isplitl [Hp]; · iexact Hp
    iexact Hrest
  hin c := by
    rw [show (pdatsH m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdatsH m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admH (Ix := Unit) (Name := ℕ) (U := UR sig nD τ) (Lvl := ℕ)
      launch5.win launch5.arr_whole c (pdatsH m ρ) ((pdatsH m ρ 5 c).share_full fun _ => rfl)
      (U8 m ρ c) (U9 m ρ c) ((pdatsH m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%S, -, HO⟩; iexists S; iexact HO

set_option backward.isDefEq.respectTransparency.types false in
/-- Region 6 over the thread state, from `W 10` to `W 11`. -/
def reg6 : Pipeline.RegionSeg (pcfgs (F := F)) admH (pdatsH m ρ) () defs₀ 𝒱H LH lvH 6 where
  win := launch6.win.to₀
  block_pos := launch6.block_pos
  stage_whole := launch6.stage_whole
  K := PEmpty
  osem k := k.elim
  ho := Pipeline.OwnSemFacts.none _
  hbody c := (body_obligation6 (U10 m ρ) c).loose
  hwaits := Pipeline.hwaits_of_owed_zero _ _ _ _ LH lvH 6 fun _ _ => rfl
  pre c := iprop(StableHlo.held (c : Thread nD τ) (Pipeline.ucRefs τ sig) (W10 m ρ c) ∗ RH c)
  post c := iprop(StableHlo.held (c : Thread nD τ) (Pipeline.ucRefs τ sig) (W11 m ρ c) ∗ RH c)
  X c := iprop(∃ r, prngReg c r)
  Y c := iprop(∃ r, prngReg c r)
  Z c := Pipeline.unscopedRest (Ix := Unit) (Name := ℕ) (U := UR sig nD τ) (Lvl := ℕ) spec6 c (U10 m ρ c)
  hentry c := by
    rw [Pipeline.ownSems0_none]
    have hsplit := Pipeline.arrays_of_unscopedBufs (p := 6) (pcfgs (F := F)) admH (pdatsH m ρ) launch6.win launch6.arr_whole c
      ((pdatsH m ρ 6 c).share_full fun _ => rfl) (U10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%S, HO⟩; iexists S; isplitr; · ipureintro; exact fun _ _ => Or.inl trivial
      iexact HO
    isplitl [Hp]; · iexact Hp
    iexact Hrest
  hin c := by
    rw [show (pdatsH m ρ 6 c).Φ 0 = (dat6 (U10 m ρ) c).Φ 0 from rfl]
    iintro ⟨Hp, -, Hr⟩
    iapply (hin6 (U10 m ρ) c)
    isplitl [Hp]; · iexact Hp
    iexact Hr
  hout c := by
    rw [Pipeline.ownSems0_none, show (pdatsH m ρ 6 c).Φ (Fin.last _) = (dat6 (U10 m ρ) c).Φ (Fin.last cfg6.N) from rfl]
    iintro H
    ihave H' := (hout6 (U10 m ρ) c) $$ H
    icases H' with ⟨Hp, Hr⟩
    isplitl [Hp]; · iexact Hp
    isplitr; · iempintro
    iexact Hr
  hexit c := by
    have hjoin := Pipeline.unscopedBufs_of_arrays (p := 6) (pcfgs (F := F)) admH (Ix := Unit) (Name := ℕ) (U := UR sig nD τ) (Lvl := ℕ)
      launch6.win launch6.arr_whole c (pdatsH m ρ) ((pdatsH m ρ 6 c).share_full fun _ => rfl)
      (U10 m ρ c) (U11 m ρ c) ((pdatsH m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%S, -, HO⟩; iexists S; iexact HO

set_option backward.isDefEq.respectTransparency.types false in
/-- Region 7 over the thread state, from `W 11` to `W 12`. -/
def reg7 : Pipeline.RegionSeg (pcfgs (F := F)) admH (pdatsH m ρ) () defs₀ 𝒱H LH lvH 7 where
  win := launch7.win.to₀
  block_pos := launch7.block_pos
  stage_whole := launch7.stage_whole
  K := PEmpty
  osem k := k.elim
  ho := Pipeline.OwnSemFacts.none _
  hbody c := (body_obligation7 (U11 m ρ) c).loose
  hwaits := Pipeline.hwaits_of_owed_zero _ _ _ _ LH lvH 7 fun _ _ => rfl
  pre c := iprop(StableHlo.held (c : Thread nD τ) (Pipeline.ucRefs τ sig) (W11 m ρ c) ∗ RH c)
  post c := iprop(StableHlo.held (c : Thread nD τ) (Pipeline.ucRefs τ sig) (W12 m ρ c) ∗ RH c)
  X c := iprop(∃ r, prngReg c r)
  Y c := iprop(∃ r, prngReg c r)
  Z c := Pipeline.unscopedRest (Ix := Unit) (Name := ℕ) (U := UR sig nD τ) (Lvl := ℕ) spec7 c (U11 m ρ c)
  hentry c := by
    rw [Pipeline.ownSems0_none]
    have hsplit := Pipeline.arrays_of_unscopedBufs (p := 7) (pcfgs (F := F)) admH (pdatsH m ρ) launch7.win launch7.arr_whole c
      ((pdatsH m ρ 7 c).share_full fun _ => rfl) (U11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%S, HO⟩; iexists S; isplitr; · ipureintro; exact fun _ _ => Or.inl trivial
      iexact HO
    isplitl [Hp]; · iexact Hp
    iexact Hrest
  hin c := by
    rw [show (pdatsH m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdatsH m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) admH (Ix := Unit) (Name := ℕ) (U := UR sig nD τ) (Lvl := ℕ)
      launch7.win launch7.arr_whole c (pdatsH m ρ) ((pdatsH m ρ 7 c).share_full fun _ => rfl)
      (U11 m ρ c) (U12 m ρ c) ((pdatsH m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%S, -, HO⟩; iexists S; iexact HO

/-! ## @main as segments, and the launch -/

/-- @main's twelve items in order. -/
abbrev segsH : List (Pipeline.Seg (pcfgs (F := F)) admH (pdatsH m ρ) () defs₀ 𝒱H LH lvH) :=
  [ .host (hsegH hostOps0 hostOps0_sub hostOps0_fresh (W0 m ρ)),
    .region (reg0 m ρ), .region (reg1 m ρ),
    .host (hsegH hostOps2 hostOps2_sub hostOps2_fresh (W3 m ρ)),
    .region (reg2 m ρ), .region (reg3 m ρ),
    .host (hsegH hostOps4 hostOps4_sub hostOps4_fresh (W6 m ρ)),
    .region (reg4 m ρ), .region (reg5 m ρ),
    .host (hsegH hostOps6 hostOps6_sub hostOps6_fresh (W9 m ρ)),
    .region (reg6 m ρ), .region (reg7 m ρ) ]
/-- @main is the run of the segments. -/
theorem main_runH (c : Dev nD) : main (F := F) c = Pipeline.Seg.run (segsH m ρ) := (main_chain c).trans (by chain_rfl)

set_option backward.isDefEq.respectTransparency.types false in
/-- Every weakly fair execution of @main from the memory `m` with zero counters terminates, nothing faulting, in a
    state whose every unscoped buffer holds `W 12`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c))
    (Tₙ := fun c => iprop(StableHlo.held (c : Thread nD τ) (Pipeline.ucRefs τ sig) (W12 m ρ c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl,
      fun c => by
        show iprop(StableHlo.held (c : Thread nD τ) (Pipeline.ucRefs τ sig) (W12 m ρ c)
              ∗ (∃ r, prngReg c r) ∗ ∃ S, owes (c : Thread nD τ) (0 : CellTallies nD τ sig Unit) S)
          ⊢ (iprop((StableHlo.held (c : Thread nD τ) (Pipeline.ucRefs τ sig) (W12 m ρ c) ∗ ∃ r, prngReg c r)
              ∗ ∃ S, owes (c : Thread nD τ) (0 : CellTallies nD τ sig Unit) S) : sProp 𝕄)
        iintro ⟨Hh, Hp, HO⟩
        isplitl [Hh Hp]
        · isplitl [Hh]; · iexact Hh
          iexact Hp
        iexact HO⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

end Cert.KernelIdeal.Hand

end
-- ==== Proof.KI.Frame.lean ====
/-
  The frame of the eight-region program, and its result's buffer.

  The run leaves every unscoped buffer at the last valuation of the fold through @main.  An argument's buffer is written
  by no host operation and by no region — two arguments are input windows of the first region, which hands an input
  array back as it found it —, so the fold, read there, walks back item by item to the launch memory.  The result's
  buffer is the output array of the last region: it ends at that pipeline's blocks, all written back.
-/
import proofs.«167925_j62517543961156_1_alg».proof.Proof.KI.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## A buffer nothing writes keeps its launch contents -/

/-- A reference that no host stretch writes, that regions 1 … 7 do not stage, and that region 0 leaves as it found it,
    holds at the end what the launch memory held. -/
theorem W12_keep (c : Dev nD) (r : Ref sig .tc)
    (h0 : r ∉ hostOps0_W) (h2 : r ∉ hostOps2_W) (h4 : r ∉ hostOps4_W) (h6 : r ∉ hostOps6_W)
    (e0 : W2 m ρ c (Proc.devRef .tc r) = W1 m ρ c (Proc.devRef .tc r))
    (n1 : ∀ w, Pipeline.arrRef spec1 w ≠ r) (n2 : ∀ w, Pipeline.arrRef spec2 w ≠ r) (n3 : ∀ w, Pipeline.arrRef spec3 w ≠ r)
    (n4 : ∀ w, Pipeline.arrRef spec4 w ≠ r) (n5 : ∀ w, Pipeline.arrRef spec5 w ≠ r) (n6 : ∀ w, Pipeline.arrRef spec6 w ≠ r)
    (n7 : ∀ w, Pipeline.arrRef spec7 w ≠ r) :
    W12 m ρ c (Proc.devRef .tc r) = m ((c : Thread nD τ).loc r) :=
  calc W12 m ρ c (Proc.devRef .tc r)
    _ = W11 m ρ c (Proc.devRef .tc r) := W12_of_ne m ρ c r n7
    _ = W10 m ρ c (Proc.devRef .tc r) := W11_of_ne m ρ c r n6
    _ = W9 m ρ c (Proc.devRef .tc r) := StableHlo.after_of_writes_sub hostOps6 _ hostOps6_writes h6
    _ = W8 m ρ c (Proc.devRef .tc r) := W9_of_ne m ρ c r n5
    _ = W7 m ρ c (Proc.devRef .tc r) := W8_of_ne m ρ c r n4
    _ = W6 m ρ c (Proc.devRef .tc r) := StableHlo.after_of_writes_sub hostOps4 _ hostOps4_writes h4
    _ = W5 m ρ c (Proc.devRef .tc r) := W6_of_ne m ρ c r n3
    _ = W4 m ρ c (Proc.devRef .tc r) := W5_of_ne m ρ c r n2
    _ = W3 m ρ c (Proc.devRef .tc r) := StableHlo.after_of_writes_sub hostOps2 _ hostOps2_writes h2
    _ = W2 m ρ c (Proc.devRef .tc r) := W3_of_ne m ρ c r n1
    _ = W1 m ρ c (Proc.devRef .tc r) := e0
    _ = W0 m ρ c (Proc.devRef .tc r) := StableHlo.after_of_writes_sub hostOps0 _ hostOps0_writes h0
    _ = m ((c : Thread nD τ).loc r) := rfl

/-! ## The arguments end as launched

No host operation and no region writes an argument; the node features and the first weight matrix are input windows of
region 0, which leaves an input array as it found it; the other arguments are staged by no region. -/
theorem W12_main_arg0 (c : Dev nD) : W12 m ρ c (Proc.devRef .tc main_arg0) = m ((c : Thread nD τ).loc main_arg0) :=
  W12_keep m ρ c main_arg0 (by decide) (by decide) (by decide) (by decide) ((W2_arr m ρ c 0).trans (((dat0 (U1 m ρ) c).arrAt_in 0 rfl _).trans (A_eq0 (U1 m ρ) c 0)))
    (by decide) (by decide) (by decide) (by decide) (by decide) (by decide) (by decide)
theorem W12_main_arg1 (c : Dev nD) : W12 m ρ c (Proc.devRef .tc main_arg1) = m ((c : Thread nD τ).loc main_arg1) :=
  W12_keep m ρ c main_arg1 (by decide) (by decide) (by decide) (by decide) (W2_of_ne m ρ c main_arg1 (by decide))
    (by decide) (by decide) (by decide) (by decide) (by decide) (by decide) (by decide)
theorem W12_main_arg2 (c : Dev nD) : W12 m ρ c (Proc.devRef .tc main_arg2) = m ((c : Thread nD τ).loc main_arg2) :=
  W12_keep m ρ c main_arg2 (by decide) (by decide) (by decide) (by decide) ((W2_arr m ρ c 1).trans (((dat0 (U1 m ρ) c).arrAt_in 1 rfl _).trans (A_eq0 (U1 m ρ) c 1)))
    (by decide) (by decide) (by decide) (by decide) (by decide) (by decide) (by decide)
theorem W12_main_arg3 (c : Dev nD) : W12 m ρ c (Proc.devRef .tc main_arg3) = m ((c : Thread nD τ).loc main_arg3) :=
  W12_keep m ρ c main_arg3 (by decide) (by decide) (by decide) (by decide) (W2_of_ne m ρ c main_arg3 (by decide))
    (by decide) (by decide) (by decide) (by decide) (by decide) (by decide) (by decide)
theorem W12_main_arg4 (c : Dev nD) : W12 m ρ c (Proc.devRef .tc main_arg4) = m ((c : Thread nD τ).loc main_arg4) :=
  W12_keep m ρ c main_arg4 (by decide) (by decide) (by decide) (by decide) (W2_of_ne m ρ c main_arg4 (by decide))
    (by decide) (by decide) (by decide) (by decide) (by decide) (by decide) (by decide)
theorem W12_main_arg5 (c : Dev nD) : W12 m ρ c (Proc.devRef .tc main_arg5) = m ((c : Thread nD τ).loc main_arg5) :=
  W12_keep m ρ c main_arg5 (by decide) (by decide) (by decide) (by decide) (W2_of_ne m ρ c main_arg5 (by decide))
    (by decide) (by decide) (by decide) (by decide) (by decide) (by decide) (by decide)
theorem W12_main_arg6 (c : Dev nD) : W12 m ρ c (Proc.devRef .tc main_arg6) = m ((c : Thread nD τ).loc main_arg6) :=
  W12_keep m ρ c main_arg6 (by decide) (by decide) (by decide) (by decide) (W2_of_ne m ρ c main_arg6 (by decide))
    (by decide) (by decide) (by decide) (by decide) (by decide) (by decide) (by decide)
theorem W12_main_arg7 (c : Dev nD) : W12 m ρ c (Proc.devRef .tc main_arg7) = m ((c : Thread nD τ).loc main_arg7) :=
  W12_keep m ρ c main_arg7 (by decide) (by decide) (by decide) (by decide) (W2_of_ne m ρ c main_arg7 (by decide))
    (by decide) (by decide) (by decide) (by decide) (by decide) (by decide) (by decide)
theorem W12_main_arg8 (c : Dev nD) : W12 m ρ c (Proc.devRef .tc main_arg8) = m ((c : Thread nD τ).loc main_arg8) :=
  W12_keep m ρ c main_arg8 (by decide) (by decide) (by decide) (by decide) (W2_of_ne m ρ c main_arg8 (by decide))
    (by decide) (by decide) (by decide) (by decide) (by decide) (by decide) (by decide)
theorem W12_main_arg9 (c : Dev nD) : W12 m ρ c (Proc.devRef .tc main_arg9) = m ((c : Thread nD τ).loc main_arg9) :=
  W12_keep m ρ c main_arg9 (by decide) (by decide) (by decide) (by decide) (W2_of_ne m ρ c main_arg9 (by decide))
    (by decide) (by decide) (by decide) (by decide) (by decide) (by decide) (by decide)
theorem W12_main_arg10 (c : Dev nD) : W12 m ρ c (Proc.devRef .tc main_arg10) = m ((c : Thread nD τ).loc main_arg10) :=
  W12_keep m ρ c main_arg10 (by decide) (by decide) (by decide) (by decide) (W2_of_ne m ρ c main_arg10 (by decide))
    (by decide) (by decide) (by decide) (by decide) (by decide) (by decide) (by decide)

/-! ## The frame, and the result's buffer -/

/-- Every weakly fair execution of @main terminates, nothing faulting, with every argument array as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_ucH main_arg0 (by decide))).trans (W12_main_arg0 m ρ c),
      (h c _ (mem_ucH main_arg1 (by decide))).trans (W12_main_arg1 m ρ c),
      (h c _ (mem_ucH main_arg2 (by decide))).trans (W12_main_arg2 m ρ c),
      (h c _ (mem_ucH main_arg3 (by decide))).trans (W12_main_arg3 m ρ c),
      (h c _ (mem_ucH main_arg4 (by decide))).trans (W12_main_arg4 m ρ c),
      (h c _ (mem_ucH main_arg5 (by decide))).trans (W12_main_arg5 m ρ c),
      (h c _ (mem_ucH main_arg6 (by decide))).trans (W12_main_arg6 m ρ c),
      (h c _ (mem_ucH main_arg7 (by decide))).trans (W12_main_arg7 m ρ c),
      (h c _ (mem_ucH main_arg8 (by decide))).trans (W12_main_arg8 m ρ c),
      (h c _ (mem_ucH main_arg9 (by decide))).trans (W12_main_arg9 m ρ c),
      (h c _ (mem_ucH main_arg10 (by decide))).trans (W12_main_arg10 m ρ c)⟩) (run_main m ρ)

/-- The same run with the result named: the result's buffer ends at what the last region leaves in its output array —
    the last normalisation's blocks, all written back. -/
theorem run_result : θ_run defs (onTc (τ := τ) (main (F := F))) ⟨m, fun _ => 0, ρ⟩ (fun r => ∀ c : Dev nD,
      r.2.mem ((c.tc : Thread nD τ).loc main_v96) = (dat7 (U11 m ρ) c).arrAt 6 cfg7.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_ucH main_v96 (by decide))).trans (W12_arr m ρ c 6),
      (h c _ (mem_ucH main_arg0 (by decide))).trans (W12_main_arg0 m ρ c),
      (h c _ (mem_ucH main_arg1 (by decide))).trans (W12_main_arg1 m ρ c),
      (h c _ (mem_ucH main_arg2 (by decide))).trans (W12_main_arg2 m ρ c),
      (h c _ (mem_ucH main_arg3 (by decide))).trans (W12_main_arg3 m ρ c),
      (h c _ (mem_ucH main_arg4 (by decide))).trans (W12_main_arg4 m ρ c),
      (h c _ (mem_ucH main_arg5 (by decide))).trans (W12_main_arg5 m ρ c),
      (h c _ (mem_ucH main_arg6 (by decide))).trans (W12_main_arg6 m ρ c),
      (h c _ (mem_ucH main_arg7 (by decide))).trans (W12_main_arg7 m ρ c),
      (h c _ (mem_ucH main_arg8 (by decide))).trans (W12_main_arg8 m ρ c),
      (h c _ (mem_ucH main_arg9 (by decide))).trans (W12_main_arg9 m ρ c),
      (h c _ (mem_ucH main_arg10 (by decide))).trans (W12_main_arg10 m ρ c)⟩) (run_main m ρ)

end Cert.KernelIdeal.Hand

end
-- ==== Proof.Ref.Fns.lean ====
import proofs.«167925_j62517543961156_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! The reference network as named pure functions of arrays: the input projection, one batch
normalisation with its rectifier, the in-degree denominator, the mean aggregation over edges, one
layer's pre-activation, one residual layer, and their composition. Each is the composition of the
host operations in the order the program applies them. -/

/-- A length-64 vector repeated along the 50000 rows. -/
def rowBc (v : FVec F S64 .f32) : FVec F S50000x64 .f32 :=
  broadcastInDim S50000x64 ![0, 1] bcast_S1x64_S50000x64_0_1 (broadcastInDim S1x64 ![1] bcast_S64_S1x64_1 v)

/-- Edge sources: row 0 of the 2 × 800000 edge table. -/
def refSrc (ei : IVec S2x800000 32) : IVec S800000 32 :=
  shapeCast S800000 (extractStridedSlice S1x800000 ![0, 0] ei slices_S2x800000_S1x800000_0_0) shapeCasts_S1x800000_S800000

/-- Edge destinations: row 1 of the edge table. -/
def refDst (ei : IVec S2x800000 32) : IVec S800000 32 :=
  shapeCast S800000 (extractStridedSlice S1x800000 ![1, 0] ei slices_S2x800000_S1x800000_1_0) shapeCasts_S1x800000_S800000

/-- The input projection x · w + b, before the first normalisation. -/
def refPre0 (x : FVec F S50000x19 .f32) (w : FVec F S19x64 .f32) (b : FVec F S64 .f32) : FVec F S50000x64 .f32 :=
  addf (Host.dotGeneral dot_S50000x19_S19x64_S50000x64_1_0_0_1_n_n none x w) (rowBc b)

/-- Column sums over the 50000 rows, from zero. -/
def refSum (z : FVec F S50000x64 .f32) : FVec F S64 .f32 :=
  Host.reduceAdd z (constant S_ .f32 0x00000000#32) reducesTo_S50000x64_S64_d0 h_S_

/-- The row count 50000 as a length-64 vector. -/
def refCnt : FVec F S64 .f32 := broadcastInDim S64 ![] bcast_S_S64 (constant S_ .f32 0x47435000#32)

/-- Column means: column sums over 50000. -/
def refMean (z : FVec F S50000x64 .f32) : FVec F S64 .f32 := Host.divf (refSum z) refCnt

/-- The column means as the variance computes them (divided as a 1 × 64 row), repeated along the rows. -/
def refVarMeanBc (z : FVec F S50000x64 .f32) : FVec F S50000x64 .f32 :=
  broadcastInDim S50000x64 ![0, 1] bcast_S1x64_S50000x64_0_1
    (Host.divf (broadcastInDim S1x64 ![1] bcast_S64_S1x64_1 (refSum z))
      (broadcastInDim S1x64 ![] bcast_S_S1x64 (constant S_ .f32 0x47435000#32)))

/-- Deviations from the column means. -/
def refDev (z : FVec F S50000x64 .f32) : FVec F S50000x64 .f32 := subf z (refVarMeanBc z)

/-- The variance's divisor: 50000 minus the correction 0 converted from an integer. -/
def refVarN : FVec F S_ .f32 := subf (constant S_ .f32 0x47435000#32) (sitofp .f32 (constantI S_ 32 0#32))

/-- Column variances without the guard: sums of squared deviations over the divisor. -/
def refVarRaw (z : FVec F S50000x64 .f32) : FVec F S64 .f32 :=
  Host.divf (Host.reduceAdd (mulf (refDev z) (refDev z)) (constant S_ .f32 0x00000000#32) reducesTo_S50000x64_S64_d0 h_S_)
    (broadcastInDim S64 ![] bcast_S_S64 refVarN)

/-- Column variances: the unguarded value where the divisor is positive, a NaN word otherwise. -/
def refVar (z : FVec F S50000x64 .f32) : FVec F S64 .f32 :=
  select (broadcastInDim S64 ![] bcast_S_S64 (cmpf .ogt (refVarN (F := F)) (constant S_ .f32 0x00000000#32))) (refVarRaw z)
    (broadcastInDim S64 ![] bcast_S_S64 (id (constant S_ .f32 0x7FC00000#32)))

/-- The stabiliser eps as a length-64 vector. -/
def refEps : FVec F S64 .f32 := broadcastInDim S64 ![] bcast_S_S64 (constant S_ .f32 0x3727C5AC#32)

/-- One batch normalisation with scale g and shift b, then the rectifier:
    max(((z - mean) * rsqrt(var + eps)) * g + b, 0). -/
def refBN (z : FVec F S50000x64 .f32) (g b : FVec F S64 .f32) : FVec F S50000x64 .f32 :=
  maximumf
    (addf (mulf (mulf (subf z (rowBc (refMean z))) (rowBc (Host.rsqrt (addf (refVar z) refEps)))) (rowBc g)) (rowBc b))
    (broadcastInDim S50000x64 ![] bcast_S_S50000x64 (constant S_ .f32 0x00000000#32))

/-- The aggregation's denominator: max(in-degree, 1) per node, as a column. -/
def refDen (dst : IVec S800000 32) : FVec F S50000x1 .f32 :=
  broadcastInDim S50000x1 ![0] bcast_S50000_S50000x1_0
    (maximumf
      (Host.scatterAdd scatter_S50000_S800000x1_S800000_n_0_0_1
        (broadcastInDim S50000 ![] bcast_S_S50000 (constant S_ .f32 0x00000000#32))
        (broadcastInDim S800000x1 ![0] bcast_S800000_S800000x1_0 dst)
        (broadcastInDim S800000 ![] bcast_S_S800000 (constant S_ .f32 0x3F800000#32)))
      (broadcastInDim S50000 ![] bcast_S_S50000 (constant S_ .f32 0x3F800000#32)))

/-- Gather indices: a negative source index wrapped by adding 50000, as a column. -/
def refIdx (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Mean aggregation: rows of h gathered at the edge sources, summed into the edge destinations, divided by the denominator. -/
def refAgg (h : FVec F S50000x64 .f32) (src dst : IVec S800000 32) (den : FVec F S50000x1 .f32) : FVec F S50000x64 .f32 :=
  Host.divf
    (Host.scatterAdd scatter_S50000x64_S800000x1_S800000x64_1_0_0_1
      (broadcastInDim S50000x64 ![] bcast_S_S50000x64 (constant S_ .f32 0x00000000#32))
      (broadcastInDim S800000x1 ![0] bcast_S800000_S800000x1_0 dst)
      (Host.gather gather_S50000x64_S800000x1_S800000x64_1_0_n_n_0_1_164 h (refIdx src)))
    (broadcastInDim S50000x64 ![0, 1] bcast_S50000x1_S50000x64_0_1 den)

/-- Layer l's 64 × 64 matrix out of a stack of three. -/
def refMat0 (w : FVec F S3x64x64 .f32) : FVec F S64x64 .f32 :=
  shapeCast S64x64 (extractStridedSlice S1x64x64 ![0, 0, 0] w slices_S3x64x64_S1x64x64_0_0_0) shapeCasts_S1x64x64_S64x64
@[inherit_doc refMat0] def refMat1 (w : FVec F S3x64x64 .f32) : FVec F S64x64 .f32 :=
  shapeCast S64x64 (extractStridedSlice S1x64x64 ![1, 0, 0] w slices_S3x64x64_S1x64x64_1_0_0) shapeCasts_S1x64x64_S64x64
@[inherit_doc refMat0] def refMat2 (w : FVec F S3x64x64 .f32) : FVec F S64x64 .f32 :=
  shapeCast S64x64 (extractStridedSlice S1x64x64 ![2, 0, 0] w slices_S3x64x64_S1x64x64_2_0_0) shapeCasts_S1x64x64_S64x64
@[inherit_doc refMat0] def refMat (l : Fin 3) (w : FVec F S3x64x64 .f32) : FVec F S64x64 .f32 :=
  ![refMat0 w, refMat1 w, refMat2 w] l

/-- Layer l's length-64 vector out of a stack of three. -/
def refRow0 (v : FVec F S3x64 .f32) : FVec F S64 .f32 :=
  shapeCast S64 (extractStridedSlice S1x64 ![0, 0] v slices_S3x64_S1x64_0_0) shapeCasts_S1x64_S64
@[inherit_doc refRow0] def refRow1 (v : FVec F S3x64 .f32) : FVec F S64 .f32 :=
  shapeCast S64 (extractStridedSlice S1x64 ![1, 0] v slices_S3x64_S1x64_1_0) shapeCasts_S1x64_S64
@[inherit_doc refRow0] def refRow2 (v : FVec F S3x64 .f32) : FVec F S64 .f32 :=
  shapeCast S64 (extractStridedSlice S1x64 ![2, 0] v slices_S3x64_S1x64_2_0) shapeCasts_S1x64_S64
@[inherit_doc refRow0] def refRow (l : Fin 3) (v : FVec F S3x64 .f32) : FVec F S64 .f32 :=
  ![refRow0 v, refRow1 v, refRow2 v] l

/-- One layer's pre-activation: (agg · wl + bl) + h · wr. -/
def refPre (agg : FVec F S50000x64 .f32) (wl : FVec F S64x64 .f32) (bl : FVec F S64 .f32) (h : FVec F S50000x64 .f32)
    (wr : FVec F S64x64 .f32) : FVec F S50000x64 .f32 :=
  addf (addf (Host.dotGeneral dot_S50000x64_S64x64_S50000x64_1_0_0_1_n_n none agg wl) (rowBc bl))
    (Host.dotGeneral dot_S50000x64_S64x64_S50000x64_1_0_0_1_n_n none h wr)

/-- One residual layer over its own weights: h + BN(pre(agg(h), h)). -/
def refLayerCore (h : FVec F S50000x64 .f32) (src dst : IVec S800000 32) (den : FVec F S50000x1 .f32)
    (wl : FVec F S64x64 .f32) (bl : FVec F S64 .f32) (wr : FVec F S64x64 .f32) (g b : FVec F S64 .f32) : FVec F S50000x64 .f32 :=
  addf h (refBN (refPre (refAgg h src dst den) wl bl h wr) g b)

/-- Residual layer l over the stacked weights. -/
def refLayer (l : Fin 3) (h : FVec F S50000x64 .f32) (src dst : IVec S800000 32) (den : FVec F S50000x1 .f32)
    (wl : FVec F S3x64x64 .f32) (bl : FVec F S3x64 .f32) (wr : FVec F S3x64x64 .f32) (g bb : FVec F S3x64 .f32) :
    FVec F S50000x64 .f32 :=
  refLayerCore h src dst den (refMat l wl) (refRow l bl) (refMat l wr) (refRow l g) (refRow l bb)

/-- The first hidden state: the normalised, rectified input projection. -/
def refH0 (x : FVec F S50000x19 .f32) (w_in : FVec F S19x64 .f32) (b_in g0 b0 : FVec F S64 .f32) : FVec F S50000x64 .f32 :=
  refBN (refPre0 x w_in b_in) g0 b0

/-- Residual layer l with sources, destinations and denominator read off the edge table. -/
def refStep (l : Fin 3) (ei : IVec S2x800000 32) (wl : FVec F S3x64x64 .f32) (bl : FVec F S3x64 .f32)
    (wr : FVec F S3x64x64 .f32) (g bb : FVec F S3x64 .f32) (h : FVec F S50000x64 .f32) : FVec F S50000x64 .f32 :=
  refLayer l h (refSrc ei) (refDst ei) (refDen (refDst ei)) wl bl wr g bb

/-- The reference's result as a function of its eleven argument arrays. -/
def refOut (x : (⟨S50000x19, .f32⟩ : BufTy).Contents (Elt F)) (ei : (⟨S2x800000, .i32⟩ : BufTy).Contents (Elt F))
    (w_in : (⟨S19x64, .f32⟩ : BufTy).Contents (Elt F)) (b_in g0 b0 : (⟨S64, .f32⟩ : BufTy).Contents (Elt F))
    (wl : (⟨S3x64x64, .f32⟩ : BufTy).Contents (Elt F)) (bl : (⟨S3x64, .f32⟩ : BufTy).Contents (Elt F))
    (wr : (⟨S3x64x64, .f32⟩ : BufTy).Contents (Elt F)) (g bb : (⟨S3x64, .f32⟩ : BufTy).Contents (Elt F)) :
    (⟨S50000x64, .f32⟩ : BufTy).Contents (Elt F) :=
  refStep 2 ei wl bl wr g bb (refStep 1 ei wl bl wr g bb (refStep 0 ei wl bl wr g bb (refH0 x w_in b_in g0 b0)))

end Cert.ReferenceIdeal.Hand

end
-- ==== Proof.Ref.Ops.lean ====
import proofs.«167925_j62517543961156_1_alg».proof.Proof.Ref.Fns

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! The program's operations, the calls to the outlined variance, select and rectifier functions written out
at their call sites, as consecutive stretches: the prologue `P`, the four normalisations `N0 … N3`, the
denominator `D`, and each layer's aggregation and pre-activation `A0 … A2` in two parts. -/

/-- Stretch `P`: 8 operations, ending with `main_v7`. -/
abbrev P : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg2 main_v4 (((fun l r => Host.dotGeneral dot_S50000x19_S19x64_S50000x64_1_0_0_1_n_n none l r)) : (⟨S50000x19, .f32⟩ : BufTy).Contents (Elt F) → (⟨S19x64, .f32⟩ : BufTy).Contents (Elt F) → (⟨S50000x64, .f32⟩ : BufTy).Contents (Elt F)),
    unary main_arg3 main_v5 (broadcastInDim S1x64 ![1] bcast_S64_S1x64_1 : (⟨S64, .f32⟩ : BufTy).Contents (Elt F) → (⟨S1x64, .f32⟩ : BufTy).Contents (Elt F)),
    unary main_v5 main_v6 (broadcastInDim S50000x64 ![0, 1] bcast_S1x64_S50000x64_0_1 : (⟨S1x64, .f32⟩ : BufTy).Contents (Elt F) → (⟨S50000x64, .f32⟩ : BufTy).Contents (Elt F)),
    binary main_v4 main_v6 main_v7 (addf : (⟨S50000x64, .f32⟩ : BufTy).Contents (Elt F) → (⟨S50000x64, .f32⟩ : BufTy).Contents (Elt F) → (⟨S50000x64, .f32⟩ : BufTy).Contents (Elt F)) ]

/-- Stretch `N0`: 47 operations, ending with `main_v27`. -/
abbrev N0 : List (HloOp τ sig (Elt F)) :=
  [ nullary main_cst (constant S_ .f32 0x00000000#32),
    binary main_v7 main_cst main_v8 (((fun x v => Host.reduceAdd x v reducesTo_S50000x64_S64_d0 h_S_)) : (⟨S50000x64, .f32⟩ : BufTy).Contents (Elt F) → (⟨S_, .f32⟩ : BufTy).Contents (Elt F) → (⟨S64, .f32⟩ : BufTy).Contents (Elt F)),
    nullary main_cst_0 (constant S_ .f32 0x47435000#32),
    unary main_cst_0 main_v9 (broadcastInDim S64 ![] bcast_S_S64 : (⟨S_, .f32⟩ : BufTy).Contents (Elt F) → (⟨S64, .f32⟩ : BufTy).Contents (Elt F)),
    binary main_v8 main_v9 main_v10 (Host.divf : (⟨S64, .f32⟩ : BufTy).Contents (Elt F) → (⟨S64, .f32⟩ : BufTy).Contents (Elt F) → (⟨S64, .f32⟩ : BufTy).Contents (Elt F)),
    nullary main_c (constantI S_ 32 0#32),
    nullary main_call0_cst (constant S_ .f32 0x00000000#32),
    binary main_v7 main_call0_cst main_call0_v0 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    unary main_call0_v0 main_call0_v1 (broadcastInDim S1x64 ![1] bcast_S64_S1x64_1 : (⟨S64, .f32⟩ : BufTy).Contents (Elt F) → (⟨S1x64, .f32⟩ : BufTy).Contents (Elt F)),
    nullary main_call0_cst_0 (constant S_ .f32 0x47435000#32),
    unary main_call0_cst_0 main_call0_v2 (broadcastInDim S1x64 ![] bcast_S_S1x64 : (⟨S_, .f32⟩ : BufTy).Contents (Elt F) → (⟨S1x64, .f32⟩ : BufTy).Contents (Elt F)),
    binary main_call0_v1 main_call0_v2 main_call0_v3 (Host.divf : (⟨S1x64, .f32⟩ : BufTy).Contents (Elt F) → (⟨S1x64, .f32⟩ : BufTy).Contents (Elt F) → (⟨S1x64, .f32⟩ : BufTy).Contents (Elt F)),
    unary main_call0_v3 main_call0_v4 (broadcastInDim S50000x64 ![0, 1] bcast_S1x64_S50000x64_0_1 : (⟨S1x64, .f32⟩ : BufTy).Contents (Elt F) → (⟨S50000x64, .f32⟩ : BufTy).Contents (Elt F)),
    binary main_v7 main_call0_v4 main_call0_v5 (subf : (⟨S50000x64, .f32⟩ : BufTy).Contents (Elt F) → (⟨S50000x64, .f32⟩ : BufTy).Contents (Elt F) → (⟨S50000x64, .f32⟩ : BufTy).Contents (Elt F)),
    binary main_call0_v5 main_call0_v5 main_call0_v6 (mulf : (⟨S50000x64, .f32⟩ : BufTy).Contents (Elt F) → (⟨S50000x64, .f32⟩ : BufTy).Contents (Elt F) → (⟨S50000x64, .f32⟩ : BufTy).Contents (Elt F)),
    unary main_c main_call0_v7 (sitofp .f32 : (⟨S_, .i32⟩ : BufTy).Contents (Elt F) → (⟨S_, .f32⟩ : BufTy).Contents (Elt F)),
    nullary main_call0_cst_1 (constant S_ .f32 0x47435000#32),
    binary main_call0_cst_1 main_call0_v7 main_call0_v8 (subf : (⟨S_, .f32⟩ : BufTy).Contents (Elt F) → (⟨S_, .f32⟩ : BufTy).Contents (Elt F) → (⟨S_, .f32⟩ : BufTy).Contents (Elt F)),
    nullary main_call0_cst_2 (constant S_ .f32 0x00000000#32),
    binary main_call0_v6 main_call0_cst_2 main_call0_v9 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    unary main_call0_v8 main_call0_v10 (broadcastInDim S64 ![] bcast_S_S64 : (⟨S_, .f32⟩ : BufTy).Contents (Elt F) → (⟨S64, .f32⟩ : BufTy).Contents (Elt F)),
    binary main_call0_v9 main_call0_v10 main_call0_v11 (Host.divf : (⟨S64, .f32⟩ : BufTy).Contents (Elt F) → (⟨S64, .f32⟩ : BufTy).Contents (Elt F) → (⟨S64, .f32⟩ : BufTy).Contents (Elt F)),
    nullary main_call0_cst_3 (constant S_ .f32 0x00000000#32),
    binary main_call0_v8 main_call0_cst_3 main_call0_v12 (cmpf .ogt : (⟨S_, .f32⟩ : BufTy).Contents (Elt F) → (⟨S_, .f32⟩ : BufTy).Contents (Elt F) → (⟨S_, .i1⟩ : BufTy).Contents (Elt F)),
    nullary main_call0_cst_4 (constant S_ .f32 0x7FC00000#32),
    unary main_call0_cst_4 main_call0_call0_v0 (id : (⟨S_, .f32⟩ : BufTy).Contents (Elt F) → (⟨S_, .f32⟩ : BufTy).Contents (Elt F)),
    unary main_call0_call0_v0 main_call0_call0_v1 (broadcastInDim S64 ![] bcast_S_S64 : (⟨S_, .f32⟩ : BufTy).Contents (Elt F) → (⟨S64, .f32⟩ : BufTy).Contents (Elt F)),
    ternary main_call0_v12 main_call0_v11 main_call0_call0_v1 main_v11 ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)),
    unary main_v10 main_v12 (broadcastInDim S1x64 ![1] bcast_S64_S1x64_1 : (⟨S64, .f32⟩ : BufTy).Contents (Elt F) → (⟨S1x64, .f32⟩ : BufTy).Contents (Elt F)),
    unary main_v12 main_v13 (broadcastInDim S50000x64 ![0, 1] bcast_S1x64_S50000x64_0_1 : (⟨S1x64, .f32⟩ : BufTy).Contents (Elt F) → (⟨S50000x64, .f32⟩ : BufTy).Contents (Elt F)),
    binary main_v7 main_v13 main_v14 (subf : (⟨S50000x64, .f32⟩ : BufTy).Contents (Elt F) → (⟨S50000x64, .f32⟩ : BufTy).Contents (Elt F) → (⟨S50000x64, .f32⟩ : BufTy).Contents (Elt F)),
    nullary main_cst_1 (constant S_ .f32 0x3727C5AC#32),
    unary main_cst_1 main_v15 (broadcastInDim S64 ![] bcast_S_S64 : (⟨S_, .f32⟩ : BufTy).Contents (Elt F) → (⟨S64, .f32⟩ : BufTy).Contents (Elt F)),
    binary main_v11 main_v15 main_v16 (addf : (⟨S64, .f32⟩ : BufTy).Contents (Elt F) → (⟨S64, .f32⟩ : BufTy).Contents (Elt F) → (⟨S64, .f32⟩ : BufTy).Contents (Elt F)),
    unary main_v16 main_v17 (Host.rsqrt : (⟨S64, .f32⟩ : BufTy).Contents (Elt F) → (⟨S64, .f32⟩ : BufTy).Contents (Elt F)),
    unary main_v17 main_v18 (broadcastInDim S1x64 ![1] bcast_S64_S1x64_1 : (⟨S64, .f32⟩ : BufTy).Contents (Elt F) → (⟨S1x64, .f32⟩ : BufTy).Contents (Elt F)),
    unary main_v18 main_v19 (broadcastInDim S50000x64 ![0, 1] bcast_S1x64_S50000x64_0_1 : (⟨S1x64, .f32⟩ : BufTy).Contents (Elt F) → (⟨S50000x64, .f32⟩ : BufTy).Contents (Elt F)),
    binary main_v14 main_v19 main_v20 (mulf : (⟨S50000x64, .f32⟩ : BufTy).Contents (Elt F) → (⟨S50000x64, .f32⟩ : BufTy).Contents (Elt F) → (⟨S50000x64, .f32⟩ : BufTy).Contents (Elt F)),
    unary main_arg4 main_v21 (broadcastInDim S1x64 ![1] bcast_S64_S1x64_1 : (⟨S64, .f32⟩ : BufTy).Contents (Elt F) → (⟨S1x64, .f32⟩ : BufTy).Contents (Elt F)),
    unary main_v21 main_v22 (broadcastInDim S50000x64 ![0, 1] bcast_S1x64_S50000x64_0_1 : (⟨S1x64, .f32⟩ : BufTy).Contents (Elt F) → (⟨S50000x64, .f32⟩ : BufTy).Contents (Elt F)),
    binary main_v20 main_v22 main_v23 (mulf : (⟨S50000x64, .f32⟩ : BufTy).Contents (Elt F) → (⟨S50000x64, .f32⟩ : BufTy).Contents (Elt F) → (⟨S50000x64, .f32⟩ : BufTy).Contents (Elt F)),
    unary main_arg5 main_v24 (broadcastInDim S1x64 ![1] bcast_S64_S1x64_1 : (⟨S64, .f32⟩ : BufTy).Contents (Elt F) → (⟨S1x64, .f32⟩ : BufTy).Contents (Elt F)),
    unary main_v24 main_v25 (broadcastInDim S50000x64 ![0, 1] bcast_S1x64_S50000x64_0_1 : (⟨S1x64, .f32⟩ : BufTy).Contents (Elt F) → (⟨S50000x64, .f32⟩ : BufTy).Contents (Elt F)),
    binary main_v23 main_v25 main_v26 (addf : (⟨S50000x64, .f32⟩ : BufTy).Contents (Elt F) → (⟨S50000x64, .f32⟩ : BufTy).Contents (Elt F) → (⟨S50000x64, .f32⟩ : BufTy).Contents (Elt F)),
    nullary main_call1_cst (constant S_ .f32 0x00000000#32),
    unary main_call1_cst main_call1_v0 (broadcastInDim S50000x64 ![] bcast_S_S50000x64 : (⟨S_, .f32⟩ : BufTy).Contents (Elt F) → (⟨S50000x64, .f32⟩ : BufTy).Contents (Elt F)),
    binary main_v26 main_call1_v0 main_v27 (maximumf : (⟨S50000x64, .f32⟩ : BufTy).Contents (Elt F) → (⟨S50000x64, .f32⟩ : BufTy).Contents (Elt F) → (⟨S50000x64, .f32⟩ : BufTy).Contents (Elt F)) ]

/-- Stretch `D`: 10 operations, ending with `main_v34`. -/
abbrev D : List (HloOp τ sig (Elt F)) :=
  [ nullary main_cst_2 (constant S_ .f32 0x3F800000#32),
    unary main_cst_2 main_v28 (broadcastInDim S800000 ![] bcast_S_S800000 : (⟨S_, .f32⟩ : BufTy).Contents (Elt F) → (⟨S800000, .f32⟩ : BufTy).Contents (Elt F)),
    nullary main_cst_3 (constant S_ .f32 0x00000000#32),
    unary main_cst_3 main_v29 (broadcastInDim S50000 ![] bcast_S_S50000 : (⟨S_, .f32⟩ : BufTy).Contents (Elt F) → (⟨S50000, .f32⟩ : BufTy).Contents (Elt F)),
    unary main_v3 main_v30 (broadcastInDim S800000x1 ![0] bcast_S800000_S800000x1_0 : (⟨S800000, .i32⟩ : BufTy).Contents (Elt F) → (⟨S800000x1, .i32⟩ : BufTy).Contents (Elt F)),
    ternary main_v29 main_v30 main_v28 main_v31 (((fun x i u => Host.scatterAdd scatter_S50000_S800000x1_S800000_n_0_0_1 x i u)) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_4 (constant S_ .f32 0x3F800000#32),
    unary main_cst_4 main_v32 (broadcastInDim S50000 ![] bcast_S_S50000 : (⟨S_, .f32⟩ : BufTy).Contents (Elt F) → (⟨S50000, .f32⟩ : BufTy).Contents (Elt F)),
    binary main_v31 main_v32 main_v33 (maximumf : (⟨S50000, .f32⟩ : BufTy).Contents (Elt F) → (⟨S50000, .f32⟩ : BufTy).Contents (Elt F) → (⟨S50000, .f32⟩ : BufTy).Contents (Elt F)),
    unary main_v33 main_v34 (broadcastInDim S50000x1 ![0] bcast_S50000_S50000x1_0 : (⟨S50000, .f32⟩ : BufTy).Contents (Elt F) → (⟨S50000x1, .f32⟩ : BufTy).Contents (Elt F)) ]

/-- Stretch `A0a`: 18 operations, ending with `main_v49`. -/
abbrev A0a : List (HloOp τ sig (Elt F)) :=
  [ nullary main_c_5 (constantI S_ 32 0#32),
    unary main_c_5 main_v35 (broadcastInDim S800000 ![] bcast_S_S800000 : (⟨S_, .i32⟩ : BufTy).Contents (Elt F) → (⟨S800000, .i32⟩ : BufTy).Contents (Elt F)),
    binary main_v1 main_v35 main_v36 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v37 (broadcastInDim S800000 ![] bcast_S_S800000 : (⟨S_, .i32⟩ : BufTy).Contents (Elt F) → (⟨S800000, .i32⟩ : BufTy).Contents (Elt F)),
    binary main_v1 main_v37 main_v38 (addi : (⟨S800000, .i32⟩ : BufTy).Contents (Elt F) → (⟨S800000, .i32⟩ : BufTy).Contents (Elt F) → (⟨S800000, .i32⟩ : BufTy).Contents (Elt F)),
    ternary main_v36 main_v38 main_v1 main_v39 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v39 main_v40 (broadcastInDim S800000x1 ![0] bcast_S800000_S800000x1_0 : (⟨S800000, .i32⟩ : BufTy).Contents (Elt F) → (⟨S800000x1, .i32⟩ : BufTy).Contents (Elt F)),
    binary main_v27 main_v40 main_v41 (((fun x i => Host.gather gather_S50000x64_S800000x1_S800000x64_1_0_n_n_0_1_164 x i)) : (⟨S50000x64, .f32⟩ : BufTy).Contents (Elt F) → (⟨S800000x1, .i32⟩ : BufTy).Contents (Elt F) → (⟨S800000x64, .f32⟩ : BufTy).Contents (Elt F)),
    nullary main_cst_7 (constant S_ .f32 0x00000000#32),
    unary main_cst_7 main_v42 (broadcastInDim S50000x64 ![] bcast_S_S50000x64 : (⟨S_, .f32⟩ : BufTy).Contents (Elt F) → (⟨S50000x64, .f32⟩ : BufTy).Contents (Elt F)),
    unary main_v3 main_v43 (broadcastInDim S800000x1 ![0] bcast_S800000_S800000x1_0 : (⟨S800000, .i32⟩ : BufTy).Contents (Elt F) → (⟨S800000x1, .i32⟩ : BufTy).Contents (Elt F)),
    ternary main_v42 main_v43 main_v41 main_v44 (((fun x i u => Host.scatterAdd scatter_S50000x64_S800000x1_S800000x64_1_0_0_1 x i u)) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v34 main_v45 (broadcastInDim S50000x64 ![0, 1] bcast_S50000x1_S50000x64_0_1 : (⟨S50000x1, .f32⟩ : BufTy).Contents (Elt F) → (⟨S50000x64, .f32⟩ : BufTy).Contents (Elt F)),
    binary main_v44 main_v45 main_v46 (Host.divf : (⟨S50000x64, .f32⟩ : BufTy).Contents (Elt F) → (⟨S50000x64, .f32⟩ : BufTy).Contents (Elt F) → (⟨S50000x64, .f32⟩ : BufTy).Contents (Elt F)),
    unary main_arg6 main_v47 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v47 main_v48 rfl shapeCasts_S1x64x64_S64x64,
    binary main_v46 main_v48 main_v49 (((fun l r => Host.dotGeneral dot_S50000x64_S64x64_S50000x64_1_0_0_1_n_n none l r)) : (⟨S50000x64, .f32⟩ : BufTy).Contents (Elt F) → (⟨S64x64, .f32⟩ : BufTy).Contents (Elt F) → (⟨S50000x64, .f32⟩ : BufTy).Contents (Elt F)) ]

/-- Stretch `A0b`: 9 operations, ending with `main_v58`. -/
abbrev A0b : List (HloOp τ sig (Elt F)) :=
  [ unary main_arg7 main_v50 ((extractStridedSlice S1x64 ![0, 0] · slices_S3x64_S1x64_0_0) : (⟨S3x64, .f32⟩ : BufTy).Contents (Elt F) → (⟨S1x64, .f32⟩ : BufTy).Contents (Elt F)),
    reshape main_v50 main_v51 rfl shapeCasts_S1x64_S64,
    unary main_v51 main_v52 (broadcastInDim S1x64 ![1] bcast_S64_S1x64_1 : (⟨S64, .f32⟩ : BufTy).Contents (Elt F) → (⟨S1x64, .f32⟩ : BufTy).Contents (Elt F)),
    unary main_v52 main_v53 (broadcastInDim S50000x64 ![0, 1] bcast_S1x64_S50000x64_0_1 : (⟨S1x64, .f32⟩ : BufTy).Contents (Elt F) → (⟨S50000x64, .f32⟩ : BufTy).Contents (Elt F)),
    binary main_v49 main_v53 main_v54 (addf : (⟨S50000x64, .f32⟩ : BufTy).Contents (Elt F) → (⟨S50000x64, .f32⟩ : BufTy).Contents (Elt F) → (⟨S50000x64, .f32⟩ : BufTy).Contents (Elt F)),
    unary main_arg8 main_v55 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v55 main_v56 rfl shapeCasts_S1x64x64_S64x64,
    binary main_v27 main_v56 main_v57 (((fun l r => Host.dotGeneral dot_S50000x64_S64x64_S50000x64_1_0_0_1_n_n none l r)) : (⟨S50000x64, .f32⟩ : BufTy).Contents (Elt F) → (⟨S64x64, .f32⟩ : BufTy).Contents (Elt F) → (⟨S50000x64, .f32⟩ : BufTy).Contents (Elt F)),
    binary main_v54 main_v57 main_v58 (addf : (⟨S50000x64, .f32⟩ : BufTy).Contents (Elt F) → (⟨S50000x64, .f32⟩ : BufTy).Contents (Elt F) → (⟨S50000x64, .f32⟩ : BufTy).Contents (Elt F)) ]

/-- Stretch `N1`: 52 operations, ending with `main_v83`. -/
abbrev N1 : List (HloOp τ sig (Elt F)) :=
  [ unary main_arg9 main_v59 ((extractStridedSlice S1x64 ![0, 0] · slices_S3x64_S1x64_0_0) : (⟨S3x64, .f32⟩ : BufTy).Contents (Elt F) → (⟨S1x64, .f32⟩ : BufTy).Contents (Elt F)),
    reshape main_v59 main_v60 rfl shapeCasts_S1x64_S64,
    unary main_arg10 main_v61 ((extractStridedSlice S1x64 ![0, 0] · slices_S3x64_S1x64_0_0) : (⟨S3x64, .f32⟩ : BufTy).Contents (Elt F) → (⟨S1x64, .f32⟩ : BufTy).Contents (Elt F)),
    reshape main_v61 main_v62 rfl shapeCasts_S1x64_S64,
    nullary main_cst_8 (constant S_ .f32 0x00000000#32),
    binary main_v58 main_cst_8 main_v63 (((fun x v => Host.reduceAdd x v reducesTo_S50000x64_S64_d0 h_S_)) : (⟨S50000x64, .f32⟩ : BufTy).Contents (Elt F) → (⟨S_, .f32⟩ : BufTy).Contents (Elt F) → (⟨S64, .f32⟩ : BufTy).Contents (Elt F)),
    nullary main_cst_9 (constant S_ .f32 0x47435000#32),
    unary main_cst_9 main_v64 (broadcastInDim S64 ![] bcast_S_S64 : (⟨S_, .f32⟩ : BufTy).Contents (Elt F) → (⟨S64, .f32⟩ : BufTy).Contents (Elt F)),
    binary main_v63 main_v64 main_v65 (Host.divf : (⟨S64, .f32⟩ : BufTy).Contents (Elt F) → (⟨S64, .f32⟩ : BufTy).Contents (Elt F) → (⟨S64, .f32⟩ : BufTy).Contents (Elt F)),
    nullary main_c_10 (constantI S_ 32 0#32),
    nullary main_call2_cst (constant S_ .f32 0x00000000#32),
    binary main_v58 main_call2_cst main_call2_v0 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    unary main_call2_v0 main_call2_v1 (broadcastInDim S1x64 ![1] bcast_S64_S1x64_1 : (⟨S64, .f32⟩ : BufTy).Contents (Elt F) → (⟨S1x64, .f32⟩ : BufTy).Contents (Elt F)),
    nullary main_call2_cst_0 (constant S_ .f32 0x47435000#32),
    unary main_call2_cst_0 main_call2_v2 (broadcastInDim S1x64 ![] bcast_S_S1x64 : (⟨S_, .f32⟩ : BufTy).Contents (Elt F) → (⟨S1x64, .f32⟩ : BufTy).Contents (Elt F)),
    binary main_call2_v1 main_call2_v2 main_call2_v3 (Host.divf : (⟨S1x64, .f32⟩ : BufTy).Contents (Elt F) → (⟨S1x64, .f32⟩ : BufTy).Contents (Elt F) → (⟨S1x64, .f32⟩ : BufTy).Contents (Elt F)),
    unary main_call2_v3 main_call2_v4 (broadcastInDim S50000x64 ![0, 1] bcast_S1x64_S50000x64_0_1 : (⟨S1x64, .f32⟩ : BufTy).Contents (Elt F) → (⟨S50000x64, .f32⟩ : BufTy).Contents (Elt F)),
    binary main_v58 main_call2_v4 main_call2_v5 (subf : (⟨S50000x64, .f32⟩ : BufTy).Contents (Elt F) → (⟨S50000x64, .f32⟩ : BufTy).Contents (Elt F) → (⟨S50000x64, .f32⟩ : BufTy).Contents (Elt F)),
    binary main_call2_v5 main_call2_v5 main_call2_v6 (mulf : (⟨S50000x64, .f32⟩ : BufTy).Contents (Elt F) → (⟨S50000x64, .f32⟩ : BufTy).Contents (Elt F) → (⟨S50000x64, .f32⟩ : BufTy).Contents (Elt F)),
    unary main_c_10 main_call2_v7 (sitofp .f32 : (⟨S_, .i32⟩ : BufTy).Contents (Elt F) → (⟨S_, .f32⟩ : BufTy).Contents (Elt F)),
    nullary main_call2_cst_1 (constant S_ .f32 0x47435000#32),
    binary main_call2_cst_1 main_call2_v7 main_call2_v8 (subf : (⟨S_, .f32⟩ : BufTy).Contents (Elt F) → (⟨S_, .f32⟩ : BufTy).Contents (Elt F) → (⟨S_, .f32⟩ : BufTy).Contents (Elt F)),
    nullary main_call2_cst_2 (constant S_ .f32 0x00000000#32),
    binary main_call2_v6 main_call2_cst_2 main_call2_v9 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    unary main_call2_v8 main_call2_v10 (broadcastInDim S64 ![] bcast_S_S64 : (⟨S_, .f32⟩ : BufTy).Contents (Elt F) → (⟨S64, .f32⟩ : BufTy).Contents (Elt F)),
    binary main_call2_v9 main_call2_v10 main_call2_v11 (Host.divf : (⟨S64, .f32⟩ : BufTy).Contents (Elt F) → (⟨S64, .f32⟩ : BufTy).Contents (Elt F) → (⟨S64, .f32⟩ : BufTy).Contents (Elt F)),
    nullary main_call2_cst_3 (constant S_ .f32 0x00000000#32),
    binary main_call2_v8 main_call2_cst_3 main_call2_v12 (cmpf .ogt : (⟨S_, .f32⟩ : BufTy).Contents (Elt F) → (⟨S_, .f32⟩ : BufTy).Contents (Elt F) → (⟨S_, .i1⟩ : BufTy).Contents (Elt F)),
    nullary main_call2_cst_4 (constant S_ .f32 0x7FC00000#32),
    unary main_call2_cst_4 main_call2_call0_v0 (id : (⟨S_, .f32⟩ : BufTy).Contents (Elt F) → (⟨S_, .f32⟩ : BufTy).Contents (Elt F)),
    unary main_call2_call0_v0 main_call2_call0_v1 (broadcastInDim S64 ![] bcast_S_S64 : (⟨S_, .f32⟩ : BufTy).Contents (Elt F) → (⟨S64, .f32⟩ : BufTy).Contents (Elt F)),
    ternary main_call2_v12 main_call2_v11 main_call2_call0_v1 main_v66 ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)),
    unary main_v65 main_v67 (broadcastInDim S1x64 ![1] bcast_S64_S1x64_1 : (⟨S64, .f32⟩ : BufTy).Contents (Elt F) → (⟨S1x64, .f32⟩ : BufTy).Contents (Elt F)),
    unary main_v67 main_v68 (broadcastInDim S50000x64 ![0, 1] bcast_S1x64_S50000x64_0_1 : (⟨S1x64, .f32⟩ : BufTy).Contents (Elt F) → (⟨S50000x64, .f32⟩ : BufTy).Contents (Elt F)),
    binary main_v58 main_v68 main_v69 (subf : (⟨S50000x64, .f32⟩ : BufTy).Contents (Elt F) → (⟨S50000x64, .f32⟩ : BufTy).Contents (Elt F) → (⟨S50000x64, .f32⟩ : BufTy).Contents (Elt F)),
    nullary main_cst_11 (constant S_ .f32 0x3727C5AC#32),
    unary main_cst_11 main_v70 (broadcastInDim S64 ![] bcast_S_S64 : (⟨S_, .f32⟩ : BufTy).Contents (Elt F) → (⟨S64, .f32⟩ : BufTy).Contents (Elt F)),
    binary main_v66 main_v70 main_v71 (addf : (⟨S64, .f32⟩ : BufTy).Contents (Elt F) → (⟨S64, .f32⟩ : BufTy).Contents (Elt F) → (⟨S64, .f32⟩ : BufTy).Contents (Elt F)),
    unary main_v71 main_v72 (Host.rsqrt : (⟨S64, .f32⟩ : BufTy).Contents (Elt F) → (⟨S64, .f32⟩ : BufTy).Contents (Elt F)),
    unary main_v72 main_v73 (broadcastInDim S1x64 ![1] bcast_S64_S1x64_1 : (⟨S64, .f32⟩ : BufTy).Contents (Elt F) → (⟨S1x64, .f32⟩ : BufTy).Contents (Elt F)),
    unary main_v73 main_v74 (broadcastInDim S50000x64 ![0, 1] bcast_S1x64_S50000x64_0_1 : (⟨S1x64, .f32⟩ : BufTy).Contents (Elt F) → (⟨S50000x64, .f32⟩ : BufTy).Contents (Elt F)),
    binary main_v69 main_v74 main_v75 (mulf : (⟨S50000x64, .f32⟩ : BufTy).Contents (Elt F) → (⟨S50000x64, .f32⟩ : BufTy).Contents (Elt F) → (⟨S50000x64, .f32⟩ : BufTy).Contents (Elt F)),
    unary main_v60 main_v76 (broadcastInDim S1x64 ![1] bcast_S64_S1x64_1 : (⟨S64, .f32⟩ : BufTy).Contents (Elt F) → (⟨S1x64, .f32⟩ : BufTy).Contents (Elt F)),
    unary main_v76 main_v77 (broadcastInDim S50000x64 ![0, 1] bcast_S1x64_S50000x64_0_1 : (⟨S1x64, .f32⟩ : BufTy).Contents (Elt F) → (⟨S50000x64, .f32⟩ : BufTy).Contents (Elt F)),
    binary main_v75 main_v77 main_v78 (mulf : (⟨S50000x64, .f32⟩ : BufTy).Contents (Elt F) → (⟨S50000x64, .f32⟩ : BufTy).Contents (Elt F) → (⟨S50000x64, .f32⟩ : BufTy).Contents (Elt F)),
    unary main_v62 main_v79 (broadcastInDim S1x64 ![1] bcast_S64_S1x64_1 : (⟨S64, .f32⟩ : BufTy).Contents (Elt F) → (⟨S1x64, .f32⟩ : BufTy).Contents (Elt F)),
    unary main_v79 main_v80 (broadcastInDim S50000x64 ![0, 1] bcast_S1x64_S50000x64_0_1 : (⟨S1x64, .f32⟩ : BufTy).Contents (Elt F) → (⟨S50000x64, .f32⟩ : BufTy).Contents (Elt F)),
    binary main_v78 main_v80 main_v81 (addf : (⟨S50000x64, .f32⟩ : BufTy).Contents (Elt F) → (⟨S50000x64, .f32⟩ : BufTy).Contents (Elt F) → (⟨S50000x64, .f32⟩ : BufTy).Contents (Elt F)),
    nullary main_call3_cst (constant S_ .f32 0x00000000#32),
    unary main_call3_cst main_call3_v0 (broadcastInDim S50000x64 ![] bcast_S_S50000x64 : (⟨S_, .f32⟩ : BufTy).Contents (Elt F) → (⟨S50000x64, .f32⟩ : BufTy).Contents (Elt F)),
    binary main_v81 main_call3_v0 main_v82 (maximumf : (⟨S50000x64, .f32⟩ : BufTy).Contents (Elt F) → (⟨S50000x64, .f32⟩ : BufTy).Contents (Elt F) → (⟨S50000x64, .f32⟩ : BufTy).Contents (Elt F)),
    binary main_v27 main_v82 main_v83 (addf : (⟨S50000x64, .f32⟩ : BufTy).Contents (Elt F) → (⟨S50000x64, .f32⟩ : BufTy).Contents (Elt F) → (⟨S50000x64, .f32⟩ : BufTy).Contents (Elt F)) ]

/-- Stretch `A1a`: 22 operations, ending with `main_v102`. -/
abbrev A1a : List (HloOp τ sig (Elt F)) :=
  [ nullary main_c_12 (constantI S_ 32 0#32),
    unary main_c_12 main_v84 (broadcastInDim S800000 ![] bcast_S_S800000 : (⟨S_, .i32⟩ : BufTy).Contents (Elt F) → (⟨S800000, .i32⟩ : BufTy).Contents (Elt F)),
    binary main_v1 main_v84 main_v85 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v86 (broadcastInDim S800000 ![] bcast_S_S800000 : (⟨S_, .i32⟩ : BufTy).Contents (Elt F) → (⟨S800000, .i32⟩ : BufTy).Contents (Elt F)),
    binary main_v1 main_v86 main_v87 (addi : (⟨S800000, .i32⟩ : BufTy).Contents (Elt F) → (⟨S800000, .i32⟩ : BufTy).Contents (Elt F) → (⟨S800000, .i32⟩ : BufTy).Contents (Elt F)),
    ternary main_v85 main_v87 main_v1 main_v88 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v88 main_v89 (broadcastInDim S800000x1 ![0] bcast_S800000_S800000x1_0 : (⟨S800000, .i32⟩ : BufTy).Contents (Elt F) → (⟨S800000x1, .i32⟩ : BufTy).Contents (Elt F)),
    binary main_v83 main_v89 main_v90 (((fun x i => Host.gather gather_S50000x64_S800000x1_S800000x64_1_0_n_n_0_1_164 x i)) : (⟨S50000x64, .f32⟩ : BufTy).Contents (Elt F) → (⟨S800000x1, .i32⟩ : BufTy).Contents (Elt F) → (⟨S800000x64, .f32⟩ : BufTy).Contents (Elt F)),
    nullary main_cst_14 (constant S_ .f32 0x00000000#32),
    unary main_cst_14 main_v91 (broadcastInDim S50000x64 ![] bcast_S_S50000x64 : (⟨S_, .f32⟩ : BufTy).Contents (Elt F) → (⟨S50000x64, .f32⟩ : BufTy).Contents (Elt F)),
    unary main_v3 main_v92 (broadcastInDim S800000x1 ![0] bcast_S800000_S800000x1_0 : (⟨S800000, .i32⟩ : BufTy).Contents (Elt F) → (⟨S800000x1, .i32⟩ : BufTy).Contents (Elt F)),
    ternary main_v91 main_v92 main_v90 main_v93 (((fun x i u => Host.scatterAdd scatter_S50000x64_S800000x1_S800000x64_1_0_0_1 x i u)) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v34 main_v94 (broadcastInDim S50000x64 ![0, 1] bcast_S50000x1_S50000x64_0_1 : (⟨S50000x1, .f32⟩ : BufTy).Contents (Elt F) → (⟨S50000x64, .f32⟩ : BufTy).Contents (Elt F)),
    binary main_v93 main_v94 main_v95 (Host.divf : (⟨S50000x64, .f32⟩ : BufTy).Contents (Elt F) → (⟨S50000x64, .f32⟩ : BufTy).Contents (Elt F) → (⟨S50000x64, .f32⟩ : BufTy).Contents (Elt F)),
    unary main_arg6 main_v96 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v96 main_v97 rfl shapeCasts_S1x64x64_S64x64,
    binary main_v95 main_v97 main_v98 (((fun l r => Host.dotGeneral dot_S50000x64_S64x64_S50000x64_1_0_0_1_n_n none l r)) : (⟨S50000x64, .f32⟩ : BufTy).Contents (Elt F) → (⟨S64x64, .f32⟩ : BufTy).Contents (Elt F) → (⟨S50000x64, .f32⟩ : BufTy).Contents (Elt F)),
    unary main_arg7 main_v99 ((extractStridedSlice S1x64 ![1, 0] · slices_S3x64_S1x64_1_0) : (⟨S3x64, .f32⟩ : BufTy).Contents (Elt F) → (⟨S1x64, .f32⟩ : BufTy).Contents (Elt F)),
    reshape main_v99 main_v100 rfl shapeCasts_S1x64_S64,
    unary main_v100 main_v101 (broadcastInDim S1x64 ![1] bcast_S64_S1x64_1 : (⟨S64, .f32⟩ : BufTy).Contents (Elt F) → (⟨S1x64, .f32⟩ : BufTy).Contents (Elt F)),
    unary main_v101 main_v102 (broadcastInDim S50000x64 ![0, 1] bcast_S1x64_S50000x64_0_1 : (⟨S1x64, .f32⟩ : BufTy).Contents (Elt F) → (⟨S50000x64, .f32⟩ : BufTy).Contents (Elt F)) ]

/-- Stretch `A1b`: 5 operations, ending with `main_v107`. -/
abbrev A1b : List (HloOp τ sig (Elt F)) :=
  [ binary main_v98 main_v102 main_v103 (addf : (⟨S50000x64, .f32⟩ : BufTy).Contents (Elt F) → (⟨S50000x64, .f32⟩ : BufTy).Contents (Elt F) → (⟨S50000x64, .f32⟩ : BufTy).Contents (Elt F)),
    unary main_arg8 main_v104 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v104 main_v105 rfl shapeCasts_S1x64x64_S64x64,
    binary main_v83 main_v105 main_v106 (((fun l r => Host.dotGeneral dot_S50000x64_S64x64_S50000x64_1_0_0_1_n_n none l r)) : (⟨S50000x64, .f32⟩ : BufTy).Contents (Elt F) → (⟨S64x64, .f32⟩ : BufTy).Contents (Elt F) → (⟨S50000x64, .f32⟩ : BufTy).Contents (Elt F)),
    binary main_v103 main_v106 main_v107 (addf : (⟨S50000x64, .f32⟩ : BufTy).Contents (Elt F) → (⟨S50000x64, .f32⟩ : BufTy).Contents (Elt F) → (⟨S50000x64, .f32⟩ : BufTy).Contents (Elt F)) ]

/-- Stretch `N2`: 52 operations, ending with `main_v132`. -/
abbrev N2 : List (HloOp τ sig (Elt F)) :=
  [ unary main_arg9 main_v108 ((extractStridedSlice S1x64 ![1, 0] · slices_S3x64_S1x64_1_0) : (⟨S3x64, .f32⟩ : BufTy).Contents (Elt F) → (⟨S1x64, .f32⟩ : BufTy).Contents (Elt F)),
    reshape main_v108 main_v109 rfl shapeCasts_S1x64_S64,
    unary main_arg10 main_v110 ((extractStridedSlice S1x64 ![1, 0] · slices_S3x64_S1x64_1_0) : (⟨S3x64, .f32⟩ : BufTy).Contents (Elt F) → (⟨S1x64, .f32⟩ : BufTy).Contents (Elt F)),
    reshape main_v110 main_v111 rfl shapeCasts_S1x64_S64,
    nullary main_cst_15 (constant S_ .f32 0x00000000#32),
    binary main_v107 main_cst_15 main_v112 (((fun x v => Host.reduceAdd x v reducesTo_S50000x64_S64_d0 h_S_)) : (⟨S50000x64, .f32⟩ : BufTy).Contents (Elt F) → (⟨S_, .f32⟩ : BufTy).Contents (Elt F) → (⟨S64, .f32⟩ : BufTy).Contents (Elt F)),
    nullary main_cst_16 (constant S_ .f32 0x47435000#32),
    unary main_cst_16 main_v113 (broadcastInDim S64 ![] bcast_S_S64 : (⟨S_, .f32⟩ : BufTy).Contents (Elt F) → (⟨S64, .f32⟩ : BufTy).Contents (Elt F)),
    binary main_v112 main_v113 main_v114 (Host.divf : (⟨S64, .f32⟩ : BufTy).Contents (Elt F) → (⟨S64, .f32⟩ : BufTy).Contents (Elt F) → (⟨S64, .f32⟩ : BufTy).Contents (Elt F)),
    nullary main_c_17 (constantI S_ 32 0#32),
    nullary main_call4_cst (constant S_ .f32 0x00000000#32),
    binary main_v107 main_call4_cst main_call4_v0 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    unary main_call4_v0 main_call4_v1 (broadcastInDim S1x64 ![1] bcast_S64_S1x64_1 : (⟨S64, .f32⟩ : BufTy).Contents (Elt F) → (⟨S1x64, .f32⟩ : BufTy).Contents (Elt F)),
    nullary main_call4_cst_0 (constant S_ .f32 0x47435000#32),
    unary main_call4_cst_0 main_call4_v2 (broadcastInDim S1x64 ![] bcast_S_S1x64 : (⟨S_, .f32⟩ : BufTy).Contents (Elt F) → (⟨S1x64, .f32⟩ : BufTy).Contents (Elt F)),
    binary main_call4_v1 main_call4_v2 main_call4_v3 (Host.divf : (⟨S1x64, .f32⟩ : BufTy).Contents (Elt F) → (⟨S1x64, .f32⟩ : BufTy).Contents (Elt F) → (⟨S1x64, .f32⟩ : BufTy).Contents (Elt F)),
    unary main_call4_v3 main_call4_v4 (broadcastInDim S50000x64 ![0, 1] bcast_S1x64_S50000x64_0_1 : (⟨S1x64, .f32⟩ : BufTy).Contents (Elt F) → (⟨S50000x64, .f32⟩ : BufTy).Contents (Elt F)),
    binary main_v107 main_call4_v4 main_call4_v5 (subf : (⟨S50000x64, .f32⟩ : BufTy).Contents (Elt F) → (⟨S50000x64, .f32⟩ : BufTy).Contents (Elt F) → (⟨S50000x64, .f32⟩ : BufTy).Contents (Elt F)),
    binary main_call4_v5 main_call4_v5 main_call4_v6 (mulf : (⟨S50000x64, .f32⟩ : BufTy).Contents (Elt F) → (⟨S50000x64, .f32⟩ : BufTy).Contents (Elt F) → (⟨S50000x64, .f32⟩ : BufTy).Contents (Elt F)),
    unary main_c_17 main_call4_v7 (sitofp .f32 : (⟨S_, .i32⟩ : BufTy).Contents (Elt F) → (⟨S_, .f32⟩ : BufTy).Contents (Elt F)),
    nullary main_call4_cst_1 (constant S_ .f32 0x47435000#32),
    binary main_call4_cst_1 main_call4_v7 main_call4_v8 (subf : (⟨S_, .f32⟩ : BufTy).Contents (Elt F) → (⟨S_, .f32⟩ : BufTy).Contents (Elt F) → (⟨S_, .f32⟩ : BufTy).Contents (Elt F)),
    nullary main_call4_cst_2 (constant S_ .f32 0x00000000#32),
    binary main_call4_v6 main_call4_cst_2 main_call4_v9 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    unary main_call4_v8 main_call4_v10 (broadcastInDim S64 ![] bcast_S_S64 : (⟨S_, .f32⟩ : BufTy).Contents (Elt F) → (⟨S64, .f32⟩ : BufTy).Contents (Elt F)),
    binary main_call4_v9 main_call4_v10 main_call4_v11 (Host.divf : (⟨S64, .f32⟩ : BufTy).Contents (Elt F) → (⟨S64, .f32⟩ : BufTy).Contents (Elt F) → (⟨S64, .f32⟩ : BufTy).Contents (Elt F)),
    nullary main_call4_cst_3 (constant S_ .f32 0x00000000#32),
    binary main_call4_v8 main_call4_cst_3 main_call4_v12 (cmpf .ogt : (⟨S_, .f32⟩ : BufTy).Contents (Elt F) → (⟨S_, .f32⟩ : BufTy).Contents (Elt F) → (⟨S_, .i1⟩ : BufTy).Contents (Elt F)),
    nullary main_call4_cst_4 (constant S_ .f32 0x7FC00000#32),
    unary main_call4_cst_4 main_call4_call0_v0 (id : (⟨S_, .f32⟩ : BufTy).Contents (Elt F) → (⟨S_, .f32⟩ : BufTy).Contents (Elt F)),
    unary main_call4_call0_v0 main_call4_call0_v1 (broadcastInDim S64 ![] bcast_S_S64 : (⟨S_, .f32⟩ : BufTy).Contents (Elt F) → (⟨S64, .f32⟩ : BufTy).Contents (Elt F)),
    ternary main_call4_v12 main_call4_v11 main_call4_call0_v1 main_v115 ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)),
    unary main_v114 main_v116 (broadcastInDim S1x64 ![1] bcast_S64_S1x64_1 : (⟨S64, .f32⟩ : BufTy).Contents (Elt F) → (⟨S1x64, .f32⟩ : BufTy).Contents (Elt F)),
    unary main_v116 main_v117 (broadcastInDim S50000x64 ![0, 1] bcast_S1x64_S50000x64_0_1 : (⟨S1x64, .f32⟩ : BufTy).Contents (Elt F) → (⟨S50000x64, .f32⟩ : BufTy).Contents (Elt F)),
    binary main_v107 main_v117 main_v118 (subf : (⟨S50000x64, .f32⟩ : BufTy).Contents (Elt F) → (⟨S50000x64, .f32⟩ : BufTy).Contents (Elt F) → (⟨S50000x64, .f32⟩ : BufTy).Contents (Elt F)),
    nullary main_cst_18 (constant S_ .f32 0x3727C5AC#32),
    unary main_cst_18 main_v119 (broadcastInDim S64 ![] bcast_S_S64 : (⟨S_, .f32⟩ : BufTy).Contents (Elt F) → (⟨S64, .f32⟩ : BufTy).Contents (Elt F)),
    binary main_v115 main_v119 main_v120 (addf : (⟨S64, .f32⟩ : BufTy).Contents (Elt F) → (⟨S64, .f32⟩ : BufTy).Contents (Elt F) → (⟨S64, .f32⟩ : BufTy).Contents (Elt F)),
    unary main_v120 main_v121 (Host.rsqrt : (⟨S64, .f32⟩ : BufTy).Contents (Elt F) → (⟨S64, .f32⟩ : BufTy).Contents (Elt F)),
    unary main_v121 main_v122 (broadcastInDim S1x64 ![1] bcast_S64_S1x64_1 : (⟨S64, .f32⟩ : BufTy).Contents (Elt F) → (⟨S1x64, .f32⟩ : BufTy).Contents (Elt F)),
    unary main_v122 main_v123 (broadcastInDim S50000x64 ![0, 1] bcast_S1x64_S50000x64_0_1 : (⟨S1x64, .f32⟩ : BufTy).Contents (Elt F) → (⟨S50000x64, .f32⟩ : BufTy).Contents (Elt F)),
    binary main_v118 main_v123 main_v124 (mulf : (⟨S50000x64, .f32⟩ : BufTy).Contents (Elt F) → (⟨S50000x64, .f32⟩ : BufTy).Contents (Elt F) → (⟨S50000x64, .f32⟩ : BufTy).Contents (Elt F)),
    unary main_v109 main_v125 (broadcastInDim S1x64 ![1] bcast_S64_S1x64_1 : (⟨S64, .f32⟩ : BufTy).Contents (Elt F) → (⟨S1x64, .f32⟩ : BufTy).Contents (Elt F)),
    unary main_v125 main_v126 (broadcastInDim S50000x64 ![0, 1] bcast_S1x64_S50000x64_0_1 : (⟨S1x64, .f32⟩ : BufTy).Contents (Elt F) → (⟨S50000x64, .f32⟩ : BufTy).Contents (Elt F)),
    binary main_v124 main_v126 main_v127 (mulf : (⟨S50000x64, .f32⟩ : BufTy).Contents (Elt F) → (⟨S50000x64, .f32⟩ : BufTy).Contents (Elt F) → (⟨S50000x64, .f32⟩ : BufTy).Contents (Elt F)),
    unary main_v111 main_v128 (broadcastInDim S1x64 ![1] bcast_S64_S1x64_1 : (⟨S64, .f32⟩ : BufTy).Contents (Elt F) → (⟨S1x64, .f32⟩ : BufTy).Contents (Elt F)),
    unary main_v128 main_v129 (broadcastInDim S50000x64 ![0, 1] bcast_S1x64_S50000x64_0_1 : (⟨S1x64, .f32⟩ : BufTy).Contents (Elt F) → (⟨S50000x64, .f32⟩ : BufTy).Contents (Elt F)),
    binary main_v127 main_v129 main_v130 (addf : (⟨S50000x64, .f32⟩ : BufTy).Contents (Elt F) → (⟨S50000x64, .f32⟩ : BufTy).Contents (Elt F) → (⟨S50000x64, .f32⟩ : BufTy).Contents (Elt F)),
    nullary main_call5_cst (constant S_ .f32 0x00000000#32),
    unary main_call5_cst main_call5_v0 (broadcastInDim S50000x64 ![] bcast_S_S50000x64 : (⟨S_, .f32⟩ : BufTy).Contents (Elt F) → (⟨S50000x64, .f32⟩ : BufTy).Contents (Elt F)),
    binary main_v130 main_call5_v0 main_v131 (maximumf : (⟨S50000x64, .f32⟩ : BufTy).Contents (Elt F) → (⟨S50000x64, .f32⟩ : BufTy).Contents (Elt F) → (⟨S50000x64, .f32⟩ : BufTy).Contents (Elt F)),
    binary main_v83 main_v131 main_v132 (addf : (⟨S50000x64, .f32⟩ : BufTy).Contents (Elt F) → (⟨S50000x64, .f32⟩ : BufTy).Contents (Elt F) → (⟨S50000x64, .f32⟩ : BufTy).Contents (Elt F)) ]

/-- Stretch `A2a`: 26 operations, ending with `main_v155`. -/
abbrev A2a : List (HloOp τ sig (Elt F)) :=
  [ nullary main_c_19 (constantI S_ 32 0#32),
    unary main_c_19 main_v133 (broadcastInDim S800000 ![] bcast_S_S800000 : (⟨S_, .i32⟩ : BufTy).Contents (Elt F) → (⟨S800000, .i32⟩ : BufTy).Contents (Elt F)),
    binary main_v1 main_v133 main_v134 (cmpi .slt : (⟨S800000, .i32⟩ : BufTy).Contents (Elt F) → (⟨S800000, .i32⟩ : BufTy).Contents (Elt F) → (⟨S800000, .i1⟩ : BufTy).Contents (Elt F)),
    nullary main_c_20 (constantI S_ 32 50000#32),
    unary main_c_20 main_v135 (broadcastInDim S800000 ![] bcast_S_S800000 : (⟨S_, .i32⟩ : BufTy).Contents (Elt F) → (⟨S800000, .i32⟩ : BufTy).Contents (Elt F)),
    binary main_v1 main_v135 main_v136 (addi : (⟨S800000, .i32⟩ : BufTy).Contents (Elt F) → (⟨S800000, .i32⟩ : BufTy).Contents (Elt F) → (⟨S800000, .i32⟩ : BufTy).Contents (Elt F)),
    ternary main_v134 main_v136 main_v1 main_v137 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v137 main_v138 (broadcastInDim S800000x1 ![0] bcast_S800000_S800000x1_0 : (⟨S800000, .i32⟩ : BufTy).Contents (Elt F) → (⟨S800000x1, .i32⟩ : BufTy).Contents (Elt F)),
    binary main_v132 main_v138 main_v139 (((fun x i => Host.gather gather_S50000x64_S800000x1_S800000x64_1_0_n_n_0_1_164 x i)) : (⟨S50000x64, .f32⟩ : BufTy).Contents (Elt F) → (⟨S800000x1, .i32⟩ : BufTy).Contents (Elt F) → (⟨S800000x64, .f32⟩ : BufTy).Contents (Elt F)),
    nullary main_cst_21 (constant S_ .f32 0x00000000#32),
    unary main_cst_21 main_v140 (broadcastInDim S50000x64 ![] bcast_S_S50000x64 : (⟨S_, .f32⟩ : BufTy).Contents (Elt F) → (⟨S50000x64, .f32⟩ : BufTy).Contents (Elt F)),
    unary main_v3 main_v141 (broadcastInDim S800000x1 ![0] bcast_S800000_S800000x1_0 : (⟨S800000, .i32⟩ : BufTy).Contents (Elt F) → (⟨S800000x1, .i32⟩ : BufTy).Contents (Elt F)),
    ternary main_v140 main_v141 main_v139 main_v142 (((fun x i u => Host.scatterAdd scatter_S50000x64_S800000x1_S800000x64_1_0_0_1 x i u)) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v34 main_v143 (broadcastInDim S50000x64 ![0, 1] bcast_S50000x1_S50000x64_0_1 : (⟨S50000x1, .f32⟩ : BufTy).Contents (Elt F) → (⟨S50000x64, .f32⟩ : BufTy).Contents (Elt F)),
    binary main_v142 main_v143 main_v144 (Host.divf : (⟨S50000x64, .f32⟩ : BufTy).Contents (Elt F) → (⟨S50000x64, .f32⟩ : BufTy).Contents (Elt F) → (⟨S50000x64, .f32⟩ : BufTy).Contents (Elt F)),
    unary main_arg6 main_v145 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v145 main_v146 rfl shapeCasts_S1x64x64_S64x64,
    binary main_v144 main_v146 main_v147 (((fun l r => Host.dotGeneral dot_S50000x64_S64x64_S50000x64_1_0_0_1_n_n none l r)) : (⟨S50000x64, .f32⟩ : BufTy).Contents (Elt F) → (⟨S64x64, .f32⟩ : BufTy).Contents (Elt F) → (⟨S50000x64, .f32⟩ : BufTy).Contents (Elt F)),
    unary main_arg7 main_v148 ((extractStridedSlice S1x64 ![2, 0] · slices_S3x64_S1x64_2_0) : (⟨S3x64, .f32⟩ : BufTy).Contents (Elt F) → (⟨S1x64, .f32⟩ : BufTy).Contents (Elt F)),
    reshape main_v148 main_v149 rfl shapeCasts_S1x64_S64,
    unary main_v149 main_v150 (broadcastInDim S1x64 ![1] bcast_S64_S1x64_1 : (⟨S64, .f32⟩ : BufTy).Contents (Elt F) → (⟨S1x64, .f32⟩ : BufTy).Contents (Elt F)),
    unary main_v150 main_v151 (broadcastInDim S50000x64 ![0, 1] bcast_S1x64_S50000x64_0_1 : (⟨S1x64, .f32⟩ : BufTy).Contents (Elt F) → (⟨S50000x64, .f32⟩ : BufTy).Contents (Elt F)),
    binary main_v147 main_v151 main_v152 (addf : (⟨S50000x64, .f32⟩ : BufTy).Contents (Elt F) → (⟨S50000x64, .f32⟩ : BufTy).Contents (Elt F) → (⟨S50000x64, .f32⟩ : BufTy).Contents (Elt F)),
    unary main_arg8 main_v153 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v153 main_v154 rfl shapeCasts_S1x64x64_S64x64,
    binary main_v132 main_v154 main_v155 (((fun l r => Host.dotGeneral dot_S50000x64_S64x64_S50000x64_1_0_0_1_n_n none l r)) : (⟨S50000x64, .f32⟩ : BufTy).Contents (Elt F) → (⟨S64x64, .f32⟩ : BufTy).Contents (Elt F) → (⟨S50000x64, .f32⟩ : BufTy).Contents (Elt F)) ]

/-- Stretch `A2b`: 1 operations, ending with `main_v156`. -/
abbrev A2b : List (HloOp τ sig (Elt F)) :=
  [ binary main_v152 main_v155 main_v156 (addf : (⟨S50000x64, .f32⟩ : BufTy).Contents (Elt F) → (⟨S50000x64, .f32⟩ : BufTy).Contents (Elt F) → (⟨S50000x64, .f32⟩ : BufTy).Contents (Elt F)) ]

/-- Stretch `N3`: 52 operations, ending with `main_v181`. -/
abbrev N3 : List (HloOp τ sig (Elt F)) :=
  [ unary main_arg9 main_v157 ((extractStridedSlice S1x64 ![2, 0] · slices_S3x64_S1x64_2_0) : (⟨S3x64, .f32⟩ : BufTy).Contents (Elt F) → (⟨S1x64, .f32⟩ : BufTy).Contents (Elt F)),
    reshape main_v157 main_v158 rfl shapeCasts_S1x64_S64,
    unary main_arg10 main_v159 ((extractStridedSlice S1x64 ![2, 0] · slices_S3x64_S1x64_2_0) : (⟨S3x64, .f32⟩ : BufTy).Contents (Elt F) → (⟨S1x64, .f32⟩ : BufTy).Contents (Elt F)),
    reshape main_v159 main_v160 rfl shapeCasts_S1x64_S64,
    nullary main_cst_22 (constant S_ .f32 0x00000000#32),
    binary main_v156 main_cst_22 main_v161 (((fun x v => Host.reduceAdd x v reducesTo_S50000x64_S64_d0 h_S_)) : (⟨S50000x64, .f32⟩ : BufTy).Contents (Elt F) → (⟨S_, .f32⟩ : BufTy).Contents (Elt F) → (⟨S64, .f32⟩ : BufTy).Contents (Elt F)),
    nullary main_cst_23 (constant S_ .f32 0x47435000#32),
    unary main_cst_23 main_v162 (broadcastInDim S64 ![] bcast_S_S64 : (⟨S_, .f32⟩ : BufTy).Contents (Elt F) → (⟨S64, .f32⟩ : BufTy).Contents (Elt F)),
    binary main_v161 main_v162 main_v163 (Host.divf : (⟨S64, .f32⟩ : BufTy).Contents (Elt F) → (⟨S64, .f32⟩ : BufTy).Contents (Elt F) → (⟨S64, .f32⟩ : BufTy).Contents (Elt F)),
    nullary main_c_24 (constantI S_ 32 0#32),
    nullary main_call6_cst (constant S_ .f32 0x00000000#32),
    binary main_v156 main_call6_cst main_call6_v0 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    unary main_call6_v0 main_call6_v1 (broadcastInDim S1x64 ![1] bcast_S64_S1x64_1 : (⟨S64, .f32⟩ : BufTy).Contents (Elt F) → (⟨S1x64, .f32⟩ : BufTy).Contents (Elt F)),
    nullary main_call6_cst_0 (constant S_ .f32 0x47435000#32),
    unary main_call6_cst_0 main_call6_v2 (broadcastInDim S1x64 ![] bcast_S_S1x64 : (⟨S_, .f32⟩ : BufTy).Contents (Elt F) → (⟨S1x64, .f32⟩ : BufTy).Contents (Elt F)),
    binary main_call6_v1 main_call6_v2 main_call6_v3 (Host.divf : (⟨S1x64, .f32⟩ : BufTy).Contents (Elt F) → (⟨S1x64, .f32⟩ : BufTy).Contents (Elt F) → (⟨S1x64, .f32⟩ : BufTy).Contents (Elt F)),
    unary main_call6_v3 main_call6_v4 (broadcastInDim S50000x64 ![0, 1] bcast_S1x64_S50000x64_0_1 : (⟨S1x64, .f32⟩ : BufTy).Contents (Elt F) → (⟨S50000x64, .f32⟩ : BufTy).Contents (Elt F)),
    binary main_v156 main_call6_v4 main_call6_v5 (subf : (⟨S50000x64, .f32⟩ : BufTy).Contents (Elt F) → (⟨S50000x64, .f32⟩ : BufTy).Contents (Elt F) → (⟨S50000x64, .f32⟩ : BufTy).Contents (Elt F)),
    binary main_call6_v5 main_call6_v5 main_call6_v6 (mulf : (⟨S50000x64, .f32⟩ : BufTy).Contents (Elt F) → (⟨S50000x64, .f32⟩ : BufTy).Contents (Elt F) → (⟨S50000x64, .f32⟩ : BufTy).Contents (Elt F)),
    unary main_c_24 main_call6_v7 (sitofp .f32 : (⟨S_, .i32⟩ : BufTy).Contents (Elt F) → (⟨S_, .f32⟩ : BufTy).Contents (Elt F)),
    nullary main_call6_cst_1 (constant S_ .f32 0x47435000#32),
    binary main_call6_cst_1 main_call6_v7 main_call6_v8 (subf : (⟨S_, .f32⟩ : BufTy).Contents (Elt F) → (⟨S_, .f32⟩ : BufTy).Contents (Elt F) → (⟨S_, .f32⟩ : BufTy).Contents (Elt F)),
    nullary main_call6_cst_2 (constant S_ .f32 0x00000000#32),
    binary main_call6_v6 main_call6_cst_2 main_call6_v9 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    unary main_call6_v8 main_call6_v10 (broadcastInDim S64 ![] bcast_S_S64 : (⟨S_, .f32⟩ : BufTy).Contents (Elt F) → (⟨S64, .f32⟩ : BufTy).Contents (Elt F)),
    binary main_call6_v9 main_call6_v10 main_call6_v11 (Host.divf : (⟨S64, .f32⟩ : BufTy).Contents (Elt F) → (⟨S64, .f32⟩ : BufTy).Contents (Elt F) → (⟨S64, .f32⟩ : BufTy).Contents (Elt F)),
    nullary main_call6_cst_3 (constant S_ .f32 0x00000000#32),
    binary main_call6_v8 main_call6_cst_3 main_call6_v12 (cmpf .ogt : (⟨S_, .f32⟩ : BufTy).Contents (Elt F) → (⟨S_, .f32⟩ : BufTy).Contents (Elt F) → (⟨S_, .i1⟩ : BufTy).Contents (Elt F)),
    nullary main_call6_cst_4 (constant S_ .f32 0x7FC00000#32),
    unary main_call6_cst_4 main_call6_call0_v0 (id : (⟨S_, .f32⟩ : BufTy).Contents (Elt F) → (⟨S_, .f32⟩ : BufTy).Contents (Elt F)),
    unary main_call6_call0_v0 main_call6_call0_v1 (broadcastInDim S64 ![] bcast_S_S64 : (⟨S_, .f32⟩ : BufTy).Contents (Elt F) → (⟨S64, .f32⟩ : BufTy).Contents (Elt F)),
    ternary main_call6_v12 main_call6_v11 main_call6_call0_v1 main_v164 ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)),
    unary main_v163 main_v165 (broadcastInDim S1x64 ![1] bcast_S64_S1x64_1 : (⟨S64, .f32⟩ : BufTy).Contents (Elt F) → (⟨S1x64, .f32⟩ : BufTy).Contents (Elt F)),
    unary main_v165 main_v166 (broadcastInDim S50000x64 ![0, 1] bcast_S1x64_S50000x64_0_1 : (⟨S1x64, .f32⟩ : BufTy).Contents (Elt F) → (⟨S50000x64, .f32⟩ : BufTy).Contents (Elt F)),
    binary main_v156 main_v166 main_v167 (subf : (⟨S50000x64, .f32⟩ : BufTy).Contents (Elt F) → (⟨S50000x64, .f32⟩ : BufTy).Contents (Elt F) → (⟨S50000x64, .f32⟩ : BufTy).Contents (Elt F)),
    nullary main_cst_25 (constant S_ .f32 0x3727C5AC#32),
    unary main_cst_25 main_v168 (broadcastInDim S64 ![] bcast_S_S64 : (⟨S_, .f32⟩ : BufTy).Contents (Elt F) → (⟨S64, .f32⟩ : BufTy).Contents (Elt F)),
    binary main_v164 main_v168 main_v169 (addf : (⟨S64, .f32⟩ : BufTy).Contents (Elt F) → (⟨S64, .f32⟩ : BufTy).Contents (Elt F) → (⟨S64, .f32⟩ : BufTy).Contents (Elt F)),
    unary main_v169 main_v170 (Host.rsqrt : (⟨S64, .f32⟩ : BufTy).Contents (Elt F) → (⟨S64, .f32⟩ : BufTy).Contents (Elt F)),
    unary main_v170 main_v171 (broadcastInDim S1x64 ![1] bcast_S64_S1x64_1 : (⟨S64, .f32⟩ : BufTy).Contents (Elt F) → (⟨S1x64, .f32⟩ : BufTy).Contents (Elt F)),
    unary main_v171 main_v172 (broadcastInDim S50000x64 ![0, 1] bcast_S1x64_S50000x64_0_1 : (⟨S1x64, .f32⟩ : BufTy).Contents (Elt F) → (⟨S50000x64, .f32⟩ : BufTy).Contents (Elt F)),
    binary main_v167 main_v172 main_v173 (mulf : (⟨S50000x64, .f32⟩ : BufTy).Contents (Elt F) → (⟨S50000x64, .f32⟩ : BufTy).Contents (Elt F) → (⟨S50000x64, .f32⟩ : BufTy).Contents (Elt F)),
    unary main_v158 main_v174 (broadcastInDim S1x64 ![1] bcast_S64_S1x64_1 : (⟨S64, .f32⟩ : BufTy).Contents (Elt F) → (⟨S1x64, .f32⟩ : BufTy).Contents (Elt F)),
    unary main_v174 main_v175 (broadcastInDim S50000x64 ![0, 1] bcast_S1x64_S50000x64_0_1 : (⟨S1x64, .f32⟩ : BufTy).Contents (Elt F) → (⟨S50000x64, .f32⟩ : BufTy).Contents (Elt F)),
    binary main_v173 main_v175 main_v176 (mulf : (⟨S50000x64, .f32⟩ : BufTy).Contents (Elt F) → (⟨S50000x64, .f32⟩ : BufTy).Contents (Elt F) → (⟨S50000x64, .f32⟩ : BufTy).Contents (Elt F)),
    unary main_v160 main_v177 (broadcastInDim S1x64 ![1] bcast_S64_S1x64_1 : (⟨S64, .f32⟩ : BufTy).Contents (Elt F) → (⟨S1x64, .f32⟩ : BufTy).Contents (Elt F)),
    unary main_v177 main_v178 (broadcastInDim S50000x64 ![0, 1] bcast_S1x64_S50000x64_0_1 : (⟨S1x64, .f32⟩ : BufTy).Contents (Elt F) → (⟨S50000x64, .f32⟩ : BufTy).Contents (Elt F)),
    binary main_v176 main_v178 main_v179 (addf : (⟨S50000x64, .f32⟩ : BufTy).Contents (Elt F) → (⟨S50000x64, .f32⟩ : BufTy).Contents (Elt F) → (⟨S50000x64, .f32⟩ : BufTy).Contents (Elt F)),
    nullary main_call7_cst (constant S_ .f32 0x00000000#32),
    unary main_call7_cst main_call7_v0 (broadcastInDim S50000x64 ![] bcast_S_S50000x64 : (⟨S_, .f32⟩ : BufTy).Contents (Elt F) → (⟨S50000x64, .f32⟩ : BufTy).Contents (Elt F)),
    binary main_v179 main_call7_v0 main_v180 (maximumf : (⟨S50000x64, .f32⟩ : BufTy).Contents (Elt F) → (⟨S50000x64, .f32⟩ : BufTy).Contents (Elt F) → (⟨S50000x64, .f32⟩ : BufTy).Contents (Elt F)),
    binary main_v132 main_v180 main_v181 (addf : (⟨S50000x64, .f32⟩ : BufTy).Contents (Elt F) → (⟨S50000x64, .f32⟩ : BufTy).Contents (Elt F) → (⟨S50000x64, .f32⟩ : BufTy).Contents (Elt F)) ]

/-- The operations of the program's first window of statements. -/
def opsP0 : List (HloOp τ sig (Elt F)) := P ++ (N0 ++ (D ++ A0a))
/-- The operations of its second window. -/
def opsP1 : List (HloOp τ sig (Elt F)) := A0b ++ (N1 ++ A1a)
/-- The operations of its third window. -/
def opsP2 : List (HloOp τ sig (Elt F)) := A1b ++ (N2 ++ A2a)
/-- The operations of its last window. -/
def opsP3 : List (HloOp τ sig (Elt F)) := A2b ++ N3

/-- All 302 operations, in order. -/
abbrev ops : List (HloOp τ sig (Elt F)) := opsP0 ++ (opsP1 ++ (opsP2 ++ opsP3))

set_option maxRecDepth 65536 in
theorem main_part0_eq (c : Dev nD) : main_part0 (F := F) c = seq opsP0 := by
  unfold opsP0; rfl
set_option maxRecDepth 65536 in
theorem main_part1_eq (c : Dev nD) : main_part1 (F := F) c = seq opsP1 := by
  unfold opsP1; rfl
set_option maxRecDepth 65536 in
theorem main_part2_eq (c : Dev nD) : main_part2 (F := F) c = seq opsP2 := by
  unfold opsP2; rfl
set_option maxRecDepth 65536 in
theorem main_part3_eq (c : Dev nD) : main_part3 (F := F) c = seq opsP3 := by
  unfold opsP3; rfl

/-- The program is its operations run in order. -/
theorem main_eq (c : Dev nD) : main (F := F) c = seq ops := by
  have h : main (F := F) c
      = (main_part0 c >>= fun _ => main_part1 c >>= fun _ => main_part2 c >>= fun _ => main_part3 c) := rfl
  rw [h, main_part0_eq, main_part1_eq, main_part2_eq, main_part3_eq]
  simp only [ops, seq_append]

theorem scopedRefs_eq : (Finset.univ.filter fun b : Ref sig .tc => b.isScoped) = ∅ := by decide
theorem scopedSems_eq : (Finset.univ.filter fun sm : SemLoc sig => sm.isScoped .tc) = ∅ := by decide

/-- Running two stretches one after the other is running their concatenation. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

theorem P_sub : (P : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub ..⟩
theorem P_fresh : ∀ op ∈ (P : List (HloOp τ sig (Elt F))), op.fresh = ∅ := by
  intro _ h; (repeat (cases h with | head => rfl | tail _ h => ?_)); exact nomatch h

theorem N0_sub : (N0 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem N0_fresh : ∀ op ∈ (N0 : List (HloOp τ sig (Elt F))), op.fresh = ∅ := by
  intro _ h; (repeat (cases h with | head => rfl | tail _ h => ?_)); exact nomatch h

theorem D_sub : (D : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub ..⟩
theorem D_fresh : ∀ op ∈ (D : List (HloOp τ sig (Elt F))), op.fresh = ∅ := by
  intro _ h; (repeat (cases h with | head => rfl | tail _ h => ?_)); exact nomatch h

theorem A0a_sub : (A0a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., reshape_bufs_sub .., binary_bufs_sub ..⟩
theorem A0a_fresh : ∀ op ∈ (A0a : List (HloOp τ sig (Elt F))), op.fresh = ∅ := by
  intro _ h; (repeat (cases h with | head => rfl | tail _ h => ?_)); exact nomatch h

theorem A0b_sub : (A0b : List (HloOp τ sig (Elt F))).Forall fun op => op.bufs ⊆ tcRefs τ sig :=
  ⟨unary_bufs_sub .., reshape_bufs_sub .., unary_bufs_sub .., unary_bufs_sub .., binary_bufs_sub .., unary_bufs_sub .., reshape_bufs_sub .., binary_bufs_sub .., binary_bufs_sub ..⟩
theorem A0b_fresh : ∀ op ∈ (A0b : List (HloOp τ sig (Elt F))), op.fresh = ∅ := by
  intro _ h; (repeat (cases h with | head => rfl | tail _ h => ?_)); exact nomatch h

theorem N1_sub : (N1 : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub ..⟩
theorem N1_fresh : ∀ op ∈ (N1 : List (HloOp τ sig (Elt F))), op.fresh = ∅ := by
  intro _ h; (repeat (cases h with | head => rfl | tail _ h => ?_)); exact nomatch h

theorem A1a_sub : (A1a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., reshape_bufs_sub .., binary_bufs_sub .., unary_bufs_sub .., reshape_bufs_sub .., unary_bufs_sub .., unary_bufs_sub ..⟩
theorem A1a_fresh : ∀ op ∈ (A1a : List (HloOp τ sig (Elt F))), op.fresh = ∅ := by
  intro _ h; (repeat (cases h with | head => rfl | tail _ h => ?_)); exact nomatch h

theorem A1b_sub : (A1b : List (HloOp τ sig (Elt F))).Forall fun op => op.bufs ⊆ tcRefs τ sig :=
  ⟨binary_bufs_sub .., unary_bufs_sub .., reshape_bufs_sub .., binary_bufs_sub .., binary_bufs_sub ..⟩
theorem A1b_fresh : ∀ op ∈ (A1b : List (HloOp τ sig (Elt F))), op.fresh = ∅ := by
  intro _ h; (repeat (cases h with | head => rfl | tail _ h => ?_)); exact nomatch h

theorem N2_sub : (N2 : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub ..⟩
theorem N2_fresh : ∀ op ∈ (N2 : List (HloOp τ sig (Elt F))), op.fresh = ∅ := by
  intro _ h; (repeat (cases h with | head => rfl | tail _ h => ?_)); exact nomatch h

theorem A2a_sub : (A2a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub ..⟩
theorem A2a_fresh : ∀ op ∈ (A2a : List (HloOp τ sig (Elt F))), op.fresh = ∅ := by
  intro _ h; (repeat (cases h with | head => rfl | tail _ h => ?_)); exact nomatch h

theorem A2b_sub : (A2b : List (HloOp τ sig (Elt F))).Forall fun op => op.bufs ⊆ tcRefs τ sig :=
  binary_bufs_sub ..
theorem A2b_fresh : ∀ op ∈ (A2b : List (HloOp τ sig (Elt F))), op.fresh = ∅ := by
  intro _ h; (repeat (cases h with | head => rfl | tail _ h => ?_)); exact nomatch h

theorem N3_sub : (N3 : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub ..⟩
theorem N3_fresh : ∀ op ∈ (N3 : List (HloOp τ sig (Elt F))), op.fresh = ∅ := by
  intro _ h; (repeat (cases h with | head => rfl | tail _ h => ?_)); exact nomatch h

theorem ops_mem {op : HloOp τ sig (Elt F)} (h : op ∈ (ops : List (HloOp τ sig (Elt F)))) :
    op ∈ (P : List (HloOp τ sig (Elt F))) ∨ op ∈ (N0 : List (HloOp τ sig (Elt F))) ∨ op ∈ (D : List (HloOp τ sig (Elt F))) ∨ op ∈ (A0a : List (HloOp τ sig (Elt F))) ∨ op ∈ (A0b : List (HloOp τ sig (Elt F))) ∨ op ∈ (N1 : List (HloOp τ sig (Elt F))) ∨ op ∈ (A1a : List (HloOp τ sig (Elt F))) ∨ op ∈ (A1b : List (HloOp τ sig (Elt F))) ∨ op ∈ (N2 : List (HloOp τ sig (Elt F))) ∨ op ∈ (A2a : List (HloOp τ sig (Elt F))) ∨ op ∈ (A2b : List (HloOp τ sig (Elt F))) ∨ op ∈ (N3 : List (HloOp τ sig (Elt F))) := by
  simp only [ops, opsP0, opsP1, opsP2, opsP3, List.mem_append, or_assoc] at h
  exact h

theorem ops_sub : (ops : List (HloOp τ sig (Elt F))).Forall fun op => op.bufs ⊆ tcRefs τ sig :=
  List.forall_iff_forall_mem.mpr fun op h => by
    rcases ops_mem h with h | h | h | h | h | h | h | h | h | h | h | h
    exacts [List.forall_iff_forall_mem.mp P_sub op h, List.forall_iff_forall_mem.mp N0_sub op h, List.forall_iff_forall_mem.mp D_sub op h, List.forall_iff_forall_mem.mp A0a_sub op h, List.forall_iff_forall_mem.mp A0b_sub op h, List.forall_iff_forall_mem.mp N1_sub op h, List.forall_iff_forall_mem.mp A1a_sub op h, List.forall_iff_forall_mem.mp A1b_sub op h, List.forall_iff_forall_mem.mp N2_sub op h, List.forall_iff_forall_mem.mp A2a_sub op h, List.forall_iff_forall_mem.mp A2b_sub op h, List.forall_iff_forall_mem.mp N3_sub op h]

theorem ops_fresh : ∀ op ∈ (ops : List (HloOp τ sig (Elt F))), op.fresh = ∅ := by
  intro op h
  rcases ops_mem h with h | h | h | h | h | h | h | h | h | h | h | h
  exacts [P_fresh op h, N0_fresh op h, D_fresh op h, A0a_fresh op h, A0b_fresh op h, N1_fresh op h, A1a_fresh op h, A1b_fresh op h, N2_fresh op h, A2a_fresh op h, A2b_fresh op h, N3_fresh op h]

end Cert.ReferenceIdeal.Hand

end
-- ==== Proof.Ref.Blocks0.lean ====
import proofs.«167925_j62517543961156_1_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! The prologue, the first normalisation and the denominator, read from any contents. -/

/-- The buffers stretch `P` writes. -/
abbrev P_W : List (Ref sig .tc) := [main_v0, main_v1, main_v2, main_v3, main_v4, main_v5, main_v6, main_v7]
theorem P_writes : (P : List (HloOp τ sig (Elt F))).Forall fun op => op.writes ⊆ (P_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch `P` does not write keeps its contents through it. -/
theorem P_keep (W : Valuation τ sig (Elt F)) (r : Ref sig .tc) (h : r ∉ P_W) :
    after P W (no_index (Proc.devRef .tc r)) = W (Proc.devRef .tc r) :=
  after_of_writes_sub P W P_writes h

/-- The buffers stretch `N0` writes. -/
abbrev N0_W : List (Ref sig .tc) := [main_cst, main_v8, main_cst_0, main_v9, main_v10, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v11, main_v12, main_v13, main_v14, main_cst_1, main_v15, main_v16, main_v17, main_v18, main_v19, main_v20, main_v21, main_v22, main_v23, main_v24, main_v25, main_v26, main_call1_cst, main_call1_v0, main_v27]
theorem N0_writes : (N0 : List (HloOp τ sig (Elt F))).Forall fun op => op.writes ⊆ (N0_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch `N0` does not write keeps its contents through it. -/
theorem N0_keep (W : Valuation τ sig (Elt F)) (r : Ref sig .tc) (h : r ∉ N0_W) :
    after N0 W (no_index (Proc.devRef .tc r)) = W (Proc.devRef .tc r) :=
  after_of_writes_sub N0 W N0_writes h

/-- The buffers stretch `D` writes. -/
abbrev D_W : List (Ref sig .tc) := [main_cst_2, main_v28, main_cst_3, main_v29, main_v30, main_v31, main_cst_4, main_v32, main_v33, main_v34]
theorem D_writes : (D : List (HloOp τ sig (Elt F))).Forall fun op => op.writes ⊆ (D_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch `D` does not write keeps its contents through it. -/
theorem D_keep (W : Valuation τ sig (Elt F)) (r : Ref sig .tc) (h : r ∉ D_W) :
    after D W (no_index (Proc.devRef .tc r)) = W (Proc.devRef .tc r) :=
  after_of_writes_sub D W D_writes h

set_option maxRecDepth 8192 in
theorem P_src (W : Valuation τ sig (Elt F)) :
    after P W (no_index (Proc.devRef .tc main_v1)) = refSrc (W (Proc.devRef .tc main_arg1)) := by
  simp only [P]
  after_results_simp
  rfl

set_option maxRecDepth 8192 in
theorem P_dst (W : Valuation τ sig (Elt F)) :
    after P W (no_index (Proc.devRef .tc main_v3)) = refDst (W (Proc.devRef .tc main_arg1)) := by
  simp only [P]
  after_results_simp
  rfl

set_option maxRecDepth 8192 in
theorem P_pre (W : Valuation τ sig (Elt F)) :
    after P W (no_index (Proc.devRef .tc main_v7)) = refPre0 (W (Proc.devRef .tc main_arg0)) (W (Proc.devRef .tc main_arg2)) (W (Proc.devRef .tc main_arg3)) := by
  simp only [P]
  after_results_simp
  rfl

set_option maxRecDepth 8192 in
set_option maxHeartbeats 2000000 in
theorem N0_out (W : Valuation τ sig (Elt F)) :
    after N0 W (no_index (Proc.devRef .tc main_v27)) = refBN (W (Proc.devRef .tc main_v7)) (W (Proc.devRef .tc main_arg4)) (W (Proc.devRef .tc main_arg5)) := by
  simp only [N0]
  after_results_simp
  rfl

set_option maxRecDepth 8192 in
theorem D_out (W : Valuation τ sig (Elt F)) :
    after D W (no_index (Proc.devRef .tc main_v34)) = refDen (W (Proc.devRef .tc main_v3)) := by
  simp only [D]
  after_results_simp
  rfl

end Cert.ReferenceIdeal.Hand

end
-- ==== Proof.Ref.Blocks1.lean ====
import proofs.«167925_j62517543961156_1_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! Layer 0: its aggregation and pre-activation, then its normalisation and residual, read from any contents. -/

/-- The buffers stretch `A0a` writes. -/
abbrev A0a_W : List (Ref sig .tc) := [main_c_5, main_v35, main_v36, main_c_6, main_v37, main_v38, main_v39, main_v40, main_v41, main_cst_7, main_v42, main_v43, main_v44, main_v45, main_v46, main_v47, main_v48, main_v49]
theorem A0a_writes : (A0a : List (HloOp τ sig (Elt F))).Forall fun op => op.writes ⊆ (A0a_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch `A0a` does not write keeps its contents through it. -/
theorem A0a_keep (W : Valuation τ sig (Elt F)) (r : Ref sig .tc) (h : r ∉ A0a_W) :
    after A0a W (no_index (Proc.devRef .tc r)) = W (Proc.devRef .tc r) :=
  after_of_writes_sub A0a W A0a_writes h

/-- The buffers stretch `A0b` writes. -/
abbrev A0b_W : List (Ref sig .tc) := [main_v50, main_v51, main_v52, main_v53, main_v54, main_v55, main_v56, main_v57, main_v58]
theorem A0b_writes : (A0b : List (HloOp τ sig (Elt F))).Forall fun op => op.writes ⊆ (A0b_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch `A0b` does not write keeps its contents through it. -/
theorem A0b_keep (W : Valuation τ sig (Elt F)) (r : Ref sig .tc) (h : r ∉ A0b_W) :
    after A0b W (no_index (Proc.devRef .tc r)) = W (Proc.devRef .tc r) :=
  after_of_writes_sub A0b W A0b_writes h

/-- The buffers stretch `N1` writes. -/
abbrev N1_W : List (Ref sig .tc) := [main_v59, main_v60, main_v61, main_v62, main_cst_8, main_v63, main_cst_9, main_v64, main_v65, main_c_10, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v66, main_v67, main_v68, main_v69, main_cst_11, main_v70, main_v71, main_v72, main_v73, main_v74, main_v75, main_v76, main_v77, main_v78, main_v79, main_v80, main_v81, main_call3_cst, main_call3_v0, main_v82, main_v83]
theorem N1_writes : (N1 : List (HloOp τ sig (Elt F))).Forall fun op => op.writes ⊆ (N1_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch `N1` does not write keeps its contents through it. -/
theorem N1_keep (W : Valuation τ sig (Elt F)) (r : Ref sig .tc) (h : r ∉ N1_W) :
    after N1 W (no_index (Proc.devRef .tc r)) = W (Proc.devRef .tc r) :=
  after_of_writes_sub N1 W N1_writes h

set_option maxRecDepth 8192 in
set_option maxHeartbeats 2000000 in
theorem A0_out (W : Valuation τ sig (Elt F)) :
    after A0b (after A0a W) (no_index (Proc.devRef .tc main_v58)) = refPre (refAgg (W (Proc.devRef .tc main_v27)) (W (Proc.devRef .tc main_v1)) (W (Proc.devRef .tc main_v3)) (W (Proc.devRef .tc main_v34))) (refMat 0 (W (Proc.devRef .tc main_arg6))) (refRow 0 (W (Proc.devRef .tc main_arg7))) (W (Proc.devRef .tc main_v27)) (refMat 0 (W (Proc.devRef .tc main_arg8))) := by
  simp only [A0a, A0b]
  after_results_simp
  rfl

set_option maxRecDepth 8192 in
set_option maxHeartbeats 2000000 in
theorem N1_out (W : Valuation τ sig (Elt F)) :
    after N1 W (no_index (Proc.devRef .tc main_v83)) = addf (W (Proc.devRef .tc main_v27)) (refBN (W (Proc.devRef .tc main_v58)) (refRow 0 (W (Proc.devRef .tc main_arg9))) (refRow 0 (W (Proc.devRef .tc main_arg10)))) := by
  simp only [N1]
  after_results_simp
  rfl

end Cert.ReferenceIdeal.Hand

end
-- ==== Proof.Ref.Blocks2.lean ====
import proofs.«167925_j62517543961156_1_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! Layer 1: its aggregation and pre-activation, then its normalisation and residual, read from any contents. -/

/-- The buffers stretch `A1a` writes. -/
abbrev A1a_W : List (Ref sig .tc) := [main_c_12, main_v84, main_v85, main_c_13, main_v86, main_v87, main_v88, main_v89, main_v90, main_cst_14, main_v91, main_v92, main_v93, main_v94, main_v95, main_v96, main_v97, main_v98, main_v99, main_v100, main_v101, main_v102]
theorem A1a_writes : (A1a : List (HloOp τ sig (Elt F))).Forall fun op => op.writes ⊆ (A1a_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch `A1a` does not write keeps its contents through it. -/
theorem A1a_keep (W : Valuation τ sig (Elt F)) (r : Ref sig .tc) (h : r ∉ A1a_W) :
    after A1a W (no_index (Proc.devRef .tc r)) = W (Proc.devRef .tc r) :=
  after_of_writes_sub A1a W A1a_writes h

/-- The buffers stretch `A1b` writes. -/
abbrev A1b_W : List (Ref sig .tc) := [main_v103, main_v104, main_v105, main_v106, main_v107]
theorem A1b_writes : (A1b : List (HloOp τ sig (Elt F))).Forall fun op => op.writes ⊆ (A1b_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch `A1b` does not write keeps its contents through it. -/
theorem A1b_keep (W : Valuation τ sig (Elt F)) (r : Ref sig .tc) (h : r ∉ A1b_W) :
    after A1b W (no_index (Proc.devRef .tc r)) = W (Proc.devRef .tc r) :=
  after_of_writes_sub A1b W A1b_writes h

/-- The buffers stretch `N2` writes. -/
abbrev N2_W : List (Ref sig .tc) := [main_v108, main_v109, main_v110, main_v111, main_cst_15, main_v112, main_cst_16, main_v113, main_v114, main_c_17, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v115, main_v116, main_v117, main_v118, main_cst_18, main_v119, main_v120, main_v121, main_v122, main_v123, main_v124, main_v125, main_v126, main_v127, main_v128, main_v129, main_v130, main_call5_cst, main_call5_v0, main_v131, main_v132]
theorem N2_writes : (N2 : List (HloOp τ sig (Elt F))).Forall fun op => op.writes ⊆ (N2_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch `N2` does not write keeps its contents through it. -/
theorem N2_keep (W : Valuation τ sig (Elt F)) (r : Ref sig .tc) (h : r ∉ N2_W) :
    after N2 W (no_index (Proc.devRef .tc r)) = W (Proc.devRef .tc r) :=
  after_of_writes_sub N2 W N2_writes h

set_option maxRecDepth 8192 in
set_option maxHeartbeats 2000000 in
theorem A1_out (W : Valuation τ sig (Elt F)) :
    after A1b (after A1a W) (no_index (Proc.devRef .tc main_v107)) = refPre (refAgg (W (Proc.devRef .tc main_v83)) (W (Proc.devRef .tc main_v1)) (W (Proc.devRef .tc main_v3)) (W (Proc.devRef .tc main_v34))) (refMat 1 (W (Proc.devRef .tc main_arg6))) (refRow 1 (W (Proc.devRef .tc main_arg7))) (W (Proc.devRef .tc main_v83)) (refMat 1 (W (Proc.devRef .tc main_arg8))) := by
  simp only [A1a, A1b]
  after_results_simp
  rfl

set_option maxRecDepth 8192 in
set_option maxHeartbeats 2000000 in
theorem N2_out (W : Valuation τ sig (Elt F)) :
    after N2 W (no_index (Proc.devRef .tc main_v132)) = addf (W (Proc.devRef .tc main_v83)) (refBN (W (Proc.devRef .tc main_v107)) (refRow 1 (W (Proc.devRef .tc main_arg9))) (refRow 1 (W (Proc.devRef .tc main_arg10)))) := by
  simp only [N2]
  after_results_simp
  rfl

end Cert.ReferenceIdeal.Hand

end
-- ==== Proof.Ref.Blocks3.lean ====
import proofs.«167925_j62517543961156_1_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! Layer 2: its aggregation and pre-activation, then its normalisation and residual, read from any contents. -/

/-- The buffers stretch `A2a` writes. -/
abbrev A2a_W : List (Ref sig .tc) := [main_c_19, main_v133, main_v134, main_c_20, main_v135, main_v136, main_v137, main_v138, main_v139, main_cst_21, main_v140, main_v141, main_v142, main_v143, main_v144, main_v145, main_v146, main_v147, main_v148, main_v149, main_v150, main_v151, main_v152, main_v153, main_v154, main_v155]
theorem A2a_writes : (A2a : List (HloOp τ sig (Elt F))).Forall fun op => op.writes ⊆ (A2a_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch `A2a` does not write keeps its contents through it. -/
theorem A2a_keep (W : Valuation τ sig (Elt F)) (r : Ref sig .tc) (h : r ∉ A2a_W) :
    after A2a W (no_index (Proc.devRef .tc r)) = W (Proc.devRef .tc r) :=
  after_of_writes_sub A2a W A2a_writes h

/-- The buffers stretch `A2b` writes. -/
abbrev A2b_W : List (Ref sig .tc) := [main_v156]
theorem A2b_writes : (A2b : List (HloOp τ sig (Elt F))).Forall fun op => op.writes ⊆ (A2b_W.map (Proc.devRef (τ := τ) .tc)).toFinset := by
  simp only [List.Forall]
  exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer stretch `A2b` does not write keeps its contents through it. -/
theorem A2b_keep (W : Valuation τ sig (Elt F)) (r : Ref sig .tc) (h : r ∉ A2b_W) :
    after A2b W (no_index (Proc.devRef .tc r)) = W (Proc.devRef .tc r) :=
  after_of_writes_sub A2b W A2b_writes h

/-- The buffers stretch `N3` writes. -/
abbrev N3_W : List (Ref sig .tc) := [main_v157, main_v158, main_v159, main_v160, main_cst_22, main_v161, main_cst_23, main_v162, main_v163, main_c_24, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v164, main_v165, main_v166, main_v167, main_cst_25, main_v168, main_v169, main_v170, main_v171, main_v172, main_v173, main_v174, main_v175, main_v176, main_v177, main_v178, main_v179, main_call7_cst, main_call7_v0, main_v180, main_v181]
theorem N3_writes : (N3 : List (HloOp τ sig (Elt F))).Forall fun op => op.writes ⊆ (N3_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch `N3` does not write keeps its contents through it. -/
theorem N3_keep (W : Valuation τ sig (Elt F)) (r : Ref sig .tc) (h : r ∉ N3_W) :
    after N3 W (no_index (Proc.devRef .tc r)) = W (Proc.devRef .tc r) :=
  after_of_writes_sub N3 W N3_writes h

set_option maxRecDepth 8192 in
set_option maxHeartbeats 2000000 in
theorem A2_out (W : Valuation τ sig (Elt F)) :
    after A2b (after A2a W) (no_index (Proc.devRef .tc main_v156)) = refPre (refAgg (W (Proc.devRef .tc main_v132)) (W (Proc.devRef .tc main_v1)) (W (Proc.devRef .tc main_v3)) (W (Proc.devRef .tc main_v34))) (refMat 2 (W (Proc.devRef .tc main_arg6))) (refRow 2 (W (Proc.devRef .tc main_arg7))) (W (Proc.devRef .tc main_v132)) (refMat 2 (W (Proc.devRef .tc main_arg8))) := by
  simp only [A2a, A2b]
  after_results_simp
  rfl

set_option maxRecDepth 8192 in
set_option maxHeartbeats 2000000 in
theorem N3_out (W : Valuation τ sig (Elt F)) :
    after N3 W (no_index (Proc.devRef .tc main_v181)) = addf (W (Proc.devRef .tc main_v132)) (refBN (W (Proc.devRef .tc main_v156)) (refRow 2 (W (Proc.devRef .tc main_arg9))) (refRow 2 (W (Proc.devRef .tc main_arg10)))) := by
  simp only [N3]
  after_results_simp
  rfl

end Cert.ReferenceIdeal.Hand

end
-- ==== Proof.Ref.Run.lean ====
import proofs.«167925_j62517543961156_1_alg».proof.Proof.Ref.Blocks0
import proofs.«167925_j62517543961156_1_alg».proof.Proof.Ref.Blocks1
import proofs.«167925_j62517543961156_1_alg».proof.Proof.Ref.Blocks2
import proofs.«167925_j62517543961156_1_alg».proof.Proof.Ref.Blocks3

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! The run of the reference program: every fair execution terminates with the result buffer at `refOut` of the
argument arrays' launch contents and the arguments unchanged. The operations are read stretch by stretch. -/

/-- The contents after all operations: the stretches applied in order. -/
theorem ops_split (V : Valuation τ sig (Elt F)) :
    after ops V = after N3 (after A2b (after A2a (after N2 (after A1b (after A1a (after N1 (after A0b (after A0a
      (after D (after N0 (after P V))))))))))) := by
  simp only [ops, opsP0, opsP1, opsP2, opsP3, after_app]

set_option maxRecDepth 8192 in
/-- The result buffer after all operations is `refOut` of the arguments' contents. -/
theorem after_ops_out (V : Valuation τ sig (Elt F)) :
    after ops V (Proc.devRef .tc main_v181)
      = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [ops_split]
  simp (disch := decide) only [N3_out, A2_out, N2_out, A1_out, N1_out, A0_out, D_out, N0_out, P_src, P_dst, P_pre,
    N3_keep, A2b_keep, A2a_keep, N2_keep, A1b_keep, A1a_keep, N1_keep, A0b_keep, A0a_keep, D_keep, N0_keep, P_keep]
  rfl

theorem after_ops_main_arg0 (V : Valuation τ sig (Elt F)) :
    after ops V (Proc.devRef .tc main_arg0) = V (Proc.devRef .tc main_arg0) := by
  rw [ops_split]
  simp (disch := decide) only [N3_keep, A2b_keep, A2a_keep, N2_keep, A1b_keep, A1a_keep, N1_keep, A0b_keep, A0a_keep, D_keep, N0_keep, P_keep]

theorem after_ops_main_arg1 (V : Valuation τ sig (Elt F)) :
    after ops V (Proc.devRef .tc main_arg1) = V (Proc.devRef .tc main_arg1) := by
  rw [ops_split]
  simp (disch := decide) only [N3_keep, A2b_keep, A2a_keep, N2_keep, A1b_keep, A1a_keep, N1_keep, A0b_keep, A0a_keep, D_keep, N0_keep, P_keep]

theorem after_ops_main_arg2 (V : Valuation τ sig (Elt F)) :
    after ops V (Proc.devRef .tc main_arg2) = V (Proc.devRef .tc main_arg2) := by
  rw [ops_split]
  simp (disch := decide) only [N3_keep, A2b_keep, A2a_keep, N2_keep, A1b_keep, A1a_keep, N1_keep, A0b_keep, A0a_keep, D_keep, N0_keep, P_keep]

theorem after_ops_main_arg3 (V : Valuation τ sig (Elt F)) :
    after ops V (Proc.devRef .tc main_arg3) = V (Proc.devRef .tc main_arg3) := by
  rw [ops_split]
  simp (disch := decide) only [N3_keep, A2b_keep, A2a_keep, N2_keep, A1b_keep, A1a_keep, N1_keep, A0b_keep, A0a_keep, D_keep, N0_keep, P_keep]

theorem after_ops_main_arg4 (V : Valuation τ sig (Elt F)) :
    after ops V (Proc.devRef .tc main_arg4) = V (Proc.devRef .tc main_arg4) := by
  rw [ops_split]
  simp (disch := decide) only [N3_keep, A2b_keep, A2a_keep, N2_keep, A1b_keep, A1a_keep, N1_keep, A0b_keep, A0a_keep, D_keep, N0_keep, P_keep]

theorem after_ops_main_arg5 (V : Valuation τ sig (Elt F)) :
    after ops V (Proc.devRef .tc main_arg5) = V (Proc.devRef .tc main_arg5) := by
  rw [ops_split]
  simp (disch := decide) only [N3_keep, A2b_keep, A2a_keep, N2_keep, A1b_keep, A1a_keep, N1_keep, A0b_keep, A0a_keep, D_keep, N0_keep, P_keep]

theorem after_ops_main_arg6 (V : Valuation τ sig (Elt F)) :
    after ops V (Proc.devRef .tc main_arg6) = V (Proc.devRef .tc main_arg6) := by
  rw [ops_split]
  simp (disch := decide) only [N3_keep, A2b_keep, A2a_keep, N2_keep, A1b_keep, A1a_keep, N1_keep, A0b_keep, A0a_keep, D_keep, N0_keep, P_keep]

theorem after_ops_main_arg7 (V : Valuation τ sig (Elt F)) :
    after ops V (Proc.devRef .tc main_arg7) = V (Proc.devRef .tc main_arg7) := by
  rw [ops_split]
  simp (disch := decide) only [N3_keep, A2b_keep, A2a_keep, N2_keep, A1b_keep, A1a_keep, N1_keep, A0b_keep, A0a_keep, D_keep, N0_keep, P_keep]

theorem after_ops_main_arg8 (V : Valuation τ sig (Elt F)) :
    after ops V (Proc.devRef .tc main_arg8) = V (Proc.devRef .tc main_arg8) := by
  rw [ops_split]
  simp (disch := decide) only [N3_keep, A2b_keep, A2a_keep, N2_keep, A1b_keep, A1a_keep, N1_keep, A0b_keep, A0a_keep, D_keep, N0_keep, P_keep]

theorem after_ops_main_arg9 (V : Valuation τ sig (Elt F)) :
    after ops V (Proc.devRef .tc main_arg9) = V (Proc.devRef .tc main_arg9) := by
  rw [ops_split]
  simp (disch := decide) only [N3_keep, A2b_keep, A2a_keep, N2_keep, A1b_keep, A1a_keep, N1_keep, A0b_keep, A0a_keep, D_keep, N0_keep, P_keep]

theorem after_ops_main_arg10 (V : Valuation τ sig (Elt F)) :
    after ops V (Proc.devRef .tc main_arg10) = V (Proc.devRef .tc main_arg10) := by
  rw [ops_split]
  simp (disch := decide) only [N3_keep, A2b_keep, A2a_keep, N2_keep, A1b_keep, A1a_keep, N1_keep, A0b_keep, A0a_keep, D_keep, N0_keep, P_keep]

/-- On every device, for any float values, from any memory with zero counters: every weakly fair execution of
    the program terminates with the result at `refOut` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v181) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v181).trans (after_ops_out (launchContents m c)),
      (h c main_arg0).trans (after_ops_main_arg0 (launchContents m c)),
      (h c main_arg1).trans (after_ops_main_arg1 (launchContents m c)),
      (h c main_arg2).trans (after_ops_main_arg2 (launchContents m c)),
      (h c main_arg3).trans (after_ops_main_arg3 (launchContents m c)),
      (h c main_arg4).trans (after_ops_main_arg4 (launchContents m c)),
      (h c main_arg5).trans (after_ops_main_arg5 (launchContents m c)),
      (h c main_arg6).trans (after_ops_main_arg6 (launchContents m c)),
      (h c main_arg7).trans (after_ops_main_arg7 (launchContents m c)),
      (h c main_arg8).trans (after_ops_main_arg8 (launchContents m c)),
      (h c main_arg9).trans (after_ops_main_arg9 (launchContents m c)),
      (h c main_arg10).trans (after_ops_main_arg10 (launchContents m c))⟩)
    (run_seq scopedRefs_eq scopedSems_eq defs main (fun _ => ops) main_eq (fun _ => ops_sub) m ρ (fun _ => ops_fresh))

end Cert.ReferenceIdeal.Hand

end
-- ==== Proof.Ref.Frame.lean ====
import proofs.«167925_j62517543961156_1_alg».proof.Proof.Ref.Run
import proofs.«167925_j62517543961156_1_alg».proof.Defs
import proofs.«167925_j62517543961156_1_alg».proof.Proof.Gen.Pre_finite_inputs

noncomputable section

namespace Cert.ReferenceIdeal.Hand

open Cert.ReferenceIdeal Idealize.ShloMosaic Idealize.SL.Sem

/-- The reference program runs and leaves its argument arrays unchanged: the run with the result's value dropped. -/
theorem frame : Cert.frame_ReferenceIdeal (hReferenceIdeal := Cert.ReferenceIdeal.Gen.facts)
    (hPre_finite_inputs := Cert.Pre_finite_inputs.Gen.facts) :=
  fun m ρ _ => (θ_run defs _ _).mono (fun _ h c => (h c).2) (run m ρ)

end Cert.ReferenceIdeal.Hand

end
-- ==== Proof.KI.Steps.lean ====
/-
  What each of @main's twelve items leaves alone: a buffer read anywhere in the fold of buffer contents walks back, item by
  item, to the item that last wrote it.
-/
import proofs.«167925_j62517543961156_1_alg».proof.Proof.KI.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## What each item leaves alone

A host stretch changes only the buffers its operations write; a region changes only its output arrays — an input array is
handed back as found, and a buffer that is no array of the region is not touched. -/
theorem W1_step (c : Dev nD) (r : Ref sig .tc) (h : r ∉ hostOps0_W) :
    W1 m ρ c (Proc.devRef .tc r) = W0 m ρ c (Proc.devRef .tc r) :=
  StableHlo.after_of_writes_sub hostOps0 _ hostOps0_writes h
theorem W4_step (c : Dev nD) (r : Ref sig .tc) (h : r ∉ hostOps2_W) :
    W4 m ρ c (Proc.devRef .tc r) = W3 m ρ c (Proc.devRef .tc r) :=
  StableHlo.after_of_writes_sub hostOps2 _ hostOps2_writes h
theorem W7_step (c : Dev nD) (r : Ref sig .tc) (h : r ∉ hostOps4_W) :
    W7 m ρ c (Proc.devRef .tc r) = W6 m ρ c (Proc.devRef .tc r) :=
  StableHlo.after_of_writes_sub hostOps4 _ hostOps4_writes h
theorem W10_step (c : Dev nD) (r : Ref sig .tc) (h : r ∉ hostOps6_W) :
    W10 m ρ c (Proc.devRef .tc r) = W9 m ρ c (Proc.devRef .tc r) :=
  StableHlo.after_of_writes_sub hostOps6 _ hostOps6_writes h
theorem W2_step (c : Dev nD) (r : Ref sig .tc) (h : r ∉ ([main_v14_0, main_v14_1, main_v14_2] : List (Ref sig .tc))) :
    W2 m ρ c (Proc.devRef .tc r) = W1 m ρ c (Proc.devRef .tc r) := by
  by_cases hw : ∃ w, Pipeline.arrRef spec0 w = r
  · obtain ⟨w, rfl⟩ := hw
    have hin : (cfg0.win w).isOut = false := by
      revert h; revert w; decide
    exact (W2_arr m ρ c w).trans (((dat0 (U1 m ρ) c).arrAt_in w hin _).trans (A_eq0 (U1 m ρ) c w))
  · exact W2_of_ne m ρ c r fun w e => hw ⟨w, e⟩
theorem W3_step (c : Dev nD) (r : Ref sig .tc) (h : r ∉ ([main_v15] : List (Ref sig .tc))) :
    W3 m ρ c (Proc.devRef .tc r) = W2 m ρ c (Proc.devRef .tc r) := by
  by_cases hw : ∃ w, Pipeline.arrRef spec1 w = r
  · obtain ⟨w, rfl⟩ := hw
    have hin : (cfg1.win w).isOut = false := by
      revert h; revert w; decide
    exact (W3_arr m ρ c w).trans (((dat1 (U2 m ρ) c).arrAt_in w hin _).trans (A_eq1 (U2 m ρ) c w))
  · exact W3_of_ne m ρ c r fun w e => hw ⟨w, e⟩
theorem W5_step (c : Dev nD) (r : Ref sig .tc) (h : r ∉ ([main_v41_0, main_v41_1, main_v41_2] : List (Ref sig .tc))) :
    W5 m ρ c (Proc.devRef .tc r) = W4 m ρ c (Proc.devRef .tc r) := by
  by_cases hw : ∃ w, Pipeline.arrRef spec2 w = r
  · obtain ⟨w, rfl⟩ := hw
    have hin : (cfg2.win w).isOut = false := by
      revert h; revert w; decide
    exact (W5_arr m ρ c w).trans (((dat2 (U4 m ρ) c).arrAt_in w hin _).trans (A_eq2 (U4 m ρ) c w))
  · exact W5_of_ne m ρ c r fun w e => hw ⟨w, e⟩
theorem W6_step (c : Dev nD) (r : Ref sig .tc) (h : r ∉ ([main_v42] : List (Ref sig .tc))) :
    W6 m ρ c (Proc.devRef .tc r) = W5 m ρ c (Proc.devRef .tc r) := by
  by_cases hw : ∃ w, Pipeline.arrRef spec3 w = r
  · obtain ⟨w, rfl⟩ := hw
    have hin : (cfg3.win w).isOut = false := by
      revert h; revert w; decide
    exact (W6_arr m ρ c w).trans (((dat3 (U5 m ρ) c).arrAt_in w hin _).trans (A_eq3 (U5 m ρ) c w))
  · exact W6_of_ne m ρ c r fun w e => hw ⟨w, e⟩
theorem W8_step (c : Dev nD) (r : Ref sig .tc) (h : r ∉ ([main_v68_0, main_v68_1, main_v68_2] : List (Ref sig .tc))) :
    W8 m ρ c (Proc.devRef .tc r) = W7 m ρ c (Proc.devRef .tc r) := by
  by_cases hw : ∃ w, Pipeline.arrRef spec4 w = r
  · obtain ⟨w, rfl⟩ := hw
    have hin : (cfg4.win w).isOut = false := by
      revert h; revert w; decide
    exact (W8_arr m ρ c w).trans (((dat4 (U7 m ρ) c).arrAt_in w hin _).trans (A_eq4 (U7 m ρ) c w))
  · exact W8_of_ne m ρ c r fun w e => hw ⟨w, e⟩
theorem W9_step (c : Dev nD) (r : Ref sig .tc) (h : r ∉ ([main_v69] : List (Ref sig .tc))) :
    W9 m ρ c (Proc.devRef .tc r) = W8 m ρ c (Proc.devRef .tc r) := by
  by_cases hw : ∃ w, Pipeline.arrRef spec5 w = r
  · obtain ⟨w, rfl⟩ := hw
    have hin : (cfg5.win w).isOut = false := by
      revert h; revert w; decide
    exact (W9_arr m ρ c w).trans (((dat5 (U8 m ρ) c).arrAt_in w hin _).trans (A_eq5 (U8 m ρ) c w))
  · exact W9_of_ne m ρ c r fun w e => hw ⟨w, e⟩
theorem W11_step (c : Dev nD) (r : Ref sig .tc) (h : r ∉ ([main_v95_0, main_v95_1, main_v95_2] : List (Ref sig .tc))) :
    W11 m ρ c (Proc.devRef .tc r) = W10 m ρ c (Proc.devRef .tc r) := by
  by_cases hw : ∃ w, Pipeline.arrRef spec6 w = r
  · obtain ⟨w, rfl⟩ := hw
    have hin : (cfg6.win w).isOut = false := by
      revert h; revert w; decide
    exact (W11_arr m ρ c w).trans (((dat6 (U10 m ρ) c).arrAt_in w hin _).trans (A_eq6 (U10 m ρ) c w))
  · exact W11_of_ne m ρ c r fun w e => hw ⟨w, e⟩
theorem W12_step (c : Dev nD) (r : Ref sig .tc) (h : r ∉ ([main_v96] : List (Ref sig .tc))) :
    W12 m ρ c (Proc.devRef .tc r) = W11 m ρ c (Proc.devRef .tc r) := by
  by_cases hw : ∃ w, Pipeline.arrRef spec7 w = r
  · obtain ⟨w, rfl⟩ := hw
    have hin : (cfg7.win w).isOut = false := by
      revert h; revert w; decide
    exact (W12_arr m ρ c w).trans (((dat7 (U11 m ρ) c).arrAt_in w hin _).trans (A_eq7 (U11 m ρ) c w))
  · exact W12_of_ne m ρ c r fun w e => hw ⟨w, e⟩

end Cert.KernelIdeal.Hand

end
-- ==== Proof.KI.HostReads.lean ====
/-
  What the host stretches of the eight-region program write into the buffers its regions stage, as functions of the
  stretch's inputs.

  The first stretch cuts the edge table into sources and destinations, counts the in-degrees into the aggregation's
  denominator, and lays the three length-64 vectors of the first block as 1 × 64 rows.  Each later stretch computes the
  mean aggregation of the current hidden state — rows gathered at the sources, summed into the destinations, divided by
  the denominator — and cuts the layer's two 64 × 64 matrices and three length-64 vectors out of the stacked arguments.
  Each is the same composition of operations the reference program applies, so it is named by the reference's function.
-/
import proofs.«167925_j62517543961156_1_alg».proof.Proof.Gen.KernelIdeal.Launch
import proofs.«167925_j62517543961156_1_alg».proof.Proof.Ref.Fns
import Idealize.ShloMosaic.Lib.StableHlo.Run

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]

/-- A length-64 vector laid as a 1 × 64 row. -/
def rowK (v : FVec F S64 .f32) : FVec F S1x64 .f32 := shapeCast S1x64 v shapeCasts_S64_S1x64

variable (V : Valuation τ sig (Elt F))

/-! ## The first stretch -/
theorem read0_src : StableHlo.after (hostOps0 (F := F)) V (Proc.devRef .tc main_v1) = Cert.ReferenceIdeal.Hand.refSrc (V (Proc.devRef .tc main_arg1)) := by
  after_results
  rfl
theorem read0_dst : StableHlo.after (hostOps0 (F := F)) V (Proc.devRef .tc main_v3) = Cert.ReferenceIdeal.Hand.refDst (V (Proc.devRef .tc main_arg1)) := by
  after_results
  rfl
theorem read0_den : StableHlo.after (hostOps0 (F := F)) V (Proc.devRef .tc main_v10) = Cert.ReferenceIdeal.Hand.refDen (Cert.ReferenceIdeal.Hand.refDst (V (Proc.devRef .tc main_arg1))) := by
  after_results
  rfl
theorem read0_b : StableHlo.after (hostOps0 (F := F)) V (Proc.devRef .tc main_v11) = rowK (V (Proc.devRef .tc main_arg3)) := by
  after_results
  rfl
theorem read0_g : StableHlo.after (hostOps0 (F := F)) V (Proc.devRef .tc main_v12) = rowK (V (Proc.devRef .tc main_arg4)) := by
  after_results
  rfl
theorem read0_bb : StableHlo.after (hostOps0 (F := F)) V (Proc.devRef .tc main_v13) = rowK (V (Proc.devRef .tc main_arg5)) := by
  after_results
  rfl

/-! ## The stretch before layer 0 -/
set_option maxHeartbeats 1000000 in
theorem read2_agg : StableHlo.after (hostOps2 (F := F)) V (Proc.devRef .tc main_v27) = Cert.ReferenceIdeal.Hand.refAgg (V (Proc.devRef .tc main_v15)) (V (Proc.devRef .tc main_v1)) (V (Proc.devRef .tc main_v3)) (V (Proc.devRef .tc main_v10)) := by
  after_results_simp
  rfl
set_option maxHeartbeats 1000000 in
theorem read2_wl : StableHlo.after (hostOps2 (F := F)) V (Proc.devRef .tc main_v29) = Cert.ReferenceIdeal.Hand.refMat0 (V (Proc.devRef .tc main_arg6)) := by
  after_results_simp
  rfl
set_option maxHeartbeats 1000000 in
theorem read2_bl : StableHlo.after (hostOps2 (F := F)) V (Proc.devRef .tc main_v32) = rowK (Cert.ReferenceIdeal.Hand.refRow0 (V (Proc.devRef .tc main_arg7))) := by
  after_results_simp
  rfl
set_option maxHeartbeats 1000000 in
theorem read2_g : StableHlo.after (hostOps2 (F := F)) V (Proc.devRef .tc main_v35) = rowK (Cert.ReferenceIdeal.Hand.refRow0 (V (Proc.devRef .tc main_arg9))) := by
  after_results_simp
  rfl
set_option maxHeartbeats 1000000 in
theorem read2_bb : StableHlo.after (hostOps2 (F := F)) V (Proc.devRef .tc main_v38) = rowK (Cert.ReferenceIdeal.Hand.refRow0 (V (Proc.devRef .tc main_arg10))) := by
  after_results_simp
  rfl
set_option maxHeartbeats 1000000 in
theorem read2_wr : StableHlo.after (hostOps2 (F := F)) V (Proc.devRef .tc main_v40) = Cert.ReferenceIdeal.Hand.refMat0 (V (Proc.devRef .tc main_arg8)) := by
  after_results_simp
  rfl

/-! ## The stretch before layer 1 -/
set_option maxHeartbeats 1000000 in
theorem read4_agg : StableHlo.after (hostOps4 (F := F)) V (Proc.devRef .tc main_v54) = Cert.ReferenceIdeal.Hand.refAgg (V (Proc.devRef .tc main_v42)) (V (Proc.devRef .tc main_v1)) (V (Proc.devRef .tc main_v3)) (V (Proc.devRef .tc main_v10)) := by
  after_results_simp
  rfl
set_option maxHeartbeats 1000000 in
theorem read4_wl : StableHlo.after (hostOps4 (F := F)) V (Proc.devRef .tc main_v56) = Cert.ReferenceIdeal.Hand.refMat1 (V (Proc.devRef .tc main_arg6)) := by
  after_results_simp
  rfl
set_option maxHeartbeats 1000000 in
theorem read4_bl : StableHlo.after (hostOps4 (F := F)) V (Proc.devRef .tc main_v59) = rowK (Cert.ReferenceIdeal.Hand.refRow1 (V (Proc.devRef .tc main_arg7))) := by
  after_results_simp
  rfl
set_option maxHeartbeats 1000000 in
theorem read4_g : StableHlo.after (hostOps4 (F := F)) V (Proc.devRef .tc main_v62) = rowK (Cert.ReferenceIdeal.Hand.refRow1 (V (Proc.devRef .tc main_arg9))) := by
  after_results_simp
  rfl
set_option maxHeartbeats 1000000 in
theorem read4_bb : StableHlo.after (hostOps4 (F := F)) V (Proc.devRef .tc main_v65) = rowK (Cert.ReferenceIdeal.Hand.refRow1 (V (Proc.devRef .tc main_arg10))) := by
  after_results_simp
  rfl
set_option maxHeartbeats 1000000 in
theorem read4_wr : StableHlo.after (hostOps4 (F := F)) V (Proc.devRef .tc main_v67) = Cert.ReferenceIdeal.Hand.refMat1 (V (Proc.devRef .tc main_arg8)) := by
  after_results_simp
  rfl

/-! ## The stretch before layer 2 -/
set_option maxHeartbeats 1000000 in
theorem read6_agg : StableHlo.after (hostOps6 (F := F)) V (Proc.devRef .tc main_v81) = Cert.ReferenceIdeal.Hand.refAgg (V (Proc.devRef .tc main_v69)) (V (Proc.devRef .tc main_v1)) (V (Proc.devRef .tc main_v3)) (V (Proc.devRef .tc main_v10)) := by
  after_results_simp
  rfl
set_option maxHeartbeats 1000000 in
theorem read6_wl : StableHlo.after (hostOps6 (F := F)) V (Proc.devRef .tc main_v83) = Cert.ReferenceIdeal.Hand.refMat2 (V (Proc.devRef .tc main_arg6)) := by
  after_results_simp
  rfl
set_option maxHeartbeats 1000000 in
theorem read6_bl : StableHlo.after (hostOps6 (F := F)) V (Proc.devRef .tc main_v86) = rowK (Cert.ReferenceIdeal.Hand.refRow2 (V (Proc.devRef .tc main_arg7))) := by
  after_results_simp
  rfl
set_option maxHeartbeats 1000000 in
theorem read6_g : StableHlo.after (hostOps6 (F := F)) V (Proc.devRef .tc main_v89) = rowK (Cert.ReferenceIdeal.Hand.refRow2 (V (Proc.devRef .tc main_arg9))) := by
  after_results_simp
  rfl
set_option maxHeartbeats 1000000 in
theorem read6_bb : StableHlo.after (hostOps6 (F := F)) V (Proc.devRef .tc main_v92) = rowK (Cert.ReferenceIdeal.Hand.refRow2 (V (Proc.devRef .tc main_arg10))) := by
  after_results_simp
  rfl
set_option maxHeartbeats 1000000 in
theorem read6_wr : StableHlo.after (hostOps6 (F := F)) V (Proc.devRef .tc main_v94) = Cert.ReferenceIdeal.Hand.refMat2 (V (Proc.devRef .tc main_arg8)) := by
  after_results_simp
  rfl

end Cert.KernelIdeal.Hand

end
-- ==== Proof.KI.Stats0Pieces.lean ====
import proofs.«167925_j62517543961156_1_alg».proof.Proof.KI.Stats0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Statistics kernel of region 0: what each control case's stores leave, as the body's named values

    Every store of the body writes a whole buffer, so what a buffer holds afterwards is the value last stored into it:
    the pre-activation tile; the accumulator rows plus this tile's column sums (from zero at the first tile); at the last
    tile the mean and variance rows formed from the accumulated sums. -/

theorem hz2 : (![0, 0] : Fin 2 → Nat) = fun _ => 0 := funext fun a => by fin_cases a <;> rfl

theorem out0_A_3_eq (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S5000x19 .f32) (x1 : Vec F S19x64 .f32) (x2 : Vec F S1x64 .f32) :
    out0_A_3 c i arg1 harg1 arg2 harg2 arg3 harg3 arg4 harg4 arg5 harg5 arg6 harg6 arg7 harg7 arg8 harg8 hc0 hc1 x0 x1 x2 = k0_pay3 x0 x1 x2 := by
  unfold out0_A_3
  rw [View.read_writes_eq_canon _ _ _ (cover0_A_3 c i arg1 harg1 arg2 harg2 arg3 harg3 arg4 harg4 arg5 harg5 arg6 harg6 arg7 harg7 arg8 harg8 hc0 hc1 x0 x1 x2)]
  unfold run0_A
  dsimp only
  try sl_unfold_words
  rw [View.canon_cons_unit_zero (S := S5000x64) hz2]
  try rw [View.readCov_unit_zero (S := S1x64) _ hz2]
  try rw [View.readCov_unit_zero (S := S1x64) _ hz2]
  try simp only [View.readAt_eq_ld, harg1.read_unread, harg2.read_unread, harg3.read_unread, harg4.read_unread, harg5.read_unread, harg6.read_unread, harg7.read_unread, harg8.read_unread, View.ld_unit_zero (S := S5000x19) hz2, View.ld_unit_zero (S := S19x64) hz2, View.ld_unit_zero (S := S1x64) hz2, View.ld_unit_zero (S := S5000x64) hz2]

theorem sout0_A_0_eq (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S5000x19 .f32) (x1 : Vec F S19x64 .f32) (x2 : Vec F S1x64 .f32) :
    sout0_A_0 c i arg1 harg1 arg2 harg2 arg3 harg3 arg4 harg4 arg5 harg5 arg6 harg6 arg7 harg7 arg8 harg8 hc0 hc1 x0 x1 x2 = k0_pay4 x0 x1 x2 (k0_pay1 (F := F)) := by
  unfold sout0_A_0
  rw [View.read_writes_eq_canon _ _ _ (scover0_A_0 c i arg1 harg1 arg2 harg2 arg3 harg3 arg4 harg4 arg5 harg5 arg6 harg6 arg7 harg7 arg8 harg8 hc0 hc1 x0 x1 x2)]
  unfold run0_A
  dsimp only
  try sl_unfold_words
  rw [View.canon_cons_unit_zero (S := S1x64) hz2]
  try rw [View.readCov_unit_zero (S := S1x64) _ hz2]
  try rw [View.readCov_unit_zero (S := S1x64) _ hz2]
  try simp only [View.readAt_eq_ld, harg1.read_unread, harg2.read_unread, harg3.read_unread, harg4.read_unread, harg5.read_unread, harg6.read_unread, harg7.read_unread, harg8.read_unread, View.ld_unit_zero (S := S5000x19) hz2, View.ld_unit_zero (S := S19x64) hz2, View.ld_unit_zero (S := S1x64) hz2, View.ld_unit_zero (S := S5000x64) hz2]

theorem sout0_A_1_eq (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S5000x19 .f32) (x1 : Vec F S19x64 .f32) (x2 : Vec F S1x64 .f32) :
    sout0_A_1 c i arg1 harg1 arg2 harg2 arg3 harg3 arg4 harg4 arg5 harg5 arg6 harg6 arg7 harg7 arg8 harg8 hc0 hc1 x0 x1 x2 = k0_pay5 x0 x1 x2 (k0_pay2 (F := F)) := by
  unfold sout0_A_1
  rw [View.read_writes_eq_canon _ _ _ (scover0_A_1 c i arg1 harg1 arg2 harg2 arg3 harg3 arg4 harg4 arg5 harg5 arg6 harg6 arg7 harg7 arg8 harg8 hc0 hc1 x0 x1 x2)]
  unfold run0_A
  dsimp only
  try sl_unfold_words
  rw [View.canon_cons_unit_zero (S := S1x64) hz2]
  try rw [View.readCov_unit_zero (S := S1x64) _ hz2]
  try rw [View.readCov_unit_zero (S := S1x64) _ hz2]
  try simp only [View.readAt_eq_ld, harg1.read_unread, harg2.read_unread, harg3.read_unread, harg4.read_unread, harg5.read_unread, harg6.read_unread, harg7.read_unread, harg8.read_unread, View.ld_unit_zero (S := S5000x19) hz2, View.ld_unit_zero (S := S19x64) hz2, View.ld_unit_zero (S := S1x64) hz2, View.ld_unit_zero (S := S5000x64) hz2]

theorem out0_B_3_eq (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S5000x19 .f32) (x1 : Vec F S19x64 .f32) (x2 : Vec F S1x64 .f32) (xs0 : Vec F S1x64 .f32) (xs1 : Vec F S1x64 .f32) :
    out0_B_3 c i arg1 harg1 arg2 harg2 arg3 harg3 arg4 harg4 arg5 harg5 arg6 harg6 arg7 harg7 arg8 harg8 hc0 hc1 x0 x1 x2 xs0 xs1 = k0_pay3 x0 x1 x2 := by
  unfold out0_B_3
  rw [View.read_writes_eq_canon _ _ _ (cover0_B_3 c i arg1 harg1 arg2 harg2 arg3 harg3 arg4 harg4 arg5 harg5 arg6 harg6 arg7 harg7 arg8 harg8 hc0 hc1 x0 x1 x2 xs0 xs1)]
  unfold run0_B
  dsimp only
  try sl_unfold_words
  rw [View.canon_cons_unit_zero (S := S5000x64) hz2]
  try rw [View.readCov_unit_zero (S := S1x64) _ hz2]
  try rw [View.readCov_unit_zero (S := S1x64) _ hz2]
  try simp only [View.readAt_eq_ld, harg1.read_unread, harg2.read_unread, harg3.read_unread, harg4.read_unread, harg5.read_unread, harg6.read_unread, harg7.read_unread, harg8.read_unread, View.ld_unit_zero (S := S5000x19) hz2, View.ld_unit_zero (S := S19x64) hz2, View.ld_unit_zero (S := S1x64) hz2, View.ld_unit_zero (S := S5000x64) hz2]

theorem sout0_B_0_eq (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S5000x19 .f32) (x1 : Vec F S19x64 .f32) (x2 : Vec F S1x64 .f32) (xs0 : Vec F S1x64 .f32) (xs1 : Vec F S1x64 .f32) :
    sout0_B_0 c i arg1 harg1 arg2 harg2 arg3 harg3 arg4 harg4 arg5 harg5 arg6 harg6 arg7 harg7 arg8 harg8 hc0 hc1 x0 x1 x2 xs0 xs1 = k0_pay4 x0 x1 x2 xs0 := by
  unfold sout0_B_0
  rw [View.read_writes_eq_canon _ _ _ (scover0_B_0 c i arg1 harg1 arg2 harg2 arg3 harg3 arg4 harg4 arg5 harg5 arg6 harg6 arg7 harg7 arg8 harg8 hc0 hc1 x0 x1 x2 xs0 xs1)]
  unfold run0_B
  dsimp only
  try sl_unfold_words
  rw [View.canon_cons_unit_zero (S := S1x64) hz2]
  try rw [View.readCov_unit_zero (S := S1x64) _ hz2]
  try rw [View.readCov_unit_zero (S := S1x64) _ hz2]
  try simp only [View.readAt_eq_ld, harg1.read_unread, harg2.read_unread, harg3.read_unread, harg4.read_unread, harg5.read_unread, harg6.read_unread, harg7.read_unread, harg8.read_unread, View.ld_unit_zero (S := S5000x19) hz2, View.ld_unit_zero (S := S19x64) hz2, View.ld_unit_zero (S := S1x64) hz2, View.ld_unit_zero (S := S5000x64) hz2]

theorem sout0_B_1_eq (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S5000x19 .f32) (x1 : Vec F S19x64 .f32) (x2 : Vec F S1x64 .f32) (xs0 : Vec F S1x64 .f32) (xs1 : Vec F S1x64 .f32) :
    sout0_B_1 c i arg1 harg1 arg2 harg2 arg3 harg3 arg4 harg4 arg5 harg5 arg6 harg6 arg7 harg7 arg8 harg8 hc0 hc1 x0 x1 x2 xs0 xs1 = k0_pay5 x0 x1 x2 xs1 := by
  unfold sout0_B_1
  rw [View.read_writes_eq_canon _ _ _ (scover0_B_1 c i arg1 harg1 arg2 harg2 arg3 harg3 arg4 harg4 arg5 harg5 arg6 harg6 arg7 harg7 arg8 harg8 hc0 hc1 x0 x1 x2 xs0 xs1)]
  unfold run0_B
  dsimp only
  try sl_unfold_words
  rw [View.canon_cons_unit_zero (S := S1x64) hz2]
  try rw [View.readCov_unit_zero (S := S1x64) _ hz2]
  try rw [View.readCov_unit_zero (S := S1x64) _ hz2]
  try simp only [View.readAt_eq_ld, harg1.read_unread, harg2.read_unread, harg3.read_unread, harg4.read_unread, harg5.read_unread, harg6.read_unread, harg7.read_unread, harg8.read_unread, View.ld_unit_zero (S := S5000x19) hz2, View.ld_unit_zero (S := S19x64) hz2, View.ld_unit_zero (S := S1x64) hz2, View.ld_unit_zero (S := S5000x64) hz2]

theorem out0_C_3_eq (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S5000x19 .f32) (x1 : Vec F S19x64 .f32) (x2 : Vec F S1x64 .f32) (xs0 : Vec F S1x64 .f32) (xs1 : Vec F S1x64 .f32) :
    out0_C_3 c i arg1 harg1 arg2 harg2 arg3 harg3 arg4 harg4 arg5 harg5 arg6 harg6 arg7 harg7 arg8 harg8 hc0 hc1 x0 x1 x2 xs0 xs1 = k0_pay3 x0 x1 x2 := by
  unfold out0_C_3
  rw [View.read_writes_eq_canon _ _ _ (cover0_C_3 c i arg1 harg1 arg2 harg2 arg3 harg3 arg4 harg4 arg5 harg5 arg6 harg6 arg7 harg7 arg8 harg8 hc0 hc1 x0 x1 x2 xs0 xs1)]
  unfold run0_C
  dsimp only
  try sl_unfold_words
  rw [View.canon_cons_unit_zero (S := S5000x64) hz2]
  try rw [View.readCov_unit_zero (S := S1x64) _ hz2]
  try rw [View.readCov_unit_zero (S := S1x64) _ hz2]
  try simp only [View.readAt_eq_ld, harg1.read_unread, harg2.read_unread, harg3.read_unread, harg4.read_unread, harg5.read_unread, harg6.read_unread, harg7.read_unread, harg8.read_unread, View.ld_unit_zero (S := S5000x19) hz2, View.ld_unit_zero (S := S19x64) hz2, View.ld_unit_zero (S := S1x64) hz2, View.ld_unit_zero (S := S5000x64) hz2]

theorem sout0_C_0_eq (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S5000x19 .f32) (x1 : Vec F S19x64 .f32) (x2 : Vec F S1x64 .f32) (xs0 : Vec F S1x64 .f32) (xs1 : Vec F S1x64 .f32) :
    sout0_C_0 c i arg1 harg1 arg2 harg2 arg3 harg3 arg4 harg4 arg5 harg5 arg6 harg6 arg7 harg7 arg8 harg8 hc0 hc1 x0 x1 x2 xs0 xs1 = k0_pay4 x0 x1 x2 xs0 := by
  unfold sout0_C_0
  rw [View.read_writes_eq_canon _ _ _ (scover0_C_0 c i arg1 harg1 arg2 harg2 arg3 harg3 arg4 harg4 arg5 harg5 arg6 harg6 arg7 harg7 arg8 harg8 hc0 hc1 x0 x1 x2 xs0 xs1)]
  unfold run0_C
  dsimp only
  try sl_unfold_words
  rw [View.canon_cons_unit_zero (S := S1x64) hz2]
  try rw [View.readCov_unit_zero (S := S1x64) _ hz2]
  try rw [View.readCov_unit_zero (S := S1x64) _ hz2]
  try simp only [View.readAt_eq_ld, harg1.read_unread, harg2.read_unread, harg3.read_unread, harg4.read_unread, harg5.read_unread, harg6.read_unread, harg7.read_unread, harg8.read_unread, View.ld_unit_zero (S := S5000x19) hz2, View.ld_unit_zero (S := S19x64) hz2, View.ld_unit_zero (S := S1x64) hz2, View.ld_unit_zero (S := S5000x64) hz2]

theorem sout0_C_1_eq (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S5000x19 .f32) (x1 : Vec F S19x64 .f32) (x2 : Vec F S1x64 .f32) (xs0 : Vec F S1x64 .f32) (xs1 : Vec F S1x64 .f32) :
    sout0_C_1 c i arg1 harg1 arg2 harg2 arg3 harg3 arg4 harg4 arg5 harg5 arg6 harg6 arg7 harg7 arg8 harg8 hc0 hc1 x0 x1 x2 xs0 xs1 = k0_pay5 x0 x1 x2 xs1 := by
  unfold sout0_C_1
  rw [View.read_writes_eq_canon _ _ _ (scover0_C_1 c i arg1 harg1 arg2 harg2 arg3 harg3 arg4 harg4 arg5 harg5 arg6 harg6 arg7 harg7 arg8 harg8 hc0 hc1 x0 x1 x2 xs0 xs1)]
  unfold run0_C
  dsimp only
  try sl_unfold_words
  rw [View.canon_cons_unit_zero (S := S1x64) hz2]
  try rw [View.readCov_unit_zero (S := S1x64) _ hz2]
  try rw [View.readCov_unit_zero (S := S1x64) _ hz2]
  try simp only [View.readAt_eq_ld, harg1.read_unread, harg2.read_unread, harg3.read_unread, harg4.read_unread, harg5.read_unread, harg6.read_unread, harg7.read_unread, harg8.read_unread, View.ld_unit_zero (S := S5000x19) hz2, View.ld_unit_zero (S := S19x64) hz2, View.ld_unit_zero (S := S1x64) hz2, View.ld_unit_zero (S := S5000x64) hz2]

theorem out0_C_4_eq (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S5000x19 .f32) (x1 : Vec F S19x64 .f32) (x2 : Vec F S1x64 .f32) (xs0 : Vec F S1x64 .f32) (xs1 : Vec F S1x64 .f32) :
    out0_C_4 c i arg1 harg1 arg2 harg2 arg3 harg3 arg4 harg4 arg5 harg5 arg6 harg6 arg7 harg7 arg8 harg8 hc0 hc1 x0 x1 x2 xs0 xs1 = k0_pay6 (k0_pay4 x0 x1 x2 xs0) := by
  unfold out0_C_4
  rw [View.read_writes_eq_canon _ _ _ (cover0_C_4 c i arg1 harg1 arg2 harg2 arg3 harg3 arg4 harg4 arg5 harg5 arg6 harg6 arg7 harg7 arg8 harg8 hc0 hc1 x0 x1 x2 xs0 xs1)]
  unfold run0_C
  dsimp only
  try sl_unfold_words
  rw [View.canon_cons_unit_zero (S := S1x64) hz2]
  try rw [View.readCov_unit_zero (S := S1x64) _ hz2]
  try rw [View.readCov_unit_zero (S := S1x64) _ hz2]
  try simp only [View.readAt_eq_ld, harg1.read_unread, harg2.read_unread, harg3.read_unread, harg4.read_unread, harg5.read_unread, harg6.read_unread, harg7.read_unread, harg8.read_unread, View.ld_unit_zero (S := S5000x19) hz2, View.ld_unit_zero (S := S19x64) hz2, View.ld_unit_zero (S := S1x64) hz2, View.ld_unit_zero (S := S5000x64) hz2]

theorem out0_C_5_eq (c : Dev nD) (i : grid0.Coords) (arg1 : Memref sig .tc .vmem S5000x19 .f32) (harg1 : arg1.IsWhole) (arg2 : Memref sig .tc .vmem S19x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S5000x19 .f32) (x1 : Vec F S19x64 .f32) (x2 : Vec F S1x64 .f32) (xs0 : Vec F S1x64 .f32) (xs1 : Vec F S1x64 .f32) :
    out0_C_5 c i arg1 harg1 arg2 harg2 arg3 harg3 arg4 harg4 arg5 harg5 arg6 harg6 arg7 harg7 arg8 harg8 hc0 hc1 x0 x1 x2 xs0 xs1 = k0_pay7 (k0_pay4 x0 x1 x2 xs0) (k0_pay5 x0 x1 x2 xs1) := by
  unfold out0_C_5
  rw [View.read_writes_eq_canon _ _ _ (cover0_C_5 c i arg1 harg1 arg2 harg2 arg3 harg3 arg4 harg4 arg5 harg5 arg6 harg6 arg7 harg7 arg8 harg8 hc0 hc1 x0 x1 x2 xs0 xs1)]
  unfold run0_C
  dsimp only
  try sl_unfold_words
  rw [View.canon_cons_unit_zero (S := S1x64) hz2]
  try rw [View.readCov_unit_zero (S := S1x64) _ hz2]
  try rw [View.readCov_unit_zero (S := S1x64) _ hz2]
  try simp only [View.readAt_eq_ld, harg1.read_unread, harg2.read_unread, harg3.read_unread, harg4.read_unread, harg5.read_unread, harg6.read_unread, harg7.read_unread, harg8.read_unread, View.ld_unit_zero (S := S5000x19) hz2, View.ld_unit_zero (S := S19x64) hz2, View.ld_unit_zero (S := S1x64) hz2, View.ld_unit_zero (S := S5000x64) hz2]

end Cert.KernelIdeal.Hand

end
-- ==== Proof.KI.Stats0Closed.lean ====
import proofs.«167925_j62517543961156_1_alg».proof.Proof.KI.Stats0Pieces

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Statistics kernel of region 0: the buffers after each node tile, in closed form

    The pre-activation tile's buffer holds the tile's pre-activations; the two accumulator rows follow a recurrence — from
    zero, each tile adds its column sums —; after the last tile the mean and variance rows are formed from them. -/

set_option maxHeartbeats 1000000 in
theorem pre0_eq (c : Dev nD) (t : Fin cfg0.N) :
    (outsAt0 V c t.val t.isLt).1 = k0_pay3 (iblk0 V c 0 t) (iblk0 V c 1 t) (iblk0 V c 2 t) := by
  by_cases h0 : t.val = 0
  · have x := out0_A_3_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => (fun h => by omega) ((hcond0_1 t).mp h)) (iblk0 V c 0 t) (iblk0 V c 1 t) (iblk0 V c 2 t)
    rw [outsAt0_A V c t h0]; dsimp only; exact x
  · by_cases h1 : t.val = 9
    · have x := out0_C_3_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2
      rw [outsAt0_C V c t h0 h1]; dsimp only; exact x
    · have x := out0_B_3_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2
      rw [outsAt0_B V c t h0 h1]; dsimp only; exact x

set_option maxHeartbeats 1000000 in
theorem S0_zero (c : Dev nD) (hn : 0 < cfg0.N) :
    S0 V c 0 hn = k0_pay4 (iblk0 V c 0 ⟨0, hn⟩) (iblk0 V c 1 ⟨0, hn⟩) (iblk0 V c 2 ⟨0, hn⟩) (k0_pay1 (F := F)) := by
  show (outsAt0 V c (⟨0, hn⟩ : Fin cfg0.N).val (⟨0, hn⟩ : Fin cfg0.N).isLt).2.2.2.1 = _
  have h0 : (⟨0, hn⟩ : Fin cfg0.N).val = 0 := rfl
  have x := sout0_A_0_eq (F := F) c (grid0.coords (⟨0, hn⟩ : Fin cfg0.N)) (ms0_0 (⟨0, hn⟩ : Fin cfg0.N)) (hs0_0 (⟨0, hn⟩ : Fin cfg0.N)) (ms0_1 (⟨0, hn⟩ : Fin cfg0.N)) (hs0_1 (⟨0, hn⟩ : Fin cfg0.N)) (ms0_2 (⟨0, hn⟩ : Fin cfg0.N)) (hs0_2 (⟨0, hn⟩ : Fin cfg0.N)) (ms0_3 (⟨0, hn⟩ : Fin cfg0.N)) (hs0_3 (⟨0, hn⟩ : Fin cfg0.N)) (ms0_4 (⟨0, hn⟩ : Fin cfg0.N)) (hs0_4 (⟨0, hn⟩ : Fin cfg0.N)) (ms0_5 (⟨0, hn⟩ : Fin cfg0.N)) (hs0_5 (⟨0, hn⟩ : Fin cfg0.N)) scM0_0 (Memref.isWhole_whole _) scM0_1 (Memref.isWhole_whole _) ((hcond0_0 (⟨0, hn⟩ : Fin cfg0.N)).mpr h0) (fun h => (fun h => by omega) ((hcond0_1 (⟨0, hn⟩ : Fin cfg0.N)).mp h)) (iblk0 V c 0 (⟨0, hn⟩ : Fin cfg0.N)) (iblk0 V c 1 (⟨0, hn⟩ : Fin cfg0.N)) (iblk0 V c 2 (⟨0, hn⟩ : Fin cfg0.N))
  rw [outsAt0_A V c (⟨0, hn⟩ : Fin cfg0.N) h0]; dsimp only; exact x

set_option maxHeartbeats 1000000 in
theorem Q0_zero (c : Dev nD) (hn : 0 < cfg0.N) :
    Q0 V c 0 hn = k0_pay5 (iblk0 V c 0 ⟨0, hn⟩) (iblk0 V c 1 ⟨0, hn⟩) (iblk0 V c 2 ⟨0, hn⟩) (k0_pay2 (F := F)) := by
  show (outsAt0 V c (⟨0, hn⟩ : Fin cfg0.N).val (⟨0, hn⟩ : Fin cfg0.N).isLt).2.2.2.2 = _
  have h0 : (⟨0, hn⟩ : Fin cfg0.N).val = 0 := rfl
  have x := sout0_A_1_eq (F := F) c (grid0.coords (⟨0, hn⟩ : Fin cfg0.N)) (ms0_0 (⟨0, hn⟩ : Fin cfg0.N)) (hs0_0 (⟨0, hn⟩ : Fin cfg0.N)) (ms0_1 (⟨0, hn⟩ : Fin cfg0.N)) (hs0_1 (⟨0, hn⟩ : Fin cfg0.N)) (ms0_2 (⟨0, hn⟩ : Fin cfg0.N)) (hs0_2 (⟨0, hn⟩ : Fin cfg0.N)) (ms0_3 (⟨0, hn⟩ : Fin cfg0.N)) (hs0_3 (⟨0, hn⟩ : Fin cfg0.N)) (ms0_4 (⟨0, hn⟩ : Fin cfg0.N)) (hs0_4 (⟨0, hn⟩ : Fin cfg0.N)) (ms0_5 (⟨0, hn⟩ : Fin cfg0.N)) (hs0_5 (⟨0, hn⟩ : Fin cfg0.N)) scM0_0 (Memref.isWhole_whole _) scM0_1 (Memref.isWhole_whole _) ((hcond0_0 (⟨0, hn⟩ : Fin cfg0.N)).mpr h0) (fun h => (fun h => by omega) ((hcond0_1 (⟨0, hn⟩ : Fin cfg0.N)).mp h)) (iblk0 V c 0 (⟨0, hn⟩ : Fin cfg0.N)) (iblk0 V c 1 (⟨0, hn⟩ : Fin cfg0.N)) (iblk0 V c 2 (⟨0, hn⟩ : Fin cfg0.N))
  rw [outsAt0_A V c (⟨0, hn⟩ : Fin cfg0.N) h0]; dsimp only; exact x

set_option maxHeartbeats 1000000 in
theorem S0_succ (c : Dev nD) (n : ℕ) (hn : n + 1 < cfg0.N) :
    S0 V c (n + 1) hn = k0_pay4 (iblk0 V c 0 ⟨n + 1, hn⟩) (iblk0 V c 1 ⟨n + 1, hn⟩) (iblk0 V c 2 ⟨n + 1, hn⟩) (S0 V c n (Nat.lt_of_succ_lt hn)) := by
  show (outsAt0 V c (⟨n + 1, hn⟩ : Fin cfg0.N).val (⟨n + 1, hn⟩ : Fin cfg0.N).isLt).2.2.2.1 = _
  have h0 : ¬(⟨n + 1, hn⟩ : Fin cfg0.N).val = 0 := Nat.succ_ne_zero n
  by_cases h1 : (⟨n + 1, hn⟩ : Fin cfg0.N).val = 9
  · have x := sout0_C_0_eq (F := F) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) scM0_0 (Memref.isWhole_whole _) scM0_1 (Memref.isWhole_whole _) (fun h => h0 ((hcond0_0 (⟨n + 1, hn⟩ : Fin cfg0.N)).mp h)) ((hcond0_1 (⟨n + 1, hn⟩ : Fin cfg0.N)).mpr h1) (iblk0 V c 0 (⟨n + 1, hn⟩ : Fin cfg0.N)) (iblk0 V c 1 (⟨n + 1, hn⟩ : Fin cfg0.N)) (iblk0 V c 2 (⟨n + 1, hn⟩ : Fin cfg0.N)) (outsAt0 V c ((⟨n + 1, hn⟩ : Fin cfg0.N).val - 1) (Nat.lt_of_le_of_lt (Nat.sub_le _ _) (⟨n + 1, hn⟩ : Fin cfg0.N).isLt)).2.2.2.1 (outsAt0 V c ((⟨n + 1, hn⟩ : Fin cfg0.N).val - 1) (Nat.lt_of_le_of_lt (Nat.sub_le _ _) (⟨n + 1, hn⟩ : Fin cfg0.N).isLt)).2.2.2.2
    rw [outsAt0_C V c (⟨n + 1, hn⟩ : Fin cfg0.N) h0 h1]; dsimp only; exact x
  · have x := sout0_B_0_eq (F := F) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) scM0_0 (Memref.isWhole_whole _) scM0_1 (Memref.isWhole_whole _) (fun h => h0 ((hcond0_0 (⟨n + 1, hn⟩ : Fin cfg0.N)).mp h)) (fun h => h1 ((hcond0_1 (⟨n + 1, hn⟩ : Fin cfg0.N)).mp h)) (iblk0 V c 0 (⟨n + 1, hn⟩ : Fin cfg0.N)) (iblk0 V c 1 (⟨n + 1, hn⟩ : Fin cfg0.N)) (iblk0 V c 2 (⟨n + 1, hn⟩ : Fin cfg0.N)) (outsAt0 V c ((⟨n + 1, hn⟩ : Fin cfg0.N).val - 1) (Nat.lt_of_le_of_lt (Nat.sub_le _ _) (⟨n + 1, hn⟩ : Fin cfg0.N).isLt)).2.2.2.1 (outsAt0 V c ((⟨n + 1, hn⟩ : Fin cfg0.N).val - 1) (Nat.lt_of_le_of_lt (Nat.sub_le _ _) (⟨n + 1, hn⟩ : Fin cfg0.N).isLt)).2.2.2.2
    rw [outsAt0_B V c (⟨n + 1, hn⟩ : Fin cfg0.N) h0 h1]; dsimp only; exact x

set_option maxHeartbeats 1000000 in
theorem Q0_succ (c : Dev nD) (n : ℕ) (hn : n + 1 < cfg0.N) :
    Q0 V c (n + 1) hn = k0_pay5 (iblk0 V c 0 ⟨n + 1, hn⟩) (iblk0 V c 1 ⟨n + 1, hn⟩) (iblk0 V c 2 ⟨n + 1, hn⟩) (Q0 V c n (Nat.lt_of_succ_lt hn)) := by
  show (outsAt0 V c (⟨n + 1, hn⟩ : Fin cfg0.N).val (⟨n + 1, hn⟩ : Fin cfg0.N).isLt).2.2.2.2 = _
  have h0 : ¬(⟨n + 1, hn⟩ : Fin cfg0.N).val = 0 := Nat.succ_ne_zero n
  by_cases h1 : (⟨n + 1, hn⟩ : Fin cfg0.N).val = 9
  · have x := sout0_C_1_eq (F := F) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) scM0_0 (Memref.isWhole_whole _) scM0_1 (Memref.isWhole_whole _) (fun h => h0 ((hcond0_0 (⟨n + 1, hn⟩ : Fin cfg0.N)).mp h)) ((hcond0_1 (⟨n + 1, hn⟩ : Fin cfg0.N)).mpr h1) (iblk0 V c 0 (⟨n + 1, hn⟩ : Fin cfg0.N)) (iblk0 V c 1 (⟨n + 1, hn⟩ : Fin cfg0.N)) (iblk0 V c 2 (⟨n + 1, hn⟩ : Fin cfg0.N)) (outsAt0 V c ((⟨n + 1, hn⟩ : Fin cfg0.N).val - 1) (Nat.lt_of_le_of_lt (Nat.sub_le _ _) (⟨n + 1, hn⟩ : Fin cfg0.N).isLt)).2.2.2.1 (outsAt0 V c ((⟨n + 1, hn⟩ : Fin cfg0.N).val - 1) (Nat.lt_of_le_of_lt (Nat.sub_le _ _) (⟨n + 1, hn⟩ : Fin cfg0.N).isLt)).2.2.2.2
    rw [outsAt0_C V c (⟨n + 1, hn⟩ : Fin cfg0.N) h0 h1]; dsimp only; exact x
  · have x := sout0_B_1_eq (F := F) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) scM0_0 (Memref.isWhole_whole _) scM0_1 (Memref.isWhole_whole _) (fun h => h0 ((hcond0_0 (⟨n + 1, hn⟩ : Fin cfg0.N)).mp h)) (fun h => h1 ((hcond0_1 (⟨n + 1, hn⟩ : Fin cfg0.N)).mp h)) (iblk0 V c 0 (⟨n + 1, hn⟩ : Fin cfg0.N)) (iblk0 V c 1 (⟨n + 1, hn⟩ : Fin cfg0.N)) (iblk0 V c 2 (⟨n + 1, hn⟩ : Fin cfg0.N)) (outsAt0 V c ((⟨n + 1, hn⟩ : Fin cfg0.N).val - 1) (Nat.lt_of_le_of_lt (Nat.sub_le _ _) (⟨n + 1, hn⟩ : Fin cfg0.N).isLt)).2.2.2.1 (outsAt0 V c ((⟨n + 1, hn⟩ : Fin cfg0.N).val - 1) (Nat.lt_of_le_of_lt (Nat.sub_le _ _) (⟨n + 1, hn⟩ : Fin cfg0.N).isLt)).2.2.2.2
    rw [outsAt0_B V c (⟨n + 1, hn⟩ : Fin cfg0.N) h0 h1]; dsimp only; exact x

end Cert.KernelIdeal.Hand

end
-- ==== Proof.Spec.lean ====
/-
  The functions both programs compute, index by index, on the extended reals.

  Arrays are functions of their indices; `Mat a b` is an `a × b` array.  A layer's pre-activation is a matrix
  product plus a bias row (plus, from the second block on, a second matrix product); a batch normalisation takes, per
  feature column, the mean over the 50000 rows and a variance, and maps every entry `z` to
  `max (((z - mean) * rsqrt (var + ε)) * g + b) 0`.  The variance is spelt two ways: the mean of the squares less the
  squared mean (`varSq`), and the mean of the squared deviations (`varDev`).  The count 50000 and `ε` are kept as
  the programs' 32-bit words.
-/
import Idealize.ShloMosaic.Lib.ValueIdx
import Idealize.ShloMosaic.PureOps.Ideal

noncomputable section

namespace Cert.Spec

open Idealize.ShloMosaic Idealize.ShloMosaic.ValueIdx
open scoped BigOperators

/-- An `a × b` array of extended reals. -/
abbrev Mat (a b : Nat) : Type := (⟨2, ![a, b]⟩ : Shape).Idx → EReal

/-- The programs' `ε` (the single-precision word nearest 1e-5) and the row count 50000, as words. -/
def epsW : EReal := Ideal.ofBits .f32 0x3727C5AC#32
def cntW : EReal := Ideal.ofBits .f32 0x47435000#32

/-- The matrix product: entry `(r, j)` is the sum over `t` of `x (r, t) * w (t, j)`. -/
def matmul {n k h : Nat} (x : Mat n k) (w : Mat k h) : Mat n h :=
  fun i => ∑ t : Fin k, x (ix2 (show Fin n from i 0) t) * w (ix2 t (show Fin h from i 1))

/-- The first block's pre-activation `x · w + b`. -/
def pre0G (x : Mat 50000 19) (w : Mat 19 64) (b : Mat 1 64) : Mat 50000 64 :=
  fun i => matmul x w i + b (ix2 (0 : Fin 1) (show Fin 64 from i 1))

/-- A later block's pre-activation `(a · wl + b) + h · wr`. -/
def preLG (a : Mat 50000 64) (wl : Mat 64 64) (b : Mat 1 64) (h : Mat 50000 64) (wr : Mat 64 64) : Mat 50000 64 :=
  fun i => matmul a wl i + b (ix2 (0 : Fin 1) (show Fin 64 from i 1)) + matmul h wr i

/-- Column sums and column sums of squares over the 50000 rows, as `1 × 64` rows. -/
def colSum (z : Mat 50000 64) : Mat 1 64 := fun j => ∑ r : Fin 50000, z (ix2 r (show Fin 64 from j 1))
def colSumSq (z : Mat 50000 64) : Mat 1 64 :=
  fun j => ∑ r : Fin 50000, z (ix2 r (show Fin 64 from j 1)) * z (ix2 r (show Fin 64 from j 1))

/-- The column means. -/
def meanG (z : Mat 50000 64) : Mat 1 64 := fun j => Ideal.div (colSum z j) cntW

/-- The variance as the mean of the squares less the squared mean. -/
def varSq (z : Mat 50000 64) : Mat 1 64 := fun j => Ideal.div (colSumSq z j) cntW - meanG z j * meanG z j

/-- The variance as the mean of the squared deviations from the mean. -/
def varDev (z : Mat 50000 64) : Mat 1 64 :=
  fun j => Ideal.div (∑ r : Fin 50000, (z (ix2 r (show Fin 64 from j 1)) - meanG z j) * (z (ix2 r (show Fin 64 from j 1)) - meanG z j)) cntW

/-- One normalised, rectified entry. -/
def normEntry (z mean var g b : EReal) : EReal := max (((z - mean) * Ideal.rsqrt (var + epsW)) * g + b) 0

/-- The normalisation of a whole array at given mean and variance rows. -/
def normG (z : Mat 50000 64) (mean var g b : Mat 1 64) : Mat 50000 64 :=
  fun i => normEntry (z i) (mean (ix2 (0 : Fin 1) (show Fin 64 from i 1))) (var (ix2 (0 : Fin 1) (show Fin 64 from i 1)))
    (g (ix2 (0 : Fin 1) (show Fin 64 from i 1))) (b (ix2 (0 : Fin 1) (show Fin 64 from i 1)))

/-- The same followed by the residual addition. -/
def normResG (z : Mat 50000 64) (mean var g b : Mat 1 64) (res : Mat 50000 64) : Mat 50000 64 :=
  fun i => normG z mean var g b i + res i

theorem matmul_apply {n k h : Nat} (x : Mat n k) (w : Mat k h) (r : Fin n) (j : Fin h) :
    matmul x w (ix2 r j) = ∑ t : Fin k, x (ix2 r t) * w (ix2 t j) := rfl
theorem pre0G_apply (x : Mat 50000 19) (w : Mat 19 64) (b : Mat 1 64) (r : Fin 50000) (j : Fin 64) :
    pre0G x w b (ix2 r j) = (∑ t : Fin 19, x (ix2 r t) * w (ix2 t j)) + b (ix2 0 j) := rfl
theorem preLG_apply (a : Mat 50000 64) (wl : Mat 64 64) (b : Mat 1 64) (h : Mat 50000 64) (wr : Mat 64 64) (r : Fin 50000) (j : Fin 64) :
    preLG a wl b h wr (ix2 r j) = (∑ t : Fin 64, a (ix2 r t) * wl (ix2 t j)) + b (ix2 0 j) + ∑ t : Fin 64, h (ix2 r t) * wr (ix2 t j) := rfl
theorem colSum_apply (z : Mat 50000 64) (j : Fin 64) : colSum z (ix2 0 j) = ∑ r : Fin 50000, z (ix2 r j) := rfl
theorem colSumSq_apply (z : Mat 50000 64) (j : Fin 64) : colSumSq z (ix2 0 j) = ∑ r : Fin 50000, z (ix2 r j) * z (ix2 r j) := rfl
theorem meanG_apply (z : Mat 50000 64) (j : Fin 64) : meanG z (ix2 0 j) = Ideal.div (∑ r : Fin 50000, z (ix2 r j)) cntW := rfl
theorem varSq_apply (z : Mat 50000 64) (j : Fin 64) :
    varSq z (ix2 0 j) = Ideal.div (∑ r : Fin 50000, z (ix2 r j) * z (ix2 r j)) cntW - meanG z (ix2 0 j) * meanG z (ix2 0 j) := rfl
theorem varDev_apply (z : Mat 50000 64) (j : Fin 64) :
    varDev z (ix2 0 j) = Ideal.div (∑ r : Fin 50000, (z (ix2 r j) - meanG z (ix2 0 j)) * (z (ix2 r j) - meanG z (ix2 0 j))) cntW := rfl
theorem normG_apply (z : Mat 50000 64) (mean var g b : Mat 1 64) (r : Fin 50000) (j : Fin 64) :
    normG z mean var g b (ix2 r j) = normEntry (z (ix2 r j)) (mean (ix2 0 j)) (var (ix2 0 j)) (g (ix2 0 j)) (b (ix2 0 j)) := rfl
theorem normResG_apply (z : Mat 50000 64) (mean var g b : Mat 1 64) (res : Mat 50000 64) (r : Fin 50000) (j : Fin 64) :
    normResG z mean var g b res (ix2 r j)
      = normEntry (z (ix2 r j)) (mean (ix2 0 j)) (var (ix2 0 j)) (g (ix2 0 j)) (b (ix2 0 j)) + res (ix2 r j) := rfl

end Cert.Spec

end
-- ==== Proof.KI.StatsPayLib.lean ====
import proofs.«167925_j62517543961156_1_alg».proof.Proof.Gen.KernelIdeal.Skeleton
import proofs.«167925_j62517543961156_1_alg».proof.Proof.Spec
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

namespace Cert.KernelIdeal.Hand

open Idealize.ShloMosaic Idealize.ShloMosaic.ValueIdx Cert.KernelIdeal Cert.KernelIdeal.Gen Cert.Spec
open scoped BigOperators

/-! What the statistics kernels' operations compute at an index, on the extended reals: a block product into a
zero accumulator is the sum over the contracted coordinate; a sum over the 5000 rows of a block from the zero word is
the sum down the column; a row broadcast down the rows, and a length-64 vector reshaped to a row, read the row. -/

/-- A plain block product accumulated into zeros, at an index. -/
theorem mm_zero_apply {m k n : Nat} (D : DotDims ⟨2, ![m, k]⟩ ⟨2, ![k, n]⟩ ⟨2, ![m, n]⟩) (hD : D = DotDims.plain m k n)
    (A : FVec Ideal ⟨2, ![m, k]⟩ .f32) (B : FVec Ideal ⟨2, ![k, n]⟩ .f32) (p : Fin m) (q : Fin n) :
    matmul D none A B (constant (F := Ideal) ⟨2, ![m, n]⟩ .f32 0x00000000#32) (ix2 p q) = ∑ t : Fin k, A (ix2 p t) * B (ix2 t q) := by
  subst hD
  rw [matmul_zero_eq_dotGeneral]
  exact StackMember.dotGeneral_plain_apply none A B p q

theorem dot19_plain : dot_S5000x19_S19x64_S5000x64_1_0_0_1_n_n = DotDims.plain 5000 19 64 := rfl
theorem dot64_plain : dot_S5000x64_S64x64_S5000x64_1_0_0_1_n_n = DotDims.plain 5000 64 64 := rfl

/-- The sum of a 5000 × 64 block over its rows, from the zero word, at a column. -/
theorem colSum5000 (src : FVec Ideal S5000x64 .f32) (hφ : FKind.Formats .f32)
    (hacc : (0x00000000#32 : BitVec 32) = FKind.add.neutral .f32 hφ) (q : Fin 64) :
    multiReduction .add [0] S64 src 0x00000000#32 reduces_S5000x64_S64 hφ hacc (ix1 q) = ∑ p : Fin 5000, src (ix2 p q) := by
  refine (Ideal.multiReduction_add_single src 0x00000000#32 reduces_S5000x64_S64 hφ hacc (ix1 q)).trans ?_
  refine Finset.sum_congr rfl fun p _ => congrArg src ?_
  funext a
  match a with
  | ⟨0, _⟩ => rfl
  | ⟨1, _⟩ => rfl

/-- A row broadcast down the 5000 rows reads the row. -/
theorem bcRow5000 {α : Type} (v : S1x64.Idx → α) (p : Fin 5000) (q : Fin 64) :
    broadcastTo S5000x64 v broadcasts_S1x64_S5000x64 (ix2 p q) = v (ix2 (0 : Fin 1) q) :=
  broadcastTo_apply _ _ _ (ix2 (0 : Fin 1) q) (fun a => match a with | ⟨0, _⟩ => rfl | ⟨1, _⟩ => rfl)

/-- A length-64 vector reshaped to one row reads the vector. -/
theorem row64_apply {α : Type} (v : S64.Idx → α) (u : Fin 1) (q : Fin 64) :
    shapeCast S1x64 v shapeCasts_S64_S1x64 (ix2 u q) = v (ix1 q) :=
  shapeCast_a_1a_apply v _ u q

/-- The zero word is zero. -/
theorem zeroW : (Scalar.ofBits .f32 0x00000000#32 : Ideal .f32) = 0 := Ideal.ofBits_zero_f32

/-- The count word, as the kernels spell it, is the specification's. -/
theorem cntW_kernel : (Scalar.ofBits .f32 0x47435000#32 : Ideal .f32) = cntW := rfl

end Cert.KernelIdeal.Hand

end
-- ==== Proof.KI.StatsPay0.lean ====
import proofs.«167925_j62517543961156_1_alg».proof.Proof.KI.StatsPayLib

noncomputable section

namespace Cert.KernelIdeal.Hand

open Idealize.ShloMosaic Idealize.ShloMosaic.ValueIdx Cert.KernelIdeal Cert.KernelIdeal.Gen Cert.Spec
open scoped BigOperators

/-! The first statistics kernel's values at an index: the block's pre-activation, its running column sums and
sums of squares, the zeros they start from, and the mean and variance read off the totals. -/

theorem pay0_pre (x0 : Vec Ideal S5000x19 .f32) (x1 : Vec Ideal S19x64 .f32) (x2 : Vec Ideal S1x64 .f32) (p : Fin 5000) (q : Fin 64) :
    k0_pay3 x0 x1 x2 (ix2 p q) = (∑ t : Fin 19, x0 (ix2 p t) * x1 (ix2 t q)) + x2 (ix2 (0 : Fin 1) q) := by
  show addf (matmul dot_S5000x19_S19x64_S5000x64_1_0_0_1_n_n none x0 x1 (constant (F := Ideal) S5000x64 .f32 0x00000000#32))
    (broadcastTo S5000x64 (shapeCast S1x64 x2 shapeCasts_S1x64_S1x64) broadcasts_S1x64_S5000x64) (ix2 p q) = _
  rw [addf_apply, mm_zero_apply _ dot19_plain, bcRow5000, shapeCast_self]

theorem pay0_sum (x0 : Vec Ideal S5000x19 .f32) (x1 : Vec Ideal S19x64 .f32) (x2 : Vec Ideal S1x64 .f32) (s : Vec Ideal S1x64 .f32) (q : Fin 64) :
    k0_pay4 x0 x1 x2 s (ix2 (0 : Fin 1) q) = s (ix2 (0 : Fin 1) q) + ∑ p : Fin 5000, k0_pay3 x0 x1 x2 (ix2 p q) := by
  show shapeCast S1x64 (addf s (shapeCast S1x64 (multiReduction .add [0] S64 (k0_pay3 x0 x1 x2) 0x00000000#32 reduces_S5000x64_S64 (.inl rfl) rfl)
    shapeCasts_S64_S1x64)) shapeCasts_S1x64_S1x64 (ix2 (0 : Fin 1) q) = _
  rw [shapeCast_self, addf_apply, row64_apply]
  exact congrArg (s (ix2 (0 : Fin 1) q) + ·) (colSum5000 (k0_pay3 x0 x1 x2) _ _ q)

theorem pay0_sumsq (x0 : Vec Ideal S5000x19 .f32) (x1 : Vec Ideal S19x64 .f32) (x2 : Vec Ideal S1x64 .f32) (s : Vec Ideal S1x64 .f32) (q : Fin 64) :
    k0_pay5 x0 x1 x2 s (ix2 (0 : Fin 1) q)
      = s (ix2 (0 : Fin 1) q) + ∑ p : Fin 5000, k0_pay3 x0 x1 x2 (ix2 p q) * k0_pay3 x0 x1 x2 (ix2 p q) := by
  show shapeCast S1x64 (addf s (shapeCast S1x64 (multiReduction .add [0] S64 (mulf (k0_pay3 x0 x1 x2) (k0_pay3 x0 x1 x2)) 0x00000000#32
    reduces_S5000x64_S64 (.inl rfl) rfl) shapeCasts_S64_S1x64)) shapeCasts_S1x64_S1x64 (ix2 (0 : Fin 1) q) = _
  rw [shapeCast_self, addf_apply, row64_apply]
  exact congrArg (s (ix2 (0 : Fin 1) q) + ·) (colSum5000 (mulf (k0_pay3 x0 x1 x2) (k0_pay3 x0 x1 x2)) _ _ q)

theorem pay0_zero1 (q : Fin 64) : k0_pay1 (F := Ideal) (ix2 (0 : Fin 1) q) = 0 := by
  show shapeCast S1x64 (broadcast S1x64 (Scalar.ofBits .f32 0x00000000#32 : Ideal .f32)) shapeCasts_S1x64_S1x64 (ix2 (0 : Fin 1) q) = 0
  rw [shapeCast_self, broadcast_apply, zeroW]

theorem pay0_zero2 (q : Fin 64) : k0_pay2 (F := Ideal) (ix2 (0 : Fin 1) q) = 0 := by
  show shapeCast S1x64 (broadcast S1x64 (Scalar.ofBits .f32 0x00000000#32 : Ideal .f32)) shapeCasts_S1x64_S1x64 (ix2 (0 : Fin 1) q) = 0
  rw [shapeCast_self, broadcast_apply, zeroW]

theorem pay0_mean (s : Vec Ideal S1x64 .f32) (q : Fin 64) :
    k0_pay6 s (ix2 (0 : Fin 1) q) = Ideal.div (s (ix2 (0 : Fin 1) q)) cntW := rfl

theorem pay0_var (s s2 : Vec Ideal S1x64 .f32) (q : Fin 64) :
    k0_pay7 s s2 (ix2 (0 : Fin 1) q)
      = Ideal.div (s2 (ix2 (0 : Fin 1) q)) cntW - Ideal.div (s (ix2 (0 : Fin 1) q)) cntW * Ideal.div (s (ix2 (0 : Fin 1) q)) cntW := rfl

end Cert.KernelIdeal.Hand

end
-- ==== Proof.KI.StatsPre0.lean ====
import proofs.«167925_j62517543961156_1_alg».proof.Proof.KI.Stats0Closed
import proofs.«167925_j62517543961156_1_alg».proof.Proof.KI.StatsPay0
import proofs.«167925_j62517543961156_1_alg».proof.Proof.Spec
import Idealize.ShloMosaic.Lib.Pipeline.Value
import Idealize.ShloMosaic.Lib.ValueIdx

/-!
# Region 0 on the extended reals: the pre-activation array it leaves, in closed form

The pre-activation tile a grid point stores is, entry by entry, the product of its tile of node features with the weight matrix plus the bias row.
Point `t` reads and writes rows `5000·t … 5000·t + 4999`; the weight and bias windows are their whole arrays at every
point.  So the ten tiles are the restrictions of ONE function of the whole arrays, and they cover the output array.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
open scoped BigOperators

variable (V : (c : Dev nD) → (b : Ref sig .tc) → Buf (Elt Ideal) ((c : Thread nD τ).loc b))

/-- Where the windows' blocks sit: the tiles at rows `5000·t`, everything else at the origin. -/
theorem stats0pre_idx : ∀ t : Fin cfg0.N,
    win0_3.index t (0 : Fin 2) = t.val
    ∧ win0_3.index t (1 : Fin 2) = 0
    ∧ win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0 :=
  (by decide +kernel : ∀ t : Fin grid0.N, _)

/-- Row `p` of point `t`'s tile is row `5000·t + p` of the array. -/
def stats0pre_rowOf (t : Fin cfg0.N) (p : Fin 5000) : Fin 50000 :=
  ⟨t.val * 5000 + p.val, by
    have h : t.val < 10 := (show t.val < grid0.N from t.isLt).trans_eq N_0
    have := p.isLt; omega⟩

/-- Row `p`, column `k` of point `t`'s block of window 0 is row `5000·t + p`, column `k` of its array. -/
theorem stats0pre_blk0 (c : Dev nD) (t : Fin cfg0.N) (p : Fin 5000) (k : Fin 19) :
    iblk0 V c 0 t (ix2 p k) = V c (Pipeline.arrRef spec0 0) (ix2 (stats0pre_rowOf t p) k) := by
  obtain ⟨eo0, eo1, e00, e01, e10, e11, e20, e21⟩ := stats0pre_idx t
  show V c (Pipeline.arrRef spec0 0) (((cfg0.win 0).blk t).view.emb (ix2 p k)) = _
  refine congrArg (V c (Pipeline.arrRef spec0 0)) ?_
  funext a; apply Fin.ext
  match a with
  | ⟨0, _⟩ => show win0_0.index t (0 : Fin 2) * 5000 + 1 * p.val = t.val * 5000 + p.val; omega
  | ⟨1, _⟩ => show win0_0.index t (1 : Fin 2) * 19 + 1 * k.val = k.val; omega

/-- The block of window 1 is its whole array at every point. -/
theorem stats0pre_blk1 (c : Dev nD) (t : Fin cfg0.N) (k : Fin 19) (q : Fin 64) :
    iblk0 V c 1 t (ix2 k q) = V c (Pipeline.arrRef spec0 1) (ix2 k q) := by
  obtain ⟨eo0, eo1, e00, e01, e10, e11, e20, e21⟩ := stats0pre_idx t
  show V c (Pipeline.arrRef spec0 1) (((cfg0.win 1).blk t).view.emb (ix2 k q)) = _
  refine congrArg (V c (Pipeline.arrRef spec0 1)) ?_
  funext a; apply Fin.ext
  match a with
  | ⟨0, _⟩ => show win0_1.index t (0 : Fin 2) * 19 + 1 * k.val = k.val; omega
  | ⟨1, _⟩ => show win0_1.index t (1 : Fin 2) * 64 + 1 * q.val = q.val; omega

/-- The block of window 2 is its whole one-row array at every point. -/
theorem stats0pre_blk2 (c : Dev nD) (t : Fin cfg0.N) (q : Fin 64) :
    iblk0 V c 2 t (ix2 (0 : Fin 1) q) = V c (Pipeline.arrRef spec0 2) (ix2 (0 : Fin 1) q) := by
  obtain ⟨eo0, eo1, e00, e01, e10, e11, e20, e21⟩ := stats0pre_idx t
  show V c (Pipeline.arrRef spec0 2) (((cfg0.win 2).blk t).view.emb (ix2 (0 : Fin 1) q)) = _
  refine congrArg (V c (Pipeline.arrRef spec0 2)) ?_
  funext a; apply Fin.ext
  match a with
  | ⟨0, _⟩ => show win0_2.index t (0 : Fin 2) * 1 + 1 * 0 = 0; omega
  | ⟨1, _⟩ => show win0_2.index t (1 : Fin 2) * 64 + 1 * q.val = q.val; omega

/-- Where row `p`, column `q` of point `t`'s output tile goes. -/
theorem stats0pre_emb_out (t : Fin cfg0.N) (p : Fin 5000) (q : Fin 64) :
    ((cfg0.win 3).blk t).view.emb (ix2 p q) = ix2 (stats0pre_rowOf t p) q := by
  obtain ⟨eo0, eo1, e00, e01, e10, e11, e20, e21⟩ := stats0pre_idx t
  funext a; apply Fin.ext
  match a with
  | ⟨0, _⟩ => show win0_3.index t (0 : Fin 2) * 5000 + 1 * p.val = t.val * 5000 + p.val; omega
  | ⟨1, _⟩ => show win0_3.index t (1 : Fin 2) * 64 + 1 * q.val = q.val; omega

set_option maxHeartbeats 1000000 in
/-- What point `t` writes back is block `t` of the closed form of the whole arrays. -/
theorem stats0pre_flushed (c : Dev nD) (t : Fin cfg0.N) :
    (dat0 (F := Ideal) V c).flushed 3 t
      = ((cfg0.win 3).blk t).view.read (Elt Ideal) (Cert.Spec.pre0G (V c (Pipeline.arrRef spec0 0)) (V c (Pipeline.arrRef spec0 1)) (V c (Pipeline.arrRef spec0 2))) := by
  generalize hG : Cert.Spec.pre0G (V c (Pipeline.arrRef spec0 0)) (V c (Pipeline.arrRef spec0 1)) (V c (Pipeline.arrRef spec0 2)) = Gf
  show (cfg0.win 3).cut (grid0.coords t) ((dat0 (F := Ideal) V c).after 3 t) = _
  rw [after0_3, pre0_eq V c t]
  funext j
  obtain ⟨p, q, rfl⟩ : ∃ (p : Fin 5000) (q : Fin 64), j = ix2 p q := ⟨j 0, j 1, eq_ix2 j⟩
  refine (pay0_pre (iblk0 V c 0 t) (iblk0 V c 1 t) (iblk0 V c 2 t) p q).trans ?_
  simp only [stats0pre_blk0 V c t p, stats0pre_blk1 V c t, stats0pre_blk2 V c t q]
  show _ = Gf (((cfg0.win 3).blk t).view.emb (ix2 p q))
  rw [stats0pre_emb_out t p q, ← hG]
  exact (Cert.Spec.pre0G_apply _ _ _ (stats0pre_rowOf t p) q).symm

/-- An index of the output array lies in point `t`'s block iff each coordinate lies in the block's range. -/
theorem stats0pre_mem_blk (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v14_0).slice (win0_3.rect t)).set ↔ _
  rw [View.set_slice_whole, Rect.mem_set_unit]
  exact Iff.rfl

/-- Row `r` of the output array is written by point `r / 5000`. -/
theorem stats0pre_cover (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ : ∃ t : Fin cfg0.N, t.val = (i 0).val / 5000 :=
    ⟨⟨(i 0).val / 5000, by rw [show cfg0.N = 10 from N_0]; omega⟩, rfl⟩
  obtain ⟨eo0, eo1, e00, e01, e10, e11, e20, e21⟩ := stats0pre_idx t
  refine ⟨t, flush0_3 t, ?_⟩
  rw [stats0pre_mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The pre-activation array after the region: the closed form of the arrays found on entry. -/
theorem final_stats0_pre (c : Dev nD) :
    (dat0 (F := Ideal) V c).arrAt 3 cfg0.N
      = Cert.Spec.pre0G (V c (Pipeline.arrRef spec0 0)) (V c (Pipeline.arrRef spec0 1)) (V c (Pipeline.arrRef spec0 2)) :=
  (dat0 (F := Ideal) V c).arrAt_eq_of_cover 3 (Cert.Spec.pre0G (V c (Pipeline.arrRef spec0 0)) (V c (Pipeline.arrRef spec0 1)) (V c (Pipeline.arrRef spec0 2)))
    (fun t _ => stats0pre_flushed V c t) (stats0pre_cover)

end Cert.KernelIdeal.Hand
-- ==== Proof.KI.Stats2Pieces.lean ====
import proofs.«167925_j62517543961156_1_alg».proof.Proof.KI.Stats2
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Statistics kernel of region 2: what each control case's stores leave, as the body's named values

    Every store of the body writes a whole buffer, so what a buffer holds afterwards is the value last stored into it:
    the pre-activation tile; the accumulator rows plus this tile's column sums (from zero at the first tile); at the last
    tile the mean and variance rows formed from the accumulated sums. -/

theorem hz2_2 : (![0, 0] : Fin 2 → Nat) = fun _ => 0 := funext fun a => by fin_cases a <;> rfl

theorem out2_A_5_eq (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond2_0 i) (hc1 : ¬cond2_1 i)
    (x0 : Vec F S5000x64 .f32) (x1 : Vec F S64x64 .f32) (x2 : Vec F S1x64 .f32) (x3 : Vec F S5000x64 .f32) (x4 : Vec F S64x64 .f32) :
    out2_A_5 c i arg1 harg1 arg2 harg2 arg3 harg3 arg4 harg4 arg5 harg5 arg6 harg6 arg7 harg7 arg8 harg8 arg9 harg9 arg10 harg10 hc0 hc1 x0 x1 x2 x3 x4 = k2_pay6 x0 x1 x2 x3 x4 := by
  unfold out2_A_5
  rw [View.read_writes_eq_canon _ _ _ (cover2_A_5 c i arg1 harg1 arg2 harg2 arg3 harg3 arg4 harg4 arg5 harg5 arg6 harg6 arg7 harg7 arg8 harg8 arg9 harg9 arg10 harg10 hc0 hc1 x0 x1 x2 x3 x4)]
  unfold run2_A
  dsimp only
  try sl_unfold_words
  rw [View.canon_cons_unit_zero (S := S5000x64) hz2_2]
  try rw [View.readCov_unit_zero (S := S1x64) _ hz2_2]
  try rw [View.readCov_unit_zero (S := S1x64) _ hz2_2]
  try simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2_2, View.ld_unit_zero (S := S64x64) hz2_2, View.ld_unit_zero (S := S1x64) hz2_2]

theorem sout2_A_0_eq (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond2_0 i) (hc1 : ¬cond2_1 i)
    (x0 : Vec F S5000x64 .f32) (x1 : Vec F S64x64 .f32) (x2 : Vec F S1x64 .f32) (x3 : Vec F S5000x64 .f32) (x4 : Vec F S64x64 .f32) :
    sout2_A_0 c i arg1 harg1 arg2 harg2 arg3 harg3 arg4 harg4 arg5 harg5 arg6 harg6 arg7 harg7 arg8 harg8 arg9 harg9 arg10 harg10 hc0 hc1 x0 x1 x2 x3 x4 = k2_pay7 x0 x1 x2 x3 x4 (k2_pay4 (F := F)) := by
  unfold sout2_A_0
  rw [View.read_writes_eq_canon _ _ _ (scover2_A_0 c i arg1 harg1 arg2 harg2 arg3 harg3 arg4 harg4 arg5 harg5 arg6 harg6 arg7 harg7 arg8 harg8 arg9 harg9 arg10 harg10 hc0 hc1 x0 x1 x2 x3 x4)]
  unfold run2_A
  dsimp only
  try sl_unfold_words
  rw [View.canon_cons_unit_zero (S := S1x64) hz2_2]
  try rw [View.readCov_unit_zero (S := S1x64) _ hz2_2]
  try rw [View.readCov_unit_zero (S := S1x64) _ hz2_2]
  try simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2_2, View.ld_unit_zero (S := S64x64) hz2_2, View.ld_unit_zero (S := S1x64) hz2_2]

theorem sout2_A_1_eq (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond2_0 i) (hc1 : ¬cond2_1 i)
    (x0 : Vec F S5000x64 .f32) (x1 : Vec F S64x64 .f32) (x2 : Vec F S1x64 .f32) (x3 : Vec F S5000x64 .f32) (x4 : Vec F S64x64 .f32) :
    sout2_A_1 c i arg1 harg1 arg2 harg2 arg3 harg3 arg4 harg4 arg5 harg5 arg6 harg6 arg7 harg7 arg8 harg8 arg9 harg9 arg10 harg10 hc0 hc1 x0 x1 x2 x3 x4 = k2_pay1 (k2_pay8 x0 x1 x2 x3 x4 (k2_pay5 (F := F))) := by
  unfold sout2_A_1
  rw [View.read_writes_eq_canon _ _ _ (scover2_A_1 c i arg1 harg1 arg2 harg2 arg3 harg3 arg4 harg4 arg5 harg5 arg6 harg6 arg7 harg7 arg8 harg8 arg9 harg9 arg10 harg10 hc0 hc1 x0 x1 x2 x3 x4)]
  unfold run2_A
  dsimp only
  try sl_unfold_words
  rw [View.canon_cons_unit_zero (S := S1x64) hz2_2]
  try rw [View.readCov_unit_zero (S := S1x64) _ hz2_2]
  try rw [View.readCov_unit_zero (S := S1x64) _ hz2_2]
  try simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2_2, View.ld_unit_zero (S := S64x64) hz2_2, View.ld_unit_zero (S := S1x64) hz2_2]

theorem out2_B_5_eq (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : ¬cond2_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) :
    out2_B_5 c i arg1 harg1 arg2 harg2 arg3 harg3 arg4 harg4 arg5 harg5 arg6 harg6 arg7 harg7 arg8 harg8 arg9 harg9 arg10 harg10 hc0 hc1 x0 x1 x2 x3 x4 xs0 xs1 = k2_pay6 x0 x1 x2 x3 x4 := by
  unfold out2_B_5
  rw [View.read_writes_eq_canon _ _ _ (cover2_B_5 c i arg1 harg1 arg2 harg2 arg3 harg3 arg4 harg4 arg5 harg5 arg6 harg6 arg7 harg7 arg8 harg8 arg9 harg9 arg10 harg10 hc0 hc1 x0 x1 x2 x3 x4 xs0 xs1)]
  unfold run2_B
  dsimp only
  try sl_unfold_words
  rw [View.canon_cons_unit_zero (S := S5000x64) hz2_2]
  try rw [View.readCov_unit_zero (S := S1x64) _ hz2_2]
  try rw [View.readCov_unit_zero (S := S1x64) _ hz2_2]
  try simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2_2, View.ld_unit_zero (S := S64x64) hz2_2, View.ld_unit_zero (S := S1x64) hz2_2]

theorem sout2_B_0_eq (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : ¬cond2_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) :
    sout2_B_0 c i arg1 harg1 arg2 harg2 arg3 harg3 arg4 harg4 arg5 harg5 arg6 harg6 arg7 harg7 arg8 harg8 arg9 harg9 arg10 harg10 hc0 hc1 x0 x1 x2 x3 x4 xs0 xs1 = k2_pay7 x0 x1 x2 x3 x4 xs0 := by
  unfold sout2_B_0
  rw [View.read_writes_eq_canon _ _ _ (scover2_B_0 c i arg1 harg1 arg2 harg2 arg3 harg3 arg4 harg4 arg5 harg5 arg6 harg6 arg7 harg7 arg8 harg8 arg9 harg9 arg10 harg10 hc0 hc1 x0 x1 x2 x3 x4 xs0 xs1)]
  unfold run2_B
  dsimp only
  try sl_unfold_words
  rw [View.canon_cons_unit_zero (S := S1x64) hz2_2]
  try rw [View.readCov_unit_zero (S := S1x64) _ hz2_2]
  try rw [View.readCov_unit_zero (S := S1x64) _ hz2_2]
  try simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2_2, View.ld_unit_zero (S := S64x64) hz2_2, View.ld_unit_zero (S := S1x64) hz2_2]

theorem sout2_B_1_eq (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : ¬cond2_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) :
    sout2_B_1 c i arg1 harg1 arg2 harg2 arg3 harg3 arg4 harg4 arg5 harg5 arg6 harg6 arg7 harg7 arg8 harg8 arg9 harg9 arg10 harg10 hc0 hc1 x0 x1 x2 x3 x4 xs0 xs1 = k2_pay1 (k2_pay8 x0 x1 x2 x3 x4 xs1) := by
  unfold sout2_B_1
  rw [View.read_writes_eq_canon _ _ _ (scover2_B_1 c i arg1 harg1 arg2 harg2 arg3 harg3 arg4 harg4 arg5 harg5 arg6 harg6 arg7 harg7 arg8 harg8 arg9 harg9 arg10 harg10 hc0 hc1 x0 x1 x2 x3 x4 xs0 xs1)]
  unfold run2_B
  dsimp only
  try sl_unfold_words
  rw [View.canon_cons_unit_zero (S := S1x64) hz2_2]
  try rw [View.readCov_unit_zero (S := S1x64) _ hz2_2]
  try rw [View.readCov_unit_zero (S := S1x64) _ hz2_2]
  try simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2_2, View.ld_unit_zero (S := S64x64) hz2_2, View.ld_unit_zero (S := S1x64) hz2_2]

theorem out2_C_5_eq (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : cond2_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) :
    out2_C_5 c i arg1 harg1 arg2 harg2 arg3 harg3 arg4 harg4 arg5 harg5 arg6 harg6 arg7 harg7 arg8 harg8 arg9 harg9 arg10 harg10 hc0 hc1 x0 x1 x2 x3 x4 xs0 xs1 = k2_pay6 x0 x1 x2 x3 x4 := by
  unfold out2_C_5
  rw [View.read_writes_eq_canon _ _ _ (cover2_C_5 c i arg1 harg1 arg2 harg2 arg3 harg3 arg4 harg4 arg5 harg5 arg6 harg6 arg7 harg7 arg8 harg8 arg9 harg9 arg10 harg10 hc0 hc1 x0 x1 x2 x3 x4 xs0 xs1)]
  unfold run2_C
  dsimp only
  try sl_unfold_words
  rw [View.canon_cons_unit_zero (S := S5000x64) hz2_2]
  try rw [View.readCov_unit_zero (S := S1x64) _ hz2_2]
  try rw [View.readCov_unit_zero (S := S1x64) _ hz2_2]
  try simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2_2, View.ld_unit_zero (S := S64x64) hz2_2, View.ld_unit_zero (S := S1x64) hz2_2]

theorem sout2_C_0_eq (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : cond2_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) :
    sout2_C_0 c i arg1 harg1 arg2 harg2 arg3 harg3 arg4 harg4 arg5 harg5 arg6 harg6 arg7 harg7 arg8 harg8 arg9 harg9 arg10 harg10 hc0 hc1 x0 x1 x2 x3 x4 xs0 xs1 = k2_pay7 x0 x1 x2 x3 x4 xs0 := by
  unfold sout2_C_0
  rw [View.read_writes_eq_canon _ _ _ (scover2_C_0 c i arg1 harg1 arg2 harg2 arg3 harg3 arg4 harg4 arg5 harg5 arg6 harg6 arg7 harg7 arg8 harg8 arg9 harg9 arg10 harg10 hc0 hc1 x0 x1 x2 x3 x4 xs0 xs1)]
  unfold run2_C
  dsimp only
  try sl_unfold_words
  rw [View.canon_cons_unit_zero (S := S1x64) hz2_2]
  try rw [View.readCov_unit_zero (S := S1x64) _ hz2_2]
  try rw [View.readCov_unit_zero (S := S1x64) _ hz2_2]
  try simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2_2, View.ld_unit_zero (S := S64x64) hz2_2, View.ld_unit_zero (S := S1x64) hz2_2]

theorem sout2_C_1_eq (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : cond2_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) :
    sout2_C_1 c i arg1 harg1 arg2 harg2 arg3 harg3 arg4 harg4 arg5 harg5 arg6 harg6 arg7 harg7 arg8 harg8 arg9 harg9 arg10 harg10 hc0 hc1 x0 x1 x2 x3 x4 xs0 xs1 = k2_pay1 (k2_pay8 x0 x1 x2 x3 x4 xs1) := by
  unfold sout2_C_1
  rw [View.read_writes_eq_canon _ _ _ (scover2_C_1 c i arg1 harg1 arg2 harg2 arg3 harg3 arg4 harg4 arg5 harg5 arg6 harg6 arg7 harg7 arg8 harg8 arg9 harg9 arg10 harg10 hc0 hc1 x0 x1 x2 x3 x4 xs0 xs1)]
  unfold run2_C
  dsimp only
  try sl_unfold_words
  rw [View.canon_cons_unit_zero (S := S1x64) hz2_2]
  try rw [View.readCov_unit_zero (S := S1x64) _ hz2_2]
  try rw [View.readCov_unit_zero (S := S1x64) _ hz2_2]
  try simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2_2, View.ld_unit_zero (S := S64x64) hz2_2, View.ld_unit_zero (S := S1x64) hz2_2]

theorem out2_C_6_eq (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : cond2_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) :
    out2_C_6 c i arg1 harg1 arg2 harg2 arg3 harg3 arg4 harg4 arg5 harg5 arg6 harg6 arg7 harg7 arg8 harg8 arg9 harg9 arg10 harg10 hc0 hc1 x0 x1 x2 x3 x4 xs0 xs1 = k2_pay2 (k2_pay7 x0 x1 x2 x3 x4 xs0) := by
  unfold out2_C_6
  rw [View.read_writes_eq_canon _ _ _ (cover2_C_6 c i arg1 harg1 arg2 harg2 arg3 harg3 arg4 harg4 arg5 harg5 arg6 harg6 arg7 harg7 arg8 harg8 arg9 harg9 arg10 harg10 hc0 hc1 x0 x1 x2 x3 x4 xs0 xs1)]
  unfold run2_C
  dsimp only
  try sl_unfold_words
  rw [View.canon_cons_unit_zero (S := S1x64) hz2_2]
  try rw [View.readCov_unit_zero (S := S1x64) _ hz2_2]
  try rw [View.readCov_unit_zero (S := S1x64) _ hz2_2]
  try simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2_2, View.ld_unit_zero (S := S64x64) hz2_2, View.ld_unit_zero (S := S1x64) hz2_2]

theorem out2_C_7_eq (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : cond2_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) :
    out2_C_7 c i arg1 harg1 arg2 harg2 arg3 harg3 arg4 harg4 arg5 harg5 arg6 harg6 arg7 harg7 arg8 harg8 arg9 harg9 arg10 harg10 hc0 hc1 x0 x1 x2 x3 x4 xs0 xs1 = k2_pay3 (k2_pay7 x0 x1 x2 x3 x4 xs0) (k2_pay1 (k2_pay8 x0 x1 x2 x3 x4 xs1)) := by
  unfold out2_C_7
  rw [View.read_writes_eq_canon _ _ _ (cover2_C_7 c i arg1 harg1 arg2 harg2 arg3 harg3 arg4 harg4 arg5 harg5 arg6 harg6 arg7 harg7 arg8 harg8 arg9 harg9 arg10 harg10 hc0 hc1 x0 x1 x2 x3 x4 xs0 xs1)]
  unfold run2_C
  dsimp only
  try sl_unfold_words
  rw [View.canon_cons_unit_zero (S := S1x64) hz2_2]
  try rw [View.readCov_unit_zero (S := S1x64) _ hz2_2]
  try rw [View.readCov_unit_zero (S := S1x64) _ hz2_2]
  try simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2_2, View.ld_unit_zero (S := S64x64) hz2_2, View.ld_unit_zero (S := S1x64) hz2_2]

end Cert.KernelIdeal.Hand

end
-- ==== Proof.KI.Stats2Closed.lean ====
import proofs.«167925_j62517543961156_1_alg».proof.Proof.KI.Stats2Pieces

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

attribute [local irreducible] outsAt2 out2_A_5 sout2_A_0 sout2_A_1 out2_B_5 sout2_B_0 sout2_B_1 out2_C_5 out2_C_6 out2_C_7 sout2_C_0 sout2_C_1

/-! # Statistics kernel of region 2: the buffers after each node tile, in closed form

    The pre-activation tile's buffer holds the tile's pre-activations; the two accumulator rows follow a recurrence — from
    zero, each tile adds its column sums —; after the last tile the mean and variance rows are formed from them. -/

set_option maxHeartbeats 1000000 in
theorem pre2_eq (c : Dev nD) (t : Fin cfg2.N) :
    (outsAt2 V c t.val t.isLt).1 = k2_pay6 (iblk2 V c 0 t) (iblk2 V c 1 t) (iblk2 V c 2 t) (iblk2 V c 3 t) (iblk2 V c 4 t) := by
  by_cases h0 : t.val = 0
  · exact (congrArg (fun x => x.1) (outsAt2_A V c t h0)).trans (out2_A_5_eq (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => (fun h => by omega) ((hcond2_1 t).mp h)) (iblk2 V c 0 t) (iblk2 V c 1 t) (iblk2 V c 2 t) (iblk2 V c 3 t) (iblk2 V c 4 t))
  · by_cases h1 : t.val = 9
    · exact (congrArg (fun x => x.1) (outsAt2_C V c t h0 h1)).trans (out2_C_5_eq (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2)
    · exact (congrArg (fun x => x.1) (outsAt2_B V c t h0 h1)).trans (out2_B_5_eq (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2)

set_option maxHeartbeats 1000000 in
theorem S2_zero (c : Dev nD) (hn : 0 < cfg2.N) :
    S2 V c 0 hn = k2_pay7 (iblk2 V c 0 ⟨0, hn⟩) (iblk2 V c 1 ⟨0, hn⟩) (iblk2 V c 2 ⟨0, hn⟩) (iblk2 V c 3 ⟨0, hn⟩) (iblk2 V c 4 ⟨0, hn⟩) (k2_pay4 (F := F)) := by
  show (outsAt2 V c (⟨0, hn⟩ : Fin cfg2.N).val (⟨0, hn⟩ : Fin cfg2.N).isLt).2.2.2.1 = _
  have h0 : (⟨0, hn⟩ : Fin cfg2.N).val = 0 := rfl
  exact (congrArg (fun x => x.2.2.2.1) (outsAt2_A V c (⟨0, hn⟩ : Fin cfg2.N) h0)).trans (sout2_A_0_eq (F := F) c (grid2.coords (⟨0, hn⟩ : Fin cfg2.N)) (ms2_0 (⟨0, hn⟩ : Fin cfg2.N)) (hs2_0 (⟨0, hn⟩ : Fin cfg2.N)) (ms2_1 (⟨0, hn⟩ : Fin cfg2.N)) (hs2_1 (⟨0, hn⟩ : Fin cfg2.N)) (ms2_2 (⟨0, hn⟩ : Fin cfg2.N)) (hs2_2 (⟨0, hn⟩ : Fin cfg2.N)) (ms2_3 (⟨0, hn⟩ : Fin cfg2.N)) (hs2_3 (⟨0, hn⟩ : Fin cfg2.N)) (ms2_4 (⟨0, hn⟩ : Fin cfg2.N)) (hs2_4 (⟨0, hn⟩ : Fin cfg2.N)) (ms2_5 (⟨0, hn⟩ : Fin cfg2.N)) (hs2_5 (⟨0, hn⟩ : Fin cfg2.N)) (ms2_6 (⟨0, hn⟩ : Fin cfg2.N)) (hs2_6 (⟨0, hn⟩ : Fin cfg2.N)) (ms2_7 (⟨0, hn⟩ : Fin cfg2.N)) (hs2_7 (⟨0, hn⟩ : Fin cfg2.N)) scM2_0 (Memref.isWhole_whole _) scM2_1 (Memref.isWhole_whole _) ((hcond2_0 (⟨0, hn⟩ : Fin cfg2.N)).mpr h0) (fun h => (fun h => by omega) ((hcond2_1 (⟨0, hn⟩ : Fin cfg2.N)).mp h)) (iblk2 V c 0 (⟨0, hn⟩ : Fin cfg2.N)) (iblk2 V c 1 (⟨0, hn⟩ : Fin cfg2.N)) (iblk2 V c 2 (⟨0, hn⟩ : Fin cfg2.N)) (iblk2 V c 3 (⟨0, hn⟩ : Fin cfg2.N)) (iblk2 V c 4 (⟨0, hn⟩ : Fin cfg2.N)))

set_option maxHeartbeats 1000000 in
theorem Q2_zero (c : Dev nD) (hn : 0 < cfg2.N) :
    Q2 V c 0 hn = k2_pay1 (k2_pay8 (iblk2 V c 0 ⟨0, hn⟩) (iblk2 V c 1 ⟨0, hn⟩) (iblk2 V c 2 ⟨0, hn⟩) (iblk2 V c 3 ⟨0, hn⟩) (iblk2 V c 4 ⟨0, hn⟩) (k2_pay5 (F := F))) := by
  show (outsAt2 V c (⟨0, hn⟩ : Fin cfg2.N).val (⟨0, hn⟩ : Fin cfg2.N).isLt).2.2.2.2 = _
  have h0 : (⟨0, hn⟩ : Fin cfg2.N).val = 0 := rfl
  exact (congrArg (fun x => x.2.2.2.2) (outsAt2_A V c (⟨0, hn⟩ : Fin cfg2.N) h0)).trans (sout2_A_1_eq (F := F) c (grid2.coords (⟨0, hn⟩ : Fin cfg2.N)) (ms2_0 (⟨0, hn⟩ : Fin cfg2.N)) (hs2_0 (⟨0, hn⟩ : Fin cfg2.N)) (ms2_1 (⟨0, hn⟩ : Fin cfg2.N)) (hs2_1 (⟨0, hn⟩ : Fin cfg2.N)) (ms2_2 (⟨0, hn⟩ : Fin cfg2.N)) (hs2_2 (⟨0, hn⟩ : Fin cfg2.N)) (ms2_3 (⟨0, hn⟩ : Fin cfg2.N)) (hs2_3 (⟨0, hn⟩ : Fin cfg2.N)) (ms2_4 (⟨0, hn⟩ : Fin cfg2.N)) (hs2_4 (⟨0, hn⟩ : Fin cfg2.N)) (ms2_5 (⟨0, hn⟩ : Fin cfg2.N)) (hs2_5 (⟨0, hn⟩ : Fin cfg2.N)) (ms2_6 (⟨0, hn⟩ : Fin cfg2.N)) (hs2_6 (⟨0, hn⟩ : Fin cfg2.N)) (ms2_7 (⟨0, hn⟩ : Fin cfg2.N)) (hs2_7 (⟨0, hn⟩ : Fin cfg2.N)) scM2_0 (Memref.isWhole_whole _) scM2_1 (Memref.isWhole_whole _) ((hcond2_0 (⟨0, hn⟩ : Fin cfg2.N)).mpr h0) (fun h => (fun h => by omega) ((hcond2_1 (⟨0, hn⟩ : Fin cfg2.N)).mp h)) (iblk2 V c 0 (⟨0, hn⟩ : Fin cfg2.N)) (iblk2 V c 1 (⟨0, hn⟩ : Fin cfg2.N)) (iblk2 V c 2 (⟨0, hn⟩ : Fin cfg2.N)) (iblk2 V c 3 (⟨0, hn⟩ : Fin cfg2.N)) (iblk2 V c 4 (⟨0, hn⟩ : Fin cfg2.N)))

set_option maxHeartbeats 1000000 in
theorem S2_succ (c : Dev nD) (n : ℕ) (hn : n + 1 < cfg2.N) :
    S2 V c (n + 1) hn = k2_pay7 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (S2 V c n (Nat.lt_of_succ_lt hn)) := by
  show (outsAt2 V c (⟨n + 1, hn⟩ : Fin cfg2.N).val (⟨n + 1, hn⟩ : Fin cfg2.N).isLt).2.2.2.1 = _
  have h0 : ¬(⟨n + 1, hn⟩ : Fin cfg2.N).val = 0 := Nat.succ_ne_zero n
  by_cases h1 : (⟨n + 1, hn⟩ : Fin cfg2.N).val = 9
  · exact (congrArg (fun x => x.2.2.2.1) (outsAt2_C V c (⟨n + 1, hn⟩ : Fin cfg2.N) h0 h1)).trans (sout2_C_0_eq (F := F) c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N)) (ms2_3 (⟨n + 1, hn⟩ : Fin cfg2.N)) (hs2_3 (⟨n + 1, hn⟩ : Fin cfg2.N)) (ms2_4 (⟨n + 1, hn⟩ : Fin cfg2.N)) (hs2_4 (⟨n + 1, hn⟩ : Fin cfg2.N)) (ms2_5 (⟨n + 1, hn⟩ : Fin cfg2.N)) (hs2_5 (⟨n + 1, hn⟩ : Fin cfg2.N)) (ms2_6 (⟨n + 1, hn⟩ : Fin cfg2.N)) (hs2_6 (⟨n + 1, hn⟩ : Fin cfg2.N)) (ms2_7 (⟨n + 1, hn⟩ : Fin cfg2.N)) (hs2_7 (⟨n + 1, hn⟩ : Fin cfg2.N)) scM2_0 (Memref.isWhole_whole _) scM2_1 (Memref.isWhole_whole _) (fun h => h0 ((hcond2_0 (⟨n + 1, hn⟩ : Fin cfg2.N)).mp h)) ((hcond2_1 (⟨n + 1, hn⟩ : Fin cfg2.N)).mpr h1) (iblk2 V c 0 (⟨n + 1, hn⟩ : Fin cfg2.N)) (iblk2 V c 1 (⟨n + 1, hn⟩ : Fin cfg2.N)) (iblk2 V c 2 (⟨n + 1, hn⟩ : Fin cfg2.N)) (iblk2 V c 3 (⟨n + 1, hn⟩ : Fin cfg2.N)) (iblk2 V c 4 (⟨n + 1, hn⟩ : Fin cfg2.N)) (outsAt2 V c ((⟨n + 1, hn⟩ : Fin cfg2.N).val - 1) (Nat.lt_of_le_of_lt (Nat.sub_le _ _) (⟨n + 1, hn⟩ : Fin cfg2.N).isLt)).2.2.2.1 (outsAt2 V c ((⟨n + 1, hn⟩ : Fin cfg2.N).val - 1) (Nat.lt_of_le_of_lt (Nat.sub_le _ _) (⟨n + 1, hn⟩ : Fin cfg2.N).isLt)).2.2.2.2)
  · exact (congrArg (fun x => x.2.2.2.1) (outsAt2_B V c (⟨n + 1, hn⟩ : Fin cfg2.N) h0 h1)).trans (sout2_B_0_eq (F := F) c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N)) (ms2_3 (⟨n + 1, hn⟩ : Fin cfg2.N)) (hs2_3 (⟨n + 1, hn⟩ : Fin cfg2.N)) (ms2_4 (⟨n + 1, hn⟩ : Fin cfg2.N)) (hs2_4 (⟨n + 1, hn⟩ : Fin cfg2.N)) (ms2_5 (⟨n + 1, hn⟩ : Fin cfg2.N)) (hs2_5 (⟨n + 1, hn⟩ : Fin cfg2.N)) (ms2_6 (⟨n + 1, hn⟩ : Fin cfg2.N)) (hs2_6 (⟨n + 1, hn⟩ : Fin cfg2.N)) (ms2_7 (⟨n + 1, hn⟩ : Fin cfg2.N)) (hs2_7 (⟨n + 1, hn⟩ : Fin cfg2.N)) scM2_0 (Memref.isWhole_whole _) scM2_1 (Memref.isWhole_whole _) (fun h => h0 ((hcond2_0 (⟨n + 1, hn⟩ : Fin cfg2.N)).mp h)) (fun h => h1 ((hcond2_1 (⟨n + 1, hn⟩ : Fin cfg2.N)).mp h)) (iblk2 V c 0 (⟨n + 1, hn⟩ : Fin cfg2.N)) (iblk2 V c 1 (⟨n + 1, hn⟩ : Fin cfg2.N)) (iblk2 V c 2 (⟨n + 1, hn⟩ : Fin cfg2.N)) (iblk2 V c 3 (⟨n + 1, hn⟩ : Fin cfg2.N)) (iblk2 V c 4 (⟨n + 1, hn⟩ : Fin cfg2.N)) (outsAt2 V c ((⟨n + 1, hn⟩ : Fin cfg2.N).val - 1) (Nat.lt_of_le_of_lt (Nat.sub_le _ _) (⟨n + 1, hn⟩ : Fin cfg2.N).isLt)).2.2.2.1 (outsAt2 V c ((⟨n + 1, hn⟩ : Fin cfg2.N).val - 1) (Nat.lt_of_le_of_lt (Nat.sub_le _ _) (⟨n + 1, hn⟩ : Fin cfg2.N).isLt)).2.2.2.2)

set_option maxHeartbeats 1000000 in
theorem Q2_succ (c : Dev nD) (n : ℕ) (hn : n + 1 < cfg2.N) :
    Q2 V c (n + 1) hn = k2_pay1 (k2_pay8 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (Q2 V c n (Nat.lt_of_succ_lt hn))) := by
  show (outsAt2 V c (⟨n + 1, hn⟩ : Fin cfg2.N).val (⟨n + 1, hn⟩ : Fin cfg2.N).isLt).2.2.2.2 = _
  have h0 : ¬(⟨n + 1, hn⟩ : Fin cfg2.N).val = 0 := Nat.succ_ne_zero n
  by_cases h1 : (⟨n + 1, hn⟩ : Fin cfg2.N).val = 9
  · exact (congrArg (fun x => x.2.2.2.2) (outsAt2_C V c (⟨n + 1, hn⟩ : Fin cfg2.N) h0 h1)).trans (sout2_C_1_eq (F := F) c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N)) (ms2_3 (⟨n + 1, hn⟩ : Fin cfg2.N)) (hs2_3 (⟨n + 1, hn⟩ : Fin cfg2.N)) (ms2_4 (⟨n + 1, hn⟩ : Fin cfg2.N)) (hs2_4 (⟨n + 1, hn⟩ : Fin cfg2.N)) (ms2_5 (⟨n + 1, hn⟩ : Fin cfg2.N)) (hs2_5 (⟨n + 1, hn⟩ : Fin cfg2.N)) (ms2_6 (⟨n + 1, hn⟩ : Fin cfg2.N)) (hs2_6 (⟨n + 1, hn⟩ : Fin cfg2.N)) (ms2_7 (⟨n + 1, hn⟩ : Fin cfg2.N)) (hs2_7 (⟨n + 1, hn⟩ : Fin cfg2.N)) scM2_0 (Memref.isWhole_whole _) scM2_1 (Memref.isWhole_whole _) (fun h => h0 ((hcond2_0 (⟨n + 1, hn⟩ : Fin cfg2.N)).mp h)) ((hcond2_1 (⟨n + 1, hn⟩ : Fin cfg2.N)).mpr h1) (iblk2 V c 0 (⟨n + 1, hn⟩ : Fin cfg2.N)) (iblk2 V c 1 (⟨n + 1, hn⟩ : Fin cfg2.N)) (iblk2 V c 2 (⟨n + 1, hn⟩ : Fin cfg2.N)) (iblk2 V c 3 (⟨n + 1, hn⟩ : Fin cfg2.N)) (iblk2 V c 4 (⟨n + 1, hn⟩ : Fin cfg2.N)) (outsAt2 V c ((⟨n + 1, hn⟩ : Fin cfg2.N).val - 1) (Nat.lt_of_le_of_lt (Nat.sub_le _ _) (⟨n + 1, hn⟩ : Fin cfg2.N).isLt)).2.2.2.1 (outsAt2 V c ((⟨n + 1, hn⟩ : Fin cfg2.N).val - 1) (Nat.lt_of_le_of_lt (Nat.sub_le _ _) (⟨n + 1, hn⟩ : Fin cfg2.N).isLt)).2.2.2.2)
  · exact (congrArg (fun x => x.2.2.2.2) (outsAt2_B V c (⟨n + 1, hn⟩ : Fin cfg2.N) h0 h1)).trans (sout2_B_1_eq (F := F) c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N)) (ms2_3 (⟨n + 1, hn⟩ : Fin cfg2.N)) (hs2_3 (⟨n + 1, hn⟩ : Fin cfg2.N)) (ms2_4 (⟨n + 1, hn⟩ : Fin cfg2.N)) (hs2_4 (⟨n + 1, hn⟩ : Fin cfg2.N)) (ms2_5 (⟨n + 1, hn⟩ : Fin cfg2.N)) (hs2_5 (⟨n + 1, hn⟩ : Fin cfg2.N)) (ms2_6 (⟨n + 1, hn⟩ : Fin cfg2.N)) (hs2_6 (⟨n + 1, hn⟩ : Fin cfg2.N)) (ms2_7 (⟨n + 1, hn⟩ : Fin cfg2.N)) (hs2_7 (⟨n + 1, hn⟩ : Fin cfg2.N)) scM2_0 (Memref.isWhole_whole _) scM2_1 (Memref.isWhole_whole _) (fun h => h0 ((hcond2_0 (⟨n + 1, hn⟩ : Fin cfg2.N)).mp h)) (fun h => h1 ((hcond2_1 (⟨n + 1, hn⟩ : Fin cfg2.N)).mp h)) (iblk2 V c 0 (⟨n + 1, hn⟩ : Fin cfg2.N)) (iblk2 V c 1 (⟨n + 1, hn⟩ : Fin cfg2.N)) (iblk2 V c 2 (⟨n + 1, hn⟩ : Fin cfg2.N)) (iblk2 V c 3 (⟨n + 1, hn⟩ : Fin cfg2.N)) (iblk2 V c 4 (⟨n + 1, hn⟩ : Fin cfg2.N)) (outsAt2 V c ((⟨n + 1, hn⟩ : Fin cfg2.N).val - 1) (Nat.lt_of_le_of_lt (Nat.sub_le _ _) (⟨n + 1, hn⟩ : Fin cfg2.N).isLt)).2.2.2.1 (outsAt2 V c ((⟨n + 1, hn⟩ : Fin cfg2.N).val - 1) (Nat.lt_of_le_of_lt (Nat.sub_le _ _) (⟨n + 1, hn⟩ : Fin cfg2.N).isLt)).2.2.2.2)

set_option maxHeartbeats 1000000 in
/-- After the last tile the mean row is formed from the final row of column sums, -/
theorem mean2_last (c : Dev nD) (hn : 8 + 1 < cfg2.N) :
    (outsAt2 V c (8 + 1) hn).2.1 = k2_pay2 (S2 V c (8 + 1) hn) := by
  show (outsAt2 V c (⟨8 + 1, hn⟩ : Fin cfg2.N).val (⟨8 + 1, hn⟩ : Fin cfg2.N).isLt).2.1 = _
  have h0 : ¬(⟨8 + 1, hn⟩ : Fin cfg2.N).val = 0 := Nat.succ_ne_zero 8
  have h1 : (⟨8 + 1, hn⟩ : Fin cfg2.N).val = 9 := rfl
  refine Eq.trans ?_ (congrArg (fun s => k2_pay2 s) (S2_succ V c 8 hn).symm)
  exact (congrArg (fun x => x.2.1) (outsAt2_C V c (⟨8 + 1, hn⟩ : Fin cfg2.N) h0 h1)).trans (out2_C_6_eq (F := F) c (grid2.coords (⟨8 + 1, hn⟩ : Fin cfg2.N)) (ms2_0 (⟨8 + 1, hn⟩ : Fin cfg2.N)) (hs2_0 (⟨8 + 1, hn⟩ : Fin cfg2.N)) (ms2_1 (⟨8 + 1, hn⟩ : Fin cfg2.N)) (hs2_1 (⟨8 + 1, hn⟩ : Fin cfg2.N)) (ms2_2 (⟨8 + 1, hn⟩ : Fin cfg2.N)) (hs2_2 (⟨8 + 1, hn⟩ : Fin cfg2.N)) (ms2_3 (⟨8 + 1, hn⟩ : Fin cfg2.N)) (hs2_3 (⟨8 + 1, hn⟩ : Fin cfg2.N)) (ms2_4 (⟨8 + 1, hn⟩ : Fin cfg2.N)) (hs2_4 (⟨8 + 1, hn⟩ : Fin cfg2.N)) (ms2_5 (⟨8 + 1, hn⟩ : Fin cfg2.N)) (hs2_5 (⟨8 + 1, hn⟩ : Fin cfg2.N)) (ms2_6 (⟨8 + 1, hn⟩ : Fin cfg2.N)) (hs2_6 (⟨8 + 1, hn⟩ : Fin cfg2.N)) (ms2_7 (⟨8 + 1, hn⟩ : Fin cfg2.N)) (hs2_7 (⟨8 + 1, hn⟩ : Fin cfg2.N)) scM2_0 (Memref.isWhole_whole _) scM2_1 (Memref.isWhole_whole _) (fun h => h0 ((hcond2_0 (⟨8 + 1, hn⟩ : Fin cfg2.N)).mp h)) ((hcond2_1 (⟨8 + 1, hn⟩ : Fin cfg2.N)).mpr h1) (iblk2 V c 0 (⟨8 + 1, hn⟩ : Fin cfg2.N)) (iblk2 V c 1 (⟨8 + 1, hn⟩ : Fin cfg2.N)) (iblk2 V c 2 (⟨8 + 1, hn⟩ : Fin cfg2.N)) (iblk2 V c 3 (⟨8 + 1, hn⟩ : Fin cfg2.N)) (iblk2 V c 4 (⟨8 + 1, hn⟩ : Fin cfg2.N)) (outsAt2 V c ((⟨8 + 1, hn⟩ : Fin cfg2.N).val - 1) (Nat.lt_of_le_of_lt (Nat.sub_le _ _) (⟨8 + 1, hn⟩ : Fin cfg2.N).isLt)).2.2.2.1 (outsAt2 V c ((⟨8 + 1, hn⟩ : Fin cfg2.N).val - 1) (Nat.lt_of_le_of_lt (Nat.sub_le _ _) (⟨8 + 1, hn⟩ : Fin cfg2.N).isLt)).2.2.2.2)

set_option maxHeartbeats 1000000 in
/-- and the variance row from both final rows. -/
theorem var2_last (c : Dev nD) (hn : 8 + 1 < cfg2.N) :
    (outsAt2 V c (8 + 1) hn).2.2.1 = k2_pay3 (S2 V c (8 + 1) hn) (Q2 V c (8 + 1) hn) := by
  show (outsAt2 V c (⟨8 + 1, hn⟩ : Fin cfg2.N).val (⟨8 + 1, hn⟩ : Fin cfg2.N).isLt).2.2.1 = _
  have h0 : ¬(⟨8 + 1, hn⟩ : Fin cfg2.N).val = 0 := Nat.succ_ne_zero 8
  have h1 : (⟨8 + 1, hn⟩ : Fin cfg2.N).val = 9 := rfl
  refine Eq.trans ?_ (congrArg₂ (fun s q => k2_pay3 s q) (S2_succ V c 8 hn).symm (Q2_succ V c 8 hn).symm)
  exact (congrArg (fun x => x.2.2.1) (outsAt2_C V c (⟨8 + 1, hn⟩ : Fin cfg2.N) h0 h1)).trans (out2_C_7_eq (F := F) c (grid2.coords (⟨8 + 1, hn⟩ : Fin cfg2.N)) (ms2_0 (⟨8 + 1, hn⟩ : Fin cfg2.N)) (hs2_0 (⟨8 + 1, hn⟩ : Fin cfg2.N)) (ms2_1 (⟨8 + 1, hn⟩ : Fin cfg2.N)) (hs2_1 (⟨8 + 1, hn⟩ : Fin cfg2.N)) (ms2_2 (⟨8 + 1, hn⟩ : Fin cfg2.N)) (hs2_2 (⟨8 + 1, hn⟩ : Fin cfg2.N)) (ms2_3 (⟨8 + 1, hn⟩ : Fin cfg2.N)) (hs2_3 (⟨8 + 1, hn⟩ : Fin cfg2.N)) (ms2_4 (⟨8 + 1, hn⟩ : Fin cfg2.N)) (hs2_4 (⟨8 + 1, hn⟩ : Fin cfg2.N)) (ms2_5 (⟨8 + 1, hn⟩ : Fin cfg2.N)) (hs2_5 (⟨8 + 1, hn⟩ : Fin cfg2.N)) (ms2_6 (⟨8 + 1, hn⟩ : Fin cfg2.N)) (hs2_6 (⟨8 + 1, hn⟩ : Fin cfg2.N)) (ms2_7 (⟨8 + 1, hn⟩ : Fin cfg2.N)) (hs2_7 (⟨8 + 1, hn⟩ : Fin cfg2.N)) scM2_0 (Memref.isWhole_whole _) scM2_1 (Memref.isWhole_whole _) (fun h => h0 ((hcond2_0 (⟨8 + 1, hn⟩ : Fin cfg2.N)).mp h)) ((hcond2_1 (⟨8 + 1, hn⟩ : Fin cfg2.N)).mpr h1) (iblk2 V c 0 (⟨8 + 1, hn⟩ : Fin cfg2.N)) (iblk2 V c 1 (⟨8 + 1, hn⟩ : Fin cfg2.N)) (iblk2 V c 2 (⟨8 + 1, hn⟩ : Fin cfg2.N)) (iblk2 V c 3 (⟨8 + 1, hn⟩ : Fin cfg2.N)) (iblk2 V c 4 (⟨8 + 1, hn⟩ : Fin cfg2.N)) (outsAt2 V c ((⟨8 + 1, hn⟩ : Fin cfg2.N).val - 1) (Nat.lt_of_le_of_lt (Nat.sub_le _ _) (⟨8 + 1, hn⟩ : Fin cfg2.N).isLt)).2.2.2.1 (outsAt2 V c ((⟨8 + 1, hn⟩ : Fin cfg2.N).val - 1) (Nat.lt_of_le_of_lt (Nat.sub_le _ _) (⟨8 + 1, hn⟩ : Fin cfg2.N).isLt)).2.2.2.2)

end Cert.KernelIdeal.Hand

end
-- ==== Proof.KI.StatsPay2.lean ====
import proofs.«167925_j62517543961156_1_alg».proof.Proof.KI.StatsPayLib

noncomputable section

namespace Cert.KernelIdeal.Hand

open Idealize.ShloMosaic Idealize.ShloMosaic.ValueIdx Cert.KernelIdeal Cert.KernelIdeal.Gen Cert.Spec
open scoped BigOperators

/-! A later statistics kernel's values at an index: the block's pre-activation (two block products and a bias
row), its running column sums and sums of squares, the zeros they start from, and the mean and variance read off the
totals. -/

theorem pay2_pre (x0 : Vec Ideal S5000x64 .f32) (x1 : Vec Ideal S64x64 .f32) (x2 : Vec Ideal S1x64 .f32)
    (x3 : Vec Ideal S5000x64 .f32) (x4 : Vec Ideal S64x64 .f32) (p : Fin 5000) (q : Fin 64) :
    k2_pay6 x0 x1 x2 x3 x4 (ix2 p q)
      = (∑ t : Fin 64, x0 (ix2 p t) * x1 (ix2 t q)) + x2 (ix2 (0 : Fin 1) q) + ∑ t : Fin 64, x3 (ix2 p t) * x4 (ix2 t q) := by
  show addf (addf (matmul dot_S5000x64_S64x64_S5000x64_1_0_0_1_n_n none (shapeCast S5000x64 x0 shapeCasts_S5000x64_S5000x64)
        (shapeCast S64x64 x1 shapeCasts_S64x64_S64x64) (constant (F := Ideal) S5000x64 .f32 0x00000000#32))
      (broadcastTo S5000x64 (shapeCast S1x64 x2 shapeCasts_S1x64_S1x64) broadcasts_S1x64_S5000x64))
    (matmul dot_S5000x64_S64x64_S5000x64_1_0_0_1_n_n none (shapeCast S5000x64 x3 shapeCasts_S5000x64_S5000x64)
        (shapeCast S64x64 x4 shapeCasts_S64x64_S64x64) (constant (F := Ideal) S5000x64 .f32 0x00000000#32)) (ix2 p q) = _
  rw [addf_apply, addf_apply, shapeCast_self, shapeCast_self, shapeCast_self, shapeCast_self, shapeCast_self,
    mm_zero_apply _ dot64_plain, mm_zero_apply _ dot64_plain, bcRow5000]

theorem pay2_sum (x0 : Vec Ideal S5000x64 .f32) (x1 : Vec Ideal S64x64 .f32) (x2 : Vec Ideal S1x64 .f32)
    (x3 : Vec Ideal S5000x64 .f32) (x4 : Vec Ideal S64x64 .f32) (s : Vec Ideal S1x64 .f32) (q : Fin 64) :
    k2_pay7 x0 x1 x2 x3 x4 s (ix2 (0 : Fin 1) q) = s (ix2 (0 : Fin 1) q) + ∑ p : Fin 5000, k2_pay6 x0 x1 x2 x3 x4 (ix2 p q) := by
  show shapeCast S1x64 (addf s (shapeCast S1x64 (multiReduction .add [0] S64 (k2_pay6 x0 x1 x2 x3 x4) 0x00000000#32 reduces_S5000x64_S64 (.inl rfl) rfl)
    shapeCasts_S64_S1x64)) shapeCasts_S1x64_S1x64 (ix2 (0 : Fin 1) q) = _
  rw [shapeCast_self, addf_apply, row64_apply]
  exact congrArg (s (ix2 (0 : Fin 1) q) + ·) (colSum5000 (k2_pay6 x0 x1 x2 x3 x4) _ _ q)

theorem pay2_sumsq (x0 : Vec Ideal S5000x64 .f32) (x1 : Vec Ideal S64x64 .f32) (x2 : Vec Ideal S1x64 .f32)
    (x3 : Vec Ideal S5000x64 .f32) (x4 : Vec Ideal S64x64 .f32) (s : Vec Ideal S1x64 .f32) (q : Fin 64) :
    k2_pay8 x0 x1 x2 x3 x4 s (ix2 (0 : Fin 1) q)
      = s (ix2 (0 : Fin 1) q) + ∑ p : Fin 5000, k2_pay6 x0 x1 x2 x3 x4 (ix2 p q) * k2_pay6 x0 x1 x2 x3 x4 (ix2 p q) := by
  show addf s (shapeCast S1x64 (multiReduction .add [0] S64 (mulf (k2_pay6 x0 x1 x2 x3 x4) (k2_pay6 x0 x1 x2 x3 x4)) 0x00000000#32
    reduces_S5000x64_S64 (.inl rfl) rfl) shapeCasts_S64_S1x64) (ix2 (0 : Fin 1) q) = _
  rw [addf_apply, row64_apply]
  exact congrArg (s (ix2 (0 : Fin 1) q) + ·) (colSum5000 (mulf (k2_pay6 x0 x1 x2 x3 x4) (k2_pay6 x0 x1 x2 x3 x4)) _ _ q)

/-- The total of the squares is stored as it stands. -/
theorem pay2_keep (v : FVec Ideal S1x64 .f32) : k2_pay1 v = v := shapeCast_self v _

theorem pay2_zero1 (q : Fin 64) : k2_pay4 (F := Ideal) (ix2 (0 : Fin 1) q) = 0 := by
  show shapeCast S1x64 (broadcast S1x64 (Scalar.ofBits .f32 0x00000000#32 : Ideal .f32)) shapeCasts_S1x64_S1x64 (ix2 (0 : Fin 1) q) = 0
  rw [shapeCast_self, broadcast_apply, zeroW]

theorem pay2_zero2 (q : Fin 64) : k2_pay5 (F := Ideal) (ix2 (0 : Fin 1) q) = 0 := by
  show shapeCast S1x64 (broadcast S1x64 (Scalar.ofBits .f32 0x00000000#32 : Ideal .f32)) shapeCasts_S1x64_S1x64 (ix2 (0 : Fin 1) q) = 0
  rw [shapeCast_self, broadcast_apply, zeroW]

theorem pay2_mean (s : Vec Ideal S1x64 .f32) (q : Fin 64) :
    k2_pay2 s (ix2 (0 : Fin 1) q) = Ideal.div (s (ix2 (0 : Fin 1) q)) cntW := rfl

theorem pay2_var (s s2 : Vec Ideal S1x64 .f32) (q : Fin 64) :
    k2_pay3 s s2 (ix2 (0 : Fin 1) q)
      = Ideal.div (s2 (ix2 (0 : Fin 1) q)) cntW - Ideal.div (s (ix2 (0 : Fin 1) q)) cntW * Ideal.div (s (ix2 (0 : Fin 1) q)) cntW := rfl

end Cert.KernelIdeal.Hand

end
-- ==== Proof.KI.StatsPre2.lean ====
import proofs.«167925_j62517543961156_1_alg».proof.Proof.KI.Stats2Closed
import proofs.«167925_j62517543961156_1_alg».proof.Proof.KI.StatsPay2
import proofs.«167925_j62517543961156_1_alg».proof.Proof.Spec
import Idealize.ShloMosaic.Lib.Pipeline.Value
import Idealize.ShloMosaic.Lib.ValueIdx

/-!
# Region 2 on the extended reals: the pre-activation array it leaves, in closed form

The pre-activation tile a grid point stores is, entry by entry, the product of its tile of the previous layer's output with the left weight matrix, plus the bias row, plus the product of its tile of aggregated features with the right weight matrix.
Point `t` reads and writes rows `5000·t … 5000·t + 4999`; the weight and bias windows are their whole arrays at every
point.  So the ten tiles are the restrictions of ONE function of the whole arrays, and they cover the output array.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
open scoped BigOperators

variable (V : (c : Dev nD) → (b : Ref sig .tc) → Buf (Elt Ideal) ((c : Thread nD τ).loc b))

/-- Where the windows' blocks sit: the tiles at rows `5000·t`, everything else at the origin. -/
theorem stats2pre_idx : ∀ t : Fin cfg2.N,
    win2_5.index t (0 : Fin 2) = t.val
    ∧ win2_5.index t (1 : Fin 2) = 0
    ∧ win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0
    ∧ win2_4.index t (0 : Fin 2) = 0
    ∧ win2_4.index t (1 : Fin 2) = 0 :=
  (by decide +kernel : ∀ t : Fin grid2.N, _)

/-- Row `p` of point `t`'s tile is row `5000·t + p` of the array. -/
def stats2pre_rowOf (t : Fin cfg2.N) (p : Fin 5000) : Fin 50000 :=
  ⟨t.val * 5000 + p.val, by
    have h : t.val < 10 := (show t.val < grid2.N from t.isLt).trans_eq N_2
    have := p.isLt; omega⟩

/-- Row `p`, column `k` of point `t`'s block of window 0 is row `5000·t + p`, column `k` of its array. -/
theorem stats2pre_blk0 (c : Dev nD) (t : Fin cfg2.N) (p : Fin 5000) (k : Fin 64) :
    iblk2 V c 0 t (ix2 p k) = V c (Pipeline.arrRef spec2 0) (ix2 (stats2pre_rowOf t p) k) := by
  obtain ⟨eo0, eo1, e00, e01, e10, e11, e20, e21, e30, e31, e40, e41⟩ := stats2pre_idx t
  show V c (Pipeline.arrRef spec2 0) (((cfg2.win 0).blk t).view.emb (ix2 p k)) = _
  refine congrArg (V c (Pipeline.arrRef spec2 0)) ?_
  funext a; apply Fin.ext
  match a with
  | ⟨0, _⟩ => show win2_0.index t (0 : Fin 2) * 5000 + 1 * p.val = t.val * 5000 + p.val; omega
  | ⟨1, _⟩ => show win2_0.index t (1 : Fin 2) * 64 + 1 * k.val = k.val; omega

/-- The block of window 1 is its whole array at every point. -/
theorem stats2pre_blk1 (c : Dev nD) (t : Fin cfg2.N) (k : Fin 64) (q : Fin 64) :
    iblk2 V c 1 t (ix2 k q) = V c (Pipeline.arrRef spec2 1) (ix2 k q) := by
  obtain ⟨eo0, eo1, e00, e01, e10, e11, e20, e21, e30, e31, e40, e41⟩ := stats2pre_idx t
  show V c (Pipeline.arrRef spec2 1) (((cfg2.win 1).blk t).view.emb (ix2 k q)) = _
  refine congrArg (V c (Pipeline.arrRef spec2 1)) ?_
  funext a; apply Fin.ext
  match a with
  | ⟨0, _⟩ => show win2_1.index t (0 : Fin 2) * 64 + 1 * k.val = k.val; omega
  | ⟨1, _⟩ => show win2_1.index t (1 : Fin 2) * 64 + 1 * q.val = q.val; omega

/-- The block of window 2 is its whole one-row array at every point. -/
theorem stats2pre_blk2 (c : Dev nD) (t : Fin cfg2.N) (q : Fin 64) :
    iblk2 V c 2 t (ix2 (0 : Fin 1) q) = V c (Pipeline.arrRef spec2 2) (ix2 (0 : Fin 1) q) := by
  obtain ⟨eo0, eo1, e00, e01, e10, e11, e20, e21, e30, e31, e40, e41⟩ := stats2pre_idx t
  show V c (Pipeline.arrRef spec2 2) (((cfg2.win 2).blk t).view.emb (ix2 (0 : Fin 1) q)) = _
  refine congrArg (V c (Pipeline.arrRef spec2 2)) ?_
  funext a; apply Fin.ext
  match a with
  | ⟨0, _⟩ => show win2_2.index t (0 : Fin 2) * 1 + 1 * 0 = 0; omega
  | ⟨1, _⟩ => show win2_2.index t (1 : Fin 2) * 64 + 1 * q.val = q.val; omega

/-- Row `p`, column `k` of point `t`'s block of window 3 is row `5000·t + p`, column `k` of its array. -/
theorem stats2pre_blk3 (c : Dev nD) (t : Fin cfg2.N) (p : Fin 5000) (k : Fin 64) :
    iblk2 V c 3 t (ix2 p k) = V c (Pipeline.arrRef spec2 3) (ix2 (stats2pre_rowOf t p) k) := by
  obtain ⟨eo0, eo1, e00, e01, e10, e11, e20, e21, e30, e31, e40, e41⟩ := stats2pre_idx t
  show V c (Pipeline.arrRef spec2 3) (((cfg2.win 3).blk t).view.emb (ix2 p k)) = _
  refine congrArg (V c (Pipeline.arrRef spec2 3)) ?_
  funext a; apply Fin.ext
  match a with
  | ⟨0, _⟩ => show win2_3.index t (0 : Fin 2) * 5000 + 1 * p.val = t.val * 5000 + p.val; omega
  | ⟨1, _⟩ => show win2_3.index t (1 : Fin 2) * 64 + 1 * k.val = k.val; omega

/-- The block of window 4 is its whole array at every point. -/
theorem stats2pre_blk4 (c : Dev nD) (t : Fin cfg2.N) (k : Fin 64) (q : Fin 64) :
    iblk2 V c 4 t (ix2 k q) = V c (Pipeline.arrRef spec2 4) (ix2 k q) := by
  obtain ⟨eo0, eo1, e00, e01, e10, e11, e20, e21, e30, e31, e40, e41⟩ := stats2pre_idx t
  show V c (Pipeline.arrRef spec2 4) (((cfg2.win 4).blk t).view.emb (ix2 k q)) = _
  refine congrArg (V c (Pipeline.arrRef spec2 4)) ?_
  funext a; apply Fin.ext
  match a with
  | ⟨0, _⟩ => show win2_4.index t (0 : Fin 2) * 64 + 1 * k.val = k.val; omega
  | ⟨1, _⟩ => show win2_4.index t (1 : Fin 2) * 64 + 1 * q.val = q.val; omega

/-- Where row `p`, column `q` of point `t`'s output tile goes. -/
theorem stats2pre_emb_out (t : Fin cfg2.N) (p : Fin 5000) (q : Fin 64) :
    ((cfg2.win 5).blk t).view.emb (ix2 p q) = ix2 (stats2pre_rowOf t p) q := by
  obtain ⟨eo0, eo1, e00, e01, e10, e11, e20, e21, e30, e31, e40, e41⟩ := stats2pre_idx t
  funext a; apply Fin.ext
  match a with
  | ⟨0, _⟩ => show win2_5.index t (0 : Fin 2) * 5000 + 1 * p.val = t.val * 5000 + p.val; omega
  | ⟨1, _⟩ => show win2_5.index t (1 : Fin 2) * 64 + 1 * q.val = q.val; omega

set_option maxHeartbeats 1000000 in
/-- What point `t` writes back is block `t` of the closed form of the whole arrays. -/
theorem stats2pre_flushed (c : Dev nD) (t : Fin cfg2.N) :
    (dat2 (F := Ideal) V c).flushed 5 t
      = ((cfg2.win 5).blk t).view.read (Elt Ideal) (Cert.Spec.preLG (V c (Pipeline.arrRef spec2 0)) (V c (Pipeline.arrRef spec2 1)) (V c (Pipeline.arrRef spec2 2)) (V c (Pipeline.arrRef spec2 3)) (V c (Pipeline.arrRef spec2 4))) := by
  generalize hG : Cert.Spec.preLG (V c (Pipeline.arrRef spec2 0)) (V c (Pipeline.arrRef spec2 1)) (V c (Pipeline.arrRef spec2 2)) (V c (Pipeline.arrRef spec2 3)) (V c (Pipeline.arrRef spec2 4)) = Gf
  show (cfg2.win 5).cut (grid2.coords t) ((dat2 (F := Ideal) V c).after 5 t) = _
  rw [after2_5, pre2_eq V c t]
  funext j
  obtain ⟨p, q, rfl⟩ : ∃ (p : Fin 5000) (q : Fin 64), j = ix2 p q := ⟨j 0, j 1, eq_ix2 j⟩
  refine (pay2_pre (iblk2 V c 0 t) (iblk2 V c 1 t) (iblk2 V c 2 t) (iblk2 V c 3 t) (iblk2 V c 4 t) p q).trans ?_
  simp only [stats2pre_blk0 V c t p, stats2pre_blk1 V c t, stats2pre_blk2 V c t q, stats2pre_blk3 V c t p, stats2pre_blk4 V c t]
  show _ = Gf (((cfg2.win 5).blk t).view.emb (ix2 p q))
  rw [stats2pre_emb_out t p q, ← hG]
  exact (Cert.Spec.preLG_apply _ _ _ _ _ (stats2pre_rowOf t p) q).symm

/-- An index of the output array lies in point `t`'s block iff each coordinate lies in the block's range. -/
theorem stats2pre_mem_blk (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v41_0).slice (win2_5.rect t)).set ↔ _
  rw [View.set_slice_whole, Rect.mem_set_unit]
  exact Iff.rfl

/-- Row `r` of the output array is written by point `r / 5000`. -/
theorem stats2pre_cover (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  obtain ⟨t, ht⟩ : ∃ t : Fin cfg2.N, t.val = (i 0).val / 5000 :=
    ⟨⟨(i 0).val / 5000, by rw [show cfg2.N = 10 from N_2]; omega⟩, rfl⟩
  obtain ⟨eo0, eo1, e00, e01, e10, e11, e20, e21, e30, e31, e40, e41⟩ := stats2pre_idx t
  refine ⟨t, flush2_5 t, ?_⟩
  rw [stats2pre_mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-- The pre-activation array after the region: the closed form of the arrays found on entry. -/
theorem final_stats2_pre (c : Dev nD) :
    (dat2 (F := Ideal) V c).arrAt 5 cfg2.N
      = Cert.Spec.preLG (V c (Pipeline.arrRef spec2 0)) (V c (Pipeline.arrRef spec2 1)) (V c (Pipeline.arrRef spec2 2)) (V c (Pipeline.arrRef spec2 3)) (V c (Pipeline.arrRef spec2 4)) :=
  (dat2 (F := Ideal) V c).arrAt_eq_of_cover 5 (Cert.Spec.preLG (V c (Pipeline.arrRef spec2 0)) (V c (Pipeline.arrRef spec2 1)) (V c (Pipeline.arrRef spec2 2)) (V c (Pipeline.arrRef spec2 3)) (V c (Pipeline.arrRef spec2 4)))
    (fun t _ => stats2pre_flushed V c t) (stats2pre_cover)

end Cert.KernelIdeal.Hand
-- ==== Proof.KI.Stats4Pieces.lean ====
import proofs.«167925_j62517543961156_1_alg».proof.Proof.KI.Stats4
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Statistics kernel of region 4: what each control case's stores leave, as the body's named values

    Every store of the body writes a whole buffer, so what a buffer holds afterwards is the value last stored into it:
    the pre-activation tile; the accumulator rows plus this tile's column sums (from zero at the first tile); at the last
    tile the mean and variance rows formed from the accumulated sums. -/

theorem hz2_4 : (![0, 0] : Fin 2 → Nat) = fun _ => 0 := funext fun a => by fin_cases a <;> rfl

theorem out4_A_5_eq (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond4_0 i) (hc1 : ¬cond4_1 i)
    (x0 : Vec F S5000x64 .f32) (x1 : Vec F S64x64 .f32) (x2 : Vec F S1x64 .f32) (x3 : Vec F S5000x64 .f32) (x4 : Vec F S64x64 .f32) :
    out4_A_5 c i arg1 harg1 arg2 harg2 arg3 harg3 arg4 harg4 arg5 harg5 arg6 harg6 arg7 harg7 arg8 harg8 arg9 harg9 arg10 harg10 hc0 hc1 x0 x1 x2 x3 x4 = k4_pay6 x0 x1 x2 x3 x4 := by
  unfold out4_A_5
  rw [View.read_writes_eq_canon _ _ _ (cover4_A_5 c i arg1 harg1 arg2 harg2 arg3 harg3 arg4 harg4 arg5 harg5 arg6 harg6 arg7 harg7 arg8 harg8 arg9 harg9 arg10 harg10 hc0 hc1 x0 x1 x2 x3 x4)]
  unfold run4_A
  dsimp only
  try sl_unfold_words
  rw [View.canon_cons_unit_zero (S := S5000x64) hz2_4]
  try rw [View.readCov_unit_zero (S := S1x64) _ hz2_4]
  try rw [View.readCov_unit_zero (S := S1x64) _ hz2_4]
  try simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2_4, View.ld_unit_zero (S := S64x64) hz2_4, View.ld_unit_zero (S := S1x64) hz2_4]

theorem sout4_A_0_eq (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond4_0 i) (hc1 : ¬cond4_1 i)
    (x0 : Vec F S5000x64 .f32) (x1 : Vec F S64x64 .f32) (x2 : Vec F S1x64 .f32) (x3 : Vec F S5000x64 .f32) (x4 : Vec F S64x64 .f32) :
    sout4_A_0 c i arg1 harg1 arg2 harg2 arg3 harg3 arg4 harg4 arg5 harg5 arg6 harg6 arg7 harg7 arg8 harg8 arg9 harg9 arg10 harg10 hc0 hc1 x0 x1 x2 x3 x4 = k4_pay7 x0 x1 x2 x3 x4 (k4_pay4 (F := F)) := by
  unfold sout4_A_0
  rw [View.read_writes_eq_canon _ _ _ (scover4_A_0 c i arg1 harg1 arg2 harg2 arg3 harg3 arg4 harg4 arg5 harg5 arg6 harg6 arg7 harg7 arg8 harg8 arg9 harg9 arg10 harg10 hc0 hc1 x0 x1 x2 x3 x4)]
  unfold run4_A
  dsimp only
  try sl_unfold_words
  rw [View.canon_cons_unit_zero (S := S1x64) hz2_4]
  try rw [View.readCov_unit_zero (S := S1x64) _ hz2_4]
  try rw [View.readCov_unit_zero (S := S1x64) _ hz2_4]
  try simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2_4, View.ld_unit_zero (S := S64x64) hz2_4, View.ld_unit_zero (S := S1x64) hz2_4]

theorem sout4_A_1_eq (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond4_0 i) (hc1 : ¬cond4_1 i)
    (x0 : Vec F S5000x64 .f32) (x1 : Vec F S64x64 .f32) (x2 : Vec F S1x64 .f32) (x3 : Vec F S5000x64 .f32) (x4 : Vec F S64x64 .f32) :
    sout4_A_1 c i arg1 harg1 arg2 harg2 arg3 harg3 arg4 harg4 arg5 harg5 arg6 harg6 arg7 harg7 arg8 harg8 arg9 harg9 arg10 harg10 hc0 hc1 x0 x1 x2 x3 x4 = k4_pay1 (k4_pay8 x0 x1 x2 x3 x4 (k4_pay5 (F := F))) := by
  unfold sout4_A_1
  rw [View.read_writes_eq_canon _ _ _ (scover4_A_1 c i arg1 harg1 arg2 harg2 arg3 harg3 arg4 harg4 arg5 harg5 arg6 harg6 arg7 harg7 arg8 harg8 arg9 harg9 arg10 harg10 hc0 hc1 x0 x1 x2 x3 x4)]
  unfold run4_A
  dsimp only
  try sl_unfold_words
  rw [View.canon_cons_unit_zero (S := S1x64) hz2_4]
  try rw [View.readCov_unit_zero (S := S1x64) _ hz2_4]
  try rw [View.readCov_unit_zero (S := S1x64) _ hz2_4]
  try simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2_4, View.ld_unit_zero (S := S64x64) hz2_4, View.ld_unit_zero (S := S1x64) hz2_4]

theorem out4_B_5_eq (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : ¬cond4_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) :
    out4_B_5 c i arg1 harg1 arg2 harg2 arg3 harg3 arg4 harg4 arg5 harg5 arg6 harg6 arg7 harg7 arg8 harg8 arg9 harg9 arg10 harg10 hc0 hc1 x0 x1 x2 x3 x4 xs0 xs1 = k4_pay6 x0 x1 x2 x3 x4 := by
  unfold out4_B_5
  rw [View.read_writes_eq_canon _ _ _ (cover4_B_5 c i arg1 harg1 arg2 harg2 arg3 harg3 arg4 harg4 arg5 harg5 arg6 harg6 arg7 harg7 arg8 harg8 arg9 harg9 arg10 harg10 hc0 hc1 x0 x1 x2 x3 x4 xs0 xs1)]
  unfold run4_B
  dsimp only
  try sl_unfold_words
  rw [View.canon_cons_unit_zero (S := S5000x64) hz2_4]
  try rw [View.readCov_unit_zero (S := S1x64) _ hz2_4]
  try rw [View.readCov_unit_zero (S := S1x64) _ hz2_4]
  try simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2_4, View.ld_unit_zero (S := S64x64) hz2_4, View.ld_unit_zero (S := S1x64) hz2_4]

theorem sout4_B_0_eq (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : ¬cond4_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) :
    sout4_B_0 c i arg1 harg1 arg2 harg2 arg3 harg3 arg4 harg4 arg5 harg5 arg6 harg6 arg7 harg7 arg8 harg8 arg9 harg9 arg10 harg10 hc0 hc1 x0 x1 x2 x3 x4 xs0 xs1 = k4_pay7 x0 x1 x2 x3 x4 xs0 := by
  unfold sout4_B_0
  rw [View.read_writes_eq_canon _ _ _ (scover4_B_0 c i arg1 harg1 arg2 harg2 arg3 harg3 arg4 harg4 arg5 harg5 arg6 harg6 arg7 harg7 arg8 harg8 arg9 harg9 arg10 harg10 hc0 hc1 x0 x1 x2 x3 x4 xs0 xs1)]
  unfold run4_B
  dsimp only
  try sl_unfold_words
  rw [View.canon_cons_unit_zero (S := S1x64) hz2_4]
  try rw [View.readCov_unit_zero (S := S1x64) _ hz2_4]
  try rw [View.readCov_unit_zero (S := S1x64) _ hz2_4]
  try simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2_4, View.ld_unit_zero (S := S64x64) hz2_4, View.ld_unit_zero (S := S1x64) hz2_4]

theorem sout4_B_1_eq (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : ¬cond4_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) :
    sout4_B_1 c i arg1 harg1 arg2 harg2 arg3 harg3 arg4 harg4 arg5 harg5 arg6 harg6 arg7 harg7 arg8 harg8 arg9 harg9 arg10 harg10 hc0 hc1 x0 x1 x2 x3 x4 xs0 xs1 = k4_pay1 (k4_pay8 x0 x1 x2 x3 x4 xs1) := by
  unfold sout4_B_1
  rw [View.read_writes_eq_canon _ _ _ (scover4_B_1 c i arg1 harg1 arg2 harg2 arg3 harg3 arg4 harg4 arg5 harg5 arg6 harg6 arg7 harg7 arg8 harg8 arg9 harg9 arg10 harg10 hc0 hc1 x0 x1 x2 x3 x4 xs0 xs1)]
  unfold run4_B
  dsimp only
  try sl_unfold_words
  rw [View.canon_cons_unit_zero (S := S1x64) hz2_4]
  try rw [View.readCov_unit_zero (S := S1x64) _ hz2_4]
  try rw [View.readCov_unit_zero (S := S1x64) _ hz2_4]
  try simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2_4, View.ld_unit_zero (S := S64x64) hz2_4, View.ld_unit_zero (S := S1x64) hz2_4]

theorem out4_C_5_eq (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : cond4_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) :
    out4_C_5 c i arg1 harg1 arg2 harg2 arg3 harg3 arg4 harg4 arg5 harg5 arg6 harg6 arg7 harg7 arg8 harg8 arg9 harg9 arg10 harg10 hc0 hc1 x0 x1 x2 x3 x4 xs0 xs1 = k4_pay6 x0 x1 x2 x3 x4 := by
  unfold out4_C_5
  rw [View.read_writes_eq_canon _ _ _ (cover4_C_5 c i arg1 harg1 arg2 harg2 arg3 harg3 arg4 harg4 arg5 harg5 arg6 harg6 arg7 harg7 arg8 harg8 arg9 harg9 arg10 harg10 hc0 hc1 x0 x1 x2 x3 x4 xs0 xs1)]
  unfold run4_C
  dsimp only
  try sl_unfold_words
  rw [View.canon_cons_unit_zero (S := S5000x64) hz2_4]
  try rw [View.readCov_unit_zero (S := S1x64) _ hz2_4]
  try rw [View.readCov_unit_zero (S := S1x64) _ hz2_4]
  try simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2_4, View.ld_unit_zero (S := S64x64) hz2_4, View.ld_unit_zero (S := S1x64) hz2_4]

theorem sout4_C_0_eq (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : cond4_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) :
    sout4_C_0 c i arg1 harg1 arg2 harg2 arg3 harg3 arg4 harg4 arg5 harg5 arg6 harg6 arg7 harg7 arg8 harg8 arg9 harg9 arg10 harg10 hc0 hc1 x0 x1 x2 x3 x4 xs0 xs1 = k4_pay7 x0 x1 x2 x3 x4 xs0 := by
  unfold sout4_C_0
  rw [View.read_writes_eq_canon _ _ _ (scover4_C_0 c i arg1 harg1 arg2 harg2 arg3 harg3 arg4 harg4 arg5 harg5 arg6 harg6 arg7 harg7 arg8 harg8 arg9 harg9 arg10 harg10 hc0 hc1 x0 x1 x2 x3 x4 xs0 xs1)]
  unfold run4_C
  dsimp only
  try sl_unfold_words
  rw [View.canon_cons_unit_zero (S := S1x64) hz2_4]
  try rw [View.readCov_unit_zero (S := S1x64) _ hz2_4]
  try rw [View.readCov_unit_zero (S := S1x64) _ hz2_4]
  try simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2_4, View.ld_unit_zero (S := S64x64) hz2_4, View.ld_unit_zero (S := S1x64) hz2_4]

theorem sout4_C_1_eq (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : cond4_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) :
    sout4_C_1 c i arg1 harg1 arg2 harg2 arg3 harg3 arg4 harg4 arg5 harg5 arg6 harg6 arg7 harg7 arg8 harg8 arg9 harg9 arg10 harg10 hc0 hc1 x0 x1 x2 x3 x4 xs0 xs1 = k4_pay1 (k4_pay8 x0 x1 x2 x3 x4 xs1) := by
  unfold sout4_C_1
  rw [View.read_writes_eq_canon _ _ _ (scover4_C_1 c i arg1 harg1 arg2 harg2 arg3 harg3 arg4 harg4 arg5 harg5 arg6 harg6 arg7 harg7 arg8 harg8 arg9 harg9 arg10 harg10 hc0 hc1 x0 x1 x2 x3 x4 xs0 xs1)]
  unfold run4_C
  dsimp only
  try sl_unfold_words
  rw [View.canon_cons_unit_zero (S := S1x64) hz2_4]
  try rw [View.readCov_unit_zero (S := S1x64) _ hz2_4]
  try rw [View.readCov_unit_zero (S := S1x64) _ hz2_4]
  try simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2_4, View.ld_unit_zero (S := S64x64) hz2_4, View.ld_unit_zero (S := S1x64) hz2_4]

theorem out4_C_6_eq (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : cond4_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) :
    out4_C_6 c i arg1 harg1 arg2 harg2 arg3 harg3 arg4 harg4 arg5 harg5 arg6 harg6 arg7 harg7 arg8 harg8 arg9 harg9 arg10 harg10 hc0 hc1 x0 x1 x2 x3 x4 xs0 xs1 = k4_pay2 (k4_pay7 x0 x1 x2 x3 x4 xs0) := by
  unfold out4_C_6
  rw [View.read_writes_eq_canon _ _ _ (cover4_C_6 c i arg1 harg1 arg2 harg2 arg3 harg3 arg4 harg4 arg5 harg5 arg6 harg6 arg7 harg7 arg8 harg8 arg9 harg9 arg10 harg10 hc0 hc1 x0 x1 x2 x3 x4 xs0 xs1)]
  unfold run4_C
  dsimp only
  try sl_unfold_words
  rw [View.canon_cons_unit_zero (S := S1x64) hz2_4]
  try rw [View.readCov_unit_zero (S := S1x64) _ hz2_4]
  try rw [View.readCov_unit_zero (S := S1x64) _ hz2_4]
  try simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2_4, View.ld_unit_zero (S := S64x64) hz2_4, View.ld_unit_zero (S := S1x64) hz2_4]

theorem out4_C_7_eq (c : Dev nD) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : cond4_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) :
    out4_C_7 c i arg1 harg1 arg2 harg2 arg3 harg3 arg4 harg4 arg5 harg5 arg6 harg6 arg7 harg7 arg8 harg8 arg9 harg9 arg10 harg10 hc0 hc1 x0 x1 x2 x3 x4 xs0 xs1 = k4_pay3 (k4_pay7 x0 x1 x2 x3 x4 xs0) (k4_pay1 (k4_pay8 x0 x1 x2 x3 x4 xs1)) := by
  unfold out4_C_7
  rw [View.read_writes_eq_canon _ _ _ (cover4_C_7 c i arg1 harg1 arg2 harg2 arg3 harg3 arg4 harg4 arg5 harg5 arg6 harg6 arg7 harg7 arg8 harg8 arg9 harg9 arg10 harg10 hc0 hc1 x0 x1 x2 x3 x4 xs0 xs1)]
  unfold run4_C
  dsimp only
  try sl_unfold_words
  rw [View.canon_cons_unit_zero (S := S1x64) hz2_4]
  try rw [View.readCov_unit_zero (S := S1x64) _ hz2_4]
  try rw [View.readCov_unit_zero (S := S1x64) _ hz2_4]
  try simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2_4, View.ld_unit_zero (S := S64x64) hz2_4, View.ld_unit_zero (S := S1x64) hz2_4]

end Cert.KernelIdeal.Hand

end
-- ==== Proof.KI.Stats4Closed.lean ====
import proofs.«167925_j62517543961156_1_alg».proof.Proof.KI.Stats4Pieces

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

attribute [local irreducible] outsAt4 out4_A_5 sout4_A_0 sout4_A_1 out4_B_5 sout4_B_0 sout4_B_1 out4_C_5 out4_C_6 out4_C_7 sout4_C_0 sout4_C_1

/-! # Statistics kernel of region 4: the buffers after each node tile, in closed form

    The pre-activation tile's buffer holds the tile's pre-activations; the two accumulator rows follow a recurrence — from
    zero, each tile adds its column sums —; after the last tile the mean and variance rows are formed from them. -/

set_option maxHeartbeats 1000000 in
theorem pre4_eq (c : Dev nD) (t : Fin cfg4.N) :
    (outsAt4 V c t.val t.isLt).1 = k4_pay6 (iblk4 V c 0 t) (iblk4 V c 1 t) (iblk4 V c 2 t) (iblk4 V c 3 t) (iblk4 V c 4 t) := by
  by_cases h0 : t.val = 0
  · exact (congrArg (fun x => x.1) (outsAt4_A V c t h0)).trans (out4_A_5_eq (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr h0) (fun h => (fun h => by omega) ((hcond4_1 t).mp h)) (iblk4 V c 0 t) (iblk4 V c 1 t) (iblk4 V c 2 t) (iblk4 V c 3 t) (iblk4 V c 4 t))
  · by_cases h1 : t.val = 9
    · exact (congrArg (fun x => x.1) (outsAt4_C V c t h0 h1)).trans (out4_C_5_eq (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2)
    · exact (congrArg (fun x => x.1) (outsAt4_B V c t h0 h1)).trans (out4_B_5_eq (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2)

set_option maxHeartbeats 1000000 in
theorem S4_zero (c : Dev nD) (hn : 0 < cfg4.N) :
    S4 V c 0 hn = k4_pay7 (iblk4 V c 0 ⟨0, hn⟩) (iblk4 V c 1 ⟨0, hn⟩) (iblk4 V c 2 ⟨0, hn⟩) (iblk4 V c 3 ⟨0, hn⟩) (iblk4 V c 4 ⟨0, hn⟩) (k4_pay4 (F := F)) := by
  show (outsAt4 V c (⟨0, hn⟩ : Fin cfg4.N).val (⟨0, hn⟩ : Fin cfg4.N).isLt).2.2.2.1 = _
  have h0 : (⟨0, hn⟩ : Fin cfg4.N).val = 0 := rfl
  exact (congrArg (fun x => x.2.2.2.1) (outsAt4_A V c (⟨0, hn⟩ : Fin cfg4.N) h0)).trans (sout4_A_0_eq (F := F) c (grid4.coords (⟨0, hn⟩ : Fin cfg4.N)) (ms4_0 (⟨0, hn⟩ : Fin cfg4.N)) (hs4_0 (⟨0, hn⟩ : Fin cfg4.N)) (ms4_1 (⟨0, hn⟩ : Fin cfg4.N)) (hs4_1 (⟨0, hn⟩ : Fin cfg4.N)) (ms4_2 (⟨0, hn⟩ : Fin cfg4.N)) (hs4_2 (⟨0, hn⟩ : Fin cfg4.N)) (ms4_3 (⟨0, hn⟩ : Fin cfg4.N)) (hs4_3 (⟨0, hn⟩ : Fin cfg4.N)) (ms4_4 (⟨0, hn⟩ : Fin cfg4.N)) (hs4_4 (⟨0, hn⟩ : Fin cfg4.N)) (ms4_5 (⟨0, hn⟩ : Fin cfg4.N)) (hs4_5 (⟨0, hn⟩ : Fin cfg4.N)) (ms4_6 (⟨0, hn⟩ : Fin cfg4.N)) (hs4_6 (⟨0, hn⟩ : Fin cfg4.N)) (ms4_7 (⟨0, hn⟩ : Fin cfg4.N)) (hs4_7 (⟨0, hn⟩ : Fin cfg4.N)) scM4_0 (Memref.isWhole_whole _) scM4_1 (Memref.isWhole_whole _) ((hcond4_0 (⟨0, hn⟩ : Fin cfg4.N)).mpr h0) (fun h => (fun h => by omega) ((hcond4_1 (⟨0, hn⟩ : Fin cfg4.N)).mp h)) (iblk4 V c 0 (⟨0, hn⟩ : Fin cfg4.N)) (iblk4 V c 1 (⟨0, hn⟩ : Fin cfg4.N)) (iblk4 V c 2 (⟨0, hn⟩ : Fin cfg4.N)) (iblk4 V c 3 (⟨0, hn⟩ : Fin cfg4.N)) (iblk4 V c 4 (⟨0, hn⟩ : Fin cfg4.N)))

set_option maxHeartbeats 1000000 in
theorem Q4_zero (c : Dev nD) (hn : 0 < cfg4.N) :
    Q4 V c 0 hn = k4_pay1 (k4_pay8 (iblk4 V c 0 ⟨0, hn⟩) (iblk4 V c 1 ⟨0, hn⟩) (iblk4 V c 2 ⟨0, hn⟩) (iblk4 V c 3 ⟨0, hn⟩) (iblk4 V c 4 ⟨0, hn⟩) (k4_pay5 (F := F))) := by
  show (outsAt4 V c (⟨0, hn⟩ : Fin cfg4.N).val (⟨0, hn⟩ : Fin cfg4.N).isLt).2.2.2.2 = _
  have h0 : (⟨0, hn⟩ : Fin cfg4.N).val = 0 := rfl
  exact (congrArg (fun x => x.2.2.2.2) (outsAt4_A V c (⟨0, hn⟩ : Fin cfg4.N) h0)).trans (sout4_A_1_eq (F := F) c (grid4.coords (⟨0, hn⟩ : Fin cfg4.N)) (ms4_0 (⟨0, hn⟩ : Fin cfg4.N)) (hs4_0 (⟨0, hn⟩ : Fin cfg4.N)) (ms4_1 (⟨0, hn⟩ : Fin cfg4.N)) (hs4_1 (⟨0, hn⟩ : Fin cfg4.N)) (ms4_2 (⟨0, hn⟩ : Fin cfg4.N)) (hs4_2 (⟨0, hn⟩ : Fin cfg4.N)) (ms4_3 (⟨0, hn⟩ : Fin cfg4.N)) (hs4_3 (⟨0, hn⟩ : Fin cfg4.N)) (ms4_4 (⟨0, hn⟩ : Fin cfg4.N)) (hs4_4 (⟨0, hn⟩ : Fin cfg4.N)) (ms4_5 (⟨0, hn⟩ : Fin cfg4.N)) (hs4_5 (⟨0, hn⟩ : Fin cfg4.N)) (ms4_6 (⟨0, hn⟩ : Fin cfg4.N)) (hs4_6 (⟨0, hn⟩ : Fin cfg4.N)) (ms4_7 (⟨0, hn⟩ : Fin cfg4.N)) (hs4_7 (⟨0, hn⟩ : Fin cfg4.N)) scM4_0 (Memref.isWhole_whole _) scM4_1 (Memref.isWhole_whole _) ((hcond4_0 (⟨0, hn⟩ : Fin cfg4.N)).mpr h0) (fun h => (fun h => by omega) ((hcond4_1 (⟨0, hn⟩ : Fin cfg4.N)).mp h)) (iblk4 V c 0 (⟨0, hn⟩ : Fin cfg4.N)) (iblk4 V c 1 (⟨0, hn⟩ : Fin cfg4.N)) (iblk4 V c 2 (⟨0, hn⟩ : Fin cfg4.N)) (iblk4 V c 3 (⟨0, hn⟩ : Fin cfg4.N)) (iblk4 V c 4 (⟨0, hn⟩ : Fin cfg4.N)))

set_option maxHeartbeats 1000000 in
theorem S4_succ (c : Dev nD) (n : ℕ) (hn : n + 1 < cfg4.N) :
    S4 V c (n + 1) hn = k4_pay7 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (S4 V c n (Nat.lt_of_succ_lt hn)) := by
  show (outsAt4 V c (⟨n + 1, hn⟩ : Fin cfg4.N).val (⟨n + 1, hn⟩ : Fin cfg4.N).isLt).2.2.2.1 = _
  have h0 : ¬(⟨n + 1, hn⟩ : Fin cfg4.N).val = 0 := Nat.succ_ne_zero n
  by_cases h1 : (⟨n + 1, hn⟩ : Fin cfg4.N).val = 9
  · exact (congrArg (fun x => x.2.2.2.1) (outsAt4_C V c (⟨n + 1, hn⟩ : Fin cfg4.N) h0 h1)).trans (sout4_C_0_eq (F := F) c (grid4.coords (⟨n + 1, hn⟩ : Fin cfg4.N)) (ms4_0 (⟨n + 1, hn⟩ : Fin cfg4.N)) (hs4_0 (⟨n + 1, hn⟩ : Fin cfg4.N)) (ms4_1 (⟨n + 1, hn⟩ : Fin cfg4.N)) (hs4_1 (⟨n + 1, hn⟩ : Fin cfg4.N)) (ms4_2 (⟨n + 1, hn⟩ : Fin cfg4.N)) (hs4_2 (⟨n + 1, hn⟩ : Fin cfg4.N)) (ms4_3 (⟨n + 1, hn⟩ : Fin cfg4.N)) (hs4_3 (⟨n + 1, hn⟩ : Fin cfg4.N)) (ms4_4 (⟨n + 1, hn⟩ : Fin cfg4.N)) (hs4_4 (⟨n + 1, hn⟩ : Fin cfg4.N)) (ms4_5 (⟨n + 1, hn⟩ : Fin cfg4.N)) (hs4_5 (⟨n + 1, hn⟩ : Fin cfg4.N)) (ms4_6 (⟨n + 1, hn⟩ : Fin cfg4.N)) (hs4_6 (⟨n + 1, hn⟩ : Fin cfg4.N)) (ms4_7 (⟨n + 1, hn⟩ : Fin cfg4.N)) (hs4_7 (⟨n + 1, hn⟩ : Fin cfg4.N)) scM4_0 (Memref.isWhole_whole _) scM4_1 (Memref.isWhole_whole _) (fun h => h0 ((hcond4_0 (⟨n + 1, hn⟩ : Fin cfg4.N)).mp h)) ((hcond4_1 (⟨n + 1, hn⟩ : Fin cfg4.N)).mpr h1) (iblk4 V c 0 (⟨n + 1, hn⟩ : Fin cfg4.N)) (iblk4 V c 1 (⟨n + 1, hn⟩ : Fin cfg4.N)) (iblk4 V c 2 (⟨n + 1, hn⟩ : Fin cfg4.N)) (iblk4 V c 3 (⟨n + 1, hn⟩ : Fin cfg4.N)) (iblk4 V c 4 (⟨n + 1, hn⟩ : Fin cfg4.N)) (outsAt4 V c ((⟨n + 1, hn⟩ : Fin cfg4.N).val - 1) (Nat.lt_of_le_of_lt (Nat.sub_le _ _) (⟨n + 1, hn⟩ : Fin cfg4.N).isLt)).2.2.2.1 (outsAt4 V c ((⟨n + 1, hn⟩ : Fin cfg4.N).val - 1) (Nat.lt_of_le_of_lt (Nat.sub_le _ _) (⟨n + 1, hn⟩ : Fin cfg4.N).isLt)).2.2.2.2)
  · exact (congrArg (fun x => x.2.2.2.1) (outsAt4_B V c (⟨n + 1, hn⟩ : Fin cfg4.N) h0 h1)).trans (sout4_B_0_eq (F := F) c (grid4.coords (⟨n + 1, hn⟩ : Fin cfg4.N)) (ms4_0 (⟨n + 1, hn⟩ : Fin cfg4.N)) (hs4_0 (⟨n + 1, hn⟩ : Fin cfg4.N)) (ms4_1 (⟨n + 1, hn⟩ : Fin cfg4.N)) (hs4_1 (⟨n + 1, hn⟩ : Fin cfg4.N)) (ms4_2 (⟨n + 1, hn⟩ : Fin cfg4.N)) (hs4_2 (⟨n + 1, hn⟩ : Fin cfg4.N)) (ms4_3 (⟨n + 1, hn⟩ : Fin cfg4.N)) (hs4_3 (⟨n + 1, hn⟩ : Fin cfg4.N)) (ms4_4 (⟨n + 1, hn⟩ : Fin cfg4.N)) (hs4_4 (⟨n + 1, hn⟩ : Fin cfg4.N)) (ms4_5 (⟨n + 1, hn⟩ : Fin cfg4.N)) (hs4_5 (⟨n + 1, hn⟩ : Fin cfg4.N)) (ms4_6 (⟨n + 1, hn⟩ : Fin cfg4.N)) (hs4_6 (⟨n + 1, hn⟩ : Fin cfg4.N)) (ms4_7 (⟨n + 1, hn⟩ : Fin cfg4.N)) (hs4_7 (⟨n + 1, hn⟩ : Fin cfg4.N)) scM4_0 (Memref.isWhole_whole _) scM4_1 (Memref.isWhole_whole _) (fun h => h0 ((hcond4_0 (⟨n + 1, hn⟩ : Fin cfg4.N)).mp h)) (fun h => h1 ((hcond4_1 (⟨n + 1, hn⟩ : Fin cfg4.N)).mp h)) (iblk4 V c 0 (⟨n + 1, hn⟩ : Fin cfg4.N)) (iblk4 V c 1 (⟨n + 1, hn⟩ : Fin cfg4.N)) (iblk4 V c 2 (⟨n + 1, hn⟩ : Fin cfg4.N)) (iblk4 V c 3 (⟨n + 1, hn⟩ : Fin cfg4.N)) (iblk4 V c 4 (⟨n + 1, hn⟩ : Fin cfg4.N)) (outsAt4 V c ((⟨n + 1, hn⟩ : Fin cfg4.N).val - 1) (Nat.lt_of_le_of_lt (Nat.sub_le _ _) (⟨n + 1, hn⟩ : Fin cfg4.N).isLt)).2.2.2.1 (outsAt4 V c ((⟨n + 1, hn⟩ : Fin cfg4.N).val - 1) (Nat.lt_of_le_of_lt (Nat.sub_le _ _) (⟨n + 1, hn⟩ : Fin cfg4.N).isLt)).2.2.2.2)

set_option maxHeartbeats 1000000 in
theorem Q4_succ (c : Dev nD) (n : ℕ) (hn : n + 1 < cfg4.N) :
    Q4 V c (n + 1) hn = k4_pay1 (k4_pay8 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (Q4 V c n (Nat.lt_of_succ_lt hn))) := by
  show (outsAt4 V c (⟨n + 1, hn⟩ : Fin cfg4.N).val (⟨n + 1, hn⟩ : Fin cfg4.N).isLt).2.2.2.2 = _
  have h0 : ¬(⟨n + 1, hn⟩ : Fin cfg4.N).val = 0 := Nat.succ_ne_zero n
  by_cases h1 : (⟨n + 1, hn⟩ : Fin cfg4.N).val = 9
  · exact (congrArg (fun x => x.2.2.2.2) (outsAt4_C V c (⟨n + 1, hn⟩ : Fin cfg4.N) h0 h1)).trans (sout4_C_1_eq (F := F) c (grid4.coords (⟨n + 1, hn⟩ : Fin cfg4.N)) (ms4_0 (⟨n + 1, hn⟩ : Fin cfg4.N)) (hs4_0 (⟨n + 1, hn⟩ : Fin cfg4.N)) (ms4_1 (⟨n + 1, hn⟩ : Fin cfg4.N)) (hs4_1 (⟨n + 1, hn⟩ : Fin cfg4.N)) (ms4_2 (⟨n + 1, hn⟩ : Fin cfg4.N)) (hs4_2 (⟨n + 1, hn⟩ : Fin cfg4.N)) (ms4_3 (⟨n + 1, hn⟩ : Fin cfg4.N)) (hs4_3 (⟨n + 1, hn⟩ : Fin cfg4.N)) (ms4_4 (⟨n + 1, hn⟩ : Fin cfg4.N)) (hs4_4 (⟨n + 1, hn⟩ : Fin cfg4.N)) (ms4_5 (⟨n + 1, hn⟩ : Fin cfg4.N)) (hs4_5 (⟨n + 1, hn⟩ : Fin cfg4.N)) (ms4_6 (⟨n + 1, hn⟩ : Fin cfg4.N)) (hs4_6 (⟨n + 1, hn⟩ : Fin cfg4.N)) (ms4_7 (⟨n + 1, hn⟩ : Fin cfg4.N)) (hs4_7 (⟨n + 1, hn⟩ : Fin cfg4.N)) scM4_0 (Memref.isWhole_whole _) scM4_1 (Memref.isWhole_whole _) (fun h => h0 ((hcond4_0 (⟨n + 1, hn⟩ : Fin cfg4.N)).mp h)) ((hcond4_1 (⟨n + 1, hn⟩ : Fin cfg4.N)).mpr h1) (iblk4 V c 0 (⟨n + 1, hn⟩ : Fin cfg4.N)) (iblk4 V c 1 (⟨n + 1, hn⟩ : Fin cfg4.N)) (iblk4 V c 2 (⟨n + 1, hn⟩ : Fin cfg4.N)) (iblk4 V c 3 (⟨n + 1, hn⟩ : Fin cfg4.N)) (iblk4 V c 4 (⟨n + 1, hn⟩ : Fin cfg4.N)) (outsAt4 V c ((⟨n + 1, hn⟩ : Fin cfg4.N).val - 1) (Nat.lt_of_le_of_lt (Nat.sub_le _ _) (⟨n + 1, hn⟩ : Fin cfg4.N).isLt)).2.2.2.1 (outsAt4 V c ((⟨n + 1, hn⟩ : Fin cfg4.N).val - 1) (Nat.lt_of_le_of_lt (Nat.sub_le _ _) (⟨n + 1, hn⟩ : Fin cfg4.N).isLt)).2.2.2.2)
  · exact (congrArg (fun x => x.2.2.2.2) (outsAt4_B V c (⟨n + 1, hn⟩ : Fin cfg4.N) h0 h1)).trans (sout4_B_1_eq (F := F) c (grid4.coords (⟨n + 1, hn⟩ : Fin cfg4.N)) (ms4_0 (⟨n + 1, hn⟩ : Fin cfg4.N)) (hs4_0 (⟨n + 1, hn⟩ : Fin cfg4.N)) (ms4_1 (⟨n + 1, hn⟩ : Fin cfg4.N)) (hs4_1 (⟨n + 1, hn⟩ : Fin cfg4.N)) (ms4_2 (⟨n + 1, hn⟩ : Fin cfg4.N)) (hs4_2 (⟨n + 1, hn⟩ : Fin cfg4.N)) (ms4_3 (⟨n + 1, hn⟩ : Fin cfg4.N)) (hs4_3 (⟨n + 1, hn⟩ : Fin cfg4.N)) (ms4_4 (⟨n + 1, hn⟩ : Fin cfg4.N)) (hs4_4 (⟨n + 1, hn⟩ : Fin cfg4.N)) (ms4_5 (⟨n + 1, hn⟩ : Fin cfg4.N)) (hs4_5 (⟨n + 1, hn⟩ : Fin cfg4.N)) (ms4_6 (⟨n + 1, hn⟩ : Fin cfg4.N)) (hs4_6 (⟨n + 1, hn⟩ : Fin cfg4.N)) (ms4_7 (⟨n + 1, hn⟩ : Fin cfg4.N)) (hs4_7 (⟨n + 1, hn⟩ : Fin cfg4.N)) scM4_0 (Memref.isWhole_whole _) scM4_1 (Memref.isWhole_whole _) (fun h => h0 ((hcond4_0 (⟨n + 1, hn⟩ : Fin cfg4.N)).mp h)) (fun h => h1 ((hcond4_1 (⟨n + 1, hn⟩ : Fin cfg4.N)).mp h)) (iblk4 V c 0 (⟨n + 1, hn⟩ : Fin cfg4.N)) (iblk4 V c 1 (⟨n + 1, hn⟩ : Fin cfg4.N)) (iblk4 V c 2 (⟨n + 1, hn⟩ : Fin cfg4.N)) (iblk4 V c 3 (⟨n + 1, hn⟩ : Fin cfg4.N)) (iblk4 V c 4 (⟨n + 1, hn⟩ : Fin cfg4.N)) (outsAt4 V c ((⟨n + 1, hn⟩ : Fin cfg4.N).val - 1) (Nat.lt_of_le_of_lt (Nat.sub_le _ _) (⟨n + 1, hn⟩ : Fin cfg4.N).isLt)).2.2.2.1 (outsAt4 V c ((⟨n + 1, hn⟩ : Fin cfg4.N).val - 1) (Nat.lt_of_le_of_lt (Nat.sub_le _ _) (⟨n + 1, hn⟩ : Fin cfg4.N).isLt)).2.2.2.2)

set_option maxHeartbeats 1000000 in
/-- After the last tile the mean row is formed from the final row of column sums, -/
theorem mean4_last (c : Dev nD) (hn : 8 + 1 < cfg4.N) :
    (outsAt4 V c (8 + 1) hn).2.1 = k4_pay2 (S4 V c (8 + 1) hn) := by
  show (outsAt4 V c (⟨8 + 1, hn⟩ : Fin cfg4.N).val (⟨8 + 1, hn⟩ : Fin cfg4.N).isLt).2.1 = _
  have h0 : ¬(⟨8 + 1, hn⟩ : Fin cfg4.N).val = 0 := Nat.succ_ne_zero 8
  have h1 : (⟨8 + 1, hn⟩ : Fin cfg4.N).val = 9 := rfl
  refine Eq.trans ?_ (congrArg (fun s => k4_pay2 s) (S4_succ V c 8 hn).symm)
  exact (congrArg (fun x => x.2.1) (outsAt4_C V c (⟨8 + 1, hn⟩ : Fin cfg4.N) h0 h1)).trans (out4_C_6_eq (F := F) c (grid4.coords (⟨8 + 1, hn⟩ : Fin cfg4.N)) (ms4_0 (⟨8 + 1, hn⟩ : Fin cfg4.N)) (hs4_0 (⟨8 + 1, hn⟩ : Fin cfg4.N)) (ms4_1 (⟨8 + 1, hn⟩ : Fin cfg4.N)) (hs4_1 (⟨8 + 1, hn⟩ : Fin cfg4.N)) (ms4_2 (⟨8 + 1, hn⟩ : Fin cfg4.N)) (hs4_2 (⟨8 + 1, hn⟩ : Fin cfg4.N)) (ms4_3 (⟨8 + 1, hn⟩ : Fin cfg4.N)) (hs4_3 (⟨8 + 1, hn⟩ : Fin cfg4.N)) (ms4_4 (⟨8 + 1, hn⟩ : Fin cfg4.N)) (hs4_4 (⟨8 + 1, hn⟩ : Fin cfg4.N)) (ms4_5 (⟨8 + 1, hn⟩ : Fin cfg4.N)) (hs4_5 (⟨8 + 1, hn⟩ : Fin cfg4.N)) (ms4_6 (⟨8 + 1, hn⟩ : Fin cfg4.N)) (hs4_6 (⟨8 + 1, hn⟩ : Fin cfg4.N)) (ms4_7 (⟨8 + 1, hn⟩ : Fin cfg4.N)) (hs4_7 (⟨8 + 1, hn⟩ : Fin cfg4.N)) scM4_0 (Memref.isWhole_whole _) scM4_1 (Memref.isWhole_whole _) (fun h => h0 ((hcond4_0 (⟨8 + 1, hn⟩ : Fin cfg4.N)).mp h)) ((hcond4_1 (⟨8 + 1, hn⟩ : Fin cfg4.N)).mpr h1) (iblk4 V c 0 (⟨8 + 1, hn⟩ : Fin cfg4.N)) (iblk4 V c 1 (⟨8 + 1, hn⟩ : Fin cfg4.N)) (iblk4 V c 2 (⟨8 + 1, hn⟩ : Fin cfg4.N)) (iblk4 V c 3 (⟨8 + 1, hn⟩ : Fin cfg4.N)) (iblk4 V c 4 (⟨8 + 1, hn⟩ : Fin cfg4.N)) (outsAt4 V c ((⟨8 + 1, hn⟩ : Fin cfg4.N).val - 1) (Nat.lt_of_le_of_lt (Nat.sub_le _ _) (⟨8 + 1, hn⟩ : Fin cfg4.N).isLt)).2.2.2.1 (outsAt4 V c ((⟨8 + 1, hn⟩ : Fin cfg4.N).val - 1) (Nat.lt_of_le_of_lt (Nat.sub_le _ _) (⟨8 + 1, hn⟩ : Fin cfg4.N).isLt)).2.2.2.2)

set_option maxHeartbeats 1000000 in
/-- and the variance row from both final rows. -/
theorem var4_last (c : Dev nD) (hn : 8 + 1 < cfg4.N) :
    (outsAt4 V c (8 + 1) hn).2.2.1 = k4_pay3 (S4 V c (8 + 1) hn) (Q4 V c (8 + 1) hn) := by
  show (outsAt4 V c (⟨8 + 1, hn⟩ : Fin cfg4.N).val (⟨8 + 1, hn⟩ : Fin cfg4.N).isLt).2.2.1 = _
  have h0 : ¬(⟨8 + 1, hn⟩ : Fin cfg4.N).val = 0 := Nat.succ_ne_zero 8
  have h1 : (⟨8 + 1, hn⟩ : Fin cfg4.N).val = 9 := rfl
  refine Eq.trans ?_ (congrArg₂ (fun s q => k4_pay3 s q) (S4_succ V c 8 hn).symm (Q4_succ V c 8 hn).symm)
  exact (congrArg (fun x => x.2.2.1) (outsAt4_C V c (⟨8 + 1, hn⟩ : Fin cfg4.N) h0 h1)).trans (out4_C_7_eq (F := F) c (grid4.coords (⟨8 + 1, hn⟩ : Fin cfg4.N)) (ms4_0 (⟨8 + 1, hn⟩ : Fin cfg4.N)) (hs4_0 (⟨8 + 1, hn⟩ : Fin cfg4.N)) (ms4_1 (⟨8 + 1, hn⟩ : Fin cfg4.N)) (hs4_1 (⟨8 + 1, hn⟩ : Fin cfg4.N)) (ms4_2 (⟨8 + 1, hn⟩ : Fin cfg4.N)) (hs4_2 (⟨8 + 1, hn⟩ : Fin cfg4.N)) (ms4_3 (⟨8 + 1, hn⟩ : Fin cfg4.N)) (hs4_3 (⟨8 + 1, hn⟩ : Fin cfg4.N)) (ms4_4 (⟨8 + 1, hn⟩ : Fin cfg4.N)) (hs4_4 (⟨8 + 1, hn⟩ : Fin cfg4.N)) (ms4_5 (⟨8 + 1, hn⟩ : Fin cfg4.N)) (hs4_5 (⟨8 + 1, hn⟩ : Fin cfg4.N)) (ms4_6 (⟨8 + 1, hn⟩ : Fin cfg4.N)) (hs4_6 (⟨8 + 1, hn⟩ : Fin cfg4.N)) (ms4_7 (⟨8 + 1, hn⟩ : Fin cfg4.N)) (hs4_7 (⟨8 + 1, hn⟩ : Fin cfg4.N)) scM4_0 (Memref.isWhole_whole _) scM4_1 (Memref.isWhole_whole _) (fun h => h0 ((hcond4_0 (⟨8 + 1, hn⟩ : Fin cfg4.N)).mp h)) ((hcond4_1 (⟨8 + 1, hn⟩ : Fin cfg4.N)).mpr h1) (iblk4 V c 0 (⟨8 + 1, hn⟩ : Fin cfg4.N)) (iblk4 V c 1 (⟨8 + 1, hn⟩ : Fin cfg4.N)) (iblk4 V c 2 (⟨8 + 1, hn⟩ : Fin cfg4.N)) (iblk4 V c 3 (⟨8 + 1, hn⟩ : Fin cfg4.N)) (iblk4 V c 4 (⟨8 + 1, hn⟩ : Fin cfg4.N)) (outsAt4 V c ((⟨8 + 1, hn⟩ : Fin cfg4.N).val - 1) (Nat.lt_of_le_of_lt (Nat.sub_le _ _) (⟨8 + 1, hn⟩ : Fin cfg4.N).isLt)).2.2.2.1 (outsAt4 V c ((⟨8 + 1, hn⟩ : Fin cfg4.N).val - 1) (Nat.lt_of_le_of_lt (Nat.sub_le _ _) (⟨8 + 1, hn⟩ : Fin cfg4.N).isLt)).2.2.2.2)

end Cert.KernelIdeal.Hand

end
-- ==== Proof.KI.StatsPay4.lean ====
import proofs.«167925_j62517543961156_1_alg».proof.Proof.KI.StatsPayLib

noncomputable section

namespace Cert.KernelIdeal.Hand

open Idealize.ShloMosaic Idealize.ShloMosaic.ValueIdx Cert.KernelIdeal Cert.KernelIdeal.Gen Cert.Spec
open scoped BigOperators

/-! A later statistics kernel's values at an index: the block's pre-activation (two block products and a bias
row), its running column sums and sums of squares, the zeros they start from, and the mean and variance read off the
totals. -/

theorem pay4_pre (x0 : Vec Ideal S5000x64 .f32) (x1 : Vec Ideal S64x64 .f32) (x2 : Vec Ideal S1x64 .f32)
    (x3 : Vec Ideal S5000x64 .f32) (x4 : Vec Ideal S64x64 .f32) (p : Fin 5000) (q : Fin 64) :
    k4_pay6 x0 x1 x2 x3 x4 (ix2 p q)
      = (∑ t : Fin 64, x0 (ix2 p t) * x1 (ix2 t q)) + x2 (ix2 (0 : Fin 1) q) + ∑ t : Fin 64, x3 (ix2 p t) * x4 (ix2 t q) := by
  show addf (addf (matmul dot_S5000x64_S64x64_S5000x64_1_0_0_1_n_n none (shapeCast S5000x64 x0 shapeCasts_S5000x64_S5000x64)
        (shapeCast S64x64 x1 shapeCasts_S64x64_S64x64) (constant (F := Ideal) S5000x64 .f32 0x00000000#32))
      (broadcastTo S5000x64 (shapeCast S1x64 x2 shapeCasts_S1x64_S1x64) broadcasts_S1x64_S5000x64))
    (matmul dot_S5000x64_S64x64_S5000x64_1_0_0_1_n_n none (shapeCast S5000x64 x3 shapeCasts_S5000x64_S5000x64)
        (shapeCast S64x64 x4 shapeCasts_S64x64_S64x64) (constant (F := Ideal) S5000x64 .f32 0x00000000#32)) (ix2 p q) = _
  rw [addf_apply, addf_apply, shapeCast_self, shapeCast_self, shapeCast_self, shapeCast_self, shapeCast_self,
    mm_zero_apply _ dot64_plain, mm_zero_apply _ dot64_plain, bcRow5000]

theorem pay4_sum (x0 : Vec Ideal S5000x64 .f32) (x1 : Vec Ideal S64x64 .f32) (x2 : Vec Ideal S1x64 .f32)
    (x3 : Vec Ideal S5000x64 .f32) (x4 : Vec Ideal S64x64 .f32) (s : Vec Ideal S1x64 .f32) (q : Fin 64) :
    k4_pay7 x0 x1 x2 x3 x4 s (ix2 (0 : Fin 1) q) = s (ix2 (0 : Fin 1) q) + ∑ p : Fin 5000, k4_pay6 x0 x1 x2 x3 x4 (ix2 p q) := by
  show shapeCast S1x64 (addf s (shapeCast S1x64 (multiReduction .add [0] S64 (k4_pay6 x0 x1 x2 x3 x4) 0x00000000#32 reduces_S5000x64_S64 (.inl rfl) rfl)
    shapeCasts_S64_S1x64)) shapeCasts_S1x64_S1x64 (ix2 (0 : Fin 1) q) = _
  rw [shapeCast_self, addf_apply, row64_apply]
  exact congrArg (s (ix2 (0 : Fin 1) q) + ·) (colSum5000 (k4_pay6 x0 x1 x2 x3 x4) _ _ q)

theorem pay4_sumsq (x0 : Vec Ideal S5000x64 .f32) (x1 : Vec Ideal S64x64 .f32) (x2 : Vec Ideal S1x64 .f32)
    (x3 : Vec Ideal S5000x64 .f32) (x4 : Vec Ideal S64x64 .f32) (s : Vec Ideal S1x64 .f32) (q : Fin 64) :
    k4_pay8 x0 x1 x2 x3 x4 s (ix2 (0 : Fin 1) q)
      = s (ix2 (0 : Fin 1) q) + ∑ p : Fin 5000, k4_pay6 x0 x1 x2 x3 x4 (ix2 p q) * k4_pay6 x0 x1 x2 x3 x4 (ix2 p q) := by
  show addf s (shapeCast S1x64 (multiReduction .add [0] S64 (mulf (k4_pay6 x0 x1 x2 x3 x4) (k4_pay6 x0 x1 x2 x3 x4)) 0x00000000#32
    reduces_S5000x64_S64 (.inl rfl) rfl) shapeCasts_S64_S1x64) (ix2 (0 : Fin 1) q) = _
  rw [addf_apply, row64_apply]
  exact congrArg (s (ix2 (0 : Fin 1) q) + ·) (colSum5000 (mulf (k4_pay6 x0 x1 x2 x3 x4) (k4_pay6 x0 x1 x2 x3 x4)) _ _ q)

/-- The total of the squares is stored as it stands. -/
theorem pay4_keep (v : FVec Ideal S1x64 .f32) : k4_pay1 v = v := shapeCast_self v _

theorem pay4_zero1 (q : Fin 64) : k4_pay4 (F := Ideal) (ix2 (0 : Fin 1) q) = 0 := by
  show shapeCast S1x64 (broadcast S1x64 (Scalar.ofBits .f32 0x00000000#32 : Ideal .f32)) shapeCasts_S1x64_S1x64 (ix2 (0 : Fin 1) q) = 0
  rw [shapeCast_self, broadcast_apply, zeroW]

theorem pay4_zero2 (q : Fin 64) : k4_pay5 (F := Ideal) (ix2 (0 : Fin 1) q) = 0 := by
  show shapeCast S1x64 (broadcast S1x64 (Scalar.ofBits .f32 0x00000000#32 : Ideal .f32)) shapeCasts_S1x64_S1x64 (ix2 (0 : Fin 1) q) = 0
  rw [shapeCast_self, broadcast_apply, zeroW]

theorem pay4_mean (s : Vec Ideal S1x64 .f32) (q : Fin 64) :
    k4_pay2 s (ix2 (0 : Fin 1) q) = Ideal.div (s (ix2 (0 : Fin 1) q)) cntW := rfl

theorem pay4_var (s s2 : Vec Ideal S1x64 .f32) (q : Fin 64) :
    k4_pay3 s s2 (ix2 (0 : Fin 1) q)
      = Ideal.div (s2 (ix2 (0 : Fin 1) q)) cntW - Ideal.div (s (ix2 (0 : Fin 1) q)) cntW * Ideal.div (s (ix2 (0 : Fin 1) q)) cntW := rfl

end Cert.KernelIdeal.Hand

end
-- ==== Proof.KI.StatsPre4.lean ====
import proofs.«167925_j62517543961156_1_alg».proof.Proof.KI.Stats4Closed
import proofs.«167925_j62517543961156_1_alg».proof.Proof.KI.StatsPay4
import proofs.«167925_j62517543961156_1_alg».proof.Proof.Spec
import Idealize.ShloMosaic.Lib.Pipeline.Value
import Idealize.ShloMosaic.Lib.ValueIdx

/-!
# Region 4 on the extended reals: the pre-activation array it leaves, in closed form

The pre-activation tile a grid point stores is, entry by entry, the product of its tile of the previous layer's output with the left weight matrix, plus the bias row, plus the product of its tile of aggregated features with the right weight matrix.
Point `t` reads and writes rows `5000·t … 5000·t + 4999`; the weight and bias windows are their whole arrays at every
point.  So the ten tiles are the restrictions of ONE function of the whole arrays, and they cover the output array.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
open scoped BigOperators

variable (V : (c : Dev nD) → (b : Ref sig .tc) → Buf (Elt Ideal) ((c : Thread nD τ).loc b))

/-- Where the windows' blocks sit: the tiles at rows `5000·t`, everything else at the origin. -/
theorem stats4pre_idx : ∀ t : Fin cfg4.N,
    win4_5.index t (0 : Fin 2) = t.val
    ∧ win4_5.index t (1 : Fin 2) = 0
    ∧ win4_0.index t (0 : Fin 2) = t.val
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = t.val
    ∧ win4_3.index t (1 : Fin 2) = 0
    ∧ win4_4.index t (0 : Fin 2) = 0
    ∧ win4_4.index t (1 : Fin 2) = 0 :=
  (by decide +kernel : ∀ t : Fin grid4.N, _)

/-- Row `p` of point `t`'s tile is row `5000·t + p` of the array. -/
def stats4pre_rowOf (t : Fin cfg4.N) (p : Fin 5000) : Fin 50000 :=
  ⟨t.val * 5000 + p.val, by
    have h : t.val < 10 := (show t.val < grid4.N from t.isLt).trans_eq N_4
    have := p.isLt; omega⟩

/-- Row `p`, column `k` of point `t`'s block of window 0 is row `5000·t + p`, column `k` of its array. -/
theorem stats4pre_blk0 (c : Dev nD) (t : Fin cfg4.N) (p : Fin 5000) (k : Fin 64) :
    iblk4 V c 0 t (ix2 p k) = V c (Pipeline.arrRef spec4 0) (ix2 (stats4pre_rowOf t p) k) := by
  obtain ⟨eo0, eo1, e00, e01, e10, e11, e20, e21, e30, e31, e40, e41⟩ := stats4pre_idx t
  show V c (Pipeline.arrRef spec4 0) (((cfg4.win 0).blk t).view.emb (ix2 p k)) = _
  refine congrArg (V c (Pipeline.arrRef spec4 0)) ?_
  funext a; apply Fin.ext
  match a with
  | ⟨0, _⟩ => show win4_0.index t (0 : Fin 2) * 5000 + 1 * p.val = t.val * 5000 + p.val; omega
  | ⟨1, _⟩ => show win4_0.index t (1 : Fin 2) * 64 + 1 * k.val = k.val; omega

/-- The block of window 1 is its whole array at every point. -/
theorem stats4pre_blk1 (c : Dev nD) (t : Fin cfg4.N) (k : Fin 64) (q : Fin 64) :
    iblk4 V c 1 t (ix2 k q) = V c (Pipeline.arrRef spec4 1) (ix2 k q) := by
  obtain ⟨eo0, eo1, e00, e01, e10, e11, e20, e21, e30, e31, e40, e41⟩ := stats4pre_idx t
  show V c (Pipeline.arrRef spec4 1) (((cfg4.win 1).blk t).view.emb (ix2 k q)) = _
  refine congrArg (V c (Pipeline.arrRef spec4 1)) ?_
  funext a; apply Fin.ext
  match a with
  | ⟨0, _⟩ => show win4_1.index t (0 : Fin 2) * 64 + 1 * k.val = k.val; omega
  | ⟨1, _⟩ => show win4_1.index t (1 : Fin 2) * 64 + 1 * q.val = q.val; omega

/-- The block of window 2 is its whole one-row array at every point. -/
theorem stats4pre_blk2 (c : Dev nD) (t : Fin cfg4.N) (q : Fin 64) :
    iblk4 V c 2 t (ix2 (0 : Fin 1) q) = V c (Pipeline.arrRef spec4 2) (ix2 (0 : Fin 1) q) := by
  obtain ⟨eo0, eo1, e00, e01, e10, e11, e20, e21, e30, e31, e40, e41⟩ := stats4pre_idx t
  show V c (Pipeline.arrRef spec4 2) (((cfg4.win 2).blk t).view.emb (ix2 (0 : Fin 1) q)) = _
  refine congrArg (V c (Pipeline.arrRef spec4 2)) ?_
  funext a; apply Fin.ext
  match a with
  | ⟨0, _⟩ => show win4_2.index t (0 : Fin 2) * 1 + 1 * 0 = 0; omega
  | ⟨1, _⟩ => show win4_2.index t (1 : Fin 2) * 64 + 1 * q.val = q.val; omega

/-- Row `p`, column `k` of point `t`'s block of window 3 is row `5000·t + p`, column `k` of its array. -/
theorem stats4pre_blk3 (c : Dev nD) (t : Fin cfg4.N) (p : Fin 5000) (k : Fin 64) :
    iblk4 V c 3 t (ix2 p k) = V c (Pipeline.arrRef spec4 3) (ix2 (stats4pre_rowOf t p) k) := by
  obtain ⟨eo0, eo1, e00, e01, e10, e11, e20, e21, e30, e31, e40, e41⟩ := stats4pre_idx t
  show V c (Pipeline.arrRef spec4 3) (((cfg4.win 3).blk t).view.emb (ix2 p k)) = _
  refine congrArg (V c (Pipeline.arrRef spec4 3)) ?_
  funext a; apply Fin.ext
  match a with
  | ⟨0, _⟩ => show win4_3.index t (0 : Fin 2) * 5000 + 1 * p.val = t.val * 5000 + p.val; omega
  | ⟨1, _⟩ => show win4_3.index t (1 : Fin 2) * 64 + 1 * k.val = k.val; omega

/-- The block of window 4 is its whole array at every point. -/
theorem stats4pre_blk4 (c : Dev nD) (t : Fin cfg4.N) (k : Fin 64) (q : Fin 64) :
    iblk4 V c 4 t (ix2 k q) = V c (Pipeline.arrRef spec4 4) (ix2 k q) := by
  obtain ⟨eo0, eo1, e00, e01, e10, e11, e20, e21, e30, e31, e40, e41⟩ := stats4pre_idx t
  show V c (Pipeline.arrRef spec4 4) (((cfg4.win 4).blk t).view.emb (ix2 k q)) = _
  refine congrArg (V c (Pipeline.arrRef spec4 4)) ?_
  funext a; apply Fin.ext
  match a with
  | ⟨0, _⟩ => show win4_4.index t (0 : Fin 2) * 64 + 1 * k.val = k.val; omega
  | ⟨1, _⟩ => show win4_4.index t (1 : Fin 2) * 64 + 1 * q.val = q.val; omega

/-- Where row `p`, column `q` of point `t`'s output tile goes. -/
theorem stats4pre_emb_out (t : Fin cfg4.N) (p : Fin 5000) (q : Fin 64) :
    ((cfg4.win 5).blk t).view.emb (ix2 p q) = ix2 (stats4pre_rowOf t p) q := by
  obtain ⟨eo0, eo1, e00, e01, e10, e11, e20, e21, e30, e31, e40, e41⟩ := stats4pre_idx t
  funext a; apply Fin.ext
  match a with
  | ⟨0, _⟩ => show win4_5.index t (0 : Fin 2) * 5000 + 1 * p.val = t.val * 5000 + p.val; omega
  | ⟨1, _⟩ => show win4_5.index t (1 : Fin 2) * 64 + 1 * q.val = q.val; omega

set_option maxHeartbeats 1000000 in
/-- What point `t` writes back is block `t` of the closed form of the whole arrays. -/
theorem stats4pre_flushed (c : Dev nD) (t : Fin cfg4.N) :
    (dat4 (F := Ideal) V c).flushed 5 t
      = ((cfg4.win 5).blk t).view.read (Elt Ideal) (Cert.Spec.preLG (V c (Pipeline.arrRef spec4 0)) (V c (Pipeline.arrRef spec4 1)) (V c (Pipeline.arrRef spec4 2)) (V c (Pipeline.arrRef spec4 3)) (V c (Pipeline.arrRef spec4 4))) := by
  generalize hG : Cert.Spec.preLG (V c (Pipeline.arrRef spec4 0)) (V c (Pipeline.arrRef spec4 1)) (V c (Pipeline.arrRef spec4 2)) (V c (Pipeline.arrRef spec4 3)) (V c (Pipeline.arrRef spec4 4)) = Gf
  show (cfg4.win 5).cut (grid4.coords t) ((dat4 (F := Ideal) V c).after 5 t) = _
  rw [after4_5, pre4_eq V c t]
  funext j
  obtain ⟨p, q, rfl⟩ : ∃ (p : Fin 5000) (q : Fin 64), j = ix2 p q := ⟨j 0, j 1, eq_ix2 j⟩
  refine (pay4_pre (iblk4 V c 0 t) (iblk4 V c 1 t) (iblk4 V c 2 t) (iblk4 V c 3 t) (iblk4 V c 4 t) p q).trans ?_
  simp only [stats4pre_blk0 V c t p, stats4pre_blk1 V c t, stats4pre_blk2 V c t q, stats4pre_blk3 V c t p, stats4pre_blk4 V c t]
  show _ = Gf (((cfg4.win 5).blk t).view.emb (ix2 p q))
  rw [stats4pre_emb_out t p q, ← hG]
  exact (Cert.Spec.preLG_apply _ _ _ _ _ (stats4pre_rowOf t p) q).symm

/-- An index of the output array lies in point `t`'s block iff each coordinate lies in the block's range. -/
theorem stats4pre_mem_blk (t : Fin cfg4.N) (i : S50000x64.Idx) :
    i ∈ ((cfg4.win 5).blk t).view.set ↔ ∀ a : Fin 2, win4_5.index t a * S5000x64.size a ≤ (i a).val ∧ (i a).val < win4_5.index t a * S5000x64.size a + S5000x64.size a := by
  show i ∈ ((View.whole main_v68_0).slice (win4_5.rect t)).set ↔ _
  rw [View.set_slice_whole, Rect.mem_set_unit]
  exact Iff.rfl

/-- Row `r` of the output array is written by point `r / 5000`. -/
theorem stats4pre_cover (i : S50000x64.Idx) :
    ∃ t : Fin cfg4.N, (cfg4.win 5).flush t = true ∧ i ∈ ((cfg4.win 5).blk t).view.set := by
  have hi0 : (i 0).val < 50000 := (i 0).isLt
  have hi1 : (i 1).val < 64 := (i 1).isLt
  obtain ⟨t, ht⟩ : ∃ t : Fin cfg4.N, t.val = (i 0).val / 5000 :=
    ⟨⟨(i 0).val / 5000, by rw [show cfg4.N = 10 from N_4]; omega⟩, rfl⟩
  obtain ⟨eo0, eo1, e00, e01, e10, e11, e20, e21, e30, e31, e40, e41⟩ := stats4pre_idx t
  refine ⟨t, flush4_5 t, ?_⟩
  rw [stats4pre_mem_blk]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 64 ≤ (i 1).val ∧ (i 1).val < win4_5.index t (1 : Fin 2) * 64 + 64; omega

/-- The pre-activation array after the region: the closed form of the arrays found on entry. -/
theorem final_stats4_pre (c : Dev nD) :
    (dat4 (F := Ideal) V c).arrAt 5 cfg4.N
      = Cert.Spec.preLG (V c (Pipeline.arrRef spec4 0)) (V c (Pipeline.arrRef spec4 1)) (V c (Pipeline.arrRef spec4 2)) (V c (Pipeline.arrRef spec4 3)) (V c (Pipeline.arrRef spec4 4)) :=
  (dat4 (F := Ideal) V c).arrAt_eq_of_cover 5 (Cert.Spec.preLG (V c (Pipeline.arrRef spec4 0)) (V c (Pipeline.arrRef spec4 1)) (V c (Pipeline.arrRef spec4 2)) (V c (Pipeline.arrRef spec4 3)) (V c (Pipeline.arrRef spec4 4)))
    (fun t _ => stats4pre_flushed V c t) (stats4pre_cover)

end Cert.KernelIdeal.Hand
-- ==== Proof.KI.Stats6Pieces.lean ====
import proofs.«167925_j62517543961156_1_alg».proof.Proof.KI.Stats6
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Statistics kernel of region 6: what each control case's stores leave, as the body's named values

    Every store of the body writes a whole buffer, so what a buffer holds afterwards is the value last stored into it:
    the pre-activation tile; the accumulator rows plus this tile's column sums (from zero at the first tile); at the last
    tile the mean and variance rows formed from the accumulated sums. -/

theorem hz2_6 : (![0, 0] : Fin 2 → Nat) = fun _ => 0 := funext fun a => by fin_cases a <;> rfl

theorem out6_A_5_eq (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond6_0 i) (hc1 : ¬cond6_1 i)
    (x0 : Vec F S5000x64 .f32) (x1 : Vec F S64x64 .f32) (x2 : Vec F S1x64 .f32) (x3 : Vec F S5000x64 .f32) (x4 : Vec F S64x64 .f32) :
    out6_A_5 c i arg1 harg1 arg2 harg2 arg3 harg3 arg4 harg4 arg5 harg5 arg6 harg6 arg7 harg7 arg8 harg8 arg9 harg9 arg10 harg10 hc0 hc1 x0 x1 x2 x3 x4 = k6_pay6 x0 x1 x2 x3 x4 := by
  unfold out6_A_5
  rw [View.read_writes_eq_canon _ _ _ (cover6_A_5 c i arg1 harg1 arg2 harg2 arg3 harg3 arg4 harg4 arg5 harg5 arg6 harg6 arg7 harg7 arg8 harg8 arg9 harg9 arg10 harg10 hc0 hc1 x0 x1 x2 x3 x4)]
  unfold run6_A
  dsimp only
  try sl_unfold_words
  rw [View.canon_cons_unit_zero (S := S5000x64) hz2_6]
  try rw [View.readCov_unit_zero (S := S1x64) _ hz2_6]
  try rw [View.readCov_unit_zero (S := S1x64) _ hz2_6]
  try simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2_6, View.ld_unit_zero (S := S64x64) hz2_6, View.ld_unit_zero (S := S1x64) hz2_6]

theorem sout6_A_0_eq (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond6_0 i) (hc1 : ¬cond6_1 i)
    (x0 : Vec F S5000x64 .f32) (x1 : Vec F S64x64 .f32) (x2 : Vec F S1x64 .f32) (x3 : Vec F S5000x64 .f32) (x4 : Vec F S64x64 .f32) :
    sout6_A_0 c i arg1 harg1 arg2 harg2 arg3 harg3 arg4 harg4 arg5 harg5 arg6 harg6 arg7 harg7 arg8 harg8 arg9 harg9 arg10 harg10 hc0 hc1 x0 x1 x2 x3 x4 = k6_pay7 x0 x1 x2 x3 x4 (k6_pay4 (F := F)) := by
  unfold sout6_A_0
  rw [View.read_writes_eq_canon _ _ _ (scover6_A_0 c i arg1 harg1 arg2 harg2 arg3 harg3 arg4 harg4 arg5 harg5 arg6 harg6 arg7 harg7 arg8 harg8 arg9 harg9 arg10 harg10 hc0 hc1 x0 x1 x2 x3 x4)]
  unfold run6_A
  dsimp only
  try sl_unfold_words
  rw [View.canon_cons_unit_zero (S := S1x64) hz2_6]
  try rw [View.readCov_unit_zero (S := S1x64) _ hz2_6]
  try rw [View.readCov_unit_zero (S := S1x64) _ hz2_6]
  try simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2_6, View.ld_unit_zero (S := S64x64) hz2_6, View.ld_unit_zero (S := S1x64) hz2_6]

theorem sout6_A_1_eq (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond6_0 i) (hc1 : ¬cond6_1 i)
    (x0 : Vec F S5000x64 .f32) (x1 : Vec F S64x64 .f32) (x2 : Vec F S1x64 .f32) (x3 : Vec F S5000x64 .f32) (x4 : Vec F S64x64 .f32) :
    sout6_A_1 c i arg1 harg1 arg2 harg2 arg3 harg3 arg4 harg4 arg5 harg5 arg6 harg6 arg7 harg7 arg8 harg8 arg9 harg9 arg10 harg10 hc0 hc1 x0 x1 x2 x3 x4 = k6_pay1 (k6_pay8 x0 x1 x2 x3 x4 (k6_pay5 (F := F))) := by
  unfold sout6_A_1
  rw [View.read_writes_eq_canon _ _ _ (scover6_A_1 c i arg1 harg1 arg2 harg2 arg3 harg3 arg4 harg4 arg5 harg5 arg6 harg6 arg7 harg7 arg8 harg8 arg9 harg9 arg10 harg10 hc0 hc1 x0 x1 x2 x3 x4)]
  unfold run6_A
  dsimp only
  try sl_unfold_words
  rw [View.canon_cons_unit_zero (S := S1x64) hz2_6]
  try rw [View.readCov_unit_zero (S := S1x64) _ hz2_6]
  try rw [View.readCov_unit_zero (S := S1x64) _ hz2_6]
  try simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2_6, View.ld_unit_zero (S := S64x64) hz2_6, View.ld_unit_zero (S := S1x64) hz2_6]

theorem out6_B_5_eq (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond6_0 i) (hc1 : ¬cond6_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) :
    out6_B_5 c i arg1 harg1 arg2 harg2 arg3 harg3 arg4 harg4 arg5 harg5 arg6 harg6 arg7 harg7 arg8 harg8 arg9 harg9 arg10 harg10 hc0 hc1 x0 x1 x2 x3 x4 xs0 xs1 = k6_pay6 x0 x1 x2 x3 x4 := by
  unfold out6_B_5
  rw [View.read_writes_eq_canon _ _ _ (cover6_B_5 c i arg1 harg1 arg2 harg2 arg3 harg3 arg4 harg4 arg5 harg5 arg6 harg6 arg7 harg7 arg8 harg8 arg9 harg9 arg10 harg10 hc0 hc1 x0 x1 x2 x3 x4 xs0 xs1)]
  unfold run6_B
  dsimp only
  try sl_unfold_words
  rw [View.canon_cons_unit_zero (S := S5000x64) hz2_6]
  try rw [View.readCov_unit_zero (S := S1x64) _ hz2_6]
  try rw [View.readCov_unit_zero (S := S1x64) _ hz2_6]
  try simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2_6, View.ld_unit_zero (S := S64x64) hz2_6, View.ld_unit_zero (S := S1x64) hz2_6]

theorem sout6_B_0_eq (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond6_0 i) (hc1 : ¬cond6_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) :
    sout6_B_0 c i arg1 harg1 arg2 harg2 arg3 harg3 arg4 harg4 arg5 harg5 arg6 harg6 arg7 harg7 arg8 harg8 arg9 harg9 arg10 harg10 hc0 hc1 x0 x1 x2 x3 x4 xs0 xs1 = k6_pay7 x0 x1 x2 x3 x4 xs0 := by
  unfold sout6_B_0
  rw [View.read_writes_eq_canon _ _ _ (scover6_B_0 c i arg1 harg1 arg2 harg2 arg3 harg3 arg4 harg4 arg5 harg5 arg6 harg6 arg7 harg7 arg8 harg8 arg9 harg9 arg10 harg10 hc0 hc1 x0 x1 x2 x3 x4 xs0 xs1)]
  unfold run6_B
  dsimp only
  try sl_unfold_words
  rw [View.canon_cons_unit_zero (S := S1x64) hz2_6]
  try rw [View.readCov_unit_zero (S := S1x64) _ hz2_6]
  try rw [View.readCov_unit_zero (S := S1x64) _ hz2_6]
  try simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2_6, View.ld_unit_zero (S := S64x64) hz2_6, View.ld_unit_zero (S := S1x64) hz2_6]

theorem sout6_B_1_eq (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond6_0 i) (hc1 : ¬cond6_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) :
    sout6_B_1 c i arg1 harg1 arg2 harg2 arg3 harg3 arg4 harg4 arg5 harg5 arg6 harg6 arg7 harg7 arg8 harg8 arg9 harg9 arg10 harg10 hc0 hc1 x0 x1 x2 x3 x4 xs0 xs1 = k6_pay1 (k6_pay8 x0 x1 x2 x3 x4 xs1) := by
  unfold sout6_B_1
  rw [View.read_writes_eq_canon _ _ _ (scover6_B_1 c i arg1 harg1 arg2 harg2 arg3 harg3 arg4 harg4 arg5 harg5 arg6 harg6 arg7 harg7 arg8 harg8 arg9 harg9 arg10 harg10 hc0 hc1 x0 x1 x2 x3 x4 xs0 xs1)]
  unfold run6_B
  dsimp only
  try sl_unfold_words
  rw [View.canon_cons_unit_zero (S := S1x64) hz2_6]
  try rw [View.readCov_unit_zero (S := S1x64) _ hz2_6]
  try rw [View.readCov_unit_zero (S := S1x64) _ hz2_6]
  try simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2_6, View.ld_unit_zero (S := S64x64) hz2_6, View.ld_unit_zero (S := S1x64) hz2_6]

theorem out6_C_5_eq (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond6_0 i) (hc1 : cond6_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) :
    out6_C_5 c i arg1 harg1 arg2 harg2 arg3 harg3 arg4 harg4 arg5 harg5 arg6 harg6 arg7 harg7 arg8 harg8 arg9 harg9 arg10 harg10 hc0 hc1 x0 x1 x2 x3 x4 xs0 xs1 = k6_pay6 x0 x1 x2 x3 x4 := by
  unfold out6_C_5
  rw [View.read_writes_eq_canon _ _ _ (cover6_C_5 c i arg1 harg1 arg2 harg2 arg3 harg3 arg4 harg4 arg5 harg5 arg6 harg6 arg7 harg7 arg8 harg8 arg9 harg9 arg10 harg10 hc0 hc1 x0 x1 x2 x3 x4 xs0 xs1)]
  unfold run6_C
  dsimp only
  try sl_unfold_words
  rw [View.canon_cons_unit_zero (S := S5000x64) hz2_6]
  try rw [View.readCov_unit_zero (S := S1x64) _ hz2_6]
  try rw [View.readCov_unit_zero (S := S1x64) _ hz2_6]
  try simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2_6, View.ld_unit_zero (S := S64x64) hz2_6, View.ld_unit_zero (S := S1x64) hz2_6]

theorem sout6_C_0_eq (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond6_0 i) (hc1 : cond6_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) :
    sout6_C_0 c i arg1 harg1 arg2 harg2 arg3 harg3 arg4 harg4 arg5 harg5 arg6 harg6 arg7 harg7 arg8 harg8 arg9 harg9 arg10 harg10 hc0 hc1 x0 x1 x2 x3 x4 xs0 xs1 = k6_pay7 x0 x1 x2 x3 x4 xs0 := by
  unfold sout6_C_0
  rw [View.read_writes_eq_canon _ _ _ (scover6_C_0 c i arg1 harg1 arg2 harg2 arg3 harg3 arg4 harg4 arg5 harg5 arg6 harg6 arg7 harg7 arg8 harg8 arg9 harg9 arg10 harg10 hc0 hc1 x0 x1 x2 x3 x4 xs0 xs1)]
  unfold run6_C
  dsimp only
  try sl_unfold_words
  rw [View.canon_cons_unit_zero (S := S1x64) hz2_6]
  try rw [View.readCov_unit_zero (S := S1x64) _ hz2_6]
  try rw [View.readCov_unit_zero (S := S1x64) _ hz2_6]
  try simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2_6, View.ld_unit_zero (S := S64x64) hz2_6, View.ld_unit_zero (S := S1x64) hz2_6]

theorem sout6_C_1_eq (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond6_0 i) (hc1 : cond6_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) :
    sout6_C_1 c i arg1 harg1 arg2 harg2 arg3 harg3 arg4 harg4 arg5 harg5 arg6 harg6 arg7 harg7 arg8 harg8 arg9 harg9 arg10 harg10 hc0 hc1 x0 x1 x2 x3 x4 xs0 xs1 = k6_pay1 (k6_pay8 x0 x1 x2 x3 x4 xs1) := by
  unfold sout6_C_1
  rw [View.read_writes_eq_canon _ _ _ (scover6_C_1 c i arg1 harg1 arg2 harg2 arg3 harg3 arg4 harg4 arg5 harg5 arg6 harg6 arg7 harg7 arg8 harg8 arg9 harg9 arg10 harg10 hc0 hc1 x0 x1 x2 x3 x4 xs0 xs1)]
  unfold run6_C
  dsimp only
  try sl_unfold_words
  rw [View.canon_cons_unit_zero (S := S1x64) hz2_6]
  try rw [View.readCov_unit_zero (S := S1x64) _ hz2_6]
  try rw [View.readCov_unit_zero (S := S1x64) _ hz2_6]
  try simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2_6, View.ld_unit_zero (S := S64x64) hz2_6, View.ld_unit_zero (S := S1x64) hz2_6]

theorem out6_C_6_eq (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond6_0 i) (hc1 : cond6_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) :
    out6_C_6 c i arg1 harg1 arg2 harg2 arg3 harg3 arg4 harg4 arg5 harg5 arg6 harg6 arg7 harg7 arg8 harg8 arg9 harg9 arg10 harg10 hc0 hc1 x0 x1 x2 x3 x4 xs0 xs1 = k6_pay2 (k6_pay7 x0 x1 x2 x3 x4 xs0) := by
  unfold out6_C_6
  rw [View.read_writes_eq_canon _ _ _ (cover6_C_6 c i arg1 harg1 arg2 harg2 arg3 harg3 arg4 harg4 arg5 harg5 arg6 harg6 arg7 harg7 arg8 harg8 arg9 harg9 arg10 harg10 hc0 hc1 x0 x1 x2 x3 x4 xs0 xs1)]
  unfold run6_C
  dsimp only
  try sl_unfold_words
  rw [View.canon_cons_unit_zero (S := S1x64) hz2_6]
  try rw [View.readCov_unit_zero (S := S1x64) _ hz2_6]
  try rw [View.readCov_unit_zero (S := S1x64) _ hz2_6]
  try simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2_6, View.ld_unit_zero (S := S64x64) hz2_6, View.ld_unit_zero (S := S1x64) hz2_6]

theorem out6_C_7_eq (c : Dev nD) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond6_0 i) (hc1 : cond6_1 i)
    (x0 : Vec F S5000x64 .f32) (x1 : Vec F S64x64 .f32) (x2 : Vec F S1x64 .f32) (x3 : Vec F S5000x64 .f32) (x4 : Vec F S64x64 .f32) (xs0 : Vec F S1x64 .f32) (xs1 : Vec F S1x64 .f32) :
    out6_C_7 c i arg1 harg1 arg2 harg2 arg3 harg3 arg4 harg4 arg5 harg5 arg6 harg6 arg7 harg7 arg8 harg8 arg9 harg9 arg10 harg10 hc0 hc1 x0 x1 x2 x3 x4 xs0 xs1 = k6_pay3 (k6_pay7 x0 x1 x2 x3 x4 xs0) (k6_pay1 (k6_pay8 x0 x1 x2 x3 x4 xs1)) := by
  unfold out6_C_7
  rw [View.read_writes_eq_canon _ _ _ (cover6_C_7 c i arg1 harg1 arg2 harg2 arg3 harg3 arg4 harg4 arg5 harg5 arg6 harg6 arg7 harg7 arg8 harg8 arg9 harg9 arg10 harg10 hc0 hc1 x0 x1 x2 x3 x4 xs0 xs1)]
  unfold run6_C
  dsimp only
  try sl_unfold_words
  rw [View.canon_cons_unit_zero (S := S1x64) hz2_6]
  try rw [View.readCov_unit_zero (S := S1x64) _ hz2_6]
  try rw [View.readCov_unit_zero (S := S1x64) _ hz2_6]
  try simp only [View.readAt_eq_ld, harg1.read_unread, harg2.read_unread, harg3.read_unread, harg4.read_unread, harg5.read_unread, harg6.read_unread, harg7.read_unread, harg8.read_unread, harg9.read_unread, harg10.read_unread, View.ld_unit_zero (S := S5000x64) hz2_6, View.ld_unit_zero (S := S64x64) hz2_6, View.ld_unit_zero (S := S1x64) hz2_6]

end Cert.KernelIdeal.Hand

end
-- ==== Proof.KI.Stats6Closed.lean ====
import proofs.«167925_j62517543961156_1_alg».proof.Proof.KI.Stats6Pieces

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

attribute [local irreducible] outsAt6 out6_A_5 sout6_A_0 sout6_A_1 out6_B_5 sout6_B_0 sout6_B_1 out6_C_5 out6_C_6 out6_C_7 sout6_C_0 sout6_C_1

/-! # Statistics kernel of region 6: the buffers after each node tile, in closed form

    The pre-activation tile's buffer holds the tile's pre-activations; the two accumulator rows follow a recurrence — from
    zero, each tile adds its column sums —; after the last tile the mean and variance rows are formed from them. -/

set_option maxHeartbeats 1000000 in
theorem pre6_eq (c : Dev nD) (t : Fin cfg6.N) :
    (outsAt6 V c t.val t.isLt).1 = k6_pay6 (iblk6 V c 0 t) (iblk6 V c 1 t) (iblk6 V c 2 t) (iblk6 V c 3 t) (iblk6 V c 4 t) := by
  by_cases h0 : t.val = 0
  · exact (congrArg (fun x => x.1) (outsAt6_A V c t h0)).trans (out6_A_5_eq (F := F) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) ((hcond6_0 t).mpr h0) (fun h => (fun h => by omega) ((hcond6_1 t).mp h)) (iblk6 V c 0 t) (iblk6 V c 1 t) (iblk6 V c 2 t) (iblk6 V c 3 t) (iblk6 V c 4 t))
  · by_cases h1 : t.val = 9
    · exact (congrArg (fun x => x.1) (outsAt6_C V c t h0 h1)).trans (out6_C_5_eq (F := F) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (outsAt6 V c (t.val - 1) (Nat.lt_of_le_of_lt (Nat.sub_le _ _) t.isLt)).2.2.2.1 (outsAt6 V c (t.val - 1) (Nat.lt_of_le_of_lt (Nat.sub_le _ _) t.isLt)).2.2.2.2)
    · exact (congrArg (fun x => x.1) (outsAt6_B V c t h0 h1)).trans (out6_B_5_eq (F := F) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2.2.2.1 (outsAt6 V c (t.val - 1) (Nat.lt_of_le_of_lt (Nat.sub_le _ _) t.isLt)).2.2.2.2)

set_option maxHeartbeats 1000000 in
theorem S6_zero (c : Dev nD) (hn : 0 < cfg6.N) :
    S6 V c 0 hn = k6_pay7 (iblk6 V c 0 ⟨0, hn⟩) (iblk6 V c 1 ⟨0, hn⟩) (iblk6 V c 2 ⟨0, hn⟩) (iblk6 V c 3 ⟨0, hn⟩) (iblk6 V c 4 ⟨0, hn⟩) (k6_pay4 (F := F)) := by
  show (outsAt6 V c (⟨0, hn⟩ : Fin cfg6.N).val (⟨0, hn⟩ : Fin cfg6.N).isLt).2.2.2.1 = _
  have h0 : (⟨0, hn⟩ : Fin cfg6.N).val = 0 := rfl
  exact (congrArg (fun x => x.2.2.2.1) (outsAt6_A V c (⟨0, hn⟩ : Fin cfg6.N) h0)).trans (sout6_A_0_eq (F := F) c (grid6.coords (⟨0, hn⟩ : Fin cfg6.N)) (ms6_0 (⟨0, hn⟩ : Fin cfg6.N)) (hs6_0 (⟨0, hn⟩ : Fin cfg6.N)) (ms6_1 (⟨0, hn⟩ : Fin cfg6.N)) (hs6_1 (⟨0, hn⟩ : Fin cfg6.N)) (ms6_2 (⟨0, hn⟩ : Fin cfg6.N)) (hs6_2 (⟨0, hn⟩ : Fin cfg6.N)) (ms6_3 (⟨0, hn⟩ : Fin cfg6.N)) (hs6_3 (⟨0, hn⟩ : Fin cfg6.N)) (ms6_4 (⟨0, hn⟩ : Fin cfg6.N)) (hs6_4 (⟨0, hn⟩ : Fin cfg6.N)) (ms6_5 (⟨0, hn⟩ : Fin cfg6.N)) (hs6_5 (⟨0, hn⟩ : Fin cfg6.N)) (ms6_6 (⟨0, hn⟩ : Fin cfg6.N)) (hs6_6 (⟨0, hn⟩ : Fin cfg6.N)) (ms6_7 (⟨0, hn⟩ : Fin cfg6.N)) (hs6_7 (⟨0, hn⟩ : Fin cfg6.N)) scM6_0 (Memref.isWhole_whole _) scM6_1 (Memref.isWhole_whole _) ((hcond6_0 (⟨0, hn⟩ : Fin cfg6.N)).mpr h0) (fun h => (fun h => by omega) ((hcond6_1 (⟨0, hn⟩ : Fin cfg6.N)).mp h)) (iblk6 V c 0 (⟨0, hn⟩ : Fin cfg6.N)) (iblk6 V c 1 (⟨0, hn⟩ : Fin cfg6.N)) (iblk6 V c 2 (⟨0, hn⟩ : Fin cfg6.N)) (iblk6 V c 3 (⟨0, hn⟩ : Fin cfg6.N)) (iblk6 V c 4 (⟨0, hn⟩ : Fin cfg6.N)))

set_option maxHeartbeats 1000000 in
theorem Q6_zero (c : Dev nD) (hn : 0 < cfg6.N) :
    Q6 V c 0 hn = k6_pay1 (k6_pay8 (iblk6 V c 0 ⟨0, hn⟩) (iblk6 V c 1 ⟨0, hn⟩) (iblk6 V c 2 ⟨0, hn⟩) (iblk6 V c 3 ⟨0, hn⟩) (iblk6 V c 4 ⟨0, hn⟩) (k6_pay5 (F := F))) := by
  show (outsAt6 V c (⟨0, hn⟩ : Fin cfg6.N).val (⟨0, hn⟩ : Fin cfg6.N).isLt).2.2.2.2 = _
  have h0 : (⟨0, hn⟩ : Fin cfg6.N).val = 0 := rfl
  exact (congrArg (fun x => x.2.2.2.2) (outsAt6_A V c (⟨0, hn⟩ : Fin cfg6.N) h0)).trans (sout6_A_1_eq (F := F) c (grid6.coords (⟨0, hn⟩ : Fin cfg6.N)) (ms6_0 (⟨0, hn⟩ : Fin cfg6.N)) (hs6_0 (⟨0, hn⟩ : Fin cfg6.N)) (ms6_1 (⟨0, hn⟩ : Fin cfg6.N)) (hs6_1 (⟨0, hn⟩ : Fin cfg6.N)) (ms6_2 (⟨0, hn⟩ : Fin cfg6.N)) (hs6_2 (⟨0, hn⟩ : Fin cfg6.N)) (ms6_3 (⟨0, hn⟩ : Fin cfg6.N)) (hs6_3 (⟨0, hn⟩ : Fin cfg6.N)) (ms6_4 (⟨0, hn⟩ : Fin cfg6.N)) (hs6_4 (⟨0, hn⟩ : Fin cfg6.N)) (ms6_5 (⟨0, hn⟩ : Fin cfg6.N)) (hs6_5 (⟨0, hn⟩ : Fin cfg6.N)) (ms6_6 (⟨0, hn⟩ : Fin cfg6.N)) (hs6_6 (⟨0, hn⟩ : Fin cfg6.N)) (ms6_7 (⟨0, hn⟩ : Fin cfg6.N)) (hs6_7 (⟨0, hn⟩ : Fin cfg6.N)) scM6_0 (Memref.isWhole_whole _) scM6_1 (Memref.isWhole_whole _) ((hcond6_0 (⟨0, hn⟩ : Fin cfg6.N)).mpr h0) (fun h => (fun h => by omega) ((hcond6_1 (⟨0, hn⟩ : Fin cfg6.N)).mp h)) (iblk6 V c 0 (⟨0, hn⟩ : Fin cfg6.N)) (iblk6 V c 1 (⟨0, hn⟩ : Fin cfg6.N)) (iblk6 V c 2 (⟨0, hn⟩ : Fin cfg6.N)) (iblk6 V c 3 (⟨0, hn⟩ : Fin cfg6.N)) (iblk6 V c 4 (⟨0, hn⟩ : Fin cfg6.N)))

set_option maxHeartbeats 1000000 in
theorem S6_succ (c : Dev nD) (n : ℕ) (hn : n + 1 < cfg6.N) :
    S6 V c (n + 1) hn = k6_pay7 (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (S6 V c n (Nat.lt_of_succ_lt hn)) := by
  show (outsAt6 V c (⟨n + 1, hn⟩ : Fin cfg6.N).val (⟨n + 1, hn⟩ : Fin cfg6.N).isLt).2.2.2.1 = _
  have h0 : ¬(⟨n + 1, hn⟩ : Fin cfg6.N).val = 0 := Nat.succ_ne_zero n
  by_cases h1 : (⟨n + 1, hn⟩ : Fin cfg6.N).val = 9
  · exact (congrArg (fun x => x.2.2.2.1) (outsAt6_C V c (⟨n + 1, hn⟩ : Fin cfg6.N) h0 h1)).trans (sout6_C_0_eq (F := F) c (grid6.coords (⟨n + 1, hn⟩ : Fin cfg6.N)) (ms6_0 (⟨n + 1, hn⟩ : Fin cfg6.N)) (hs6_0 (⟨n + 1, hn⟩ : Fin cfg6.N)) (ms6_1 (⟨n + 1, hn⟩ : Fin cfg6.N)) (hs6_1 (⟨n + 1, hn⟩ : Fin cfg6.N)) (ms6_2 (⟨n + 1, hn⟩ : Fin cfg6.N)) (hs6_2 (⟨n + 1, hn⟩ : Fin cfg6.N)) (ms6_3 (⟨n + 1, hn⟩ : Fin cfg6.N)) (hs6_3 (⟨n + 1, hn⟩ : Fin cfg6.N)) (ms6_4 (⟨n + 1, hn⟩ : Fin cfg6.N)) (hs6_4 (⟨n + 1, hn⟩ : Fin cfg6.N)) (ms6_5 (⟨n + 1, hn⟩ : Fin cfg6.N)) (hs6_5 (⟨n + 1, hn⟩ : Fin cfg6.N)) (ms6_6 (⟨n + 1, hn⟩ : Fin cfg6.N)) (hs6_6 (⟨n + 1, hn⟩ : Fin cfg6.N)) (ms6_7 (⟨n + 1, hn⟩ : Fin cfg6.N)) (hs6_7 (⟨n + 1, hn⟩ : Fin cfg6.N)) scM6_0 (Memref.isWhole_whole _) scM6_1 (Memref.isWhole_whole _) (fun h => h0 ((hcond6_0 (⟨n + 1, hn⟩ : Fin cfg6.N)).mp h)) ((hcond6_1 (⟨n + 1, hn⟩ : Fin cfg6.N)).mpr h1) (iblk6 V c 0 (⟨n + 1, hn⟩ : Fin cfg6.N)) (iblk6 V c 1 (⟨n + 1, hn⟩ : Fin cfg6.N)) (iblk6 V c 2 (⟨n + 1, hn⟩ : Fin cfg6.N)) (iblk6 V c 3 (⟨n + 1, hn⟩ : Fin cfg6.N)) (iblk6 V c 4 (⟨n + 1, hn⟩ : Fin cfg6.N)) (outsAt6 V c ((⟨n + 1, hn⟩ : Fin cfg6.N).val - 1) (Nat.lt_of_le_of_lt (Nat.sub_le _ _) (⟨n + 1, hn⟩ : Fin cfg6.N).isLt)).2.2.2.1 (outsAt6 V c ((⟨n + 1, hn⟩ : Fin cfg6.N).val - 1) (Nat.lt_of_le_of_lt (Nat.sub_le _ _) (⟨n + 1, hn⟩ : Fin cfg6.N).isLt)).2.2.2.2)
  · exact (congrArg (fun x => x.2.2.2.1) (outsAt6_B V c (⟨n + 1, hn⟩ : Fin cfg6.N) h0 h1)).trans (sout6_B_0_eq (F := F) c (grid6.coords (⟨n + 1, hn⟩ : Fin cfg6.N)) (ms6_0 (⟨n + 1, hn⟩ : Fin cfg6.N)) (hs6_0 (⟨n + 1, hn⟩ : Fin cfg6.N)) (ms6_1 (⟨n + 1, hn⟩ : Fin cfg6.N)) (hs6_1 (⟨n + 1, hn⟩ : Fin cfg6.N)) (ms6_2 (⟨n + 1, hn⟩ : Fin cfg6.N)) (hs6_2 (⟨n + 1, hn⟩ : Fin cfg6.N)) (ms6_3 (⟨n + 1, hn⟩ : Fin cfg6.N)) (hs6_3 (⟨n + 1, hn⟩ : Fin cfg6.N)) (ms6_4 (⟨n + 1, hn⟩ : Fin cfg6.N)) (hs6_4 (⟨n + 1, hn⟩ : Fin cfg6.N)) (ms6_5 (⟨n + 1, hn⟩ : Fin cfg6.N)) (hs6_5 (⟨n + 1, hn⟩ : Fin cfg6.N)) (ms6_6 (⟨n + 1, hn⟩ : Fin cfg6.N)) (hs6_6 (⟨n + 1, hn⟩ : Fin cfg6.N)) (ms6_7 (⟨n + 1, hn⟩ : Fin cfg6.N)) (hs6_7 (⟨n + 1, hn⟩ : Fin cfg6.N)) scM6_0 (Memref.isWhole_whole _) scM6_1 (Memref.isWhole_whole _) (fun h => h0 ((hcond6_0 (⟨n + 1, hn⟩ : Fin cfg6.N)).mp h)) (fun h => h1 ((hcond6_1 (⟨n + 1, hn⟩ : Fin cfg6.N)).mp h)) (iblk6 V c 0 (⟨n + 1, hn⟩ : Fin cfg6.N)) (iblk6 V c 1 (⟨n + 1, hn⟩ : Fin cfg6.N)) (iblk6 V c 2 (⟨n + 1, hn⟩ : Fin cfg6.N)) (iblk6 V c 3 (⟨n + 1, hn⟩ : Fin cfg6.N)) (iblk6 V c 4 (⟨n + 1, hn⟩ : Fin cfg6.N)) (outsAt6 V c ((⟨n + 1, hn⟩ : Fin cfg6.N).val - 1) (Nat.lt_of_le_of_lt (Nat.sub_le _ _) (⟨n + 1, hn⟩ : Fin cfg6.N).isLt)).2.2.2.1 (outsAt6 V c ((⟨n + 1, hn⟩ : Fin cfg6.N).val - 1) (Nat.lt_of_le_of_lt (Nat.sub_le _ _) (⟨n + 1, hn⟩ : Fin cfg6.N).isLt)).2.2.2.2)

set_option maxHeartbeats 1000000 in
theorem Q6_succ (c : Dev nD) (n : ℕ) (hn : n + 1 < cfg6.N) :
    Q6 V c (n + 1) hn = k6_pay1 (k6_pay8 (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (Q6 V c n (Nat.lt_of_succ_lt hn))) := by
  show (outsAt6 V c (⟨n + 1, hn⟩ : Fin cfg6.N).val (⟨n + 1, hn⟩ : Fin cfg6.N).isLt).2.2.2.2 = _
  have h0 : ¬(⟨n + 1, hn⟩ : Fin cfg6.N).val = 0 := Nat.succ_ne_zero n
  by_cases h1 : (⟨n + 1, hn⟩ : Fin cfg6.N).val = 9
  · exact (congrArg (fun x => x.2.2.2.2) (outsAt6_C V c (⟨n + 1, hn⟩ : Fin cfg6.N) h0 h1)).trans (sout6_C_1_eq (F := F) c (grid6.coords (⟨n + 1, hn⟩ : Fin cfg6.N)) (ms6_0 (⟨n + 1, hn⟩ : Fin cfg6.N)) (hs6_0 (⟨n + 1, hn⟩ : Fin cfg6.N)) (ms6_1 (⟨n + 1, hn⟩ : Fin cfg6.N)) (hs6_1 (⟨n + 1, hn⟩ : Fin cfg6.N)) (ms6_2 (⟨n + 1, hn⟩ : Fin cfg6.N)) (hs6_2 (⟨n + 1, hn⟩ : Fin cfg6.N)) (ms6_3 (⟨n + 1, hn⟩ : Fin cfg6.N)) (hs6_3 (⟨n + 1, hn⟩ : Fin cfg6.N)) (ms6_4 (⟨n + 1, hn⟩ : Fin cfg6.N)) (hs6_4 (⟨n + 1, hn⟩ : Fin cfg6.N)) (ms6_5 (⟨n + 1, hn⟩ : Fin cfg6.N)) (hs6_5 (⟨n + 1, hn⟩ : Fin cfg6.N)) (ms6_6 (⟨n + 1, hn⟩ : Fin cfg6.N)) (hs6_6 (⟨n + 1, hn⟩ : Fin cfg6.N)) (ms6_7 (⟨n + 1, hn⟩ : Fin cfg6.N)) (hs6_7 (⟨n + 1, hn⟩ : Fin cfg6.N)) scM6_0 (Memref.isWhole_whole _) scM6_1 (Memref.isWhole_whole _) (fun h => h0 ((hcond6_0 (⟨n + 1, hn⟩ : Fin cfg6.N)).mp h)) ((hcond6_1 (⟨n + 1, hn⟩ : Fin cfg6.N)).mpr h1) (iblk6 V c 0 (⟨n + 1, hn⟩ : Fin cfg6.N)) (iblk6 V c 1 (⟨n + 1, hn⟩ : Fin cfg6.N)) (iblk6 V c 2 (⟨n + 1, hn⟩ : Fin cfg6.N)) (iblk6 V c 3 (⟨n + 1, hn⟩ : Fin cfg6.N)) (iblk6 V c 4 (⟨n + 1, hn⟩ : Fin cfg6.N)) (outsAt6 V c ((⟨n + 1, hn⟩ : Fin cfg6.N).val - 1) (Nat.lt_of_le_of_lt (Nat.sub_le _ _) (⟨n + 1, hn⟩ : Fin cfg6.N).isLt)).2.2.2.1 (outsAt6 V c ((⟨n + 1, hn⟩ : Fin cfg6.N).val - 1) (Nat.lt_of_le_of_lt (Nat.sub_le _ _) (⟨n + 1, hn⟩ : Fin cfg6.N).isLt)).2.2.2.2)
  · exact (congrArg (fun x => x.2.2.2.2) (outsAt6_B V c (⟨n + 1, hn⟩ : Fin cfg6.N) h0 h1)).trans (sout6_B_1_eq (F := F) c (grid6.coords (⟨n + 1, hn⟩ : Fin cfg6.N)) (ms6_0 (⟨n + 1, hn⟩ : Fin cfg6.N)) (hs6_0 (⟨n + 1, hn⟩ : Fin cfg6.N)) (ms6_1 (⟨n + 1, hn⟩ : Fin cfg6.N)) (hs6_1 (⟨n + 1, hn⟩ : Fin cfg6.N)) (ms6_2 (⟨n + 1, hn⟩ : Fin cfg6.N)) (hs6_2 (⟨n + 1, hn⟩ : Fin cfg6.N)) (ms6_3 (⟨n + 1, hn⟩ : Fin cfg6.N)) (hs6_3 (⟨n + 1, hn⟩ : Fin cfg6.N)) (ms6_4 (⟨n + 1, hn⟩ : Fin cfg6.N)) (hs6_4 (⟨n + 1, hn⟩ : Fin cfg6.N)) (ms6_5 (⟨n + 1, hn⟩ : Fin cfg6.N)) (hs6_5 (⟨n + 1, hn⟩ : Fin cfg6.N)) (ms6_6 (⟨n + 1, hn⟩ : Fin cfg6.N)) (hs6_6 (⟨n + 1, hn⟩ : Fin cfg6.N)) (ms6_7 (⟨n + 1, hn⟩ : Fin cfg6.N)) (hs6_7 (⟨n + 1, hn⟩ : Fin cfg6.N)) scM6_0 (Memref.isWhole_whole _) scM6_1 (Memref.isWhole_whole _) (fun h => h0 ((hcond6_0 (⟨n + 1, hn⟩ : Fin cfg6.N)).mp h)) (fun h => h1 ((hcond6_1 (⟨n + 1, hn⟩ : Fin cfg6.N)).mp h)) (iblk6 V c 0 (⟨n + 1, hn⟩ : Fin cfg6.N)) (iblk6 V c 1 (⟨n + 1, hn⟩ : Fin cfg6.N)) (iblk6 V c 2 (⟨n + 1, hn⟩ : Fin cfg6.N)) (iblk6 V c 3 (⟨n + 1, hn⟩ : Fin cfg6.N)) (iblk6 V c 4 (⟨n + 1, hn⟩ : Fin cfg6.N)) (outsAt6 V c ((⟨n + 1, hn⟩ : Fin cfg6.N).val - 1) (Nat.lt_of_le_of_lt (Nat.sub_le _ _) (⟨n + 1, hn⟩ : Fin cfg6.N).isLt)).2.2.2.1 (outsAt6 V c ((⟨n + 1, hn⟩ : Fin cfg6.N).val - 1) (Nat.lt_of_le_of_lt (Nat.sub_le _ _) (⟨n + 1, hn⟩ : Fin cfg6.N).isLt)).2.2.2.2)

set_option maxHeartbeats 1000000 in
/-- After the last tile the mean row is formed from the final row of column sums, -/
theorem mean6_last (c : Dev nD) (hn : 8 + 1 < cfg6.N) :
    (outsAt6 V c (8 + 1) hn).2.1 = k6_pay2 (S6 V c (8 + 1) hn) := by
  show (outsAt6 V c (⟨8 + 1, hn⟩ : Fin cfg6.N).val (⟨8 + 1, hn⟩ : Fin cfg6.N).isLt).2.1 = _
  have h0 : ¬(⟨8 + 1, hn⟩ : Fin cfg6.N).val = 0 := Nat.succ_ne_zero 8
  have h1 : (⟨8 + 1, hn⟩ : Fin cfg6.N).val = 9 := rfl
  refine Eq.trans ?_ (congrArg (fun s => k6_pay2 s) (S6_succ V c 8 hn).symm)
  exact (congrArg (fun x => x.2.1) (outsAt6_C V c (⟨8 + 1, hn⟩ : Fin cfg6.N) h0 h1)).trans (out6_C_6_eq (F := F) c (grid6.coords (⟨8 + 1, hn⟩ : Fin cfg6.N)) (ms6_0 (⟨8 + 1, hn⟩ : Fin cfg6.N)) (hs6_0 (⟨8 + 1, hn⟩ : Fin cfg6.N)) (ms6_1 (⟨8 + 1, hn⟩ : Fin cfg6.N)) (hs6_1 (⟨8 + 1, hn⟩ : Fin cfg6.N)) (ms6_2 (⟨8 + 1, hn⟩ : Fin cfg6.N)) (hs6_2 (⟨8 + 1, hn⟩ : Fin cfg6.N)) (ms6_3 (⟨8 + 1, hn⟩ : Fin cfg6.N)) (hs6_3 (⟨8 + 1, hn⟩ : Fin cfg6.N)) (ms6_4 (⟨8 + 1, hn⟩ : Fin cfg6.N)) (hs6_4 (⟨8 + 1, hn⟩ : Fin cfg6.N)) (ms6_5 (⟨8 + 1, hn⟩ : Fin cfg6.N)) (hs6_5 (⟨8 + 1, hn⟩ : Fin cfg6.N)) (ms6_6 (⟨8 + 1, hn⟩ : Fin cfg6.N)) (hs6_6 (⟨8 + 1, hn⟩ : Fin cfg6.N)) (ms6_7 (⟨8 + 1, hn⟩ : Fin cfg6.N)) (hs6_7 (⟨8 + 1, hn⟩ : Fin cfg6.N)) scM6_0 (Memref.isWhole_whole _) scM6_1 (Memref.isWhole_whole _) (fun h => h0 ((hcond6_0 (⟨8 + 1, hn⟩ : Fin cfg6.N)).mp h)) ((hcond6_1 (⟨8 + 1, hn⟩ : Fin cfg6.N)).mpr h1) (iblk6 V c 0 (⟨8 + 1, hn⟩ : Fin cfg6.N)) (iblk6 V c 1 (⟨8 + 1, hn⟩ : Fin cfg6.N)) (iblk6 V c 2 (⟨8 + 1, hn⟩ : Fin cfg6.N)) (iblk6 V c 3 (⟨8 + 1, hn⟩ : Fin cfg6.N)) (iblk6 V c 4 (⟨8 + 1, hn⟩ : Fin cfg6.N)) (outsAt6 V c ((⟨8 + 1, hn⟩ : Fin cfg6.N).val - 1) (Nat.lt_of_le_of_lt (Nat.sub_le _ _) (⟨8 + 1, hn⟩ : Fin cfg6.N).isLt)).2.2.2.1 (outsAt6 V c ((⟨8 + 1, hn⟩ : Fin cfg6.N).val - 1) (Nat.lt_of_le_of_lt (Nat.sub_le _ _) (⟨8 + 1, hn⟩ : Fin cfg6.N).isLt)).2.2.2.2)

set_option maxHeartbeats 1000000 in
/-- and the variance row from both final rows. -/
theorem var6_last (c : Dev nD) (hn : 8 + 1 < cfg6.N) :
    (outsAt6 V c (8 + 1) hn).2.2.1 = k6_pay3 (S6 V c (8 + 1) hn) (Q6 V c (8 + 1) hn) := by
  show (outsAt6 V c (⟨8 + 1, hn⟩ : Fin cfg6.N).val (⟨8 + 1, hn⟩ : Fin cfg6.N).isLt).2.2.1 = _
  have h0 : ¬(⟨8 + 1, hn⟩ : Fin cfg6.N).val = 0 := Nat.succ_ne_zero 8
  have h1 : (⟨8 + 1, hn⟩ : Fin cfg6.N).val = 9 := rfl
  refine Eq.trans ?_ (congrArg₂ (fun s q => k6_pay3 s q) (S6_succ V c 8 hn).symm (Q6_succ V c 8 hn).symm)
  exact (congrArg (fun x => x.2.2.1) (outsAt6_C V c (⟨8 + 1, hn⟩ : Fin cfg6.N) h0 h1)).trans (out6_C_7_eq (F := F) c (grid6.coords (⟨8 + 1, hn⟩ : Fin cfg6.N)) (ms6_0 (⟨8 + 1, hn⟩ : Fin cfg6.N)) (hs6_0 (⟨8 + 1, hn⟩ : Fin cfg6.N)) (ms6_1 (⟨8 + 1, hn⟩ : Fin cfg6.N)) (hs6_1 (⟨8 + 1, hn⟩ : Fin cfg6.N)) (ms6_2 (⟨8 + 1, hn⟩ : Fin cfg6.N)) (hs6_2 (⟨8 + 1, hn⟩ : Fin cfg6.N)) (ms6_3 (⟨8 + 1, hn⟩ : Fin cfg6.N)) (hs6_3 (⟨8 + 1, hn⟩ : Fin cfg6.N)) (ms6_4 (⟨8 + 1, hn⟩ : Fin cfg6.N)) (hs6_4 (⟨8 + 1, hn⟩ : Fin cfg6.N)) (ms6_5 (⟨8 + 1, hn⟩ : Fin cfg6.N)) (hs6_5 (⟨8 + 1, hn⟩ : Fin cfg6.N)) (ms6_6 (⟨8 + 1, hn⟩ : Fin cfg6.N)) (hs6_6 (⟨8 + 1, hn⟩ : Fin cfg6.N)) (ms6_7 (⟨8 + 1, hn⟩ : Fin cfg6.N)) (hs6_7 (⟨8 + 1, hn⟩ : Fin cfg6.N)) scM6_0 (Memref.isWhole_whole _) scM6_1 (Memref.isWhole_whole _) (fun h => h0 ((hcond6_0 (⟨8 + 1, hn⟩ : Fin cfg6.N)).mp h)) ((hcond6_1 (⟨8 + 1, hn⟩ : Fin cfg6.N)).mpr h1) (iblk6 V c 0 (⟨8 + 1, hn⟩ : Fin cfg6.N)) (iblk6 V c 1 (⟨8 + 1, hn⟩ : Fin cfg6.N)) (iblk6 V c 2 (⟨8 + 1, hn⟩ : Fin cfg6.N)) (iblk6 V c 3 (⟨8 + 1, hn⟩ : Fin cfg6.N)) (iblk6 V c 4 (⟨8 + 1, hn⟩ : Fin cfg6.N)) (outsAt6 V c ((⟨8 + 1, hn⟩ : Fin cfg6.N).val - 1) (Nat.lt_of_le_of_lt (Nat.sub_le _ _) (⟨8 + 1, hn⟩ : Fin cfg6.N).isLt)).2.2.2.1 (outsAt6 V c ((⟨8 + 1, hn⟩ : Fin cfg6.N).val - 1) (Nat.lt_of_le_of_lt (Nat.sub_le _ _) (⟨8 + 1, hn⟩ : Fin cfg6.N).isLt)).2.2.2.2)

end Cert.KernelIdeal.Hand

end
-- ==== Proof.KI.StatsPay6.lean ====
import proofs.«167925_j62517543961156_1_alg».proof.Proof.KI.StatsPayLib

noncomputable section

namespace Cert.KernelIdeal.Hand

open Idealize.ShloMosaic Idealize.ShloMosaic.ValueIdx Cert.KernelIdeal Cert.KernelIdeal.Gen Cert.Spec
open scoped BigOperators

/-! A later statistics kernel's values at an index: the block's pre-activation (two block products and a bias
row), its running column sums and sums of squares, the zeros they start from, and the mean and variance read off the
totals. -/

theorem pay6_pre (x0 : Vec Ideal S5000x64 .f32) (x1 : Vec Ideal S64x64 .f32) (x2 : Vec Ideal S1x64 .f32)
    (x3 : Vec Ideal S5000x64 .f32) (x4 : Vec Ideal S64x64 .f32) (p : Fin 5000) (q : Fin 64) :
    k6_pay6 x0 x1 x2 x3 x4 (ix2 p q)
      = (∑ t : Fin 64, x0 (ix2 p t) * x1 (ix2 t q)) + x2 (ix2 (0 : Fin 1) q) + ∑ t : Fin 64, x3 (ix2 p t) * x4 (ix2 t q) := by
  show addf (addf (matmul dot_S5000x64_S64x64_S5000x64_1_0_0_1_n_n none (shapeCast S5000x64 x0 shapeCasts_S5000x64_S5000x64)
        (shapeCast S64x64 x1 shapeCasts_S64x64_S64x64) (constant (F := Ideal) S5000x64 .f32 0x00000000#32))
      (broadcastTo S5000x64 (shapeCast S1x64 x2 shapeCasts_S1x64_S1x64) broadcasts_S1x64_S5000x64))
    (matmul dot_S5000x64_S64x64_S5000x64_1_0_0_1_n_n none (shapeCast S5000x64 x3 shapeCasts_S5000x64_S5000x64)
        (shapeCast S64x64 x4 shapeCasts_S64x64_S64x64) (constant (F := Ideal) S5000x64 .f32 0x00000000#32)) (ix2 p q) = _
  rw [addf_apply, addf_apply, shapeCast_self, shapeCast_self, shapeCast_self, shapeCast_self, shapeCast_self,
    mm_zero_apply _ dot64_plain, mm_zero_apply _ dot64_plain, bcRow5000]

theorem pay6_sum (x0 : Vec Ideal S5000x64 .f32) (x1 : Vec Ideal S64x64 .f32) (x2 : Vec Ideal S1x64 .f32)
    (x3 : Vec Ideal S5000x64 .f32) (x4 : Vec Ideal S64x64 .f32) (s : Vec Ideal S1x64 .f32) (q : Fin 64) :
    k6_pay7 x0 x1 x2 x3 x4 s (ix2 (0 : Fin 1) q) = s (ix2 (0 : Fin 1) q) + ∑ p : Fin 5000, k6_pay6 x0 x1 x2 x3 x4 (ix2 p q) := by
  show shapeCast S1x64 (addf s (shapeCast S1x64 (multiReduction .add [0] S64 (k6_pay6 x0 x1 x2 x3 x4) 0x00000000#32 reduces_S5000x64_S64 (.inl rfl) rfl)
    shapeCasts_S64_S1x64)) shapeCasts_S1x64_S1x64 (ix2 (0 : Fin 1) q) = _
  rw [shapeCast_self, addf_apply, row64_apply]
  exact congrArg (s (ix2 (0 : Fin 1) q) + ·) (colSum5000 (k6_pay6 x0 x1 x2 x3 x4) _ _ q)

theorem pay6_sumsq (x0 : Vec Ideal S5000x64 .f32) (x1 : Vec Ideal S64x64 .f32) (x2 : Vec Ideal S1x64 .f32)
    (x3 : Vec Ideal S5000x64 .f32) (x4 : Vec Ideal S64x64 .f32) (s : Vec Ideal S1x64 .f32) (q : Fin 64) :
    k6_pay8 x0 x1 x2 x3 x4 s (ix2 (0 : Fin 1) q)
      = s (ix2 (0 : Fin 1) q) + ∑ p : Fin 5000, k6_pay6 x0 x1 x2 x3 x4 (ix2 p q) * k6_pay6 x0 x1 x2 x3 x4 (ix2 p q) := by
  show addf s (shapeCast S1x64 (multiReduction .add [0] S64 (mulf (k6_pay6 x0 x1 x2 x3 x4) (k6_pay6 x0 x1 x2 x3 x4)) 0x00000000#32
    reduces_S5000x64_S64 (.inl rfl) rfl) shapeCasts_S64_S1x64) (ix2 (0 : Fin 1) q) = _
  rw [addf_apply, row64_apply]
  exact congrArg (s (ix2 (0 : Fin 1) q) + ·) (colSum5000 (mulf (k6_pay6 x0 x1 x2 x3 x4) (k6_pay6 x0 x1 x2 x3 x4)) _ _ q)

/-- The total of the squares is stored as it stands. -/
theorem pay6_keep (v : FVec Ideal S1x64 .f32) : k6_pay1 v = v := shapeCast_self v _

theorem pay6_zero1 (q : Fin 64) : k6_pay4 (F := Ideal) (ix2 (0 : Fin 1) q) = 0 := by
  show shapeCast S1x64 (broadcast S1x64 (Scalar.ofBits .f32 0x00000000#32 : Ideal .f32)) shapeCasts_S1x64_S1x64 (ix2 (0 : Fin 1) q) = 0
  rw [shapeCast_self, broadcast_apply, zeroW]

theorem pay6_zero2 (q : Fin 64) : k6_pay5 (F := Ideal) (ix2 (0 : Fin 1) q) = 0 := by
  show shapeCast S1x64 (broadcast S1x64 (Scalar.ofBits .f32 0x00000000#32 : Ideal .f32)) shapeCasts_S1x64_S1x64 (ix2 (0 : Fin 1) q) = 0
  rw [shapeCast_self, broadcast_apply, zeroW]

theorem pay6_mean (s : Vec Ideal S1x64 .f32) (q : Fin 64) :
    k6_pay2 s (ix2 (0 : Fin 1) q) = Ideal.div (s (ix2 (0 : Fin 1) q)) cntW := rfl

theorem pay6_var (s s2 : Vec Ideal S1x64 .f32) (q : Fin 64) :
    k6_pay3 s s2 (ix2 (0 : Fin 1) q)
      = Ideal.div (s2 (ix2 (0 : Fin 1) q)) cntW - Ideal.div (s (ix2 (0 : Fin 1) q)) cntW * Ideal.div (s (ix2 (0 : Fin 1) q)) cntW := rfl

end Cert.KernelIdeal.Hand

end
-- ==== Proof.KI.StatsPre6.lean ====
import proofs.«167925_j62517543961156_1_alg».proof.Proof.KI.Stats6Closed
import proofs.«167925_j62517543961156_1_alg».proof.Proof.KI.StatsPay6
import proofs.«167925_j62517543961156_1_alg».proof.Proof.Spec
import Idealize.ShloMosaic.Lib.Pipeline.Value
import Idealize.ShloMosaic.Lib.ValueIdx

/-!
# Region 6 on the extended reals: the pre-activation array it leaves, in closed form

The pre-activation tile a grid point stores is, entry by entry, the product of its tile of the previous layer's output with the left weight matrix, plus the bias row, plus the product of its tile of aggregated features with the right weight matrix.
Point `t` reads and writes rows `5000·t … 5000·t + 4999`; the weight and bias windows are their whole arrays at every
point.  So the ten tiles are the restrictions of ONE function of the whole arrays, and they cover the output array.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
open scoped BigOperators

variable (V : (c : Dev nD) → (b : Ref sig .tc) → Buf (Elt Ideal) ((c : Thread nD τ).loc b))

/-- Where the windows' blocks sit: the tiles at rows `5000·t`, everything else at the origin. -/
theorem stats6pre_idx : ∀ t : Fin cfg6.N,
    win6_5.index t (0 : Fin 2) = t.val
    ∧ win6_5.index t (1 : Fin 2) = 0
    ∧ win6_0.index t (0 : Fin 2) = t.val
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = t.val
    ∧ win6_3.index t (1 : Fin 2) = 0
    ∧ win6_4.index t (0 : Fin 2) = 0
    ∧ win6_4.index t (1 : Fin 2) = 0 :=
  (by decide +kernel : ∀ t : Fin grid6.N, _)

/-- Row `p` of point `t`'s tile is row `5000·t + p` of the array. -/
def stats6pre_rowOf (t : Fin cfg6.N) (p : Fin 5000) : Fin 50000 :=
  ⟨t.val * 5000 + p.val, by
    have h : t.val < 10 := (show t.val < grid6.N from t.isLt).trans_eq N_6
    have := p.isLt; omega⟩

/-- Row `p`, column `k` of point `t`'s block of window 0 is row `5000·t + p`, column `k` of its array. -/
theorem stats6pre_blk0 (c : Dev nD) (t : Fin cfg6.N) (p : Fin 5000) (k : Fin 64) :
    iblk6 V c 0 t (ix2 p k) = V c (Pipeline.arrRef spec6 0) (ix2 (stats6pre_rowOf t p) k) := by
  obtain ⟨eo0, eo1, e00, e01, e10, e11, e20, e21, e30, e31, e40, e41⟩ := stats6pre_idx t
  show V c (Pipeline.arrRef spec6 0) (((cfg6.win 0).blk t).view.emb (ix2 p k)) = _
  refine congrArg (V c (Pipeline.arrRef spec6 0)) ?_
  funext a; apply Fin.ext
  match a with
  | ⟨0, _⟩ => show win6_0.index t (0 : Fin 2) * 5000 + 1 * p.val = t.val * 5000 + p.val; omega
  | ⟨1, _⟩ => show win6_0.index t (1 : Fin 2) * 64 + 1 * k.val = k.val; omega

/-- The block of window 1 is its whole array at every point. -/
theorem stats6pre_blk1 (c : Dev nD) (t : Fin cfg6.N) (k : Fin 64) (q : Fin 64) :
    iblk6 V c 1 t (ix2 k q) = V c (Pipeline.arrRef spec6 1) (ix2 k q) := by
  obtain ⟨eo0, eo1, e00, e01, e10, e11, e20, e21, e30, e31, e40, e41⟩ := stats6pre_idx t
  show V c (Pipeline.arrRef spec6 1) (((cfg6.win 1).blk t).view.emb (ix2 k q)) = _
  refine congrArg (V c (Pipeline.arrRef spec6 1)) ?_
  funext a; apply Fin.ext
  match a with
  | ⟨0, _⟩ => show win6_1.index t (0 : Fin 2) * 64 + 1 * k.val = k.val; omega
  | ⟨1, _⟩ => show win6_1.index t (1 : Fin 2) * 64 + 1 * q.val = q.val; omega

/-- The block of window 2 is its whole one-row array at every point. -/
theorem stats6pre_blk2 (c : Dev nD) (t : Fin cfg6.N) (q : Fin 64) :
    iblk6 V c 2 t (ix2 (0 : Fin 1) q) = V c (Pipeline.arrRef spec6 2) (ix2 (0 : Fin 1) q) := by
  obtain ⟨eo0, eo1, e00, e01, e10, e11, e20, e21, e30, e31, e40, e41⟩ := stats6pre_idx t
  show V c (Pipeline.arrRef spec6 2) (((cfg6.win 2).blk t).view.emb (ix2 (0 : Fin 1) q)) = _
  refine congrArg (V c (Pipeline.arrRef spec6 2)) ?_
  funext a; apply Fin.ext
  match a with
  | ⟨0, _⟩ => show win6_2.index t (0 : Fin 2) * 1 + 1 * 0 = 0; omega
  | ⟨1, _⟩ => show win6_2.index t (1 : Fin 2) * 64 + 1 * q.val = q.val; omega

/-- Row `p`, column `k` of point `t`'s block of window 3 is row `5000·t + p`, column `k` of its array. -/
theorem stats6pre_blk3 (c : Dev nD) (t : Fin cfg6.N) (p : Fin 5000) (k : Fin 64) :
    iblk6 V c 3 t (ix2 p k) = V c (Pipeline.arrRef spec6 3) (ix2 (stats6pre_rowOf t p) k) := by
  obtain ⟨eo0, eo1, e00, e01, e10, e11, e20, e21, e30, e31, e40, e41⟩ := stats6pre_idx t
  show V c (Pipeline.arrRef spec6 3) (((cfg6.win 3).blk t).view.emb (ix2 p k)) = _
  refine congrArg (V c (Pipeline.arrRef spec6 3)) ?_
  funext a; apply Fin.ext
  match a with
  | ⟨0, _⟩ => show win6_3.index t (0 : Fin 2) * 5000 + 1 * p.val = t.val * 5000 + p.val; omega
  | ⟨1, _⟩ => show win6_3.index t (1 : Fin 2) * 64 + 1 * k.val = k.val; omega

/-- The block of window 4 is its whole array at every point. -/
theorem stats6pre_blk4 (c : Dev nD) (t : Fin cfg6.N) (k : Fin 64) (q : Fin 64) :
    iblk6 V c 4 t (ix2 k q) = V c (Pipeline.arrRef spec6 4) (ix2 k q) := by
  obtain ⟨eo0, eo1, e00, e01, e10, e11, e20, e21, e30, e31, e40, e41⟩ := stats6pre_idx t
  show V c (Pipeline.arrRef spec6 4) (((cfg6.win 4).blk t).view.emb (ix2 k q)) = _
  refine congrArg (V c (Pipeline.arrRef spec6 4)) ?_
  funext a; apply Fin.ext
  match a with
  | ⟨0, _⟩ => show win6_4.index t (0 : Fin 2) * 64 + 1 * k.val = k.val; omega
  | ⟨1, _⟩ => show win6_4.index t (1 : Fin 2) * 64 + 1 * q.val = q.val; omega

/-- Where row `p`, column `q` of point `t`'s output tile goes. -/
theorem stats6pre_emb_out (t : Fin cfg6.N) (p : Fin 5000) (q : Fin 64) :
    ((cfg6.win 5).blk t).view.emb (ix2 p q) = ix2 (stats6pre_rowOf t p) q := by
  obtain ⟨eo0, eo1, e00, e01, e10, e11, e20, e21, e30, e31, e40, e41⟩ := stats6pre_idx t
  funext a; apply Fin.ext
  match a with
  | ⟨0, _⟩ => show win6_5.index t (0 : Fin 2) * 5000 + 1 * p.val = t.val * 5000 + p.val; omega
  | ⟨1, _⟩ => show win6_5.index t (1 : Fin 2) * 64 + 1 * q.val = q.val; omega

set_option maxHeartbeats 1000000 in
/-- What point `t` writes back is block `t` of the closed form of the whole arrays. -/
theorem stats6pre_flushed (c : Dev nD) (t : Fin cfg6.N) :
    (dat6 (F := Ideal) V c).flushed 5 t
      = ((cfg6.win 5).blk t).view.read (Elt Ideal) (Cert.Spec.preLG (V c (Pipeline.arrRef spec6 0)) (V c (Pipeline.arrRef spec6 1)) (V c (Pipeline.arrRef spec6 2)) (V c (Pipeline.arrRef spec6 3)) (V c (Pipeline.arrRef spec6 4))) := by
  generalize hG : Cert.Spec.preLG (V c (Pipeline.arrRef spec6 0)) (V c (Pipeline.arrRef spec6 1)) (V c (Pipeline.arrRef spec6 2)) (V c (Pipeline.arrRef spec6 3)) (V c (Pipeline.arrRef spec6 4)) = Gf
  show (cfg6.win 5).cut (grid6.coords t) ((dat6 (F := Ideal) V c).after 5 t) = _
  rw [after6_5, pre6_eq V c t]
  funext j
  obtain ⟨p, q, rfl⟩ : ∃ (p : Fin 5000) (q : Fin 64), j = ix2 p q := ⟨j 0, j 1, eq_ix2 j⟩
  refine (pay6_pre (iblk6 V c 0 t) (iblk6 V c 1 t) (iblk6 V c 2 t) (iblk6 V c 3 t) (iblk6 V c 4 t) p q).trans ?_
  simp only [stats6pre_blk0 V c t p, stats6pre_blk1 V c t, stats6pre_blk2 V c t q, stats6pre_blk3 V c t p, stats6pre_blk4 V c t]
  show _ = Gf (((cfg6.win 5).blk t).view.emb (ix2 p q))
  rw [stats6pre_emb_out t p q, ← hG]
  exact (Cert.Spec.preLG_apply _ _ _ _ _ (stats6pre_rowOf t p) q).symm

/-- An index of the output array lies in point `t`'s block iff each coordinate lies in the block's range. -/
theorem stats6pre_mem_blk (t : Fin cfg6.N) (i : S50000x64.Idx) :
    i ∈ ((cfg6.win 5).blk t).view.set ↔ ∀ a : Fin 2, win6_5.index t a * S5000x64.size a ≤ (i a).val ∧ (i a).val < win6_5.index t a * S5000x64.size a + S5000x64.size a := by
  show i ∈ ((View.whole main_v95_0).slice (win6_5.rect t)).set ↔ _
  rw [View.set_slice_whole, Rect.mem_set_unit]
  exact Iff.rfl

/-- Row `r` of the output array is written by point `r / 5000`. -/
theorem stats6pre_cover (i : S50000x64.Idx) :
    ∃ t : Fin cfg6.N, (cfg6.win 5).flush t = true ∧ i ∈ ((cfg6.win 5).blk t).view.set := by
  have hi0 : (i 0).val < 50000 := (i 0).isLt
  have hi1 : (i 1).val < 64 := (i 1).isLt
  obtain ⟨t, ht⟩ : ∃ t : Fin cfg6.N, t.val = (i 0).val / 5000 :=
    ⟨⟨(i 0).val / 5000, by rw [show cfg6.N = 10 from N_6]; omega⟩, rfl⟩
  obtain ⟨eo0, eo1, e00, e01, e10, e11, e20, e21, e30, e31, e40, e41⟩ := stats6pre_idx t
  refine ⟨t, flush6_5 t, ?_⟩
  rw [stats6pre_mem_blk]
  intro a
  match a with
  | ⟨0, _⟩ => show win6_5.index t (0 : Fin 2) * 5000 ≤ (i 0).val ∧ (i 0).val < win6_5.index t (0 : Fin 2) * 5000 + 5000; omega
  | ⟨1, _⟩ => show win6_5.index t (1 : Fin 2) * 64 ≤ (i 1).val ∧ (i 1).val < win6_5.index t (1 : Fin 2) * 64 + 64; omega

/-- The pre-activation array after the region: the closed form of the arrays found on entry. -/
theorem final_stats6_pre (c : Dev nD) :
    (dat6 (F := Ideal) V c).arrAt 5 cfg6.N
      = Cert.Spec.preLG (V c (Pipeline.arrRef spec6 0)) (V c (Pipeline.arrRef spec6 1)) (V c (Pipeline.arrRef spec6 2)) (V c (Pipeline.arrRef spec6 3)) (V c (Pipeline.arrRef spec6 4)) :=
  (dat6 (F := Ideal) V c).arrAt_eq_of_cover 5 (Cert.Spec.preLG (V c (Pipeline.arrRef spec6 0)) (V c (Pipeline.arrRef spec6 1)) (V c (Pipeline.arrRef spec6 2)) (V c (Pipeline.arrRef spec6 3)) (V c (Pipeline.arrRef spec6 4)))
    (fun t _ => stats6pre_flushed V c t) (stats6pre_cover)

end Cert.KernelIdeal.Hand
-- ==== Proof.KI.Stats0Last.lean ====
import proofs.«167925_j62517543961156_1_alg».proof.Proof.KI.Stats0Closed

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Statistics kernel of region 0: the mean and variance rows after the last node tile

    Stated at any point `n + 1` that is the last one of the ten. -/

set_option maxHeartbeats 1000000 in
/-- After the last tile the mean row is formed from the final row of column sums, -/
theorem mean0_last (c : Dev nD) (n : ℕ) (hn : n + 1 < cfg0.N) (h9 : n + 1 = 9) :
    (outsAt0 V c (n + 1) hn).2.1 = k0_pay6 (S0 V c (n + 1) hn) := by
  have h0 : ¬(⟨n + 1, hn⟩ : Fin cfg0.N).val = 0 := Nat.succ_ne_zero n
  have h1 : (⟨n + 1, hn⟩ : Fin cfg0.N).val = 9 := h9
  have x := out0_C_4_eq (F := F) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) scM0_0 (Memref.isWhole_whole _) scM0_1 (Memref.isWhole_whole _) (fun h => h0 ((hcond0_0 (⟨n + 1, hn⟩ : Fin cfg0.N)).mp h)) ((hcond0_1 (⟨n + 1, hn⟩ : Fin cfg0.N)).mpr h1) (iblk0 V c 0 (⟨n + 1, hn⟩ : Fin cfg0.N)) (iblk0 V c 1 (⟨n + 1, hn⟩ : Fin cfg0.N)) (iblk0 V c 2 (⟨n + 1, hn⟩ : Fin cfg0.N)) (outsAt0 V c ((⟨n + 1, hn⟩ : Fin cfg0.N).val - 1) (Nat.lt_of_le_of_lt (Nat.sub_le _ _) (⟨n + 1, hn⟩ : Fin cfg0.N).isLt)).2.2.2.1 (outsAt0 V c ((⟨n + 1, hn⟩ : Fin cfg0.N).val - 1) (Nat.lt_of_le_of_lt (Nat.sub_le _ _) (⟨n + 1, hn⟩ : Fin cfg0.N).isLt)).2.2.2.2
  refine Eq.trans ?_ (congrArg (fun s => k0_pay6 s) (S0_succ V c n hn).symm)
  show (outsAt0 V c (⟨n + 1, hn⟩ : Fin cfg0.N).val (⟨n + 1, hn⟩ : Fin cfg0.N).isLt).2.1 = _
  rw [outsAt0_C V c (⟨n + 1, hn⟩ : Fin cfg0.N) h0 h1]; dsimp only; exact x

set_option maxHeartbeats 1000000 in
/-- and the variance row from both final rows. -/
theorem var0_last (c : Dev nD) (n : ℕ) (hn : n + 1 < cfg0.N) (h9 : n + 1 = 9) :
    (outsAt0 V c (n + 1) hn).2.2.1 = k0_pay7 (S0 V c (n + 1) hn) (Q0 V c (n + 1) hn) := by
  have h0 : ¬(⟨n + 1, hn⟩ : Fin cfg0.N).val = 0 := Nat.succ_ne_zero n
  have h1 : (⟨n + 1, hn⟩ : Fin cfg0.N).val = 9 := h9
  have x := out0_C_5_eq (F := F) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) scM0_0 (Memref.isWhole_whole _) scM0_1 (Memref.isWhole_whole _) (fun h => h0 ((hcond0_0 (⟨n + 1, hn⟩ : Fin cfg0.N)).mp h)) ((hcond0_1 (⟨n + 1, hn⟩ : Fin cfg0.N)).mpr h1) (iblk0 V c 0 (⟨n + 1, hn⟩ : Fin cfg0.N)) (iblk0 V c 1 (⟨n + 1, hn⟩ : Fin cfg0.N)) (iblk0 V c 2 (⟨n + 1, hn⟩ : Fin cfg0.N)) (outsAt0 V c ((⟨n + 1, hn⟩ : Fin cfg0.N).val - 1) (Nat.lt_of_le_of_lt (Nat.sub_le _ _) (⟨n + 1, hn⟩ : Fin cfg0.N).isLt)).2.2.2.1 (outsAt0 V c ((⟨n + 1, hn⟩ : Fin cfg0.N).val - 1) (Nat.lt_of_le_of_lt (Nat.sub_le _ _) (⟨n + 1, hn⟩ : Fin cfg0.N).isLt)).2.2.2.2
  refine Eq.trans ?_ (congrArg₂ (fun s q => k0_pay7 s q) (S0_succ V c n hn).symm (Q0_succ V c n hn).symm)
  show (outsAt0 V c (⟨n + 1, hn⟩ : Fin cfg0.N).val (⟨n + 1, hn⟩ : Fin cfg0.N).isLt).2.2.1 = _
  rw [outsAt0_C V c (⟨n + 1, hn⟩ : Fin cfg0.N) h0 h1]; dsimp only; exact x

end Cert.KernelIdeal.Hand

end
-- ==== Proof.LibBatchStats.lean ====
/-
  Batch statistics on the extended reals.

  * The coercion of a finite sum of real numbers into the extended reals is the sum of the coercions.
  * The population variance of finitely many REAL numbers, computed as the mean of the squared deviations from
    the mean, equals the mean of the squares minus the squared mean; stated over the reals and, with the mean taken
    as a product with the reciprocal of the count, over the extended reals at real (finite) entries.  Over the
    extended reals the identity needs the entries finite: with an infinite entry the deviation is a difference
    of infinities.
  * A sum over a range of `a * b` indices is the sum, block by block, of the `a` consecutive blocks of `b` indices
    (a column sum accumulated one row block at a time against the sum over all rows); it holds in every
    commutative additive monoid, the extended reals included, with no finiteness hypothesis.
-/
import Mathlib.Data.EReal.Inv
import Mathlib.Algebra.BigOperators.Fin
import Mathlib.Tactic

namespace Cert.Lib.BatchStats

open Finset

/-- The coercion `ℝ → EReal` commutes with finite sums. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- Mean of squared deviations = mean of squares − squared mean, over the reals; `n` is the number of entries. -/
theorem var_real {ι : Type*} [Fintype ι] (z : ι → ℝ) (n : ℝ) (hn : n ≠ 0)
    (hcard : (Fintype.card ι : ℝ) = n) :
    (∑ i, (z i - (∑ j, z j) / n) * (z i - (∑ j, z j) / n)) / n
      = (∑ i, z i * z i) / n - ((∑ j, z j) / n) * ((∑ j, z j) / n) := by
  have h1 : ∑ i, (z i - (∑ j, z j) / n) * (z i - (∑ j, z j) / n)
      = (∑ i, z i * z i) - 2 * ((∑ j, z j) / n) * (∑ j, z j) + n * (((∑ j, z j) / n) * ((∑ j, z j) / n)) := by
    have h2 : ∀ i, (z i - (∑ j, z j) / n) * (z i - (∑ j, z j) / n)
        = z i * z i - 2 * ((∑ j, z j) / n) * z i + ((∑ j, z j) / n) * ((∑ j, z j) / n) := fun i => by ring
    simp only [h2, Finset.sum_add_distrib, Finset.sum_sub_distrib, ← Finset.mul_sum, Finset.sum_const,
      Finset.card_univ, nsmul_eq_mul, hcard]
    ring
  rw [h1]
  field_simp
  ring

/-- The same identity over the extended reals at real entries, the divisions by the count `n` written as
    products with the real `1 / n` (what a quotient by a nonzero real constant is on the extended reals). -/
theorem var_ereal {ι : Type*} [Fintype ι] (x : ι → ℝ) (n : ℝ) (hn : n ≠ 0)
    (hcard : (Fintype.card ι : ℝ) = n) :
    (∑ i, ((x i : EReal) - (∑ j, (x j : EReal)) * ((1 / n : ℝ) : EReal))
          * ((x i : EReal) - (∑ j, (x j : EReal)) * ((1 / n : ℝ) : EReal))) * ((1 / n : ℝ) : EReal)
      = (∑ i, (x i : EReal) * (x i : EReal)) * ((1 / n : ℝ) : EReal)
        - ((∑ j, (x j : EReal)) * ((1 / n : ℝ) : EReal)) * ((∑ j, (x j : EReal)) * ((1 / n : ℝ) : EReal)) := by
  have hr := var_real x n hn hcard
  simp only [div_eq_mul_inv] at hr
  simp only [one_div]
  have e1 : (∑ j, (x j : EReal)) * ((n⁻¹ : ℝ) : EReal) = (((∑ j, x j) * n⁻¹ : ℝ) : EReal) := by
    rw [← coe_sum, ← EReal.coe_mul]
  rw [e1]
  have e2 : ∀ i, ((x i : EReal) - (((∑ j, x j) * n⁻¹ : ℝ) : EReal)) * ((x i : EReal) - (((∑ j, x j) * n⁻¹ : ℝ) : EReal))
      = (((x i - (∑ j, x j) * n⁻¹) * (x i - (∑ j, x j) * n⁻¹) : ℝ) : EReal) := fun i => by
    rw [← EReal.coe_sub, ← EReal.coe_mul]
  have e3 : ∀ i, (x i : EReal) * (x i : EReal) = ((x i * x i : ℝ) : EReal) := fun i => (EReal.coe_mul _ _).symm
  rw [Finset.sum_congr rfl (fun i _ => e2 i), Finset.sum_congr rfl (fun i _ => e3 i), ← coe_sum, ← coe_sum,
    ← EReal.coe_mul, ← EReal.coe_mul, ← EReal.coe_mul, ← EReal.coe_sub]
  exact congrArg _ hr

/-- A sum over `a * b` consecutive indices, block by block: block `t` holds the indices `r + b * t`, `r < b`. -/
theorem sum_blocks {M : Type*} [AddCommMonoid M] (a b : ℕ) (f : Fin (a * b) → M) :
    ∑ i, f i = ∑ t : Fin a, ∑ r : Fin b, f (finProdFinEquiv (t, r)) := by
  rw [← Fintype.sum_prod_type' (f := fun (t : Fin a) (r : Fin b) => f (finProdFinEquiv (t, r)))]
  exact (Fintype.sum_equiv finProdFinEquiv _ _ (fun _ => rfl)).symm

/-- The index of row `r` of block `t`. -/
theorem block_index_val (a b : ℕ) (t : Fin a) (r : Fin b) :
    (finProdFinEquiv (t, r) : Fin (a * b)).val = r.val + b * t.val := rfl

end Cert.Lib.BatchStats
-- ==== Proof.LibBatchNorm.lean ====
/-
  Batch normalisation on the extended reals, at real entries.

  One feature column of a batch normalisation takes the entries `z i` of the column over the batch, a count `n`
  (the number of entries, as a real), a positive `ε`, and the affine pair `g`, `b`:

      y i = max (((z i - μ) * rsqrt (σ² + ε)) * g + b) 0,        μ = (∑ z) / n.

  Two spellings of the variance `σ²` occur: the mean of the squares less the squared mean, `(∑ z²) / n - μ²`
  (sums that can be accumulated one block of rows at a time), and the mean of the squared deviations,
  `(∑ (z - μ)²) / n`.  At REAL entries the two agree on the extended reals (`var_two_ways`); with an infinite
  entry they need not, a deviation being then a difference of infinities.  Here also: the mean, the variance and the
  normalised entry of real entries are real, the variance not negative — what lets a next layer start again from
  real entries —; a running total that starts from the first block and adds one block per step is the sum of the
  blocks so far; and a sum over `a * b` rows is the sum over `a` steps of the blocks of `b` rows.

  Division is `Ideal.div` (the product with the reciprocal, off zero) and `rsqrt` is `Ideal.rsqrt`
  (`(√x)⁻¹` for `0 < x`): the extended reals' readings of a float division and reciprocal square root.
-/
import proofs.«167925_j62517543961156_1_alg».proof.Proof.LibBatchStats
import Idealize.ShloMosaic.PureOps.Ideal

namespace Cert.Lib.BatchNorm

open Finset Idealize.ShloMosaic
open Cert.Lib.BatchStats

variable {ι : Type*} [Fintype ι]

/-- The mean of real entries — their sum divided by a nonzero real count — is the real mean. -/
theorem mean_coe (z : ι → ℝ) (n : ℝ) (hn : n ≠ 0) :
    Ideal.div (∑ i, (z i : EReal)) (n : EReal) = (((∑ i, z i) * (1 / n) : ℝ) : EReal) := by
  rw [Ideal.div_coe hn, ← coe_sum, ← EReal.coe_mul]

/-- The variance of real entries, two ways: the mean of the squares less the squared mean is the mean of the squared
    deviations from the mean. -/
theorem var_two_ways (z : ι → ℝ) (n : ℝ) (hn : n ≠ 0) (hcard : (Fintype.card ι : ℝ) = n) :
    Ideal.div (∑ i, (z i : EReal) * (z i : EReal)) (n : EReal)
        - Ideal.div (∑ j, (z j : EReal)) (n : EReal) * Ideal.div (∑ j, (z j : EReal)) (n : EReal)
      = Ideal.div (∑ i, ((z i : EReal) - Ideal.div (∑ j, (z j : EReal)) (n : EReal))
            * ((z i : EReal) - Ideal.div (∑ j, (z j : EReal)) (n : EReal))) (n : EReal) := by
  simp only [Ideal.div_coe hn]
  exact (var_ereal z n hn hcard).symm

/-- The mean of the squared deviations of real entries is a real, and not negative. -/
theorem var_coe (z : ι → ℝ) (n : ℝ) (hn : 0 < n) :
    ∃ v : ℝ, 0 ≤ v ∧
      Ideal.div (∑ i, ((z i : EReal) - Ideal.div (∑ j, (z j : EReal)) (n : EReal))
            * ((z i : EReal) - Ideal.div (∑ j, (z j : EReal)) (n : EReal))) (n : EReal) = (v : EReal) := by
  refine ⟨(∑ i, (z i - (∑ j, z j) * (1 / n)) * (z i - (∑ j, z j) * (1 / n))) * (1 / n),
    mul_nonneg (Finset.sum_nonneg fun i _ => mul_self_nonneg _) (by positivity), ?_⟩
  rw [mean_coe z n hn.ne', Ideal.div_coe hn.ne']
  have e : ∀ i, ((z i : EReal) - (((∑ j, z j) * (1 / n) : ℝ) : EReal)) * ((z i : EReal) - (((∑ j, z j) * (1 / n) : ℝ) : EReal))
      = (((z i - (∑ j, z j) * (1 / n)) * (z i - (∑ j, z j) * (1 / n)) : ℝ) : EReal) := fun i => by
    rw [← EReal.coe_sub, ← EReal.coe_mul]
  rw [Finset.sum_congr rfl (fun i _ => e i), ← coe_sum, ← EReal.coe_mul]

/-- The reciprocal square root of a positive real is the real `(√r)⁻¹`. -/
theorem rsqrt_coe_pos (r : ℝ) (hr : 0 < r) : Ideal.rsqrt (r : EReal) = (((Real.sqrt r)⁻¹ : ℝ) : EReal) := by
  rw [Ideal.rsqrt_coe, if_neg (not_lt.mpr hr.le), if_neg hr.ne']

/-- A normalised entry at real mean, real variance `0 ≤ v`, positive `ε` and real affine pair is a real, and
    not negative (the rectifier's maximum with zero). -/
theorem normalized_coe (x μ v ε g b : ℝ) (hv : 0 ≤ v) (hε : 0 < ε) :
    max ((((x : EReal) - (μ : EReal)) * Ideal.rsqrt ((v : EReal) + (ε : EReal))) * (g : EReal) + (b : EReal)) 0
      = ((max ((x - μ) * (Real.sqrt (v + ε))⁻¹ * g + b) 0 : ℝ) : EReal) := by
  rw [← EReal.coe_add, rsqrt_coe_pos _ (by positivity), ← EReal.coe_sub, ← EReal.coe_mul, ← EReal.coe_mul,
    ← EReal.coe_add, ← EReal.coe_zero]
  exact (EReal.coe_strictMono.monotone.map_max).symm

/-- One column of a batch normalisation followed by the rectifier, the variance spelt the two ways: equal at real
    entries. -/
theorem column_two_ways (z : ι → ℝ) (n ε g b : ℝ) (hn : n ≠ 0) (hcard : (Fintype.card ι : ℝ) = n) (i : ι) :
    max ((((z i : EReal) - Ideal.div (∑ j, (z j : EReal)) (n : EReal))
          * Ideal.rsqrt (Ideal.div (∑ j, (z j : EReal) * (z j : EReal)) (n : EReal)
              - Ideal.div (∑ j, (z j : EReal)) (n : EReal) * Ideal.div (∑ j, (z j : EReal)) (n : EReal) + (ε : EReal)))
          * (g : EReal) + (b : EReal)) 0
      = max ((((z i : EReal) - Ideal.div (∑ j, (z j : EReal)) (n : EReal))
          * Ideal.rsqrt (Ideal.div (∑ j, ((z j : EReal) - Ideal.div (∑ k, (z k : EReal)) (n : EReal))
                * ((z j : EReal) - Ideal.div (∑ k, (z k : EReal)) (n : EReal))) (n : EReal) + (ε : EReal)))
          * (g : EReal) + (b : EReal)) 0 := by
  rw [var_two_ways z n hn hcard]

/-- The same column is a real, not negative, at every entry: a next layer starts again from real entries. -/
theorem column_coe (z : ι → ℝ) (n ε g b : ℝ) (hn : 0 < n) (hε : 0 < ε) (i : ι) :
    ∃ y : ℝ, 0 ≤ y ∧
      max ((((z i : EReal) - Ideal.div (∑ j, (z j : EReal)) (n : EReal))
          * Ideal.rsqrt (Ideal.div (∑ j, ((z j : EReal) - Ideal.div (∑ k, (z k : EReal)) (n : EReal))
                * ((z j : EReal) - Ideal.div (∑ k, (z k : EReal)) (n : EReal))) (n : EReal) + (ε : EReal)))
          * (g : EReal) + (b : EReal)) 0 = (y : EReal) := by
  obtain ⟨v, hv, e⟩ := var_coe z n hn
  rw [e, mean_coe z n hn.ne', normalized_coe _ _ v ε g b hv hε]
  exact ⟨_, le_max_right _ _, rfl⟩

/-- A running total that starts at the first block (zero plus it) and adds one block per step holds, after step
    `t`, the sum of the blocks `0 … t`. -/
theorem running_total {M : Type*} [AddCommMonoid M] (block total : ℕ → M)
    (h0 : total 0 = 0 + block 0) (hs : ∀ t, total (t + 1) = total t + block (t + 1)) (t : ℕ) :
    total t = ∑ s ∈ Finset.range (t + 1), block s := by
  induction t with
  | zero => rw [h0, zero_add, Finset.sum_range_one]
  | succ t ih => rw [hs, ih, Finset.sum_range_succ _ (t + 1)]

/-- A sum over `a * b` rows as the sum over the steps `s < a` of the blocks of `b` rows: row `r` of block `s`
    is row `r + b * s`. -/
theorem sum_steps {M : Type*} [AddCommMonoid M] (a b : ℕ) (f : Fin (a * b) → M) :
    ∑ i, f i = ∑ s ∈ Finset.range a, if h : s < a then ∑ r : Fin b, f (finProdFinEquiv (⟨s, h⟩, r)) else 0 := by
  rw [sum_blocks, Finset.sum_range]
  exact Finset.sum_congr rfl fun t _ => by rw [dif_pos t.isLt]

end Cert.Lib.BatchNorm
-- ==== Proof.KI.StatsValue0.lean ====
import proofs.«167925_j62517543961156_1_alg».proof.Proof.KI.Stats0Last
import proofs.«167925_j62517543961156_1_alg».proof.Proof.KI.StatsPay0
import proofs.«167925_j62517543961156_1_alg».proof.Proof.Spec
import proofs.«167925_j62517543961156_1_alg».proof.Proof.LibBatchNorm
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

/-! # What the first statistics kernel leaves in its mean and variance rows, over the extended reals

    The two accumulator rows hold, after tile `t`, the column sums (and the column sums of squares) of the
    pre-activations over the tiles `0 … t`: a running total from zero, one tile per step; after the last tile these are
    the sums over all 50000 nodes, and the mean and variance rows the last point writes back are formed from them. -/

namespace SV0

variable (V : (c : Dev nD) → (b : Ref sig .tc) → Buf (Elt Ideal) ((c : Thread nD τ).loc b))

/-- The region's three argument arrays — node features, weights, bias row — and the pre-activations of all 50000 nodes. -/
abbrev X0 (c : Dev nD) : Cert.Spec.Mat 50000 19 := V c (Pipeline.arrRef spec0 0)
abbrev W0 (c : Dev nD) : Cert.Spec.Mat 19 64 := V c (Pipeline.arrRef spec0 1)
abbrev B0 (c : Dev nD) : Cert.Spec.Mat 1 64 := V c (Pipeline.arrRef spec0 2)
abbrev Z0 (c : Dev nD) : Cert.Spec.Mat 50000 64 := Cert.Spec.pre0G (X0 V c) (W0 V c) (B0 V c)

/-- The index maps over the grid: the node tiles move with the point, the weights and the bias stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem idx0s : ∀ t : Fin cfg0.N, win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Row `r` of node tile `t` is node `r + 5000 t`. -/
def rowOf0 (t : Fin cfg0.N) (r : Fin 5000) : Fin 50000 :=
  ⟨r.val + 5000 * t.val, by have h1 := t.isLt; have h2 : cfg0.N = 10 := N_0; have h3 := r.isLt; omega⟩

/-- A node tile's block of the features is the rows of that tile. -/
theorem iblk0_0_apply (c : Dev nD) (t : Fin cfg0.N) (r : Fin 5000) (k : Fin 19) :
    (iblk0 V c 0 t : Vec Ideal S5000x19 .f32) (ix2 r k) = X0 V c (ix2 (rowOf0 t r) k) := by
  obtain ⟨e0, e1, -⟩ := idx0 t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 5000 + 1 * r.val = r.val + 5000 * t.val; rw [e0]; omega
  | ⟨1, _⟩ => show win0_0.index t (1 : Fin 2) * 19 + 1 * k.val = k.val; rw [e1]; omega

/-- The weights' and the bias row's blocks are the whole arrays. -/
theorem iblk0_1_apply (c : Dev nD) (t : Fin cfg0.N) (k : Fin 19) (j : Fin 64) :
    (iblk0 V c 1 t : Vec Ideal S19x64 .f32) (ix2 k j) = W0 V c (ix2 k j) := by
  obtain ⟨-, -, e2, e3, -⟩ := idx0 t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 19 + 1 * k.val = k.val; rw [e2]; omega
  | ⟨1, _⟩ => show win0_1.index t (1 : Fin 2) * 64 + 1 * j.val = j.val; rw [e3]; omega

theorem iblk0_2_apply (c : Dev nD) (t : Fin cfg0.N) (j : Fin 64) :
    (iblk0 V c 2 t : Vec Ideal S1x64 .f32) (ix2 (0 : Fin 1) j) = B0 V c (ix2 (0 : Fin 1) j) := by
  obtain ⟨-, -, -, -, e4, e5, -⟩ := idx0 t
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 1 + 1 * 0 = 0; rw [e4]
  | ⟨1, _⟩ => show win0_2.index t (1 : Fin 2) * 64 + 1 * j.val = j.val; rw [e5]; omega

/-- The tile's pre-activations are the rows of that tile of the whole pre-activation array. -/
theorem pre_tile0 (c : Dev nD) (t : Fin cfg0.N) (r : Fin 5000) (j : Fin 64) :
    k0_pay3 (F := Ideal) (iblk0 V c 0 t) (iblk0 V c 1 t) (iblk0 V c 2 t) (ix2 r j) = Z0 V c (ix2 (rowOf0 t r) j) := by
  refine (pay0_pre (iblk0 V c 0 t) (iblk0 V c 1 t) (iblk0 V c 2 t) r j).trans ?_
  refine Eq.trans ?_ (Cert.Spec.pre0G_apply (X0 V c) (W0 V c) (B0 V c) (rowOf0 t r) j).symm
  refine congrArg₂ (· + ·) (Finset.sum_congr rfl fun k _ => ?_) (iblk0_2_apply V c t j)
  rw [iblk0_0_apply V c t r k, iblk0_1_apply V c t k j]

/-- The column sums over one tile's rows of a function of the node, as the step sum has them. -/
abbrev tileSum (f : Fin (10 * 5000) → EReal) (s : ℕ) : EReal :=
  if h : s < 10 then ∑ r : Fin 5000, f (finProdFinEquiv (⟨s, h⟩, r)) else 0

theorem tile_colsum0 (c : Dev nD) (t : Fin cfg0.N) (j : Fin 64) :
    ∑ r : Fin 5000, k0_pay3 (F := Ideal) (iblk0 V c 0 t) (iblk0 V c 1 t) (iblk0 V c 2 t) (ix2 r j)
      = tileSum (fun i => Z0 V c (ix2 i j)) t.val := by
  have hN : t.val < 10 := lt_of_lt_of_eq t.isLt N_0
  show _ = dite _ _ _
  rw [dif_pos hN]
  exact Finset.sum_congr rfl fun r _ => (pre_tile0 V c t r j).trans (congrArg (fun i => Z0 V c (ix2 i j)) (Fin.ext rfl))

theorem tile_colsumsq0 (c : Dev nD) (t : Fin cfg0.N) (j : Fin 64) :
    ∑ r : Fin 5000, k0_pay3 (F := Ideal) (iblk0 V c 0 t) (iblk0 V c 1 t) (iblk0 V c 2 t) (ix2 r j)
        * k0_pay3 (F := Ideal) (iblk0 V c 0 t) (iblk0 V c 1 t) (iblk0 V c 2 t) (ix2 r j)
      = tileSum (fun i => Z0 V c (ix2 i j) * Z0 V c (ix2 i j)) t.val := by
  have hN : t.val < 10 := lt_of_lt_of_eq t.isLt N_0
  show _ = dite _ _ _
  rw [dif_pos hN]
  exact Finset.sum_congr rfl fun r _ => by
    rw [pre_tile0 V c t r j]
    exact congrArg (fun i => Z0 V c (ix2 i j) * Z0 V c (ix2 i j)) (Fin.ext rfl)

/-- After tile `n` the row of column sums holds the sums over the tiles `0 … n`: from zero, one tile per step. -/
theorem S0_sum (c : Dev nD) (j : Fin 64) : ∀ (n : ℕ) (hn : n < cfg0.N),
    S0 V c n hn (ix2 (0 : Fin 1) j) = ∑ s ∈ Finset.range (n + 1), tileSum (fun i => Z0 V c (ix2 i j)) s
  | 0, hn => by
    rw [S0_zero V c hn]
    refine (pay0_sum (iblk0 V c 0 ⟨0, hn⟩) (iblk0 V c 1 ⟨0, hn⟩) (iblk0 V c 2 ⟨0, hn⟩) (k0_pay1 (F := Ideal)) j).trans ?_
    rw [pay0_zero1 j, zero_add, Finset.sum_range_one]
    exact tile_colsum0 V c ⟨0, hn⟩ j
  | n + 1, hn => by
    rw [S0_succ V c n hn]
    refine (pay0_sum (iblk0 V c 0 ⟨n + 1, hn⟩) (iblk0 V c 1 ⟨n + 1, hn⟩) (iblk0 V c 2 ⟨n + 1, hn⟩) (S0 V c n (Nat.lt_of_succ_lt hn)) j).trans ?_
    rw [S0_sum c j n (Nat.lt_of_succ_lt hn), Finset.sum_range_succ _ (n + 1)]
    exact congrArg _ (tile_colsum0 V c ⟨n + 1, hn⟩ j)

theorem Q0_sum (c : Dev nD) (j : Fin 64) : ∀ (n : ℕ) (hn : n < cfg0.N),
    Q0 V c n hn (ix2 (0 : Fin 1) j) = ∑ s ∈ Finset.range (n + 1), tileSum (fun i => Z0 V c (ix2 i j) * Z0 V c (ix2 i j)) s
  | 0, hn => by
    rw [Q0_zero V c hn]
    refine (pay0_sumsq (iblk0 V c 0 ⟨0, hn⟩) (iblk0 V c 1 ⟨0, hn⟩) (iblk0 V c 2 ⟨0, hn⟩) (k0_pay2 (F := Ideal)) j).trans ?_
    rw [pay0_zero2 j, zero_add, Finset.sum_range_one]
    exact tile_colsumsq0 V c ⟨0, hn⟩ j
  | n + 1, hn => by
    rw [Q0_succ V c n hn]
    refine (pay0_sumsq (iblk0 V c 0 ⟨n + 1, hn⟩) (iblk0 V c 1 ⟨n + 1, hn⟩) (iblk0 V c 2 ⟨n + 1, hn⟩) (Q0 V c n (Nat.lt_of_succ_lt hn)) j).trans ?_
    rw [Q0_sum c j n (Nat.lt_of_succ_lt hn), Finset.sum_range_succ _ (n + 1)]
    exact congrArg _ (tile_colsumsq0 V c ⟨n + 1, hn⟩ j)

/-- After the last tile: the column sums, and the column sums of squares, over all 50000 nodes. -/
theorem S0_final (c : Dev nD) (j : Fin 64) (n : ℕ) (hn : n + 1 < cfg0.N) (h9 : n + 1 = 9) :
    S0 V c (n + 1) hn (ix2 (0 : Fin 1) j) = ∑ r : Fin 50000, Z0 V c (ix2 r j) := by
  refine (S0_sum V c j (n + 1) hn).trans ?_
  rw [show n + 1 + 1 = 10 from by omega]
  exact (Cert.Lib.BatchNorm.sum_steps 10 5000 (fun i => Z0 V c (ix2 i j))).symm

theorem Q0_final (c : Dev nD) (j : Fin 64) (n : ℕ) (hn : n + 1 < cfg0.N) (h9 : n + 1 = 9) :
    Q0 V c (n + 1) hn (ix2 (0 : Fin 1) j) = ∑ r : Fin 50000, Z0 V c (ix2 r j) * Z0 V c (ix2 r j) := by
  refine (Q0_sum V c j (n + 1) hn).trans ?_
  rw [show n + 1 + 1 = 10 from by omega]
  exact (Cert.Lib.BatchNorm.sum_steps 10 5000 (fun i => Z0 V c (ix2 i j) * Z0 V c (ix2 i j))).symm

/-- So the mean row and the variance row the last tile stores are the specification's. -/
theorem mean_row0 (c : Dev nD) (n : ℕ) (hn : n + 1 < cfg0.N) (h9 : n + 1 = 9) :
    (outsAt0 V c (n + 1) hn).2.1 = Cert.Spec.meanG (Z0 V c) := by
  refine (mean0_last V c n hn h9).trans ?_
  funext i
  obtain ⟨u, j, rfl⟩ : ∃ (u : Fin 1) (j : Fin 64), i = ix2 u j := ⟨i 0, i 1, eq_ix2 i⟩
  obtain rfl : u = 0 := Subsingleton.elim _ _
  refine (pay0_mean (S0 V c (n + 1) hn) j).trans ?_
  rw [S0_final V c j n hn h9]
  rfl

theorem var_row0 (c : Dev nD) (n : ℕ) (hn : n + 1 < cfg0.N) (h9 : n + 1 = 9) :
    (outsAt0 V c (n + 1) hn).2.2.1 = Cert.Spec.varSq (Z0 V c) := by
  refine (var0_last V c n hn h9).trans ?_
  funext i
  obtain ⟨u, j, rfl⟩ : ∃ (u : Fin 1) (j : Fin 64), i = ix2 u j := ⟨i 0, i 1, eq_ix2 i⟩
  obtain rfl : u = 0 := Subsingleton.elim _ _
  refine (pay0_var (S0 V c (n + 1) hn) (Q0 V c (n + 1) hn) j).trans ?_
  rw [S0_final V c j n hn h9, Q0_final V c j n hn h9]
  rfl

/-! ## From the tiles' write-backs to the arrays -/

/-- Only the last point writes the mean and variance rows back, and it writes the rows formed from the totals. -/
theorem flushed0_4 (c : Dev nD) (t : Fin cfg0.N) (hf : (cfg0.win 4).flush t = true) :
    (dat0 V c).flushed 4 t = ((cfg0.win 4).blk t).view.read (Elt Ideal) (Cert.Spec.meanG (Z0 V c)) := by
  have hN : cfg0.N = 10 := N_0
  have h9 : t.val = 9 := by have := (flush0_4 t).mp hf; have := t.isLt; omega
  obtain ⟨e4a, e4b, e5a, e5b⟩ := idx0s t
  obtain ⟨tn, htn⟩ := t
  cases tn with
  | zero => exact absurd h9 (show ¬(0 : ℕ) = 9 by decide)
  | succ n =>
    show (cfg0.win 4).cut (grid0.coords ⟨n + 1, htn⟩) ((dat0 V c).after 4 ⟨n + 1, htn⟩) = _
    rw [(after0_4 V c ⟨n + 1, htn⟩).trans (mean_row0 V c n htn h9)]
    funext y
    show Cert.Spec.meanG (Z0 V c) y = Cert.Spec.meanG (Z0 V c) (((cfg0.win 4).blk ⟨n + 1, htn⟩).view.emb y)
    congr 1
    funext a
    apply Fin.ext
    match a with
    | ⟨0, _⟩ => show (y 0).val = win0_4.index ⟨n + 1, htn⟩ (0 : Fin 2) * 1 + 1 * (y 0).val; rw [e4a]; omega
    | ⟨1, _⟩ => show (y 1).val = win0_4.index ⟨n + 1, htn⟩ (1 : Fin 2) * 64 + 1 * (y 1).val; rw [e4b]; omega

theorem flushed0_5 (c : Dev nD) (t : Fin cfg0.N) (hf : (cfg0.win 5).flush t = true) :
    (dat0 V c).flushed 5 t = ((cfg0.win 5).blk t).view.read (Elt Ideal) (Cert.Spec.varSq (Z0 V c)) := by
  have hN : cfg0.N = 10 := N_0
  have h9 : t.val = 9 := by have := (flush0_5 t).mp hf; have := t.isLt; omega
  obtain ⟨e4a, e4b, e5a, e5b⟩ := idx0s t
  obtain ⟨tn, htn⟩ := t
  cases tn with
  | zero => exact absurd h9 (show ¬(0 : ℕ) = 9 by decide)
  | succ n =>
    show (cfg0.win 5).cut (grid0.coords ⟨n + 1, htn⟩) ((dat0 V c).after 5 ⟨n + 1, htn⟩) = _
    rw [(after0_5 V c ⟨n + 1, htn⟩).trans (var_row0 V c n htn h9)]
    funext y
    show Cert.Spec.varSq (Z0 V c) y = Cert.Spec.varSq (Z0 V c) (((cfg0.win 5).blk ⟨n + 1, htn⟩).view.emb y)
    congr 1
    funext a
    apply Fin.ext
    match a with
    | ⟨0, _⟩ => show (y 0).val = win0_5.index ⟨n + 1, htn⟩ (0 : Fin 2) * 1 + 1 * (y 0).val; rw [e5a]; omega
    | ⟨1, _⟩ => show (y 1).val = win0_5.index ⟨n + 1, htn⟩ (1 : Fin 2) * 64 + 1 * (y 1).val; rw [e5b]; omega

/-- The last point's block is the whole row. -/
theorem cover0_4 (i : S1x64.Idx) :
    ∃ t : Fin cfg0.N, (cfg0.win 4).flush t = true ∧ i ∈ ((cfg0.win 4).blk t).view.set :=
  ⟨t0_9, (flush0_4 t0_9).mpr rfl, by
    show i ∈ ((View.whole main_v14_1).slice (win0_4.rect t0_9)).set
    rw [View.set_slice_whole, Rect.mem_set_unit]
    intro a
    have h0 : (i 0 : Nat) < 1 := (i 0).isLt
    have h1 : (i 1 : Nat) < 64 := (i 1).isLt
    match a with
    | ⟨0, _⟩ => show win0_4.index t0_9 0 * win0_4.size 0 ≤ (i 0 : Nat) ∧ (i 0 : Nat) < win0_4.index t0_9 0 * win0_4.size 0 + win0_4.xsize (grid0.coords t0_9) 0
                rw [show win0_4.index t0_9 0 * win0_4.size 0 = 0 from by decide +kernel, show win0_4.xsize (grid0.coords t0_9) 0 = 1 from by decide +kernel]; omega
    | ⟨1, _⟩ => show win0_4.index t0_9 1 * win0_4.size 1 ≤ (i 1 : Nat) ∧ (i 1 : Nat) < win0_4.index t0_9 1 * win0_4.size 1 + win0_4.xsize (grid0.coords t0_9) 1
                rw [show win0_4.index t0_9 1 * win0_4.size 1 = 0 from by decide +kernel, show win0_4.xsize (grid0.coords t0_9) 1 = 64 from by decide +kernel]; omega⟩

theorem cover0_5 (i : S1x64.Idx) :
    ∃ t : Fin cfg0.N, (cfg0.win 5).flush t = true ∧ i ∈ ((cfg0.win 5).blk t).view.set :=
  ⟨t0_9, (flush0_5 t0_9).mpr rfl, by
    show i ∈ ((View.whole main_v14_2).slice (win0_5.rect t0_9)).set
    rw [View.set_slice_whole, Rect.mem_set_unit]
    intro a
    have h0 : (i 0 : Nat) < 1 := (i 0).isLt
    have h1 : (i 1 : Nat) < 64 := (i 1).isLt
    match a with
    | ⟨0, _⟩ => show win0_5.index t0_9 0 * win0_5.size 0 ≤ (i 0 : Nat) ∧ (i 0 : Nat) < win0_5.index t0_9 0 * win0_5.size 0 + win0_5.xsize (grid0.coords t0_9) 0
                rw [show win0_5.index t0_9 0 * win0_5.size 0 = 0 from by decide +kernel, show win0_5.xsize (grid0.coords t0_9) 0 = 1 from by decide +kernel]; omega
    | ⟨1, _⟩ => show win0_5.index t0_9 1 * win0_5.size 1 ≤ (i 1 : Nat) ∧ (i 1 : Nat) < win0_5.index t0_9 1 * win0_5.size 1 + win0_5.xsize (grid0.coords t0_9) 1
                rw [show win0_5.index t0_9 1 * win0_5.size 1 = 0 from by decide +kernel, show win0_5.xsize (grid0.coords t0_9) 1 = 64 from by decide +kernel]; omega⟩

end SV0

open SV0

variable (V : (c : Dev nD) → (b : Ref sig .tc) → Buf (Elt Ideal) ((c : Thread nD τ).loc b))

/-- THE MEAN ROW the first statistics kernel leaves: the column means of the pre-activations. -/
theorem final_stats0_mean (c : Dev nD) :
    (dat0 (F := Ideal) V c).arrAt 4 cfg0.N
      = Cert.Spec.meanG (Cert.Spec.pre0G (V c (Pipeline.arrRef spec0 0)) (V c (Pipeline.arrRef spec0 1)) (V c (Pipeline.arrRef spec0 2))) :=
  (dat0 V c).arrAt_eq_of_cover 4 (Cert.Spec.meanG (Z0 V c)) (flushed0_4 V c) cover0_4

/-- THE VARIANCE ROW: the column means of the squares less the squared means. -/
theorem final_stats0_var (c : Dev nD) :
    (dat0 (F := Ideal) V c).arrAt 5 cfg0.N
      = Cert.Spec.varSq (Cert.Spec.pre0G (V c (Pipeline.arrRef spec0 0)) (V c (Pipeline.arrRef spec0 1)) (V c (Pipeline.arrRef spec0 2))) :=
  (dat0 V c).arrAt_eq_of_cover 5 (Cert.Spec.varSq (Z0 V c)) (flushed0_5 V c) cover0_5

end Cert.KernelIdeal.Hand

end
-- ==== Proof.KI.StatsValue2.lean ====
import proofs.«167925_j62517543961156_1_alg».proof.Proof.KI.Stats2Closed
import proofs.«167925_j62517543961156_1_alg».proof.Proof.KI.StatsPay2
import proofs.«167925_j62517543961156_1_alg».proof.Proof.Spec
import proofs.«167925_j62517543961156_1_alg».proof.Proof.LibBatchNorm
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

/-! # What a later statistics kernel leaves in its mean and variance rows, over the extended reals

    The two accumulator rows hold, after tile `t`, the column sums (and the column sums of squares) of the layer's
    pre-activations over the tiles `0 … t`: a running total from zero, one tile per step; after the last tile these are
    the sums over all 50000 nodes, and the mean and variance rows are formed from them. -/

variable (V : (c : Dev nD) → (b : Ref sig .tc) → Buf (Elt Ideal) ((c : Thread nD τ).loc b))

namespace SV2

/-- The region's five argument arrays — aggregated features, left weights, bias row, hidden state, right weights —
    and the pre-activations of all 50000 nodes. -/
abbrev X (c : Dev nD) : Cert.Spec.Mat 50000 64 := V c (Pipeline.arrRef spec2 0)
abbrev W (c : Dev nD) : Cert.Spec.Mat 64 64 := V c (Pipeline.arrRef spec2 1)
abbrev B (c : Dev nD) : Cert.Spec.Mat 1 64 := V c (Pipeline.arrRef spec2 2)
abbrev H (c : Dev nD) : Cert.Spec.Mat 50000 64 := V c (Pipeline.arrRef spec2 3)
abbrev R (c : Dev nD) : Cert.Spec.Mat 64 64 := V c (Pipeline.arrRef spec2 4)
abbrev Z (c : Dev nD) : Cert.Spec.Mat 50000 64 := Cert.Spec.preLG (X V c) (W V c) (B V c) (H V c) (R V c)

/-- The index maps over the grid: the node tiles move with the point, the weights and the bias stay. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0 :=
  (by decide +kernel : ∀ t : Fin grid2.N, _)

/-- Row `r` of node tile `t` is node `r + 5000 t`. -/
def rowOf (t : Fin cfg2.N) (r : Fin 5000) : Fin 50000 :=
  ⟨r.val + 5000 * t.val, by have h1 := t.isLt; have h2 : cfg2.N = 10 := N_2; have h3 := r.isLt; omega⟩

/-- A node tile's block of the aggregated features is the rows of that tile. -/
theorem iblk_0_apply (c : Dev nD) (t : Fin cfg2.N) (r : Fin 5000) (k : Fin 64) :
    (iblk2 V c 0 t : Vec Ideal S5000x64 .f32) (ix2 r k) = X V c (ix2 (rowOf t r) k) := by
  obtain ⟨e0, e1, -⟩ := idx t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 5000 + 1 * r.val = r.val + 5000 * t.val; rw [e0]; omega
  | ⟨1, _⟩ => show win2_0.index t (1 : Fin 2) * 64 + 1 * k.val = k.val; rw [e1]; omega

/-- The weights' and the bias row's blocks are the whole arrays. -/
theorem iblk_1_apply (c : Dev nD) (t : Fin cfg2.N) (k : Fin 64) (j : Fin 64) :
    (iblk2 V c 1 t : Vec Ideal S64x64 .f32) (ix2 k j) = W V c (ix2 k j) := by
  obtain ⟨-, -, e2, e3, -⟩ := idx t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 64 + 1 * k.val = k.val; rw [e2]; omega
  | ⟨1, _⟩ => show win2_1.index t (1 : Fin 2) * 64 + 1 * j.val = j.val; rw [e3]; omega

theorem iblk_2_apply (c : Dev nD) (t : Fin cfg2.N) (j : Fin 64) :
    (iblk2 V c 2 t : Vec Ideal S1x64 .f32) (ix2 (0 : Fin 1) j) = B V c (ix2 (0 : Fin 1) j) := by
  obtain ⟨-, -, -, -, e4, e5, -⟩ := idx t
  unfold iblk2
  rw [View.read_apply]
  show V c (Pipeline.arrRef spec2 2) _ = V c (Pipeline.arrRef spec2 2) _
  congr 1
  funext a
  apply Fin.ext
  match a with
  | ⟨0, _⟩ => show win2_2.index t (0 : Fin 2) * 1 + 1 * 0 = 0; rw [e4]
  | ⟨1, _⟩ => show win2_2.index t (1 : Fin 2) * 64 + 1 * j.val = j.val; rw [e5]; omega

/-- A node tile's block of the hidden state is the rows of that tile. -/
theorem iblk_3_apply (c : Dev nD) (t : Fin cfg2.N) (r : Fin 5000) (k : Fin 64) :
    (iblk2 V c 3 t : Vec Ideal S5000x64 .f32) (ix2 r k) = H V c (ix2 (rowOf t r) k) := by
  obtain ⟨-, -, -, -, -, -, e6, e7, -⟩ := idx t
  unfold iblk2
  rw [View.read_apply]
  show V c (Pipeline.arrRef spec2 3) _ = V c (Pipeline.arrRef spec2 3) _
  congr 1
  funext a
  apply Fin.ext
  match a with
  | ⟨0, _⟩ => show win2_3.index t (0 : Fin 2) * 5000 + 1 * r.val = r.val + 5000 * t.val; rw [e6]; omega
  | ⟨1, _⟩ => show win2_3.index t (1 : Fin 2) * 64 + 1 * k.val = k.val; rw [e7]; omega

theorem iblk_4_apply (c : Dev nD) (t : Fin cfg2.N) (k : Fin 64) (j : Fin 64) :
    (iblk2 V c 4 t : Vec Ideal S64x64 .f32) (ix2 k j) = R V c (ix2 k j) := by
  obtain ⟨-, -, -, -, -, -, -, -, e8, e9⟩ := idx t
  unfold iblk2
  rw [View.read_apply]
  show V c (Pipeline.arrRef spec2 4) _ = V c (Pipeline.arrRef spec2 4) _
  congr 1
  funext a
  apply Fin.ext
  match a with
  | ⟨0, _⟩ => show win2_4.index t (0 : Fin 2) * 64 + 1 * k.val = k.val; rw [e8]; omega
  | ⟨1, _⟩ => show win2_4.index t (1 : Fin 2) * 64 + 1 * j.val = j.val; rw [e9]; omega

/-- The tile's pre-activations are the rows of that tile of the whole pre-activation array. -/
theorem pre_tile (c : Dev nD) (t : Fin cfg2.N) (r : Fin 5000) (j : Fin 64) :
    k2_pay6 (F := Ideal) (iblk2 V c 0 t) (iblk2 V c 1 t) (iblk2 V c 2 t) (iblk2 V c 3 t) (iblk2 V c 4 t) (ix2 r j) = Z V c (ix2 (rowOf t r) j) := by
  refine (pay2_pre (iblk2 V c 0 t) (iblk2 V c 1 t) (iblk2 V c 2 t) (iblk2 V c 3 t) (iblk2 V c 4 t) r j).trans ?_
  refine Eq.trans ?_ (Cert.Spec.preLG_apply (X V c) (W V c) (B V c) (H V c) (R V c) (rowOf t r) j).symm
  refine congrArg₂ (· + ·) (congrArg₂ (· + ·) (Finset.sum_congr rfl fun k _ => ?_) (iblk_2_apply V c t j)) (Finset.sum_congr rfl fun k _ => ?_)
  · rw [iblk_0_apply V c t r k, iblk_1_apply V c t k j]
  · rw [iblk_3_apply V c t r k, iblk_4_apply V c t k j]

/-- The column sums over one tile's rows of a function of the node, as the step sum has them. -/
abbrev tileSum (f : Fin (10 * 5000) → EReal) (s : ℕ) : EReal :=
  if h : s < 10 then ∑ r : Fin 5000, f (finProdFinEquiv (⟨s, h⟩, r)) else 0

theorem tile_colsum (c : Dev nD) (t : Fin cfg2.N) (j : Fin 64) :
    ∑ r : Fin 5000, k2_pay6 (F := Ideal) (iblk2 V c 0 t) (iblk2 V c 1 t) (iblk2 V c 2 t) (iblk2 V c 3 t) (iblk2 V c 4 t) (ix2 r j)
      = tileSum (fun i => Z V c (ix2 i j)) t.val := by
  have hN : t.val < 10 := lt_of_lt_of_eq t.isLt N_2
  show _ = dite _ _ _
  rw [dif_pos hN]
  exact Finset.sum_congr rfl fun r _ => (pre_tile V c t r j).trans (congrArg (fun i => Z V c (ix2 i j)) (Fin.ext rfl))

theorem tile_colsumsq (c : Dev nD) (t : Fin cfg2.N) (j : Fin 64) :
    ∑ r : Fin 5000, k2_pay6 (F := Ideal) (iblk2 V c 0 t) (iblk2 V c 1 t) (iblk2 V c 2 t) (iblk2 V c 3 t) (iblk2 V c 4 t) (ix2 r j)
        * k2_pay6 (F := Ideal) (iblk2 V c 0 t) (iblk2 V c 1 t) (iblk2 V c 2 t) (iblk2 V c 3 t) (iblk2 V c 4 t) (ix2 r j)
      = tileSum (fun i => Z V c (ix2 i j) * Z V c (ix2 i j)) t.val := by
  have hN : t.val < 10 := lt_of_lt_of_eq t.isLt N_2
  show _ = dite _ _ _
  rw [dif_pos hN]
  exact Finset.sum_congr rfl fun r _ => by
    rw [pre_tile V c t r j]
    exact congrArg (fun i => Z V c (ix2 i j) * Z V c (ix2 i j)) (Fin.ext rfl)

/-- After tile `n` the row of column sums holds the sums over the tiles `0 … n`: from zero, one tile per step. -/
theorem S_sum (c : Dev nD) (j : Fin 64) : ∀ (n : ℕ) (hn : n < cfg2.N),
    S2 V c n hn (ix2 (0 : Fin 1) j) = ∑ s ∈ Finset.range (n + 1), tileSum (fun i => Z V c (ix2 i j)) s
  | 0, hn => by
    rw [S2_zero V c hn]
    refine (pay2_sum (iblk2 V c 0 ⟨0, hn⟩) (iblk2 V c 1 ⟨0, hn⟩) (iblk2 V c 2 ⟨0, hn⟩) (iblk2 V c 3 ⟨0, hn⟩) (iblk2 V c 4 ⟨0, hn⟩) (k2_pay4 (F := Ideal)) j).trans ?_
    rw [pay2_zero1 j, zero_add, Finset.sum_range_one]
    exact tile_colsum V c ⟨0, hn⟩ j
  | n + 1, hn => by
    rw [S2_succ V c n hn]
    refine (pay2_sum (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (S2 V c n (Nat.lt_of_succ_lt hn)) j).trans ?_
    rw [S_sum c j n (Nat.lt_of_succ_lt hn), Finset.sum_range_succ _ (n + 1)]
    exact congrArg _ (tile_colsum V c ⟨n + 1, hn⟩ j)

theorem Q_sum (c : Dev nD) (j : Fin 64) : ∀ (n : ℕ) (hn : n < cfg2.N),
    Q2 V c n hn (ix2 (0 : Fin 1) j) = ∑ s ∈ Finset.range (n + 1), tileSum (fun i => Z V c (ix2 i j) * Z V c (ix2 i j)) s
  | 0, hn => by
    rw [Q2_zero V c hn, pay2_keep]
    refine (pay2_sumsq (iblk2 V c 0 ⟨0, hn⟩) (iblk2 V c 1 ⟨0, hn⟩) (iblk2 V c 2 ⟨0, hn⟩) (iblk2 V c 3 ⟨0, hn⟩) (iblk2 V c 4 ⟨0, hn⟩) (k2_pay5 (F := Ideal)) j).trans ?_
    rw [pay2_zero2 j, zero_add, Finset.sum_range_one]
    exact tile_colsumsq V c ⟨0, hn⟩ j
  | n + 1, hn => by
    rw [Q2_succ V c n hn, pay2_keep]
    refine (pay2_sumsq (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (Q2 V c n (Nat.lt_of_succ_lt hn)) j).trans ?_
    rw [Q_sum c j n (Nat.lt_of_succ_lt hn), Finset.sum_range_succ _ (n + 1)]
    exact congrArg _ (tile_colsumsq V c ⟨n + 1, hn⟩ j)

/-- After the last tile: the column sums, and the column sums of squares, over all 50000 nodes. -/
theorem S_final (c : Dev nD) (j : Fin 64) (hn : 8 + 1 < cfg2.N) :
    S2 V c (8 + 1) hn (ix2 (0 : Fin 1) j) = ∑ r : Fin 50000, Z V c (ix2 r j) := by
  rw [S_sum V c j (8 + 1) hn]
  exact (Cert.Lib.BatchNorm.sum_steps 10 5000 (fun i => Z V c (ix2 i j))).symm

theorem Q_final (c : Dev nD) (j : Fin 64) (hn : 8 + 1 < cfg2.N) :
    Q2 V c (8 + 1) hn (ix2 (0 : Fin 1) j) = ∑ r : Fin 50000, Z V c (ix2 r j) * Z V c (ix2 r j) := by
  rw [Q_sum V c j (8 + 1) hn]
  exact (Cert.Lib.BatchNorm.sum_steps 10 5000 (fun i => Z V c (ix2 i j) * Z V c (ix2 i j))).symm

/-- So the mean row and the variance row the last tile stores are the specification's. -/
theorem mean_row (c : Dev nD) (hn : 8 + 1 < cfg2.N) :
    (outsAt2 V c (8 + 1) hn).2.1 = Cert.Spec.meanG (Z V c) := by
  rw [mean2_last V c hn]
  funext i
  obtain ⟨u, j, rfl⟩ : ∃ (u : Fin 1) (j : Fin 64), i = ix2 u j := ⟨i 0, i 1, eq_ix2 i⟩
  obtain rfl : u = 0 := Subsingleton.elim _ _
  refine (pay2_mean (S2 V c (8 + 1) hn) j).trans ?_
  rw [S_final V c j hn]
  rfl

theorem var_row (c : Dev nD) (hn : 8 + 1 < cfg2.N) :
    (outsAt2 V c (8 + 1) hn).2.2.1 = Cert.Spec.varSq (Z V c) := by
  rw [var2_last V c hn]
  funext i
  obtain ⟨u, j, rfl⟩ : ∃ (u : Fin 1) (j : Fin 64), i = ix2 u j := ⟨i 0, i 1, eq_ix2 i⟩
  obtain rfl : u = 0 := Subsingleton.elim _ _
  refine (pay2_var (S2 V c (8 + 1) hn) (Q2 V c (8 + 1) hn) j).trans ?_
  rw [S_final V c j hn, Q_final V c j hn]
  rfl

/-! ## From the last tile's write-backs to the arrays -/

/-- Only the last point writes the mean and variance rows back, and it writes the rows formed from the totals. -/
theorem flushed_6 (c : Dev nD) (t : Fin cfg2.N) (hf : (cfg2.win 6).flush t = true) :
    (dat2 V c).flushed 6 t = ((cfg2.win 6).blk t).view.read (Elt Ideal) (Cert.Spec.meanG (Z V c)) := by
  have hN : cfg2.N = 10 := N_2
  have h9 : t.val = 9 := by have := (flush2_6 t).mp hf; have := t.isLt; omega
  obtain rfl : t = t2_9 := Fin.ext h9
  show (cfg2.win 6).cut (grid2.coords t2_9) ((dat2 V c).after 6 t2_9) = _
  rw [after2_6, show (outsAt2 V c t2_9.val t2_9.isLt).2.1 = Cert.Spec.meanG (Z V c) from mean_row V c _]
  have hz' : (fun a => win2_6.index t2_9 a * main_v41_1.ty.shape.size a) = fun _ => 0 := funext fun a => by fin_cases a <;> decide +kernel
  exact (Memref.read_access_unit_zero (Elt Ideal) main_v41_1 hz' (fun a => by rw [congrFun hz' a]; simp) (Cert.Spec.meanG (Z V c))).symm

theorem flushed_7 (c : Dev nD) (t : Fin cfg2.N) (hf : (cfg2.win 7).flush t = true) :
    (dat2 V c).flushed 7 t = ((cfg2.win 7).blk t).view.read (Elt Ideal) (Cert.Spec.varSq (Z V c)) := by
  have hN : cfg2.N = 10 := N_2
  have h9 : t.val = 9 := by have := (flush2_7 t).mp hf; have := t.isLt; omega
  obtain rfl : t = t2_9 := Fin.ext h9
  show (cfg2.win 7).cut (grid2.coords t2_9) ((dat2 V c).after 7 t2_9) = _
  rw [after2_7, show (outsAt2 V c t2_9.val t2_9.isLt).2.2.1 = Cert.Spec.varSq (Z V c) from var_row V c _]
  have hz' : (fun a => win2_7.index t2_9 a * main_v41_2.ty.shape.size a) = fun _ => 0 := funext fun a => by fin_cases a <;> decide +kernel
  exact (Memref.read_access_unit_zero (Elt Ideal) main_v41_2 hz' (fun a => by rw [congrFun hz' a]; simp) (Cert.Spec.varSq (Z V c))).symm

/-- The last point's block is the whole row. -/
theorem cover_6 (i : S1x64.Idx) :
    ∃ t : Fin cfg2.N, (cfg2.win 6).flush t = true ∧ i ∈ ((cfg2.win 6).blk t).view.set :=
  ⟨t2_9, (flush2_6 t2_9).mpr rfl, by
    show i ∈ ((View.whole main_v41_1).slice (win2_6.rect t2_9)).set
    rw [View.set_slice_whole, Rect.mem_set_unit]
    intro a
    have h0 : (i 0 : Nat) < 1 := (i 0).isLt
    have h1 : (i 1 : Nat) < 64 := (i 1).isLt
    match a with
    | ⟨0, _⟩ => show win2_6.index t2_9 0 * win2_6.size 0 ≤ (i 0 : Nat) ∧ (i 0 : Nat) < win2_6.index t2_9 0 * win2_6.size 0 + win2_6.xsize (grid2.coords t2_9) 0
                rw [show win2_6.index t2_9 0 * win2_6.size 0 = 0 from by decide +kernel, show win2_6.xsize (grid2.coords t2_9) 0 = 1 from by decide +kernel]; omega
    | ⟨1, _⟩ => show win2_6.index t2_9 1 * win2_6.size 1 ≤ (i 1 : Nat) ∧ (i 1 : Nat) < win2_6.index t2_9 1 * win2_6.size 1 + win2_6.xsize (grid2.coords t2_9) 1
                rw [show win2_6.index t2_9 1 * win2_6.size 1 = 0 from by decide +kernel, show win2_6.xsize (grid2.coords t2_9) 1 = 64 from by decide +kernel]; omega⟩

theorem cover_7 (i : S1x64.Idx) :
    ∃ t : Fin cfg2.N, (cfg2.win 7).flush t = true ∧ i ∈ ((cfg2.win 7).blk t).view.set :=
  ⟨t2_9, (flush2_7 t2_9).mpr rfl, by
    show i ∈ ((View.whole main_v41_2).slice (win2_7.rect t2_9)).set
    rw [View.set_slice_whole, Rect.mem_set_unit]
    intro a
    have h0 : (i 0 : Nat) < 1 := (i 0).isLt
    have h1 : (i 1 : Nat) < 64 := (i 1).isLt
    match a with
    | ⟨0, _⟩ => show win2_7.index t2_9 0 * win2_7.size 0 ≤ (i 0 : Nat) ∧ (i 0 : Nat) < win2_7.index t2_9 0 * win2_7.size 0 + win2_7.xsize (grid2.coords t2_9) 0
                rw [show win2_7.index t2_9 0 * win2_7.size 0 = 0 from by decide +kernel, show win2_7.xsize (grid2.coords t2_9) 0 = 1 from by decide +kernel]; omega
    | ⟨1, _⟩ => show win2_7.index t2_9 1 * win2_7.size 1 ≤ (i 1 : Nat) ∧ (i 1 : Nat) < win2_7.index t2_9 1 * win2_7.size 1 + win2_7.xsize (grid2.coords t2_9) 1
                rw [show win2_7.index t2_9 1 * win2_7.size 1 = 0 from by decide +kernel, show win2_7.xsize (grid2.coords t2_9) 1 = 64 from by decide +kernel]; omega⟩

end SV2

/-- THE MEAN ROW this statistics kernel leaves: the column means of the layer's pre-activations. -/
theorem final_stats2_mean (c : Dev nD) :
    (dat2 (F := Ideal) V c).arrAt 6 cfg2.N
      = Cert.Spec.meanG (Cert.Spec.preLG (V c (Pipeline.arrRef spec2 0)) (V c (Pipeline.arrRef spec2 1)) (V c (Pipeline.arrRef spec2 2)) (V c (Pipeline.arrRef spec2 3)) (V c (Pipeline.arrRef spec2 4))) :=
  (dat2 V c).arrAt_eq_of_cover 6 (Cert.Spec.meanG (SV2.Z V c)) (SV2.flushed_6 V c) SV2.cover_6

/-- THE VARIANCE ROW: the column means of the squares less the squared means. -/
theorem final_stats2_var (c : Dev nD) :
    (dat2 (F := Ideal) V c).arrAt 7 cfg2.N
      = Cert.Spec.varSq (Cert.Spec.preLG (V c (Pipeline.arrRef spec2 0)) (V c (Pipeline.arrRef spec2 1)) (V c (Pipeline.arrRef spec2 2)) (V c (Pipeline.arrRef spec2 3)) (V c (Pipeline.arrRef spec2 4))) :=
  (dat2 V c).arrAt_eq_of_cover 7 (Cert.Spec.varSq (SV2.Z V c)) (SV2.flushed_7 V c) SV2.cover_7

end Cert.KernelIdeal.Hand

end
-- ==== Proof.KI.StatsValue4.lean ====
import proofs.«167925_j62517543961156_1_alg».proof.Proof.KI.Stats4Closed
import proofs.«167925_j62517543961156_1_alg».proof.Proof.KI.StatsPay4
import proofs.«167925_j62517543961156_1_alg».proof.Proof.Spec
import proofs.«167925_j62517543961156_1_alg».proof.Proof.LibBatchNorm
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

/-! # What a later statistics kernel leaves in its mean and variance rows, over the extended reals

    The two accumulator rows hold, after tile `t`, the column sums (and the column sums of squares) of the layer's
    pre-activations over the tiles `0 … t`: a running total from zero, one tile per step; after the last tile these are
    the sums over all 50000 nodes, and the mean and variance rows are formed from them. -/

variable (V : (c : Dev nD) → (b : Ref sig .tc) → Buf (Elt Ideal) ((c : Thread nD τ).loc b))

namespace SV4

/-- The region's five argument arrays — aggregated features, left weights, bias row, hidden state, right weights —
    and the pre-activations of all 50000 nodes. -/
abbrev X (c : Dev nD) : Cert.Spec.Mat 50000 64 := V c (Pipeline.arrRef spec4 0)
abbrev W (c : Dev nD) : Cert.Spec.Mat 64 64 := V c (Pipeline.arrRef spec4 1)
abbrev B (c : Dev nD) : Cert.Spec.Mat 1 64 := V c (Pipeline.arrRef spec4 2)
abbrev H (c : Dev nD) : Cert.Spec.Mat 50000 64 := V c (Pipeline.arrRef spec4 3)
abbrev R (c : Dev nD) : Cert.Spec.Mat 64 64 := V c (Pipeline.arrRef spec4 4)
abbrev Z (c : Dev nD) : Cert.Spec.Mat 50000 64 := Cert.Spec.preLG (X V c) (W V c) (B V c) (H V c) (R V c)

/-- The index maps over the grid: the node tiles move with the point, the weights and the bias stay. -/
theorem idx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = 0 ∧ win4_4.index t (1 : Fin 2) = 0 :=
  (by decide +kernel : ∀ t : Fin grid4.N, _)

/-- Row `r` of node tile `t` is node `r + 5000 t`. -/
def rowOf (t : Fin cfg4.N) (r : Fin 5000) : Fin 50000 :=
  ⟨r.val + 5000 * t.val, by have h1 := t.isLt; have h2 : cfg4.N = 10 := N_4; have h3 := r.isLt; omega⟩

/-- A node tile's block of the aggregated features is the rows of that tile. -/
theorem iblk_0_apply (c : Dev nD) (t : Fin cfg4.N) (r : Fin 5000) (k : Fin 64) :
    (iblk4 V c 0 t : Vec Ideal S5000x64 .f32) (ix2 r k) = X V c (ix2 (rowOf t r) k) := by
  obtain ⟨e0, e1, -⟩ := idx t
  unfold iblk4
  rw [View.read_apply]
  show V c (Pipeline.arrRef spec4 0) _ = V c (Pipeline.arrRef spec4 0) _
  congr 1
  funext a
  apply Fin.ext
  match a with
  | ⟨0, _⟩ => show win4_0.index t (0 : Fin 2) * 5000 + 1 * r.val = r.val + 5000 * t.val; rw [e0]; omega
  | ⟨1, _⟩ => show win4_0.index t (1 : Fin 2) * 64 + 1 * k.val = k.val; rw [e1]; omega

/-- The weights' and the bias row's blocks are the whole arrays. -/
theorem iblk_1_apply (c : Dev nD) (t : Fin cfg4.N) (k : Fin 64) (j : Fin 64) :
    (iblk4 V c 1 t : Vec Ideal S64x64 .f32) (ix2 k j) = W V c (ix2 k j) := by
  obtain ⟨-, -, e2, e3, -⟩ := idx t
  unfold iblk4
  rw [View.read_apply]
  show V c (Pipeline.arrRef spec4 1) _ = V c (Pipeline.arrRef spec4 1) _
  congr 1
  funext a
  apply Fin.ext
  match a with
  | ⟨0, _⟩ => show win4_1.index t (0 : Fin 2) * 64 + 1 * k.val = k.val; rw [e2]; omega
  | ⟨1, _⟩ => show win4_1.index t (1 : Fin 2) * 64 + 1 * j.val = j.val; rw [e3]; omega

theorem iblk_2_apply (c : Dev nD) (t : Fin cfg4.N) (j : Fin 64) :
    (iblk4 V c 2 t : Vec Ideal S1x64 .f32) (ix2 (0 : Fin 1) j) = B V c (ix2 (0 : Fin 1) j) := by
  obtain ⟨-, -, -, -, e4, e5, -⟩ := idx t
  unfold iblk4
  rw [View.read_apply]
  show V c (Pipeline.arrRef spec4 2) _ = V c (Pipeline.arrRef spec4 2) _
  congr 1
  funext a
  apply Fin.ext
  match a with
  | ⟨0, _⟩ => show win4_2.index t (0 : Fin 2) * 1 + 1 * 0 = 0; rw [e4]
  | ⟨1, _⟩ => show win4_2.index t (1 : Fin 2) * 64 + 1 * j.val = j.val; rw [e5]; omega

/-- A node tile's block of the hidden state is the rows of that tile. -/
theorem iblk_3_apply (c : Dev nD) (t : Fin cfg4.N) (r : Fin 5000) (k : Fin 64) :
    (iblk4 V c 3 t : Vec Ideal S5000x64 .f32) (ix2 r k) = H V c (ix2 (rowOf t r) k) := by
  obtain ⟨-, -, -, -, -, -, e6, e7, -⟩ := idx t
  unfold iblk4
  rw [View.read_apply]
  show V c (Pipeline.arrRef spec4 3) _ = V c (Pipeline.arrRef spec4 3) _
  congr 1
  funext a
  apply Fin.ext
  match a with
  | ⟨0, _⟩ => show win4_3.index t (0 : Fin 2) * 5000 + 1 * r.val = r.val + 5000 * t.val; rw [e6]; omega
  | ⟨1, _⟩ => show win4_3.index t (1 : Fin 2) * 64 + 1 * k.val = k.val; rw [e7]; omega

theorem iblk_4_apply (c : Dev nD) (t : Fin cfg4.N) (k : Fin 64) (j : Fin 64) :
    (iblk4 V c 4 t : Vec Ideal S64x64 .f32) (ix2 k j) = R V c (ix2 k j) := by
  obtain ⟨-, -, -, -, -, -, -, -, e8, e9⟩ := idx t
  unfold iblk4
  rw [View.read_apply]
  show V c (Pipeline.arrRef spec4 4) _ = V c (Pipeline.arrRef spec4 4) _
  congr 1
  funext a
  apply Fin.ext
  match a with
  | ⟨0, _⟩ => show win4_4.index t (0 : Fin 2) * 64 + 1 * k.val = k.val; rw [e8]; omega
  | ⟨1, _⟩ => show win4_4.index t (1 : Fin 2) * 64 + 1 * j.val = j.val; rw [e9]; omega

/-- The tile's pre-activations are the rows of that tile of the whole pre-activation array. -/
theorem pre_tile (c : Dev nD) (t : Fin cfg4.N) (r : Fin 5000) (j : Fin 64) :
    k4_pay6 (F := Ideal) (iblk4 V c 0 t) (iblk4 V c 1 t) (iblk4 V c 2 t) (iblk4 V c 3 t) (iblk4 V c 4 t) (ix2 r j) = Z V c (ix2 (rowOf t r) j) := by
  refine (pay4_pre (iblk4 V c 0 t) (iblk4 V c 1 t) (iblk4 V c 2 t) (iblk4 V c 3 t) (iblk4 V c 4 t) r j).trans ?_
  refine Eq.trans ?_ (Cert.Spec.preLG_apply (X V c) (W V c) (B V c) (H V c) (R V c) (rowOf t r) j).symm
  refine congrArg₂ (· + ·) (congrArg₂ (· + ·) (Finset.sum_congr rfl fun k _ => ?_) (iblk_2_apply V c t j)) (Finset.sum_congr rfl fun k _ => ?_)
  · rw [iblk_0_apply V c t r k, iblk_1_apply V c t k j]
  · rw [iblk_3_apply V c t r k, iblk_4_apply V c t k j]

/-- The column sums over one tile's rows of a function of the node, as the step sum has them. -/
abbrev tileSum (f : Fin (10 * 5000) → EReal) (s : ℕ) : EReal :=
  if h : s < 10 then ∑ r : Fin 5000, f (finProdFinEquiv (⟨s, h⟩, r)) else 0

theorem tile_colsum (c : Dev nD) (t : Fin cfg4.N) (j : Fin 64) :
    ∑ r : Fin 5000, k4_pay6 (F := Ideal) (iblk4 V c 0 t) (iblk4 V c 1 t) (iblk4 V c 2 t) (iblk4 V c 3 t) (iblk4 V c 4 t) (ix2 r j)
      = tileSum (fun i => Z V c (ix2 i j)) t.val := by
  have hN : t.val < 10 := lt_of_lt_of_eq t.isLt N_4
  show _ = dite _ _ _
  rw [dif_pos hN]
  exact Finset.sum_congr rfl fun r _ => (pre_tile V c t r j).trans (congrArg (fun i => Z V c (ix2 i j)) (Fin.ext rfl))

theorem tile_colsumsq (c : Dev nD) (t : Fin cfg4.N) (j : Fin 64) :
    ∑ r : Fin 5000, k4_pay6 (F := Ideal) (iblk4 V c 0 t) (iblk4 V c 1 t) (iblk4 V c 2 t) (iblk4 V c 3 t) (iblk4 V c 4 t) (ix2 r j)
        * k4_pay6 (F := Ideal) (iblk4 V c 0 t) (iblk4 V c 1 t) (iblk4 V c 2 t) (iblk4 V c 3 t) (iblk4 V c 4 t) (ix2 r j)
      = tileSum (fun i => Z V c (ix2 i j) * Z V c (ix2 i j)) t.val := by
  have hN : t.val < 10 := lt_of_lt_of_eq t.isLt N_4
  show _ = dite _ _ _
  rw [dif_pos hN]
  exact Finset.sum_congr rfl fun r _ => by
    rw [pre_tile V c t r j]
    exact congrArg (fun i => Z V c (ix2 i j) * Z V c (ix2 i j)) (Fin.ext rfl)

/-- After tile `n` the row of column sums holds the sums over the tiles `0 … n`: from zero, one tile per step. -/
theorem S_sum (c : Dev nD) (j : Fin 64) : ∀ (n : ℕ) (hn : n < cfg4.N),
    S4 V c n hn (ix2 (0 : Fin 1) j) = ∑ s ∈ Finset.range (n + 1), tileSum (fun i => Z V c (ix2 i j)) s
  | 0, hn => by
    rw [S4_zero V c hn]
    refine (pay4_sum (iblk4 V c 0 ⟨0, hn⟩) (iblk4 V c 1 ⟨0, hn⟩) (iblk4 V c 2 ⟨0, hn⟩) (iblk4 V c 3 ⟨0, hn⟩) (iblk4 V c 4 ⟨0, hn⟩) (k4_pay4 (F := Ideal)) j).trans ?_
    rw [pay4_zero1 j, zero_add, Finset.sum_range_one]
    exact tile_colsum V c ⟨0, hn⟩ j
  | n + 1, hn => by
    rw [S4_succ V c n hn]
    refine (pay4_sum (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (S4 V c n (Nat.lt_of_succ_lt hn)) j).trans ?_
    rw [S_sum c j n (Nat.lt_of_succ_lt hn), Finset.sum_range_succ _ (n + 1)]
    exact congrArg _ (tile_colsum V c ⟨n + 1, hn⟩ j)

theorem Q_sum (c : Dev nD) (j : Fin 64) : ∀ (n : ℕ) (hn : n < cfg4.N),
    Q4 V c n hn (ix2 (0 : Fin 1) j) = ∑ s ∈ Finset.range (n + 1), tileSum (fun i => Z V c (ix2 i j) * Z V c (ix2 i j)) s
  | 0, hn => by
    rw [Q4_zero V c hn, pay4_keep]
    refine (pay4_sumsq (iblk4 V c 0 ⟨0, hn⟩) (iblk4 V c 1 ⟨0, hn⟩) (iblk4 V c 2 ⟨0, hn⟩) (iblk4 V c 3 ⟨0, hn⟩) (iblk4 V c 4 ⟨0, hn⟩) (k4_pay5 (F := Ideal)) j).trans ?_
    rw [pay4_zero2 j, zero_add, Finset.sum_range_one]
    exact tile_colsumsq V c ⟨0, hn⟩ j
  | n + 1, hn => by
    rw [Q4_succ V c n hn, pay4_keep]
    refine (pay4_sumsq (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (Q4 V c n (Nat.lt_of_succ_lt hn)) j).trans ?_
    rw [Q_sum c j n (Nat.lt_of_succ_lt hn), Finset.sum_range_succ _ (n + 1)]
    exact congrArg _ (tile_colsumsq V c ⟨n + 1, hn⟩ j)

/-- After the last tile: the column sums, and the column sums of squares, over all 50000 nodes. -/
theorem S_final (c : Dev nD) (j : Fin 64) (hn : 8 + 1 < cfg4.N) :
    S4 V c (8 + 1) hn (ix2 (0 : Fin 1) j) = ∑ r : Fin 50000, Z V c (ix2 r j) := by
  rw [S_sum V c j (8 + 1) hn]
  exact (Cert.Lib.BatchNorm.sum_steps 10 5000 (fun i => Z V c (ix2 i j))).symm

theorem Q_final (c : Dev nD) (j : Fin 64) (hn : 8 + 1 < cfg4.N) :
    Q4 V c (8 + 1) hn (ix2 (0 : Fin 1) j) = ∑ r : Fin 50000, Z V c (ix2 r j) * Z V c (ix2 r j) := by
  rw [Q_sum V c j (8 + 1) hn]
  exact (Cert.Lib.BatchNorm.sum_steps 10 5000 (fun i => Z V c (ix2 i j) * Z V c (ix2 i j))).symm

/-- So the mean row and the variance row the last tile stores are the specification's. -/
theorem mean_row (c : Dev nD) (hn : 8 + 1 < cfg4.N) :
    (outsAt4 V c (8 + 1) hn).2.1 = Cert.Spec.meanG (Z V c) := by
  rw [mean4_last V c hn]
  funext i
  obtain ⟨u, j, rfl⟩ : ∃ (u : Fin 1) (j : Fin 64), i = ix2 u j := ⟨i 0, i 1, eq_ix2 i⟩
  obtain rfl : u = 0 := Subsingleton.elim _ _
  refine (pay4_mean (S4 V c (8 + 1) hn) j).trans ?_
  rw [S_final V c j hn]
  rfl

theorem var_row (c : Dev nD) (hn : 8 + 1 < cfg4.N) :
    (outsAt4 V c (8 + 1) hn).2.2.1 = Cert.Spec.varSq (Z V c) := by
  rw [var4_last V c hn]
  funext i
  obtain ⟨u, j, rfl⟩ : ∃ (u : Fin 1) (j : Fin 64), i = ix2 u j := ⟨i 0, i 1, eq_ix2 i⟩
  obtain rfl : u = 0 := Subsingleton.elim _ _
  refine (pay4_var (S4 V c (8 + 1) hn) (Q4 V c (8 + 1) hn) j).trans ?_
  rw [S_final V c j hn, Q_final V c j hn]
  rfl

/-! ## From the last tile's write-backs to the arrays -/

/-- Only the last point writes the mean and variance rows back, and it writes the rows formed from the totals. -/
theorem flushed_6 (c : Dev nD) (t : Fin cfg4.N) (hf : (cfg4.win 6).flush t = true) :
    (dat4 V c).flushed 6 t = ((cfg4.win 6).blk t).view.read (Elt Ideal) (Cert.Spec.meanG (Z V c)) := by
  have hN : cfg4.N = 10 := N_4
  have h9 : t.val = 9 := by have := (flush4_6 t).mp hf; have := t.isLt; omega
  obtain rfl : t = t4_9 := Fin.ext h9
  show (cfg4.win 6).cut (grid4.coords t4_9) ((dat4 V c).after 6 t4_9) = _
  rw [after4_6, show (outsAt4 V c t4_9.val t4_9.isLt).2.1 = Cert.Spec.meanG (Z V c) from mean_row V c _]
  have hz' : (fun a => win4_6.index t4_9 a * main_v68_1.ty.shape.size a) = fun _ => 0 := funext fun a => by fin_cases a <;> decide +kernel
  exact (Memref.read_access_unit_zero (Elt Ideal) main_v68_1 hz' (fun a => by rw [congrFun hz' a]; simp) (Cert.Spec.meanG (Z V c))).symm

theorem flushed_7 (c : Dev nD) (t : Fin cfg4.N) (hf : (cfg4.win 7).flush t = true) :
    (dat4 V c).flushed 7 t = ((cfg4.win 7).blk t).view.read (Elt Ideal) (Cert.Spec.varSq (Z V c)) := by
  have hN : cfg4.N = 10 := N_4
  have h9 : t.val = 9 := by have := (flush4_7 t).mp hf; have := t.isLt; omega
  obtain rfl : t = t4_9 := Fin.ext h9
  show (cfg4.win 7).cut (grid4.coords t4_9) ((dat4 V c).after 7 t4_9) = _
  rw [after4_7, show (outsAt4 V c t4_9.val t4_9.isLt).2.2.1 = Cert.Spec.varSq (Z V c) from var_row V c _]
  have hz' : (fun a => win4_7.index t4_9 a * main_v68_2.ty.shape.size a) = fun _ => 0 := funext fun a => by fin_cases a <;> decide +kernel
  exact (Memref.read_access_unit_zero (Elt Ideal) main_v68_2 hz' (fun a => by rw [congrFun hz' a]; simp) (Cert.Spec.varSq (Z V c))).symm

/-- The last point's block is the whole row. -/
theorem cover_6 (i : S1x64.Idx) :
    ∃ t : Fin cfg4.N, (cfg4.win 6).flush t = true ∧ i ∈ ((cfg4.win 6).blk t).view.set :=
  ⟨t4_9, (flush4_6 t4_9).mpr rfl, by
    show i ∈ ((View.whole main_v68_1).slice (win4_6.rect t4_9)).set
    rw [View.set_slice_whole, Rect.mem_set_unit]
    intro a
    have h0 : (i 0 : Nat) < 1 := (i 0).isLt
    have h1 : (i 1 : Nat) < 64 := (i 1).isLt
    match a with
    | ⟨0, _⟩ => show win4_6.index t4_9 0 * win4_6.size 0 ≤ (i 0 : Nat) ∧ (i 0 : Nat) < win4_6.index t4_9 0 * win4_6.size 0 + win4_6.xsize (grid4.coords t4_9) 0
                rw [show win4_6.index t4_9 0 * win4_6.size 0 = 0 from by decide +kernel, show win4_6.xsize (grid4.coords t4_9) 0 = 1 from by decide +kernel]; omega
    | ⟨1, _⟩ => show win4_6.index t4_9 1 * win4_6.size 1 ≤ (i 1 : Nat) ∧ (i 1 : Nat) < win4_6.index t4_9 1 * win4_6.size 1 + win4_6.xsize (grid4.coords t4_9) 1
                rw [show win4_6.index t4_9 1 * win4_6.size 1 = 0 from by decide +kernel, show win4_6.xsize (grid4.coords t4_9) 1 = 64 from by decide +kernel]; omega⟩

theorem cover_7 (i : S1x64.Idx) :
    ∃ t : Fin cfg4.N, (cfg4.win 7).flush t = true ∧ i ∈ ((cfg4.win 7).blk t).view.set :=
  ⟨t4_9, (flush4_7 t4_9).mpr rfl, by
    show i ∈ ((View.whole main_v68_2).slice (win4_7.rect t4_9)).set
    rw [View.set_slice_whole, Rect.mem_set_unit]
    intro a
    have h0 : (i 0 : Nat) < 1 := (i 0).isLt
    have h1 : (i 1 : Nat) < 64 := (i 1).isLt
    match a with
    | ⟨0, _⟩ => show win4_7.index t4_9 0 * win4_7.size 0 ≤ (i 0 : Nat) ∧ (i 0 : Nat) < win4_7.index t4_9 0 * win4_7.size 0 + win4_7.xsize (grid4.coords t4_9) 0
                rw [show win4_7.index t4_9 0 * win4_7.size 0 = 0 from by decide +kernel, show win4_7.xsize (grid4.coords t4_9) 0 = 1 from by decide +kernel]; omega
    | ⟨1, _⟩ => show win4_7.index t4_9 1 * win4_7.size 1 ≤ (i 1 : Nat) ∧ (i 1 : Nat) < win4_7.index t4_9 1 * win4_7.size 1 + win4_7.xsize (grid4.coords t4_9) 1
                rw [show win4_7.index t4_9 1 * win4_7.size 1 = 0 from by decide +kernel, show win4_7.xsize (grid4.coords t4_9) 1 = 64 from by decide +kernel]; omega⟩

end SV4

/-- THE MEAN ROW this statistics kernel leaves: the column means of the layer's pre-activations. -/
theorem final_stats4_mean (c : Dev nD) :
    (dat4 (F := Ideal) V c).arrAt 6 cfg4.N
      = Cert.Spec.meanG (Cert.Spec.preLG (V c (Pipeline.arrRef spec4 0)) (V c (Pipeline.arrRef spec4 1)) (V c (Pipeline.arrRef spec4 2)) (V c (Pipeline.arrRef spec4 3)) (V c (Pipeline.arrRef spec4 4))) :=
  (dat4 V c).arrAt_eq_of_cover 6 (Cert.Spec.meanG (SV4.Z V c)) (SV4.flushed_6 V c) SV4.cover_6

/-- THE VARIANCE ROW: the column means of the squares less the squared means. -/
theorem final_stats4_var (c : Dev nD) :
    (dat4 (F := Ideal) V c).arrAt 7 cfg4.N
      = Cert.Spec.varSq (Cert.Spec.preLG (V c (Pipeline.arrRef spec4 0)) (V c (Pipeline.arrRef spec4 1)) (V c (Pipeline.arrRef spec4 2)) (V c (Pipeline.arrRef spec4 3)) (V c (Pipeline.arrRef spec4 4))) :=
  (dat4 V c).arrAt_eq_of_cover 7 (Cert.Spec.varSq (SV4.Z V c)) (SV4.flushed_7 V c) SV4.cover_7

end Cert.KernelIdeal.Hand

end
-- ==== Proof.KI.StatsValue6.lean ====
import proofs.«167925_j62517543961156_1_alg».proof.Proof.KI.Stats6Closed
import proofs.«167925_j62517543961156_1_alg».proof.Proof.KI.StatsPay6
import proofs.«167925_j62517543961156_1_alg».proof.Proof.Spec
import proofs.«167925_j62517543961156_1_alg».proof.Proof.LibBatchNorm
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

/-! # What a later statistics kernel leaves in its mean and variance rows, over the extended reals

    The two accumulator rows hold, after tile `t`, the column sums (and the column sums of squares) of the layer's
    pre-activations over the tiles `0 … t`: a running total from zero, one tile per step; after the last tile these are
    the sums over all 50000 nodes, and the mean and variance rows are formed from them. -/

variable (V : (c : Dev nD) → (b : Ref sig .tc) → Buf (Elt Ideal) ((c : Thread nD τ).loc b))

namespace SV6

/-- The region's five argument arrays — aggregated features, left weights, bias row, hidden state, right weights —
    and the pre-activations of all 50000 nodes. -/
abbrev X (c : Dev nD) : Cert.Spec.Mat 50000 64 := V c (Pipeline.arrRef spec6 0)
abbrev W (c : Dev nD) : Cert.Spec.Mat 64 64 := V c (Pipeline.arrRef spec6 1)
abbrev B (c : Dev nD) : Cert.Spec.Mat 1 64 := V c (Pipeline.arrRef spec6 2)
abbrev H (c : Dev nD) : Cert.Spec.Mat 50000 64 := V c (Pipeline.arrRef spec6 3)
abbrev R (c : Dev nD) : Cert.Spec.Mat 64 64 := V c (Pipeline.arrRef spec6 4)
abbrev Z (c : Dev nD) : Cert.Spec.Mat 50000 64 := Cert.Spec.preLG (X V c) (W V c) (B V c) (H V c) (R V c)

/-- The index maps over the grid: the node tiles move with the point, the weights and the bias stay. -/
theorem idx : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0
    ∧ win6_4.index t (0 : Fin 2) = 0 ∧ win6_4.index t (1 : Fin 2) = 0 :=
  (by decide +kernel : ∀ t : Fin grid6.N, _)

/-- Row `r` of node tile `t` is node `r + 5000 t`. -/
def rowOf (t : Fin cfg6.N) (r : Fin 5000) : Fin 50000 :=
  ⟨r.val + 5000 * t.val, by have h1 := t.isLt; have h2 : cfg6.N = 10 := N_6; have h3 := r.isLt; omega⟩

/-- A node tile's block of the aggregated features is the rows of that tile. -/
theorem iblk_0_apply (c : Dev nD) (t : Fin cfg6.N) (r : Fin 5000) (k : Fin 64) :
    (iblk6 V c 0 t : Vec Ideal S5000x64 .f32) (ix2 r k) = X V c (ix2 (rowOf t r) k) := by
  obtain ⟨e0, e1, -⟩ := idx t
  unfold iblk6
  rw [View.read_apply]
  show V c (Pipeline.arrRef spec6 0) _ = V c (Pipeline.arrRef spec6 0) _
  congr 1
  funext a
  apply Fin.ext
  match a with
  | ⟨0, _⟩ => show win6_0.index t (0 : Fin 2) * 5000 + 1 * r.val = r.val + 5000 * t.val; rw [e0]; omega
  | ⟨1, _⟩ => show win6_0.index t (1 : Fin 2) * 64 + 1 * k.val = k.val; rw [e1]; omega

/-- The weights' and the bias row's blocks are the whole arrays. -/
theorem iblk_1_apply (c : Dev nD) (t : Fin cfg6.N) (k : Fin 64) (j : Fin 64) :
    (iblk6 V c 1 t : Vec Ideal S64x64 .f32) (ix2 k j) = W V c (ix2 k j) := by
  obtain ⟨-, -, e2, e3, -⟩ := idx t
  unfold iblk6
  rw [View.read_apply]
  show V c (Pipeline.arrRef spec6 1) _ = V c (Pipeline.arrRef spec6 1) _
  congr 1
  funext a
  apply Fin.ext
  match a with
  | ⟨0, _⟩ => show win6_1.index t (0 : Fin 2) * 64 + 1 * k.val = k.val; rw [e2]; omega
  | ⟨1, _⟩ => show win6_1.index t (1 : Fin 2) * 64 + 1 * j.val = j.val; rw [e3]; omega

theorem iblk_2_apply (c : Dev nD) (t : Fin cfg6.N) (j : Fin 64) :
    (iblk6 V c 2 t : Vec Ideal S1x64 .f32) (ix2 (0 : Fin 1) j) = B V c (ix2 (0 : Fin 1) j) := by
  obtain ⟨-, -, -, -, e4, e5, -⟩ := idx t
  unfold iblk6
  rw [View.read_apply]
  show V c (Pipeline.arrRef spec6 2) _ = V c (Pipeline.arrRef spec6 2) _
  congr 1
  funext a
  apply Fin.ext
  match a with
  | ⟨0, _⟩ => show win6_2.index t (0 : Fin 2) * 1 + 1 * 0 = 0; rw [e4]
  | ⟨1, _⟩ => show win6_2.index t (1 : Fin 2) * 64 + 1 * j.val = j.val; rw [e5]; omega

/-- A node tile's block of the hidden state is the rows of that tile. -/
theorem iblk_3_apply (c : Dev nD) (t : Fin cfg6.N) (r : Fin 5000) (k : Fin 64) :
    (iblk6 V c 3 t : Vec Ideal S5000x64 .f32) (ix2 r k) = H V c (ix2 (rowOf t r) k) := by
  obtain ⟨-, -, -, -, -, -, e6, e7, -⟩ := idx t
  unfold iblk6
  rw [View.read_apply]
  show V c (Pipeline.arrRef spec6 3) _ = V c (Pipeline.arrRef spec6 3) _
  congr 1
  funext a
  apply Fin.ext
  match a with
  | ⟨0, _⟩ => show win6_3.index t (0 : Fin 2) * 5000 + 1 * r.val = r.val + 5000 * t.val; rw [e6]; omega
  | ⟨1, _⟩ => show win6_3.index t (1 : Fin 2) * 64 + 1 * k.val = k.val; rw [e7]; omega

theorem iblk_4_apply (c : Dev nD) (t : Fin cfg6.N) (k : Fin 64) (j : Fin 64) :
    (iblk6 V c 4 t : Vec Ideal S64x64 .f32) (ix2 k j) = R V c (ix2 k j) := by
  obtain ⟨-, -, -, -, -, -, -, -, e8, e9⟩ := idx t
  unfold iblk6
  rw [View.read_apply]
  show V c (Pipeline.arrRef spec6 4) _ = V c (Pipeline.arrRef spec6 4) _
  congr 1
  funext a
  apply Fin.ext
  match a with
  | ⟨0, _⟩ => show win6_4.index t (0 : Fin 2) * 64 + 1 * k.val = k.val; rw [e8]; omega
  | ⟨1, _⟩ => show win6_4.index t (1 : Fin 2) * 64 + 1 * j.val = j.val; rw [e9]; omega

/-- The tile's pre-activations are the rows of that tile of the whole pre-activation array. -/
theorem pre_tile (c : Dev nD) (t : Fin cfg6.N) (r : Fin 5000) (j : Fin 64) :
    k6_pay6 (F := Ideal) (iblk6 V c 0 t) (iblk6 V c 1 t) (iblk6 V c 2 t) (iblk6 V c 3 t) (iblk6 V c 4 t) (ix2 r j) = Z V c (ix2 (rowOf t r) j) := by
  refine (pay6_pre (iblk6 V c 0 t) (iblk6 V c 1 t) (iblk6 V c 2 t) (iblk6 V c 3 t) (iblk6 V c 4 t) r j).trans ?_
  refine Eq.trans ?_ (Cert.Spec.preLG_apply (X V c) (W V c) (B V c) (H V c) (R V c) (rowOf t r) j).symm
  refine congrArg₂ (· + ·) (congrArg₂ (· + ·) (Finset.sum_congr rfl fun k _ => ?_) (iblk_2_apply V c t j)) (Finset.sum_congr rfl fun k _ => ?_)
  · rw [iblk_0_apply V c t r k, iblk_1_apply V c t k j]
  · rw [iblk_3_apply V c t r k, iblk_4_apply V c t k j]

/-- The column sums over one tile's rows of a function of the node, as the step sum has them. -/
abbrev tileSum (f : Fin (10 * 5000) → EReal) (s : ℕ) : EReal :=
  if h : s < 10 then ∑ r : Fin 5000, f (finProdFinEquiv (⟨s, h⟩, r)) else 0

theorem tile_colsum (c : Dev nD) (t : Fin cfg6.N) (j : Fin 64) :
    ∑ r : Fin 5000, k6_pay6 (F := Ideal) (iblk6 V c 0 t) (iblk6 V c 1 t) (iblk6 V c 2 t) (iblk6 V c 3 t) (iblk6 V c 4 t) (ix2 r j)
      = tileSum (fun i => Z V c (ix2 i j)) t.val := by
  have hN : t.val < 10 := lt_of_lt_of_eq t.isLt N_6
  show _ = dite _ _ _
  rw [dif_pos hN]
  exact Finset.sum_congr rfl fun r _ => (pre_tile V c t r j).trans (congrArg (fun i => Z V c (ix2 i j)) (Fin.ext rfl))

theorem tile_colsumsq (c : Dev nD) (t : Fin cfg6.N) (j : Fin 64) :
    ∑ r : Fin 5000, k6_pay6 (F := Ideal) (iblk6 V c 0 t) (iblk6 V c 1 t) (iblk6 V c 2 t) (iblk6 V c 3 t) (iblk6 V c 4 t) (ix2 r j)
        * k6_pay6 (F := Ideal) (iblk6 V c 0 t) (iblk6 V c 1 t) (iblk6 V c 2 t) (iblk6 V c 3 t) (iblk6 V c 4 t) (ix2 r j)
      = tileSum (fun i => Z V c (ix2 i j) * Z V c (ix2 i j)) t.val := by
  have hN : t.val < 10 := lt_of_lt_of_eq t.isLt N_6
  show _ = dite _ _ _
  rw [dif_pos hN]
  exact Finset.sum_congr rfl fun r _ => by
    rw [pre_tile V c t r j]
    exact congrArg (fun i => Z V c (ix2 i j) * Z V c (ix2 i j)) (Fin.ext rfl)

/-- After tile `n` the row of column sums holds the sums over the tiles `0 … n`: from zero, one tile per step. -/
theorem S_sum (c : Dev nD) (j : Fin 64) : ∀ (n : ℕ) (hn : n < cfg6.N),
    S6 V c n hn (ix2 (0 : Fin 1) j) = ∑ s ∈ Finset.range (n + 1), tileSum (fun i => Z V c (ix2 i j)) s
  | 0, hn => by
    rw [S6_zero V c hn]
    refine (pay6_sum (iblk6 V c 0 ⟨0, hn⟩) (iblk6 V c 1 ⟨0, hn⟩) (iblk6 V c 2 ⟨0, hn⟩) (iblk6 V c 3 ⟨0, hn⟩) (iblk6 V c 4 ⟨0, hn⟩) (k6_pay4 (F := Ideal)) j).trans ?_
    rw [pay6_zero1 j, zero_add, Finset.sum_range_one]
    exact tile_colsum V c ⟨0, hn⟩ j
  | n + 1, hn => by
    rw [S6_succ V c n hn]
    refine (pay6_sum (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (S6 V c n (Nat.lt_of_succ_lt hn)) j).trans ?_
    rw [S_sum c j n (Nat.lt_of_succ_lt hn), Finset.sum_range_succ _ (n + 1)]
    exact congrArg _ (tile_colsum V c ⟨n + 1, hn⟩ j)

theorem Q_sum (c : Dev nD) (j : Fin 64) : ∀ (n : ℕ) (hn : n < cfg6.N),
    Q6 V c n hn (ix2 (0 : Fin 1) j) = ∑ s ∈ Finset.range (n + 1), tileSum (fun i => Z V c (ix2 i j) * Z V c (ix2 i j)) s
  | 0, hn => by
    rw [Q6_zero V c hn, pay6_keep]
    refine (pay6_sumsq (iblk6 V c 0 ⟨0, hn⟩) (iblk6 V c 1 ⟨0, hn⟩) (iblk6 V c 2 ⟨0, hn⟩) (iblk6 V c 3 ⟨0, hn⟩) (iblk6 V c 4 ⟨0, hn⟩) (k6_pay5 (F := Ideal)) j).trans ?_
    rw [pay6_zero2 j, zero_add, Finset.sum_range_one]
    exact tile_colsumsq V c ⟨0, hn⟩ j
  | n + 1, hn => by
    rw [Q6_succ V c n hn, pay6_keep]
    refine (pay6_sumsq (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (Q6 V c n (Nat.lt_of_succ_lt hn)) j).trans ?_
    rw [Q_sum c j n (Nat.lt_of_succ_lt hn), Finset.sum_range_succ _ (n + 1)]
    exact congrArg _ (tile_colsumsq V c ⟨n + 1, hn⟩ j)

/-- After the last tile: the column sums, and the column sums of squares, over all 50000 nodes. -/
theorem S_final (c : Dev nD) (j : Fin 64) (hn : 8 + 1 < cfg6.N) :
    S6 V c (8 + 1) hn (ix2 (0 : Fin 1) j) = ∑ r : Fin 50000, Z V c (ix2 r j) := by
  rw [S_sum V c j (8 + 1) hn]
  exact (Cert.Lib.BatchNorm.sum_steps 10 5000 (fun i => Z V c (ix2 i j))).symm

theorem Q_final (c : Dev nD) (j : Fin 64) (hn : 8 + 1 < cfg6.N) :
    Q6 V c (8 + 1) hn (ix2 (0 : Fin 1) j) = ∑ r : Fin 50000, Z V c (ix2 r j) * Z V c (ix2 r j) := by
  rw [Q_sum V c j (8 + 1) hn]
  exact (Cert.Lib.BatchNorm.sum_steps 10 5000 (fun i => Z V c (ix2 i j) * Z V c (ix2 i j))).symm

/-- So the mean row and the variance row the last tile stores are the specification's. -/
theorem mean_row (c : Dev nD) (hn : 8 + 1 < cfg6.N) :
    (outsAt6 V c (8 + 1) hn).2.1 = Cert.Spec.meanG (Z V c) := by
  rw [mean6_last V c hn]
  funext i
  obtain ⟨u, j, rfl⟩ : ∃ (u : Fin 1) (j : Fin 64), i = ix2 u j := ⟨i 0, i 1, eq_ix2 i⟩
  obtain rfl : u = 0 := Subsingleton.elim _ _
  refine (pay6_mean (S6 V c (8 + 1) hn) j).trans ?_
  rw [S_final V c j hn]
  rfl

theorem var_row (c : Dev nD) (hn : 8 + 1 < cfg6.N) :
    (outsAt6 V c (8 + 1) hn).2.2.1 = Cert.Spec.varSq (Z V c) := by
  rw [var6_last V c hn]
  funext i
  obtain ⟨u, j, rfl⟩ : ∃ (u : Fin 1) (j : Fin 64), i = ix2 u j := ⟨i 0, i 1, eq_ix2 i⟩
  obtain rfl : u = 0 := Subsingleton.elim _ _
  refine (pay6_var (S6 V c (8 + 1) hn) (Q6 V c (8 + 1) hn) j).trans ?_
  rw [S_final V c j hn, Q_final V c j hn]
  rfl

/-! ## From the last tile's write-backs to the arrays -/

/-- Only the last point writes the mean and variance rows back, and it writes the rows formed from the totals. -/
theorem flushed_6 (c : Dev nD) (t : Fin cfg6.N) (hf : (cfg6.win 6).flush t = true) :
    (dat6 V c).flushed 6 t = ((cfg6.win 6).blk t).view.read (Elt Ideal) (Cert.Spec.meanG (Z V c)) := by
  have hN : cfg6.N = 10 := N_6
  have h9 : t.val = 9 := by have := (flush6_6 t).mp hf; have := t.isLt; omega
  obtain rfl : t = t6_9 := Fin.ext h9
  show (cfg6.win 6).cut (grid6.coords t6_9) ((dat6 V c).after 6 t6_9) = _
  rw [after6_6, show (outsAt6 V c t6_9.val t6_9.isLt).2.1 = Cert.Spec.meanG (Z V c) from mean_row V c _]
  have hz' : (fun a => win6_6.index t6_9 a * main_v95_1.ty.shape.size a) = fun _ => 0 := funext fun a => by fin_cases a <;> decide +kernel
  exact (Memref.read_access_unit_zero (Elt Ideal) main_v95_1 hz' (fun a => by rw [congrFun hz' a]; simp) (Cert.Spec.meanG (Z V c))).symm

theorem flushed_7 (c : Dev nD) (t : Fin cfg6.N) (hf : (cfg6.win 7).flush t = true) :
    (dat6 V c).flushed 7 t = ((cfg6.win 7).blk t).view.read (Elt Ideal) (Cert.Spec.varSq (Z V c)) := by
  have hN : cfg6.N = 10 := N_6
  have h9 : t.val = 9 := by have := (flush6_7 t).mp hf; have := t.isLt; omega
  obtain rfl : t = t6_9 := Fin.ext h9
  show (cfg6.win 7).cut (grid6.coords t6_9) ((dat6 V c).after 7 t6_9) = _
  rw [after6_7, show (outsAt6 V c t6_9.val t6_9.isLt).2.2.1 = Cert.Spec.varSq (Z V c) from var_row V c _]
  have hz' : (fun a => win6_7.index t6_9 a * main_v95_2.ty.shape.size a) = fun _ => 0 := funext fun a => by fin_cases a <;> decide +kernel
  exact (Memref.read_access_unit_zero (Elt Ideal) main_v95_2 hz' (fun a => by rw [congrFun hz' a]; simp) (Cert.Spec.varSq (Z V c))).symm

/-- The last point's block is the whole row. -/
theorem cover_6 (i : S1x64.Idx) :
    ∃ t : Fin cfg6.N, (cfg6.win 6).flush t = true ∧ i ∈ ((cfg6.win 6).blk t).view.set :=
  ⟨t6_9, (flush6_6 t6_9).mpr rfl, by
    show i ∈ ((View.whole main_v95_1).slice (win6_6.rect t6_9)).set
    rw [View.set_slice_whole, Rect.mem_set_unit]
    intro a
    have h0 : (i 0 : Nat) < 1 := (i 0).isLt
    have h1 : (i 1 : Nat) < 64 := (i 1).isLt
    match a with
    | ⟨0, _⟩ => show win6_6.index t6_9 0 * win6_6.size 0 ≤ (i 0 : Nat) ∧ (i 0 : Nat) < win6_6.index t6_9 0 * win6_6.size 0 + win6_6.xsize (grid6.coords t6_9) 0
                rw [show win6_6.index t6_9 0 * win6_6.size 0 = 0 from by decide +kernel, show win6_6.xsize (grid6.coords t6_9) 0 = 1 from by decide +kernel]; omega
    | ⟨1, _⟩ => show win6_6.index t6_9 1 * win6_6.size 1 ≤ (i 1 : Nat) ∧ (i 1 : Nat) < win6_6.index t6_9 1 * win6_6.size 1 + win6_6.xsize (grid6.coords t6_9) 1
                rw [show win6_6.index t6_9 1 * win6_6.size 1 = 0 from by decide +kernel, show win6_6.xsize (grid6.coords t6_9) 1 = 64 from by decide +kernel]; omega⟩

theorem cover_7 (i : S1x64.Idx) :
    ∃ t : Fin cfg6.N, (cfg6.win 7).flush t = true ∧ i ∈ ((cfg6.win 7).blk t).view.set :=
  ⟨t6_9, (flush6_7 t6_9).mpr rfl, by
    show i ∈ ((View.whole main_v95_2).slice (win6_7.rect t6_9)).set
    rw [View.set_slice_whole, Rect.mem_set_unit]
    intro a
    have h0 : (i 0 : Nat) < 1 := (i 0).isLt
    have h1 : (i 1 : Nat) < 64 := (i 1).isLt
    match a with
    | ⟨0, _⟩ => show win6_7.index t6_9 0 * win6_7.size 0 ≤ (i 0 : Nat) ∧ (i 0 : Nat) < win6_7.index t6_9 0 * win6_7.size 0 + win6_7.xsize (grid6.coords t6_9) 0
                rw [show win6_7.index t6_9 0 * win6_7.size 0 = 0 from by decide +kernel, show win6_7.xsize (grid6.coords t6_9) 0 = 1 from by decide +kernel]; omega
    | ⟨1, _⟩ => show win6_7.index t6_9 1 * win6_7.size 1 ≤ (i 1 : Nat) ∧ (i 1 : Nat) < win6_7.index t6_9 1 * win6_7.size 1 + win6_7.xsize (grid6.coords t6_9) 1
                rw [show win6_7.index t6_9 1 * win6_7.size 1 = 0 from by decide +kernel, show win6_7.xsize (grid6.coords t6_9) 1 = 64 from by decide +kernel]; omega⟩

end SV6

/-- THE MEAN ROW this statistics kernel leaves: the column means of the layer's pre-activations. -/
theorem final_stats6_mean (c : Dev nD) :
    (dat6 (F := Ideal) V c).arrAt 6 cfg6.N
      = Cert.Spec.meanG (Cert.Spec.preLG (V c (Pipeline.arrRef spec6 0)) (V c (Pipeline.arrRef spec6 1)) (V c (Pipeline.arrRef spec6 2)) (V c (Pipeline.arrRef spec6 3)) (V c (Pipeline.arrRef spec6 4))) :=
  (dat6 V c).arrAt_eq_of_cover 6 (Cert.Spec.meanG (SV6.Z V c)) (SV6.flushed_6 V c) SV6.cover_6

/-- THE VARIANCE ROW: the column means of the squares less the squared means. -/
theorem final_stats6_var (c : Dev nD) :
    (dat6 (F := Ideal) V c).arrAt 7 cfg6.N
      = Cert.Spec.varSq (Cert.Spec.preLG (V c (Pipeline.arrRef spec6 0)) (V c (Pipeline.arrRef spec6 1)) (V c (Pipeline.arrRef spec6 2)) (V c (Pipeline.arrRef spec6 3)) (V c (Pipeline.arrRef spec6 4))) :=
  (dat6 V c).arrAt_eq_of_cover 7 (Cert.Spec.varSq (SV6.Z V c)) (SV6.flushed_7 V c) SV6.cover_7

end Cert.KernelIdeal.Hand

end
-- ==== Proof.KI.NormValue1.lean ====
import proofs.«167925_j62517543961156_1_alg».proof.Proof.KI.Norm1
import proofs.«167925_j62517543961156_1_alg».proof.Proof.Spec
import Idealize.ShloMosaic.Lib.Pipeline.Value
import Idealize.ShloMosaic.Lib.ValueIdx
import Idealize.ShloMosaic.PureOps.Ideal.Laws

/-!
# Region 1 on the extended reals: the array it leaves, in closed form

Over the extended reals the tile a grid point writes is, entry by entry,
`max(((pre − mean) · rsqrt(var + ε)) · γ + β, 0)` of the entries of its input blocks at the same row and
column (row 0 for the four rows).  Point `t` reads and writes rows `5000·t … 5000·t + 4999`, so the ten tiles are the
restrictions of ONE function of the whole arrays, and they cover the whole output array.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable (V : (c : Dev nD) → (b : Ref sig .tc) → Buf (Elt Ideal) ((c : Thread nD τ).loc b))

/-- The origin of a rank-2 rectangle. -/
theorem norm1_hz : (![0, 0] : Fin 2 → Nat) = fun _ => 0 := funext fun a => by fin_cases a <;> rfl

/-- A row stretched over the 5000 rows of a tile reads, at row `p` and column `q`, its entry at column `q`. -/
theorem norm1_row (x : S1x64.Idx → EReal) (p : Fin 5000) (q : Fin 64) :
    broadcastTo S5000x64 x broadcasts_S1x64_S5000x64 (ix2 p q) = x (ix2 (0 : Fin 1) q) :=
  broadcastTo_apply x broadcasts_S1x64_S5000x64 (ix2 p q) (ix2 (0 : Fin 1) q) (fun a => by
    match a with
    | ⟨0, _⟩ => rfl
    | ⟨1, _⟩ => rfl)

/-- The stored tile at row `p`, column `q`: the normalised, rectified entry. -/
theorem norm1_pay_at (v0 v2 : Vec Ideal S1x64 .f32) (v4 : Vec Ideal S5000x64 .f32) (v13 v17 : Vec Ideal S1x64 .f32)
    (p : Fin 5000) (q : Fin 64) :
    k1_pay1 (F := Ideal) v0 v2 v4 v13 v17 (ix2 p q)
      = Cert.Spec.normEntry (v4 (ix2 p q)) (v0 (ix2 (0 : Fin 1) q)) (v2 (ix2 (0 : Fin 1) q)) (v13 (ix2 (0 : Fin 1) q)) (v17 (ix2 (0 : Fin 1) q)) := by
  unfold k1_pay1
  simp only [shapeCast_self]
  show max ((((v4 (ix2 p q) - broadcastTo S5000x64 v0 broadcasts_S1x64_S5000x64 (ix2 p q))
        * broadcastTo S5000x64 (rsqrt (addf v2 (broadcast S1x64 (Scalar.ofBits .f32 0x3727C5AC#32))) : FVec Ideal S1x64 .f32) broadcasts_S1x64_S5000x64 (ix2 p q))
        * broadcastTo S5000x64 v13 broadcasts_S1x64_S5000x64 (ix2 p q))
        + broadcastTo S5000x64 v17 broadcasts_S1x64_S5000x64 (ix2 p q)) (Ideal.ofBits .f32 0x00000000#32) = _
  rw [norm1_row, norm1_row, norm1_row, norm1_row, Ideal.ofBits_zero_f32]
  rfl

/-- Where the windows' blocks sit: the tiles at rows `5000·t`, the rows at the origin. -/
theorem norm1_idx : ∀ t : Fin cfg1.N,
    win1_5.index t (0 : Fin 2) = t.val
    ∧ win1_5.index t (1 : Fin 2) = 0
    ∧ win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0 :=
  (by decide +kernel : ∀ t : Fin grid1.N, _)

/-- Row `p` of point `t`'s tile is row `5000·t + p` of the array. -/
def norm1_rowOf (t : Fin cfg1.N) (p : Fin 5000) : Fin 50000 :=
  ⟨t.val * 5000 + p.val, by
    have h : t.val < 10 := (show t.val < grid1.N from t.isLt).trans_eq N_1
    have := p.isLt; omega⟩

/-- Row `p`, column `q` of point `t`'s block of window 0 is row `5000·t + p`, column `q` of its array. -/
theorem norm1_blk0 (c : Dev nD) (t : Fin cfg1.N) (p : Fin 5000) (q : Fin 64) :
    iblk1 V c 0 t (ix2 p q) = V c (Pipeline.arrRef spec1 0) (ix2 (norm1_rowOf t p) q) := by
  obtain ⟨eo0, eo1, e00, e01, e10, e11, e20, e21, e30, e31, e40, e41⟩ := norm1_idx t
  show V c (Pipeline.arrRef spec1 0) (((cfg1.win 0).blk t).view.emb (ix2 p q)) = _
  refine congrArg (V c (Pipeline.arrRef spec1 0)) ?_
  funext a; apply Fin.ext
  match a with
  | ⟨0, _⟩ => show win1_0.index t (0 : Fin 2) * 5000 + 1 * p.val = t.val * 5000 + p.val; omega
  | ⟨1, _⟩ => show win1_0.index t (1 : Fin 2) * 64 + 1 * q.val = q.val; omega

/-- Column `q` of point `t`'s block of window 1 is column `q` of its one-row array. -/
theorem norm1_blk1 (c : Dev nD) (t : Fin cfg1.N) (q : Fin 64) :
    iblk1 V c 1 t (ix2 (0 : Fin 1) q) = V c (Pipeline.arrRef spec1 1) (ix2 (0 : Fin 1) q) := by
  obtain ⟨eo0, eo1, e00, e01, e10, e11, e20, e21, e30, e31, e40, e41⟩ := norm1_idx t
  show V c (Pipeline.arrRef spec1 1) (((cfg1.win 1).blk t).view.emb (ix2 (0 : Fin 1) q)) = _
  refine congrArg (V c (Pipeline.arrRef spec1 1)) ?_
  funext a; apply Fin.ext
  match a with
  | ⟨0, _⟩ => show win1_1.index t (0 : Fin 2) * 1 + 1 * 0 = 0; omega
  | ⟨1, _⟩ => show win1_1.index t (1 : Fin 2) * 64 + 1 * q.val = q.val; omega

/-- Column `q` of point `t`'s block of window 2 is column `q` of its one-row array. -/
theorem norm1_blk2 (c : Dev nD) (t : Fin cfg1.N) (q : Fin 64) :
    iblk1 V c 2 t (ix2 (0 : Fin 1) q) = V c (Pipeline.arrRef spec1 2) (ix2 (0 : Fin 1) q) := by
  obtain ⟨eo0, eo1, e00, e01, e10, e11, e20, e21, e30, e31, e40, e41⟩ := norm1_idx t
  show V c (Pipeline.arrRef spec1 2) (((cfg1.win 2).blk t).view.emb (ix2 (0 : Fin 1) q)) = _
  refine congrArg (V c (Pipeline.arrRef spec1 2)) ?_
  funext a; apply Fin.ext
  match a with
  | ⟨0, _⟩ => show win1_2.index t (0 : Fin 2) * 1 + 1 * 0 = 0; omega
  | ⟨1, _⟩ => show win1_2.index t (1 : Fin 2) * 64 + 1 * q.val = q.val; omega

/-- Column `q` of point `t`'s block of window 3 is column `q` of its one-row array. -/
theorem norm1_blk3 (c : Dev nD) (t : Fin cfg1.N) (q : Fin 64) :
    iblk1 V c 3 t (ix2 (0 : Fin 1) q) = V c (Pipeline.arrRef spec1 3) (ix2 (0 : Fin 1) q) := by
  obtain ⟨eo0, eo1, e00, e01, e10, e11, e20, e21, e30, e31, e40, e41⟩ := norm1_idx t
  show V c (Pipeline.arrRef spec1 3) (((cfg1.win 3).blk t).view.emb (ix2 (0 : Fin 1) q)) = _
  refine congrArg (V c (Pipeline.arrRef spec1 3)) ?_
  funext a; apply Fin.ext
  match a with
  | ⟨0, _⟩ => show win1_3.index t (0 : Fin 2) * 1 + 1 * 0 = 0; omega
  | ⟨1, _⟩ => show win1_3.index t (1 : Fin 2) * 64 + 1 * q.val = q.val; omega

/-- Column `q` of point `t`'s block of window 4 is column `q` of its one-row array. -/
theorem norm1_blk4 (c : Dev nD) (t : Fin cfg1.N) (q : Fin 64) :
    iblk1 V c 4 t (ix2 (0 : Fin 1) q) = V c (Pipeline.arrRef spec1 4) (ix2 (0 : Fin 1) q) := by
  obtain ⟨eo0, eo1, e00, e01, e10, e11, e20, e21, e30, e31, e40, e41⟩ := norm1_idx t
  show V c (Pipeline.arrRef spec1 4) (((cfg1.win 4).blk t).view.emb (ix2 (0 : Fin 1) q)) = _
  refine congrArg (V c (Pipeline.arrRef spec1 4)) ?_
  funext a; apply Fin.ext
  match a with
  | ⟨0, _⟩ => show win1_4.index t (0 : Fin 2) * 1 + 1 * 0 = 0; omega
  | ⟨1, _⟩ => show win1_4.index t (1 : Fin 2) * 64 + 1 * q.val = q.val; omega

/-- The same for the output window: where row `p`, column `q` of point `t`'s tile goes. -/
theorem norm1_emb_out (t : Fin cfg1.N) (p : Fin 5000) (q : Fin 64) :
    ((cfg1.win 5).blk t).view.emb (ix2 p q) = ix2 (norm1_rowOf t p) q := by
  obtain ⟨eo0, eo1, e00, e01, e10, e11, e20, e21, e30, e31, e40, e41⟩ := norm1_idx t
  funext a; apply Fin.ext
  match a with
  | ⟨0, _⟩ => show win1_5.index t (0 : Fin 2) * 5000 + 1 * p.val = t.val * 5000 + p.val; omega
  | ⟨1, _⟩ => show win1_5.index t (1 : Fin 2) * 64 + 1 * q.val = q.val; omega

set_option maxHeartbeats 1000000 in
/-- What point `t` writes back is block `t` of the closed form of the whole arrays. -/
theorem norm1_flushed (c : Dev nD) (t : Fin cfg1.N) :
    (dat1 (F := Ideal) V c).flushed 5 t
      = ((cfg1.win 5).blk t).view.read (Elt Ideal) (Cert.Spec.normG (V c (Pipeline.arrRef spec1 0)) (V c (Pipeline.arrRef spec1 1)) (V c (Pipeline.arrRef spec1 2)) (V c (Pipeline.arrRef spec1 3)) (V c (Pipeline.arrRef spec1 4))) := by
  generalize hG : Cert.Spec.normG (V c (Pipeline.arrRef spec1 0)) (V c (Pipeline.arrRef spec1 1)) (V c (Pipeline.arrRef spec1 2)) (V c (Pipeline.arrRef spec1 3)) (V c (Pipeline.arrRef spec1 4)) = Gf
  show (cfg1.win 5).cut (grid1.coords t) ((dat1 (F := Ideal) V c).after 5 t) = _
  rw [after1_5]
  unfold out1_5
  rw [View.canon_unit_zero norm1_hz]
  simp only [View.ld_unit_zero (S := S5000x64) norm1_hz, View.ld_unit_zero (S := S1x64) norm1_hz]
  funext j
  obtain ⟨p, q, rfl⟩ : ∃ (p : Fin 5000) (q : Fin 64), j = ix2 p q := ⟨j 0, j 1, eq_ix2 j⟩
  refine (norm1_pay_at (iblk1 V c 1 t) (iblk1 V c 2 t) (iblk1 V c 0 t) (iblk1 V c 3 t) (iblk1 V c 4 t) p q).trans ?_
  rw [norm1_blk0 V c t p q, norm1_blk1 V c t q, norm1_blk2 V c t q, norm1_blk3 V c t q, norm1_blk4 V c t q]
  show _ = Gf (((cfg1.win 5).blk t).view.emb (ix2 p q))
  rw [norm1_emb_out t p q, ← hG]
  exact (Cert.Spec.normG_apply _ _ _ _ _ (norm1_rowOf t p) q).symm

/-- An index of the output array lies in point `t`'s block iff each coordinate lies in the block's range. -/
theorem norm1_mem_blk (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v15).slice (win1_5.rect t)).set ↔ _
  rw [View.set_slice_whole, Rect.mem_set_unit]
  exact Iff.rfl

/-- Row `r` of the output array is written by point `r / 5000`. -/
theorem norm1_cover (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  obtain ⟨t, ht⟩ : ∃ t : Fin cfg1.N, t.val = (i 0).val / 5000 :=
    ⟨⟨(i 0).val / 5000, by rw [show cfg1.N = 10 from N_1]; omega⟩, rfl⟩
  obtain ⟨eo0, eo1, e00, e01, e10, e11, e20, e21, e30, e31, e40, e41⟩ := norm1_idx t
  refine ⟨t, flush1_5 t, ?_⟩
  rw [norm1_mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- The output array after the region: the closed form of the arrays found on entry. -/
theorem final_norm1 (c : Dev nD) :
    (dat1 (F := Ideal) V c).arrAt 5 cfg1.N
      = Cert.Spec.normG (V c (Pipeline.arrRef spec1 0)) (V c (Pipeline.arrRef spec1 1)) (V c (Pipeline.arrRef spec1 2)) (V c (Pipeline.arrRef spec1 3)) (V c (Pipeline.arrRef spec1 4)) :=
  (dat1 (F := Ideal) V c).arrAt_eq_of_cover 5 (Cert.Spec.normG (V c (Pipeline.arrRef spec1 0)) (V c (Pipeline.arrRef spec1 1)) (V c (Pipeline.arrRef spec1 2)) (V c (Pipeline.arrRef spec1 3)) (V c (Pipeline.arrRef spec1 4)))
    (fun t _ => norm1_flushed V c t) (norm1_cover)

end Cert.KernelIdeal.Hand
-- ==== Proof.KI.NormValue3.lean ====
import proofs.«167925_j62517543961156_1_alg».proof.Proof.KI.Norm3
import proofs.«167925_j62517543961156_1_alg».proof.Proof.Spec
import Idealize.ShloMosaic.Lib.Pipeline.Value
import Idealize.ShloMosaic.Lib.ValueIdx
import Idealize.ShloMosaic.PureOps.Ideal.Laws

/-!
# Region 3 on the extended reals: the array it leaves, in closed form

Over the extended reals the tile a grid point writes is, entry by entry,
`max(((pre − mean) · rsqrt(var + ε)) · γ + β, 0) + resid` of the entries of its input blocks at the same row and
column (row 0 for the four rows).  Point `t` reads and writes rows `5000·t … 5000·t + 4999`, so the ten tiles are the
restrictions of ONE function of the whole arrays, and they cover the whole output array.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable (V : (c : Dev nD) → (b : Ref sig .tc) → Buf (Elt Ideal) ((c : Thread nD τ).loc b))

/-- The origin of a rank-2 rectangle. -/
theorem norm3_hz : (![0, 0] : Fin 2 → Nat) = fun _ => 0 := funext fun a => by fin_cases a <;> rfl

/-- A row stretched over the 5000 rows of a tile reads, at row `p` and column `q`, its entry at column `q`. -/
theorem norm3_row (x : S1x64.Idx → EReal) (p : Fin 5000) (q : Fin 64) :
    broadcastTo S5000x64 x broadcasts_S1x64_S5000x64 (ix2 p q) = x (ix2 (0 : Fin 1) q) :=
  broadcastTo_apply x broadcasts_S1x64_S5000x64 (ix2 p q) (ix2 (0 : Fin 1) q) (fun a => by
    match a with
    | ⟨0, _⟩ => rfl
    | ⟨1, _⟩ => rfl)

/-- The stored tile at row `p`, column `q`: the normalised, rectified entry plus the residual entry. -/
theorem norm3_pay_at (v0 v2 : Vec Ideal S1x64 .f32) (v4 : Vec Ideal S5000x64 .f32) (v13 v17 : Vec Ideal S1x64 .f32) (v23 : Vec Ideal S5000x64 .f32)
    (p : Fin 5000) (q : Fin 64) :
    k3_pay1 (F := Ideal) v0 v2 v4 v13 v17 v23 (ix2 p q)
      = Cert.Spec.normEntry (v4 (ix2 p q)) (v0 (ix2 (0 : Fin 1) q)) (v2 (ix2 (0 : Fin 1) q)) (v13 (ix2 (0 : Fin 1) q)) (v17 (ix2 (0 : Fin 1) q)) + v23 (ix2 p q) := by
  unfold k3_pay1
  simp only [shapeCast_self]
  show (max ((((v4 (ix2 p q) - broadcastTo S5000x64 v0 broadcasts_S1x64_S5000x64 (ix2 p q))
        * broadcastTo S5000x64 (rsqrt (addf v2 (broadcast S1x64 (Scalar.ofBits .f32 0x3727C5AC#32))) : FVec Ideal S1x64 .f32) broadcasts_S1x64_S5000x64 (ix2 p q))
        * broadcastTo S5000x64 v13 broadcasts_S1x64_S5000x64 (ix2 p q))
        + broadcastTo S5000x64 v17 broadcasts_S1x64_S5000x64 (ix2 p q)) (Ideal.ofBits .f32 0x00000000#32)) + v23 (ix2 p q) = _
  rw [norm3_row, norm3_row, norm3_row, norm3_row, Ideal.ofBits_zero_f32]
  rfl

/-- Where the windows' blocks sit: the tiles at rows `5000·t`, the rows at the origin. -/
theorem norm3_idx : ∀ t : Fin cfg3.N,
    win3_6.index t (0 : Fin 2) = t.val
    ∧ win3_6.index t (1 : Fin 2) = 0
    ∧ win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = t.val
    ∧ win3_5.index t (1 : Fin 2) = 0 :=
  (by decide +kernel : ∀ t : Fin grid3.N, _)

/-- Row `p` of point `t`'s tile is row `5000·t + p` of the array. -/
def norm3_rowOf (t : Fin cfg3.N) (p : Fin 5000) : Fin 50000 :=
  ⟨t.val * 5000 + p.val, by
    have h : t.val < 10 := (show t.val < grid3.N from t.isLt).trans_eq N_3
    have := p.isLt; omega⟩

/-- Row `p`, column `q` of point `t`'s block of window 0 is row `5000·t + p`, column `q` of its array. -/
theorem norm3_blk0 (c : Dev nD) (t : Fin cfg3.N) (p : Fin 5000) (q : Fin 64) :
    iblk3 V c 0 t (ix2 p q) = V c (Pipeline.arrRef spec3 0) (ix2 (norm3_rowOf t p) q) := by
  obtain ⟨eo0, eo1, e00, e01, e10, e11, e20, e21, e30, e31, e40, e41, e50, e51⟩ := norm3_idx t
  show V c (Pipeline.arrRef spec3 0) (((cfg3.win 0).blk t).view.emb (ix2 p q)) = _
  refine congrArg (V c (Pipeline.arrRef spec3 0)) ?_
  funext a; apply Fin.ext
  match a with
  | ⟨0, _⟩ => show win3_0.index t (0 : Fin 2) * 5000 + 1 * p.val = t.val * 5000 + p.val; omega
  | ⟨1, _⟩ => show win3_0.index t (1 : Fin 2) * 64 + 1 * q.val = q.val; omega

/-- Column `q` of point `t`'s block of window 1 is column `q` of its one-row array. -/
theorem norm3_blk1 (c : Dev nD) (t : Fin cfg3.N) (q : Fin 64) :
    iblk3 V c 1 t (ix2 (0 : Fin 1) q) = V c (Pipeline.arrRef spec3 1) (ix2 (0 : Fin 1) q) := by
  obtain ⟨eo0, eo1, e00, e01, e10, e11, e20, e21, e30, e31, e40, e41, e50, e51⟩ := norm3_idx t
  show V c (Pipeline.arrRef spec3 1) (((cfg3.win 1).blk t).view.emb (ix2 (0 : Fin 1) q)) = _
  refine congrArg (V c (Pipeline.arrRef spec3 1)) ?_
  funext a; apply Fin.ext
  match a with
  | ⟨0, _⟩ => show win3_1.index t (0 : Fin 2) * 1 + 1 * 0 = 0; omega
  | ⟨1, _⟩ => show win3_1.index t (1 : Fin 2) * 64 + 1 * q.val = q.val; omega

/-- Column `q` of point `t`'s block of window 2 is column `q` of its one-row array. -/
theorem norm3_blk2 (c : Dev nD) (t : Fin cfg3.N) (q : Fin 64) :
    iblk3 V c 2 t (ix2 (0 : Fin 1) q) = V c (Pipeline.arrRef spec3 2) (ix2 (0 : Fin 1) q) := by
  obtain ⟨eo0, eo1, e00, e01, e10, e11, e20, e21, e30, e31, e40, e41, e50, e51⟩ := norm3_idx t
  show V c (Pipeline.arrRef spec3 2) (((cfg3.win 2).blk t).view.emb (ix2 (0 : Fin 1) q)) = _
  refine congrArg (V c (Pipeline.arrRef spec3 2)) ?_
  funext a; apply Fin.ext
  match a with
  | ⟨0, _⟩ => show win3_2.index t (0 : Fin 2) * 1 + 1 * 0 = 0; omega
  | ⟨1, _⟩ => show win3_2.index t (1 : Fin 2) * 64 + 1 * q.val = q.val; omega

/-- Column `q` of point `t`'s block of window 3 is column `q` of its one-row array. -/
theorem norm3_blk3 (c : Dev nD) (t : Fin cfg3.N) (q : Fin 64) :
    iblk3 V c 3 t (ix2 (0 : Fin 1) q) = V c (Pipeline.arrRef spec3 3) (ix2 (0 : Fin 1) q) := by
  obtain ⟨eo0, eo1, e00, e01, e10, e11, e20, e21, e30, e31, e40, e41, e50, e51⟩ := norm3_idx t
  show V c (Pipeline.arrRef spec3 3) (((cfg3.win 3).blk t).view.emb (ix2 (0 : Fin 1) q)) = _
  refine congrArg (V c (Pipeline.arrRef spec3 3)) ?_
  funext a; apply Fin.ext
  match a with
  | ⟨0, _⟩ => show win3_3.index t (0 : Fin 2) * 1 + 1 * 0 = 0; omega
  | ⟨1, _⟩ => show win3_3.index t (1 : Fin 2) * 64 + 1 * q.val = q.val; omega

/-- Column `q` of point `t`'s block of window 4 is column `q` of its one-row array. -/
theorem norm3_blk4 (c : Dev nD) (t : Fin cfg3.N) (q : Fin 64) :
    iblk3 V c 4 t (ix2 (0 : Fin 1) q) = V c (Pipeline.arrRef spec3 4) (ix2 (0 : Fin 1) q) := by
  obtain ⟨eo0, eo1, e00, e01, e10, e11, e20, e21, e30, e31, e40, e41, e50, e51⟩ := norm3_idx t
  show V c (Pipeline.arrRef spec3 4) (((cfg3.win 4).blk t).view.emb (ix2 (0 : Fin 1) q)) = _
  refine congrArg (V c (Pipeline.arrRef spec3 4)) ?_
  funext a; apply Fin.ext
  match a with
  | ⟨0, _⟩ => show win3_4.index t (0 : Fin 2) * 1 + 1 * 0 = 0; omega
  | ⟨1, _⟩ => show win3_4.index t (1 : Fin 2) * 64 + 1 * q.val = q.val; omega

/-- Row `p`, column `q` of point `t`'s block of window 5 is row `5000·t + p`, column `q` of its array. -/
theorem norm3_blk5 (c : Dev nD) (t : Fin cfg3.N) (p : Fin 5000) (q : Fin 64) :
    iblk3 V c 5 t (ix2 p q) = V c (Pipeline.arrRef spec3 5) (ix2 (norm3_rowOf t p) q) := by
  obtain ⟨eo0, eo1, e00, e01, e10, e11, e20, e21, e30, e31, e40, e41, e50, e51⟩ := norm3_idx t
  show V c (Pipeline.arrRef spec3 5) (((cfg3.win 5).blk t).view.emb (ix2 p q)) = _
  refine congrArg (V c (Pipeline.arrRef spec3 5)) ?_
  funext a; apply Fin.ext
  match a with
  | ⟨0, _⟩ => show win3_5.index t (0 : Fin 2) * 5000 + 1 * p.val = t.val * 5000 + p.val; omega
  | ⟨1, _⟩ => show win3_5.index t (1 : Fin 2) * 64 + 1 * q.val = q.val; omega

/-- The same for the output window: where row `p`, column `q` of point `t`'s tile goes. -/
theorem norm3_emb_out (t : Fin cfg3.N) (p : Fin 5000) (q : Fin 64) :
    ((cfg3.win 6).blk t).view.emb (ix2 p q) = ix2 (norm3_rowOf t p) q := by
  obtain ⟨eo0, eo1, e00, e01, e10, e11, e20, e21, e30, e31, e40, e41, e50, e51⟩ := norm3_idx t
  funext a; apply Fin.ext
  match a with
  | ⟨0, _⟩ => show win3_6.index t (0 : Fin 2) * 5000 + 1 * p.val = t.val * 5000 + p.val; omega
  | ⟨1, _⟩ => show win3_6.index t (1 : Fin 2) * 64 + 1 * q.val = q.val; omega

set_option maxHeartbeats 1000000 in
/-- What point `t` writes back is block `t` of the closed form of the whole arrays. -/
theorem norm3_flushed (c : Dev nD) (t : Fin cfg3.N) :
    (dat3 (F := Ideal) V c).flushed 6 t
      = ((cfg3.win 6).blk t).view.read (Elt Ideal) (Cert.Spec.normResG (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) := by
  generalize hG : Cert.Spec.normResG (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) = Gf
  show (cfg3.win 6).cut (grid3.coords t) ((dat3 (F := Ideal) V c).after 6 t) = _
  rw [after3_6]
  unfold out3_6
  rw [View.canon_unit_zero norm3_hz]
  simp only [View.ld_unit_zero (S := S5000x64) norm3_hz, View.ld_unit_zero (S := S1x64) norm3_hz]
  funext j
  obtain ⟨p, q, rfl⟩ : ∃ (p : Fin 5000) (q : Fin 64), j = ix2 p q := ⟨j 0, j 1, eq_ix2 j⟩
  refine (norm3_pay_at (iblk3 V c 1 t) (iblk3 V c 2 t) (iblk3 V c 0 t) (iblk3 V c 3 t) (iblk3 V c 4 t) (iblk3 V c 5 t) p q).trans ?_
  rw [norm3_blk0 V c t p q, norm3_blk1 V c t q, norm3_blk2 V c t q, norm3_blk3 V c t q, norm3_blk4 V c t q, norm3_blk5 V c t p q]
  show _ = Gf (((cfg3.win 6).blk t).view.emb (ix2 p q))
  rw [norm3_emb_out t p q, ← hG]
  exact (Cert.Spec.normResG_apply _ _ _ _ _ _ (norm3_rowOf t p) q).symm

/-- An index of the output array lies in point `t`'s block iff each coordinate lies in the block's range. -/
theorem norm3_mem_blk (t : Fin cfg3.N) (i : S50000x64.Idx) :
    i ∈ ((cfg3.win 6).blk t).view.set ↔ ∀ a : Fin 2, win3_6.index t a * S5000x64.size a ≤ (i a).val ∧ (i a).val < win3_6.index t a * S5000x64.size a + S5000x64.size a := by
  show i ∈ ((View.whole main_v42).slice (win3_6.rect t)).set ↔ _
  rw [View.set_slice_whole, Rect.mem_set_unit]
  exact Iff.rfl

/-- Row `r` of the output array is written by point `r / 5000`. -/
theorem norm3_cover (i : S50000x64.Idx) :
    ∃ t : Fin cfg3.N, (cfg3.win 6).flush t = true ∧ i ∈ ((cfg3.win 6).blk t).view.set := by
  have hi0 : (i 0).val < 50000 := (i 0).isLt
  have hi1 : (i 1).val < 64 := (i 1).isLt
  obtain ⟨t, ht⟩ : ∃ t : Fin cfg3.N, t.val = (i 0).val / 5000 :=
    ⟨⟨(i 0).val / 5000, by rw [show cfg3.N = 10 from N_3]; omega⟩, rfl⟩
  obtain ⟨eo0, eo1, e00, e01, e10, e11, e20, e21, e30, e31, e40, e41, e50, e51⟩ := norm3_idx t
  refine ⟨t, flush3_6 t, ?_⟩
  rw [norm3_mem_blk]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 64 ≤ (i 1).val ∧ (i 1).val < win3_6.index t (1 : Fin 2) * 64 + 64; omega

/-- The output array after the region: the closed form of the arrays found on entry. -/
theorem final_norm3 (c : Dev nD) :
    (dat3 (F := Ideal) V c).arrAt 6 cfg3.N
      = Cert.Spec.normResG (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) :=
  (dat3 (F := Ideal) V c).arrAt_eq_of_cover 6 (Cert.Spec.normResG (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)))
    (fun t _ => norm3_flushed V c t) (norm3_cover)

end Cert.KernelIdeal.Hand
-- ==== Proof.KI.NormValue5.lean ====
import proofs.«167925_j62517543961156_1_alg».proof.Proof.KI.Norm5
import proofs.«167925_j62517543961156_1_alg».proof.Proof.Spec
import Idealize.ShloMosaic.Lib.Pipeline.Value
import Idealize.ShloMosaic.Lib.ValueIdx
import Idealize.ShloMosaic.PureOps.Ideal.Laws

/-!
# Region 5 on the extended reals: the array it leaves, in closed form

Over the extended reals the tile a grid point writes is, entry by entry,
`max(((pre − mean) · rsqrt(var + ε)) · γ + β, 0) + resid` of the entries of its input blocks at the same row and
column (row 0 for the four rows).  Point `t` reads and writes rows `5000·t … 5000·t + 4999`, so the ten tiles are the
restrictions of ONE function of the whole arrays, and they cover the whole output array.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable (V : (c : Dev nD) → (b : Ref sig .tc) → Buf (Elt Ideal) ((c : Thread nD τ).loc b))

/-- The origin of a rank-2 rectangle. -/
theorem norm5_hz : (![0, 0] : Fin 2 → Nat) = fun _ => 0 := funext fun a => by fin_cases a <;> rfl

/-- A row stretched over the 5000 rows of a tile reads, at row `p` and column `q`, its entry at column `q`. -/
theorem norm5_row (x : S1x64.Idx → EReal) (p : Fin 5000) (q : Fin 64) :
    broadcastTo S5000x64 x broadcasts_S1x64_S5000x64 (ix2 p q) = x (ix2 (0 : Fin 1) q) :=
  broadcastTo_apply x broadcasts_S1x64_S5000x64 (ix2 p q) (ix2 (0 : Fin 1) q) (fun a => by
    match a with
    | ⟨0, _⟩ => rfl
    | ⟨1, _⟩ => rfl)

/-- The stored tile at row `p`, column `q`: the normalised, rectified entry plus the residual entry. -/
theorem norm5_pay_at (v0 v2 : Vec Ideal S1x64 .f32) (v4 : Vec Ideal S5000x64 .f32) (v13 v17 : Vec Ideal S1x64 .f32) (v23 : Vec Ideal S5000x64 .f32)
    (p : Fin 5000) (q : Fin 64) :
    k5_pay1 (F := Ideal) v0 v2 v4 v13 v17 v23 (ix2 p q)
      = Cert.Spec.normEntry (v4 (ix2 p q)) (v0 (ix2 (0 : Fin 1) q)) (v2 (ix2 (0 : Fin 1) q)) (v13 (ix2 (0 : Fin 1) q)) (v17 (ix2 (0 : Fin 1) q)) + v23 (ix2 p q) := by
  unfold k5_pay1
  simp only [shapeCast_self]
  show (max ((((v4 (ix2 p q) - broadcastTo S5000x64 v0 broadcasts_S1x64_S5000x64 (ix2 p q))
        * broadcastTo S5000x64 (rsqrt (addf v2 (broadcast S1x64 (Scalar.ofBits .f32 0x3727C5AC#32))) : FVec Ideal S1x64 .f32) broadcasts_S1x64_S5000x64 (ix2 p q))
        * broadcastTo S5000x64 v13 broadcasts_S1x64_S5000x64 (ix2 p q))
        + broadcastTo S5000x64 v17 broadcasts_S1x64_S5000x64 (ix2 p q)) (Ideal.ofBits .f32 0x00000000#32)) + v23 (ix2 p q) = _
  rw [norm5_row, norm5_row, norm5_row, norm5_row, Ideal.ofBits_zero_f32]
  rfl

/-- Where the windows' blocks sit: the tiles at rows `5000·t`, the rows at the origin. -/
theorem norm5_idx : ∀ t : Fin cfg5.N,
    win5_6.index t (0 : Fin 2) = t.val
    ∧ win5_6.index t (1 : Fin 2) = 0
    ∧ win5_0.index t (0 : Fin 2) = t.val
    ∧ win5_0.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = t.val
    ∧ win5_5.index t (1 : Fin 2) = 0 :=
  (by decide +kernel : ∀ t : Fin grid5.N, _)

/-- Row `p` of point `t`'s tile is row `5000·t + p` of the array. -/
def norm5_rowOf (t : Fin cfg5.N) (p : Fin 5000) : Fin 50000 :=
  ⟨t.val * 5000 + p.val, by
    have h : t.val < 10 := (show t.val < grid5.N from t.isLt).trans_eq N_5
    have := p.isLt; omega⟩

/-- Row `p`, column `q` of point `t`'s block of window 0 is row `5000·t + p`, column `q` of its array. -/
theorem norm5_blk0 (c : Dev nD) (t : Fin cfg5.N) (p : Fin 5000) (q : Fin 64) :
    iblk5 V c 0 t (ix2 p q) = V c (Pipeline.arrRef spec5 0) (ix2 (norm5_rowOf t p) q) := by
  obtain ⟨eo0, eo1, e00, e01, e10, e11, e20, e21, e30, e31, e40, e41, e50, e51⟩ := norm5_idx t
  show V c (Pipeline.arrRef spec5 0) (((cfg5.win 0).blk t).view.emb (ix2 p q)) = _
  refine congrArg (V c (Pipeline.arrRef spec5 0)) ?_
  funext a; apply Fin.ext
  match a with
  | ⟨0, _⟩ => show win5_0.index t (0 : Fin 2) * 5000 + 1 * p.val = t.val * 5000 + p.val; omega
  | ⟨1, _⟩ => show win5_0.index t (1 : Fin 2) * 64 + 1 * q.val = q.val; omega

/-- Column `q` of point `t`'s block of window 1 is column `q` of its one-row array. -/
theorem norm5_blk1 (c : Dev nD) (t : Fin cfg5.N) (q : Fin 64) :
    iblk5 V c 1 t (ix2 (0 : Fin 1) q) = V c (Pipeline.arrRef spec5 1) (ix2 (0 : Fin 1) q) := by
  obtain ⟨eo0, eo1, e00, e01, e10, e11, e20, e21, e30, e31, e40, e41, e50, e51⟩ := norm5_idx t
  show V c (Pipeline.arrRef spec5 1) (((cfg5.win 1).blk t).view.emb (ix2 (0 : Fin 1) q)) = _
  refine congrArg (V c (Pipeline.arrRef spec5 1)) ?_
  funext a; apply Fin.ext
  match a with
  | ⟨0, _⟩ => show win5_1.index t (0 : Fin 2) * 1 + 1 * 0 = 0; omega
  | ⟨1, _⟩ => show win5_1.index t (1 : Fin 2) * 64 + 1 * q.val = q.val; omega

/-- Column `q` of point `t`'s block of window 2 is column `q` of its one-row array. -/
theorem norm5_blk2 (c : Dev nD) (t : Fin cfg5.N) (q : Fin 64) :
    iblk5 V c 2 t (ix2 (0 : Fin 1) q) = V c (Pipeline.arrRef spec5 2) (ix2 (0 : Fin 1) q) := by
  obtain ⟨eo0, eo1, e00, e01, e10, e11, e20, e21, e30, e31, e40, e41, e50, e51⟩ := norm5_idx t
  show V c (Pipeline.arrRef spec5 2) (((cfg5.win 2).blk t).view.emb (ix2 (0 : Fin 1) q)) = _
  refine congrArg (V c (Pipeline.arrRef spec5 2)) ?_
  funext a; apply Fin.ext
  match a with
  | ⟨0, _⟩ => show win5_2.index t (0 : Fin 2) * 1 + 1 * 0 = 0; omega
  | ⟨1, _⟩ => show win5_2.index t (1 : Fin 2) * 64 + 1 * q.val = q.val; omega

/-- Column `q` of point `t`'s block of window 3 is column `q` of its one-row array. -/
theorem norm5_blk3 (c : Dev nD) (t : Fin cfg5.N) (q : Fin 64) :
    iblk5 V c 3 t (ix2 (0 : Fin 1) q) = V c (Pipeline.arrRef spec5 3) (ix2 (0 : Fin 1) q) := by
  obtain ⟨eo0, eo1, e00, e01, e10, e11, e20, e21, e30, e31, e40, e41, e50, e51⟩ := norm5_idx t
  show V c (Pipeline.arrRef spec5 3) (((cfg5.win 3).blk t).view.emb (ix2 (0 : Fin 1) q)) = _
  refine congrArg (V c (Pipeline.arrRef spec5 3)) ?_
  funext a; apply Fin.ext
  match a with
  | ⟨0, _⟩ => show win5_3.index t (0 : Fin 2) * 1 + 1 * 0 = 0; omega
  | ⟨1, _⟩ => show win5_3.index t (1 : Fin 2) * 64 + 1 * q.val = q.val; omega

/-- Column `q` of point `t`'s block of window 4 is column `q` of its one-row array. -/
theorem norm5_blk4 (c : Dev nD) (t : Fin cfg5.N) (q : Fin 64) :
    iblk5 V c 4 t (ix2 (0 : Fin 1) q) = V c (Pipeline.arrRef spec5 4) (ix2 (0 : Fin 1) q) := by
  obtain ⟨eo0, eo1, e00, e01, e10, e11, e20, e21, e30, e31, e40, e41, e50, e51⟩ := norm5_idx t
  show V c (Pipeline.arrRef spec5 4) (((cfg5.win 4).blk t).view.emb (ix2 (0 : Fin 1) q)) = _
  refine congrArg (V c (Pipeline.arrRef spec5 4)) ?_
  funext a; apply Fin.ext
  match a with
  | ⟨0, _⟩ => show win5_4.index t (0 : Fin 2) * 1 + 1 * 0 = 0; omega
  | ⟨1, _⟩ => show win5_4.index t (1 : Fin 2) * 64 + 1 * q.val = q.val; omega

/-- Row `p`, column `q` of point `t`'s block of window 5 is row `5000·t + p`, column `q` of its array. -/
theorem norm5_blk5 (c : Dev nD) (t : Fin cfg5.N) (p : Fin 5000) (q : Fin 64) :
    iblk5 V c 5 t (ix2 p q) = V c (Pipeline.arrRef spec5 5) (ix2 (norm5_rowOf t p) q) := by
  obtain ⟨eo0, eo1, e00, e01, e10, e11, e20, e21, e30, e31, e40, e41, e50, e51⟩ := norm5_idx t
  show V c (Pipeline.arrRef spec5 5) (((cfg5.win 5).blk t).view.emb (ix2 p q)) = _
  refine congrArg (V c (Pipeline.arrRef spec5 5)) ?_
  funext a; apply Fin.ext
  match a with
  | ⟨0, _⟩ => show win5_5.index t (0 : Fin 2) * 5000 + 1 * p.val = t.val * 5000 + p.val; omega
  | ⟨1, _⟩ => show win5_5.index t (1 : Fin 2) * 64 + 1 * q.val = q.val; omega

/-- The same for the output window: where row `p`, column `q` of point `t`'s tile goes. -/
theorem norm5_emb_out (t : Fin cfg5.N) (p : Fin 5000) (q : Fin 64) :
    ((cfg5.win 6).blk t).view.emb (ix2 p q) = ix2 (norm5_rowOf t p) q := by
  obtain ⟨eo0, eo1, e00, e01, e10, e11, e20, e21, e30, e31, e40, e41, e50, e51⟩ := norm5_idx t
  funext a; apply Fin.ext
  match a with
  | ⟨0, _⟩ => show win5_6.index t (0 : Fin 2) * 5000 + 1 * p.val = t.val * 5000 + p.val; omega
  | ⟨1, _⟩ => show win5_6.index t (1 : Fin 2) * 64 + 1 * q.val = q.val; omega

set_option maxHeartbeats 1000000 in
/-- What point `t` writes back is block `t` of the closed form of the whole arrays. -/
theorem norm5_flushed (c : Dev nD) (t : Fin cfg5.N) :
    (dat5 (F := Ideal) V c).flushed 6 t
      = ((cfg5.win 6).blk t).view.read (Elt Ideal) (Cert.Spec.normResG (V c (Pipeline.arrRef spec5 0)) (V c (Pipeline.arrRef spec5 1)) (V c (Pipeline.arrRef spec5 2)) (V c (Pipeline.arrRef spec5 3)) (V c (Pipeline.arrRef spec5 4)) (V c (Pipeline.arrRef spec5 5))) := by
  generalize hG : Cert.Spec.normResG (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) = Gf
  show (cfg5.win 6).cut (grid5.coords t) ((dat5 (F := Ideal) V c).after 6 t) = _
  rw [after5_6]
  unfold out5_6
  rw [View.canon_unit_zero norm5_hz]
  simp only [View.ld_unit_zero (S := S5000x64) norm5_hz, View.ld_unit_zero (S := S1x64) norm5_hz]
  funext j
  obtain ⟨p, q, rfl⟩ : ∃ (p : Fin 5000) (q : Fin 64), j = ix2 p q := ⟨j 0, j 1, eq_ix2 j⟩
  refine (norm5_pay_at (iblk5 V c 1 t) (iblk5 V c 2 t) (iblk5 V c 0 t) (iblk5 V c 3 t) (iblk5 V c 4 t) (iblk5 V c 5 t) p q).trans ?_
  rw [norm5_blk0 V c t p q, norm5_blk1 V c t q, norm5_blk2 V c t q, norm5_blk3 V c t q, norm5_blk4 V c t q, norm5_blk5 V c t p q]
  show _ = Gf (((cfg5.win 6).blk t).view.emb (ix2 p q))
  rw [norm5_emb_out t p q, ← hG]
  exact (Cert.Spec.normResG_apply _ _ _ _ _ _ (norm5_rowOf t p) q).symm

/-- An index of the output array lies in point `t`'s block iff each coordinate lies in the block's range. -/
theorem norm5_mem_blk (t : Fin cfg5.N) (i : S50000x64.Idx) :
    i ∈ ((cfg5.win 6).blk t).view.set ↔ ∀ a : Fin 2, win5_6.index t a * S5000x64.size a ≤ (i a).val ∧ (i a).val < win5_6.index t a * S5000x64.size a + S5000x64.size a := by
  show i ∈ ((View.whole main_v69).slice (win5_6.rect t)).set ↔ _
  rw [View.set_slice_whole, Rect.mem_set_unit]
  exact Iff.rfl

/-- Row `r` of the output array is written by point `r / 5000`. -/
theorem norm5_cover (i : S50000x64.Idx) :
    ∃ t : Fin cfg5.N, (cfg5.win 6).flush t = true ∧ i ∈ ((cfg5.win 6).blk t).view.set := by
  have hi0 : (i 0).val < 50000 := (i 0).isLt
  have hi1 : (i 1).val < 64 := (i 1).isLt
  obtain ⟨t, ht⟩ : ∃ t : Fin cfg5.N, t.val = (i 0).val / 5000 :=
    ⟨⟨(i 0).val / 5000, by rw [show cfg5.N = 10 from N_5]; omega⟩, rfl⟩
  obtain ⟨eo0, eo1, e00, e01, e10, e11, e20, e21, e30, e31, e40, e41, e50, e51⟩ := norm5_idx t
  refine ⟨t, flush5_6 t, ?_⟩
  rw [norm5_mem_blk]
  intro a
  match a with
  | ⟨0, _⟩ => show win5_6.index t (0 : Fin 2) * 5000 ≤ (i 0).val ∧ (i 0).val < win5_6.index t (0 : Fin 2) * 5000 + 5000; omega
  | ⟨1, _⟩ => show win5_6.index t (1 : Fin 2) * 64 ≤ (i 1).val ∧ (i 1).val < win5_6.index t (1 : Fin 2) * 64 + 64; omega

/-- The output array after the region: the closed form of the arrays found on entry. -/
theorem final_norm5 (c : Dev nD) :
    (dat5 (F := Ideal) V c).arrAt 6 cfg5.N
      = Cert.Spec.normResG (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) :=
  (dat5 (F := Ideal) V c).arrAt_eq_of_cover 6 (Cert.Spec.normResG (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)))
    (fun t _ => norm5_flushed V c t) (norm5_cover)

end Cert.KernelIdeal.Hand
-- ==== Proof.KI.NormValue7.lean ====
import proofs.«167925_j62517543961156_1_alg».proof.Proof.KI.Norm7
import proofs.«167925_j62517543961156_1_alg».proof.Proof.Spec
import Idealize.ShloMosaic.Lib.Pipeline.Value
import Idealize.ShloMosaic.Lib.ValueIdx
import Idealize.ShloMosaic.PureOps.Ideal.Laws

/-!
# Region 7 on the extended reals: the array it leaves, in closed form

Over the extended reals the tile a grid point writes is, entry by entry,
`max(((pre − mean) · rsqrt(var + ε)) · γ + β, 0) + resid` of the entries of its input blocks at the same row and
column (row 0 for the four rows).  Point `t` reads and writes rows `5000·t … 5000·t + 4999`, so the ten tiles are the
restrictions of ONE function of the whole arrays, and they cover the whole output array.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable (V : (c : Dev nD) → (b : Ref sig .tc) → Buf (Elt Ideal) ((c : Thread nD τ).loc b))

/-- The origin of a rank-2 rectangle. -/
theorem norm7_hz : (![0, 0] : Fin 2 → Nat) = fun _ => 0 := funext fun a => by fin_cases a <;> rfl

/-- A row stretched over the 5000 rows of a tile reads, at row `p` and column `q`, its entry at column `q`. -/
theorem norm7_row (x : S1x64.Idx → EReal) (p : Fin 5000) (q : Fin 64) :
    broadcastTo S5000x64 x broadcasts_S1x64_S5000x64 (ix2 p q) = x (ix2 (0 : Fin 1) q) :=
  broadcastTo_apply x broadcasts_S1x64_S5000x64 (ix2 p q) (ix2 (0 : Fin 1) q) (fun a => by
    match a with
    | ⟨0, _⟩ => rfl
    | ⟨1, _⟩ => rfl)

/-- The stored tile at row `p`, column `q`: the normalised, rectified entry plus the residual entry. -/
theorem norm7_pay_at (v0 v2 : Vec Ideal S1x64 .f32) (v4 : Vec Ideal S5000x64 .f32) (v13 v17 : Vec Ideal S1x64 .f32) (v23 : Vec Ideal S5000x64 .f32)
    (p : Fin 5000) (q : Fin 64) :
    k7_pay1 (F := Ideal) v0 v2 v4 v13 v17 v23 (ix2 p q)
      = Cert.Spec.normEntry (v4 (ix2 p q)) (v0 (ix2 (0 : Fin 1) q)) (v2 (ix2 (0 : Fin 1) q)) (v13 (ix2 (0 : Fin 1) q)) (v17 (ix2 (0 : Fin 1) q)) + v23 (ix2 p q) := by
  unfold k7_pay1
  simp only [shapeCast_self]
  show (max ((((v4 (ix2 p q) - broadcastTo S5000x64 v0 broadcasts_S1x64_S5000x64 (ix2 p q))
        * broadcastTo S5000x64 (rsqrt (addf v2 (broadcast S1x64 (Scalar.ofBits .f32 0x3727C5AC#32))) : FVec Ideal S1x64 .f32) broadcasts_S1x64_S5000x64 (ix2 p q))
        * broadcastTo S5000x64 v13 broadcasts_S1x64_S5000x64 (ix2 p q))
        + broadcastTo S5000x64 v17 broadcasts_S1x64_S5000x64 (ix2 p q)) (Ideal.ofBits .f32 0x00000000#32)) + v23 (ix2 p q) = _
  rw [norm7_row, norm7_row, norm7_row, norm7_row, Ideal.ofBits_zero_f32]
  rfl

/-- Where the windows' blocks sit: the tiles at rows `5000·t`, the rows at the origin. -/
theorem norm7_idx : ∀ t : Fin cfg7.N,
    win7_6.index t (0 : Fin 2) = t.val
    ∧ win7_6.index t (1 : Fin 2) = 0
    ∧ win7_0.index t (0 : Fin 2) = t.val
    ∧ win7_0.index t (1 : Fin 2) = 0
    ∧ win7_1.index t (0 : Fin 2) = 0
    ∧ win7_1.index t (1 : Fin 2) = 0
    ∧ win7_2.index t (0 : Fin 2) = 0
    ∧ win7_2.index t (1 : Fin 2) = 0
    ∧ win7_3.index t (0 : Fin 2) = 0
    ∧ win7_3.index t (1 : Fin 2) = 0
    ∧ win7_4.index t (0 : Fin 2) = 0
    ∧ win7_4.index t (1 : Fin 2) = 0
    ∧ win7_5.index t (0 : Fin 2) = t.val
    ∧ win7_5.index t (1 : Fin 2) = 0 :=
  (by decide +kernel : ∀ t : Fin grid7.N, _)

/-- Row `p` of point `t`'s tile is row `5000·t + p` of the array. -/
def norm7_rowOf (t : Fin cfg7.N) (p : Fin 5000) : Fin 50000 :=
  ⟨t.val * 5000 + p.val, by
    have h : t.val < 10 := (show t.val < grid7.N from t.isLt).trans_eq N_7
    have := p.isLt; omega⟩

/-- Row `p`, column `q` of point `t`'s block of window 0 is row `5000·t + p`, column `q` of its array. -/
theorem norm7_blk0 (c : Dev nD) (t : Fin cfg7.N) (p : Fin 5000) (q : Fin 64) :
    iblk7 V c 0 t (ix2 p q) = V c (Pipeline.arrRef spec7 0) (ix2 (norm7_rowOf t p) q) := by
  obtain ⟨eo0, eo1, e00, e01, e10, e11, e20, e21, e30, e31, e40, e41, e50, e51⟩ := norm7_idx t
  show V c (Pipeline.arrRef spec7 0) (((cfg7.win 0).blk t).view.emb (ix2 p q)) = _
  refine congrArg (V c (Pipeline.arrRef spec7 0)) ?_
  funext a; apply Fin.ext
  match a with
  | ⟨0, _⟩ => show win7_0.index t (0 : Fin 2) * 5000 + 1 * p.val = t.val * 5000 + p.val; omega
  | ⟨1, _⟩ => show win7_0.index t (1 : Fin 2) * 64 + 1 * q.val = q.val; omega

/-- Column `q` of point `t`'s block of window 1 is column `q` of its one-row array. -/
theorem norm7_blk1 (c : Dev nD) (t : Fin cfg7.N) (q : Fin 64) :
    iblk7 V c 1 t (ix2 (0 : Fin 1) q) = V c (Pipeline.arrRef spec7 1) (ix2 (0 : Fin 1) q) := by
  obtain ⟨eo0, eo1, e00, e01, e10, e11, e20, e21, e30, e31, e40, e41, e50, e51⟩ := norm7_idx t
  show V c (Pipeline.arrRef spec7 1) (((cfg7.win 1).blk t).view.emb (ix2 (0 : Fin 1) q)) = _
  refine congrArg (V c (Pipeline.arrRef spec7 1)) ?_
  funext a; apply Fin.ext
  match a with
  | ⟨0, _⟩ => show win7_1.index t (0 : Fin 2) * 1 + 1 * 0 = 0; omega
  | ⟨1, _⟩ => show win7_1.index t (1 : Fin 2) * 64 + 1 * q.val = q.val; omega

/-- Column `q` of point `t`'s block of window 2 is column `q` of its one-row array. -/
theorem norm7_blk2 (c : Dev nD) (t : Fin cfg7.N) (q : Fin 64) :
    iblk7 V c 2 t (ix2 (0 : Fin 1) q) = V c (Pipeline.arrRef spec7 2) (ix2 (0 : Fin 1) q) := by
  obtain ⟨eo0, eo1, e00, e01, e10, e11, e20, e21, e30, e31, e40, e41, e50, e51⟩ := norm7_idx t
  show V c (Pipeline.arrRef spec7 2) (((cfg7.win 2).blk t).view.emb (ix2 (0 : Fin 1) q)) = _
  refine congrArg (V c (Pipeline.arrRef spec7 2)) ?_
  funext a; apply Fin.ext
  match a with
  | ⟨0, _⟩ => show win7_2.index t (0 : Fin 2) * 1 + 1 * 0 = 0; omega
  | ⟨1, _⟩ => show win7_2.index t (1 : Fin 2) * 64 + 1 * q.val = q.val; omega

/-- Column `q` of point `t`'s block of window 3 is column `q` of its one-row array. -/
theorem norm7_blk3 (c : Dev nD) (t : Fin cfg7.N) (q : Fin 64) :
    iblk7 V c 3 t (ix2 (0 : Fin 1) q) = V c (Pipeline.arrRef spec7 3) (ix2 (0 : Fin 1) q) := by
  obtain ⟨eo0, eo1, e00, e01, e10, e11, e20, e21, e30, e31, e40, e41, e50, e51⟩ := norm7_idx t
  show V c (Pipeline.arrRef spec7 3) (((cfg7.win 3).blk t).view.emb (ix2 (0 : Fin 1) q)) = _
  refine congrArg (V c (Pipeline.arrRef spec7 3)) ?_
  funext a; apply Fin.ext
  match a with
  | ⟨0, _⟩ => show win7_3.index t (0 : Fin 2) * 1 + 1 * 0 = 0; omega
  | ⟨1, _⟩ => show win7_3.index t (1 : Fin 2) * 64 + 1 * q.val = q.val; omega

/-- Column `q` of point `t`'s block of window 4 is column `q` of its one-row array. -/
theorem norm7_blk4 (c : Dev nD) (t : Fin cfg7.N) (q : Fin 64) :
    iblk7 V c 4 t (ix2 (0 : Fin 1) q) = V c (Pipeline.arrRef spec7 4) (ix2 (0 : Fin 1) q) := by
  obtain ⟨eo0, eo1, e00, e01, e10, e11, e20, e21, e30, e31, e40, e41, e50, e51⟩ := norm7_idx t
  show V c (Pipeline.arrRef spec7 4) (((cfg7.win 4).blk t).view.emb (ix2 (0 : Fin 1) q)) = _
  refine congrArg (V c (Pipeline.arrRef spec7 4)) ?_
  funext a; apply Fin.ext
  match a with
  | ⟨0, _⟩ => show win7_4.index t (0 : Fin 2) * 1 + 1 * 0 = 0; omega
  | ⟨1, _⟩ => show win7_4.index t (1 : Fin 2) * 64 + 1 * q.val = q.val; omega

/-- Row `p`, column `q` of point `t`'s block of window 5 is row `5000·t + p`, column `q` of its array. -/
theorem norm7_blk5 (c : Dev nD) (t : Fin cfg7.N) (p : Fin 5000) (q : Fin 64) :
    iblk7 V c 5 t (ix2 p q) = V c (Pipeline.arrRef spec7 5) (ix2 (norm7_rowOf t p) q) := by
  obtain ⟨eo0, eo1, e00, e01, e10, e11, e20, e21, e30, e31, e40, e41, e50, e51⟩ := norm7_idx t
  show V c (Pipeline.arrRef spec7 5) (((cfg7.win 5).blk t).view.emb (ix2 p q)) = _
  refine congrArg (V c (Pipeline.arrRef spec7 5)) ?_
  funext a; apply Fin.ext
  match a with
  | ⟨0, _⟩ => show win7_5.index t (0 : Fin 2) * 5000 + 1 * p.val = t.val * 5000 + p.val; omega
  | ⟨1, _⟩ => show win7_5.index t (1 : Fin 2) * 64 + 1 * q.val = q.val; omega

/-- The same for the output window: where row `p`, column `q` of point `t`'s tile goes. -/
theorem norm7_emb_out (t : Fin cfg7.N) (p : Fin 5000) (q : Fin 64) :
    ((cfg7.win 6).blk t).view.emb (ix2 p q) = ix2 (norm7_rowOf t p) q := by
  obtain ⟨eo0, eo1, e00, e01, e10, e11, e20, e21, e30, e31, e40, e41, e50, e51⟩ := norm7_idx t
  funext a; apply Fin.ext
  match a with
  | ⟨0, _⟩ => show win7_6.index t (0 : Fin 2) * 5000 + 1 * p.val = t.val * 5000 + p.val; omega
  | ⟨1, _⟩ => show win7_6.index t (1 : Fin 2) * 64 + 1 * q.val = q.val; omega

set_option maxHeartbeats 1000000 in
/-- What point `t` writes back is block `t` of the closed form of the whole arrays. -/
theorem norm7_flushed (c : Dev nD) (t : Fin cfg7.N) :
    (dat7 (F := Ideal) V c).flushed 6 t
      = ((cfg7.win 6).blk t).view.read (Elt Ideal) (Cert.Spec.normResG (V c (Pipeline.arrRef spec7 0)) (V c (Pipeline.arrRef spec7 1)) (V c (Pipeline.arrRef spec7 2)) (V c (Pipeline.arrRef spec7 3)) (V c (Pipeline.arrRef spec7 4)) (V c (Pipeline.arrRef spec7 5))) := by
  generalize hG : Cert.Spec.normResG (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) = Gf
  show (cfg7.win 6).cut (grid7.coords t) ((dat7 (F := Ideal) V c).after 6 t) = _
  rw [after7_6]
  unfold out7_6
  rw [View.canon_unit_zero norm7_hz]
  simp only [View.ld_unit_zero (S := S5000x64) norm7_hz, View.ld_unit_zero (S := S1x64) norm7_hz]
  funext j
  obtain ⟨p, q, rfl⟩ : ∃ (p : Fin 5000) (q : Fin 64), j = ix2 p q := ⟨j 0, j 1, eq_ix2 j⟩
  refine (norm7_pay_at (iblk7 V c 1 t) (iblk7 V c 2 t) (iblk7 V c 0 t) (iblk7 V c 3 t) (iblk7 V c 4 t) (iblk7 V c 5 t) p q).trans ?_
  rw [norm7_blk0 V c t p q, norm7_blk1 V c t q, norm7_blk2 V c t q, norm7_blk3 V c t q, norm7_blk4 V c t q, norm7_blk5 V c t p q]
  show _ = Gf (((cfg7.win 6).blk t).view.emb (ix2 p q))
  rw [norm7_emb_out t p q, ← hG]
  exact (Cert.Spec.normResG_apply _ _ _ _ _ _ (norm7_rowOf t p) q).symm

/-- An index of the output array lies in point `t`'s block iff each coordinate lies in the block's range. -/
theorem norm7_mem_blk (t : Fin cfg7.N) (i : S50000x64.Idx) :
    i ∈ ((cfg7.win 6).blk t).view.set ↔ ∀ a : Fin 2, win7_6.index t a * S5000x64.size a ≤ (i a).val ∧ (i a).val < win7_6.index t a * S5000x64.size a + S5000x64.size a := by
  show i ∈ ((View.whole main_v96).slice (win7_6.rect t)).set ↔ _
  rw [View.set_slice_whole, Rect.mem_set_unit]
  exact Iff.rfl

/-- Row `r` of the output array is written by point `r / 5000`. -/
theorem norm7_cover (i : S50000x64.Idx) :
    ∃ t : Fin cfg7.N, (cfg7.win 6).flush t = true ∧ i ∈ ((cfg7.win 6).blk t).view.set := by
  have hi0 : (i 0).val < 50000 := (i 0).isLt
  have hi1 : (i 1).val < 64 := (i 1).isLt
  obtain ⟨t, ht⟩ : ∃ t : Fin cfg7.N, t.val = (i 0).val / 5000 :=
    ⟨⟨(i 0).val / 5000, by rw [show cfg7.N = 10 from N_7]; omega⟩, rfl⟩
  obtain ⟨eo0, eo1, e00, e01, e10, e11, e20, e21, e30, e31, e40, e41, e50, e51⟩ := norm7_idx t
  refine ⟨t, flush7_6 t, ?_⟩
  rw [norm7_mem_blk]
  intro a
  match a with
  | ⟨0, _⟩ => show win7_6.index t (0 : Fin 2) * 5000 ≤ (i 0).val ∧ (i 0).val < win7_6.index t (0 : Fin 2) * 5000 + 5000; omega
  | ⟨1, _⟩ => show win7_6.index t (1 : Fin 2) * 64 ≤ (i 1).val ∧ (i 1).val < win7_6.index t (1 : Fin 2) * 64 + 64; omega

/-- The output array after the region: the closed form of the arrays found on entry. -/
theorem final_norm7 (c : Dev nD) :
    (dat7 (F := Ideal) V c).arrAt 6 cfg7.N
      = Cert.Spec.normResG (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) :=
  (dat7 (F := Ideal) V c).arrAt_eq_of_cover 6 (Cert.Spec.normResG (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)))
    (fun t _ => norm7_flushed V c t) (norm7_cover)

end Cert.KernelIdeal.Hand
-- ==== Proof.KI.ChainDefs.lean ====
/-
  The eight-region program's result as a function of its argument arrays, block by block.

  The first block: the pre-activation `x · w + b`, normalised at its column means and at the variance spelt as the mean
  of the squares less the squared mean.  Each later layer: the mean aggregation of the hidden state over the edges, the
  pre-activation `(agg · wl + bl) + h · wr`, its normalisation (the same spelling of the variance), plus the hidden
  state the layer started from.
-/
import proofs.«167925_j62517543961156_1_alg».proof.Proof.KI.HostReads
import proofs.«167925_j62517543961156_1_alg».proof.Proof.Spec

noncomputable section

namespace Cert.KernelIdeal.Hand

open Idealize.ShloMosaic Cert.Spec

variable (x : FVec Ideal Cert.ReferenceIdeal.S50000x19 .f32) (ei : IVec Cert.ReferenceIdeal.S2x800000 32)
  (w_in : FVec Ideal Cert.ReferenceIdeal.S19x64 .f32) (b_in g0 b0 : FVec Ideal Cert.ReferenceIdeal.S64 .f32)
  (wl : FVec Ideal Cert.ReferenceIdeal.S3x64x64 .f32) (bl : FVec Ideal Cert.ReferenceIdeal.S3x64 .f32)
  (wr : FVec Ideal Cert.ReferenceIdeal.S3x64x64 .f32) (g bb : FVec Ideal Cert.ReferenceIdeal.S3x64 .f32)

/-- The first block's pre-activation. -/
def cPre0 : Mat 50000 64 := pre0G x w_in (rowK b_in)

/-- The hidden state after the first block. -/
def cH0 : Mat 50000 64 :=
  normG (cPre0 x w_in b_in) (meanG (cPre0 x w_in b_in)) (varSq (cPre0 x w_in b_in)) (rowK g0) (rowK b0)

/-- Layer `l`'s pre-activation from the hidden state `h`. -/
def cPre (l : Fin 3) (h : Mat 50000 64) : Mat 50000 64 :=
  preLG (Cert.ReferenceIdeal.Hand.refAgg (F := Ideal) h (Cert.ReferenceIdeal.Hand.refSrc ei) (Cert.ReferenceIdeal.Hand.refDst ei) (Cert.ReferenceIdeal.Hand.refDen (Cert.ReferenceIdeal.Hand.refDst ei)))
    (Cert.ReferenceIdeal.Hand.refMat l wl) (rowK (Cert.ReferenceIdeal.Hand.refRow l bl)) h (Cert.ReferenceIdeal.Hand.refMat l wr)

/-- The hidden state after layer `l`, from the hidden state `h` before it. -/
def cStep (l : Fin 3) (h : Mat 50000 64) : Mat 50000 64 :=
  normResG (cPre ei wl bl wr l h) (meanG (cPre ei wl bl wr l h)) (varSq (cPre ei wl bl wr l h))
    (rowK (Cert.ReferenceIdeal.Hand.refRow l g)) (rowK (Cert.ReferenceIdeal.Hand.refRow l bb)) h

/-- The result: three layers over the first block. -/
def cOut : Mat 50000 64 :=
  cStep ei wl bl wr g bb 2 (cStep ei wl bl wr g bb 1 (cStep ei wl bl wr g bb 0 (cH0 x w_in b_in g0 b0)))

end Cert.KernelIdeal.Hand

end
-- ==== Proof.KI.ValueChain.lean ====
/-
  The hidden state of the eight-region program after each block, as a function of the argument arrays.

  Every array a region stages is traced back through the fold of buffer contents to what wrote it — an argument, a host
  stretch's result (named by the reference's function of the stretch's inputs), or an earlier region's output (its
  closed form) — and the regions' closed forms are composed: the statistics region leaves the pre-activation, its column
  means and its variance (the mean of the squares less the squared mean); the normalisation region leaves the
  normalised, rectified pre-activation (plus, from the second block on, the hidden state it started from).
-/
import proofs.«167925_j62517543961156_1_alg».proof.Proof.KI.Steps
import proofs.«167925_j62517543961156_1_alg».proof.Proof.KI.HostReads
import proofs.«167925_j62517543961156_1_alg».proof.Proof.KI.StatsPre0
import proofs.«167925_j62517543961156_1_alg».proof.Proof.KI.StatsPre2
import proofs.«167925_j62517543961156_1_alg».proof.Proof.KI.StatsPre4
import proofs.«167925_j62517543961156_1_alg».proof.Proof.KI.StatsPre6
import proofs.«167925_j62517543961156_1_alg».proof.Proof.KI.StatsValue0
import proofs.«167925_j62517543961156_1_alg».proof.Proof.KI.StatsValue2
import proofs.«167925_j62517543961156_1_alg».proof.Proof.KI.StatsValue4
import proofs.«167925_j62517543961156_1_alg».proof.Proof.KI.StatsValue6
import proofs.«167925_j62517543961156_1_alg».proof.Proof.KI.NormValue1
import proofs.«167925_j62517543961156_1_alg».proof.Proof.KI.NormValue3
import proofs.«167925_j62517543961156_1_alg».proof.Proof.KI.NormValue5
import proofs.«167925_j62517543961156_1_alg».proof.Proof.KI.NormValue7
import proofs.«167925_j62517543961156_1_alg».proof.Proof.Spec
import proofs.«167925_j62517543961156_1_alg».proof.Proof.KI.ChainDefs

set_option maxRecDepth 16384
set_option maxHeartbeats 8000000

noncomputable section

namespace Cert.KernelIdeal.Hand

open Idealize.ShloMosaic Idealize.ShloMosaic.TcCoe Idealize.SL.Sem
open Idealize.ShloMosaic.Pipeline (Dat)
open Cert.KernelIdeal Cert.KernelIdeal.Gen Cert.Spec

variable (m : (ℓ : Loc nD τ sig) → Buf (Elt Ideal) ℓ) (ρ : Dev nD → PrngReg) (c : Dev nD)

/-! ## The edge lists and the denominator, wherever they are read -/
theorem src_at3 : W3 m ρ c (Proc.devRef .tc main_v1) = Cert.ReferenceIdeal.Hand.refSrc (m ((c : Thread nD τ).loc main_arg1)) :=
  ((W3_step m ρ c main_v1 (by decide)).trans (W2_step m ρ c main_v1 (by decide))).trans (read0_src (W0 m ρ c))
theorem dst_at3 : W3 m ρ c (Proc.devRef .tc main_v3) = Cert.ReferenceIdeal.Hand.refDst (m ((c : Thread nD τ).loc main_arg1)) :=
  ((W3_step m ρ c main_v3 (by decide)).trans (W2_step m ρ c main_v3 (by decide))).trans (read0_dst (W0 m ρ c))
theorem den_at3 : W3 m ρ c (Proc.devRef .tc main_v10) = Cert.ReferenceIdeal.Hand.refDen (F := Ideal) (Cert.ReferenceIdeal.Hand.refDst (m ((c : Thread nD τ).loc main_arg1))) :=
  ((W3_step m ρ c main_v10 (by decide)).trans (W2_step m ρ c main_v10 (by decide))).trans (read0_den (W0 m ρ c))
theorem arg6_at3 : W3 m ρ c (Proc.devRef .tc main_arg6) = (m ((c : Thread nD τ).loc main_arg6)) := (((W3_step m ρ c main_arg6 (by decide)).trans (W2_step m ρ c main_arg6 (by decide))).trans (W1_step m ρ c main_arg6 (by decide)))
theorem arg7_at3 : W3 m ρ c (Proc.devRef .tc main_arg7) = (m ((c : Thread nD τ).loc main_arg7)) := (((W3_step m ρ c main_arg7 (by decide)).trans (W2_step m ρ c main_arg7 (by decide))).trans (W1_step m ρ c main_arg7 (by decide)))
theorem arg8_at3 : W3 m ρ c (Proc.devRef .tc main_arg8) = (m ((c : Thread nD τ).loc main_arg8)) := (((W3_step m ρ c main_arg8 (by decide)).trans (W2_step m ρ c main_arg8 (by decide))).trans (W1_step m ρ c main_arg8 (by decide)))
theorem arg9_at3 : W3 m ρ c (Proc.devRef .tc main_arg9) = (m ((c : Thread nD τ).loc main_arg9)) := (((W3_step m ρ c main_arg9 (by decide)).trans (W2_step m ρ c main_arg9 (by decide))).trans (W1_step m ρ c main_arg9 (by decide)))
theorem arg10_at3 : W3 m ρ c (Proc.devRef .tc main_arg10) = (m ((c : Thread nD τ).loc main_arg10)) := (((W3_step m ρ c main_arg10 (by decide)).trans (W2_step m ρ c main_arg10 (by decide))).trans (W1_step m ρ c main_arg10 (by decide)))
theorem src_at6 : W6 m ρ c (Proc.devRef .tc main_v1) = Cert.ReferenceIdeal.Hand.refSrc (m ((c : Thread nD τ).loc main_arg1)) :=
  (((((W6_step m ρ c main_v1 (by decide)).trans (W5_step m ρ c main_v1 (by decide))).trans (W4_step m ρ c main_v1 (by decide))).trans (W3_step m ρ c main_v1 (by decide))).trans (W2_step m ρ c main_v1 (by decide))).trans (read0_src (W0 m ρ c))
theorem dst_at6 : W6 m ρ c (Proc.devRef .tc main_v3) = Cert.ReferenceIdeal.Hand.refDst (m ((c : Thread nD τ).loc main_arg1)) :=
  (((((W6_step m ρ c main_v3 (by decide)).trans (W5_step m ρ c main_v3 (by decide))).trans (W4_step m ρ c main_v3 (by decide))).trans (W3_step m ρ c main_v3 (by decide))).trans (W2_step m ρ c main_v3 (by decide))).trans (read0_dst (W0 m ρ c))
theorem den_at6 : W6 m ρ c (Proc.devRef .tc main_v10) = Cert.ReferenceIdeal.Hand.refDen (F := Ideal) (Cert.ReferenceIdeal.Hand.refDst (m ((c : Thread nD τ).loc main_arg1))) :=
  (((((W6_step m ρ c main_v10 (by decide)).trans (W5_step m ρ c main_v10 (by decide))).trans (W4_step m ρ c main_v10 (by decide))).trans (W3_step m ρ c main_v10 (by decide))).trans (W2_step m ρ c main_v10 (by decide))).trans (read0_den (W0 m ρ c))
theorem arg6_at6 : W6 m ρ c (Proc.devRef .tc main_arg6) = (m ((c : Thread nD τ).loc main_arg6)) := ((((((W6_step m ρ c main_arg6 (by decide)).trans (W5_step m ρ c main_arg6 (by decide))).trans (W4_step m ρ c main_arg6 (by decide))).trans (W3_step m ρ c main_arg6 (by decide))).trans (W2_step m ρ c main_arg6 (by decide))).trans (W1_step m ρ c main_arg6 (by decide)))
theorem arg7_at6 : W6 m ρ c (Proc.devRef .tc main_arg7) = (m ((c : Thread nD τ).loc main_arg7)) := ((((((W6_step m ρ c main_arg7 (by decide)).trans (W5_step m ρ c main_arg7 (by decide))).trans (W4_step m ρ c main_arg7 (by decide))).trans (W3_step m ρ c main_arg7 (by decide))).trans (W2_step m ρ c main_arg7 (by decide))).trans (W1_step m ρ c main_arg7 (by decide)))
theorem arg8_at6 : W6 m ρ c (Proc.devRef .tc main_arg8) = (m ((c : Thread nD τ).loc main_arg8)) := ((((((W6_step m ρ c main_arg8 (by decide)).trans (W5_step m ρ c main_arg8 (by decide))).trans (W4_step m ρ c main_arg8 (by decide))).trans (W3_step m ρ c main_arg8 (by decide))).trans (W2_step m ρ c main_arg8 (by decide))).trans (W1_step m ρ c main_arg8 (by decide)))
theorem arg9_at6 : W6 m ρ c (Proc.devRef .tc main_arg9) = (m ((c : Thread nD τ).loc main_arg9)) := ((((((W6_step m ρ c main_arg9 (by decide)).trans (W5_step m ρ c main_arg9 (by decide))).trans (W4_step m ρ c main_arg9 (by decide))).trans (W3_step m ρ c main_arg9 (by decide))).trans (W2_step m ρ c main_arg9 (by decide))).trans (W1_step m ρ c main_arg9 (by decide)))
theorem arg10_at6 : W6 m ρ c (Proc.devRef .tc main_arg10) = (m ((c : Thread nD τ).loc main_arg10)) := ((((((W6_step m ρ c main_arg10 (by decide)).trans (W5_step m ρ c main_arg10 (by decide))).trans (W4_step m ρ c main_arg10 (by decide))).trans (W3_step m ρ c main_arg10 (by decide))).trans (W2_step m ρ c main_arg10 (by decide))).trans (W1_step m ρ c main_arg10 (by decide)))
theorem src_at9 : W9 m ρ c (Proc.devRef .tc main_v1) = Cert.ReferenceIdeal.Hand.refSrc (m ((c : Thread nD τ).loc main_arg1)) :=
  ((((((((W9_step m ρ c main_v1 (by decide)).trans (W8_step m ρ c main_v1 (by decide))).trans (W7_step m ρ c main_v1 (by decide))).trans (W6_step m ρ c main_v1 (by decide))).trans (W5_step m ρ c main_v1 (by decide))).trans (W4_step m ρ c main_v1 (by decide))).trans (W3_step m ρ c main_v1 (by decide))).trans (W2_step m ρ c main_v1 (by decide))).trans (read0_src (W0 m ρ c))
theorem dst_at9 : W9 m ρ c (Proc.devRef .tc main_v3) = Cert.ReferenceIdeal.Hand.refDst (m ((c : Thread nD τ).loc main_arg1)) :=
  ((((((((W9_step m ρ c main_v3 (by decide)).trans (W8_step m ρ c main_v3 (by decide))).trans (W7_step m ρ c main_v3 (by decide))).trans (W6_step m ρ c main_v3 (by decide))).trans (W5_step m ρ c main_v3 (by decide))).trans (W4_step m ρ c main_v3 (by decide))).trans (W3_step m ρ c main_v3 (by decide))).trans (W2_step m ρ c main_v3 (by decide))).trans (read0_dst (W0 m ρ c))
theorem den_at9 : W9 m ρ c (Proc.devRef .tc main_v10) = Cert.ReferenceIdeal.Hand.refDen (F := Ideal) (Cert.ReferenceIdeal.Hand.refDst (m ((c : Thread nD τ).loc main_arg1))) :=
  ((((((((W9_step m ρ c main_v10 (by decide)).trans (W8_step m ρ c main_v10 (by decide))).trans (W7_step m ρ c main_v10 (by decide))).trans (W6_step m ρ c main_v10 (by decide))).trans (W5_step m ρ c main_v10 (by decide))).trans (W4_step m ρ c main_v10 (by decide))).trans (W3_step m ρ c main_v10 (by decide))).trans (W2_step m ρ c main_v10 (by decide))).trans (read0_den (W0 m ρ c))
theorem arg6_at9 : W9 m ρ c (Proc.devRef .tc main_arg6) = (m ((c : Thread nD τ).loc main_arg6)) := (((((((((W9_step m ρ c main_arg6 (by decide)).trans (W8_step m ρ c main_arg6 (by decide))).trans (W7_step m ρ c main_arg6 (by decide))).trans (W6_step m ρ c main_arg6 (by decide))).trans (W5_step m ρ c main_arg6 (by decide))).trans (W4_step m ρ c main_arg6 (by decide))).trans (W3_step m ρ c main_arg6 (by decide))).trans (W2_step m ρ c main_arg6 (by decide))).trans (W1_step m ρ c main_arg6 (by decide)))
theorem arg7_at9 : W9 m ρ c (Proc.devRef .tc main_arg7) = (m ((c : Thread nD τ).loc main_arg7)) := (((((((((W9_step m ρ c main_arg7 (by decide)).trans (W8_step m ρ c main_arg7 (by decide))).trans (W7_step m ρ c main_arg7 (by decide))).trans (W6_step m ρ c main_arg7 (by decide))).trans (W5_step m ρ c main_arg7 (by decide))).trans (W4_step m ρ c main_arg7 (by decide))).trans (W3_step m ρ c main_arg7 (by decide))).trans (W2_step m ρ c main_arg7 (by decide))).trans (W1_step m ρ c main_arg7 (by decide)))
theorem arg8_at9 : W9 m ρ c (Proc.devRef .tc main_arg8) = (m ((c : Thread nD τ).loc main_arg8)) := (((((((((W9_step m ρ c main_arg8 (by decide)).trans (W8_step m ρ c main_arg8 (by decide))).trans (W7_step m ρ c main_arg8 (by decide))).trans (W6_step m ρ c main_arg8 (by decide))).trans (W5_step m ρ c main_arg8 (by decide))).trans (W4_step m ρ c main_arg8 (by decide))).trans (W3_step m ρ c main_arg8 (by decide))).trans (W2_step m ρ c main_arg8 (by decide))).trans (W1_step m ρ c main_arg8 (by decide)))
theorem arg9_at9 : W9 m ρ c (Proc.devRef .tc main_arg9) = (m ((c : Thread nD τ).loc main_arg9)) := (((((((((W9_step m ρ c main_arg9 (by decide)).trans (W8_step m ρ c main_arg9 (by decide))).trans (W7_step m ρ c main_arg9 (by decide))).trans (W6_step m ρ c main_arg9 (by decide))).trans (W5_step m ρ c main_arg9 (by decide))).trans (W4_step m ρ c main_arg9 (by decide))).trans (W3_step m ρ c main_arg9 (by decide))).trans (W2_step m ρ c main_arg9 (by decide))).trans (W1_step m ρ c main_arg9 (by decide)))
theorem arg10_at9 : W9 m ρ c (Proc.devRef .tc main_arg10) = (m ((c : Thread nD τ).loc main_arg10)) := (((((((((W9_step m ρ c main_arg10 (by decide)).trans (W8_step m ρ c main_arg10 (by decide))).trans (W7_step m ρ c main_arg10 (by decide))).trans (W6_step m ρ c main_arg10 (by decide))).trans (W5_step m ρ c main_arg10 (by decide))).trans (W4_step m ρ c main_arg10 (by decide))).trans (W3_step m ρ c main_arg10 (by decide))).trans (W2_step m ρ c main_arg10 (by decide))).trans (W1_step m ρ c main_arg10 (by decide)))

/-! ## The first block -/

/-- The first block's pre-activation, as the statistics region leaves it. -/
def kPre0 : Mat 50000 64 := pre0G (m ((c : Thread nD τ).loc main_arg0)) (m ((c : Thread nD τ).loc main_arg2)) (rowK (F := Ideal) (m ((c : Thread nD τ).loc main_arg3)))

theorem stats0_in0 : U1 m ρ c (Pipeline.arrRef spec0 0) = (m ((c : Thread nD τ).loc main_arg0)) := W1_step m ρ c main_arg0 (by decide)
theorem stats0_in1 : U1 m ρ c (Pipeline.arrRef spec0 1) = (m ((c : Thread nD τ).loc main_arg2)) := W1_step m ρ c main_arg2 (by decide)
theorem stats0_in2 : U1 m ρ c (Pipeline.arrRef spec0 2) = rowK (F := Ideal) (m ((c : Thread nD τ).loc main_arg3)) := read0_b (W0 m ρ c)
theorem stats0_pre : W2 m ρ c (Proc.devRef .tc main_v14_0) = kPre0 m c :=
  (W2_arr m ρ c 3).trans ((final_stats0_pre (U1 m ρ) c).trans
    (congr (congr (congrArg pre0G (stats0_in0 m ρ c)) (stats0_in1 m ρ c)) (stats0_in2 m ρ c)))
theorem stats0_mean : W2 m ρ c (Proc.devRef .tc main_v14_1) = meanG (kPre0 m c) :=
  (W2_arr m ρ c 4).trans ((final_stats0_mean (U1 m ρ) c).trans
    (congrArg meanG (congr (congr (congrArg pre0G (stats0_in0 m ρ c)) (stats0_in1 m ρ c)) (stats0_in2 m ρ c))))
theorem stats0_var : W2 m ρ c (Proc.devRef .tc main_v14_2) = varSq (kPre0 m c) :=
  (W2_arr m ρ c 5).trans ((final_stats0_var (U1 m ρ) c).trans
    (congrArg varSq (congr (congr (congrArg pre0G (stats0_in0 m ρ c)) (stats0_in1 m ρ c)) (stats0_in2 m ρ c))))
theorem norm1_in3 : U2 m ρ c (Pipeline.arrRef spec1 3) = rowK (F := Ideal) (m ((c : Thread nD τ).loc main_arg4)) := (W2_step m ρ c main_v12 (by decide)).trans (read0_g (W0 m ρ c))
theorem norm1_in4 : U2 m ρ c (Pipeline.arrRef spec1 4) = rowK (F := Ideal) (m ((c : Thread nD τ).loc main_arg5)) := (W2_step m ρ c main_v13 (by decide)).trans (read0_bb (W0 m ρ c))

/-- The hidden state after the first block. -/
def kH0 : Mat 50000 64 := normG (kPre0 m c) (meanG (kPre0 m c)) (varSq (kPre0 m c)) (rowK (F := Ideal) (m ((c : Thread nD τ).loc main_arg4))) (rowK (F := Ideal) (m ((c : Thread nD τ).loc main_arg5)))

theorem h0_eq : W3 m ρ c (Proc.devRef .tc main_v15) = kH0 m c :=
  (W3_arr m ρ c 5).trans ((final_norm1 (U2 m ρ) c).trans
    (congr (congr (congr (congr (congrArg normG (stats0_pre m ρ c)) (stats0_mean m ρ c)) (stats0_var m ρ c))
      (norm1_in3 m ρ c)) (norm1_in4 m ρ c)))

/-! ## Layer 0 -/

/-- Layer 0's mean aggregation of the hidden state it starts from. -/
def kAgg0 : Mat 50000 64 := Cert.ReferenceIdeal.Hand.refAgg (F := Ideal) (kH0 m c) (Cert.ReferenceIdeal.Hand.refSrc (m ((c : Thread nD τ).loc main_arg1))) (Cert.ReferenceIdeal.Hand.refDst (m ((c : Thread nD τ).loc main_arg1))) (Cert.ReferenceIdeal.Hand.refDen (F := Ideal) (Cert.ReferenceIdeal.Hand.refDst (m ((c : Thread nD τ).loc main_arg1))))
/-- Layer 0's pre-activation. -/
def kPre1 : Mat 50000 64 :=
  preLG (kAgg0 m c) (Cert.ReferenceIdeal.Hand.refMat0 (F := Ideal) (m ((c : Thread nD τ).loc main_arg6))) (rowK (F := Ideal) (Cert.ReferenceIdeal.Hand.refRow0 (F := Ideal) (m ((c : Thread nD τ).loc main_arg7)))) (kH0 m c) (Cert.ReferenceIdeal.Hand.refMat0 (F := Ideal) (m ((c : Thread nD τ).loc main_arg8)))

theorem agg0_eq : W4 m ρ c (Proc.devRef .tc main_v27) = kAgg0 m c :=
  (read2_agg (W3 m ρ c)).trans
    (congr (congr (congr (congrArg (Cert.ReferenceIdeal.Hand.refAgg (F := Ideal)) (h0_eq m ρ c)) (src_at3 m ρ c)) (dst_at3 m ρ c)) (den_at3 m ρ c))
theorem wl0_eq : W4 m ρ c (Proc.devRef .tc main_v29) = Cert.ReferenceIdeal.Hand.refMat0 (F := Ideal) (m ((c : Thread nD τ).loc main_arg6)) :=
  (read2_wl (W3 m ρ c)).trans (congrArg (Cert.ReferenceIdeal.Hand.refMat0 (F := Ideal)) (arg6_at3 m ρ c))
theorem bl0_eq : W4 m ρ c (Proc.devRef .tc main_v32) = rowK (F := Ideal) (Cert.ReferenceIdeal.Hand.refRow0 (F := Ideal) (m ((c : Thread nD τ).loc main_arg7))) :=
  (read2_bl (W3 m ρ c)).trans (congrArg (fun v => rowK (F := Ideal) (Cert.ReferenceIdeal.Hand.refRow0 (F := Ideal) v)) (arg7_at3 m ρ c))
theorem g0_eq : W4 m ρ c (Proc.devRef .tc main_v35) = rowK (F := Ideal) (Cert.ReferenceIdeal.Hand.refRow0 (F := Ideal) (m ((c : Thread nD τ).loc main_arg9))) :=
  (read2_g (W3 m ρ c)).trans (congrArg (fun v => rowK (F := Ideal) (Cert.ReferenceIdeal.Hand.refRow0 (F := Ideal) v)) (arg9_at3 m ρ c))
theorem bb0_eq : W4 m ρ c (Proc.devRef .tc main_v38) = rowK (F := Ideal) (Cert.ReferenceIdeal.Hand.refRow0 (F := Ideal) (m ((c : Thread nD τ).loc main_arg10))) :=
  (read2_bb (W3 m ρ c)).trans (congrArg (fun v => rowK (F := Ideal) (Cert.ReferenceIdeal.Hand.refRow0 (F := Ideal) v)) (arg10_at3 m ρ c))
theorem wr0_eq : W4 m ρ c (Proc.devRef .tc main_v40) = Cert.ReferenceIdeal.Hand.refMat0 (F := Ideal) (m ((c : Thread nD τ).loc main_arg8)) :=
  (read2_wr (W3 m ρ c)).trans (congrArg (Cert.ReferenceIdeal.Hand.refMat0 (F := Ideal)) (arg8_at3 m ρ c))
/-- The hidden state the layer starts from is still in its buffer after the stretch. -/
theorem h0_at4 : W4 m ρ c (Proc.devRef .tc main_v15) = kH0 m c := (W4_step m ρ c main_v15 (by decide)).trans (h0_eq m ρ c)

theorem stats2_pre : W5 m ρ c (Proc.devRef .tc main_v41_0) = kPre1 m c :=
  (W5_arr m ρ c 5).trans ((final_stats2_pre (U4 m ρ) c).trans
    (congr (congr (congr (congr (congrArg preLG (agg0_eq m ρ c)) (wl0_eq m ρ c)) (bl0_eq m ρ c)) (h0_at4 m ρ c)) (wr0_eq m ρ c)))
theorem stats2_mean : W5 m ρ c (Proc.devRef .tc main_v41_1) = meanG (kPre1 m c) :=
  (W5_arr m ρ c 6).trans ((final_stats2_mean (U4 m ρ) c).trans
    (congrArg meanG (congr (congr (congr (congr (congrArg preLG (agg0_eq m ρ c)) (wl0_eq m ρ c)) (bl0_eq m ρ c)) (h0_at4 m ρ c)) (wr0_eq m ρ c))))
theorem stats2_var : W5 m ρ c (Proc.devRef .tc main_v41_2) = varSq (kPre1 m c) :=
  (W5_arr m ρ c 7).trans ((final_stats2_var (U4 m ρ) c).trans
    (congrArg varSq (congr (congr (congr (congr (congrArg preLG (agg0_eq m ρ c)) (wl0_eq m ρ c)) (bl0_eq m ρ c)) (h0_at4 m ρ c)) (wr0_eq m ρ c))))

/-- The hidden state after layer 0. -/
def kH1 : Mat 50000 64 :=
  normResG (kPre1 m c) (meanG (kPre1 m c)) (varSq (kPre1 m c)) (rowK (F := Ideal) (Cert.ReferenceIdeal.Hand.refRow0 (F := Ideal) (m ((c : Thread nD τ).loc main_arg9)))) (rowK (F := Ideal) (Cert.ReferenceIdeal.Hand.refRow0 (F := Ideal) (m ((c : Thread nD τ).loc main_arg10)))) (kH0 m c)

theorem h1_eq : W6 m ρ c (Proc.devRef .tc main_v42) = kH1 m c :=
  (W6_arr m ρ c 6).trans ((final_norm3 (U5 m ρ) c).trans
    (congr (congr (congr (congr (congr (congrArg normResG (stats2_pre m ρ c)) (stats2_mean m ρ c)) (stats2_var m ρ c))
      ((W5_step m ρ c main_v35 (by decide)).trans (g0_eq m ρ c))) ((W5_step m ρ c main_v38 (by decide)).trans (bb0_eq m ρ c)))
      ((W5_step m ρ c main_v15 (by decide)).trans (h0_at4 m ρ c))))

/-! ## Layer 1 -/

/-- Layer 1's mean aggregation of the hidden state it starts from. -/
def kAgg1 : Mat 50000 64 := Cert.ReferenceIdeal.Hand.refAgg (F := Ideal) (kH1 m c) (Cert.ReferenceIdeal.Hand.refSrc (m ((c : Thread nD τ).loc main_arg1))) (Cert.ReferenceIdeal.Hand.refDst (m ((c : Thread nD τ).loc main_arg1))) (Cert.ReferenceIdeal.Hand.refDen (F := Ideal) (Cert.ReferenceIdeal.Hand.refDst (m ((c : Thread nD τ).loc main_arg1))))
/-- Layer 1's pre-activation. -/
def kPre2 : Mat 50000 64 :=
  preLG (kAgg1 m c) (Cert.ReferenceIdeal.Hand.refMat1 (F := Ideal) (m ((c : Thread nD τ).loc main_arg6))) (rowK (F := Ideal) (Cert.ReferenceIdeal.Hand.refRow1 (F := Ideal) (m ((c : Thread nD τ).loc main_arg7)))) (kH1 m c) (Cert.ReferenceIdeal.Hand.refMat1 (F := Ideal) (m ((c : Thread nD τ).loc main_arg8)))

theorem agg1_eq : W7 m ρ c (Proc.devRef .tc main_v54) = kAgg1 m c :=
  (read4_agg (W6 m ρ c)).trans
    (congr (congr (congr (congrArg (Cert.ReferenceIdeal.Hand.refAgg (F := Ideal)) (h1_eq m ρ c)) (src_at6 m ρ c)) (dst_at6 m ρ c)) (den_at6 m ρ c))
theorem wl1_eq : W7 m ρ c (Proc.devRef .tc main_v56) = Cert.ReferenceIdeal.Hand.refMat1 (F := Ideal) (m ((c : Thread nD τ).loc main_arg6)) :=
  (read4_wl (W6 m ρ c)).trans (congrArg (Cert.ReferenceIdeal.Hand.refMat1 (F := Ideal)) (arg6_at6 m ρ c))
theorem bl1_eq : W7 m ρ c (Proc.devRef .tc main_v59) = rowK (F := Ideal) (Cert.ReferenceIdeal.Hand.refRow1 (F := Ideal) (m ((c : Thread nD τ).loc main_arg7))) :=
  (read4_bl (W6 m ρ c)).trans (congrArg (fun v => rowK (F := Ideal) (Cert.ReferenceIdeal.Hand.refRow1 (F := Ideal) v)) (arg7_at6 m ρ c))
theorem g1_eq : W7 m ρ c (Proc.devRef .tc main_v62) = rowK (F := Ideal) (Cert.ReferenceIdeal.Hand.refRow1 (F := Ideal) (m ((c : Thread nD τ).loc main_arg9))) :=
  (read4_g (W6 m ρ c)).trans (congrArg (fun v => rowK (F := Ideal) (Cert.ReferenceIdeal.Hand.refRow1 (F := Ideal) v)) (arg9_at6 m ρ c))
theorem bb1_eq : W7 m ρ c (Proc.devRef .tc main_v65) = rowK (F := Ideal) (Cert.ReferenceIdeal.Hand.refRow1 (F := Ideal) (m ((c : Thread nD τ).loc main_arg10))) :=
  (read4_bb (W6 m ρ c)).trans (congrArg (fun v => rowK (F := Ideal) (Cert.ReferenceIdeal.Hand.refRow1 (F := Ideal) v)) (arg10_at6 m ρ c))
theorem wr1_eq : W7 m ρ c (Proc.devRef .tc main_v67) = Cert.ReferenceIdeal.Hand.refMat1 (F := Ideal) (m ((c : Thread nD τ).loc main_arg8)) :=
  (read4_wr (W6 m ρ c)).trans (congrArg (Cert.ReferenceIdeal.Hand.refMat1 (F := Ideal)) (arg8_at6 m ρ c))
/-- The hidden state the layer starts from is still in its buffer after the stretch. -/
theorem h1_at7 : W7 m ρ c (Proc.devRef .tc main_v42) = kH1 m c := (W7_step m ρ c main_v42 (by decide)).trans (h1_eq m ρ c)

theorem stats4_pre : W8 m ρ c (Proc.devRef .tc main_v68_0) = kPre2 m c :=
  (W8_arr m ρ c 5).trans ((final_stats4_pre (U7 m ρ) c).trans
    (congr (congr (congr (congr (congrArg preLG (agg1_eq m ρ c)) (wl1_eq m ρ c)) (bl1_eq m ρ c)) (h1_at7 m ρ c)) (wr1_eq m ρ c)))
theorem stats4_mean : W8 m ρ c (Proc.devRef .tc main_v68_1) = meanG (kPre2 m c) :=
  (W8_arr m ρ c 6).trans ((final_stats4_mean (U7 m ρ) c).trans
    (congrArg meanG (congr (congr (congr (congr (congrArg preLG (agg1_eq m ρ c)) (wl1_eq m ρ c)) (bl1_eq m ρ c)) (h1_at7 m ρ c)) (wr1_eq m ρ c))))
theorem stats4_var : W8 m ρ c (Proc.devRef .tc main_v68_2) = varSq (kPre2 m c) :=
  (W8_arr m ρ c 7).trans ((final_stats4_var (U7 m ρ) c).trans
    (congrArg varSq (congr (congr (congr (congr (congrArg preLG (agg1_eq m ρ c)) (wl1_eq m ρ c)) (bl1_eq m ρ c)) (h1_at7 m ρ c)) (wr1_eq m ρ c))))

/-- The hidden state after layer 1. -/
def kH2 : Mat 50000 64 :=
  normResG (kPre2 m c) (meanG (kPre2 m c)) (varSq (kPre2 m c)) (rowK (F := Ideal) (Cert.ReferenceIdeal.Hand.refRow1 (F := Ideal) (m ((c : Thread nD τ).loc main_arg9)))) (rowK (F := Ideal) (Cert.ReferenceIdeal.Hand.refRow1 (F := Ideal) (m ((c : Thread nD τ).loc main_arg10)))) (kH1 m c)

theorem h2_eq : W9 m ρ c (Proc.devRef .tc main_v69) = kH2 m c :=
  (W9_arr m ρ c 6).trans ((final_norm5 (U8 m ρ) c).trans
    (congr (congr (congr (congr (congr (congrArg normResG (stats4_pre m ρ c)) (stats4_mean m ρ c)) (stats4_var m ρ c))
      ((W8_step m ρ c main_v62 (by decide)).trans (g1_eq m ρ c))) ((W8_step m ρ c main_v65 (by decide)).trans (bb1_eq m ρ c)))
      ((W8_step m ρ c main_v42 (by decide)).trans (h1_at7 m ρ c))))

/-! ## Layer 2 -/

/-- Layer 2's mean aggregation of the hidden state it starts from. -/
def kAgg2 : Mat 50000 64 := Cert.ReferenceIdeal.Hand.refAgg (F := Ideal) (kH2 m c) (Cert.ReferenceIdeal.Hand.refSrc (m ((c : Thread nD τ).loc main_arg1))) (Cert.ReferenceIdeal.Hand.refDst (m ((c : Thread nD τ).loc main_arg1))) (Cert.ReferenceIdeal.Hand.refDen (F := Ideal) (Cert.ReferenceIdeal.Hand.refDst (m ((c : Thread nD τ).loc main_arg1))))
/-- Layer 2's pre-activation. -/
def kPre3 : Mat 50000 64 :=
  preLG (kAgg2 m c) (Cert.ReferenceIdeal.Hand.refMat2 (F := Ideal) (m ((c : Thread nD τ).loc main_arg6))) (rowK (F := Ideal) (Cert.ReferenceIdeal.Hand.refRow2 (F := Ideal) (m ((c : Thread nD τ).loc main_arg7)))) (kH2 m c) (Cert.ReferenceIdeal.Hand.refMat2 (F := Ideal) (m ((c : Thread nD τ).loc main_arg8)))

theorem agg2_eq : W10 m ρ c (Proc.devRef .tc main_v81) = kAgg2 m c :=
  (read6_agg (W9 m ρ c)).trans
    (congr (congr (congr (congrArg (Cert.ReferenceIdeal.Hand.refAgg (F := Ideal)) (h2_eq m ρ c)) (src_at9 m ρ c)) (dst_at9 m ρ c)) (den_at9 m ρ c))
theorem wl2_eq : W10 m ρ c (Proc.devRef .tc main_v83) = Cert.ReferenceIdeal.Hand.refMat2 (F := Ideal) (m ((c : Thread nD τ).loc main_arg6)) :=
  (read6_wl (W9 m ρ c)).trans (congrArg (Cert.ReferenceIdeal.Hand.refMat2 (F := Ideal)) (arg6_at9 m ρ c))
theorem bl2_eq : W10 m ρ c (Proc.devRef .tc main_v86) = rowK (F := Ideal) (Cert.ReferenceIdeal.Hand.refRow2 (F := Ideal) (m ((c : Thread nD τ).loc main_arg7))) :=
  (read6_bl (W9 m ρ c)).trans (congrArg (fun v => rowK (F := Ideal) (Cert.ReferenceIdeal.Hand.refRow2 (F := Ideal) v)) (arg7_at9 m ρ c))
theorem g2_eq : W10 m ρ c (Proc.devRef .tc main_v89) = rowK (F := Ideal) (Cert.ReferenceIdeal.Hand.refRow2 (F := Ideal) (m ((c : Thread nD τ).loc main_arg9))) :=
  (read6_g (W9 m ρ c)).trans (congrArg (fun v => rowK (F := Ideal) (Cert.ReferenceIdeal.Hand.refRow2 (F := Ideal) v)) (arg9_at9 m ρ c))
theorem bb2_eq : W10 m ρ c (Proc.devRef .tc main_v92) = rowK (F := Ideal) (Cert.ReferenceIdeal.Hand.refRow2 (F := Ideal) (m ((c : Thread nD τ).loc main_arg10))) :=
  (read6_bb (W9 m ρ c)).trans (congrArg (fun v => rowK (F := Ideal) (Cert.ReferenceIdeal.Hand.refRow2 (F := Ideal) v)) (arg10_at9 m ρ c))
theorem wr2_eq : W10 m ρ c (Proc.devRef .tc main_v94) = Cert.ReferenceIdeal.Hand.refMat2 (F := Ideal) (m ((c : Thread nD τ).loc main_arg8)) :=
  (read6_wr (W9 m ρ c)).trans (congrArg (Cert.ReferenceIdeal.Hand.refMat2 (F := Ideal)) (arg8_at9 m ρ c))
/-- The hidden state the layer starts from is still in its buffer after the stretch. -/
theorem h2_at10 : W10 m ρ c (Proc.devRef .tc main_v69) = kH2 m c := (W10_step m ρ c main_v69 (by decide)).trans (h2_eq m ρ c)

theorem stats6_pre : W11 m ρ c (Proc.devRef .tc main_v95_0) = kPre3 m c :=
  (W11_arr m ρ c 5).trans ((final_stats6_pre (U10 m ρ) c).trans
    (congr (congr (congr (congr (congrArg preLG (agg2_eq m ρ c)) (wl2_eq m ρ c)) (bl2_eq m ρ c)) (h2_at10 m ρ c)) (wr2_eq m ρ c)))
theorem stats6_mean : W11 m ρ c (Proc.devRef .tc main_v95_1) = meanG (kPre3 m c) :=
  (W11_arr m ρ c 6).trans ((final_stats6_mean (U10 m ρ) c).trans
    (congrArg meanG (congr (congr (congr (congr (congrArg preLG (agg2_eq m ρ c)) (wl2_eq m ρ c)) (bl2_eq m ρ c)) (h2_at10 m ρ c)) (wr2_eq m ρ c))))
theorem stats6_var : W11 m ρ c (Proc.devRef .tc main_v95_2) = varSq (kPre3 m c) :=
  (W11_arr m ρ c 7).trans ((final_stats6_var (U10 m ρ) c).trans
    (congrArg varSq (congr (congr (congr (congr (congrArg preLG (agg2_eq m ρ c)) (wl2_eq m ρ c)) (bl2_eq m ρ c)) (h2_at10 m ρ c)) (wr2_eq m ρ c))))

/-- The hidden state after layer 2. -/
def kH3 : Mat 50000 64 :=
  normResG (kPre3 m c) (meanG (kPre3 m c)) (varSq (kPre3 m c)) (rowK (F := Ideal) (Cert.ReferenceIdeal.Hand.refRow2 (F := Ideal) (m ((c : Thread nD τ).loc main_arg9)))) (rowK (F := Ideal) (Cert.ReferenceIdeal.Hand.refRow2 (F := Ideal) (m ((c : Thread nD τ).loc main_arg10)))) (kH2 m c)

theorem h3_eq : W12 m ρ c (Proc.devRef .tc main_v96) = kH3 m c :=
  (W12_arr m ρ c 6).trans ((final_norm7 (U11 m ρ) c).trans
    (congr (congr (congr (congr (congr (congrArg normResG (stats6_pre m ρ c)) (stats6_mean m ρ c)) (stats6_var m ρ c))
      ((W11_step m ρ c main_v89 (by decide)).trans (g2_eq m ρ c))) ((W11_step m ρ c main_v92 (by decide)).trans (bb2_eq m ρ c)))
      ((W11_step m ρ c main_v69 (by decide)).trans (h2_at10 m ρ c))))

/-- What the last region leaves in the result's array: the hidden state after the third layer. -/
theorem result_eq : (dat7 (F := Ideal) (U11 m ρ) c).arrAt 6 cfg7.N = kH3 m c :=
  (W12_arr m ρ c 6).symm.trans (h3_eq m ρ c)

/-- The hidden state after the third layer is the program's result function of the argument arrays. -/
theorem kH3_eq_cOut : kH3 m c = cOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := rfl

end Cert.KernelIdeal.Hand

end
-- ==== Proof.SpecReal.lean ====
/-
  Real entries, and the two spellings of the variance, for the arrays of `Spec`.

  An array is REAL when every entry is a real number (not an infinity).  Sums of products of reals are real, so the
  matrix products and the pre-activations of real arrays are real; the count word is the real 50000 and `ε` a positive
  real, so the column means of a real array are real, its variance (either spelling) a real that is not negative, and
  every normalised, rectified entry a real that is not negative.  At a real array the two spellings of the variance
  agree, column by column — the one law that joins the two programs —, and so do the two normalisations.
-/
import proofs.«167925_j62517543961156_1_alg».proof.Proof.Spec
import proofs.«167925_j62517543961156_1_alg».proof.Proof.LibBatchNorm

noncomputable section

namespace Cert.Spec

open Idealize.ShloMosaic Idealize.ShloMosaic.ValueIdx
open Cert.Lib.BatchNorm Cert.Lib.BatchStats
open scoped BigOperators

/-- The count word is the real 50000. -/
theorem cntW_eq : cntW = ((50000 : ℝ) : EReal) := by
  unfold cntW
  simp [Ideal.ofBits, Ideal.ieee, -EReal.coe_mul]; norm_num

/-- `ε` is a positive real. -/
theorem epsW_pos : ∃ e : ℝ, 0 < e ∧ epsW = (e : EReal) := by
  refine ⟨((8388608 + 2606508 : ℕ) : ℝ) * (2 : ℝ) ^ ((110 : ℤ) - 127 - 23), by positivity, ?_⟩
  unfold epsW
  simp [Ideal.ofBits, Ideal.ieee, -EReal.coe_mul]

/-- Every entry is a real number. -/
def IsReal {a b : Nat} (z : Mat a b) : Prop := ∀ i, ∃ r : ℝ, z i = (r : EReal)

/-- A finite sum of products of reals is a real. -/
theorem sum_mul_real {ι : Type*} (s : Finset ι) (f g : ι → EReal) (hf : ∀ i, ∃ r : ℝ, f i = (r : EReal))
    (hg : ∀ i, ∃ r : ℝ, g i = (r : EReal)) : ∃ r : ℝ, ∑ i ∈ s, f i * g i = (r : EReal) := by
  choose f' hf' using hf
  choose g' hg' using hg
  refine ⟨∑ i ∈ s, f' i * g' i, ?_⟩
  rw [coe_sum]
  exact Finset.sum_congr rfl fun i _ => by rw [hf', hg', EReal.coe_mul]

theorem matmul_real {n k h : Nat} (x : Mat n k) (w : Mat k h) (hx : IsReal x) (hw : IsReal w) : IsReal (matmul x w) :=
  fun i => sum_mul_real _ _ _ (fun t => hx _) (fun t => hw _)

theorem pre0G_real (x : Mat 50000 19) (w : Mat 19 64) (b : Mat 1 64) (hx : IsReal x) (hw : IsReal w) (hb : IsReal b) :
    IsReal (pre0G x w b) := fun i => by
  obtain ⟨p, hp⟩ := matmul_real x w hx hw i
  obtain ⟨q, hq⟩ := hb (ix2 (0 : Fin 1) (show Fin 64 from i 1))
  exact ⟨p + q, by unfold pre0G; rw [hp, hq, EReal.coe_add]⟩

theorem preLG_real (a : Mat 50000 64) (wl : Mat 64 64) (b : Mat 1 64) (h : Mat 50000 64) (wr : Mat 64 64)
    (ha : IsReal a) (hwl : IsReal wl) (hb : IsReal b) (hh : IsReal h) (hwr : IsReal wr) : IsReal (preLG a wl b h wr) := fun i => by
  obtain ⟨p, hp⟩ := matmul_real a wl ha hwl i
  obtain ⟨q, hq⟩ := hb (ix2 (0 : Fin 1) (show Fin 64 from i 1))
  obtain ⟨s, hs⟩ := matmul_real h wr hh hwr i
  exact ⟨p + q + s, by unfold preLG; rw [hp, hq, hs, EReal.coe_add, EReal.coe_add]⟩

/-- At a real array the two spellings of the variance agree. -/
theorem varSq_eq_varDev (z : Mat 50000 64) (hz : IsReal z) : varSq z = varDev z := by
  funext i
  obtain ⟨p, q, rfl⟩ : ∃ (p : Fin 1) (q : Fin 64), i = ix2 p q := ⟨i 0, i 1, eq_ix2 i⟩
  obtain rfl : p = 0 := Subsingleton.elim _ _
  choose f hf using fun r : Fin 50000 => hz (ix2 r q)
  rw [varSq_apply, varDev_apply, meanG_apply, cntW_eq]
  simp only [hf]
  exact var_two_ways f 50000 (by norm_num) (by simp)

/-- So the normalisation at the one variance is the normalisation at the other. -/
theorem normG_two_ways (z : Mat 50000 64) (hz : IsReal z) (g b : Mat 1 64) :
    normG z (meanG z) (varSq z) g b = normG z (meanG z) (varDev z) g b := by
  rw [varSq_eq_varDev z hz]

/-- The normalisation of a real array at real affine rows is real and not negative. -/
theorem normG_real (z : Mat 50000 64) (hz : IsReal z) (g b : Mat 1 64) (hg : IsReal g) (hb : IsReal b) (i) :
    ∃ y : ℝ, 0 ≤ y ∧ normG z (meanG z) (varDev z) g b i = (y : EReal) := by
  obtain ⟨p, q, rfl⟩ : ∃ (p : Fin 50000) (q : Fin 64), i = ix2 p q := ⟨i 0, i 1, eq_ix2 i⟩
  choose f hf using fun r : Fin 50000 => hz (ix2 r q)
  obtain ⟨e, he, hε⟩ := epsW_pos
  obtain ⟨g', hg'⟩ := hg (ix2 0 q)
  obtain ⟨b', hb'⟩ := hb (ix2 0 q)
  rw [normG_apply, varDev_apply, meanG_apply, cntW_eq]
  unfold normEntry
  simp only [hf, hε, hg', hb']
  exact column_coe f 50000 e g' b' (by norm_num) he p

theorem normG_isReal (z : Mat 50000 64) (hz : IsReal z) (g b : Mat 1 64) (hg : IsReal g) (hb : IsReal b) :
    IsReal (normG z (meanG z) (varDev z) g b) := fun i => by
  obtain ⟨y, -, hy⟩ := normG_real z hz g b hg hb i
  exact ⟨y, hy⟩

theorem normResG_isReal (z : Mat 50000 64) (hz : IsReal z) (g b : Mat 1 64) (hg : IsReal g) (hb : IsReal b)
    (res : Mat 50000 64) (hr : IsReal res) : IsReal (normResG z (meanG z) (varDev z) g b res) := fun i => by
  obtain ⟨y, -, hy⟩ := normG_real z hz g b hg hb i
  obtain ⟨s, hs⟩ := hr i
  exact ⟨y + s, by unfold normResG; rw [hy, hs, EReal.coe_add]⟩

end Cert.Spec

end
-- ==== Proof.LibHostFinite.lean ====
/-
  Real entries through the host's gather and accumulating scatter, at the extended reals.

  An entry of a gather is an entry of its operand, so a gather of an array of real numbers holds real numbers.
  An entry of an accumulating scatter is the operand's entry plus the sum of the update entries that land on it:
  a finite sum of real numbers is a real number, so when the operand and the updates hold real numbers the result
  does, whatever the indices are (an update that lands outside contributes nothing).  General over the shapes and
  the dimension numbers.
-/
import Idealize.ShloMosaic.PureOps.Ideal

noncomputable section

namespace Cert.Lib.HostFinite

open Idealize.ShloMosaic

/-- A finite sum of real numbers is a real number. -/
theorem sum_real {ι : Type*} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by rw [Finset.sum_empty, EReal.coe_zero]⟩
  | insert a s ha ih =>
    obtain ⟨r, hr⟩ := hf a (Finset.mem_insert_self a s)
    obtain ⟨t, ht⟩ := ih (fun i hi => hf i (Finset.mem_insert_of_mem hi))
    exact ⟨r + t, by rw [Finset.sum_insert ha, hr, ht, EReal.coe_add]⟩

/-- A gather of real numbers holds real numbers: each entry is an entry of the operand. -/
theorem gather_real {s si t : Shape} {w : Nat} (d : GatherDims s si t) (x : s.Idx → EReal) (idx : IVec si w)
    (hx : ∀ i, ∃ r : ℝ, x i = (r : EReal)) (j : t.Idx) : ∃ r : ℝ, Host.gather d x idx j = (r : EReal) :=
  hx (d.operandIdx j idx)

/-- The exact accumulating scatter of real updates into real numbers holds real numbers. -/
theorem hostScatterAdd_real {s si su : Shape} (d : ScatterDims s si su) {w : Nat} (x : s.Idx → EReal) (idx : IVec si w)
    (upd : su.Idx → EReal) (hx : ∀ i, ∃ r : ℝ, x i = (r : EReal)) (hu : ∀ j, ∃ r : ℝ, upd j = (r : EReal)) (i : s.Idx) :
    ∃ r : ℝ, Ideal.hostScatterAdd d x idx upd i = (r : EReal) := by
  obtain ⟨a, ha⟩ := hx i
  obtain ⟨b, hb⟩ := sum_real (Finset.univ.filter (fun j => d.resultIdx? j idx = some i)) upd (fun j _ => hu j)
  exact ⟨a + b, by unfold Ideal.hostScatterAdd; rw [ha, hb, EReal.coe_add]⟩

/-- The host program's accumulating scatter, at the extended reals, likewise. -/
theorem scatterAdd_real {φ : FTy} {s si su : Shape} (d : ScatterDims s si su) {w : Nat} (x : FVec Ideal s φ) (idx : IVec si w)
    (upd : FVec Ideal su φ) (hx : ∀ i, ∃ r : ℝ, x i = (r : EReal)) (hu : ∀ j, ∃ r : ℝ, upd j = (r : EReal)) (i : s.Idx) :
    ∃ r : ℝ, Host.scatterAdd d x idx upd i = (r : EReal) :=
  hostScatterAdd_real d x idx upd hx hu i

end Cert.Lib.HostFinite

end
-- ==== Proof.Ref.Layers.lean ====
import proofs.«167925_j62517543961156_1_alg».proof.Proof.Ref.Fns
import proofs.«167925_j62517543961156_1_alg».proof.Proof.SpecReal
import proofs.«167925_j62517543961156_1_alg».proof.Proof.LibHostFinite
import Idealize.ShloMosaic.PureOps.Ideal.Laws
import Idealize.ShloMosaic.Lib.IdealHost
import Idealize.ShloMosaic.Lib.StackMember
import Idealize.ShloMosaic.Lib.Pipeline.Value

noncomputable section

namespace Cert.ReferenceIdeal.Hand

open Cert.ReferenceIdeal Cert.ReferenceIdeal.Gen Idealize.ShloMosaic Idealize.ShloMosaic.ValueIdx Cert.Spec
open scoped BigOperators

/-! The reference's named blocks read on the extended reals, index by index, against the shared specification:
the input projection and a layer's pre-activation are matrix products plus a bias row; a batch normalisation
is the specification's normalisation at the column means and the mean squared deviations (the guard on the
variance's divisor is decided: the divisor is the count 50000, which is positive); the aggregation of an
array of real numbers is an array of real numbers. -/

/-- A length-64 vector as a 1 × 64 row. -/
def rowOf (v : FVec Ideal S64 .f32) : Cert.Spec.Mat 1 64 := fun i => v (ix1 (show Fin 64 from i 1))

theorem rowOf_apply (v : FVec Ideal S64 .f32) (j : Fin 64) : rowOf v (ix2 (0 : Fin 1) j) = v (ix1 j) := rfl

/-- The result as the composition of its blocks. -/
theorem refOut_eq (x : FVec Ideal S50000x19 .f32) (ei : IVec S2x800000 32) (w_in : FVec Ideal S19x64 .f32)
    (b_in g0 b0 : FVec Ideal S64 .f32) (wl : FVec Ideal S3x64x64 .f32) (bl : FVec Ideal S3x64 .f32)
    (wr : FVec Ideal S3x64x64 .f32) (g bb : FVec Ideal S3x64 .f32) :
    refOut (F := Ideal) x ei w_in b_in g0 b0 wl bl wr g bb
      = refLayer 2 (refLayer 1 (refLayer 0 (refBN (refPre0 x w_in b_in) g0 b0)
            (refSrc ei) (refDst ei) (refDen (refDst ei)) wl bl wr g bb)
          (refSrc ei) (refDst ei) (refDen (refDst ei)) wl bl wr g bb)
        (refSrc ei) (refDst ei) (refDen (refDst ei)) wl bl wr g bb := rfl

/-! ### Broadcasts at an index -/

theorem bc1_apply {α : Type} (v : S64.Idx → α) (u : Fin 1) (j : Fin 64) :
    broadcastInDim S1x64 ![1] bcast_S64_S1x64_1 v (ix2 u j) = v (ix1 j) :=
  broadcastInDim_apply _ _ _ _ (ix1 j) (fun a => match a with | ⟨0, _⟩ => rfl)

theorem bc2_apply {α : Type} (w : S1x64.Idx → α) (r : Fin 50000) (j : Fin 64) :
    broadcastInDim S50000x64 ![0, 1] bcast_S1x64_S50000x64_0_1 w (ix2 r j) = w (ix2 (0 : Fin 1) j) :=
  broadcastInDim_apply _ _ _ _ (ix2 (0 : Fin 1) j) (fun a => match a with | ⟨0, _⟩ => rfl | ⟨1, _⟩ => rfl)

theorem rowBc_apply (v : FVec Ideal S64 .f32) (r : Fin 50000) (j : Fin 64) : rowBc v (ix2 r j) = v (ix1 j) := by
  unfold rowBc; rw [bc2_apply, bc1_apply]

theorem bcCol_apply {α : Type} (v : S50000.Idx → α) (r : Fin 50000) (u : Fin 1) :
    broadcastInDim S50000x1 ![0] bcast_S50000_S50000x1_0 v (ix2 r u) = v (ix1 r) :=
  broadcastInDim_apply _ _ _ _ (ix1 r) (fun a => match a with | ⟨0, _⟩ => rfl)

theorem bcDen_apply {α : Type} (d : S50000x1.Idx → α) (r : Fin 50000) (j : Fin 64) :
    broadcastInDim S50000x64 ![0, 1] bcast_S50000x1_S50000x64_0_1 d (ix2 r j) = d (ix2 r (0 : Fin 1)) :=
  broadcastInDim_apply _ _ _ _ (ix2 r (0 : Fin 1)) (fun a => match a with | ⟨0, _⟩ => rfl | ⟨1, _⟩ => rfl)

/-! ### Column sums, means and variances -/

/-- A column sum from the zero word is the sum down the column. -/
theorem colSum_host (y : FVec Ideal S50000x64 .f32) (j : Fin 64) :
    Host.reduceAdd y (constant S_ .f32 0x00000000#32) reducesTo_S50000x64_S64_d0 h_S_ (ix1 j) = ∑ r : Fin 50000, y (ix2 r j) := by
  rw [hostReduceAdd_apply, Ideal.hostReduceAdd_single reducesTo_S50000x64_S64_d0 (by decide : S50000x64.Reduces [0] S64),
    constant_apply, Ideal.ofBits_zero_f32, zero_add]
  refine Finset.sum_congr rfl fun r _ => congrArg y ?_
  funext a
  match a with
  | ⟨0, _⟩ => rfl
  | ⟨1, _⟩ => rfl

theorem refSum_apply (z : FVec Ideal S50000x64 .f32) (j : Fin 64) : refSum z (ix1 j) = ∑ r : Fin 50000, z (ix2 r j) := by
  unfold refSum; exact colSum_host z j

theorem refCnt_apply (k : S64.Idx) : refCnt (F := Ideal) k = cntW := by
  unfold refCnt; rw [broadcastInDim_scalar_apply, constant_apply]; rfl

theorem refEps_apply (k : S64.Idx) : refEps (F := Ideal) k = epsW := by
  unfold refEps; rw [broadcastInDim_scalar_apply, constant_apply]; rfl

theorem refMean_apply (z : FVec Ideal S50000x64 .f32) (j : Fin 64) : refMean z (ix1 j) = meanG z (ix2 (0 : Fin 1) j) := by
  unfold refMean; rw [hostDivf_apply, refSum_apply, refCnt_apply, meanG_apply]

theorem refVarMeanBc_apply (z : FVec Ideal S50000x64 .f32) (r : Fin 50000) (j : Fin 64) :
    refVarMeanBc z (ix2 r j) = meanG z (ix2 (0 : Fin 1) j) := by
  unfold refVarMeanBc
  rw [bc2_apply, hostDivf_apply, bc1_apply, refSum_apply, broadcastInDim_scalar_apply, constant_apply, meanG_apply]
  rfl

/-- The variance's divisor, 50000 less the integer 0 converted, is the count word. -/
theorem refVarN_apply (i : S_.Idx) : refVarN (F := Ideal) i = cntW := by
  unfold refVarN
  rw [subf_apply, constant_apply, sitofp_apply]
  show Ideal.ofBits .f32 0x47435000#32 - (((0#32 : BitVec 32).toInt : ℝ) : EReal) = cntW
  simp [cntW]

/-- The guard on the variance's divisor holds: the divisor is 50000, which is positive, so the guarded
    variance is the unguarded one. -/
theorem refVar_eq (z : FVec Ideal S50000x64 .f32) : refVar z = refVarRaw z := by
  funext j
  unfold refVar
  rw [select_apply, broadcastInDim_scalar_apply, cmpf_apply, refVarN_apply, constant_apply, Ideal.ofBits_zero_f32]
  have hc : FloatOps.cmpf (F := Ideal) (φ := .f32) .ogt cntW 0 = 1#1 := by
    rw [Ideal.cmpf_def, cntW_eq]
    show BitVec.ofBool (decide ((0 : EReal) < ((50000 : ℝ) : EReal))) = 1#1
    rw [decide_eq_true (by exact_mod_cast (by norm_num : (0 : ℝ) < 50000))]
    rfl
  rw [hc, select_one]

theorem refVarRaw_apply (z : FVec Ideal S50000x64 .f32) (j : Fin 64) : refVarRaw z (ix1 j) = varDev z (ix2 (0 : Fin 1) j) := by
  unfold refVarRaw
  rw [hostDivf_apply, colSum_host, broadcastInDim_scalar_apply, refVarN_apply, varDev_apply]
  have hs : ∀ r : Fin 50000, mulf (refDev z) (refDev z) (ix2 r j)
      = (z (ix2 r j) - meanG z (ix2 (0 : Fin 1) j)) * (z (ix2 r j) - meanG z (ix2 (0 : Fin 1) j)) := fun r => by
    rw [mulf_apply]; unfold refDev; rw [subf_apply, refVarMeanBc_apply]
  simp only [hs]

theorem hostRsqrt_apply {s : Shape} (v : FVec Ideal s .f32) (k : s.Idx) : Host.rsqrt v k = Ideal.rsqrt (v k) := rfl

/-! ### The blocks against the specification -/

theorem dot19_apply (x : FVec Ideal S50000x19 .f32) (w : FVec Ideal S19x64 .f32) (r : Fin 50000) (j : Fin 64) :
    Host.dotGeneral dot_S50000x19_S19x64_S50000x64_1_0_0_1_n_n none x w (ix2 r j) = ∑ t : Fin 19, x (ix2 r t) * w (ix2 t j) :=
  StackMember.dotGeneral_plain_apply (m := 50000) (n := 64) (k := 19) none x w r j

theorem dot64_apply (a : FVec Ideal S50000x64 .f32) (w : FVec Ideal S64x64 .f32) (r : Fin 50000) (j : Fin 64) :
    Host.dotGeneral dot_S50000x64_S64x64_S50000x64_1_0_0_1_n_n none a w (ix2 r j) = ∑ t : Fin 64, a (ix2 r t) * w (ix2 t j) :=
  StackMember.dotGeneral_plain_apply (m := 50000) (n := 64) (k := 64) none a w r j

/-- The input projection is the specification's first pre-activation. -/
theorem refPre0_eq (x : FVec Ideal S50000x19 .f32) (w : FVec Ideal S19x64 .f32) (b : FVec Ideal S64 .f32) :
    refPre0 x w b = pre0G x w (rowOf b) := by
  funext i
  obtain ⟨r, j, rfl⟩ : ∃ (r : Fin 50000) (j : Fin 64), i = ix2 r j := ⟨i 0, i 1, eq_ix2 i⟩
  unfold refPre0
  rw [addf_apply, dot19_apply, rowBc_apply, pre0G_apply, rowOf_apply]

/-- A layer's pre-activation is the specification's. -/
theorem refPre_eq (a : FVec Ideal S50000x64 .f32) (wl : FVec Ideal S64x64 .f32) (bl : FVec Ideal S64 .f32)
    (h : FVec Ideal S50000x64 .f32) (wr : FVec Ideal S64x64 .f32) :
    refPre a wl bl h wr = preLG a wl (rowOf bl) h wr := by
  funext i
  obtain ⟨r, j, rfl⟩ : ∃ (r : Fin 50000) (j : Fin 64), i = ix2 r j := ⟨i 0, i 1, eq_ix2 i⟩
  unfold refPre
  rw [addf_apply, addf_apply, dot64_apply, dot64_apply, rowBc_apply, preLG_apply, rowOf_apply]

/-- One batch normalisation with its rectifier is the specification's normalisation at the column means and
    the mean squared deviations. -/
theorem refBN_eq (z : FVec Ideal S50000x64 .f32) (g b : FVec Ideal S64 .f32) :
    refBN z g b = normG z (meanG z) (varDev z) (rowOf g) (rowOf b) := by
  funext i
  obtain ⟨r, j, rfl⟩ : ∃ (r : Fin 50000) (j : Fin 64), i = ix2 r j := ⟨i 0, i 1, eq_ix2 i⟩
  unfold refBN
  rw [maximumf_apply, addf_apply, mulf_apply, mulf_apply, subf_apply, rowBc_apply, rowBc_apply, rowBc_apply, rowBc_apply,
    broadcastInDim_scalar_apply, constant_apply, Ideal.ofBits_zero_f32, refMean_apply, hostRsqrt_apply, addf_apply, refVar_eq,
    refVarRaw_apply, refEps_apply, normG_apply, rowOf_apply, rowOf_apply]
  unfold normEntry
  rfl

/-- One residual layer over its own weights: the specification's normalisation of the pre-activation, plus the layer's input. -/
theorem refLayerCore_eq (h : FVec Ideal S50000x64 .f32) (src dst : IVec S800000 32) (den : FVec Ideal S50000x1 .f32)
    (wl : FVec Ideal S64x64 .f32) (bl : FVec Ideal S64 .f32) (wr : FVec Ideal S64x64 .f32) (g b : FVec Ideal S64 .f32) :
    refLayerCore h src dst den wl bl wr g b
      = normResG (preLG (refAgg h src dst den) wl (rowOf bl) h wr) (meanG (preLG (refAgg h src dst den) wl (rowOf bl) h wr))
          (varDev (preLG (refAgg h src dst den) wl (rowOf bl) h wr)) (rowOf g) (rowOf b) h := by
  funext i
  unfold refLayerCore normResG
  rw [addf_apply, refBN_eq, refPre_eq, add_comm]

/-! ### Real entries through the aggregation -/

/-- The pointwise sum of two arrays of real numbers is an array of real numbers. -/
theorem addf_real {s : Shape} (a b : FVec Ideal s .f32) (ha : ∀ i, ∃ r : ℝ, a i = (r : EReal)) (hb : ∀ i, ∃ r : ℝ, b i = (r : EReal)) :
    ∀ i, ∃ r : ℝ, addf a b i = (r : EReal) := fun i => by
  obtain ⟨p, hp⟩ := ha i
  obtain ⟨q, hq⟩ := hb i
  exact ⟨p + q, by rw [addf_apply, hp, hq, EReal.coe_add]⟩

/-- The denominator is a real number, at least 1, in every row. -/
theorem refDen_real (dst : IVec S800000 32) (r : Fin 50000) (u : Fin 1) :
    ∃ m : ℝ, 1 ≤ m ∧ refDen (F := Ideal) dst (ix2 r u) = (m : EReal) := by
  unfold refDen
  rw [bcCol_apply, maximumf_apply, broadcastInDim_scalar_apply, constant_apply, Ideal.ofBits_one_f32]
  obtain ⟨d, hd⟩ := Cert.Lib.HostFinite.scatterAdd_real scatter_S50000_S800000x1_S800000_n_0_0_1
    (broadcastInDim S50000 ![] bcast_S_S50000 (constant (F := Ideal) S_ .f32 0x00000000#32))
    (broadcastInDim S800000x1 ![0] bcast_S800000_S800000x1_0 dst)
    (broadcastInDim S800000 ![] bcast_S_S800000 (constant (F := Ideal) S_ .f32 0x3F800000#32))
    (fun i => ⟨0, by rw [broadcastInDim_scalar_apply, constant_apply, Ideal.ofBits_zero_f32, EReal.coe_zero]⟩)
    (fun i => ⟨1, by rw [broadcastInDim_scalar_apply, constant_apply, Ideal.ofBits_one_f32, EReal.coe_one]⟩) (ix1 r)
  rw [hd]
  exact ⟨max d 1, le_max_right _ _, by rw [← EReal.coe_one]; exact (EReal.coe_strictMono.monotone.map_max).symm⟩

/-- The mean aggregation of an array of real numbers is an array of real numbers. -/
theorem refAgg_real (h : FVec Ideal S50000x64 .f32) (src dst : IVec S800000 32) (hh : ∀ i, ∃ r : ℝ, h i = (r : EReal)) :
    ∀ i, ∃ r : ℝ, refAgg h src dst (refDen dst) i = (r : EReal) := fun i => by
  obtain ⟨r, j, rfl⟩ : ∃ (r : Fin 50000) (j : Fin 64), i = ix2 r j := ⟨i 0, i 1, eq_ix2 i⟩
  unfold refAgg
  rw [hostDivf_apply, bcDen_apply]
  obtain ⟨m, hm1, hm⟩ := refDen_real dst r (0 : Fin 1)
  obtain ⟨n, hn⟩ := Cert.Lib.HostFinite.scatterAdd_real scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (Host.gather gather_S50000x64_S800000x1_S800000x64_1_0_n_n_0_1_164 h (refIdx src))
    (fun i => ⟨0, by rw [broadcastInDim_scalar_apply, constant_apply, Ideal.ofBits_zero_f32, EReal.coe_zero]⟩)
    (fun k => Cert.Lib.HostFinite.gather_real _ h _ hh k) (ix2 r j)
  rw [hm, hn, Ideal.div_coe (by linarith : m ≠ 0)]
  exact ⟨n * (1 / m), by rw [EReal.coe_mul]⟩

end Cert.ReferenceIdeal.Hand

end
-- ==== Proof.Bridge.lean ====
import proofs.«167925_j62517543961156_1_alg».proof.Proof.KI.ChainDefs
import proofs.«167925_j62517543961156_1_alg».proof.Proof.Ref.Layers
import proofs.«167925_j62517543961156_1_alg».proof.Proof.SpecReal
import Idealize.ShloMosaic.Lib.ValueLayout

noncomputable section

namespace Cert.Hand

open Idealize.ShloMosaic Idealize.ShloMosaic.ValueIdx Cert.Spec Cert.ReferenceIdeal Cert.ReferenceIdeal.Hand

/-! The two programs' results agree on arrays of real numbers. Both are the same chain of blocks, except that one
normalises at the mean of the squares less the squared mean and the other at the mean of the squared deviations:
at an array of real numbers the two variances agree, and every block maps arrays of real numbers to arrays of real
numbers, so the agreement carries from the first block through the three layers. -/

variable (x : FVec Ideal S50000x19 .f32) (ei : IVec S2x800000 32)
  (w_in : FVec Ideal S19x64 .f32) (b_in g0 b0 : FVec Ideal S64 .f32)
  (wl : FVec Ideal S3x64x64 .f32) (bl : FVec Ideal S3x64 .f32)
  (wr : FVec Ideal S3x64x64 .f32) (g bb : FVec Ideal S3x64 .f32)

/-- A length-64 vector reshaped to one row is that vector read along the row. -/
theorem rowK_eq (v : FVec Ideal S64 .f32) : Cert.KernelIdeal.Hand.rowK v = rowOf v := by
  funext i
  obtain ⟨u, j, rfl⟩ : ∃ (u : Fin 1) (j : Fin 64), i = ix2 u j := ⟨i 0, i 1, eq_ix2 i⟩
  unfold Cert.KernelIdeal.Hand.rowK
  exact shapeCast_a_1a_apply v _ u j

/-- The row of a vector of real numbers holds real numbers. -/
theorem rowOf_real (v : FVec Ideal S64 .f32) (hv : ∀ i, ∃ r : ℝ, v i = (r : EReal)) : IsReal (rowOf v) :=
  fun i => hv _

/-- A layer's vector cut out of a stack of real numbers holds real numbers: every entry is an entry of the stack. -/
theorem refRow_real (l : Fin 3) (v : FVec Ideal S3x64 .f32) (hv : ∀ i, ∃ r : ℝ, v i = (r : EReal)) :
    ∀ k, ∃ r : ℝ, refRow l v k = (r : EReal) := fun k => by
  fin_cases l
  · exact hv _
  · exact hv _
  · exact hv _

/-- A layer's matrix cut out of a stack of real numbers holds real numbers. -/
theorem refMat_real (l : Fin 3) (w : FVec Ideal S3x64x64 .f32) (hw : ∀ i, ∃ r : ℝ, w i = (r : EReal)) :
    IsReal (refMat l w) := fun k => by
  fin_cases l
  · exact hw _
  · exact hw _
  · exact hw _

/-- The first block: the two programs' hidden states agree and hold real numbers. -/
theorem h0_eq (hx : ∀ i, ∃ r : ℝ, x i = (r : EReal)) (hw : ∀ i, ∃ r : ℝ, w_in i = (r : EReal))
    (hb : ∀ i, ∃ r : ℝ, b_in i = (r : EReal)) (hg0 : ∀ i, ∃ r : ℝ, g0 i = (r : EReal)) (hb0 : ∀ i, ∃ r : ℝ, b0 i = (r : EReal)) :
    Cert.KernelIdeal.Hand.cH0 x w_in b_in g0 b0 = refH0 x w_in b_in g0 b0
      ∧ IsReal (Cert.KernelIdeal.Hand.cH0 x w_in b_in g0 b0) := by
  have hP : IsReal (pre0G x w_in (rowOf b_in)) := pre0G_real x w_in (rowOf b_in) hx hw (rowOf_real b_in hb)
  have e : Cert.KernelIdeal.Hand.cH0 x w_in b_in g0 b0
      = normG (pre0G x w_in (rowOf b_in)) (meanG (pre0G x w_in (rowOf b_in))) (varDev (pre0G x w_in (rowOf b_in))) (rowOf g0) (rowOf b0) := by
    unfold Cert.KernelIdeal.Hand.cH0 Cert.KernelIdeal.Hand.cPre0
    rw [rowK_eq, rowK_eq, rowK_eq, normG_two_ways _ hP]
  refine ⟨?_, ?_⟩
  · rw [e]; unfold refH0; rw [refBN_eq, refPre0_eq]
  · rw [e]; exact normG_isReal _ hP _ _ (rowOf_real g0 hg0) (rowOf_real b0 hb0)

/-- One layer from a hidden state of real numbers: the two programs' next hidden states agree and hold real numbers. -/
theorem step_eq (hwl : ∀ i, ∃ r : ℝ, wl i = (r : EReal)) (hbl : ∀ i, ∃ r : ℝ, bl i = (r : EReal))
    (hwr : ∀ i, ∃ r : ℝ, wr i = (r : EReal)) (hg : ∀ i, ∃ r : ℝ, g i = (r : EReal)) (hbb : ∀ i, ∃ r : ℝ, bb i = (r : EReal))
    (l : Fin 3) (h : Mat 50000 64) (hh : IsReal h) :
    Cert.KernelIdeal.Hand.cStep ei wl bl wr g bb l h = refStep l ei wl bl wr g bb h
      ∧ IsReal (Cert.KernelIdeal.Hand.cStep ei wl bl wr g bb l h) := by
  have hP : IsReal (preLG (refAgg (F := Ideal) h (refSrc ei) (refDst ei) (refDen (refDst ei))) (refMat l wl) (rowOf (refRow l bl)) h (refMat l wr)) :=
    preLG_real _ _ _ _ _ (refAgg_real h (refSrc ei) (refDst ei) hh) (refMat_real l wl hwl)
      (rowOf_real _ (refRow_real l bl hbl)) hh (refMat_real l wr hwr)
  have e : Cert.KernelIdeal.Hand.cStep ei wl bl wr g bb l h
      = normResG (preLG (refAgg (F := Ideal) h (refSrc ei) (refDst ei) (refDen (refDst ei))) (refMat l wl) (rowOf (refRow l bl)) h (refMat l wr))
          (meanG (preLG (refAgg (F := Ideal) h (refSrc ei) (refDst ei) (refDen (refDst ei))) (refMat l wl) (rowOf (refRow l bl)) h (refMat l wr)))
          (varDev (preLG (refAgg (F := Ideal) h (refSrc ei) (refDst ei) (refDen (refDst ei))) (refMat l wl) (rowOf (refRow l bl)) h (refMat l wr)))
          (rowOf (refRow l g)) (rowOf (refRow l bb)) h := by
    unfold Cert.KernelIdeal.Hand.cStep Cert.KernelIdeal.Hand.cPre
    rw [rowK_eq, rowK_eq, rowK_eq, varSq_eq_varDev _ hP]
  refine ⟨?_, ?_⟩
  · rw [e]; unfold refStep refLayer; rw [refLayerCore_eq]
  · rw [e]; exact normResG_isReal _ hP _ _ (rowOf_real _ (refRow_real l g hg)) (rowOf_real _ (refRow_real l bb hbb)) h hh

/-- On argument arrays of real numbers the two programs' results are equal. -/
theorem bridge (hx : ∀ i, ∃ r : ℝ, x i = (r : EReal)) (hw : ∀ i, ∃ r : ℝ, w_in i = (r : EReal))
    (hb : ∀ i, ∃ r : ℝ, b_in i = (r : EReal)) (hg0 : ∀ i, ∃ r : ℝ, g0 i = (r : EReal)) (hb0 : ∀ i, ∃ r : ℝ, b0 i = (r : EReal))
    (hwl : ∀ i, ∃ r : ℝ, wl i = (r : EReal)) (hbl : ∀ i, ∃ r : ℝ, bl i = (r : EReal))
    (hwr : ∀ i, ∃ r : ℝ, wr i = (r : EReal)) (hg : ∀ i, ∃ r : ℝ, g i = (r : EReal)) (hbb : ∀ i, ∃ r : ℝ, bb i = (r : EReal)) :
    Cert.KernelIdeal.Hand.cOut x ei w_in b_in g0 b0 wl bl wr g bb = refOut (F := Ideal) x ei w_in b_in g0 b0 wl bl wr g bb := by
  obtain ⟨e0, r0⟩ := h0_eq x w_in b_in g0 b0 hx hw hb hg0 hb0
  obtain ⟨e1, r1⟩ := step_eq ei wl bl wr g bb hwl hbl hwr hg hbb 0 _ r0
  obtain ⟨e2, r2⟩ := step_eq ei wl bl wr g bb hwl hbl hwr hg hbb 1 _ r1
  obtain ⟨e3, -⟩ := step_eq ei wl bl wr g bb hwl hbl hwr hg hbb 2 _ r2
  unfold Cert.KernelIdeal.Hand.cOut refOut
  rw [e3, e2, e1, e0]

end Cert.Hand

end
-- ==== Proof.PreReal.lean ====
import proofs.«167925_j62517543961156_1_alg».proof.Pre_finite_inputs
import Idealize.ShloMosaic.Lib.ReduceAll
import Idealize.ShloMosaic.Lib.IdealHost
import Idealize.ShloMosaic.Lib.ValueIdx
import Idealize.ShloMosaic.PureOps.Ideal

/-!
# The precondition, read back: every float argument is an array of reals

The precondition is the conjunction, over the ten float arguments, of "every entry has absolute value below +∞".
On the extended reals an entry with `max x (−x) < ⊤` is neither `⊤` nor `⊥`, so it is (the image of) a real number.
-/

noncomputable section

namespace Cert.Hand

open Idealize.ShloMosaic Idealize.ShloMosaic.ValueIdx
open Cert.Pre_finite_inputs

/-- The scalar shape has one index. -/
instance subsingleton_scalar_idx : Subsingleton Cert.Pre_finite_inputs.S_.Idx := ⟨fun a b => funext fun d => d.elim0⟩

/-- The word the entries are compared against is +∞. -/
theorem inf_word : Ideal.ofBits .f32 0x7F800000#32 = (⊤ : EReal) := by simp [Ideal.ofBits, Ideal.ieee]

/-- An extended real whose absolute value is below +∞ is a real. -/
theorem real_of_abs_lt_top (x : EReal) (h : max x (-x) < ⊤) : ∃ r : ℝ, x = (r : EReal) := by
  induction x using EReal.rec with
  | bot => simp at h
  | coe r => exact ⟨r, rfl⟩
  | top => simp at h

/-- A conjunction of two one-bit arrays over the scalar shape, read at its one index. -/
theorem andi_at (x y : IVec Cert.Pre_finite_inputs.S_ 1) : andi x y ix0 = IntOp.andi (x ix0) (y ix0) := rfl

/-- One conjunct: if "all entries of `|a|` are below the word +∞" holds, every entry of `a` is a real. -/
theorem real_of_all {S : Shape} {axes : List (Fin S.rank)} (a : FVec Ideal S .f32)
    (hb : Cert.Pre_finite_inputs.S_.BroadcastsInDim S (![] : Fin 0 → Fin S.rank)) (hr : S.ReducesTo axes Cert.Pre_finite_inputs.S_)
    (hu : 0 < Cert.Pre_finite_inputs.S_.numel)
    (e : Host.reduce IntOp.andi (cmpf .olt (Host.absf a) (broadcastInDim S ![] hb (constant (F := Ideal) Cert.Pre_finite_inputs.S_ .f32 0x7F800000#32)))
        (constantI Cert.Pre_finite_inputs.S_ 1 1#1) hr hu ix0 = 1#1)
    (i : S.Idx) : ∃ r : ℝ, a i = (r : EReal) := by
  have h1 := Host.reduce_andi_all _ _ hr hu ix0 e i
  have h2 : Ideal.cmp .olt (max (a i) (-(a i)))
      (broadcastInDim S ![] hb (constant (F := Ideal) Cert.Pre_finite_inputs.S_ .f32 0x7F800000#32) i) = 1#1 := h1
  rw [broadcastInDim_scalar_apply, constant_apply, inf_word] at h2
  refine real_of_abs_lt_top (a i) ?_
  by_contra hn
  have h3 : Ideal.cmp .olt (max (a i) (-(a i))) ⊤ = BitVec.ofBool (decide (max (a i) (-(a i)) < ⊤)) := rfl
  rw [h3, decide_eq_false hn] at h2
  exact absurd h2 (by decide)

/-- The precondition at the extended reals gives: all ten float arguments are arrays of reals. -/
theorem pre_real [Cert.Pre_finite_inputs.Facts]
    (a0 : FVec Ideal Cert.Pre_finite_inputs.S50000x19 .f32)
    (a1 : IVec Cert.Pre_finite_inputs.S2x800000 32)
    (a2 : FVec Ideal Cert.Pre_finite_inputs.S19x64 .f32)
    (a3 : FVec Ideal Cert.Pre_finite_inputs.S64 .f32)
    (a4 : FVec Ideal Cert.Pre_finite_inputs.S64 .f32)
    (a5 : FVec Ideal Cert.Pre_finite_inputs.S64 .f32)
    (a6 : FVec Ideal Cert.Pre_finite_inputs.S3x64x64 .f32)
    (a7 : FVec Ideal Cert.Pre_finite_inputs.S3x64 .f32)
    (a8 : FVec Ideal Cert.Pre_finite_inputs.S3x64x64 .f32)
    (a9 : FVec Ideal Cert.Pre_finite_inputs.S3x64 .f32)
    (a10 : FVec Ideal Cert.Pre_finite_inputs.S3x64 .f32)
    (h : Cert.Pre_finite_inputs.fn (F := Ideal) a0 a1 a2 a3 a4 a5 a6 a7 a8 a9 a10 = fun _ => 1#1) :
    (∀ i, ∃ r : ℝ, a0 i = (r : EReal))
      ∧ (∀ i, ∃ r : ℝ, a2 i = (r : EReal))
      ∧ (∀ i, ∃ r : ℝ, a3 i = (r : EReal))
      ∧ (∀ i, ∃ r : ℝ, a4 i = (r : EReal))
      ∧ (∀ i, ∃ r : ℝ, a5 i = (r : EReal))
      ∧ (∀ i, ∃ r : ℝ, a6 i = (r : EReal))
      ∧ (∀ i, ∃ r : ℝ, a7 i = (r : EReal))
      ∧ (∀ i, ∃ r : ℝ, a8 i = (r : EReal))
      ∧ (∀ i, ∃ r : ℝ, a9 i = (r : EReal))
      ∧ (∀ i, ∃ r : ℝ, a10 i = (r : EReal)) := by
  have h0 := congrFun h ix0
  dsimp only [Cert.Pre_finite_inputs.fn, Cert.Pre_finite_inputs.fn_part1, Cert.Pre_finite_inputs.fn_part2] at h0
  simp only [andi_at, IntOp.andi_eq_one] at h0
  obtain ⟨⟨⟨⟨⟨⟨⟨⟨⟨e0, e2⟩, e3⟩, e4⟩, e5⟩, e6⟩, e7⟩, e8⟩, e9⟩, e10⟩ := h0
  exact ⟨real_of_all a0 _ _ _ e0, real_of_all a2 _ _ _ e2, real_of_all a3 _ _ _ e3, real_of_all a4 _ _ _ e4, real_of_all a5 _ _ _ e5, real_of_all a6 _ _ _ e6, real_of_all a7 _ _ _ e7, real_of_all a8 _ _ _ e8, real_of_all a9 _ _ _ e9, real_of_all a10 _ _ _ e10⟩

end Cert.Hand
-- ==== Proof.Algebraic.lean ====
/-
  The two idealized programs end with equal results.

  Run from memories that agree on the eleven argument arrays, the eight-region program ends with its result's buffer at
  the last normalisation's blocks, which is its result function of the arguments (the value chain); the reference ends
  with its result's buffer at its own composed function of the arguments (its run).  Under the precondition every float
  argument holds real numbers, and on real arguments the two functions are equal: they differ only in the spelling of
  the batch variance, and the two spellings agree at real entries, the entries staying real from block to block.
-/
import proofs.«167925_j62517543961156_1_alg».proof.Defs
import proofs.«167925_j62517543961156_1_alg».proof.Proof.Gen.KernelIdeal
import proofs.«167925_j62517543961156_1_alg».proof.Proof.Gen.ReferenceIdeal
import proofs.«167925_j62517543961156_1_alg».proof.Proof.Gen.Pre_finite_inputs
import proofs.«167925_j62517543961156_1_alg».proof.Proof.KI.Frame
import proofs.«167925_j62517543961156_1_alg».proof.Proof.KI.ValueChain
import proofs.«167925_j62517543961156_1_alg».proof.Proof.Ref.Frame
import proofs.«167925_j62517543961156_1_alg».proof.Proof.Bridge
import proofs.«167925_j62517543961156_1_alg».proof.Proof.PreReal

set_option maxRecDepth 16384

noncomputable section

namespace Cert.Hand

open Idealize.ShloMosaic Idealize.ShloMosaic.TcCoe Idealize.SL.Sem

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.ReferenceIdeal.Hand.refOut (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · -- the eight-region program: its run, the value chain, then the bridge at real arguments
    refine (θ_run (Cert.KernelIdeal.defs (F := Ideal)) _ _).mono (fun r h c => ⟨(h c).1.trans ?_, (h c).2⟩)
      (Cert.KernelIdeal.Hand.run_result (F := Ideal) m ρ)
    haveI : Cert.Pre_finite_inputs.Facts := Cert.Pre_finite_inputs.Gen.facts
    obtain ⟨h0, h2, h3, h4, h5, h6, h7, h8, h9, h10⟩ := Cert.Hand.pre_real _ _ _ _ _ _ _ _ _ _ _ (hpre c)
    exact (Cert.KernelIdeal.Hand.result_eq m ρ c).trans ((Cert.KernelIdeal.Hand.kH3_eq_cOut m c).trans
      (Cert.Hand.bridge
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        h0 h2 h3 h4 h5 h6 h7 h8 h9 h10))
  · -- the reference: its run, the arguments' agreement rewritten
    refine (θ_run (Cert.ReferenceIdeal.defs (F := Ideal)) _ _).mono (fun r h c => ⟨?_, (h c).2⟩)
      (Cert.ReferenceIdeal.Hand.run (F := Ideal) m' ρ')
    obtain ⟨e0, e1, e2, e3, e4, e5, e6, e7, e8, e9, e10⟩ := hagree c
    rw [(h c).1, e0, e1, e2, e3, e4, e5, e6, e7, e8, e9, e10]

end Cert.Hand

end
-- ==== Proof.lean ====
/-
  The certificate of the eight-region graph network against its reference.

  Both programs compute a three-layer mean-aggregation graph network over 50000 nodes and 64 features: an input
  projection with a batch normalisation and a rectifier, then three times the mean of the neighbours' hidden states over
  the edges, a linear combination with the node's own hidden state, a batch normalisation, a rectifier and a residual
  addition.  The eight-region program tiles the node axis in ten blocks of 5000 rows: per block of the network a
  statistics region (the pre-activation per tile, the column sums and sums of squares accumulated over the tiles, the
  mean and the variance written at the last tile) and a normalisation region (per tile).

  * The frames.  Each region's body runs at every grid point from its staged blocks (the statistics regions in three
    cases — first, middle, last point — with the two running rows carried from point to point), @main is the regions
    among stretches of host operations, and no item writes an argument; the same text at the word level and on the
    extended reals.  The reference is a host program: its run is its operations in order.
  * Nothing was rewritten between the printed kernel program and its idealization.
  * The results.  On the extended reals the two programs differ in one thing, the spelling of the batch variance — the
    mean of the squares less the squared mean, against the mean of the squared deviations —, and the two agree at real
    entries; finite inputs are real, and every block maps real arrays to real arrays.
-/
import proofs.«167925_j62517543961156_1_alg».proof.Defs
import proofs.«167925_j62517543961156_1_alg».proof.Proof.Gen.Kernel
import proofs.«167925_j62517543961156_1_alg».proof.Proof.Gen.KernelIdeal
import proofs.«167925_j62517543961156_1_alg».proof.Proof.Gen.ReferenceIdeal
import proofs.«167925_j62517543961156_1_alg».proof.Proof.Gen.Pre_finite_inputs
import proofs.«167925_j62517543961156_1_alg».proof.Proof.K.Frame
import proofs.«167925_j62517543961156_1_alg».proof.Proof.KI.Frame
import proofs.«167925_j62517543961156_1_alg».proof.Proof.Ref.Frame
import proofs.«167925_j62517543961156_1_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frameH (F := Bits) m ρ,
    fun m ρ _ => Cert.KernelIdeal.Hand.frameH (F := Ideal) m ρ,
    Cert.ReferenceIdeal.Hand.frame,
    trivial,
    Cert.Hand.algebraic⟩

end Cert.Proof

end
